-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S819200 : Shape := ⟨1, ![819200]⟩
abbrev S500000x128 : Shape := ⟨2, ![500000, 128]⟩
abbrev S50x64x16384 : Shape := ⟨3, ![50, 64, 16384]⟩
abbrev S25600 : Shape := ⟨1, ![25600]⟩
abbrev S128 : Shape := ⟨1, ![128]⟩
abbrev S8x16 : Shape := ⟨2, ![8, 16]⟩
abbrev S128x128 : Shape := ⟨2, ![128, 128]⟩
abbrev S64x128 : Shape := ⟨2, ![64, 128]⟩
abbrev S_ : Shape := ⟨0, ![]⟩
abbrev S16 : Shape := ⟨1, ![16]⟩
abbrev S1x16 : Shape := ⟨2, ![1, 16]⟩
abbrev S1x64x128 : Shape := ⟨3, ![1, 64, 128]⟩
abbrev S16384x50x64 : Shape := ⟨3, ![16384, 50, 64]⟩

abbrev nBuf : Table → Nat
  | .hbm => 6
  | .local .scVector .vmem => 9
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S819200, .i32⟩
  | .hbm, ⟨3, _⟩ => ⟨S500000x128, .f32⟩
  | .hbm, ⟨4, _⟩ => ⟨S50x64x16384, .f32⟩
  | .hbm, ⟨5, _⟩ => ⟨S16384x50x64, .f32⟩
  | .local .scVector .vmem, ⟨0, _⟩ => ⟨S25600, .i32⟩
  | .local .scVector .vmem, ⟨1, _⟩ => ⟨S128, .i32⟩
  | .local .scVector .vmem, ⟨2, _⟩ => ⟨S128, .i32⟩
  | .local .scVector .vmem, ⟨3, _⟩ => ⟨S8x16, .i32⟩
  | .local .scVector .vmem, ⟨4, _⟩ => ⟨S8x16, .i32⟩
  | .local .scVector .vmem, ⟨5, _⟩ => ⟨S128x128, .f32⟩
  | .local .scVector .vmem, ⟨6, _⟩ => ⟨S128x128, .f32⟩
  | .local .scVector .vmem, ⟨7, _⟩ => ⟨S64x128, .f32⟩
  | .local .scVector .vmem, ⟨8, _⟩ => ⟨S64x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c6400_i32 : BitVec 32 := 6400#32
  let v4 : BitVec 32 := Scalar.muli v3 c6400_i32
  ![v4.toNat]

def k0_chk1 (v74 : IVec S16 32) : Prop :=
  (∀ a x, ((![v74] : Fin 1 → IVec S16 32) a x).toNat < S25600.size a)
instance k0_chk1.dec : ∀ (v74 : IVec S16 32), Decidable (k0_chk1 v74) := fun v74 => decidable_of_iff' _ (Iff.of_eq (k0_chk1.eq_1 v74))
theorem k0_idx1_inb : ∀ (v74 : IVec S16 32) (k0_hw1 : k0_chk1 v74), ∀ a x, ((![v74] : Fin 1 → IVec S16 32) a x).toNat < S25600.size a := fun v74 k0_hw1 => k0_hw1

def k0_chk2 (v90 : IVec S16 32) : Prop :=
  (∀ a x, ((![v90] : Fin 1 → IVec S16 32) a x).toNat < S25600.size a)
instance k0_chk2.dec : ∀ (v90 : IVec S16 32), Decidable (k0_chk2 v90) := fun v90 => decidable_of_iff' _ (Iff.of_eq (k0_chk2.eq_1 v90))
theorem k0_idx2_inb : ∀ (v90 : IVec S16 32) (k0_hw2 : k0_chk2 v90), ∀ a x, ((![v90] : Fin 1 → IVec S16 32) a x).toNat < S25600.size a := fun v90 k0_hw2 => k0_hw2

def k0_chk3 (v106 : IVec S16 32) : Prop :=
  (∀ a x, ((![v106] : Fin 1 → IVec S16 32) a x).toNat < S25600.size a)
instance k0_chk3.dec : ∀ (v106 : IVec S16 32), Decidable (k0_chk3 v106) := fun v106 => decidable_of_iff' _ (Iff.of_eq (k0_chk3.eq_1 v106))
theorem k0_idx3_inb : ∀ (v106 : IVec S16 32) (k0_hw3 : k0_chk3 v106), ∀ a x, ((![v106] : Fin 1 → IVec S16 32) a x).toNat < S25600.size a := fun v106 k0_hw3 => k0_hw3

def k0_chk4 (v122 : IVec S16 32) : Prop :=
  (∀ a x, ((![v122] : Fin 1 → IVec S16 32) a x).toNat < S25600.size a)
instance k0_chk4.dec : ∀ (v122 : IVec S16 32), Decidable (k0_chk4 v122) := fun v122 => decidable_of_iff' _ (Iff.of_eq (k0_chk4.eq_1 v122))
theorem k0_idx4_inb : ∀ (v122 : IVec S16 32) (k0_hw4 : k0_chk4 v122), ∀ a x, ((![v122] : Fin 1 → IVec S16 32) a x).toNat < S25600.size a := fun v122 k0_hw4 => k0_hw4

def k0_chk5 (v138 : IVec S16 32) : Prop :=
  (∀ a x, ((![v138] : Fin 1 → IVec S16 32) a x).toNat < S25600.size a)
instance k0_chk5.dec : ∀ (v138 : IVec S16 32), Decidable (k0_chk5 v138) := fun v138 => decidable_of_iff' _ (Iff.of_eq (k0_chk5.eq_1 v138))
theorem k0_idx5_inb : ∀ (v138 : IVec S16 32) (k0_hw5 : k0_chk5 v138), ∀ a x, ((![v138] : Fin 1 → IVec S16 32) a x).toNat < S25600.size a := fun v138 k0_hw5 => k0_hw5

def k0_chk6 (v154 : IVec S16 32) : Prop :=
  (∀ a x, ((![v154] : Fin 1 → IVec S16 32) a x).toNat < S25600.size a)
instance k0_chk6.dec : ∀ (v154 : IVec S16 32), Decidable (k0_chk6 v154) := fun v154 => decidable_of_iff' _ (Iff.of_eq (k0_chk6.eq_1 v154))
theorem k0_idx6_inb : ∀ (v154 : IVec S16 32) (k0_hw6 : k0_chk6 v154), ∀ a x, ((![v154] : Fin 1 → IVec S16 32) a x).toNat < S25600.size a := fun v154 k0_hw6 => k0_hw6

def k0_chk7 (v170 : IVec S16 32) : Prop :=
  (∀ a x, ((![v170] : Fin 1 → IVec S16 32) a x).toNat < S25600.size a)
instance k0_chk7.dec : ∀ (v170 : IVec S16 32), Decidable (k0_chk7 v170) := fun v170 => decidable_of_iff' _ (Iff.of_eq (k0_chk7.eq_1 v170))
theorem k0_idx7_inb : ∀ (v170 : IVec S16 32) (k0_hw7 : k0_chk7 v170), ∀ a x, ((![v170] : Fin 1 → IVec S16 32) a x).toNat < S25600.size a := fun v170 k0_hw7 => k0_hw7

def k0_chk8 (v186 : IVec S16 32) : Prop :=
  (∀ a x, ((![v186] : Fin 1 → IVec S16 32) a x).toNat < S25600.size a)
instance k0_chk8.dec : ∀ (v186 : IVec S16 32), Decidable (k0_chk8 v186) := fun v186 => decidable_of_iff' _ (Iff.of_eq (k0_chk8.eq_1 v186))
theorem k0_idx8_inb : ∀ (v186 : IVec S16 32) (k0_hw8 : k0_chk8 v186), ∀ a x, ((![v186] : Fin 1 → IVec S16 32) a x).toNat < S25600.size a := fun v186 k0_hw8 => k0_hw8

def k0_chk9 (v203 : IVec S16 32) : Prop :=
  (∀ a x, ((![v203] : Fin 1 → IVec S16 32) a x).toNat < S25600.size a)
instance k0_chk9.dec : ∀ (v203 : IVec S16 32), Decidable (k0_chk9 v203) := fun v203 => decidable_of_iff' _ (Iff.of_eq (k0_chk9.eq_1 v203))
theorem k0_idx9_inb : ∀ (v203 : IVec S16 32) (k0_hw9 : k0_chk9 v203), ∀ a x, ((![v203] : Fin 1 → IVec S16 32) a x).toNat < S25600.size a := fun v203 k0_hw9 => k0_hw9

def k0_chk10 (v219 : IVec S16 32) : Prop :=
  (∀ a x, ((![v219] : Fin 1 → IVec S16 32) a x).toNat < S25600.size a)
instance k0_chk10.dec : ∀ (v219 : IVec S16 32), Decidable (k0_chk10 v219) := fun v219 => decidable_of_iff' _ (Iff.of_eq (k0_chk10.eq_1 v219))
theorem k0_idx10_inb : ∀ (v219 : IVec S16 32) (k0_hw10 : k0_chk10 v219), ∀ a x, ((![v219] : Fin 1 → IVec S16 32) a x).toNat < S25600.size a := fun v219 k0_hw10 => k0_hw10

def k0_chk11 (v235 : IVec S16 32) : Prop :=
  (∀ a x, ((![v235] : Fin 1 → IVec S16 32) a x).toNat < S25600.size a)
instance k0_chk11.dec : ∀ (v235 : IVec S16 32), Decidable (k0_chk11 v235) := fun v235 => decidable_of_iff' _ (Iff.of_eq (k0_chk11.eq_1 v235))
theorem k0_idx11_inb : ∀ (v235 : IVec S16 32) (k0_hw11 : k0_chk11 v235), ∀ a x, ((![v235] : Fin 1 → IVec S16 32) a x).toNat < S25600.size a := fun v235 k0_hw11 => k0_hw11

def k0_chk12 (v251 : IVec S16 32) : Prop :=
  (∀ a x, ((![v251] : Fin 1 → IVec S16 32) a x).toNat < S25600.size a)
instance k0_chk12.dec : ∀ (v251 : IVec S16 32), Decidable (k0_chk12 v251) := fun v251 => decidable_of_iff' _ (Iff.of_eq (k0_chk12.eq_1 v251))
theorem k0_idx12_inb : ∀ (v251 : IVec S16 32) (k0_hw12 : k0_chk12 v251), ∀ a x, ((![v251] : Fin 1 → IVec S16 32) a x).toNat < S25600.size a := fun v251 k0_hw12 => k0_hw12

def k0_chk13 (v267 : IVec S16 32) : Prop :=
  (∀ a x, ((![v267] : Fin 1 → IVec S16 32) a x).toNat < S25600.size a)
instance k0_chk13.dec : ∀ (v267 : IVec S16 32), Decidable (k0_chk13 v267) := fun v267 => decidable_of_iff' _ (Iff.of_eq (k0_chk13.eq_1 v267))
theorem k0_idx13_inb : ∀ (v267 : IVec S16 32) (k0_hw13 : k0_chk13 v267), ∀ a x, ((![v267] : Fin 1 → IVec S16 32) a x).toNat < S25600.size a := fun v267 k0_hw13 => k0_hw13

def k0_chk14 (v283 : IVec S16 32) : Prop :=
  (∀ a x, ((![v283] : Fin 1 → IVec S16 32) a x).toNat < S25600.size a)
instance k0_chk14.dec : ∀ (v283 : IVec S16 32), Decidable (k0_chk14 v283) := fun v283 => decidable_of_iff' _ (Iff.of_eq (k0_chk14.eq_1 v283))
theorem k0_idx14_inb : ∀ (v283 : IVec S16 32) (k0_hw14 : k0_chk14 v283), ∀ a x, ((![v283] : Fin 1 → IVec S16 32) a x).toNat < S25600.size a := fun v283 k0_hw14 => k0_hw14

def k0_chk15 (v299 : IVec S16 32) : Prop :=
  (∀ a x, ((![v299] : Fin 1 → IVec S16 32) a x).toNat < S25600.size a)
instance k0_chk15.dec : ∀ (v299 : IVec S16 32), Decidable (k0_chk15 v299) := fun v299 => decidable_of_iff' _ (Iff.of_eq (k0_chk15.eq_1 v299))
theorem k0_idx15_inb : ∀ (v299 : IVec S16 32) (k0_hw15 : k0_chk15 v299), ∀ a x, ((![v299] : Fin 1 → IVec S16 32) a x).toNat < S25600.size a := fun v299 k0_hw15 => k0_hw15

def k0_chk16 (v315 : IVec S16 32) : Prop :=
  (∀ a x, ((![v315] : Fin 1 → IVec S16 32) a x).toNat < S25600.size a)
instance k0_chk16.dec : ∀ (v315 : IVec S16 32), Decidable (k0_chk16 v315) := fun v315 => decidable_of_iff' _ (Iff.of_eq (k0_chk16.eq_1 v315))
theorem k0_idx16_inb : ∀ (v315 : IVec S16 32) (k0_hw16 : k0_chk16 v315), ∀ a x, ((![v315] : Fin 1 → IVec S16 32) a x).toNat < S25600.size a := fun v315 k0_hw16 => k0_hw16
@[reducible] def k0_t1_loop : Scf.Loop 32 :=
  let c0_i32_153 : BitVec 32 := 0#32
  let c8_i32_154 : BitVec 32 := 8#32
  let v328 : BitVec 32 := Scalar.addi c0_i32_153 c8_i32_154
  let c1_i32_155 : BitVec 32 := 1#32
  ⟨c0_i32_153, v328, c1_i32_155⟩
def k0_off2 (k0_t1 : Fin k0_t1_loop.trips) : Fin 2 → Nat :=
  let c0_i32_153 : BitVec 32 := 0#32
  let c1_i32_155 : BitVec 32 := 1#32
  let arg18 : BitVec 32 := Scf.iv c0_i32_153 c1_i32_155 k0_t1
  let v360 : Index := Scalar.indexCast arg18
  let c0_190 : Index := 0#32
  ![v360.toNat, 0]

def k0_chk17 (v364 : IVec S16 32) (v367 : IVec S16 32) : Prop :=
  (∀ a x, ((![v364, v367] : Fin 2 → IVec S16 32) a x).toNat < S128x128.size a)
instance k0_chk17.dec : ∀ (v364 : IVec S16 32) (v367 : IVec S16 32), Decidable (k0_chk17 v364 v367) := fun v364 v367 => decidable_of_iff' _ (Iff.of_eq (k0_chk17.eq_1 v364 v367))
theorem k0_idx17_inb : ∀ (v364 : IVec S16 32) (v367 : IVec S16 32) (k0_hw17 : k0_chk17 v364 v367), ∀ a x, ((![v364, v367] : Fin 2 → IVec S16 32) a x).toNat < S128x128.size a := fun v364 v367 k0_hw17 => k0_hw17

def k0_chk18 (v364 : IVec S16 32) (v369 : IVec S16 32) : Prop :=
  (∀ a x, ((![v364, v369] : Fin 2 → IVec S16 32) a x).toNat < S128x128.size a)
instance k0_chk18.dec : ∀ (v364 : IVec S16 32) (v369 : IVec S16 32), Decidable (k0_chk18 v364 v369) := fun v364 v369 => decidable_of_iff' _ (Iff.of_eq (k0_chk18.eq_1 v364 v369))
theorem k0_idx18_inb : ∀ (v364 : IVec S16 32) (v369 : IVec S16 32) (k0_hw18 : k0_chk18 v364 v369), ∀ a x, ((![v364, v369] : Fin 2 → IVec S16 32) a x).toNat < S128x128.size a := fun v364 v369 k0_hw18 => k0_hw18

def k0_chk19 (v364 : IVec S16 32) (v371 : IVec S16 32) : Prop :=
  (∀ a x, ((![v364, v371] : Fin 2 → IVec S16 32) a x).toNat < S128x128.size a)
instance k0_chk19.dec : ∀ (v364 : IVec S16 32) (v371 : IVec S16 32), Decidable (k0_chk19 v364 v371) := fun v364 v371 => decidable_of_iff' _ (Iff.of_eq (k0_chk19.eq_1 v364 v371))
theorem k0_idx19_inb : ∀ (v364 : IVec S16 32) (v371 : IVec S16 32) (k0_hw19 : k0_chk19 v364 v371), ∀ a x, ((![v364, v371] : Fin 2 → IVec S16 32) a x).toNat < S128x128.size a := fun v364 v371 k0_hw19 => k0_hw19

def k0_chk20 (v364 : IVec S16 32) (v373 : IVec S16 32) : Prop :=
  (∀ a x, ((![v364, v373] : Fin 2 → IVec S16 32) a x).toNat < S128x128.size a)
instance k0_chk20.dec : ∀ (v364 : IVec S16 32) (v373 : IVec S16 32), Decidable (k0_chk20 v364 v373) := fun v364 v373 => decidable_of_iff' _ (Iff.of_eq (k0_chk20.eq_1 v364 v373))
theorem k0_idx20_inb : ∀ (v364 : IVec S16 32) (v373 : IVec S16 32) (k0_hw20 : k0_chk20 v364 v373), ∀ a x, ((![v364, v373] : Fin 2 → IVec S16 32) a x).toNat < S128x128.size a := fun v364 v373 k0_hw20 => k0_hw20

def k0_chk21 (v364 : IVec S16 32) (v375 : IVec S16 32) : Prop :=
  (∀ a x, ((![v364, v375] : Fin 2 → IVec S16 32) a x).toNat < S128x128.size a)
instance k0_chk21.dec : ∀ (v364 : IVec S16 32) (v375 : IVec S16 32), Decidable (k0_chk21 v364 v375) := fun v364 v375 => decidable_of_iff' _ (Iff.of_eq (k0_chk21.eq_1 v364 v375))
theorem k0_idx21_inb : ∀ (v364 : IVec S16 32) (v375 : IVec S16 32) (k0_hw21 : k0_chk21 v364 v375), ∀ a x, ((![v364, v375] : Fin 2 → IVec S16 32) a x).toNat < S128x128.size a := fun v364 v375 k0_hw21 => k0_hw21

def k0_chk22 (v364 : IVec S16 32) (v377 : IVec S16 32) : Prop :=
  (∀ a x, ((![v364, v377] : Fin 2 → IVec S16 32) a x).toNat < S128x128.size a)
instance k0_chk22.dec : ∀ (v364 : IVec S16 32) (v377 : IVec S16 32), Decidable (k0_chk22 v364 v377) := fun v364 v377 => decidable_of_iff' _ (Iff.of_eq (k0_chk22.eq_1 v364 v377))
theorem k0_idx22_inb : ∀ (v364 : IVec S16 32) (v377 : IVec S16 32) (k0_hw22 : k0_chk22 v364 v377), ∀ a x, ((![v364, v377] : Fin 2 → IVec S16 32) a x).toNat < S128x128.size a := fun v364 v377 k0_hw22 => k0_hw22

def k0_chk23 (v364 : IVec S16 32) (v379 : IVec S16 32) : Prop :=
  (∀ a x, ((![v364, v379] : Fin 2 → IVec S16 32) a x).toNat < S128x128.size a)
instance k0_chk23.dec : ∀ (v364 : IVec S16 32) (v379 : IVec S16 32), Decidable (k0_chk23 v364 v379) := fun v364 v379 => decidable_of_iff' _ (Iff.of_eq (k0_chk23.eq_1 v364 v379))
theorem k0_idx23_inb : ∀ (v364 : IVec S16 32) (v379 : IVec S16 32) (k0_hw23 : k0_chk23 v364 v379), ∀ a x, ((![v364, v379] : Fin 2 → IVec S16 32) a x).toNat < S128x128.size a := fun v364 v379 k0_hw23 => k0_hw23

def k0_chk24 (v364 : IVec S16 32) (v381 : IVec S16 32) : Prop :=
  (∀ a x, ((![v364, v381] : Fin 2 → IVec S16 32) a x).toNat < S128x128.size a)
instance k0_chk24.dec : ∀ (v364 : IVec S16 32) (v381 : IVec S16 32), Decidable (k0_chk24 v364 v381) := fun v364 v381 => decidable_of_iff' _ (Iff.of_eq (k0_chk24.eq_1 v364 v381))
theorem k0_idx24_inb : ∀ (v364 : IVec S16 32) (v381 : IVec S16 32) (k0_hw24 : k0_chk24 v364 v381), ∀ a x, ((![v364, v381] : Fin 2 → IVec S16 32) a x).toNat < S128x128.size a := fun v364 v381 k0_hw24 => k0_hw24

def k0_chk25 (v364 : IVec S16 32) (v383 : IVec S16 32) : Prop :=
  (∀ a x, ((![v364, v383] : Fin 2 → IVec S16 32) a x).toNat < S128x128.size a)
instance k0_chk25.dec : ∀ (v364 : IVec S16 32) (v383 : IVec S16 32), Decidable (k0_chk25 v364 v383) := fun v364 v383 => decidable_of_iff' _ (Iff.of_eq (k0_chk25.eq_1 v364 v383))
theorem k0_idx25_inb : ∀ (v364 : IVec S16 32) (v383 : IVec S16 32) (k0_hw25 : k0_chk25 v364 v383), ∀ a x, ((![v364, v383] : Fin 2 → IVec S16 32) a x).toNat < S128x128.size a := fun v364 v383 k0_hw25 => k0_hw25

def k0_chk26 (v364 : IVec S16 32) (v385 : IVec S16 32) : Prop :=
  (∀ a x, ((![v364, v385] : Fin 2 → IVec S16 32) a x).toNat < S128x128.size a)
instance k0_chk26.dec : ∀ (v364 : IVec S16 32) (v385 : IVec S16 32), Decidable (k0_chk26 v364 v385) := fun v364 v385 => decidable_of_iff' _ (Iff.of_eq (k0_chk26.eq_1 v364 v385))
theorem k0_idx26_inb : ∀ (v364 : IVec S16 32) (v385 : IVec S16 32) (k0_hw26 : k0_chk26 v364 v385), ∀ a x, ((![v364, v385] : Fin 2 → IVec S16 32) a x).toNat < S128x128.size a := fun v364 v385 k0_hw26 => k0_hw26

def k0_chk27 (v364 : IVec S16 32) (v387 : IVec S16 32) : Prop :=
  (∀ a x, ((![v364, v387] : Fin 2 → IVec S16 32) a x).toNat < S128x128.size a)
instance k0_chk27.dec : ∀ (v364 : IVec S16 32) (v387 : IVec S16 32), Decidable (k0_chk27 v364 v387) := fun v364 v387 => decidable_of_iff' _ (Iff.of_eq (k0_chk27.eq_1 v364 v387))
theorem k0_idx27_inb : ∀ (v364 : IVec S16 32) (v387 : IVec S16 32) (k0_hw27 : k0_chk27 v364 v387), ∀ a x, ((![v364, v387] : Fin 2 → IVec S16 32) a x).toNat < S128x128.size a := fun v364 v387 k0_hw27 => k0_hw27

def k0_chk28 (v364 : IVec S16 32) (v389 : IVec S16 32) : Prop :=
  (∀ a x, ((![v364, v389] : Fin 2 → IVec S16 32) a x).toNat < S128x128.size a)
instance k0_chk28.dec : ∀ (v364 : IVec S16 32) (v389 : IVec S16 32), Decidable (k0_chk28 v364 v389) := fun v364 v389 => decidable_of_iff' _ (Iff.of_eq (k0_chk28.eq_1 v364 v389))
theorem k0_idx28_inb : ∀ (v364 : IVec S16 32) (v389 : IVec S16 32) (k0_hw28 : k0_chk28 v364 v389), ∀ a x, ((![v364, v389] : Fin 2 → IVec S16 32) a x).toNat < S128x128.size a := fun v364 v389 k0_hw28 => k0_hw28

def k0_chk29 (v364 : IVec S16 32) (v391 : IVec S16 32) : Prop :=
  (∀ a x, ((![v364, v391] : Fin 2 → IVec S16 32) a x).toNat < S128x128.size a)
instance k0_chk29.dec : ∀ (v364 : IVec S16 32) (v391 : IVec S16 32), Decidable (k0_chk29 v364 v391) := fun v364 v391 => decidable_of_iff' _ (Iff.of_eq (k0_chk29.eq_1 v364 v391))
theorem k0_idx29_inb : ∀ (v364 : IVec S16 32) (v391 : IVec S16 32) (k0_hw29 : k0_chk29 v364 v391), ∀ a x, ((![v364, v391] : Fin 2 → IVec S16 32) a x).toNat < S128x128.size a := fun v364 v391 k0_hw29 => k0_hw29

def k0_chk30 (v364 : IVec S16 32) (v393 : IVec S16 32) : Prop :=
  (∀ a x, ((![v364, v393] : Fin 2 → IVec S16 32) a x).toNat < S128x128.size a)
instance k0_chk30.dec : ∀ (v364 : IVec S16 32) (v393 : IVec S16 32), Decidable (k0_chk30 v364 v393) := fun v364 v393 => decidable_of_iff' _ (Iff.of_eq (k0_chk30.eq_1 v364 v393))
theorem k0_idx30_inb : ∀ (v364 : IVec S16 32) (v393 : IVec S16 32) (k0_hw30 : k0_chk30 v364 v393), ∀ a x, ((![v364, v393] : Fin 2 → IVec S16 32) a x).toNat < S128x128.size a := fun v364 v393 k0_hw30 => k0_hw30

def k0_chk31 (v364 : IVec S16 32) (v395 : IVec S16 32) : Prop :=
  (∀ a x, ((![v364, v395] : Fin 2 → IVec S16 32) a x).toNat < S128x128.size a)
instance k0_chk31.dec : ∀ (v364 : IVec S16 32) (v395 : IVec S16 32), Decidable (k0_chk31 v364 v395) := fun v364 v395 => decidable_of_iff' _ (Iff.of_eq (k0_chk31.eq_1 v364 v395))
theorem k0_idx31_inb : ∀ (v364 : IVec S16 32) (v395 : IVec S16 32) (k0_hw31 : k0_chk31 v364 v395), ∀ a x, ((![v364, v395] : Fin 2 → IVec S16 32) a x).toNat < S128x128.size a := fun v364 v395 k0_hw31 => k0_hw31

def k0_chk32 (v364 : IVec S16 32) (v397 : IVec S16 32) : Prop :=
  (∀ a x, ((![v364, v397] : Fin 2 → IVec S16 32) a x).toNat < S128x128.size a)
instance k0_chk32.dec : ∀ (v364 : IVec S16 32) (v397 : IVec S16 32), Decidable (k0_chk32 v364 v397) := fun v364 v397 => decidable_of_iff' _ (Iff.of_eq (k0_chk32.eq_1 v364 v397))
theorem k0_idx32_inb : ∀ (v364 : IVec S16 32) (v397 : IVec S16 32) (k0_hw32 : k0_chk32 v364 v397), ∀ a x, ((![v364, v397] : Fin 2 → IVec S16 32) a x).toNat < S128x128.size a := fun v364 v397 k0_hw32 => k0_hw32

def k0_chk33 (v364 : IVec S16 32) (v400 : IVec S16 32) : Prop :=
  (∀ a x, ((![v400, v364] : Fin 2 → IVec S16 32) a x).toNat < S64x128.size a)
instance k0_chk33.dec : ∀ (v364 : IVec S16 32) (v400 : IVec S16 32), Decidable (k0_chk33 v364 v400) := fun v364 v400 => decidable_of_iff' _ (Iff.of_eq (k0_chk33.eq_1 v364 v400))
theorem k0_idx33_inb : ∀ (v364 : IVec S16 32) (v400 : IVec S16 32) (k0_hw33 : k0_chk33 v364 v400), ∀ a x, ((![v400, v364] : Fin 2 → IVec S16 32) a x).toNat < S64x128.size a := fun v364 v400 k0_hw33 => k0_hw33

def k0_chk34 (v364 : IVec S16 32) (v402 : IVec S16 32) : Prop :=
  (∀ a x, ((![v402, v364] : Fin 2 → IVec S16 32) a x).toNat < S64x128.size a)
instance k0_chk34.dec : ∀ (v364 : IVec S16 32) (v402 : IVec S16 32), Decidable (k0_chk34 v364 v402) := fun v364 v402 => decidable_of_iff' _ (Iff.of_eq (k0_chk34.eq_1 v364 v402))
theorem k0_idx34_inb : ∀ (v364 : IVec S16 32) (v402 : IVec S16 32) (k0_hw34 : k0_chk34 v364 v402), ∀ a x, ((![v402, v364] : Fin 2 → IVec S16 32) a x).toNat < S64x128.size a := fun v364 v402 k0_hw34 => k0_hw34

def k0_chk35 (v364 : IVec S16 32) (v404 : IVec S16 32) : Prop :=
  (∀ a x, ((![v404, v364] : Fin 2 → IVec S16 32) a x).toNat < S64x128.size a)
instance k0_chk35.dec : ∀ (v364 : IVec S16 32) (v404 : IVec S16 32), Decidable (k0_chk35 v364 v404) := fun v364 v404 => decidable_of_iff' _ (Iff.of_eq (k0_chk35.eq_1 v364 v404))
theorem k0_idx35_inb : ∀ (v364 : IVec S16 32) (v404 : IVec S16 32) (k0_hw35 : k0_chk35 v364 v404), ∀ a x, ((![v404, v364] : Fin 2 → IVec S16 32) a x).toNat < S64x128.size a := fun v364 v404 k0_hw35 => k0_hw35

def k0_chk36 (v364 : IVec S16 32) (v406 : IVec S16 32) : Prop :=
  (∀ a x, ((![v406, v364] : Fin 2 → IVec S16 32) a x).toNat < S64x128.size a)
instance k0_chk36.dec : ∀ (v364 : IVec S16 32) (v406 : IVec S16 32), Decidable (k0_chk36 v364 v406) := fun v364 v406 => decidable_of_iff' _ (Iff.of_eq (k0_chk36.eq_1 v364 v406))
theorem k0_idx36_inb : ∀ (v364 : IVec S16 32) (v406 : IVec S16 32) (k0_hw36 : k0_chk36 v364 v406), ∀ a x, ((![v406, v364] : Fin 2 → IVec S16 32) a x).toNat < S64x128.size a := fun v364 v406 k0_hw36 => k0_hw36

def k0_chk37 (v364 : IVec S16 32) (v408 : IVec S16 32) : Prop :=
  (∀ a x, ((![v408, v364] : Fin 2 → IVec S16 32) a x).toNat < S64x128.size a)
instance k0_chk37.dec : ∀ (v364 : IVec S16 32) (v408 : IVec S16 32), Decidable (k0_chk37 v364 v408) := fun v364 v408 => decidable_of_iff' _ (Iff.of_eq (k0_chk37.eq_1 v364 v408))
theorem k0_idx37_inb : ∀ (v364 : IVec S16 32) (v408 : IVec S16 32) (k0_hw37 : k0_chk37 v364 v408), ∀ a x, ((![v408, v364] : Fin 2 → IVec S16 32) a x).toNat < S64x128.size a := fun v364 v408 k0_hw37 => k0_hw37

def k0_chk38 (v364 : IVec S16 32) (v410 : IVec S16 32) : Prop :=
  (∀ a x, ((![v410, v364] : Fin 2 → IVec S16 32) a x).toNat < S64x128.size a)
instance k0_chk38.dec : ∀ (v364 : IVec S16 32) (v410 : IVec S16 32), Decidable (k0_chk38 v364 v410) := fun v364 v410 => decidable_of_iff' _ (Iff.of_eq (k0_chk38.eq_1 v364 v410))
theorem k0_idx38_inb : ∀ (v364 : IVec S16 32) (v410 : IVec S16 32) (k0_hw38 : k0_chk38 v364 v410), ∀ a x, ((![v410, v364] : Fin 2 → IVec S16 32) a x).toNat < S64x128.size a := fun v364 v410 k0_hw38 => k0_hw38

def k0_chk39 (v364 : IVec S16 32) (v412 : IVec S16 32) : Prop :=
  (∀ a x, ((![v412, v364] : Fin 2 → IVec S16 32) a x).toNat < S64x128.size a)
instance k0_chk39.dec : ∀ (v364 : IVec S16 32) (v412 : IVec S16 32), Decidable (k0_chk39 v364 v412) := fun v364 v412 => decidable_of_iff' _ (Iff.of_eq (k0_chk39.eq_1 v364 v412))
theorem k0_idx39_inb : ∀ (v364 : IVec S16 32) (v412 : IVec S16 32) (k0_hw39 : k0_chk39 v364 v412), ∀ a x, ((![v412, v364] : Fin 2 → IVec S16 32) a x).toNat < S64x128.size a := fun v364 v412 k0_hw39 => k0_hw39

def k0_chk40 (v364 : IVec S16 32) (v414 : IVec S16 32) : Prop :=
  (∀ a x, ((![v414, v364] : Fin 2 → IVec S16 32) a x).toNat < S64x128.size a)
instance k0_chk40.dec : ∀ (v364 : IVec S16 32) (v414 : IVec S16 32), Decidable (k0_chk40 v364 v414) := fun v364 v414 => decidable_of_iff' _ (Iff.of_eq (k0_chk40.eq_1 v364 v414))
theorem k0_idx40_inb : ∀ (v364 : IVec S16 32) (v414 : IVec S16 32) (k0_hw40 : k0_chk40 v364 v414), ∀ a x, ((![v414, v364] : Fin 2 → IVec S16 32) a x).toNat < S64x128.size a := fun v364 v414 k0_hw40 => k0_hw40

def k0_chk41 (v364 : IVec S16 32) (v416 : IVec S16 32) : Prop :=
  (∀ a x, ((![v416, v364] : Fin 2 → IVec S16 32) a x).toNat < S64x128.size a)
instance k0_chk41.dec : ∀ (v364 : IVec S16 32) (v416 : IVec S16 32), Decidable (k0_chk41 v364 v416) := fun v364 v416 => decidable_of_iff' _ (Iff.of_eq (k0_chk41.eq_1 v364 v416))
theorem k0_idx41_inb : ∀ (v364 : IVec S16 32) (v416 : IVec S16 32) (k0_hw41 : k0_chk41 v364 v416), ∀ a x, ((![v416, v364] : Fin 2 → IVec S16 32) a x).toNat < S64x128.size a := fun v364 v416 k0_hw41 => k0_hw41

def k0_chk42 (v364 : IVec S16 32) (v418 : IVec S16 32) : Prop :=
  (∀ a x, ((![v418, v364] : Fin 2 → IVec S16 32) a x).toNat < S64x128.size a)
instance k0_chk42.dec : ∀ (v364 : IVec S16 32) (v418 : IVec S16 32), Decidable (k0_chk42 v364 v418) := fun v364 v418 => decidable_of_iff' _ (Iff.of_eq (k0_chk42.eq_1 v364 v418))
theorem k0_idx42_inb : ∀ (v364 : IVec S16 32) (v418 : IVec S16 32) (k0_hw42 : k0_chk42 v364 v418), ∀ a x, ((![v418, v364] : Fin 2 → IVec S16 32) a x).toNat < S64x128.size a := fun v364 v418 k0_hw42 => k0_hw42

def k0_chk43 (v364 : IVec S16 32) (v420 : IVec S16 32) : Prop :=
  (∀ a x, ((![v420, v364] : Fin 2 → IVec S16 32) a x).toNat < S64x128.size a)
instance k0_chk43.dec : ∀ (v364 : IVec S16 32) (v420 : IVec S16 32), Decidable (k0_chk43 v364 v420) := fun v364 v420 => decidable_of_iff' _ (Iff.of_eq (k0_chk43.eq_1 v364 v420))
theorem k0_idx43_inb : ∀ (v364 : IVec S16 32) (v420 : IVec S16 32) (k0_hw43 : k0_chk43 v364 v420), ∀ a x, ((![v420, v364] : Fin 2 → IVec S16 32) a x).toNat < S64x128.size a := fun v364 v420 k0_hw43 => k0_hw43

def k0_chk44 (v364 : IVec S16 32) (v422 : IVec S16 32) : Prop :=
  (∀ a x, ((![v422, v364] : Fin 2 → IVec S16 32) a x).toNat < S64x128.size a)
instance k0_chk44.dec : ∀ (v364 : IVec S16 32) (v422 : IVec S16 32), Decidable (k0_chk44 v364 v422) := fun v364 v422 => decidable_of_iff' _ (Iff.of_eq (k0_chk44.eq_1 v364 v422))
theorem k0_idx44_inb : ∀ (v364 : IVec S16 32) (v422 : IVec S16 32) (k0_hw44 : k0_chk44 v364 v422), ∀ a x, ((![v422, v364] : Fin 2 → IVec S16 32) a x).toNat < S64x128.size a := fun v364 v422 k0_hw44 => k0_hw44

def k0_chk45 (v364 : IVec S16 32) (v424 : IVec S16 32) : Prop :=
  (∀ a x, ((![v424, v364] : Fin 2 → IVec S16 32) a x).toNat < S64x128.size a)
instance k0_chk45.dec : ∀ (v364 : IVec S16 32) (v424 : IVec S16 32), Decidable (k0_chk45 v364 v424) := fun v364 v424 => decidable_of_iff' _ (Iff.of_eq (k0_chk45.eq_1 v364 v424))
theorem k0_idx45_inb : ∀ (v364 : IVec S16 32) (v424 : IVec S16 32) (k0_hw45 : k0_chk45 v364 v424), ∀ a x, ((![v424, v364] : Fin 2 → IVec S16 32) a x).toNat < S64x128.size a := fun v364 v424 k0_hw45 => k0_hw45

def k0_chk46 (v364 : IVec S16 32) (v426 : IVec S16 32) : Prop :=
  (∀ a x, ((![v426, v364] : Fin 2 → IVec S16 32) a x).toNat < S64x128.size a)
instance k0_chk46.dec : ∀ (v364 : IVec S16 32) (v426 : IVec S16 32), Decidable (k0_chk46 v364 v426) := fun v364 v426 => decidable_of_iff' _ (Iff.of_eq (k0_chk46.eq_1 v364 v426))
theorem k0_idx46_inb : ∀ (v364 : IVec S16 32) (v426 : IVec S16 32) (k0_hw46 : k0_chk46 v364 v426), ∀ a x, ((![v426, v364] : Fin 2 → IVec S16 32) a x).toNat < S64x128.size a := fun v364 v426 k0_hw46 => k0_hw46

def k0_chk47 (v364 : IVec S16 32) (v428 : IVec S16 32) : Prop :=
  (∀ a x, ((![v428, v364] : Fin 2 → IVec S16 32) a x).toNat < S64x128.size a)
instance k0_chk47.dec : ∀ (v364 : IVec S16 32) (v428 : IVec S16 32), Decidable (k0_chk47 v364 v428) := fun v364 v428 => decidable_of_iff' _ (Iff.of_eq (k0_chk47.eq_1 v364 v428))
theorem k0_idx47_inb : ∀ (v364 : IVec S16 32) (v428 : IVec S16 32) (k0_hw47 : k0_chk47 v364 v428), ∀ a x, ((![v428, v364] : Fin 2 → IVec S16 32) a x).toNat < S64x128.size a := fun v364 v428 k0_hw47 => k0_hw47

def k0_chk48 (v364 : IVec S16 32) (v430 : IVec S16 32) : Prop :=
  (∀ a x, ((![v430, v364] : Fin 2 → IVec S16 32) a x).toNat < S64x128.size a)
instance k0_chk48.dec : ∀ (v364 : IVec S16 32) (v430 : IVec S16 32), Decidable (k0_chk48 v364 v430) := fun v364 v430 => decidable_of_iff' _ (Iff.of_eq (k0_chk48.eq_1 v364 v430))
theorem k0_idx48_inb : ∀ (v364 : IVec S16 32) (v430 : IVec S16 32) (k0_hw48 : k0_chk48 v364 v430), ∀ a x, ((![v430, v364] : Fin 2 → IVec S16 32) a x).toNat < S64x128.size a := fun v364 v430 k0_hw48 => k0_hw48

def k0_chk49 (v364 : IVec S16 32) (v433 : IVec S16 32) : Prop :=
  (∀ a x, ((![v364, v433] : Fin 2 → IVec S16 32) a x).toNat < S128x128.size a)
instance k0_chk49.dec : ∀ (v364 : IVec S16 32) (v433 : IVec S16 32), Decidable (k0_chk49 v364 v433) := fun v364 v433 => decidable_of_iff' _ (Iff.of_eq (k0_chk49.eq_1 v364 v433))
theorem k0_idx49_inb : ∀ (v364 : IVec S16 32) (v433 : IVec S16 32) (k0_hw49 : k0_chk49 v364 v433), ∀ a x, ((![v364, v433] : Fin 2 → IVec S16 32) a x).toNat < S128x128.size a := fun v364 v433 k0_hw49 => k0_hw49

def k0_chk50 (v364 : IVec S16 32) (v435 : IVec S16 32) : Prop :=
  (∀ a x, ((![v364, v435] : Fin 2 → IVec S16 32) a x).toNat < S128x128.size a)
instance k0_chk50.dec : ∀ (v364 : IVec S16 32) (v435 : IVec S16 32), Decidable (k0_chk50 v364 v435) := fun v364 v435 => decidable_of_iff' _ (Iff.of_eq (k0_chk50.eq_1 v364 v435))
theorem k0_idx50_inb : ∀ (v364 : IVec S16 32) (v435 : IVec S16 32) (k0_hw50 : k0_chk50 v364 v435), ∀ a x, ((![v364, v435] : Fin 2 → IVec S16 32) a x).toNat < S128x128.size a := fun v364 v435 k0_hw50 => k0_hw50

def k0_chk51 (v364 : IVec S16 32) (v437 : IVec S16 32) : Prop :=
  (∀ a x, ((![v364, v437] : Fin 2 → IVec S16 32) a x).toNat < S128x128.size a)
instance k0_chk51.dec : ∀ (v364 : IVec S16 32) (v437 : IVec S16 32), Decidable (k0_chk51 v364 v437) := fun v364 v437 => decidable_of_iff' _ (Iff.of_eq (k0_chk51.eq_1 v364 v437))
theorem k0_idx51_inb : ∀ (v364 : IVec S16 32) (v437 : IVec S16 32) (k0_hw51 : k0_chk51 v364 v437), ∀ a x, ((![v364, v437] : Fin 2 → IVec S16 32) a x).toNat < S128x128.size a := fun v364 v437 k0_hw51 => k0_hw51

def k0_chk52 (v364 : IVec S16 32) (v439 : IVec S16 32) : Prop :=
  (∀ a x, ((![v364, v439] : Fin 2 → IVec S16 32) a x).toNat < S128x128.size a)
instance k0_chk52.dec : ∀ (v364 : IVec S16 32) (v439 : IVec S16 32), Decidable (k0_chk52 v364 v439) := fun v364 v439 => decidable_of_iff' _ (Iff.of_eq (k0_chk52.eq_1 v364 v439))
theorem k0_idx52_inb : ∀ (v364 : IVec S16 32) (v439 : IVec S16 32) (k0_hw52 : k0_chk52 v364 v439), ∀ a x, ((![v364, v439] : Fin 2 → IVec S16 32) a x).toNat < S128x128.size a := fun v364 v439 k0_hw52 => k0_hw52

def k0_chk53 (v364 : IVec S16 32) (v441 : IVec S16 32) : Prop :=
  (∀ a x, ((![v364, v441] : Fin 2 → IVec S16 32) a x).toNat < S128x128.size a)
instance k0_chk53.dec : ∀ (v364 : IVec S16 32) (v441 : IVec S16 32), Decidable (k0_chk53 v364 v441) := fun v364 v441 => decidable_of_iff' _ (Iff.of_eq (k0_chk53.eq_1 v364 v441))
theorem k0_idx53_inb : ∀ (v364 : IVec S16 32) (v441 : IVec S16 32) (k0_hw53 : k0_chk53 v364 v441), ∀ a x, ((![v364, v441] : Fin 2 → IVec S16 32) a x).toNat < S128x128.size a := fun v364 v441 k0_hw53 => k0_hw53

def k0_chk54 (v364 : IVec S16 32) (v443 : IVec S16 32) : Prop :=
  (∀ a x, ((![v364, v443] : Fin 2 → IVec S16 32) a x).toNat < S128x128.size a)
instance k0_chk54.dec : ∀ (v364 : IVec S16 32) (v443 : IVec S16 32), Decidable (k0_chk54 v364 v443) := fun v364 v443 => decidable_of_iff' _ (Iff.of_eq (k0_chk54.eq_1 v364 v443))
theorem k0_idx54_inb : ∀ (v364 : IVec S16 32) (v443 : IVec S16 32) (k0_hw54 : k0_chk54 v364 v443), ∀ a x, ((![v364, v443] : Fin 2 → IVec S16 32) a x).toNat < S128x128.size a := fun v364 v443 k0_hw54 => k0_hw54

def k0_chk55 (v364 : IVec S16 32) (v445 : IVec S16 32) : Prop :=
  (∀ a x, ((![v364, v445] : Fin 2 → IVec S16 32) a x).toNat < S128x128.size a)
instance k0_chk55.dec : ∀ (v364 : IVec S16 32) (v445 : IVec S16 32), Decidable (k0_chk55 v364 v445) := fun v364 v445 => decidable_of_iff' _ (Iff.of_eq (k0_chk55.eq_1 v364 v445))
theorem k0_idx55_inb : ∀ (v364 : IVec S16 32) (v445 : IVec S16 32) (k0_hw55 : k0_chk55 v364 v445), ∀ a x, ((![v364, v445] : Fin 2 → IVec S16 32) a x).toNat < S128x128.size a := fun v364 v445 k0_hw55 => k0_hw55

def k0_chk56 (v364 : IVec S16 32) (v447 : IVec S16 32) : Prop :=
  (∀ a x, ((![v364, v447] : Fin 2 → IVec S16 32) a x).toNat < S128x128.size a)
instance k0_chk56.dec : ∀ (v364 : IVec S16 32) (v447 : IVec S16 32), Decidable (k0_chk56 v364 v447) := fun v364 v447 => decidable_of_iff' _ (Iff.of_eq (k0_chk56.eq_1 v364 v447))
theorem k0_idx56_inb : ∀ (v364 : IVec S16 32) (v447 : IVec S16 32) (k0_hw56 : k0_chk56 v364 v447), ∀ a x, ((![v364, v447] : Fin 2 → IVec S16 32) a x).toNat < S128x128.size a := fun v364 v447 k0_hw56 => k0_hw56

def k0_chk57 (v364 : IVec S16 32) (v449 : IVec S16 32) : Prop :=
  (∀ a x, ((![v364, v449] : Fin 2 → IVec S16 32) a x).toNat < S128x128.size a)
instance k0_chk57.dec : ∀ (v364 : IVec S16 32) (v449 : IVec S16 32), Decidable (k0_chk57 v364 v449) := fun v364 v449 => decidable_of_iff' _ (Iff.of_eq (k0_chk57.eq_1 v364 v449))
theorem k0_idx57_inb : ∀ (v364 : IVec S16 32) (v449 : IVec S16 32) (k0_hw57 : k0_chk57 v364 v449), ∀ a x, ((![v364, v449] : Fin 2 → IVec S16 32) a x).toNat < S128x128.size a := fun v364 v449 k0_hw57 => k0_hw57

def k0_chk58 (v364 : IVec S16 32) (v451 : IVec S16 32) : Prop :=
  (∀ a x, ((![v364, v451] : Fin 2 → IVec S16 32) a x).toNat < S128x128.size a)
instance k0_chk58.dec : ∀ (v364 : IVec S16 32) (v451 : IVec S16 32), Decidable (k0_chk58 v364 v451) := fun v364 v451 => decidable_of_iff' _ (Iff.of_eq (k0_chk58.eq_1 v364 v451))
theorem k0_idx58_inb : ∀ (v364 : IVec S16 32) (v451 : IVec S16 32) (k0_hw58 : k0_chk58 v364 v451), ∀ a x, ((![v364, v451] : Fin 2 → IVec S16 32) a x).toNat < S128x128.size a := fun v364 v451 k0_hw58 => k0_hw58

def k0_chk59 (v364 : IVec S16 32) (v453 : IVec S16 32) : Prop :=
  (∀ a x, ((![v364, v453] : Fin 2 → IVec S16 32) a x).toNat < S128x128.size a)
instance k0_chk59.dec : ∀ (v364 : IVec S16 32) (v453 : IVec S16 32), Decidable (k0_chk59 v364 v453) := fun v364 v453 => decidable_of_iff' _ (Iff.of_eq (k0_chk59.eq_1 v364 v453))
theorem k0_idx59_inb : ∀ (v364 : IVec S16 32) (v453 : IVec S16 32) (k0_hw59 : k0_chk59 v364 v453), ∀ a x, ((![v364, v453] : Fin 2 → IVec S16 32) a x).toNat < S128x128.size a := fun v364 v453 k0_hw59 => k0_hw59

def k0_chk60 (v364 : IVec S16 32) (v455 : IVec S16 32) : Prop :=
  (∀ a x, ((![v364, v455] : Fin 2 → IVec S16 32) a x).toNat < S128x128.size a)
instance k0_chk60.dec : ∀ (v364 : IVec S16 32) (v455 : IVec S16 32), Decidable (k0_chk60 v364 v455) := fun v364 v455 => decidable_of_iff' _ (Iff.of_eq (k0_chk60.eq_1 v364 v455))
theorem k0_idx60_inb : ∀ (v364 : IVec S16 32) (v455 : IVec S16 32) (k0_hw60 : k0_chk60 v364 v455), ∀ a x, ((![v364, v455] : Fin 2 → IVec S16 32) a x).toNat < S128x128.size a := fun v364 v455 k0_hw60 => k0_hw60

def k0_chk61 (v364 : IVec S16 32) (v457 : IVec S16 32) : Prop :=
  (∀ a x, ((![v364, v457] : Fin 2 → IVec S16 32) a x).toNat < S128x128.size a)
instance k0_chk61.dec : ∀ (v364 : IVec S16 32) (v457 : IVec S16 32), Decidable (k0_chk61 v364 v457) := fun v364 v457 => decidable_of_iff' _ (Iff.of_eq (k0_chk61.eq_1 v364 v457))
theorem k0_idx61_inb : ∀ (v364 : IVec S16 32) (v457 : IVec S16 32) (k0_hw61 : k0_chk61 v364 v457), ∀ a x, ((![v364, v457] : Fin 2 → IVec S16 32) a x).toNat < S128x128.size a := fun v364 v457 k0_hw61 => k0_hw61

def k0_chk62 (v364 : IVec S16 32) (v459 : IVec S16 32) : Prop :=
  (∀ a x, ((![v364, v459] : Fin 2 → IVec S16 32) a x).toNat < S128x128.size a)
instance k0_chk62.dec : ∀ (v364 : IVec S16 32) (v459 : IVec S16 32), Decidable (k0_chk62 v364 v459) := fun v364 v459 => decidable_of_iff' _ (Iff.of_eq (k0_chk62.eq_1 v364 v459))
theorem k0_idx62_inb : ∀ (v364 : IVec S16 32) (v459 : IVec S16 32) (k0_hw62 : k0_chk62 v364 v459), ∀ a x, ((![v364, v459] : Fin 2 → IVec S16 32) a x).toNat < S128x128.size a := fun v364 v459 k0_hw62 => k0_hw62

def k0_chk63 (v364 : IVec S16 32) (v461 : IVec S16 32) : Prop :=
  (∀ a x, ((![v364, v461] : Fin 2 → IVec S16 32) a x).toNat < S128x128.size a)
instance k0_chk63.dec : ∀ (v364 : IVec S16 32) (v461 : IVec S16 32), Decidable (k0_chk63 v364 v461) := fun v364 v461 => decidable_of_iff' _ (Iff.of_eq (k0_chk63.eq_1 v364 v461))
theorem k0_idx63_inb : ∀ (v364 : IVec S16 32) (v461 : IVec S16 32) (k0_hw63 : k0_chk63 v364 v461), ∀ a x, ((![v364, v461] : Fin 2 → IVec S16 32) a x).toNat < S128x128.size a := fun v364 v461 k0_hw63 => k0_hw63

def k0_chk64 (v364 : IVec S16 32) (v463 : IVec S16 32) : Prop :=
  (∀ a x, ((![v364, v463] : Fin 2 → IVec S16 32) a x).toNat < S128x128.size a)
instance k0_chk64.dec : ∀ (v364 : IVec S16 32) (v463 : IVec S16 32), Decidable (k0_chk64 v364 v463) := fun v364 v463 => decidable_of_iff' _ (Iff.of_eq (k0_chk64.eq_1 v364 v463))
theorem k0_idx64_inb : ∀ (v364 : IVec S16 32) (v463 : IVec S16 32) (k0_hw64 : k0_chk64 v364 v463), ∀ a x, ((![v364, v463] : Fin 2 → IVec S16 32) a x).toNat < S128x128.size a := fun v364 v463 k0_hw64 => k0_hw64

def k0_chk65 (v364 : IVec S16 32) (v466 : IVec S16 32) : Prop :=
  (∀ a x, ((![v466, v364] : Fin 2 → IVec S16 32) a x).toNat < S64x128.size a)
instance k0_chk65.dec : ∀ (v364 : IVec S16 32) (v466 : IVec S16 32), Decidable (k0_chk65 v364 v466) := fun v364 v466 => decidable_of_iff' _ (Iff.of_eq (k0_chk65.eq_1 v364 v466))
theorem k0_idx65_inb : ∀ (v364 : IVec S16 32) (v466 : IVec S16 32) (k0_hw65 : k0_chk65 v364 v466), ∀ a x, ((![v466, v364] : Fin 2 → IVec S16 32) a x).toNat < S64x128.size a := fun v364 v466 k0_hw65 => k0_hw65

def k0_chk66 (v364 : IVec S16 32) (v468 : IVec S16 32) : Prop :=
  (∀ a x, ((![v468, v364] : Fin 2 → IVec S16 32) a x).toNat < S64x128.size a)
instance k0_chk66.dec : ∀ (v364 : IVec S16 32) (v468 : IVec S16 32), Decidable (k0_chk66 v364 v468) := fun v364 v468 => decidable_of_iff' _ (Iff.of_eq (k0_chk66.eq_1 v364 v468))
theorem k0_idx66_inb : ∀ (v364 : IVec S16 32) (v468 : IVec S16 32) (k0_hw66 : k0_chk66 v364 v468), ∀ a x, ((![v468, v364] : Fin 2 → IVec S16 32) a x).toNat < S64x128.size a := fun v364 v468 k0_hw66 => k0_hw66

def k0_chk67 (v364 : IVec S16 32) (v470 : IVec S16 32) : Prop :=
  (∀ a x, ((![v470, v364] : Fin 2 → IVec S16 32) a x).toNat < S64x128.size a)
instance k0_chk67.dec : ∀ (v364 : IVec S16 32) (v470 : IVec S16 32), Decidable (k0_chk67 v364 v470) := fun v364 v470 => decidable_of_iff' _ (Iff.of_eq (k0_chk67.eq_1 v364 v470))
theorem k0_idx67_inb : ∀ (v364 : IVec S16 32) (v470 : IVec S16 32) (k0_hw67 : k0_chk67 v364 v470), ∀ a x, ((![v470, v364] : Fin 2 → IVec S16 32) a x).toNat < S64x128.size a := fun v364 v470 k0_hw67 => k0_hw67

def k0_chk68 (v364 : IVec S16 32) (v472 : IVec S16 32) : Prop :=
  (∀ a x, ((![v472, v364] : Fin 2 → IVec S16 32) a x).toNat < S64x128.size a)
instance k0_chk68.dec : ∀ (v364 : IVec S16 32) (v472 : IVec S16 32), Decidable (k0_chk68 v364 v472) := fun v364 v472 => decidable_of_iff' _ (Iff.of_eq (k0_chk68.eq_1 v364 v472))
theorem k0_idx68_inb : ∀ (v364 : IVec S16 32) (v472 : IVec S16 32) (k0_hw68 : k0_chk68 v364 v472), ∀ a x, ((![v472, v364] : Fin 2 → IVec S16 32) a x).toNat < S64x128.size a := fun v364 v472 k0_hw68 => k0_hw68

def k0_chk69 (v364 : IVec S16 32) (v474 : IVec S16 32) : Prop :=
  (∀ a x, ((![v474, v364] : Fin 2 → IVec S16 32) a x).toNat < S64x128.size a)
instance k0_chk69.dec : ∀ (v364 : IVec S16 32) (v474 : IVec S16 32), Decidable (k0_chk69 v364 v474) := fun v364 v474 => decidable_of_iff' _ (Iff.of_eq (k0_chk69.eq_1 v364 v474))
theorem k0_idx69_inb : ∀ (v364 : IVec S16 32) (v474 : IVec S16 32) (k0_hw69 : k0_chk69 v364 v474), ∀ a x, ((![v474, v364] : Fin 2 → IVec S16 32) a x).toNat < S64x128.size a := fun v364 v474 k0_hw69 => k0_hw69

def k0_chk70 (v364 : IVec S16 32) (v476 : IVec S16 32) : Prop :=
  (∀ a x, ((![v476, v364] : Fin 2 → IVec S16 32) a x).toNat < S64x128.size a)
instance k0_chk70.dec : ∀ (v364 : IVec S16 32) (v476 : IVec S16 32), Decidable (k0_chk70 v364 v476) := fun v364 v476 => decidable_of_iff' _ (Iff.of_eq (k0_chk70.eq_1 v364 v476))
theorem k0_idx70_inb : ∀ (v364 : IVec S16 32) (v476 : IVec S16 32) (k0_hw70 : k0_chk70 v364 v476), ∀ a x, ((![v476, v364] : Fin 2 → IVec S16 32) a x).toNat < S64x128.size a := fun v364 v476 k0_hw70 => k0_hw70

def k0_chk71 (v364 : IVec S16 32) (v478 : IVec S16 32) : Prop :=
  (∀ a x, ((![v478, v364] : Fin 2 → IVec S16 32) a x).toNat < S64x128.size a)
instance k0_chk71.dec : ∀ (v364 : IVec S16 32) (v478 : IVec S16 32), Decidable (k0_chk71 v364 v478) := fun v364 v478 => decidable_of_iff' _ (Iff.of_eq (k0_chk71.eq_1 v364 v478))
theorem k0_idx71_inb : ∀ (v364 : IVec S16 32) (v478 : IVec S16 32) (k0_hw71 : k0_chk71 v364 v478), ∀ a x, ((![v478, v364] : Fin 2 → IVec S16 32) a x).toNat < S64x128.size a := fun v364 v478 k0_hw71 => k0_hw71

def k0_chk72 (v364 : IVec S16 32) (v480 : IVec S16 32) : Prop :=
  (∀ a x, ((![v480, v364] : Fin 2 → IVec S16 32) a x).toNat < S64x128.size a)
instance k0_chk72.dec : ∀ (v364 : IVec S16 32) (v480 : IVec S16 32), Decidable (k0_chk72 v364 v480) := fun v364 v480 => decidable_of_iff' _ (Iff.of_eq (k0_chk72.eq_1 v364 v480))
theorem k0_idx72_inb : ∀ (v364 : IVec S16 32) (v480 : IVec S16 32) (k0_hw72 : k0_chk72 v364 v480), ∀ a x, ((![v480, v364] : Fin 2 → IVec S16 32) a x).toNat < S64x128.size a := fun v364 v480 k0_hw72 => k0_hw72

def k0_chk73 (v364 : IVec S16 32) (v482 : IVec S16 32) : Prop :=
  (∀ a x, ((![v482, v364] : Fin 2 → IVec S16 32) a x).toNat < S64x128.size a)
instance k0_chk73.dec : ∀ (v364 : IVec S16 32) (v482 : IVec S16 32), Decidable (k0_chk73 v364 v482) := fun v364 v482 => decidable_of_iff' _ (Iff.of_eq (k0_chk73.eq_1 v364 v482))
theorem k0_idx73_inb : ∀ (v364 : IVec S16 32) (v482 : IVec S16 32) (k0_hw73 : k0_chk73 v364 v482), ∀ a x, ((![v482, v364] : Fin 2 → IVec S16 32) a x).toNat < S64x128.size a := fun v364 v482 k0_hw73 => k0_hw73

def k0_chk74 (v364 : IVec S16 32) (v484 : IVec S16 32) : Prop :=
  (∀ a x, ((![v484, v364] : Fin 2 → IVec S16 32) a x).toNat < S64x128.size a)
instance k0_chk74.dec : ∀ (v364 : IVec S16 32) (v484 : IVec S16 32), Decidable (k0_chk74 v364 v484) := fun v364 v484 => decidable_of_iff' _ (Iff.of_eq (k0_chk74.eq_1 v364 v484))
theorem k0_idx74_inb : ∀ (v364 : IVec S16 32) (v484 : IVec S16 32) (k0_hw74 : k0_chk74 v364 v484), ∀ a x, ((![v484, v364] : Fin 2 → IVec S16 32) a x).toNat < S64x128.size a := fun v364 v484 k0_hw74 => k0_hw74

def k0_chk75 (v364 : IVec S16 32) (v486 : IVec S16 32) : Prop :=
  (∀ a x, ((![v486, v364] : Fin 2 → IVec S16 32) a x).toNat < S64x128.size a)
instance k0_chk75.dec : ∀ (v364 : IVec S16 32) (v486 : IVec S16 32), Decidable (k0_chk75 v364 v486) := fun v364 v486 => decidable_of_iff' _ (Iff.of_eq (k0_chk75.eq_1 v364 v486))
theorem k0_idx75_inb : ∀ (v364 : IVec S16 32) (v486 : IVec S16 32) (k0_hw75 : k0_chk75 v364 v486), ∀ a x, ((![v486, v364] : Fin 2 → IVec S16 32) a x).toNat < S64x128.size a := fun v364 v486 k0_hw75 => k0_hw75

def k0_chk76 (v364 : IVec S16 32) (v488 : IVec S16 32) : Prop :=
  (∀ a x, ((![v488, v364] : Fin 2 → IVec S16 32) a x).toNat < S64x128.size a)
instance k0_chk76.dec : ∀ (v364 : IVec S16 32) (v488 : IVec S16 32), Decidable (k0_chk76 v364 v488) := fun v364 v488 => decidable_of_iff' _ (Iff.of_eq (k0_chk76.eq_1 v364 v488))
theorem k0_idx76_inb : ∀ (v364 : IVec S16 32) (v488 : IVec S16 32) (k0_hw76 : k0_chk76 v364 v488), ∀ a x, ((![v488, v364] : Fin 2 → IVec S16 32) a x).toNat < S64x128.size a := fun v364 v488 k0_hw76 => k0_hw76

def k0_chk77 (v364 : IVec S16 32) (v490 : IVec S16 32) : Prop :=
  (∀ a x, ((![v490, v364] : Fin 2 → IVec S16 32) a x).toNat < S64x128.size a)
instance k0_chk77.dec : ∀ (v364 : IVec S16 32) (v490 : IVec S16 32), Decidable (k0_chk77 v364 v490) := fun v364 v490 => decidable_of_iff' _ (Iff.of_eq (k0_chk77.eq_1 v364 v490))
theorem k0_idx77_inb : ∀ (v364 : IVec S16 32) (v490 : IVec S16 32) (k0_hw77 : k0_chk77 v364 v490), ∀ a x, ((![v490, v364] : Fin 2 → IVec S16 32) a x).toNat < S64x128.size a := fun v364 v490 k0_hw77 => k0_hw77

def k0_chk78 (v364 : IVec S16 32) (v492 : IVec S16 32) : Prop :=
  (∀ a x, ((![v492, v364] : Fin 2 → IVec S16 32) a x).toNat < S64x128.size a)
instance k0_chk78.dec : ∀ (v364 : IVec S16 32) (v492 : IVec S16 32), Decidable (k0_chk78 v364 v492) := fun v364 v492 => decidable_of_iff' _ (Iff.of_eq (k0_chk78.eq_1 v364 v492))
theorem k0_idx78_inb : ∀ (v364 : IVec S16 32) (v492 : IVec S16 32) (k0_hw78 : k0_chk78 v364 v492), ∀ a x, ((![v492, v364] : Fin 2 → IVec S16 32) a x).toNat < S64x128.size a := fun v364 v492 k0_hw78 => k0_hw78

def k0_chk79 (v364 : IVec S16 32) (v494 : IVec S16 32) : Prop :=
  (∀ a x, ((![v494, v364] : Fin 2 → IVec S16 32) a x).toNat < S64x128.size a)
instance k0_chk79.dec : ∀ (v364 : IVec S16 32) (v494 : IVec S16 32), Decidable (k0_chk79 v364 v494) := fun v364 v494 => decidable_of_iff' _ (Iff.of_eq (k0_chk79.eq_1 v364 v494))
theorem k0_idx79_inb : ∀ (v364 : IVec S16 32) (v494 : IVec S16 32) (k0_hw79 : k0_chk79 v364 v494), ∀ a x, ((![v494, v364] : Fin 2 → IVec S16 32) a x).toNat < S64x128.size a := fun v364 v494 k0_hw79 => k0_hw79

def k0_chk80 (v364 : IVec S16 32) (v496 : IVec S16 32) : Prop :=
  (∀ a x, ((![v496, v364] : Fin 2 → IVec S16 32) a x).toNat < S64x128.size a)
instance k0_chk80.dec : ∀ (v364 : IVec S16 32) (v496 : IVec S16 32), Decidable (k0_chk80 v364 v496) := fun v364 v496 => decidable_of_iff' _ (Iff.of_eq (k0_chk80.eq_1 v364 v496))
theorem k0_idx80_inb : ∀ (v364 : IVec S16 32) (v496 : IVec S16 32) (k0_hw80 : k0_chk80 v364 v496), ∀ a x, ((![v496, v364] : Fin 2 → IVec S16 32) a x).toNat < S64x128.size a := fun v364 v496 k0_hw80 => k0_hw80

def k0_chk81 (v364 : IVec S16 32) (v499 : IVec S16 32) : Prop :=
  (∀ a x, ((![v364, v499] : Fin 2 → IVec S16 32) a x).toNat < S128x128.size a)
instance k0_chk81.dec : ∀ (v364 : IVec S16 32) (v499 : IVec S16 32), Decidable (k0_chk81 v364 v499) := fun v364 v499 => decidable_of_iff' _ (Iff.of_eq (k0_chk81.eq_1 v364 v499))
theorem k0_idx81_inb : ∀ (v364 : IVec S16 32) (v499 : IVec S16 32) (k0_hw81 : k0_chk81 v364 v499), ∀ a x, ((![v364, v499] : Fin 2 → IVec S16 32) a x).toNat < S128x128.size a := fun v364 v499 k0_hw81 => k0_hw81

def k0_chk82 (v364 : IVec S16 32) (v501 : IVec S16 32) : Prop :=
  (∀ a x, ((![v364, v501] : Fin 2 → IVec S16 32) a x).toNat < S128x128.size a)
instance k0_chk82.dec : ∀ (v364 : IVec S16 32) (v501 : IVec S16 32), Decidable (k0_chk82 v364 v501) := fun v364 v501 => decidable_of_iff' _ (Iff.of_eq (k0_chk82.eq_1 v364 v501))
theorem k0_idx82_inb : ∀ (v364 : IVec S16 32) (v501 : IVec S16 32) (k0_hw82 : k0_chk82 v364 v501), ∀ a x, ((![v364, v501] : Fin 2 → IVec S16 32) a x).toNat < S128x128.size a := fun v364 v501 k0_hw82 => k0_hw82

def k0_chk83 (v364 : IVec S16 32) (v503 : IVec S16 32) : Prop :=
  (∀ a x, ((![v364, v503] : Fin 2 → IVec S16 32) a x).toNat < S128x128.size a)
instance k0_chk83.dec : ∀ (v364 : IVec S16 32) (v503 : IVec S16 32), Decidable (k0_chk83 v364 v503) := fun v364 v503 => decidable_of_iff' _ (Iff.of_eq (k0_chk83.eq_1 v364 v503))
theorem k0_idx83_inb : ∀ (v364 : IVec S16 32) (v503 : IVec S16 32) (k0_hw83 : k0_chk83 v364 v503), ∀ a x, ((![v364, v503] : Fin 2 → IVec S16 32) a x).toNat < S128x128.size a := fun v364 v503 k0_hw83 => k0_hw83

def k0_chk84 (v364 : IVec S16 32) (v505 : IVec S16 32) : Prop :=
  (∀ a x, ((![v364, v505] : Fin 2 → IVec S16 32) a x).toNat < S128x128.size a)
instance k0_chk84.dec : ∀ (v364 : IVec S16 32) (v505 : IVec S16 32), Decidable (k0_chk84 v364 v505) := fun v364 v505 => decidable_of_iff' _ (Iff.of_eq (k0_chk84.eq_1 v364 v505))
theorem k0_idx84_inb : ∀ (v364 : IVec S16 32) (v505 : IVec S16 32) (k0_hw84 : k0_chk84 v364 v505), ∀ a x, ((![v364, v505] : Fin 2 → IVec S16 32) a x).toNat < S128x128.size a := fun v364 v505 k0_hw84 => k0_hw84

def k0_chk85 (v364 : IVec S16 32) (v507 : IVec S16 32) : Prop :=
  (∀ a x, ((![v364, v507] : Fin 2 → IVec S16 32) a x).toNat < S128x128.size a)
instance k0_chk85.dec : ∀ (v364 : IVec S16 32) (v507 : IVec S16 32), Decidable (k0_chk85 v364 v507) := fun v364 v507 => decidable_of_iff' _ (Iff.of_eq (k0_chk85.eq_1 v364 v507))
theorem k0_idx85_inb : ∀ (v364 : IVec S16 32) (v507 : IVec S16 32) (k0_hw85 : k0_chk85 v364 v507), ∀ a x, ((![v364, v507] : Fin 2 → IVec S16 32) a x).toNat < S128x128.size a := fun v364 v507 k0_hw85 => k0_hw85

def k0_chk86 (v364 : IVec S16 32) (v509 : IVec S16 32) : Prop :=
  (∀ a x, ((![v364, v509] : Fin 2 → IVec S16 32) a x).toNat < S128x128.size a)
instance k0_chk86.dec : ∀ (v364 : IVec S16 32) (v509 : IVec S16 32), Decidable (k0_chk86 v364 v509) := fun v364 v509 => decidable_of_iff' _ (Iff.of_eq (k0_chk86.eq_1 v364 v509))
theorem k0_idx86_inb : ∀ (v364 : IVec S16 32) (v509 : IVec S16 32) (k0_hw86 : k0_chk86 v364 v509), ∀ a x, ((![v364, v509] : Fin 2 → IVec S16 32) a x).toNat < S128x128.size a := fun v364 v509 k0_hw86 => k0_hw86

def k0_chk87 (v364 : IVec S16 32) (v511 : IVec S16 32) : Prop :=
  (∀ a x, ((![v364, v511] : Fin 2 → IVec S16 32) a x).toNat < S128x128.size a)
instance k0_chk87.dec : ∀ (v364 : IVec S16 32) (v511 : IVec S16 32), Decidable (k0_chk87 v364 v511) := fun v364 v511 => decidable_of_iff' _ (Iff.of_eq (k0_chk87.eq_1 v364 v511))
theorem k0_idx87_inb : ∀ (v364 : IVec S16 32) (v511 : IVec S16 32) (k0_hw87 : k0_chk87 v364 v511), ∀ a x, ((![v364, v511] : Fin 2 → IVec S16 32) a x).toNat < S128x128.size a := fun v364 v511 k0_hw87 => k0_hw87

def k0_chk88 (v364 : IVec S16 32) (v513 : IVec S16 32) : Prop :=
  (∀ a x, ((![v364, v513] : Fin 2 → IVec S16 32) a x).toNat < S128x128.size a)
instance k0_chk88.dec : ∀ (v364 : IVec S16 32) (v513 : IVec S16 32), Decidable (k0_chk88 v364 v513) := fun v364 v513 => decidable_of_iff' _ (Iff.of_eq (k0_chk88.eq_1 v364 v513))
theorem k0_idx88_inb : ∀ (v364 : IVec S16 32) (v513 : IVec S16 32) (k0_hw88 : k0_chk88 v364 v513), ∀ a x, ((![v364, v513] : Fin 2 → IVec S16 32) a x).toNat < S128x128.size a := fun v364 v513 k0_hw88 => k0_hw88

def k0_chk89 (v364 : IVec S16 32) (v515 : IVec S16 32) : Prop :=
  (∀ a x, ((![v364, v515] : Fin 2 → IVec S16 32) a x).toNat < S128x128.size a)
instance k0_chk89.dec : ∀ (v364 : IVec S16 32) (v515 : IVec S16 32), Decidable (k0_chk89 v364 v515) := fun v364 v515 => decidable_of_iff' _ (Iff.of_eq (k0_chk89.eq_1 v364 v515))
theorem k0_idx89_inb : ∀ (v364 : IVec S16 32) (v515 : IVec S16 32) (k0_hw89 : k0_chk89 v364 v515), ∀ a x, ((![v364, v515] : Fin 2 → IVec S16 32) a x).toNat < S128x128.size a := fun v364 v515 k0_hw89 => k0_hw89

def k0_chk90 (v364 : IVec S16 32) (v517 : IVec S16 32) : Prop :=
  (∀ a x, ((![v364, v517] : Fin 2 → IVec S16 32) a x).toNat < S128x128.size a)
instance k0_chk90.dec : ∀ (v364 : IVec S16 32) (v517 : IVec S16 32), Decidable (k0_chk90 v364 v517) := fun v364 v517 => decidable_of_iff' _ (Iff.of_eq (k0_chk90.eq_1 v364 v517))
theorem k0_idx90_inb : ∀ (v364 : IVec S16 32) (v517 : IVec S16 32) (k0_hw90 : k0_chk90 v364 v517), ∀ a x, ((![v364, v517] : Fin 2 → IVec S16 32) a x).toNat < S128x128.size a := fun v364 v517 k0_hw90 => k0_hw90

def k0_chk91 (v364 : IVec S16 32) (v519 : IVec S16 32) : Prop :=
  (∀ a x, ((![v364, v519] : Fin 2 → IVec S16 32) a x).toNat < S128x128.size a)
instance k0_chk91.dec : ∀ (v364 : IVec S16 32) (v519 : IVec S16 32), Decidable (k0_chk91 v364 v519) := fun v364 v519 => decidable_of_iff' _ (Iff.of_eq (k0_chk91.eq_1 v364 v519))
theorem k0_idx91_inb : ∀ (v364 : IVec S16 32) (v519 : IVec S16 32) (k0_hw91 : k0_chk91 v364 v519), ∀ a x, ((![v364, v519] : Fin 2 → IVec S16 32) a x).toNat < S128x128.size a := fun v364 v519 k0_hw91 => k0_hw91

def k0_chk92 (v364 : IVec S16 32) (v521 : IVec S16 32) : Prop :=
  (∀ a x, ((![v364, v521] : Fin 2 → IVec S16 32) a x).toNat < S128x128.size a)
instance k0_chk92.dec : ∀ (v364 : IVec S16 32) (v521 : IVec S16 32), Decidable (k0_chk92 v364 v521) := fun v364 v521 => decidable_of_iff' _ (Iff.of_eq (k0_chk92.eq_1 v364 v521))
theorem k0_idx92_inb : ∀ (v364 : IVec S16 32) (v521 : IVec S16 32) (k0_hw92 : k0_chk92 v364 v521), ∀ a x, ((![v364, v521] : Fin 2 → IVec S16 32) a x).toNat < S128x128.size a := fun v364 v521 k0_hw92 => k0_hw92

def k0_chk93 (v364 : IVec S16 32) (v523 : IVec S16 32) : Prop :=
  (∀ a x, ((![v364, v523] : Fin 2 → IVec S16 32) a x).toNat < S128x128.size a)
instance k0_chk93.dec : ∀ (v364 : IVec S16 32) (v523 : IVec S16 32), Decidable (k0_chk93 v364 v523) := fun v364 v523 => decidable_of_iff' _ (Iff.of_eq (k0_chk93.eq_1 v364 v523))
theorem k0_idx93_inb : ∀ (v364 : IVec S16 32) (v523 : IVec S16 32) (k0_hw93 : k0_chk93 v364 v523), ∀ a x, ((![v364, v523] : Fin 2 → IVec S16 32) a x).toNat < S128x128.size a := fun v364 v523 k0_hw93 => k0_hw93

def k0_chk94 (v364 : IVec S16 32) (v525 : IVec S16 32) : Prop :=
  (∀ a x, ((![v364, v525] : Fin 2 → IVec S16 32) a x).toNat < S128x128.size a)
instance k0_chk94.dec : ∀ (v364 : IVec S16 32) (v525 : IVec S16 32), Decidable (k0_chk94 v364 v525) := fun v364 v525 => decidable_of_iff' _ (Iff.of_eq (k0_chk94.eq_1 v364 v525))
theorem k0_idx94_inb : ∀ (v364 : IVec S16 32) (v525 : IVec S16 32) (k0_hw94 : k0_chk94 v364 v525), ∀ a x, ((![v364, v525] : Fin 2 → IVec S16 32) a x).toNat < S128x128.size a := fun v364 v525 k0_hw94 => k0_hw94

def k0_chk95 (v364 : IVec S16 32) (v527 : IVec S16 32) : Prop :=
  (∀ a x, ((![v364, v527] : Fin 2 → IVec S16 32) a x).toNat < S128x128.size a)
instance k0_chk95.dec : ∀ (v364 : IVec S16 32) (v527 : IVec S16 32), Decidable (k0_chk95 v364 v527) := fun v364 v527 => decidable_of_iff' _ (Iff.of_eq (k0_chk95.eq_1 v364 v527))
theorem k0_idx95_inb : ∀ (v364 : IVec S16 32) (v527 : IVec S16 32) (k0_hw95 : k0_chk95 v364 v527), ∀ a x, ((![v364, v527] : Fin 2 → IVec S16 32) a x).toNat < S128x128.size a := fun v364 v527 k0_hw95 => k0_hw95

def k0_chk96 (v364 : IVec S16 32) (v529 : IVec S16 32) : Prop :=
  (∀ a x, ((![v364, v529] : Fin 2 → IVec S16 32) a x).toNat < S128x128.size a)
instance k0_chk96.dec : ∀ (v364 : IVec S16 32) (v529 : IVec S16 32), Decidable (k0_chk96 v364 v529) := fun v364 v529 => decidable_of_iff' _ (Iff.of_eq (k0_chk96.eq_1 v364 v529))
theorem k0_idx96_inb : ∀ (v364 : IVec S16 32) (v529 : IVec S16 32) (k0_hw96 : k0_chk96 v364 v529), ∀ a x, ((![v364, v529] : Fin 2 → IVec S16 32) a x).toNat < S128x128.size a := fun v364 v529 k0_hw96 => k0_hw96

def k0_chk97 (v364 : IVec S16 32) (v532 : IVec S16 32) : Prop :=
  (∀ a x, ((![v532, v364] : Fin 2 → IVec S16 32) a x).toNat < S64x128.size a)
instance k0_chk97.dec : ∀ (v364 : IVec S16 32) (v532 : IVec S16 32), Decidable (k0_chk97 v364 v532) := fun v364 v532 => decidable_of_iff' _ (Iff.of_eq (k0_chk97.eq_1 v364 v532))
theorem k0_idx97_inb : ∀ (v364 : IVec S16 32) (v532 : IVec S16 32) (k0_hw97 : k0_chk97 v364 v532), ∀ a x, ((![v532, v364] : Fin 2 → IVec S16 32) a x).toNat < S64x128.size a := fun v364 v532 k0_hw97 => k0_hw97

def k0_chk98 (v364 : IVec S16 32) (v534 : IVec S16 32) : Prop :=
  (∀ a x, ((![v534, v364] : Fin 2 → IVec S16 32) a x).toNat < S64x128.size a)
instance k0_chk98.dec : ∀ (v364 : IVec S16 32) (v534 : IVec S16 32), Decidable (k0_chk98 v364 v534) := fun v364 v534 => decidable_of_iff' _ (Iff.of_eq (k0_chk98.eq_1 v364 v534))
theorem k0_idx98_inb : ∀ (v364 : IVec S16 32) (v534 : IVec S16 32) (k0_hw98 : k0_chk98 v364 v534), ∀ a x, ((![v534, v364] : Fin 2 → IVec S16 32) a x).toNat < S64x128.size a := fun v364 v534 k0_hw98 => k0_hw98

def k0_chk99 (v364 : IVec S16 32) (v536 : IVec S16 32) : Prop :=
  (∀ a x, ((![v536, v364] : Fin 2 → IVec S16 32) a x).toNat < S64x128.size a)
instance k0_chk99.dec : ∀ (v364 : IVec S16 32) (v536 : IVec S16 32), Decidable (k0_chk99 v364 v536) := fun v364 v536 => decidable_of_iff' _ (Iff.of_eq (k0_chk99.eq_1 v364 v536))
theorem k0_idx99_inb : ∀ (v364 : IVec S16 32) (v536 : IVec S16 32) (k0_hw99 : k0_chk99 v364 v536), ∀ a x, ((![v536, v364] : Fin 2 → IVec S16 32) a x).toNat < S64x128.size a := fun v364 v536 k0_hw99 => k0_hw99

def k0_chk100 (v364 : IVec S16 32) (v538 : IVec S16 32) : Prop :=
  (∀ a x, ((![v538, v364] : Fin 2 → IVec S16 32) a x).toNat < S64x128.size a)
instance k0_chk100.dec : ∀ (v364 : IVec S16 32) (v538 : IVec S16 32), Decidable (k0_chk100 v364 v538) := fun v364 v538 => decidable_of_iff' _ (Iff.of_eq (k0_chk100.eq_1 v364 v538))
theorem k0_idx100_inb : ∀ (v364 : IVec S16 32) (v538 : IVec S16 32) (k0_hw100 : k0_chk100 v364 v538), ∀ a x, ((![v538, v364] : Fin 2 → IVec S16 32) a x).toNat < S64x128.size a := fun v364 v538 k0_hw100 => k0_hw100

def k0_chk101 (v364 : IVec S16 32) (v540 : IVec S16 32) : Prop :=
  (∀ a x, ((![v540, v364] : Fin 2 → IVec S16 32) a x).toNat < S64x128.size a)
instance k0_chk101.dec : ∀ (v364 : IVec S16 32) (v540 : IVec S16 32), Decidable (k0_chk101 v364 v540) := fun v364 v540 => decidable_of_iff' _ (Iff.of_eq (k0_chk101.eq_1 v364 v540))
theorem k0_idx101_inb : ∀ (v364 : IVec S16 32) (v540 : IVec S16 32) (k0_hw101 : k0_chk101 v364 v540), ∀ a x, ((![v540, v364] : Fin 2 → IVec S16 32) a x).toNat < S64x128.size a := fun v364 v540 k0_hw101 => k0_hw101

def k0_chk102 (v364 : IVec S16 32) (v542 : IVec S16 32) : Prop :=
  (∀ a x, ((![v542, v364] : Fin 2 → IVec S16 32) a x).toNat < S64x128.size a)
instance k0_chk102.dec : ∀ (v364 : IVec S16 32) (v542 : IVec S16 32), Decidable (k0_chk102 v364 v542) := fun v364 v542 => decidable_of_iff' _ (Iff.of_eq (k0_chk102.eq_1 v364 v542))
theorem k0_idx102_inb : ∀ (v364 : IVec S16 32) (v542 : IVec S16 32) (k0_hw102 : k0_chk102 v364 v542), ∀ a x, ((![v542, v364] : Fin 2 → IVec S16 32) a x).toNat < S64x128.size a := fun v364 v542 k0_hw102 => k0_hw102

def k0_chk103 (v364 : IVec S16 32) (v544 : IVec S16 32) : Prop :=
  (∀ a x, ((![v544, v364] : Fin 2 → IVec S16 32) a x).toNat < S64x128.size a)
instance k0_chk103.dec : ∀ (v364 : IVec S16 32) (v544 : IVec S16 32), Decidable (k0_chk103 v364 v544) := fun v364 v544 => decidable_of_iff' _ (Iff.of_eq (k0_chk103.eq_1 v364 v544))
theorem k0_idx103_inb : ∀ (v364 : IVec S16 32) (v544 : IVec S16 32) (k0_hw103 : k0_chk103 v364 v544), ∀ a x, ((![v544, v364] : Fin 2 → IVec S16 32) a x).toNat < S64x128.size a := fun v364 v544 k0_hw103 => k0_hw103

def k0_chk104 (v364 : IVec S16 32) (v546 : IVec S16 32) : Prop :=
  (∀ a x, ((![v546, v364] : Fin 2 → IVec S16 32) a x).toNat < S64x128.size a)
instance k0_chk104.dec : ∀ (v364 : IVec S16 32) (v546 : IVec S16 32), Decidable (k0_chk104 v364 v546) := fun v364 v546 => decidable_of_iff' _ (Iff.of_eq (k0_chk104.eq_1 v364 v546))
theorem k0_idx104_inb : ∀ (v364 : IVec S16 32) (v546 : IVec S16 32) (k0_hw104 : k0_chk104 v364 v546), ∀ a x, ((![v546, v364] : Fin 2 → IVec S16 32) a x).toNat < S64x128.size a := fun v364 v546 k0_hw104 => k0_hw104

def k0_chk105 (v364 : IVec S16 32) (v548 : IVec S16 32) : Prop :=
  (∀ a x, ((![v548, v364] : Fin 2 → IVec S16 32) a x).toNat < S64x128.size a)
instance k0_chk105.dec : ∀ (v364 : IVec S16 32) (v548 : IVec S16 32), Decidable (k0_chk105 v364 v548) := fun v364 v548 => decidable_of_iff' _ (Iff.of_eq (k0_chk105.eq_1 v364 v548))
theorem k0_idx105_inb : ∀ (v364 : IVec S16 32) (v548 : IVec S16 32) (k0_hw105 : k0_chk105 v364 v548), ∀ a x, ((![v548, v364] : Fin 2 → IVec S16 32) a x).toNat < S64x128.size a := fun v364 v548 k0_hw105 => k0_hw105

def k0_chk106 (v364 : IVec S16 32) (v550 : IVec S16 32) : Prop :=
  (∀ a x, ((![v550, v364] : Fin 2 → IVec S16 32) a x).toNat < S64x128.size a)
instance k0_chk106.dec : ∀ (v364 : IVec S16 32) (v550 : IVec S16 32), Decidable (k0_chk106 v364 v550) := fun v364 v550 => decidable_of_iff' _ (Iff.of_eq (k0_chk106.eq_1 v364 v550))
theorem k0_idx106_inb : ∀ (v364 : IVec S16 32) (v550 : IVec S16 32) (k0_hw106 : k0_chk106 v364 v550), ∀ a x, ((![v550, v364] : Fin 2 → IVec S16 32) a x).toNat < S64x128.size a := fun v364 v550 k0_hw106 => k0_hw106

def k0_chk107 (v364 : IVec S16 32) (v552 : IVec S16 32) : Prop :=
  (∀ a x, ((![v552, v364] : Fin 2 → IVec S16 32) a x).toNat < S64x128.size a)
instance k0_chk107.dec : ∀ (v364 : IVec S16 32) (v552 : IVec S16 32), Decidable (k0_chk107 v364 v552) := fun v364 v552 => decidable_of_iff' _ (Iff.of_eq (k0_chk107.eq_1 v364 v552))
theorem k0_idx107_inb : ∀ (v364 : IVec S16 32) (v552 : IVec S16 32) (k0_hw107 : k0_chk107 v364 v552), ∀ a x, ((![v552, v364] : Fin 2 → IVec S16 32) a x).toNat < S64x128.size a := fun v364 v552 k0_hw107 => k0_hw107

def k0_chk108 (v364 : IVec S16 32) (v554 : IVec S16 32) : Prop :=
  (∀ a x, ((![v554, v364] : Fin 2 → IVec S16 32) a x).toNat < S64x128.size a)
instance k0_chk108.dec : ∀ (v364 : IVec S16 32) (v554 : IVec S16 32), Decidable (k0_chk108 v364 v554) := fun v364 v554 => decidable_of_iff' _ (Iff.of_eq (k0_chk108.eq_1 v364 v554))
theorem k0_idx108_inb : ∀ (v364 : IVec S16 32) (v554 : IVec S16 32) (k0_hw108 : k0_chk108 v364 v554), ∀ a x, ((![v554, v364] : Fin 2 → IVec S16 32) a x).toNat < S64x128.size a := fun v364 v554 k0_hw108 => k0_hw108

def k0_chk109 (v364 : IVec S16 32) (v556 : IVec S16 32) : Prop :=
  (∀ a x, ((![v556, v364] : Fin 2 → IVec S16 32) a x).toNat < S64x128.size a)
instance k0_chk109.dec : ∀ (v364 : IVec S16 32) (v556 : IVec S16 32), Decidable (k0_chk109 v364 v556) := fun v364 v556 => decidable_of_iff' _ (Iff.of_eq (k0_chk109.eq_1 v364 v556))
theorem k0_idx109_inb : ∀ (v364 : IVec S16 32) (v556 : IVec S16 32) (k0_hw109 : k0_chk109 v364 v556), ∀ a x, ((![v556, v364] : Fin 2 → IVec S16 32) a x).toNat < S64x128.size a := fun v364 v556 k0_hw109 => k0_hw109

def k0_chk110 (v364 : IVec S16 32) (v558 : IVec S16 32) : Prop :=
  (∀ a x, ((![v558, v364] : Fin 2 → IVec S16 32) a x).toNat < S64x128.size a)
instance k0_chk110.dec : ∀ (v364 : IVec S16 32) (v558 : IVec S16 32), Decidable (k0_chk110 v364 v558) := fun v364 v558 => decidable_of_iff' _ (Iff.of_eq (k0_chk110.eq_1 v364 v558))
theorem k0_idx110_inb : ∀ (v364 : IVec S16 32) (v558 : IVec S16 32) (k0_hw110 : k0_chk110 v364 v558), ∀ a x, ((![v558, v364] : Fin 2 → IVec S16 32) a x).toNat < S64x128.size a := fun v364 v558 k0_hw110 => k0_hw110

def k0_chk111 (v364 : IVec S16 32) (v560 : IVec S16 32) : Prop :=
  (∀ a x, ((![v560, v364] : Fin 2 → IVec S16 32) a x).toNat < S64x128.size a)
instance k0_chk111.dec : ∀ (v364 : IVec S16 32) (v560 : IVec S16 32), Decidable (k0_chk111 v364 v560) := fun v364 v560 => decidable_of_iff' _ (Iff.of_eq (k0_chk111.eq_1 v364 v560))
theorem k0_idx111_inb : ∀ (v364 : IVec S16 32) (v560 : IVec S16 32) (k0_hw111 : k0_chk111 v364 v560), ∀ a x, ((![v560, v364] : Fin 2 → IVec S16 32) a x).toNat < S64x128.size a := fun v364 v560 k0_hw111 => k0_hw111

def k0_chk112 (v364 : IVec S16 32) (v562 : IVec S16 32) : Prop :=
  (∀ a x, ((![v562, v364] : Fin 2 → IVec S16 32) a x).toNat < S64x128.size a)
instance k0_chk112.dec : ∀ (v364 : IVec S16 32) (v562 : IVec S16 32), Decidable (k0_chk112 v364 v562) := fun v364 v562 => decidable_of_iff' _ (Iff.of_eq (k0_chk112.eq_1 v364 v562))
theorem k0_idx112_inb : ∀ (v364 : IVec S16 32) (v562 : IVec S16 32) (k0_hw112 : k0_chk112 v364 v562), ∀ a x, ((![v562, v364] : Fin 2 → IVec S16 32) a x).toNat < S64x128.size a := fun v364 v562 k0_hw112 => k0_hw112

def k0_chk113 (v364 : IVec S16 32) (v565 : IVec S16 32) : Prop :=
  (∀ a x, ((![v364, v565] : Fin 2 → IVec S16 32) a x).toNat < S128x128.size a)
instance k0_chk113.dec : ∀ (v364 : IVec S16 32) (v565 : IVec S16 32), Decidable (k0_chk113 v364 v565) := fun v364 v565 => decidable_of_iff' _ (Iff.of_eq (k0_chk113.eq_1 v364 v565))
theorem k0_idx113_inb : ∀ (v364 : IVec S16 32) (v565 : IVec S16 32) (k0_hw113 : k0_chk113 v364 v565), ∀ a x, ((![v364, v565] : Fin 2 → IVec S16 32) a x).toNat < S128x128.size a := fun v364 v565 k0_hw113 => k0_hw113

def k0_chk114 (v364 : IVec S16 32) (v567 : IVec S16 32) : Prop :=
  (∀ a x, ((![v364, v567] : Fin 2 → IVec S16 32) a x).toNat < S128x128.size a)
instance k0_chk114.dec : ∀ (v364 : IVec S16 32) (v567 : IVec S16 32), Decidable (k0_chk114 v364 v567) := fun v364 v567 => decidable_of_iff' _ (Iff.of_eq (k0_chk114.eq_1 v364 v567))
theorem k0_idx114_inb : ∀ (v364 : IVec S16 32) (v567 : IVec S16 32) (k0_hw114 : k0_chk114 v364 v567), ∀ a x, ((![v364, v567] : Fin 2 → IVec S16 32) a x).toNat < S128x128.size a := fun v364 v567 k0_hw114 => k0_hw114

def k0_chk115 (v364 : IVec S16 32) (v569 : IVec S16 32) : Prop :=
  (∀ a x, ((![v364, v569] : Fin 2 → IVec S16 32) a x).toNat < S128x128.size a)
instance k0_chk115.dec : ∀ (v364 : IVec S16 32) (v569 : IVec S16 32), Decidable (k0_chk115 v364 v569) := fun v364 v569 => decidable_of_iff' _ (Iff.of_eq (k0_chk115.eq_1 v364 v569))
theorem k0_idx115_inb : ∀ (v364 : IVec S16 32) (v569 : IVec S16 32) (k0_hw115 : k0_chk115 v364 v569), ∀ a x, ((![v364, v569] : Fin 2 → IVec S16 32) a x).toNat < S128x128.size a := fun v364 v569 k0_hw115 => k0_hw115

def k0_chk116 (v364 : IVec S16 32) (v571 : IVec S16 32) : Prop :=
  (∀ a x, ((![v364, v571] : Fin 2 → IVec S16 32) a x).toNat < S128x128.size a)
instance k0_chk116.dec : ∀ (v364 : IVec S16 32) (v571 : IVec S16 32), Decidable (k0_chk116 v364 v571) := fun v364 v571 => decidable_of_iff' _ (Iff.of_eq (k0_chk116.eq_1 v364 v571))
theorem k0_idx116_inb : ∀ (v364 : IVec S16 32) (v571 : IVec S16 32) (k0_hw116 : k0_chk116 v364 v571), ∀ a x, ((![v364, v571] : Fin 2 → IVec S16 32) a x).toNat < S128x128.size a := fun v364 v571 k0_hw116 => k0_hw116

def k0_chk117 (v364 : IVec S16 32) (v573 : IVec S16 32) : Prop :=
  (∀ a x, ((![v364, v573] : Fin 2 → IVec S16 32) a x).toNat < S128x128.size a)
instance k0_chk117.dec : ∀ (v364 : IVec S16 32) (v573 : IVec S16 32), Decidable (k0_chk117 v364 v573) := fun v364 v573 => decidable_of_iff' _ (Iff.of_eq (k0_chk117.eq_1 v364 v573))
theorem k0_idx117_inb : ∀ (v364 : IVec S16 32) (v573 : IVec S16 32) (k0_hw117 : k0_chk117 v364 v573), ∀ a x, ((![v364, v573] : Fin 2 → IVec S16 32) a x).toNat < S128x128.size a := fun v364 v573 k0_hw117 => k0_hw117

def k0_chk118 (v364 : IVec S16 32) (v575 : IVec S16 32) : Prop :=
  (∀ a x, ((![v364, v575] : Fin 2 → IVec S16 32) a x).toNat < S128x128.size a)
instance k0_chk118.dec : ∀ (v364 : IVec S16 32) (v575 : IVec S16 32), Decidable (k0_chk118 v364 v575) := fun v364 v575 => decidable_of_iff' _ (Iff.of_eq (k0_chk118.eq_1 v364 v575))
theorem k0_idx118_inb : ∀ (v364 : IVec S16 32) (v575 : IVec S16 32) (k0_hw118 : k0_chk118 v364 v575), ∀ a x, ((![v364, v575] : Fin 2 → IVec S16 32) a x).toNat < S128x128.size a := fun v364 v575 k0_hw118 => k0_hw118

def k0_chk119 (v364 : IVec S16 32) (v577 : IVec S16 32) : Prop :=
  (∀ a x, ((![v364, v577] : Fin 2 → IVec S16 32) a x).toNat < S128x128.size a)
instance k0_chk119.dec : ∀ (v364 : IVec S16 32) (v577 : IVec S16 32), Decidable (k0_chk119 v364 v577) := fun v364 v577 => decidable_of_iff' _ (Iff.of_eq (k0_chk119.eq_1 v364 v577))
theorem k0_idx119_inb : ∀ (v364 : IVec S16 32) (v577 : IVec S16 32) (k0_hw119 : k0_chk119 v364 v577), ∀ a x, ((![v364, v577] : Fin 2 → IVec S16 32) a x).toNat < S128x128.size a := fun v364 v577 k0_hw119 => k0_hw119

def k0_chk120 (v364 : IVec S16 32) (v579 : IVec S16 32) : Prop :=
  (∀ a x, ((![v364, v579] : Fin 2 → IVec S16 32) a x).toNat < S128x128.size a)
instance k0_chk120.dec : ∀ (v364 : IVec S16 32) (v579 : IVec S16 32), Decidable (k0_chk120 v364 v579) := fun v364 v579 => decidable_of_iff' _ (Iff.of_eq (k0_chk120.eq_1 v364 v579))
theorem k0_idx120_inb : ∀ (v364 : IVec S16 32) (v579 : IVec S16 32) (k0_hw120 : k0_chk120 v364 v579), ∀ a x, ((![v364, v579] : Fin 2 → IVec S16 32) a x).toNat < S128x128.size a := fun v364 v579 k0_hw120 => k0_hw120

def k0_chk121 (v364 : IVec S16 32) (v581 : IVec S16 32) : Prop :=
  (∀ a x, ((![v364, v581] : Fin 2 → IVec S16 32) a x).toNat < S128x128.size a)
instance k0_chk121.dec : ∀ (v364 : IVec S16 32) (v581 : IVec S16 32), Decidable (k0_chk121 v364 v581) := fun v364 v581 => decidable_of_iff' _ (Iff.of_eq (k0_chk121.eq_1 v364 v581))
theorem k0_idx121_inb : ∀ (v364 : IVec S16 32) (v581 : IVec S16 32) (k0_hw121 : k0_chk121 v364 v581), ∀ a x, ((![v364, v581] : Fin 2 → IVec S16 32) a x).toNat < S128x128.size a := fun v364 v581 k0_hw121 => k0_hw121

def k0_chk122 (v364 : IVec S16 32) (v583 : IVec S16 32) : Prop :=
  (∀ a x, ((![v364, v583] : Fin 2 → IVec S16 32) a x).toNat < S128x128.size a)
instance k0_chk122.dec : ∀ (v364 : IVec S16 32) (v583 : IVec S16 32), Decidable (k0_chk122 v364 v583) := fun v364 v583 => decidable_of_iff' _ (Iff.of_eq (k0_chk122.eq_1 v364 v583))
theorem k0_idx122_inb : ∀ (v364 : IVec S16 32) (v583 : IVec S16 32) (k0_hw122 : k0_chk122 v364 v583), ∀ a x, ((![v364, v583] : Fin 2 → IVec S16 32) a x).toNat < S128x128.size a := fun v364 v583 k0_hw122 => k0_hw122

def k0_chk123 (v364 : IVec S16 32) (v585 : IVec S16 32) : Prop :=
  (∀ a x, ((![v364, v585] : Fin 2 → IVec S16 32) a x).toNat < S128x128.size a)
instance k0_chk123.dec : ∀ (v364 : IVec S16 32) (v585 : IVec S16 32), Decidable (k0_chk123 v364 v585) := fun v364 v585 => decidable_of_iff' _ (Iff.of_eq (k0_chk123.eq_1 v364 v585))
theorem k0_idx123_inb : ∀ (v364 : IVec S16 32) (v585 : IVec S16 32) (k0_hw123 : k0_chk123 v364 v585), ∀ a x, ((![v364, v585] : Fin 2 → IVec S16 32) a x).toNat < S128x128.size a := fun v364 v585 k0_hw123 => k0_hw123

def k0_chk124 (v364 : IVec S16 32) (v587 : IVec S16 32) : Prop :=
  (∀ a x, ((![v364, v587] : Fin 2 → IVec S16 32) a x).toNat < S128x128.size a)
instance k0_chk124.dec : ∀ (v364 : IVec S16 32) (v587 : IVec S16 32), Decidable (k0_chk124 v364 v587) := fun v364 v587 => decidable_of_iff' _ (Iff.of_eq (k0_chk124.eq_1 v364 v587))
theorem k0_idx124_inb : ∀ (v364 : IVec S16 32) (v587 : IVec S16 32) (k0_hw124 : k0_chk124 v364 v587), ∀ a x, ((![v364, v587] : Fin 2 → IVec S16 32) a x).toNat < S128x128.size a := fun v364 v587 k0_hw124 => k0_hw124

def k0_chk125 (v364 : IVec S16 32) (v589 : IVec S16 32) : Prop :=
  (∀ a x, ((![v364, v589] : Fin 2 → IVec S16 32) a x).toNat < S128x128.size a)
instance k0_chk125.dec : ∀ (v364 : IVec S16 32) (v589 : IVec S16 32), Decidable (k0_chk125 v364 v589) := fun v364 v589 => decidable_of_iff' _ (Iff.of_eq (k0_chk125.eq_1 v364 v589))
theorem k0_idx125_inb : ∀ (v364 : IVec S16 32) (v589 : IVec S16 32) (k0_hw125 : k0_chk125 v364 v589), ∀ a x, ((![v364, v589] : Fin 2 → IVec S16 32) a x).toNat < S128x128.size a := fun v364 v589 k0_hw125 => k0_hw125

def k0_chk126 (v364 : IVec S16 32) (v591 : IVec S16 32) : Prop :=
  (∀ a x, ((![v364, v591] : Fin 2 → IVec S16 32) a x).toNat < S128x128.size a)
instance k0_chk126.dec : ∀ (v364 : IVec S16 32) (v591 : IVec S16 32), Decidable (k0_chk126 v364 v591) := fun v364 v591 => decidable_of_iff' _ (Iff.of_eq (k0_chk126.eq_1 v364 v591))
theorem k0_idx126_inb : ∀ (v364 : IVec S16 32) (v591 : IVec S16 32) (k0_hw126 : k0_chk126 v364 v591), ∀ a x, ((![v364, v591] : Fin 2 → IVec S16 32) a x).toNat < S128x128.size a := fun v364 v591 k0_hw126 => k0_hw126

def k0_chk127 (v364 : IVec S16 32) (v593 : IVec S16 32) : Prop :=
  (∀ a x, ((![v364, v593] : Fin 2 → IVec S16 32) a x).toNat < S128x128.size a)
instance k0_chk127.dec : ∀ (v364 : IVec S16 32) (v593 : IVec S16 32), Decidable (k0_chk127 v364 v593) := fun v364 v593 => decidable_of_iff' _ (Iff.of_eq (k0_chk127.eq_1 v364 v593))
theorem k0_idx127_inb : ∀ (v364 : IVec S16 32) (v593 : IVec S16 32) (k0_hw127 : k0_chk127 v364 v593), ∀ a x, ((![v364, v593] : Fin 2 → IVec S16 32) a x).toNat < S128x128.size a := fun v364 v593 k0_hw127 => k0_hw127

def k0_chk128 (v364 : IVec S16 32) (v595 : IVec S16 32) : Prop :=
  (∀ a x, ((![v364, v595] : Fin 2 → IVec S16 32) a x).toNat < S128x128.size a)
instance k0_chk128.dec : ∀ (v364 : IVec S16 32) (v595 : IVec S16 32), Decidable (k0_chk128 v364 v595) := fun v364 v595 => decidable_of_iff' _ (Iff.of_eq (k0_chk128.eq_1 v364 v595))
theorem k0_idx128_inb : ∀ (v364 : IVec S16 32) (v595 : IVec S16 32) (k0_hw128 : k0_chk128 v364 v595), ∀ a x, ((![v364, v595] : Fin 2 → IVec S16 32) a x).toNat < S128x128.size a := fun v364 v595 k0_hw128 => k0_hw128

def k0_chk129 (v364 : IVec S16 32) (v598 : IVec S16 32) : Prop :=
  (∀ a x, ((![v598, v364] : Fin 2 → IVec S16 32) a x).toNat < S64x128.size a)
instance k0_chk129.dec : ∀ (v364 : IVec S16 32) (v598 : IVec S16 32), Decidable (k0_chk129 v364 v598) := fun v364 v598 => decidable_of_iff' _ (Iff.of_eq (k0_chk129.eq_1 v364 v598))
theorem k0_idx129_inb : ∀ (v364 : IVec S16 32) (v598 : IVec S16 32) (k0_hw129 : k0_chk129 v364 v598), ∀ a x, ((![v598, v364] : Fin 2 → IVec S16 32) a x).toNat < S64x128.size a := fun v364 v598 k0_hw129 => k0_hw129

def k0_chk130 (v364 : IVec S16 32) (v600 : IVec S16 32) : Prop :=
  (∀ a x, ((![v600, v364] : Fin 2 → IVec S16 32) a x).toNat < S64x128.size a)
instance k0_chk130.dec : ∀ (v364 : IVec S16 32) (v600 : IVec S16 32), Decidable (k0_chk130 v364 v600) := fun v364 v600 => decidable_of_iff' _ (Iff.of_eq (k0_chk130.eq_1 v364 v600))
theorem k0_idx130_inb : ∀ (v364 : IVec S16 32) (v600 : IVec S16 32) (k0_hw130 : k0_chk130 v364 v600), ∀ a x, ((![v600, v364] : Fin 2 → IVec S16 32) a x).toNat < S64x128.size a := fun v364 v600 k0_hw130 => k0_hw130

def k0_chk131 (v364 : IVec S16 32) (v602 : IVec S16 32) : Prop :=
  (∀ a x, ((![v602, v364] : Fin 2 → IVec S16 32) a x).toNat < S64x128.size a)
instance k0_chk131.dec : ∀ (v364 : IVec S16 32) (v602 : IVec S16 32), Decidable (k0_chk131 v364 v602) := fun v364 v602 => decidable_of_iff' _ (Iff.of_eq (k0_chk131.eq_1 v364 v602))
theorem k0_idx131_inb : ∀ (v364 : IVec S16 32) (v602 : IVec S16 32) (k0_hw131 : k0_chk131 v364 v602), ∀ a x, ((![v602, v364] : Fin 2 → IVec S16 32) a x).toNat < S64x128.size a := fun v364 v602 k0_hw131 => k0_hw131

def k0_chk132 (v364 : IVec S16 32) (v604 : IVec S16 32) : Prop :=
  (∀ a x, ((![v604, v364] : Fin 2 → IVec S16 32) a x).toNat < S64x128.size a)
instance k0_chk132.dec : ∀ (v364 : IVec S16 32) (v604 : IVec S16 32), Decidable (k0_chk132 v364 v604) := fun v364 v604 => decidable_of_iff' _ (Iff.of_eq (k0_chk132.eq_1 v364 v604))
theorem k0_idx132_inb : ∀ (v364 : IVec S16 32) (v604 : IVec S16 32) (k0_hw132 : k0_chk132 v364 v604), ∀ a x, ((![v604, v364] : Fin 2 → IVec S16 32) a x).toNat < S64x128.size a := fun v364 v604 k0_hw132 => k0_hw132

def k0_chk133 (v364 : IVec S16 32) (v606 : IVec S16 32) : Prop :=
  (∀ a x, ((![v606, v364] : Fin 2 → IVec S16 32) a x).toNat < S64x128.size a)
instance k0_chk133.dec : ∀ (v364 : IVec S16 32) (v606 : IVec S16 32), Decidable (k0_chk133 v364 v606) := fun v364 v606 => decidable_of_iff' _ (Iff.of_eq (k0_chk133.eq_1 v364 v606))
theorem k0_idx133_inb : ∀ (v364 : IVec S16 32) (v606 : IVec S16 32) (k0_hw133 : k0_chk133 v364 v606), ∀ a x, ((![v606, v364] : Fin 2 → IVec S16 32) a x).toNat < S64x128.size a := fun v364 v606 k0_hw133 => k0_hw133

def k0_chk134 (v364 : IVec S16 32) (v608 : IVec S16 32) : Prop :=
  (∀ a x, ((![v608, v364] : Fin 2 → IVec S16 32) a x).toNat < S64x128.size a)
instance k0_chk134.dec : ∀ (v364 : IVec S16 32) (v608 : IVec S16 32), Decidable (k0_chk134 v364 v608) := fun v364 v608 => decidable_of_iff' _ (Iff.of_eq (k0_chk134.eq_1 v364 v608))
theorem k0_idx134_inb : ∀ (v364 : IVec S16 32) (v608 : IVec S16 32) (k0_hw134 : k0_chk134 v364 v608), ∀ a x, ((![v608, v364] : Fin 2 → IVec S16 32) a x).toNat < S64x128.size a := fun v364 v608 k0_hw134 => k0_hw134

def k0_chk135 (v364 : IVec S16 32) (v610 : IVec S16 32) : Prop :=
  (∀ a x, ((![v610, v364] : Fin 2 → IVec S16 32) a x).toNat < S64x128.size a)
instance k0_chk135.dec : ∀ (v364 : IVec S16 32) (v610 : IVec S16 32), Decidable (k0_chk135 v364 v610) := fun v364 v610 => decidable_of_iff' _ (Iff.of_eq (k0_chk135.eq_1 v364 v610))
theorem k0_idx135_inb : ∀ (v364 : IVec S16 32) (v610 : IVec S16 32) (k0_hw135 : k0_chk135 v364 v610), ∀ a x, ((![v610, v364] : Fin 2 → IVec S16 32) a x).toNat < S64x128.size a := fun v364 v610 k0_hw135 => k0_hw135

def k0_chk136 (v364 : IVec S16 32) (v612 : IVec S16 32) : Prop :=
  (∀ a x, ((![v612, v364] : Fin 2 → IVec S16 32) a x).toNat < S64x128.size a)
instance k0_chk136.dec : ∀ (v364 : IVec S16 32) (v612 : IVec S16 32), Decidable (k0_chk136 v364 v612) := fun v364 v612 => decidable_of_iff' _ (Iff.of_eq (k0_chk136.eq_1 v364 v612))
theorem k0_idx136_inb : ∀ (v364 : IVec S16 32) (v612 : IVec S16 32) (k0_hw136 : k0_chk136 v364 v612), ∀ a x, ((![v612, v364] : Fin 2 → IVec S16 32) a x).toNat < S64x128.size a := fun v364 v612 k0_hw136 => k0_hw136

def k0_chk137 (v364 : IVec S16 32) (v614 : IVec S16 32) : Prop :=
  (∀ a x, ((![v614, v364] : Fin 2 → IVec S16 32) a x).toNat < S64x128.size a)
instance k0_chk137.dec : ∀ (v364 : IVec S16 32) (v614 : IVec S16 32), Decidable (k0_chk137 v364 v614) := fun v364 v614 => decidable_of_iff' _ (Iff.of_eq (k0_chk137.eq_1 v364 v614))
theorem k0_idx137_inb : ∀ (v364 : IVec S16 32) (v614 : IVec S16 32) (k0_hw137 : k0_chk137 v364 v614), ∀ a x, ((![v614, v364] : Fin 2 → IVec S16 32) a x).toNat < S64x128.size a := fun v364 v614 k0_hw137 => k0_hw137

def k0_chk138 (v364 : IVec S16 32) (v616 : IVec S16 32) : Prop :=
  (∀ a x, ((![v616, v364] : Fin 2 → IVec S16 32) a x).toNat < S64x128.size a)
instance k0_chk138.dec : ∀ (v364 : IVec S16 32) (v616 : IVec S16 32), Decidable (k0_chk138 v364 v616) := fun v364 v616 => decidable_of_iff' _ (Iff.of_eq (k0_chk138.eq_1 v364 v616))
theorem k0_idx138_inb : ∀ (v364 : IVec S16 32) (v616 : IVec S16 32) (k0_hw138 : k0_chk138 v364 v616), ∀ a x, ((![v616, v364] : Fin 2 → IVec S16 32) a x).toNat < S64x128.size a := fun v364 v616 k0_hw138 => k0_hw138

def k0_chk139 (v364 : IVec S16 32) (v618 : IVec S16 32) : Prop :=
  (∀ a x, ((![v618, v364] : Fin 2 → IVec S16 32) a x).toNat < S64x128.size a)
instance k0_chk139.dec : ∀ (v364 : IVec S16 32) (v618 : IVec S16 32), Decidable (k0_chk139 v364 v618) := fun v364 v618 => decidable_of_iff' _ (Iff.of_eq (k0_chk139.eq_1 v364 v618))
theorem k0_idx139_inb : ∀ (v364 : IVec S16 32) (v618 : IVec S16 32) (k0_hw139 : k0_chk139 v364 v618), ∀ a x, ((![v618, v364] : Fin 2 → IVec S16 32) a x).toNat < S64x128.size a := fun v364 v618 k0_hw139 => k0_hw139

def k0_chk140 (v364 : IVec S16 32) (v620 : IVec S16 32) : Prop :=
  (∀ a x, ((![v620, v364] : Fin 2 → IVec S16 32) a x).toNat < S64x128.size a)
instance k0_chk140.dec : ∀ (v364 : IVec S16 32) (v620 : IVec S16 32), Decidable (k0_chk140 v364 v620) := fun v364 v620 => decidable_of_iff' _ (Iff.of_eq (k0_chk140.eq_1 v364 v620))
theorem k0_idx140_inb : ∀ (v364 : IVec S16 32) (v620 : IVec S16 32) (k0_hw140 : k0_chk140 v364 v620), ∀ a x, ((![v620, v364] : Fin 2 → IVec S16 32) a x).toNat < S64x128.size a := fun v364 v620 k0_hw140 => k0_hw140

def k0_chk141 (v364 : IVec S16 32) (v622 : IVec S16 32) : Prop :=
  (∀ a x, ((![v622, v364] : Fin 2 → IVec S16 32) a x).toNat < S64x128.size a)
instance k0_chk141.dec : ∀ (v364 : IVec S16 32) (v622 : IVec S16 32), Decidable (k0_chk141 v364 v622) := fun v364 v622 => decidable_of_iff' _ (Iff.of_eq (k0_chk141.eq_1 v364 v622))
theorem k0_idx141_inb : ∀ (v364 : IVec S16 32) (v622 : IVec S16 32) (k0_hw141 : k0_chk141 v364 v622), ∀ a x, ((![v622, v364] : Fin 2 → IVec S16 32) a x).toNat < S64x128.size a := fun v364 v622 k0_hw141 => k0_hw141

def k0_chk142 (v364 : IVec S16 32) (v624 : IVec S16 32) : Prop :=
  (∀ a x, ((![v624, v364] : Fin 2 → IVec S16 32) a x).toNat < S64x128.size a)
instance k0_chk142.dec : ∀ (v364 : IVec S16 32) (v624 : IVec S16 32), Decidable (k0_chk142 v364 v624) := fun v364 v624 => decidable_of_iff' _ (Iff.of_eq (k0_chk142.eq_1 v364 v624))
theorem k0_idx142_inb : ∀ (v364 : IVec S16 32) (v624 : IVec S16 32) (k0_hw142 : k0_chk142 v364 v624), ∀ a x, ((![v624, v364] : Fin 2 → IVec S16 32) a x).toNat < S64x128.size a := fun v364 v624 k0_hw142 => k0_hw142

def k0_chk143 (v364 : IVec S16 32) (v626 : IVec S16 32) : Prop :=
  (∀ a x, ((![v626, v364] : Fin 2 → IVec S16 32) a x).toNat < S64x128.size a)
instance k0_chk143.dec : ∀ (v364 : IVec S16 32) (v626 : IVec S16 32), Decidable (k0_chk143 v364 v626) := fun v364 v626 => decidable_of_iff' _ (Iff.of_eq (k0_chk143.eq_1 v364 v626))
theorem k0_idx143_inb : ∀ (v364 : IVec S16 32) (v626 : IVec S16 32) (k0_hw143 : k0_chk143 v364 v626), ∀ a x, ((![v626, v364] : Fin 2 → IVec S16 32) a x).toNat < S64x128.size a := fun v364 v626 k0_hw143 => k0_hw143

def k0_chk144 (v364 : IVec S16 32) (v628 : IVec S16 32) : Prop :=
  (∀ a x, ((![v628, v364] : Fin 2 → IVec S16 32) a x).toNat < S64x128.size a)
instance k0_chk144.dec : ∀ (v364 : IVec S16 32) (v628 : IVec S16 32), Decidable (k0_chk144 v364 v628) := fun v364 v628 => decidable_of_iff' _ (Iff.of_eq (k0_chk144.eq_1 v364 v628))
theorem k0_idx144_inb : ∀ (v364 : IVec S16 32) (v628 : IVec S16 32) (k0_hw144 : k0_chk144 v364 v628), ∀ a x, ((![v628, v364] : Fin 2 → IVec S16 32) a x).toNat < S64x128.size a := fun v364 v628 k0_hw144 => k0_hw144
def k0_off3 (i : grid0.Coords) : Fin 3 → Nat :=
  let c0_i32_159 : BitVec 32 := 0#32
  let c0_i32_160 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_157 : BitVec 32 := 4#32
  let v329 : BitVec 32 := Scalar.muli v1 c4_i32_157
  let c0_i32_158 : BitVec 32 := 0#32
  let v330 : BitVec 32 := Scalar.addi v329 c0_i32_158
  let c128_i32 : BitVec 32 := 128#32
  let v331 : BitVec 32 := Scalar.muli v330 c128_i32
  ![0, 0, v331.toNat]
@[reducible] def k0_t2_loop : Scf.Loop 32 :=
  let c1_i32_163 : BitVec 32 := 1#32
  let c99_i32 : BitVec 32 := 99#32
  let v336 : BitVec 32 := Scalar.addi c1_i32_163 c99_i32
  let c1_i32_164 : BitVec 32 := 1#32
  ⟨c1_i32_163, v336, c1_i32_164⟩

def k0_chk145 (v395 : IVec S16 32) : Prop :=
  (∀ a x, ((![v395] : Fin 1 → IVec S16 32) a x).toNat < S25600.size a)
instance k0_chk145.dec : ∀ (v395 : IVec S16 32), Decidable (k0_chk145 v395) := fun v395 => decidable_of_iff' _ (Iff.of_eq (k0_chk145.eq_1 v395))
theorem k0_idx145_inb : ∀ (v395 : IVec S16 32) (k0_hw145 : k0_chk145 v395), ∀ a x, ((![v395] : Fin 1 → IVec S16 32) a x).toNat < S25600.size a := fun v395 k0_hw145 => k0_hw145

def k0_chk146 (v411 : IVec S16 32) : Prop :=
  (∀ a x, ((![v411] : Fin 1 → IVec S16 32) a x).toNat < S25600.size a)
instance k0_chk146.dec : ∀ (v411 : IVec S16 32), Decidable (k0_chk146 v411) := fun v411 => decidable_of_iff' _ (Iff.of_eq (k0_chk146.eq_1 v411))
theorem k0_idx146_inb : ∀ (v411 : IVec S16 32) (k0_hw146 : k0_chk146 v411), ∀ a x, ((![v411] : Fin 1 → IVec S16 32) a x).toNat < S25600.size a := fun v411 k0_hw146 => k0_hw146

def k0_chk147 (v427 : IVec S16 32) : Prop :=
  (∀ a x, ((![v427] : Fin 1 → IVec S16 32) a x).toNat < S25600.size a)
instance k0_chk147.dec : ∀ (v427 : IVec S16 32), Decidable (k0_chk147 v427) := fun v427 => decidable_of_iff' _ (Iff.of_eq (k0_chk147.eq_1 v427))
theorem k0_idx147_inb : ∀ (v427 : IVec S16 32) (k0_hw147 : k0_chk147 v427), ∀ a x, ((![v427] : Fin 1 → IVec S16 32) a x).toNat < S25600.size a := fun v427 k0_hw147 => k0_hw147

def k0_chk148 (v443 : IVec S16 32) : Prop :=
  (∀ a x, ((![v443] : Fin 1 → IVec S16 32) a x).toNat < S25600.size a)
instance k0_chk148.dec : ∀ (v443 : IVec S16 32), Decidable (k0_chk148 v443) := fun v443 => decidable_of_iff' _ (Iff.of_eq (k0_chk148.eq_1 v443))
theorem k0_idx148_inb : ∀ (v443 : IVec S16 32) (k0_hw148 : k0_chk148 v443), ∀ a x, ((![v443] : Fin 1 → IVec S16 32) a x).toNat < S25600.size a := fun v443 k0_hw148 => k0_hw148

def k0_chk149 (v459 : IVec S16 32) : Prop :=
  (∀ a x, ((![v459] : Fin 1 → IVec S16 32) a x).toNat < S25600.size a)
instance k0_chk149.dec : ∀ (v459 : IVec S16 32), Decidable (k0_chk149 v459) := fun v459 => decidable_of_iff' _ (Iff.of_eq (k0_chk149.eq_1 v459))
theorem k0_idx149_inb : ∀ (v459 : IVec S16 32) (k0_hw149 : k0_chk149 v459), ∀ a x, ((![v459] : Fin 1 → IVec S16 32) a x).toNat < S25600.size a := fun v459 k0_hw149 => k0_hw149

def k0_chk150 (v475 : IVec S16 32) : Prop :=
  (∀ a x, ((![v475] : Fin 1 → IVec S16 32) a x).toNat < S25600.size a)
instance k0_chk150.dec : ∀ (v475 : IVec S16 32), Decidable (k0_chk150 v475) := fun v475 => decidable_of_iff' _ (Iff.of_eq (k0_chk150.eq_1 v475))
theorem k0_idx150_inb : ∀ (v475 : IVec S16 32) (k0_hw150 : k0_chk150 v475), ∀ a x, ((![v475] : Fin 1 → IVec S16 32) a x).toNat < S25600.size a := fun v475 k0_hw150 => k0_hw150

def k0_chk151 (v491 : IVec S16 32) : Prop :=
  (∀ a x, ((![v491] : Fin 1 → IVec S16 32) a x).toNat < S25600.size a)
instance k0_chk151.dec : ∀ (v491 : IVec S16 32), Decidable (k0_chk151 v491) := fun v491 => decidable_of_iff' _ (Iff.of_eq (k0_chk151.eq_1 v491))
theorem k0_idx151_inb : ∀ (v491 : IVec S16 32) (k0_hw151 : k0_chk151 v491), ∀ a x, ((![v491] : Fin 1 → IVec S16 32) a x).toNat < S25600.size a := fun v491 k0_hw151 => k0_hw151

def k0_chk152 (v507 : IVec S16 32) : Prop :=
  (∀ a x, ((![v507] : Fin 1 → IVec S16 32) a x).toNat < S25600.size a)
instance k0_chk152.dec : ∀ (v507 : IVec S16 32), Decidable (k0_chk152 v507) := fun v507 => decidable_of_iff' _ (Iff.of_eq (k0_chk152.eq_1 v507))
theorem k0_idx152_inb : ∀ (v507 : IVec S16 32) (k0_hw152 : k0_chk152 v507), ∀ a x, ((![v507] : Fin 1 → IVec S16 32) a x).toNat < S25600.size a := fun v507 k0_hw152 => k0_hw152
def k0_off4 (i : grid0.Coords) : Fin 3 → Nat :=
  let c0_i32_272 : BitVec 32 := 0#32
  let c0_i32_273 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_269 : BitVec 32 := 4#32
  let v518 : BitVec 32 := Scalar.muli v1 c4_i32_269
  let c0_i32_270 : BitVec 32 := 0#32
  let v519 : BitVec 32 := Scalar.addi v518 c0_i32_270
  let c128_i32_271 : BitVec 32 := 128#32
  let v520 : BitVec 32 := Scalar.muli v519 c128_i32_271
  ![0, 0, v520.toNat]
@[reducible] def k0_t3_loop : Scf.Loop 32 :=
  let c0_i32_280 : BitVec 32 := 0#32
  let c8_i32_281 : BitVec 32 := 8#32
  let v527 : BitVec 32 := Scalar.addi c0_i32_280 c8_i32_281
  let c1_i32_282 : BitVec 32 := 1#32
  ⟨c0_i32_280, v527, c1_i32_282⟩
def k0_off5 (k0_t3 : Fin k0_t3_loop.trips) : Fin 2 → Nat :=
  let c0_i32_280 : BitVec 32 := 0#32
  let c1_i32_282 : BitVec 32 := 1#32
  let arg19 : BitVec 32 := Scf.iv c0_i32_280 c1_i32_282 k0_t3
  let v767 : Index := Scalar.indexCast arg19
  let c0_415 : Index := 0#32
  ![v767.toNat, 0]

def k0_chk153 (v771 : IVec S16 32) (v774 : IVec S16 32) : Prop :=
  (∀ a x, ((![v771, v774] : Fin 2 → IVec S16 32) a x).toNat < S128x128.size a)
instance k0_chk153.dec : ∀ (v771 : IVec S16 32) (v774 : IVec S16 32), Decidable (k0_chk153 v771 v774) := fun v771 v774 => decidable_of_iff' _ (Iff.of_eq (k0_chk153.eq_1 v771 v774))
theorem k0_idx153_inb : ∀ (v771 : IVec S16 32) (v774 : IVec S16 32) (k0_hw153 : k0_chk153 v771 v774), ∀ a x, ((![v771, v774] : Fin 2 → IVec S16 32) a x).toNat < S128x128.size a := fun v771 v774 k0_hw153 => k0_hw153

def k0_chk154 (v771 : IVec S16 32) (v776 : IVec S16 32) : Prop :=
  (∀ a x, ((![v771, v776] : Fin 2 → IVec S16 32) a x).toNat < S128x128.size a)
instance k0_chk154.dec : ∀ (v771 : IVec S16 32) (v776 : IVec S16 32), Decidable (k0_chk154 v771 v776) := fun v771 v776 => decidable_of_iff' _ (Iff.of_eq (k0_chk154.eq_1 v771 v776))
theorem k0_idx154_inb : ∀ (v771 : IVec S16 32) (v776 : IVec S16 32) (k0_hw154 : k0_chk154 v771 v776), ∀ a x, ((![v771, v776] : Fin 2 → IVec S16 32) a x).toNat < S128x128.size a := fun v771 v776 k0_hw154 => k0_hw154

def k0_chk155 (v771 : IVec S16 32) (v778 : IVec S16 32) : Prop :=
  (∀ a x, ((![v771, v778] : Fin 2 → IVec S16 32) a x).toNat < S128x128.size a)
instance k0_chk155.dec : ∀ (v771 : IVec S16 32) (v778 : IVec S16 32), Decidable (k0_chk155 v771 v778) := fun v771 v778 => decidable_of_iff' _ (Iff.of_eq (k0_chk155.eq_1 v771 v778))
theorem k0_idx155_inb : ∀ (v771 : IVec S16 32) (v778 : IVec S16 32) (k0_hw155 : k0_chk155 v771 v778), ∀ a x, ((![v771, v778] : Fin 2 → IVec S16 32) a x).toNat < S128x128.size a := fun v771 v778 k0_hw155 => k0_hw155

def k0_chk156 (v771 : IVec S16 32) (v780 : IVec S16 32) : Prop :=
  (∀ a x, ((![v771, v780] : Fin 2 → IVec S16 32) a x).toNat < S128x128.size a)
instance k0_chk156.dec : ∀ (v771 : IVec S16 32) (v780 : IVec S16 32), Decidable (k0_chk156 v771 v780) := fun v771 v780 => decidable_of_iff' _ (Iff.of_eq (k0_chk156.eq_1 v771 v780))
theorem k0_idx156_inb : ∀ (v771 : IVec S16 32) (v780 : IVec S16 32) (k0_hw156 : k0_chk156 v771 v780), ∀ a x, ((![v771, v780] : Fin 2 → IVec S16 32) a x).toNat < S128x128.size a := fun v771 v780 k0_hw156 => k0_hw156

def k0_chk157 (v771 : IVec S16 32) (v782 : IVec S16 32) : Prop :=
  (∀ a x, ((![v771, v782] : Fin 2 → IVec S16 32) a x).toNat < S128x128.size a)
instance k0_chk157.dec : ∀ (v771 : IVec S16 32) (v782 : IVec S16 32), Decidable (k0_chk157 v771 v782) := fun v771 v782 => decidable_of_iff' _ (Iff.of_eq (k0_chk157.eq_1 v771 v782))
theorem k0_idx157_inb : ∀ (v771 : IVec S16 32) (v782 : IVec S16 32) (k0_hw157 : k0_chk157 v771 v782), ∀ a x, ((![v771, v782] : Fin 2 → IVec S16 32) a x).toNat < S128x128.size a := fun v771 v782 k0_hw157 => k0_hw157

def k0_chk158 (v771 : IVec S16 32) (v784 : IVec S16 32) : Prop :=
  (∀ a x, ((![v771, v784] : Fin 2 → IVec S16 32) a x).toNat < S128x128.size a)
instance k0_chk158.dec : ∀ (v771 : IVec S16 32) (v784 : IVec S16 32), Decidable (k0_chk158 v771 v784) := fun v771 v784 => decidable_of_iff' _ (Iff.of_eq (k0_chk158.eq_1 v771 v784))
theorem k0_idx158_inb : ∀ (v771 : IVec S16 32) (v784 : IVec S16 32) (k0_hw158 : k0_chk158 v771 v784), ∀ a x, ((![v771, v784] : Fin 2 → IVec S16 32) a x).toNat < S128x128.size a := fun v771 v784 k0_hw158 => k0_hw158

def k0_chk159 (v771 : IVec S16 32) (v786 : IVec S16 32) : Prop :=
  (∀ a x, ((![v771, v786] : Fin 2 → IVec S16 32) a x).toNat < S128x128.size a)
instance k0_chk159.dec : ∀ (v771 : IVec S16 32) (v786 : IVec S16 32), Decidable (k0_chk159 v771 v786) := fun v771 v786 => decidable_of_iff' _ (Iff.of_eq (k0_chk159.eq_1 v771 v786))
theorem k0_idx159_inb : ∀ (v771 : IVec S16 32) (v786 : IVec S16 32) (k0_hw159 : k0_chk159 v771 v786), ∀ a x, ((![v771, v786] : Fin 2 → IVec S16 32) a x).toNat < S128x128.size a := fun v771 v786 k0_hw159 => k0_hw159

def k0_chk160 (v771 : IVec S16 32) (v788 : IVec S16 32) : Prop :=
  (∀ a x, ((![v771, v788] : Fin 2 → IVec S16 32) a x).toNat < S128x128.size a)
instance k0_chk160.dec : ∀ (v771 : IVec S16 32) (v788 : IVec S16 32), Decidable (k0_chk160 v771 v788) := fun v771 v788 => decidable_of_iff' _ (Iff.of_eq (k0_chk160.eq_1 v771 v788))
theorem k0_idx160_inb : ∀ (v771 : IVec S16 32) (v788 : IVec S16 32) (k0_hw160 : k0_chk160 v771 v788), ∀ a x, ((![v771, v788] : Fin 2 → IVec S16 32) a x).toNat < S128x128.size a := fun v771 v788 k0_hw160 => k0_hw160

def k0_chk161 (v771 : IVec S16 32) (v790 : IVec S16 32) : Prop :=
  (∀ a x, ((![v771, v790] : Fin 2 → IVec S16 32) a x).toNat < S128x128.size a)
instance k0_chk161.dec : ∀ (v771 : IVec S16 32) (v790 : IVec S16 32), Decidable (k0_chk161 v771 v790) := fun v771 v790 => decidable_of_iff' _ (Iff.of_eq (k0_chk161.eq_1 v771 v790))
theorem k0_idx161_inb : ∀ (v771 : IVec S16 32) (v790 : IVec S16 32) (k0_hw161 : k0_chk161 v771 v790), ∀ a x, ((![v771, v790] : Fin 2 → IVec S16 32) a x).toNat < S128x128.size a := fun v771 v790 k0_hw161 => k0_hw161

def k0_chk162 (v771 : IVec S16 32) (v792 : IVec S16 32) : Prop :=
  (∀ a x, ((![v771, v792] : Fin 2 → IVec S16 32) a x).toNat < S128x128.size a)
instance k0_chk162.dec : ∀ (v771 : IVec S16 32) (v792 : IVec S16 32), Decidable (k0_chk162 v771 v792) := fun v771 v792 => decidable_of_iff' _ (Iff.of_eq (k0_chk162.eq_1 v771 v792))
theorem k0_idx162_inb : ∀ (v771 : IVec S16 32) (v792 : IVec S16 32) (k0_hw162 : k0_chk162 v771 v792), ∀ a x, ((![v771, v792] : Fin 2 → IVec S16 32) a x).toNat < S128x128.size a := fun v771 v792 k0_hw162 => k0_hw162

def k0_chk163 (v771 : IVec S16 32) (v794 : IVec S16 32) : Prop :=
  (∀ a x, ((![v771, v794] : Fin 2 → IVec S16 32) a x).toNat < S128x128.size a)
instance k0_chk163.dec : ∀ (v771 : IVec S16 32) (v794 : IVec S16 32), Decidable (k0_chk163 v771 v794) := fun v771 v794 => decidable_of_iff' _ (Iff.of_eq (k0_chk163.eq_1 v771 v794))
theorem k0_idx163_inb : ∀ (v771 : IVec S16 32) (v794 : IVec S16 32) (k0_hw163 : k0_chk163 v771 v794), ∀ a x, ((![v771, v794] : Fin 2 → IVec S16 32) a x).toNat < S128x128.size a := fun v771 v794 k0_hw163 => k0_hw163

def k0_chk164 (v771 : IVec S16 32) (v796 : IVec S16 32) : Prop :=
  (∀ a x, ((![v771, v796] : Fin 2 → IVec S16 32) a x).toNat < S128x128.size a)
instance k0_chk164.dec : ∀ (v771 : IVec S16 32) (v796 : IVec S16 32), Decidable (k0_chk164 v771 v796) := fun v771 v796 => decidable_of_iff' _ (Iff.of_eq (k0_chk164.eq_1 v771 v796))
theorem k0_idx164_inb : ∀ (v771 : IVec S16 32) (v796 : IVec S16 32) (k0_hw164 : k0_chk164 v771 v796), ∀ a x, ((![v771, v796] : Fin 2 → IVec S16 32) a x).toNat < S128x128.size a := fun v771 v796 k0_hw164 => k0_hw164

def k0_chk165 (v771 : IVec S16 32) (v798 : IVec S16 32) : Prop :=
  (∀ a x, ((![v771, v798] : Fin 2 → IVec S16 32) a x).toNat < S128x128.size a)
instance k0_chk165.dec : ∀ (v771 : IVec S16 32) (v798 : IVec S16 32), Decidable (k0_chk165 v771 v798) := fun v771 v798 => decidable_of_iff' _ (Iff.of_eq (k0_chk165.eq_1 v771 v798))
theorem k0_idx165_inb : ∀ (v771 : IVec S16 32) (v798 : IVec S16 32) (k0_hw165 : k0_chk165 v771 v798), ∀ a x, ((![v771, v798] : Fin 2 → IVec S16 32) a x).toNat < S128x128.size a := fun v771 v798 k0_hw165 => k0_hw165

def k0_chk166 (v771 : IVec S16 32) (v800 : IVec S16 32) : Prop :=
  (∀ a x, ((![v771, v800] : Fin 2 → IVec S16 32) a x).toNat < S128x128.size a)
instance k0_chk166.dec : ∀ (v771 : IVec S16 32) (v800 : IVec S16 32), Decidable (k0_chk166 v771 v800) := fun v771 v800 => decidable_of_iff' _ (Iff.of_eq (k0_chk166.eq_1 v771 v800))
theorem k0_idx166_inb : ∀ (v771 : IVec S16 32) (v800 : IVec S16 32) (k0_hw166 : k0_chk166 v771 v800), ∀ a x, ((![v771, v800] : Fin 2 → IVec S16 32) a x).toNat < S128x128.size a := fun v771 v800 k0_hw166 => k0_hw166

def k0_chk167 (v771 : IVec S16 32) (v802 : IVec S16 32) : Prop :=
  (∀ a x, ((![v771, v802] : Fin 2 → IVec S16 32) a x).toNat < S128x128.size a)
instance k0_chk167.dec : ∀ (v771 : IVec S16 32) (v802 : IVec S16 32), Decidable (k0_chk167 v771 v802) := fun v771 v802 => decidable_of_iff' _ (Iff.of_eq (k0_chk167.eq_1 v771 v802))
theorem k0_idx167_inb : ∀ (v771 : IVec S16 32) (v802 : IVec S16 32) (k0_hw167 : k0_chk167 v771 v802), ∀ a x, ((![v771, v802] : Fin 2 → IVec S16 32) a x).toNat < S128x128.size a := fun v771 v802 k0_hw167 => k0_hw167

def k0_chk168 (v771 : IVec S16 32) (v804 : IVec S16 32) : Prop :=
  (∀ a x, ((![v771, v804] : Fin 2 → IVec S16 32) a x).toNat < S128x128.size a)
instance k0_chk168.dec : ∀ (v771 : IVec S16 32) (v804 : IVec S16 32), Decidable (k0_chk168 v771 v804) := fun v771 v804 => decidable_of_iff' _ (Iff.of_eq (k0_chk168.eq_1 v771 v804))
theorem k0_idx168_inb : ∀ (v771 : IVec S16 32) (v804 : IVec S16 32) (k0_hw168 : k0_chk168 v771 v804), ∀ a x, ((![v771, v804] : Fin 2 → IVec S16 32) a x).toNat < S128x128.size a := fun v771 v804 k0_hw168 => k0_hw168

def k0_chk169 (v771 : IVec S16 32) (v807 : IVec S16 32) : Prop :=
  (∀ a x, ((![v807, v771] : Fin 2 → IVec S16 32) a x).toNat < S64x128.size a)
instance k0_chk169.dec : ∀ (v771 : IVec S16 32) (v807 : IVec S16 32), Decidable (k0_chk169 v771 v807) := fun v771 v807 => decidable_of_iff' _ (Iff.of_eq (k0_chk169.eq_1 v771 v807))
theorem k0_idx169_inb : ∀ (v771 : IVec S16 32) (v807 : IVec S16 32) (k0_hw169 : k0_chk169 v771 v807), ∀ a x, ((![v807, v771] : Fin 2 → IVec S16 32) a x).toNat < S64x128.size a := fun v771 v807 k0_hw169 => k0_hw169

def k0_chk170 (v771 : IVec S16 32) (v809 : IVec S16 32) : Prop :=
  (∀ a x, ((![v809, v771] : Fin 2 → IVec S16 32) a x).toNat < S64x128.size a)
instance k0_chk170.dec : ∀ (v771 : IVec S16 32) (v809 : IVec S16 32), Decidable (k0_chk170 v771 v809) := fun v771 v809 => decidable_of_iff' _ (Iff.of_eq (k0_chk170.eq_1 v771 v809))
theorem k0_idx170_inb : ∀ (v771 : IVec S16 32) (v809 : IVec S16 32) (k0_hw170 : k0_chk170 v771 v809), ∀ a x, ((![v809, v771] : Fin 2 → IVec S16 32) a x).toNat < S64x128.size a := fun v771 v809 k0_hw170 => k0_hw170

def k0_chk171 (v771 : IVec S16 32) (v811 : IVec S16 32) : Prop :=
  (∀ a x, ((![v811, v771] : Fin 2 → IVec S16 32) a x).toNat < S64x128.size a)
instance k0_chk171.dec : ∀ (v771 : IVec S16 32) (v811 : IVec S16 32), Decidable (k0_chk171 v771 v811) := fun v771 v811 => decidable_of_iff' _ (Iff.of_eq (k0_chk171.eq_1 v771 v811))
theorem k0_idx171_inb : ∀ (v771 : IVec S16 32) (v811 : IVec S16 32) (k0_hw171 : k0_chk171 v771 v811), ∀ a x, ((![v811, v771] : Fin 2 → IVec S16 32) a x).toNat < S64x128.size a := fun v771 v811 k0_hw171 => k0_hw171

def k0_chk172 (v771 : IVec S16 32) (v813 : IVec S16 32) : Prop :=
  (∀ a x, ((![v813, v771] : Fin 2 → IVec S16 32) a x).toNat < S64x128.size a)
instance k0_chk172.dec : ∀ (v771 : IVec S16 32) (v813 : IVec S16 32), Decidable (k0_chk172 v771 v813) := fun v771 v813 => decidable_of_iff' _ (Iff.of_eq (k0_chk172.eq_1 v771 v813))
theorem k0_idx172_inb : ∀ (v771 : IVec S16 32) (v813 : IVec S16 32) (k0_hw172 : k0_chk172 v771 v813), ∀ a x, ((![v813, v771] : Fin 2 → IVec S16 32) a x).toNat < S64x128.size a := fun v771 v813 k0_hw172 => k0_hw172

def k0_chk173 (v771 : IVec S16 32) (v815 : IVec S16 32) : Prop :=
  (∀ a x, ((![v815, v771] : Fin 2 → IVec S16 32) a x).toNat < S64x128.size a)
instance k0_chk173.dec : ∀ (v771 : IVec S16 32) (v815 : IVec S16 32), Decidable (k0_chk173 v771 v815) := fun v771 v815 => decidable_of_iff' _ (Iff.of_eq (k0_chk173.eq_1 v771 v815))
theorem k0_idx173_inb : ∀ (v771 : IVec S16 32) (v815 : IVec S16 32) (k0_hw173 : k0_chk173 v771 v815), ∀ a x, ((![v815, v771] : Fin 2 → IVec S16 32) a x).toNat < S64x128.size a := fun v771 v815 k0_hw173 => k0_hw173

def k0_chk174 (v771 : IVec S16 32) (v817 : IVec S16 32) : Prop :=
  (∀ a x, ((![v817, v771] : Fin 2 → IVec S16 32) a x).toNat < S64x128.size a)
instance k0_chk174.dec : ∀ (v771 : IVec S16 32) (v817 : IVec S16 32), Decidable (k0_chk174 v771 v817) := fun v771 v817 => decidable_of_iff' _ (Iff.of_eq (k0_chk174.eq_1 v771 v817))
theorem k0_idx174_inb : ∀ (v771 : IVec S16 32) (v817 : IVec S16 32) (k0_hw174 : k0_chk174 v771 v817), ∀ a x, ((![v817, v771] : Fin 2 → IVec S16 32) a x).toNat < S64x128.size a := fun v771 v817 k0_hw174 => k0_hw174

def k0_chk175 (v771 : IVec S16 32) (v819 : IVec S16 32) : Prop :=
  (∀ a x, ((![v819, v771] : Fin 2 → IVec S16 32) a x).toNat < S64x128.size a)
instance k0_chk175.dec : ∀ (v771 : IVec S16 32) (v819 : IVec S16 32), Decidable (k0_chk175 v771 v819) := fun v771 v819 => decidable_of_iff' _ (Iff.of_eq (k0_chk175.eq_1 v771 v819))
theorem k0_idx175_inb : ∀ (v771 : IVec S16 32) (v819 : IVec S16 32) (k0_hw175 : k0_chk175 v771 v819), ∀ a x, ((![v819, v771] : Fin 2 → IVec S16 32) a x).toNat < S64x128.size a := fun v771 v819 k0_hw175 => k0_hw175

def k0_chk176 (v771 : IVec S16 32) (v821 : IVec S16 32) : Prop :=
  (∀ a x, ((![v821, v771] : Fin 2 → IVec S16 32) a x).toNat < S64x128.size a)
instance k0_chk176.dec : ∀ (v771 : IVec S16 32) (v821 : IVec S16 32), Decidable (k0_chk176 v771 v821) := fun v771 v821 => decidable_of_iff' _ (Iff.of_eq (k0_chk176.eq_1 v771 v821))
theorem k0_idx176_inb : ∀ (v771 : IVec S16 32) (v821 : IVec S16 32) (k0_hw176 : k0_chk176 v771 v821), ∀ a x, ((![v821, v771] : Fin 2 → IVec S16 32) a x).toNat < S64x128.size a := fun v771 v821 k0_hw176 => k0_hw176

def k0_chk177 (v771 : IVec S16 32) (v823 : IVec S16 32) : Prop :=
  (∀ a x, ((![v823, v771] : Fin 2 → IVec S16 32) a x).toNat < S64x128.size a)
instance k0_chk177.dec : ∀ (v771 : IVec S16 32) (v823 : IVec S16 32), Decidable (k0_chk177 v771 v823) := fun v771 v823 => decidable_of_iff' _ (Iff.of_eq (k0_chk177.eq_1 v771 v823))
theorem k0_idx177_inb : ∀ (v771 : IVec S16 32) (v823 : IVec S16 32) (k0_hw177 : k0_chk177 v771 v823), ∀ a x, ((![v823, v771] : Fin 2 → IVec S16 32) a x).toNat < S64x128.size a := fun v771 v823 k0_hw177 => k0_hw177

def k0_chk178 (v771 : IVec S16 32) (v825 : IVec S16 32) : Prop :=
  (∀ a x, ((![v825, v771] : Fin 2 → IVec S16 32) a x).toNat < S64x128.size a)
instance k0_chk178.dec : ∀ (v771 : IVec S16 32) (v825 : IVec S16 32), Decidable (k0_chk178 v771 v825) := fun v771 v825 => decidable_of_iff' _ (Iff.of_eq (k0_chk178.eq_1 v771 v825))
theorem k0_idx178_inb : ∀ (v771 : IVec S16 32) (v825 : IVec S16 32) (k0_hw178 : k0_chk178 v771 v825), ∀ a x, ((![v825, v771] : Fin 2 → IVec S16 32) a x).toNat < S64x128.size a := fun v771 v825 k0_hw178 => k0_hw178

def k0_chk179 (v771 : IVec S16 32) (v827 : IVec S16 32) : Prop :=
  (∀ a x, ((![v827, v771] : Fin 2 → IVec S16 32) a x).toNat < S64x128.size a)
instance k0_chk179.dec : ∀ (v771 : IVec S16 32) (v827 : IVec S16 32), Decidable (k0_chk179 v771 v827) := fun v771 v827 => decidable_of_iff' _ (Iff.of_eq (k0_chk179.eq_1 v771 v827))
theorem k0_idx179_inb : ∀ (v771 : IVec S16 32) (v827 : IVec S16 32) (k0_hw179 : k0_chk179 v771 v827), ∀ a x, ((![v827, v771] : Fin 2 → IVec S16 32) a x).toNat < S64x128.size a := fun v771 v827 k0_hw179 => k0_hw179

def k0_chk180 (v771 : IVec S16 32) (v829 : IVec S16 32) : Prop :=
  (∀ a x, ((![v829, v771] : Fin 2 → IVec S16 32) a x).toNat < S64x128.size a)
instance k0_chk180.dec : ∀ (v771 : IVec S16 32) (v829 : IVec S16 32), Decidable (k0_chk180 v771 v829) := fun v771 v829 => decidable_of_iff' _ (Iff.of_eq (k0_chk180.eq_1 v771 v829))
theorem k0_idx180_inb : ∀ (v771 : IVec S16 32) (v829 : IVec S16 32) (k0_hw180 : k0_chk180 v771 v829), ∀ a x, ((![v829, v771] : Fin 2 → IVec S16 32) a x).toNat < S64x128.size a := fun v771 v829 k0_hw180 => k0_hw180

def k0_chk181 (v771 : IVec S16 32) (v831 : IVec S16 32) : Prop :=
  (∀ a x, ((![v831, v771] : Fin 2 → IVec S16 32) a x).toNat < S64x128.size a)
instance k0_chk181.dec : ∀ (v771 : IVec S16 32) (v831 : IVec S16 32), Decidable (k0_chk181 v771 v831) := fun v771 v831 => decidable_of_iff' _ (Iff.of_eq (k0_chk181.eq_1 v771 v831))
theorem k0_idx181_inb : ∀ (v771 : IVec S16 32) (v831 : IVec S16 32) (k0_hw181 : k0_chk181 v771 v831), ∀ a x, ((![v831, v771] : Fin 2 → IVec S16 32) a x).toNat < S64x128.size a := fun v771 v831 k0_hw181 => k0_hw181

def k0_chk182 (v771 : IVec S16 32) (v833 : IVec S16 32) : Prop :=
  (∀ a x, ((![v833, v771] : Fin 2 → IVec S16 32) a x).toNat < S64x128.size a)
instance k0_chk182.dec : ∀ (v771 : IVec S16 32) (v833 : IVec S16 32), Decidable (k0_chk182 v771 v833) := fun v771 v833 => decidable_of_iff' _ (Iff.of_eq (k0_chk182.eq_1 v771 v833))
theorem k0_idx182_inb : ∀ (v771 : IVec S16 32) (v833 : IVec S16 32) (k0_hw182 : k0_chk182 v771 v833), ∀ a x, ((![v833, v771] : Fin 2 → IVec S16 32) a x).toNat < S64x128.size a := fun v771 v833 k0_hw182 => k0_hw182

def k0_chk183 (v771 : IVec S16 32) (v835 : IVec S16 32) : Prop :=
  (∀ a x, ((![v835, v771] : Fin 2 → IVec S16 32) a x).toNat < S64x128.size a)
instance k0_chk183.dec : ∀ (v771 : IVec S16 32) (v835 : IVec S16 32), Decidable (k0_chk183 v771 v835) := fun v771 v835 => decidable_of_iff' _ (Iff.of_eq (k0_chk183.eq_1 v771 v835))
theorem k0_idx183_inb : ∀ (v771 : IVec S16 32) (v835 : IVec S16 32) (k0_hw183 : k0_chk183 v771 v835), ∀ a x, ((![v835, v771] : Fin 2 → IVec S16 32) a x).toNat < S64x128.size a := fun v771 v835 k0_hw183 => k0_hw183

def k0_chk184 (v771 : IVec S16 32) (v837 : IVec S16 32) : Prop :=
  (∀ a x, ((![v837, v771] : Fin 2 → IVec S16 32) a x).toNat < S64x128.size a)
instance k0_chk184.dec : ∀ (v771 : IVec S16 32) (v837 : IVec S16 32), Decidable (k0_chk184 v771 v837) := fun v771 v837 => decidable_of_iff' _ (Iff.of_eq (k0_chk184.eq_1 v771 v837))
theorem k0_idx184_inb : ∀ (v771 : IVec S16 32) (v837 : IVec S16 32) (k0_hw184 : k0_chk184 v771 v837), ∀ a x, ((![v837, v771] : Fin 2 → IVec S16 32) a x).toNat < S64x128.size a := fun v771 v837 k0_hw184 => k0_hw184

def k0_chk185 (v771 : IVec S16 32) (v840 : IVec S16 32) : Prop :=
  (∀ a x, ((![v771, v840] : Fin 2 → IVec S16 32) a x).toNat < S128x128.size a)
instance k0_chk185.dec : ∀ (v771 : IVec S16 32) (v840 : IVec S16 32), Decidable (k0_chk185 v771 v840) := fun v771 v840 => decidable_of_iff' _ (Iff.of_eq (k0_chk185.eq_1 v771 v840))
theorem k0_idx185_inb : ∀ (v771 : IVec S16 32) (v840 : IVec S16 32) (k0_hw185 : k0_chk185 v771 v840), ∀ a x, ((![v771, v840] : Fin 2 → IVec S16 32) a x).toNat < S128x128.size a := fun v771 v840 k0_hw185 => k0_hw185

def k0_chk186 (v771 : IVec S16 32) (v842 : IVec S16 32) : Prop :=
  (∀ a x, ((![v771, v842] : Fin 2 → IVec S16 32) a x).toNat < S128x128.size a)
instance k0_chk186.dec : ∀ (v771 : IVec S16 32) (v842 : IVec S16 32), Decidable (k0_chk186 v771 v842) := fun v771 v842 => decidable_of_iff' _ (Iff.of_eq (k0_chk186.eq_1 v771 v842))
theorem k0_idx186_inb : ∀ (v771 : IVec S16 32) (v842 : IVec S16 32) (k0_hw186 : k0_chk186 v771 v842), ∀ a x, ((![v771, v842] : Fin 2 → IVec S16 32) a x).toNat < S128x128.size a := fun v771 v842 k0_hw186 => k0_hw186

def k0_chk187 (v771 : IVec S16 32) (v844 : IVec S16 32) : Prop :=
  (∀ a x, ((![v771, v844] : Fin 2 → IVec S16 32) a x).toNat < S128x128.size a)
instance k0_chk187.dec : ∀ (v771 : IVec S16 32) (v844 : IVec S16 32), Decidable (k0_chk187 v771 v844) := fun v771 v844 => decidable_of_iff' _ (Iff.of_eq (k0_chk187.eq_1 v771 v844))
theorem k0_idx187_inb : ∀ (v771 : IVec S16 32) (v844 : IVec S16 32) (k0_hw187 : k0_chk187 v771 v844), ∀ a x, ((![v771, v844] : Fin 2 → IVec S16 32) a x).toNat < S128x128.size a := fun v771 v844 k0_hw187 => k0_hw187

def k0_chk188 (v771 : IVec S16 32) (v846 : IVec S16 32) : Prop :=
  (∀ a x, ((![v771, v846] : Fin 2 → IVec S16 32) a x).toNat < S128x128.size a)
instance k0_chk188.dec : ∀ (v771 : IVec S16 32) (v846 : IVec S16 32), Decidable (k0_chk188 v771 v846) := fun v771 v846 => decidable_of_iff' _ (Iff.of_eq (k0_chk188.eq_1 v771 v846))
theorem k0_idx188_inb : ∀ (v771 : IVec S16 32) (v846 : IVec S16 32) (k0_hw188 : k0_chk188 v771 v846), ∀ a x, ((![v771, v846] : Fin 2 → IVec S16 32) a x).toNat < S128x128.size a := fun v771 v846 k0_hw188 => k0_hw188

def k0_chk189 (v771 : IVec S16 32) (v848 : IVec S16 32) : Prop :=
  (∀ a x, ((![v771, v848] : Fin 2 → IVec S16 32) a x).toNat < S128x128.size a)
instance k0_chk189.dec : ∀ (v771 : IVec S16 32) (v848 : IVec S16 32), Decidable (k0_chk189 v771 v848) := fun v771 v848 => decidable_of_iff' _ (Iff.of_eq (k0_chk189.eq_1 v771 v848))
theorem k0_idx189_inb : ∀ (v771 : IVec S16 32) (v848 : IVec S16 32) (k0_hw189 : k0_chk189 v771 v848), ∀ a x, ((![v771, v848] : Fin 2 → IVec S16 32) a x).toNat < S128x128.size a := fun v771 v848 k0_hw189 => k0_hw189

def k0_chk190 (v771 : IVec S16 32) (v850 : IVec S16 32) : Prop :=
  (∀ a x, ((![v771, v850] : Fin 2 → IVec S16 32) a x).toNat < S128x128.size a)
instance k0_chk190.dec : ∀ (v771 : IVec S16 32) (v850 : IVec S16 32), Decidable (k0_chk190 v771 v850) := fun v771 v850 => decidable_of_iff' _ (Iff.of_eq (k0_chk190.eq_1 v771 v850))
theorem k0_idx190_inb : ∀ (v771 : IVec S16 32) (v850 : IVec S16 32) (k0_hw190 : k0_chk190 v771 v850), ∀ a x, ((![v771, v850] : Fin 2 → IVec S16 32) a x).toNat < S128x128.size a := fun v771 v850 k0_hw190 => k0_hw190

def k0_chk191 (v771 : IVec S16 32) (v852 : IVec S16 32) : Prop :=
  (∀ a x, ((![v771, v852] : Fin 2 → IVec S16 32) a x).toNat < S128x128.size a)
instance k0_chk191.dec : ∀ (v771 : IVec S16 32) (v852 : IVec S16 32), Decidable (k0_chk191 v771 v852) := fun v771 v852 => decidable_of_iff' _ (Iff.of_eq (k0_chk191.eq_1 v771 v852))
theorem k0_idx191_inb : ∀ (v771 : IVec S16 32) (v852 : IVec S16 32) (k0_hw191 : k0_chk191 v771 v852), ∀ a x, ((![v771, v852] : Fin 2 → IVec S16 32) a x).toNat < S128x128.size a := fun v771 v852 k0_hw191 => k0_hw191

def k0_chk192 (v771 : IVec S16 32) (v854 : IVec S16 32) : Prop :=
  (∀ a x, ((![v771, v854] : Fin 2 → IVec S16 32) a x).toNat < S128x128.size a)
instance k0_chk192.dec : ∀ (v771 : IVec S16 32) (v854 : IVec S16 32), Decidable (k0_chk192 v771 v854) := fun v771 v854 => decidable_of_iff' _ (Iff.of_eq (k0_chk192.eq_1 v771 v854))
theorem k0_idx192_inb : ∀ (v771 : IVec S16 32) (v854 : IVec S16 32) (k0_hw192 : k0_chk192 v771 v854), ∀ a x, ((![v771, v854] : Fin 2 → IVec S16 32) a x).toNat < S128x128.size a := fun v771 v854 k0_hw192 => k0_hw192

def k0_chk193 (v771 : IVec S16 32) (v856 : IVec S16 32) : Prop :=
  (∀ a x, ((![v771, v856] : Fin 2 → IVec S16 32) a x).toNat < S128x128.size a)
instance k0_chk193.dec : ∀ (v771 : IVec S16 32) (v856 : IVec S16 32), Decidable (k0_chk193 v771 v856) := fun v771 v856 => decidable_of_iff' _ (Iff.of_eq (k0_chk193.eq_1 v771 v856))
theorem k0_idx193_inb : ∀ (v771 : IVec S16 32) (v856 : IVec S16 32) (k0_hw193 : k0_chk193 v771 v856), ∀ a x, ((![v771, v856] : Fin 2 → IVec S16 32) a x).toNat < S128x128.size a := fun v771 v856 k0_hw193 => k0_hw193

def k0_chk194 (v771 : IVec S16 32) (v858 : IVec S16 32) : Prop :=
  (∀ a x, ((![v771, v858] : Fin 2 → IVec S16 32) a x).toNat < S128x128.size a)
instance k0_chk194.dec : ∀ (v771 : IVec S16 32) (v858 : IVec S16 32), Decidable (k0_chk194 v771 v858) := fun v771 v858 => decidable_of_iff' _ (Iff.of_eq (k0_chk194.eq_1 v771 v858))
theorem k0_idx194_inb : ∀ (v771 : IVec S16 32) (v858 : IVec S16 32) (k0_hw194 : k0_chk194 v771 v858), ∀ a x, ((![v771, v858] : Fin 2 → IVec S16 32) a x).toNat < S128x128.size a := fun v771 v858 k0_hw194 => k0_hw194

def k0_chk195 (v771 : IVec S16 32) (v860 : IVec S16 32) : Prop :=
  (∀ a x, ((![v771, v860] : Fin 2 → IVec S16 32) a x).toNat < S128x128.size a)
instance k0_chk195.dec : ∀ (v771 : IVec S16 32) (v860 : IVec S16 32), Decidable (k0_chk195 v771 v860) := fun v771 v860 => decidable_of_iff' _ (Iff.of_eq (k0_chk195.eq_1 v771 v860))
theorem k0_idx195_inb : ∀ (v771 : IVec S16 32) (v860 : IVec S16 32) (k0_hw195 : k0_chk195 v771 v860), ∀ a x, ((![v771, v860] : Fin 2 → IVec S16 32) a x).toNat < S128x128.size a := fun v771 v860 k0_hw195 => k0_hw195

def k0_chk196 (v771 : IVec S16 32) (v862 : IVec S16 32) : Prop :=
  (∀ a x, ((![v771, v862] : Fin 2 → IVec S16 32) a x).toNat < S128x128.size a)
instance k0_chk196.dec : ∀ (v771 : IVec S16 32) (v862 : IVec S16 32), Decidable (k0_chk196 v771 v862) := fun v771 v862 => decidable_of_iff' _ (Iff.of_eq (k0_chk196.eq_1 v771 v862))
theorem k0_idx196_inb : ∀ (v771 : IVec S16 32) (v862 : IVec S16 32) (k0_hw196 : k0_chk196 v771 v862), ∀ a x, ((![v771, v862] : Fin 2 → IVec S16 32) a x).toNat < S128x128.size a := fun v771 v862 k0_hw196 => k0_hw196

def k0_chk197 (v771 : IVec S16 32) (v864 : IVec S16 32) : Prop :=
  (∀ a x, ((![v771, v864] : Fin 2 → IVec S16 32) a x).toNat < S128x128.size a)
instance k0_chk197.dec : ∀ (v771 : IVec S16 32) (v864 : IVec S16 32), Decidable (k0_chk197 v771 v864) := fun v771 v864 => decidable_of_iff' _ (Iff.of_eq (k0_chk197.eq_1 v771 v864))
theorem k0_idx197_inb : ∀ (v771 : IVec S16 32) (v864 : IVec S16 32) (k0_hw197 : k0_chk197 v771 v864), ∀ a x, ((![v771, v864] : Fin 2 → IVec S16 32) a x).toNat < S128x128.size a := fun v771 v864 k0_hw197 => k0_hw197

def k0_chk198 (v771 : IVec S16 32) (v866 : IVec S16 32) : Prop :=
  (∀ a x, ((![v771, v866] : Fin 2 → IVec S16 32) a x).toNat < S128x128.size a)
instance k0_chk198.dec : ∀ (v771 : IVec S16 32) (v866 : IVec S16 32), Decidable (k0_chk198 v771 v866) := fun v771 v866 => decidable_of_iff' _ (Iff.of_eq (k0_chk198.eq_1 v771 v866))
theorem k0_idx198_inb : ∀ (v771 : IVec S16 32) (v866 : IVec S16 32) (k0_hw198 : k0_chk198 v771 v866), ∀ a x, ((![v771, v866] : Fin 2 → IVec S16 32) a x).toNat < S128x128.size a := fun v771 v866 k0_hw198 => k0_hw198

def k0_chk199 (v771 : IVec S16 32) (v868 : IVec S16 32) : Prop :=
  (∀ a x, ((![v771, v868] : Fin 2 → IVec S16 32) a x).toNat < S128x128.size a)
instance k0_chk199.dec : ∀ (v771 : IVec S16 32) (v868 : IVec S16 32), Decidable (k0_chk199 v771 v868) := fun v771 v868 => decidable_of_iff' _ (Iff.of_eq (k0_chk199.eq_1 v771 v868))
theorem k0_idx199_inb : ∀ (v771 : IVec S16 32) (v868 : IVec S16 32) (k0_hw199 : k0_chk199 v771 v868), ∀ a x, ((![v771, v868] : Fin 2 → IVec S16 32) a x).toNat < S128x128.size a := fun v771 v868 k0_hw199 => k0_hw199

def k0_chk200 (v771 : IVec S16 32) (v870 : IVec S16 32) : Prop :=
  (∀ a x, ((![v771, v870] : Fin 2 → IVec S16 32) a x).toNat < S128x128.size a)
instance k0_chk200.dec : ∀ (v771 : IVec S16 32) (v870 : IVec S16 32), Decidable (k0_chk200 v771 v870) := fun v771 v870 => decidable_of_iff' _ (Iff.of_eq (k0_chk200.eq_1 v771 v870))
theorem k0_idx200_inb : ∀ (v771 : IVec S16 32) (v870 : IVec S16 32) (k0_hw200 : k0_chk200 v771 v870), ∀ a x, ((![v771, v870] : Fin 2 → IVec S16 32) a x).toNat < S128x128.size a := fun v771 v870 k0_hw200 => k0_hw200

def k0_chk201 (v771 : IVec S16 32) (v873 : IVec S16 32) : Prop :=
  (∀ a x, ((![v873, v771] : Fin 2 → IVec S16 32) a x).toNat < S64x128.size a)
instance k0_chk201.dec : ∀ (v771 : IVec S16 32) (v873 : IVec S16 32), Decidable (k0_chk201 v771 v873) := fun v771 v873 => decidable_of_iff' _ (Iff.of_eq (k0_chk201.eq_1 v771 v873))
theorem k0_idx201_inb : ∀ (v771 : IVec S16 32) (v873 : IVec S16 32) (k0_hw201 : k0_chk201 v771 v873), ∀ a x, ((![v873, v771] : Fin 2 → IVec S16 32) a x).toNat < S64x128.size a := fun v771 v873 k0_hw201 => k0_hw201

def k0_chk202 (v771 : IVec S16 32) (v875 : IVec S16 32) : Prop :=
  (∀ a x, ((![v875, v771] : Fin 2 → IVec S16 32) a x).toNat < S64x128.size a)
instance k0_chk202.dec : ∀ (v771 : IVec S16 32) (v875 : IVec S16 32), Decidable (k0_chk202 v771 v875) := fun v771 v875 => decidable_of_iff' _ (Iff.of_eq (k0_chk202.eq_1 v771 v875))
theorem k0_idx202_inb : ∀ (v771 : IVec S16 32) (v875 : IVec S16 32) (k0_hw202 : k0_chk202 v771 v875), ∀ a x, ((![v875, v771] : Fin 2 → IVec S16 32) a x).toNat < S64x128.size a := fun v771 v875 k0_hw202 => k0_hw202

def k0_chk203 (v771 : IVec S16 32) (v877 : IVec S16 32) : Prop :=
  (∀ a x, ((![v877, v771] : Fin 2 → IVec S16 32) a x).toNat < S64x128.size a)
instance k0_chk203.dec : ∀ (v771 : IVec S16 32) (v877 : IVec S16 32), Decidable (k0_chk203 v771 v877) := fun v771 v877 => decidable_of_iff' _ (Iff.of_eq (k0_chk203.eq_1 v771 v877))
theorem k0_idx203_inb : ∀ (v771 : IVec S16 32) (v877 : IVec S16 32) (k0_hw203 : k0_chk203 v771 v877), ∀ a x, ((![v877, v771] : Fin 2 → IVec S16 32) a x).toNat < S64x128.size a := fun v771 v877 k0_hw203 => k0_hw203

def k0_chk204 (v771 : IVec S16 32) (v879 : IVec S16 32) : Prop :=
  (∀ a x, ((![v879, v771] : Fin 2 → IVec S16 32) a x).toNat < S64x128.size a)
instance k0_chk204.dec : ∀ (v771 : IVec S16 32) (v879 : IVec S16 32), Decidable (k0_chk204 v771 v879) := fun v771 v879 => decidable_of_iff' _ (Iff.of_eq (k0_chk204.eq_1 v771 v879))
theorem k0_idx204_inb : ∀ (v771 : IVec S16 32) (v879 : IVec S16 32) (k0_hw204 : k0_chk204 v771 v879), ∀ a x, ((![v879, v771] : Fin 2 → IVec S16 32) a x).toNat < S64x128.size a := fun v771 v879 k0_hw204 => k0_hw204

def k0_chk205 (v771 : IVec S16 32) (v881 : IVec S16 32) : Prop :=
  (∀ a x, ((![v881, v771] : Fin 2 → IVec S16 32) a x).toNat < S64x128.size a)
instance k0_chk205.dec : ∀ (v771 : IVec S16 32) (v881 : IVec S16 32), Decidable (k0_chk205 v771 v881) := fun v771 v881 => decidable_of_iff' _ (Iff.of_eq (k0_chk205.eq_1 v771 v881))
theorem k0_idx205_inb : ∀ (v771 : IVec S16 32) (v881 : IVec S16 32) (k0_hw205 : k0_chk205 v771 v881), ∀ a x, ((![v881, v771] : Fin 2 → IVec S16 32) a x).toNat < S64x128.size a := fun v771 v881 k0_hw205 => k0_hw205

def k0_chk206 (v771 : IVec S16 32) (v883 : IVec S16 32) : Prop :=
  (∀ a x, ((![v883, v771] : Fin 2 → IVec S16 32) a x).toNat < S64x128.size a)
instance k0_chk206.dec : ∀ (v771 : IVec S16 32) (v883 : IVec S16 32), Decidable (k0_chk206 v771 v883) := fun v771 v883 => decidable_of_iff' _ (Iff.of_eq (k0_chk206.eq_1 v771 v883))
theorem k0_idx206_inb : ∀ (v771 : IVec S16 32) (v883 : IVec S16 32) (k0_hw206 : k0_chk206 v771 v883), ∀ a x, ((![v883, v771] : Fin 2 → IVec S16 32) a x).toNat < S64x128.size a := fun v771 v883 k0_hw206 => k0_hw206

def k0_chk207 (v771 : IVec S16 32) (v885 : IVec S16 32) : Prop :=
  (∀ a x, ((![v885, v771] : Fin 2 → IVec S16 32) a x).toNat < S64x128.size a)
instance k0_chk207.dec : ∀ (v771 : IVec S16 32) (v885 : IVec S16 32), Decidable (k0_chk207 v771 v885) := fun v771 v885 => decidable_of_iff' _ (Iff.of_eq (k0_chk207.eq_1 v771 v885))
theorem k0_idx207_inb : ∀ (v771 : IVec S16 32) (v885 : IVec S16 32) (k0_hw207 : k0_chk207 v771 v885), ∀ a x, ((![v885, v771] : Fin 2 → IVec S16 32) a x).toNat < S64x128.size a := fun v771 v885 k0_hw207 => k0_hw207

def k0_chk208 (v771 : IVec S16 32) (v887 : IVec S16 32) : Prop :=
  (∀ a x, ((![v887, v771] : Fin 2 → IVec S16 32) a x).toNat < S64x128.size a)
instance k0_chk208.dec : ∀ (v771 : IVec S16 32) (v887 : IVec S16 32), Decidable (k0_chk208 v771 v887) := fun v771 v887 => decidable_of_iff' _ (Iff.of_eq (k0_chk208.eq_1 v771 v887))
theorem k0_idx208_inb : ∀ (v771 : IVec S16 32) (v887 : IVec S16 32) (k0_hw208 : k0_chk208 v771 v887), ∀ a x, ((![v887, v771] : Fin 2 → IVec S16 32) a x).toNat < S64x128.size a := fun v771 v887 k0_hw208 => k0_hw208

def k0_chk209 (v771 : IVec S16 32) (v889 : IVec S16 32) : Prop :=
  (∀ a x, ((![v889, v771] : Fin 2 → IVec S16 32) a x).toNat < S64x128.size a)
instance k0_chk209.dec : ∀ (v771 : IVec S16 32) (v889 : IVec S16 32), Decidable (k0_chk209 v771 v889) := fun v771 v889 => decidable_of_iff' _ (Iff.of_eq (k0_chk209.eq_1 v771 v889))
theorem k0_idx209_inb : ∀ (v771 : IVec S16 32) (v889 : IVec S16 32) (k0_hw209 : k0_chk209 v771 v889), ∀ a x, ((![v889, v771] : Fin 2 → IVec S16 32) a x).toNat < S64x128.size a := fun v771 v889 k0_hw209 => k0_hw209

def k0_chk210 (v771 : IVec S16 32) (v891 : IVec S16 32) : Prop :=
  (∀ a x, ((![v891, v771] : Fin 2 → IVec S16 32) a x).toNat < S64x128.size a)
instance k0_chk210.dec : ∀ (v771 : IVec S16 32) (v891 : IVec S16 32), Decidable (k0_chk210 v771 v891) := fun v771 v891 => decidable_of_iff' _ (Iff.of_eq (k0_chk210.eq_1 v771 v891))
theorem k0_idx210_inb : ∀ (v771 : IVec S16 32) (v891 : IVec S16 32) (k0_hw210 : k0_chk210 v771 v891), ∀ a x, ((![v891, v771] : Fin 2 → IVec S16 32) a x).toNat < S64x128.size a := fun v771 v891 k0_hw210 => k0_hw210

def k0_chk211 (v771 : IVec S16 32) (v893 : IVec S16 32) : Prop :=
  (∀ a x, ((![v893, v771] : Fin 2 → IVec S16 32) a x).toNat < S64x128.size a)
instance k0_chk211.dec : ∀ (v771 : IVec S16 32) (v893 : IVec S16 32), Decidable (k0_chk211 v771 v893) := fun v771 v893 => decidable_of_iff' _ (Iff.of_eq (k0_chk211.eq_1 v771 v893))
theorem k0_idx211_inb : ∀ (v771 : IVec S16 32) (v893 : IVec S16 32) (k0_hw211 : k0_chk211 v771 v893), ∀ a x, ((![v893, v771] : Fin 2 → IVec S16 32) a x).toNat < S64x128.size a := fun v771 v893 k0_hw211 => k0_hw211

def k0_chk212 (v771 : IVec S16 32) (v895 : IVec S16 32) : Prop :=
  (∀ a x, ((![v895, v771] : Fin 2 → IVec S16 32) a x).toNat < S64x128.size a)
instance k0_chk212.dec : ∀ (v771 : IVec S16 32) (v895 : IVec S16 32), Decidable (k0_chk212 v771 v895) := fun v771 v895 => decidable_of_iff' _ (Iff.of_eq (k0_chk212.eq_1 v771 v895))
theorem k0_idx212_inb : ∀ (v771 : IVec S16 32) (v895 : IVec S16 32) (k0_hw212 : k0_chk212 v771 v895), ∀ a x, ((![v895, v771] : Fin 2 → IVec S16 32) a x).toNat < S64x128.size a := fun v771 v895 k0_hw212 => k0_hw212

def k0_chk213 (v771 : IVec S16 32) (v897 : IVec S16 32) : Prop :=
  (∀ a x, ((![v897, v771] : Fin 2 → IVec S16 32) a x).toNat < S64x128.size a)
instance k0_chk213.dec : ∀ (v771 : IVec S16 32) (v897 : IVec S16 32), Decidable (k0_chk213 v771 v897) := fun v771 v897 => decidable_of_iff' _ (Iff.of_eq (k0_chk213.eq_1 v771 v897))
theorem k0_idx213_inb : ∀ (v771 : IVec S16 32) (v897 : IVec S16 32) (k0_hw213 : k0_chk213 v771 v897), ∀ a x, ((![v897, v771] : Fin 2 → IVec S16 32) a x).toNat < S64x128.size a := fun v771 v897 k0_hw213 => k0_hw213

def k0_chk214 (v771 : IVec S16 32) (v899 : IVec S16 32) : Prop :=
  (∀ a x, ((![v899, v771] : Fin 2 → IVec S16 32) a x).toNat < S64x128.size a)
instance k0_chk214.dec : ∀ (v771 : IVec S16 32) (v899 : IVec S16 32), Decidable (k0_chk214 v771 v899) := fun v771 v899 => decidable_of_iff' _ (Iff.of_eq (k0_chk214.eq_1 v771 v899))
theorem k0_idx214_inb : ∀ (v771 : IVec S16 32) (v899 : IVec S16 32) (k0_hw214 : k0_chk214 v771 v899), ∀ a x, ((![v899, v771] : Fin 2 → IVec S16 32) a x).toNat < S64x128.size a := fun v771 v899 k0_hw214 => k0_hw214

def k0_chk215 (v771 : IVec S16 32) (v901 : IVec S16 32) : Prop :=
  (∀ a x, ((![v901, v771] : Fin 2 → IVec S16 32) a x).toNat < S64x128.size a)
instance k0_chk215.dec : ∀ (v771 : IVec S16 32) (v901 : IVec S16 32), Decidable (k0_chk215 v771 v901) := fun v771 v901 => decidable_of_iff' _ (Iff.of_eq (k0_chk215.eq_1 v771 v901))
theorem k0_idx215_inb : ∀ (v771 : IVec S16 32) (v901 : IVec S16 32) (k0_hw215 : k0_chk215 v771 v901), ∀ a x, ((![v901, v771] : Fin 2 → IVec S16 32) a x).toNat < S64x128.size a := fun v771 v901 k0_hw215 => k0_hw215

def k0_chk216 (v771 : IVec S16 32) (v903 : IVec S16 32) : Prop :=
  (∀ a x, ((![v903, v771] : Fin 2 → IVec S16 32) a x).toNat < S64x128.size a)
instance k0_chk216.dec : ∀ (v771 : IVec S16 32) (v903 : IVec S16 32), Decidable (k0_chk216 v771 v903) := fun v771 v903 => decidable_of_iff' _ (Iff.of_eq (k0_chk216.eq_1 v771 v903))
theorem k0_idx216_inb : ∀ (v771 : IVec S16 32) (v903 : IVec S16 32) (k0_hw216 : k0_chk216 v771 v903), ∀ a x, ((![v903, v771] : Fin 2 → IVec S16 32) a x).toNat < S64x128.size a := fun v771 v903 k0_hw216 => k0_hw216

def k0_chk217 (v771 : IVec S16 32) (v906 : IVec S16 32) : Prop :=
  (∀ a x, ((![v771, v906] : Fin 2 → IVec S16 32) a x).toNat < S128x128.size a)
instance k0_chk217.dec : ∀ (v771 : IVec S16 32) (v906 : IVec S16 32), Decidable (k0_chk217 v771 v906) := fun v771 v906 => decidable_of_iff' _ (Iff.of_eq (k0_chk217.eq_1 v771 v906))
theorem k0_idx217_inb : ∀ (v771 : IVec S16 32) (v906 : IVec S16 32) (k0_hw217 : k0_chk217 v771 v906), ∀ a x, ((![v771, v906] : Fin 2 → IVec S16 32) a x).toNat < S128x128.size a := fun v771 v906 k0_hw217 => k0_hw217

def k0_chk218 (v771 : IVec S16 32) (v908 : IVec S16 32) : Prop :=
  (∀ a x, ((![v771, v908] : Fin 2 → IVec S16 32) a x).toNat < S128x128.size a)
instance k0_chk218.dec : ∀ (v771 : IVec S16 32) (v908 : IVec S16 32), Decidable (k0_chk218 v771 v908) := fun v771 v908 => decidable_of_iff' _ (Iff.of_eq (k0_chk218.eq_1 v771 v908))
theorem k0_idx218_inb : ∀ (v771 : IVec S16 32) (v908 : IVec S16 32) (k0_hw218 : k0_chk218 v771 v908), ∀ a x, ((![v771, v908] : Fin 2 → IVec S16 32) a x).toNat < S128x128.size a := fun v771 v908 k0_hw218 => k0_hw218

def k0_chk219 (v771 : IVec S16 32) (v910 : IVec S16 32) : Prop :=
  (∀ a x, ((![v771, v910] : Fin 2 → IVec S16 32) a x).toNat < S128x128.size a)
instance k0_chk219.dec : ∀ (v771 : IVec S16 32) (v910 : IVec S16 32), Decidable (k0_chk219 v771 v910) := fun v771 v910 => decidable_of_iff' _ (Iff.of_eq (k0_chk219.eq_1 v771 v910))
theorem k0_idx219_inb : ∀ (v771 : IVec S16 32) (v910 : IVec S16 32) (k0_hw219 : k0_chk219 v771 v910), ∀ a x, ((![v771, v910] : Fin 2 → IVec S16 32) a x).toNat < S128x128.size a := fun v771 v910 k0_hw219 => k0_hw219

def k0_chk220 (v771 : IVec S16 32) (v912 : IVec S16 32) : Prop :=
  (∀ a x, ((![v771, v912] : Fin 2 → IVec S16 32) a x).toNat < S128x128.size a)
instance k0_chk220.dec : ∀ (v771 : IVec S16 32) (v912 : IVec S16 32), Decidable (k0_chk220 v771 v912) := fun v771 v912 => decidable_of_iff' _ (Iff.of_eq (k0_chk220.eq_1 v771 v912))
theorem k0_idx220_inb : ∀ (v771 : IVec S16 32) (v912 : IVec S16 32) (k0_hw220 : k0_chk220 v771 v912), ∀ a x, ((![v771, v912] : Fin 2 → IVec S16 32) a x).toNat < S128x128.size a := fun v771 v912 k0_hw220 => k0_hw220

def k0_chk221 (v771 : IVec S16 32) (v914 : IVec S16 32) : Prop :=
  (∀ a x, ((![v771, v914] : Fin 2 → IVec S16 32) a x).toNat < S128x128.size a)
instance k0_chk221.dec : ∀ (v771 : IVec S16 32) (v914 : IVec S16 32), Decidable (k0_chk221 v771 v914) := fun v771 v914 => decidable_of_iff' _ (Iff.of_eq (k0_chk221.eq_1 v771 v914))
theorem k0_idx221_inb : ∀ (v771 : IVec S16 32) (v914 : IVec S16 32) (k0_hw221 : k0_chk221 v771 v914), ∀ a x, ((![v771, v914] : Fin 2 → IVec S16 32) a x).toNat < S128x128.size a := fun v771 v914 k0_hw221 => k0_hw221

def k0_chk222 (v771 : IVec S16 32) (v916 : IVec S16 32) : Prop :=
  (∀ a x, ((![v771, v916] : Fin 2 → IVec S16 32) a x).toNat < S128x128.size a)
instance k0_chk222.dec : ∀ (v771 : IVec S16 32) (v916 : IVec S16 32), Decidable (k0_chk222 v771 v916) := fun v771 v916 => decidable_of_iff' _ (Iff.of_eq (k0_chk222.eq_1 v771 v916))
theorem k0_idx222_inb : ∀ (v771 : IVec S16 32) (v916 : IVec S16 32) (k0_hw222 : k0_chk222 v771 v916), ∀ a x, ((![v771, v916] : Fin 2 → IVec S16 32) a x).toNat < S128x128.size a := fun v771 v916 k0_hw222 => k0_hw222

def k0_chk223 (v771 : IVec S16 32) (v918 : IVec S16 32) : Prop :=
  (∀ a x, ((![v771, v918] : Fin 2 → IVec S16 32) a x).toNat < S128x128.size a)
instance k0_chk223.dec : ∀ (v771 : IVec S16 32) (v918 : IVec S16 32), Decidable (k0_chk223 v771 v918) := fun v771 v918 => decidable_of_iff' _ (Iff.of_eq (k0_chk223.eq_1 v771 v918))
theorem k0_idx223_inb : ∀ (v771 : IVec S16 32) (v918 : IVec S16 32) (k0_hw223 : k0_chk223 v771 v918), ∀ a x, ((![v771, v918] : Fin 2 → IVec S16 32) a x).toNat < S128x128.size a := fun v771 v918 k0_hw223 => k0_hw223

def k0_chk224 (v771 : IVec S16 32) (v920 : IVec S16 32) : Prop :=
  (∀ a x, ((![v771, v920] : Fin 2 → IVec S16 32) a x).toNat < S128x128.size a)
instance k0_chk224.dec : ∀ (v771 : IVec S16 32) (v920 : IVec S16 32), Decidable (k0_chk224 v771 v920) := fun v771 v920 => decidable_of_iff' _ (Iff.of_eq (k0_chk224.eq_1 v771 v920))
theorem k0_idx224_inb : ∀ (v771 : IVec S16 32) (v920 : IVec S16 32) (k0_hw224 : k0_chk224 v771 v920), ∀ a x, ((![v771, v920] : Fin 2 → IVec S16 32) a x).toNat < S128x128.size a := fun v771 v920 k0_hw224 => k0_hw224

def k0_chk225 (v771 : IVec S16 32) (v922 : IVec S16 32) : Prop :=
  (∀ a x, ((![v771, v922] : Fin 2 → IVec S16 32) a x).toNat < S128x128.size a)
instance k0_chk225.dec : ∀ (v771 : IVec S16 32) (v922 : IVec S16 32), Decidable (k0_chk225 v771 v922) := fun v771 v922 => decidable_of_iff' _ (Iff.of_eq (k0_chk225.eq_1 v771 v922))
theorem k0_idx225_inb : ∀ (v771 : IVec S16 32) (v922 : IVec S16 32) (k0_hw225 : k0_chk225 v771 v922), ∀ a x, ((![v771, v922] : Fin 2 → IVec S16 32) a x).toNat < S128x128.size a := fun v771 v922 k0_hw225 => k0_hw225

def k0_chk226 (v771 : IVec S16 32) (v924 : IVec S16 32) : Prop :=
  (∀ a x, ((![v771, v924] : Fin 2 → IVec S16 32) a x).toNat < S128x128.size a)
instance k0_chk226.dec : ∀ (v771 : IVec S16 32) (v924 : IVec S16 32), Decidable (k0_chk226 v771 v924) := fun v771 v924 => decidable_of_iff' _ (Iff.of_eq (k0_chk226.eq_1 v771 v924))
theorem k0_idx226_inb : ∀ (v771 : IVec S16 32) (v924 : IVec S16 32) (k0_hw226 : k0_chk226 v771 v924), ∀ a x, ((![v771, v924] : Fin 2 → IVec S16 32) a x).toNat < S128x128.size a := fun v771 v924 k0_hw226 => k0_hw226

def k0_chk227 (v771 : IVec S16 32) (v926 : IVec S16 32) : Prop :=
  (∀ a x, ((![v771, v926] : Fin 2 → IVec S16 32) a x).toNat < S128x128.size a)
instance k0_chk227.dec : ∀ (v771 : IVec S16 32) (v926 : IVec S16 32), Decidable (k0_chk227 v771 v926) := fun v771 v926 => decidable_of_iff' _ (Iff.of_eq (k0_chk227.eq_1 v771 v926))
theorem k0_idx227_inb : ∀ (v771 : IVec S16 32) (v926 : IVec S16 32) (k0_hw227 : k0_chk227 v771 v926), ∀ a x, ((![v771, v926] : Fin 2 → IVec S16 32) a x).toNat < S128x128.size a := fun v771 v926 k0_hw227 => k0_hw227

def k0_chk228 (v771 : IVec S16 32) (v928 : IVec S16 32) : Prop :=
  (∀ a x, ((![v771, v928] : Fin 2 → IVec S16 32) a x).toNat < S128x128.size a)
instance k0_chk228.dec : ∀ (v771 : IVec S16 32) (v928 : IVec S16 32), Decidable (k0_chk228 v771 v928) := fun v771 v928 => decidable_of_iff' _ (Iff.of_eq (k0_chk228.eq_1 v771 v928))
theorem k0_idx228_inb : ∀ (v771 : IVec S16 32) (v928 : IVec S16 32) (k0_hw228 : k0_chk228 v771 v928), ∀ a x, ((![v771, v928] : Fin 2 → IVec S16 32) a x).toNat < S128x128.size a := fun v771 v928 k0_hw228 => k0_hw228

def k0_chk229 (v771 : IVec S16 32) (v930 : IVec S16 32) : Prop :=
  (∀ a x, ((![v771, v930] : Fin 2 → IVec S16 32) a x).toNat < S128x128.size a)
instance k0_chk229.dec : ∀ (v771 : IVec S16 32) (v930 : IVec S16 32), Decidable (k0_chk229 v771 v930) := fun v771 v930 => decidable_of_iff' _ (Iff.of_eq (k0_chk229.eq_1 v771 v930))
theorem k0_idx229_inb : ∀ (v771 : IVec S16 32) (v930 : IVec S16 32) (k0_hw229 : k0_chk229 v771 v930), ∀ a x, ((![v771, v930] : Fin 2 → IVec S16 32) a x).toNat < S128x128.size a := fun v771 v930 k0_hw229 => k0_hw229

def k0_chk230 (v771 : IVec S16 32) (v932 : IVec S16 32) : Prop :=
  (∀ a x, ((![v771, v932] : Fin 2 → IVec S16 32) a x).toNat < S128x128.size a)
instance k0_chk230.dec : ∀ (v771 : IVec S16 32) (v932 : IVec S16 32), Decidable (k0_chk230 v771 v932) := fun v771 v932 => decidable_of_iff' _ (Iff.of_eq (k0_chk230.eq_1 v771 v932))
theorem k0_idx230_inb : ∀ (v771 : IVec S16 32) (v932 : IVec S16 32) (k0_hw230 : k0_chk230 v771 v932), ∀ a x, ((![v771, v932] : Fin 2 → IVec S16 32) a x).toNat < S128x128.size a := fun v771 v932 k0_hw230 => k0_hw230

def k0_chk231 (v771 : IVec S16 32) (v934 : IVec S16 32) : Prop :=
  (∀ a x, ((![v771, v934] : Fin 2 → IVec S16 32) a x).toNat < S128x128.size a)
instance k0_chk231.dec : ∀ (v771 : IVec S16 32) (v934 : IVec S16 32), Decidable (k0_chk231 v771 v934) := fun v771 v934 => decidable_of_iff' _ (Iff.of_eq (k0_chk231.eq_1 v771 v934))
theorem k0_idx231_inb : ∀ (v771 : IVec S16 32) (v934 : IVec S16 32) (k0_hw231 : k0_chk231 v771 v934), ∀ a x, ((![v771, v934] : Fin 2 → IVec S16 32) a x).toNat < S128x128.size a := fun v771 v934 k0_hw231 => k0_hw231

def k0_chk232 (v771 : IVec S16 32) (v936 : IVec S16 32) : Prop :=
  (∀ a x, ((![v771, v936] : Fin 2 → IVec S16 32) a x).toNat < S128x128.size a)
instance k0_chk232.dec : ∀ (v771 : IVec S16 32) (v936 : IVec S16 32), Decidable (k0_chk232 v771 v936) := fun v771 v936 => decidable_of_iff' _ (Iff.of_eq (k0_chk232.eq_1 v771 v936))
theorem k0_idx232_inb : ∀ (v771 : IVec S16 32) (v936 : IVec S16 32) (k0_hw232 : k0_chk232 v771 v936), ∀ a x, ((![v771, v936] : Fin 2 → IVec S16 32) a x).toNat < S128x128.size a := fun v771 v936 k0_hw232 => k0_hw232

def k0_chk233 (v771 : IVec S16 32) (v939 : IVec S16 32) : Prop :=
  (∀ a x, ((![v939, v771] : Fin 2 → IVec S16 32) a x).toNat < S64x128.size a)
instance k0_chk233.dec : ∀ (v771 : IVec S16 32) (v939 : IVec S16 32), Decidable (k0_chk233 v771 v939) := fun v771 v939 => decidable_of_iff' _ (Iff.of_eq (k0_chk233.eq_1 v771 v939))
theorem k0_idx233_inb : ∀ (v771 : IVec S16 32) (v939 : IVec S16 32) (k0_hw233 : k0_chk233 v771 v939), ∀ a x, ((![v939, v771] : Fin 2 → IVec S16 32) a x).toNat < S64x128.size a := fun v771 v939 k0_hw233 => k0_hw233

def k0_chk234 (v771 : IVec S16 32) (v941 : IVec S16 32) : Prop :=
  (∀ a x, ((![v941, v771] : Fin 2 → IVec S16 32) a x).toNat < S64x128.size a)
instance k0_chk234.dec : ∀ (v771 : IVec S16 32) (v941 : IVec S16 32), Decidable (k0_chk234 v771 v941) := fun v771 v941 => decidable_of_iff' _ (Iff.of_eq (k0_chk234.eq_1 v771 v941))
theorem k0_idx234_inb : ∀ (v771 : IVec S16 32) (v941 : IVec S16 32) (k0_hw234 : k0_chk234 v771 v941), ∀ a x, ((![v941, v771] : Fin 2 → IVec S16 32) a x).toNat < S64x128.size a := fun v771 v941 k0_hw234 => k0_hw234

def k0_chk235 (v771 : IVec S16 32) (v943 : IVec S16 32) : Prop :=
  (∀ a x, ((![v943, v771] : Fin 2 → IVec S16 32) a x).toNat < S64x128.size a)
instance k0_chk235.dec : ∀ (v771 : IVec S16 32) (v943 : IVec S16 32), Decidable (k0_chk235 v771 v943) := fun v771 v943 => decidable_of_iff' _ (Iff.of_eq (k0_chk235.eq_1 v771 v943))
theorem k0_idx235_inb : ∀ (v771 : IVec S16 32) (v943 : IVec S16 32) (k0_hw235 : k0_chk235 v771 v943), ∀ a x, ((![v943, v771] : Fin 2 → IVec S16 32) a x).toNat < S64x128.size a := fun v771 v943 k0_hw235 => k0_hw235

def k0_chk236 (v771 : IVec S16 32) (v945 : IVec S16 32) : Prop :=
  (∀ a x, ((![v945, v771] : Fin 2 → IVec S16 32) a x).toNat < S64x128.size a)
instance k0_chk236.dec : ∀ (v771 : IVec S16 32) (v945 : IVec S16 32), Decidable (k0_chk236 v771 v945) := fun v771 v945 => decidable_of_iff' _ (Iff.of_eq (k0_chk236.eq_1 v771 v945))
theorem k0_idx236_inb : ∀ (v771 : IVec S16 32) (v945 : IVec S16 32) (k0_hw236 : k0_chk236 v771 v945), ∀ a x, ((![v945, v771] : Fin 2 → IVec S16 32) a x).toNat < S64x128.size a := fun v771 v945 k0_hw236 => k0_hw236

def k0_chk237 (v771 : IVec S16 32) (v947 : IVec S16 32) : Prop :=
  (∀ a x, ((![v947, v771] : Fin 2 → IVec S16 32) a x).toNat < S64x128.size a)
instance k0_chk237.dec : ∀ (v771 : IVec S16 32) (v947 : IVec S16 32), Decidable (k0_chk237 v771 v947) := fun v771 v947 => decidable_of_iff' _ (Iff.of_eq (k0_chk237.eq_1 v771 v947))
theorem k0_idx237_inb : ∀ (v771 : IVec S16 32) (v947 : IVec S16 32) (k0_hw237 : k0_chk237 v771 v947), ∀ a x, ((![v947, v771] : Fin 2 → IVec S16 32) a x).toNat < S64x128.size a := fun v771 v947 k0_hw237 => k0_hw237

def k0_chk238 (v771 : IVec S16 32) (v949 : IVec S16 32) : Prop :=
  (∀ a x, ((![v949, v771] : Fin 2 → IVec S16 32) a x).toNat < S64x128.size a)
instance k0_chk238.dec : ∀ (v771 : IVec S16 32) (v949 : IVec S16 32), Decidable (k0_chk238 v771 v949) := fun v771 v949 => decidable_of_iff' _ (Iff.of_eq (k0_chk238.eq_1 v771 v949))
theorem k0_idx238_inb : ∀ (v771 : IVec S16 32) (v949 : IVec S16 32) (k0_hw238 : k0_chk238 v771 v949), ∀ a x, ((![v949, v771] : Fin 2 → IVec S16 32) a x).toNat < S64x128.size a := fun v771 v949 k0_hw238 => k0_hw238

def k0_chk239 (v771 : IVec S16 32) (v951 : IVec S16 32) : Prop :=
  (∀ a x, ((![v951, v771] : Fin 2 → IVec S16 32) a x).toNat < S64x128.size a)
instance k0_chk239.dec : ∀ (v771 : IVec S16 32) (v951 : IVec S16 32), Decidable (k0_chk239 v771 v951) := fun v771 v951 => decidable_of_iff' _ (Iff.of_eq (k0_chk239.eq_1 v771 v951))
theorem k0_idx239_inb : ∀ (v771 : IVec S16 32) (v951 : IVec S16 32) (k0_hw239 : k0_chk239 v771 v951), ∀ a x, ((![v951, v771] : Fin 2 → IVec S16 32) a x).toNat < S64x128.size a := fun v771 v951 k0_hw239 => k0_hw239

def k0_chk240 (v771 : IVec S16 32) (v953 : IVec S16 32) : Prop :=
  (∀ a x, ((![v953, v771] : Fin 2 → IVec S16 32) a x).toNat < S64x128.size a)
instance k0_chk240.dec : ∀ (v771 : IVec S16 32) (v953 : IVec S16 32), Decidable (k0_chk240 v771 v953) := fun v771 v953 => decidable_of_iff' _ (Iff.of_eq (k0_chk240.eq_1 v771 v953))
theorem k0_idx240_inb : ∀ (v771 : IVec S16 32) (v953 : IVec S16 32) (k0_hw240 : k0_chk240 v771 v953), ∀ a x, ((![v953, v771] : Fin 2 → IVec S16 32) a x).toNat < S64x128.size a := fun v771 v953 k0_hw240 => k0_hw240

def k0_chk241 (v771 : IVec S16 32) (v955 : IVec S16 32) : Prop :=
  (∀ a x, ((![v955, v771] : Fin 2 → IVec S16 32) a x).toNat < S64x128.size a)
instance k0_chk241.dec : ∀ (v771 : IVec S16 32) (v955 : IVec S16 32), Decidable (k0_chk241 v771 v955) := fun v771 v955 => decidable_of_iff' _ (Iff.of_eq (k0_chk241.eq_1 v771 v955))
theorem k0_idx241_inb : ∀ (v771 : IVec S16 32) (v955 : IVec S16 32) (k0_hw241 : k0_chk241 v771 v955), ∀ a x, ((![v955, v771] : Fin 2 → IVec S16 32) a x).toNat < S64x128.size a := fun v771 v955 k0_hw241 => k0_hw241

def k0_chk242 (v771 : IVec S16 32) (v957 : IVec S16 32) : Prop :=
  (∀ a x, ((![v957, v771] : Fin 2 → IVec S16 32) a x).toNat < S64x128.size a)
instance k0_chk242.dec : ∀ (v771 : IVec S16 32) (v957 : IVec S16 32), Decidable (k0_chk242 v771 v957) := fun v771 v957 => decidable_of_iff' _ (Iff.of_eq (k0_chk242.eq_1 v771 v957))
theorem k0_idx242_inb : ∀ (v771 : IVec S16 32) (v957 : IVec S16 32) (k0_hw242 : k0_chk242 v771 v957), ∀ a x, ((![v957, v771] : Fin 2 → IVec S16 32) a x).toNat < S64x128.size a := fun v771 v957 k0_hw242 => k0_hw242

def k0_chk243 (v771 : IVec S16 32) (v959 : IVec S16 32) : Prop :=
  (∀ a x, ((![v959, v771] : Fin 2 → IVec S16 32) a x).toNat < S64x128.size a)
instance k0_chk243.dec : ∀ (v771 : IVec S16 32) (v959 : IVec S16 32), Decidable (k0_chk243 v771 v959) := fun v771 v959 => decidable_of_iff' _ (Iff.of_eq (k0_chk243.eq_1 v771 v959))
theorem k0_idx243_inb : ∀ (v771 : IVec S16 32) (v959 : IVec S16 32) (k0_hw243 : k0_chk243 v771 v959), ∀ a x, ((![v959, v771] : Fin 2 → IVec S16 32) a x).toNat < S64x128.size a := fun v771 v959 k0_hw243 => k0_hw243

def k0_chk244 (v771 : IVec S16 32) (v961 : IVec S16 32) : Prop :=
  (∀ a x, ((![v961, v771] : Fin 2 → IVec S16 32) a x).toNat < S64x128.size a)
instance k0_chk244.dec : ∀ (v771 : IVec S16 32) (v961 : IVec S16 32), Decidable (k0_chk244 v771 v961) := fun v771 v961 => decidable_of_iff' _ (Iff.of_eq (k0_chk244.eq_1 v771 v961))
theorem k0_idx244_inb : ∀ (v771 : IVec S16 32) (v961 : IVec S16 32) (k0_hw244 : k0_chk244 v771 v961), ∀ a x, ((![v961, v771] : Fin 2 → IVec S16 32) a x).toNat < S64x128.size a := fun v771 v961 k0_hw244 => k0_hw244

def k0_chk245 (v771 : IVec S16 32) (v963 : IVec S16 32) : Prop :=
  (∀ a x, ((![v963, v771] : Fin 2 → IVec S16 32) a x).toNat < S64x128.size a)
instance k0_chk245.dec : ∀ (v771 : IVec S16 32) (v963 : IVec S16 32), Decidable (k0_chk245 v771 v963) := fun v771 v963 => decidable_of_iff' _ (Iff.of_eq (k0_chk245.eq_1 v771 v963))
theorem k0_idx245_inb : ∀ (v771 : IVec S16 32) (v963 : IVec S16 32) (k0_hw245 : k0_chk245 v771 v963), ∀ a x, ((![v963, v771] : Fin 2 → IVec S16 32) a x).toNat < S64x128.size a := fun v771 v963 k0_hw245 => k0_hw245

def k0_chk246 (v771 : IVec S16 32) (v965 : IVec S16 32) : Prop :=
  (∀ a x, ((![v965, v771] : Fin 2 → IVec S16 32) a x).toNat < S64x128.size a)
instance k0_chk246.dec : ∀ (v771 : IVec S16 32) (v965 : IVec S16 32), Decidable (k0_chk246 v771 v965) := fun v771 v965 => decidable_of_iff' _ (Iff.of_eq (k0_chk246.eq_1 v771 v965))
theorem k0_idx246_inb : ∀ (v771 : IVec S16 32) (v965 : IVec S16 32) (k0_hw246 : k0_chk246 v771 v965), ∀ a x, ((![v965, v771] : Fin 2 → IVec S16 32) a x).toNat < S64x128.size a := fun v771 v965 k0_hw246 => k0_hw246

def k0_chk247 (v771 : IVec S16 32) (v967 : IVec S16 32) : Prop :=
  (∀ a x, ((![v967, v771] : Fin 2 → IVec S16 32) a x).toNat < S64x128.size a)
instance k0_chk247.dec : ∀ (v771 : IVec S16 32) (v967 : IVec S16 32), Decidable (k0_chk247 v771 v967) := fun v771 v967 => decidable_of_iff' _ (Iff.of_eq (k0_chk247.eq_1 v771 v967))
theorem k0_idx247_inb : ∀ (v771 : IVec S16 32) (v967 : IVec S16 32) (k0_hw247 : k0_chk247 v771 v967), ∀ a x, ((![v967, v771] : Fin 2 → IVec S16 32) a x).toNat < S64x128.size a := fun v771 v967 k0_hw247 => k0_hw247

def k0_chk248 (v771 : IVec S16 32) (v969 : IVec S16 32) : Prop :=
  (∀ a x, ((![v969, v771] : Fin 2 → IVec S16 32) a x).toNat < S64x128.size a)
instance k0_chk248.dec : ∀ (v771 : IVec S16 32) (v969 : IVec S16 32), Decidable (k0_chk248 v771 v969) := fun v771 v969 => decidable_of_iff' _ (Iff.of_eq (k0_chk248.eq_1 v771 v969))
theorem k0_idx248_inb : ∀ (v771 : IVec S16 32) (v969 : IVec S16 32) (k0_hw248 : k0_chk248 v771 v969), ∀ a x, ((![v969, v771] : Fin 2 → IVec S16 32) a x).toNat < S64x128.size a := fun v771 v969 k0_hw248 => k0_hw248

def k0_chk249 (v771 : IVec S16 32) (v972 : IVec S16 32) : Prop :=
  (∀ a x, ((![v771, v972] : Fin 2 → IVec S16 32) a x).toNat < S128x128.size a)
instance k0_chk249.dec : ∀ (v771 : IVec S16 32) (v972 : IVec S16 32), Decidable (k0_chk249 v771 v972) := fun v771 v972 => decidable_of_iff' _ (Iff.of_eq (k0_chk249.eq_1 v771 v972))
theorem k0_idx249_inb : ∀ (v771 : IVec S16 32) (v972 : IVec S16 32) (k0_hw249 : k0_chk249 v771 v972), ∀ a x, ((![v771, v972] : Fin 2 → IVec S16 32) a x).toNat < S128x128.size a := fun v771 v972 k0_hw249 => k0_hw249

def k0_chk250 (v771 : IVec S16 32) (v974 : IVec S16 32) : Prop :=
  (∀ a x, ((![v771, v974] : Fin 2 → IVec S16 32) a x).toNat < S128x128.size a)
instance k0_chk250.dec : ∀ (v771 : IVec S16 32) (v974 : IVec S16 32), Decidable (k0_chk250 v771 v974) := fun v771 v974 => decidable_of_iff' _ (Iff.of_eq (k0_chk250.eq_1 v771 v974))
theorem k0_idx250_inb : ∀ (v771 : IVec S16 32) (v974 : IVec S16 32) (k0_hw250 : k0_chk250 v771 v974), ∀ a x, ((![v771, v974] : Fin 2 → IVec S16 32) a x).toNat < S128x128.size a := fun v771 v974 k0_hw250 => k0_hw250

def k0_chk251 (v771 : IVec S16 32) (v976 : IVec S16 32) : Prop :=
  (∀ a x, ((![v771, v976] : Fin 2 → IVec S16 32) a x).toNat < S128x128.size a)
instance k0_chk251.dec : ∀ (v771 : IVec S16 32) (v976 : IVec S16 32), Decidable (k0_chk251 v771 v976) := fun v771 v976 => decidable_of_iff' _ (Iff.of_eq (k0_chk251.eq_1 v771 v976))
theorem k0_idx251_inb : ∀ (v771 : IVec S16 32) (v976 : IVec S16 32) (k0_hw251 : k0_chk251 v771 v976), ∀ a x, ((![v771, v976] : Fin 2 → IVec S16 32) a x).toNat < S128x128.size a := fun v771 v976 k0_hw251 => k0_hw251

def k0_chk252 (v771 : IVec S16 32) (v978 : IVec S16 32) : Prop :=
  (∀ a x, ((![v771, v978] : Fin 2 → IVec S16 32) a x).toNat < S128x128.size a)
instance k0_chk252.dec : ∀ (v771 : IVec S16 32) (v978 : IVec S16 32), Decidable (k0_chk252 v771 v978) := fun v771 v978 => decidable_of_iff' _ (Iff.of_eq (k0_chk252.eq_1 v771 v978))
theorem k0_idx252_inb : ∀ (v771 : IVec S16 32) (v978 : IVec S16 32) (k0_hw252 : k0_chk252 v771 v978), ∀ a x, ((![v771, v978] : Fin 2 → IVec S16 32) a x).toNat < S128x128.size a := fun v771 v978 k0_hw252 => k0_hw252

def k0_chk253 (v771 : IVec S16 32) (v980 : IVec S16 32) : Prop :=
  (∀ a x, ((![v771, v980] : Fin 2 → IVec S16 32) a x).toNat < S128x128.size a)
instance k0_chk253.dec : ∀ (v771 : IVec S16 32) (v980 : IVec S16 32), Decidable (k0_chk253 v771 v980) := fun v771 v980 => decidable_of_iff' _ (Iff.of_eq (k0_chk253.eq_1 v771 v980))
theorem k0_idx253_inb : ∀ (v771 : IVec S16 32) (v980 : IVec S16 32) (k0_hw253 : k0_chk253 v771 v980), ∀ a x, ((![v771, v980] : Fin 2 → IVec S16 32) a x).toNat < S128x128.size a := fun v771 v980 k0_hw253 => k0_hw253

def k0_chk254 (v771 : IVec S16 32) (v982 : IVec S16 32) : Prop :=
  (∀ a x, ((![v771, v982] : Fin 2 → IVec S16 32) a x).toNat < S128x128.size a)
instance k0_chk254.dec : ∀ (v771 : IVec S16 32) (v982 : IVec S16 32), Decidable (k0_chk254 v771 v982) := fun v771 v982 => decidable_of_iff' _ (Iff.of_eq (k0_chk254.eq_1 v771 v982))
theorem k0_idx254_inb : ∀ (v771 : IVec S16 32) (v982 : IVec S16 32) (k0_hw254 : k0_chk254 v771 v982), ∀ a x, ((![v771, v982] : Fin 2 → IVec S16 32) a x).toNat < S128x128.size a := fun v771 v982 k0_hw254 => k0_hw254

def k0_chk255 (v771 : IVec S16 32) (v984 : IVec S16 32) : Prop :=
  (∀ a x, ((![v771, v984] : Fin 2 → IVec S16 32) a x).toNat < S128x128.size a)
instance k0_chk255.dec : ∀ (v771 : IVec S16 32) (v984 : IVec S16 32), Decidable (k0_chk255 v771 v984) := fun v771 v984 => decidable_of_iff' _ (Iff.of_eq (k0_chk255.eq_1 v771 v984))
theorem k0_idx255_inb : ∀ (v771 : IVec S16 32) (v984 : IVec S16 32) (k0_hw255 : k0_chk255 v771 v984), ∀ a x, ((![v771, v984] : Fin 2 → IVec S16 32) a x).toNat < S128x128.size a := fun v771 v984 k0_hw255 => k0_hw255

def k0_chk256 (v771 : IVec S16 32) (v986 : IVec S16 32) : Prop :=
  (∀ a x, ((![v771, v986] : Fin 2 → IVec S16 32) a x).toNat < S128x128.size a)
instance k0_chk256.dec : ∀ (v771 : IVec S16 32) (v986 : IVec S16 32), Decidable (k0_chk256 v771 v986) := fun v771 v986 => decidable_of_iff' _ (Iff.of_eq (k0_chk256.eq_1 v771 v986))
theorem k0_idx256_inb : ∀ (v771 : IVec S16 32) (v986 : IVec S16 32) (k0_hw256 : k0_chk256 v771 v986), ∀ a x, ((![v771, v986] : Fin 2 → IVec S16 32) a x).toNat < S128x128.size a := fun v771 v986 k0_hw256 => k0_hw256

def k0_chk257 (v771 : IVec S16 32) (v988 : IVec S16 32) : Prop :=
  (∀ a x, ((![v771, v988] : Fin 2 → IVec S16 32) a x).toNat < S128x128.size a)
instance k0_chk257.dec : ∀ (v771 : IVec S16 32) (v988 : IVec S16 32), Decidable (k0_chk257 v771 v988) := fun v771 v988 => decidable_of_iff' _ (Iff.of_eq (k0_chk257.eq_1 v771 v988))
theorem k0_idx257_inb : ∀ (v771 : IVec S16 32) (v988 : IVec S16 32) (k0_hw257 : k0_chk257 v771 v988), ∀ a x, ((![v771, v988] : Fin 2 → IVec S16 32) a x).toNat < S128x128.size a := fun v771 v988 k0_hw257 => k0_hw257

def k0_chk258 (v771 : IVec S16 32) (v990 : IVec S16 32) : Prop :=
  (∀ a x, ((![v771, v990] : Fin 2 → IVec S16 32) a x).toNat < S128x128.size a)
instance k0_chk258.dec : ∀ (v771 : IVec S16 32) (v990 : IVec S16 32), Decidable (k0_chk258 v771 v990) := fun v771 v990 => decidable_of_iff' _ (Iff.of_eq (k0_chk258.eq_1 v771 v990))
theorem k0_idx258_inb : ∀ (v771 : IVec S16 32) (v990 : IVec S16 32) (k0_hw258 : k0_chk258 v771 v990), ∀ a x, ((![v771, v990] : Fin 2 → IVec S16 32) a x).toNat < S128x128.size a := fun v771 v990 k0_hw258 => k0_hw258

def k0_chk259 (v771 : IVec S16 32) (v992 : IVec S16 32) : Prop :=
  (∀ a x, ((![v771, v992] : Fin 2 → IVec S16 32) a x).toNat < S128x128.size a)
instance k0_chk259.dec : ∀ (v771 : IVec S16 32) (v992 : IVec S16 32), Decidable (k0_chk259 v771 v992) := fun v771 v992 => decidable_of_iff' _ (Iff.of_eq (k0_chk259.eq_1 v771 v992))
theorem k0_idx259_inb : ∀ (v771 : IVec S16 32) (v992 : IVec S16 32) (k0_hw259 : k0_chk259 v771 v992), ∀ a x, ((![v771, v992] : Fin 2 → IVec S16 32) a x).toNat < S128x128.size a := fun v771 v992 k0_hw259 => k0_hw259

def k0_chk260 (v771 : IVec S16 32) (v994 : IVec S16 32) : Prop :=
  (∀ a x, ((![v771, v994] : Fin 2 → IVec S16 32) a x).toNat < S128x128.size a)
instance k0_chk260.dec : ∀ (v771 : IVec S16 32) (v994 : IVec S16 32), Decidable (k0_chk260 v771 v994) := fun v771 v994 => decidable_of_iff' _ (Iff.of_eq (k0_chk260.eq_1 v771 v994))
theorem k0_idx260_inb : ∀ (v771 : IVec S16 32) (v994 : IVec S16 32) (k0_hw260 : k0_chk260 v771 v994), ∀ a x, ((![v771, v994] : Fin 2 → IVec S16 32) a x).toNat < S128x128.size a := fun v771 v994 k0_hw260 => k0_hw260

def k0_chk261 (v771 : IVec S16 32) (v996 : IVec S16 32) : Prop :=
  (∀ a x, ((![v771, v996] : Fin 2 → IVec S16 32) a x).toNat < S128x128.size a)
instance k0_chk261.dec : ∀ (v771 : IVec S16 32) (v996 : IVec S16 32), Decidable (k0_chk261 v771 v996) := fun v771 v996 => decidable_of_iff' _ (Iff.of_eq (k0_chk261.eq_1 v771 v996))
theorem k0_idx261_inb : ∀ (v771 : IVec S16 32) (v996 : IVec S16 32) (k0_hw261 : k0_chk261 v771 v996), ∀ a x, ((![v771, v996] : Fin 2 → IVec S16 32) a x).toNat < S128x128.size a := fun v771 v996 k0_hw261 => k0_hw261

def k0_chk262 (v771 : IVec S16 32) (v998 : IVec S16 32) : Prop :=
  (∀ a x, ((![v771, v998] : Fin 2 → IVec S16 32) a x).toNat < S128x128.size a)
instance k0_chk262.dec : ∀ (v771 : IVec S16 32) (v998 : IVec S16 32), Decidable (k0_chk262 v771 v998) := fun v771 v998 => decidable_of_iff' _ (Iff.of_eq (k0_chk262.eq_1 v771 v998))
theorem k0_idx262_inb : ∀ (v771 : IVec S16 32) (v998 : IVec S16 32) (k0_hw262 : k0_chk262 v771 v998), ∀ a x, ((![v771, v998] : Fin 2 → IVec S16 32) a x).toNat < S128x128.size a := fun v771 v998 k0_hw262 => k0_hw262

def k0_chk263 (v771 : IVec S16 32) (v1000 : IVec S16 32) : Prop :=
  (∀ a x, ((![v771, v1000] : Fin 2 → IVec S16 32) a x).toNat < S128x128.size a)
instance k0_chk263.dec : ∀ (v771 : IVec S16 32) (v1000 : IVec S16 32), Decidable (k0_chk263 v771 v1000) := fun v771 v1000 => decidable_of_iff' _ (Iff.of_eq (k0_chk263.eq_1 v771 v1000))
theorem k0_idx263_inb : ∀ (v771 : IVec S16 32) (v1000 : IVec S16 32) (k0_hw263 : k0_chk263 v771 v1000), ∀ a x, ((![v771, v1000] : Fin 2 → IVec S16 32) a x).toNat < S128x128.size a := fun v771 v1000 k0_hw263 => k0_hw263

def k0_chk264 (v771 : IVec S16 32) (v1002 : IVec S16 32) : Prop :=
  (∀ a x, ((![v771, v1002] : Fin 2 → IVec S16 32) a x).toNat < S128x128.size a)
instance k0_chk264.dec : ∀ (v771 : IVec S16 32) (v1002 : IVec S16 32), Decidable (k0_chk264 v771 v1002) := fun v771 v1002 => decidable_of_iff' _ (Iff.of_eq (k0_chk264.eq_1 v771 v1002))
theorem k0_idx264_inb : ∀ (v771 : IVec S16 32) (v1002 : IVec S16 32) (k0_hw264 : k0_chk264 v771 v1002), ∀ a x, ((![v771, v1002] : Fin 2 → IVec S16 32) a x).toNat < S128x128.size a := fun v771 v1002 k0_hw264 => k0_hw264

def k0_chk265 (v771 : IVec S16 32) (v1005 : IVec S16 32) : Prop :=
  (∀ a x, ((![v1005, v771] : Fin 2 → IVec S16 32) a x).toNat < S64x128.size a)
instance k0_chk265.dec : ∀ (v771 : IVec S16 32) (v1005 : IVec S16 32), Decidable (k0_chk265 v771 v1005) := fun v771 v1005 => decidable_of_iff' _ (Iff.of_eq (k0_chk265.eq_1 v771 v1005))
theorem k0_idx265_inb : ∀ (v771 : IVec S16 32) (v1005 : IVec S16 32) (k0_hw265 : k0_chk265 v771 v1005), ∀ a x, ((![v1005, v771] : Fin 2 → IVec S16 32) a x).toNat < S64x128.size a := fun v771 v1005 k0_hw265 => k0_hw265

def k0_chk266 (v771 : IVec S16 32) (v1007 : IVec S16 32) : Prop :=
  (∀ a x, ((![v1007, v771] : Fin 2 → IVec S16 32) a x).toNat < S64x128.size a)
instance k0_chk266.dec : ∀ (v771 : IVec S16 32) (v1007 : IVec S16 32), Decidable (k0_chk266 v771 v1007) := fun v771 v1007 => decidable_of_iff' _ (Iff.of_eq (k0_chk266.eq_1 v771 v1007))
theorem k0_idx266_inb : ∀ (v771 : IVec S16 32) (v1007 : IVec S16 32) (k0_hw266 : k0_chk266 v771 v1007), ∀ a x, ((![v1007, v771] : Fin 2 → IVec S16 32) a x).toNat < S64x128.size a := fun v771 v1007 k0_hw266 => k0_hw266

def k0_chk267 (v771 : IVec S16 32) (v1009 : IVec S16 32) : Prop :=
  (∀ a x, ((![v1009, v771] : Fin 2 → IVec S16 32) a x).toNat < S64x128.size a)
instance k0_chk267.dec : ∀ (v771 : IVec S16 32) (v1009 : IVec S16 32), Decidable (k0_chk267 v771 v1009) := fun v771 v1009 => decidable_of_iff' _ (Iff.of_eq (k0_chk267.eq_1 v771 v1009))
theorem k0_idx267_inb : ∀ (v771 : IVec S16 32) (v1009 : IVec S16 32) (k0_hw267 : k0_chk267 v771 v1009), ∀ a x, ((![v1009, v771] : Fin 2 → IVec S16 32) a x).toNat < S64x128.size a := fun v771 v1009 k0_hw267 => k0_hw267

def k0_chk268 (v771 : IVec S16 32) (v1011 : IVec S16 32) : Prop :=
  (∀ a x, ((![v1011, v771] : Fin 2 → IVec S16 32) a x).toNat < S64x128.size a)
instance k0_chk268.dec : ∀ (v771 : IVec S16 32) (v1011 : IVec S16 32), Decidable (k0_chk268 v771 v1011) := fun v771 v1011 => decidable_of_iff' _ (Iff.of_eq (k0_chk268.eq_1 v771 v1011))
theorem k0_idx268_inb : ∀ (v771 : IVec S16 32) (v1011 : IVec S16 32) (k0_hw268 : k0_chk268 v771 v1011), ∀ a x, ((![v1011, v771] : Fin 2 → IVec S16 32) a x).toNat < S64x128.size a := fun v771 v1011 k0_hw268 => k0_hw268

def k0_chk269 (v771 : IVec S16 32) (v1013 : IVec S16 32) : Prop :=
  (∀ a x, ((![v1013, v771] : Fin 2 → IVec S16 32) a x).toNat < S64x128.size a)
instance k0_chk269.dec : ∀ (v771 : IVec S16 32) (v1013 : IVec S16 32), Decidable (k0_chk269 v771 v1013) := fun v771 v1013 => decidable_of_iff' _ (Iff.of_eq (k0_chk269.eq_1 v771 v1013))
theorem k0_idx269_inb : ∀ (v771 : IVec S16 32) (v1013 : IVec S16 32) (k0_hw269 : k0_chk269 v771 v1013), ∀ a x, ((![v1013, v771] : Fin 2 → IVec S16 32) a x).toNat < S64x128.size a := fun v771 v1013 k0_hw269 => k0_hw269

def k0_chk270 (v771 : IVec S16 32) (v1015 : IVec S16 32) : Prop :=
  (∀ a x, ((![v1015, v771] : Fin 2 → IVec S16 32) a x).toNat < S64x128.size a)
instance k0_chk270.dec : ∀ (v771 : IVec S16 32) (v1015 : IVec S16 32), Decidable (k0_chk270 v771 v1015) := fun v771 v1015 => decidable_of_iff' _ (Iff.of_eq (k0_chk270.eq_1 v771 v1015))
theorem k0_idx270_inb : ∀ (v771 : IVec S16 32) (v1015 : IVec S16 32) (k0_hw270 : k0_chk270 v771 v1015), ∀ a x, ((![v1015, v771] : Fin 2 → IVec S16 32) a x).toNat < S64x128.size a := fun v771 v1015 k0_hw270 => k0_hw270

def k0_chk271 (v771 : IVec S16 32) (v1017 : IVec S16 32) : Prop :=
  (∀ a x, ((![v1017, v771] : Fin 2 → IVec S16 32) a x).toNat < S64x128.size a)
instance k0_chk271.dec : ∀ (v771 : IVec S16 32) (v1017 : IVec S16 32), Decidable (k0_chk271 v771 v1017) := fun v771 v1017 => decidable_of_iff' _ (Iff.of_eq (k0_chk271.eq_1 v771 v1017))
theorem k0_idx271_inb : ∀ (v771 : IVec S16 32) (v1017 : IVec S16 32) (k0_hw271 : k0_chk271 v771 v1017), ∀ a x, ((![v1017, v771] : Fin 2 → IVec S16 32) a x).toNat < S64x128.size a := fun v771 v1017 k0_hw271 => k0_hw271

def k0_chk272 (v771 : IVec S16 32) (v1019 : IVec S16 32) : Prop :=
  (∀ a x, ((![v1019, v771] : Fin 2 → IVec S16 32) a x).toNat < S64x128.size a)
instance k0_chk272.dec : ∀ (v771 : IVec S16 32) (v1019 : IVec S16 32), Decidable (k0_chk272 v771 v1019) := fun v771 v1019 => decidable_of_iff' _ (Iff.of_eq (k0_chk272.eq_1 v771 v1019))
theorem k0_idx272_inb : ∀ (v771 : IVec S16 32) (v1019 : IVec S16 32) (k0_hw272 : k0_chk272 v771 v1019), ∀ a x, ((![v1019, v771] : Fin 2 → IVec S16 32) a x).toNat < S64x128.size a := fun v771 v1019 k0_hw272 => k0_hw272

def k0_chk273 (v771 : IVec S16 32) (v1021 : IVec S16 32) : Prop :=
  (∀ a x, ((![v1021, v771] : Fin 2 → IVec S16 32) a x).toNat < S64x128.size a)
instance k0_chk273.dec : ∀ (v771 : IVec S16 32) (v1021 : IVec S16 32), Decidable (k0_chk273 v771 v1021) := fun v771 v1021 => decidable_of_iff' _ (Iff.of_eq (k0_chk273.eq_1 v771 v1021))
theorem k0_idx273_inb : ∀ (v771 : IVec S16 32) (v1021 : IVec S16 32) (k0_hw273 : k0_chk273 v771 v1021), ∀ a x, ((![v1021, v771] : Fin 2 → IVec S16 32) a x).toNat < S64x128.size a := fun v771 v1021 k0_hw273 => k0_hw273

def k0_chk274 (v771 : IVec S16 32) (v1023 : IVec S16 32) : Prop :=
  (∀ a x, ((![v1023, v771] : Fin 2 → IVec S16 32) a x).toNat < S64x128.size a)
instance k0_chk274.dec : ∀ (v771 : IVec S16 32) (v1023 : IVec S16 32), Decidable (k0_chk274 v771 v1023) := fun v771 v1023 => decidable_of_iff' _ (Iff.of_eq (k0_chk274.eq_1 v771 v1023))
theorem k0_idx274_inb : ∀ (v771 : IVec S16 32) (v1023 : IVec S16 32) (k0_hw274 : k0_chk274 v771 v1023), ∀ a x, ((![v1023, v771] : Fin 2 → IVec S16 32) a x).toNat < S64x128.size a := fun v771 v1023 k0_hw274 => k0_hw274

def k0_chk275 (v771 : IVec S16 32) (v1025 : IVec S16 32) : Prop :=
  (∀ a x, ((![v1025, v771] : Fin 2 → IVec S16 32) a x).toNat < S64x128.size a)
instance k0_chk275.dec : ∀ (v771 : IVec S16 32) (v1025 : IVec S16 32), Decidable (k0_chk275 v771 v1025) := fun v771 v1025 => decidable_of_iff' _ (Iff.of_eq (k0_chk275.eq_1 v771 v1025))
theorem k0_idx275_inb : ∀ (v771 : IVec S16 32) (v1025 : IVec S16 32) (k0_hw275 : k0_chk275 v771 v1025), ∀ a x, ((![v1025, v771] : Fin 2 → IVec S16 32) a x).toNat < S64x128.size a := fun v771 v1025 k0_hw275 => k0_hw275

def k0_chk276 (v771 : IVec S16 32) (v1027 : IVec S16 32) : Prop :=
  (∀ a x, ((![v1027, v771] : Fin 2 → IVec S16 32) a x).toNat < S64x128.size a)
instance k0_chk276.dec : ∀ (v771 : IVec S16 32) (v1027 : IVec S16 32), Decidable (k0_chk276 v771 v1027) := fun v771 v1027 => decidable_of_iff' _ (Iff.of_eq (k0_chk276.eq_1 v771 v1027))
theorem k0_idx276_inb : ∀ (v771 : IVec S16 32) (v1027 : IVec S16 32) (k0_hw276 : k0_chk276 v771 v1027), ∀ a x, ((![v1027, v771] : Fin 2 → IVec S16 32) a x).toNat < S64x128.size a := fun v771 v1027 k0_hw276 => k0_hw276

def k0_chk277 (v771 : IVec S16 32) (v1029 : IVec S16 32) : Prop :=
  (∀ a x, ((![v1029, v771] : Fin 2 → IVec S16 32) a x).toNat < S64x128.size a)
instance k0_chk277.dec : ∀ (v771 : IVec S16 32) (v1029 : IVec S16 32), Decidable (k0_chk277 v771 v1029) := fun v771 v1029 => decidable_of_iff' _ (Iff.of_eq (k0_chk277.eq_1 v771 v1029))
theorem k0_idx277_inb : ∀ (v771 : IVec S16 32) (v1029 : IVec S16 32) (k0_hw277 : k0_chk277 v771 v1029), ∀ a x, ((![v1029, v771] : Fin 2 → IVec S16 32) a x).toNat < S64x128.size a := fun v771 v1029 k0_hw277 => k0_hw277

def k0_chk278 (v771 : IVec S16 32) (v1031 : IVec S16 32) : Prop :=
  (∀ a x, ((![v1031, v771] : Fin 2 → IVec S16 32) a x).toNat < S64x128.size a)
instance k0_chk278.dec : ∀ (v771 : IVec S16 32) (v1031 : IVec S16 32), Decidable (k0_chk278 v771 v1031) := fun v771 v1031 => decidable_of_iff' _ (Iff.of_eq (k0_chk278.eq_1 v771 v1031))
theorem k0_idx278_inb : ∀ (v771 : IVec S16 32) (v1031 : IVec S16 32) (k0_hw278 : k0_chk278 v771 v1031), ∀ a x, ((![v1031, v771] : Fin 2 → IVec S16 32) a x).toNat < S64x128.size a := fun v771 v1031 k0_hw278 => k0_hw278

def k0_chk279 (v771 : IVec S16 32) (v1033 : IVec S16 32) : Prop :=
  (∀ a x, ((![v1033, v771] : Fin 2 → IVec S16 32) a x).toNat < S64x128.size a)
instance k0_chk279.dec : ∀ (v771 : IVec S16 32) (v1033 : IVec S16 32), Decidable (k0_chk279 v771 v1033) := fun v771 v1033 => decidable_of_iff' _ (Iff.of_eq (k0_chk279.eq_1 v771 v1033))
theorem k0_idx279_inb : ∀ (v771 : IVec S16 32) (v1033 : IVec S16 32) (k0_hw279 : k0_chk279 v771 v1033), ∀ a x, ((![v1033, v771] : Fin 2 → IVec S16 32) a x).toNat < S64x128.size a := fun v771 v1033 k0_hw279 => k0_hw279

def k0_chk280 (v771 : IVec S16 32) (v1035 : IVec S16 32) : Prop :=
  (∀ a x, ((![v1035, v771] : Fin 2 → IVec S16 32) a x).toNat < S64x128.size a)
instance k0_chk280.dec : ∀ (v771 : IVec S16 32) (v1035 : IVec S16 32), Decidable (k0_chk280 v771 v1035) := fun v771 v1035 => decidable_of_iff' _ (Iff.of_eq (k0_chk280.eq_1 v771 v1035))
theorem k0_idx280_inb : ∀ (v771 : IVec S16 32) (v1035 : IVec S16 32) (k0_hw280 : k0_chk280 v771 v1035), ∀ a x, ((![v1035, v771] : Fin 2 → IVec S16 32) a x).toNat < S64x128.size a := fun v771 v1035 k0_hw280 => k0_hw280
def k0_off6 (i : grid0.Coords) (k0_t2 : Fin k0_t2_loop.trips) : Fin 3 → Nat :=
  let c2_i32_190 : BitVec 32 := 2#32
  let c1_i32_163 : BitVec 32 := 1#32
  let c1_i32_164 : BitVec 32 := 1#32
  let arg18 : BitVec 32 := Scf.iv c1_i32_163 c1_i32_164 k0_t2
  let v360 : BitVec 32 := Scalar.muli c2_i32_190 arg18
  let c1_i32_284 : BitVec 32 := 1#32
  let v528 : BitVec 32 := Scalar.subi v360 c1_i32_284
  let c50_i32_285 : BitVec 32 := 50#32
  let c0_i32_286 : BitVec 32 := 0#32
  let v529 : BitVec 1 := Scalar.cmpi .eq c50_i32_285 c0_i32_286
  let c1_i32_287 : BitVec 32 := 1#32
  let v530 : BitVec 32 := Scalar.select v529 c1_i32_287 c50_i32_285
  let v531 : BitVec 32 := Scalar.remsi v528 v530
  let c0_i32_289 : BitVec 32 := 0#32
  let v533 : BitVec 1 := Scalar.cmpi .slt v531 c0_i32_289
  let c0_i32_290 : BitVec 32 := 0#32
  let v534 : BitVec 1 := Scalar.cmpi .slt v530 c0_i32_290
  let v535 : BitVec 1 := Scalar.xori v533 v534
  let c0_i32_288 : BitVec 32 := 0#32
  let v532 : BitVec 1 := Scalar.cmpi .ne v531 c0_i32_288
  let v536 : BitVec 1 := Scalar.andi v535 v532
  let v537 : BitVec 32 := Scalar.addi v531 v530
  let v538 : BitVec 32 := Scalar.select v536 v537 v531
  let c0_i32_300 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_291 : BitVec 32 := 4#32
  let v539 : BitVec 32 := Scalar.muli v1 c4_i32_291
  let c0_i32_293 : BitVec 32 := 0#32
  let v541 : BitVec 1 := Scalar.cmpi .sgt v528 c0_i32_293
  let v542 : BitVec 32 := Scalar.extui v541
  let c0_i32_294 : BitVec 32 := 0#32
  let v543 : BitVec 1 := Scalar.cmpi .slt v528 c0_i32_294
  let v544 : BitVec 32 := Scalar.extui v543
  let v545 : BitVec 32 := Scalar.subi v542 v544
  let c50_i32_292 : BitVec 32 := 50#32
  let c0_i32_295 : BitVec 32 := 0#32
  let v546 : BitVec 1 := Scalar.cmpi .sgt c50_i32_292 c0_i32_295
  let v547 : BitVec 32 := Scalar.extui v546
  let c0_i32_296 : BitVec 32 := 0#32
  let v548 : BitVec 1 := Scalar.cmpi .slt c50_i32_292 c0_i32_296
  let v549 : BitVec 32 := Scalar.extui v548
  let v550 : BitVec 32 := Scalar.subi v547 v549
  let v551 : BitVec 1 := Scalar.cmpi .ne v545 v550
  let v552 : BitVec 32 := Scalar.remsi v528 c50_i32_292
  let c0_i32_297 : BitVec 32 := 0#32
  let v553 : BitVec 1 := Scalar.cmpi .ne v552 c0_i32_297
  let v554 : BitVec 1 := Scalar.andi v551 v553
  let v540 : BitVec 32 := Scalar.divsi v528 c50_i32_292
  let c1_i32_298 : BitVec 32 := 1#32
  let v555 : BitVec 32 := Scalar.subi v540 c1_i32_298
  let v556 : BitVec 32 := Scalar.select v554 v555 v540
  let v557 : BitVec 32 := Scalar.addi v539 v556
  let c128_i32_299 : BitVec 32 := 128#32
  let v558 : BitVec 32 := Scalar.muli v557 c128_i32_299
  ![v538.toNat, 0, v558.toNat]

def k0_chk281 (v599 : IVec S16 32) : Prop :=
  (∀ a x, ((![v599] : Fin 1 → IVec S16 32) a x).toNat < S25600.size a)
instance k0_chk281.dec : ∀ (v599 : IVec S16 32), Decidable (k0_chk281 v599) := fun v599 => decidable_of_iff' _ (Iff.of_eq (k0_chk281.eq_1 v599))
theorem k0_idx281_inb : ∀ (v599 : IVec S16 32) (k0_hw281 : k0_chk281 v599), ∀ a x, ((![v599] : Fin 1 → IVec S16 32) a x).toNat < S25600.size a := fun v599 k0_hw281 => k0_hw281

def k0_chk282 (v615 : IVec S16 32) : Prop :=
  (∀ a x, ((![v615] : Fin 1 → IVec S16 32) a x).toNat < S25600.size a)
instance k0_chk282.dec : ∀ (v615 : IVec S16 32), Decidable (k0_chk282 v615) := fun v615 => decidable_of_iff' _ (Iff.of_eq (k0_chk282.eq_1 v615))
theorem k0_idx282_inb : ∀ (v615 : IVec S16 32) (k0_hw282 : k0_chk282 v615), ∀ a x, ((![v615] : Fin 1 → IVec S16 32) a x).toNat < S25600.size a := fun v615 k0_hw282 => k0_hw282

def k0_chk283 (v631 : IVec S16 32) : Prop :=
  (∀ a x, ((![v631] : Fin 1 → IVec S16 32) a x).toNat < S25600.size a)
instance k0_chk283.dec : ∀ (v631 : IVec S16 32), Decidable (k0_chk283 v631) := fun v631 => decidable_of_iff' _ (Iff.of_eq (k0_chk283.eq_1 v631))
theorem k0_idx283_inb : ∀ (v631 : IVec S16 32) (k0_hw283 : k0_chk283 v631), ∀ a x, ((![v631] : Fin 1 → IVec S16 32) a x).toNat < S25600.size a := fun v631 k0_hw283 => k0_hw283

def k0_chk284 (v647 : IVec S16 32) : Prop :=
  (∀ a x, ((![v647] : Fin 1 → IVec S16 32) a x).toNat < S25600.size a)
instance k0_chk284.dec : ∀ (v647 : IVec S16 32), Decidable (k0_chk284 v647) := fun v647 => decidable_of_iff' _ (Iff.of_eq (k0_chk284.eq_1 v647))
theorem k0_idx284_inb : ∀ (v647 : IVec S16 32) (k0_hw284 : k0_chk284 v647), ∀ a x, ((![v647] : Fin 1 → IVec S16 32) a x).toNat < S25600.size a := fun v647 k0_hw284 => k0_hw284

def k0_chk285 (v663 : IVec S16 32) : Prop :=
  (∀ a x, ((![v663] : Fin 1 → IVec S16 32) a x).toNat < S25600.size a)
instance k0_chk285.dec : ∀ (v663 : IVec S16 32), Decidable (k0_chk285 v663) := fun v663 => decidable_of_iff' _ (Iff.of_eq (k0_chk285.eq_1 v663))
theorem k0_idx285_inb : ∀ (v663 : IVec S16 32) (k0_hw285 : k0_chk285 v663), ∀ a x, ((![v663] : Fin 1 → IVec S16 32) a x).toNat < S25600.size a := fun v663 k0_hw285 => k0_hw285

def k0_chk286 (v679 : IVec S16 32) : Prop :=
  (∀ a x, ((![v679] : Fin 1 → IVec S16 32) a x).toNat < S25600.size a)
instance k0_chk286.dec : ∀ (v679 : IVec S16 32), Decidable (k0_chk286 v679) := fun v679 => decidable_of_iff' _ (Iff.of_eq (k0_chk286.eq_1 v679))
theorem k0_idx286_inb : ∀ (v679 : IVec S16 32) (k0_hw286 : k0_chk286 v679), ∀ a x, ((![v679] : Fin 1 → IVec S16 32) a x).toNat < S25600.size a := fun v679 k0_hw286 => k0_hw286

def k0_chk287 (v695 : IVec S16 32) : Prop :=
  (∀ a x, ((![v695] : Fin 1 → IVec S16 32) a x).toNat < S25600.size a)
instance k0_chk287.dec : ∀ (v695 : IVec S16 32), Decidable (k0_chk287 v695) := fun v695 => decidable_of_iff' _ (Iff.of_eq (k0_chk287.eq_1 v695))
theorem k0_idx287_inb : ∀ (v695 : IVec S16 32) (k0_hw287 : k0_chk287 v695), ∀ a x, ((![v695] : Fin 1 → IVec S16 32) a x).toNat < S25600.size a := fun v695 k0_hw287 => k0_hw287

def k0_chk288 (v711 : IVec S16 32) : Prop :=
  (∀ a x, ((![v711] : Fin 1 → IVec S16 32) a x).toNat < S25600.size a)
instance k0_chk288.dec : ∀ (v711 : IVec S16 32), Decidable (k0_chk288 v711) := fun v711 => decidable_of_iff' _ (Iff.of_eq (k0_chk288.eq_1 v711))
theorem k0_idx288_inb : ∀ (v711 : IVec S16 32) (k0_hw288 : k0_chk288 v711), ∀ a x, ((![v711] : Fin 1 → IVec S16 32) a x).toNat < S25600.size a := fun v711 k0_hw288 => k0_hw288
def k0_off7 (i : grid0.Coords) : Fin 3 → Nat :=
  let c0_i32_385 : BitVec 32 := 0#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_382 : BitVec 32 := 4#32
  let v722 : BitVec 32 := Scalar.muli v1 c4_i32_382
  let c0_i32_383 : BitVec 32 := 0#32
  let v723 : BitVec 32 := Scalar.addi v722 c0_i32_383
  let c128_i32_384 : BitVec 32 := 128#32
  let v724 : BitVec 32 := Scalar.muli v723 c128_i32_384
  ![0, 0, v724.toNat]
@[reducible] def k0_t4_loop : Scf.Loop 32 :=
  let c0_i32_393 : BitVec 32 := 0#32
  let c8_i32_394 : BitVec 32 := 8#32
  let v731 : BitVec 32 := Scalar.addi c0_i32_393 c8_i32_394
  let c1_i32_395 : BitVec 32 := 1#32
  ⟨c0_i32_393, v731, c1_i32_395⟩
def k0_off8 (k0_t4 : Fin k0_t4_loop.trips) : Fin 2 → Nat :=
  let c0_i32_393 : BitVec 32 := 0#32
  let c1_i32_395 : BitVec 32 := 1#32
  let arg19 : BitVec 32 := Scf.iv c0_i32_393 c1_i32_395 k0_t4
  let v767 : Index := Scalar.indexCast arg19
  let c0_415 : Index := 0#32
  ![v767.toNat, 0]

def k0_chk289 (v771 : IVec S16 32) (v774 : IVec S16 32) : Prop :=
  (∀ a x, ((![v771, v774] : Fin 2 → IVec S16 32) a x).toNat < S128x128.size a)
instance k0_chk289.dec : ∀ (v771 : IVec S16 32) (v774 : IVec S16 32), Decidable (k0_chk289 v771 v774) := fun v771 v774 => decidable_of_iff' _ (Iff.of_eq (k0_chk289.eq_1 v771 v774))
theorem k0_idx289_inb : ∀ (v771 : IVec S16 32) (v774 : IVec S16 32) (k0_hw289 : k0_chk289 v771 v774), ∀ a x, ((![v771, v774] : Fin 2 → IVec S16 32) a x).toNat < S128x128.size a := fun v771 v774 k0_hw289 => k0_hw289

def k0_chk290 (v771 : IVec S16 32) (v776 : IVec S16 32) : Prop :=
  (∀ a x, ((![v771, v776] : Fin 2 → IVec S16 32) a x).toNat < S128x128.size a)
instance k0_chk290.dec : ∀ (v771 : IVec S16 32) (v776 : IVec S16 32), Decidable (k0_chk290 v771 v776) := fun v771 v776 => decidable_of_iff' _ (Iff.of_eq (k0_chk290.eq_1 v771 v776))
theorem k0_idx290_inb : ∀ (v771 : IVec S16 32) (v776 : IVec S16 32) (k0_hw290 : k0_chk290 v771 v776), ∀ a x, ((![v771, v776] : Fin 2 → IVec S16 32) a x).toNat < S128x128.size a := fun v771 v776 k0_hw290 => k0_hw290

def k0_chk291 (v771 : IVec S16 32) (v778 : IVec S16 32) : Prop :=
  (∀ a x, ((![v771, v778] : Fin 2 → IVec S16 32) a x).toNat < S128x128.size a)
instance k0_chk291.dec : ∀ (v771 : IVec S16 32) (v778 : IVec S16 32), Decidable (k0_chk291 v771 v778) := fun v771 v778 => decidable_of_iff' _ (Iff.of_eq (k0_chk291.eq_1 v771 v778))
theorem k0_idx291_inb : ∀ (v771 : IVec S16 32) (v778 : IVec S16 32) (k0_hw291 : k0_chk291 v771 v778), ∀ a x, ((![v771, v778] : Fin 2 → IVec S16 32) a x).toNat < S128x128.size a := fun v771 v778 k0_hw291 => k0_hw291

def k0_chk292 (v771 : IVec S16 32) (v780 : IVec S16 32) : Prop :=
  (∀ a x, ((![v771, v780] : Fin 2 → IVec S16 32) a x).toNat < S128x128.size a)
instance k0_chk292.dec : ∀ (v771 : IVec S16 32) (v780 : IVec S16 32), Decidable (k0_chk292 v771 v780) := fun v771 v780 => decidable_of_iff' _ (Iff.of_eq (k0_chk292.eq_1 v771 v780))
theorem k0_idx292_inb : ∀ (v771 : IVec S16 32) (v780 : IVec S16 32) (k0_hw292 : k0_chk292 v771 v780), ∀ a x, ((![v771, v780] : Fin 2 → IVec S16 32) a x).toNat < S128x128.size a := fun v771 v780 k0_hw292 => k0_hw292

def k0_chk293 (v771 : IVec S16 32) (v782 : IVec S16 32) : Prop :=
  (∀ a x, ((![v771, v782] : Fin 2 → IVec S16 32) a x).toNat < S128x128.size a)
instance k0_chk293.dec : ∀ (v771 : IVec S16 32) (v782 : IVec S16 32), Decidable (k0_chk293 v771 v782) := fun v771 v782 => decidable_of_iff' _ (Iff.of_eq (k0_chk293.eq_1 v771 v782))
theorem k0_idx293_inb : ∀ (v771 : IVec S16 32) (v782 : IVec S16 32) (k0_hw293 : k0_chk293 v771 v782), ∀ a x, ((![v771, v782] : Fin 2 → IVec S16 32) a x).toNat < S128x128.size a := fun v771 v782 k0_hw293 => k0_hw293

def k0_chk294 (v771 : IVec S16 32) (v784 : IVec S16 32) : Prop :=
  (∀ a x, ((![v771, v784] : Fin 2 → IVec S16 32) a x).toNat < S128x128.size a)
instance k0_chk294.dec : ∀ (v771 : IVec S16 32) (v784 : IVec S16 32), Decidable (k0_chk294 v771 v784) := fun v771 v784 => decidable_of_iff' _ (Iff.of_eq (k0_chk294.eq_1 v771 v784))
theorem k0_idx294_inb : ∀ (v771 : IVec S16 32) (v784 : IVec S16 32) (k0_hw294 : k0_chk294 v771 v784), ∀ a x, ((![v771, v784] : Fin 2 → IVec S16 32) a x).toNat < S128x128.size a := fun v771 v784 k0_hw294 => k0_hw294

def k0_chk295 (v771 : IVec S16 32) (v786 : IVec S16 32) : Prop :=
  (∀ a x, ((![v771, v786] : Fin 2 → IVec S16 32) a x).toNat < S128x128.size a)
instance k0_chk295.dec : ∀ (v771 : IVec S16 32) (v786 : IVec S16 32), Decidable (k0_chk295 v771 v786) := fun v771 v786 => decidable_of_iff' _ (Iff.of_eq (k0_chk295.eq_1 v771 v786))
theorem k0_idx295_inb : ∀ (v771 : IVec S16 32) (v786 : IVec S16 32) (k0_hw295 : k0_chk295 v771 v786), ∀ a x, ((![v771, v786] : Fin 2 → IVec S16 32) a x).toNat < S128x128.size a := fun v771 v786 k0_hw295 => k0_hw295

def k0_chk296 (v771 : IVec S16 32) (v788 : IVec S16 32) : Prop :=
  (∀ a x, ((![v771, v788] : Fin 2 → IVec S16 32) a x).toNat < S128x128.size a)
instance k0_chk296.dec : ∀ (v771 : IVec S16 32) (v788 : IVec S16 32), Decidable (k0_chk296 v771 v788) := fun v771 v788 => decidable_of_iff' _ (Iff.of_eq (k0_chk296.eq_1 v771 v788))
theorem k0_idx296_inb : ∀ (v771 : IVec S16 32) (v788 : IVec S16 32) (k0_hw296 : k0_chk296 v771 v788), ∀ a x, ((![v771, v788] : Fin 2 → IVec S16 32) a x).toNat < S128x128.size a := fun v771 v788 k0_hw296 => k0_hw296

def k0_chk297 (v771 : IVec S16 32) (v790 : IVec S16 32) : Prop :=
  (∀ a x, ((![v771, v790] : Fin 2 → IVec S16 32) a x).toNat < S128x128.size a)
instance k0_chk297.dec : ∀ (v771 : IVec S16 32) (v790 : IVec S16 32), Decidable (k0_chk297 v771 v790) := fun v771 v790 => decidable_of_iff' _ (Iff.of_eq (k0_chk297.eq_1 v771 v790))
theorem k0_idx297_inb : ∀ (v771 : IVec S16 32) (v790 : IVec S16 32) (k0_hw297 : k0_chk297 v771 v790), ∀ a x, ((![v771, v790] : Fin 2 → IVec S16 32) a x).toNat < S128x128.size a := fun v771 v790 k0_hw297 => k0_hw297

def k0_chk298 (v771 : IVec S16 32) (v792 : IVec S16 32) : Prop :=
  (∀ a x, ((![v771, v792] : Fin 2 → IVec S16 32) a x).toNat < S128x128.size a)
instance k0_chk298.dec : ∀ (v771 : IVec S16 32) (v792 : IVec S16 32), Decidable (k0_chk298 v771 v792) := fun v771 v792 => decidable_of_iff' _ (Iff.of_eq (k0_chk298.eq_1 v771 v792))
theorem k0_idx298_inb : ∀ (v771 : IVec S16 32) (v792 : IVec S16 32) (k0_hw298 : k0_chk298 v771 v792), ∀ a x, ((![v771, v792] : Fin 2 → IVec S16 32) a x).toNat < S128x128.size a := fun v771 v792 k0_hw298 => k0_hw298

def k0_chk299 (v771 : IVec S16 32) (v794 : IVec S16 32) : Prop :=
  (∀ a x, ((![v771, v794] : Fin 2 → IVec S16 32) a x).toNat < S128x128.size a)
instance k0_chk299.dec : ∀ (v771 : IVec S16 32) (v794 : IVec S16 32), Decidable (k0_chk299 v771 v794) := fun v771 v794 => decidable_of_iff' _ (Iff.of_eq (k0_chk299.eq_1 v771 v794))
theorem k0_idx299_inb : ∀ (v771 : IVec S16 32) (v794 : IVec S16 32) (k0_hw299 : k0_chk299 v771 v794), ∀ a x, ((![v771, v794] : Fin 2 → IVec S16 32) a x).toNat < S128x128.size a := fun v771 v794 k0_hw299 => k0_hw299

def k0_chk300 (v771 : IVec S16 32) (v796 : IVec S16 32) : Prop :=
  (∀ a x, ((![v771, v796] : Fin 2 → IVec S16 32) a x).toNat < S128x128.size a)
instance k0_chk300.dec : ∀ (v771 : IVec S16 32) (v796 : IVec S16 32), Decidable (k0_chk300 v771 v796) := fun v771 v796 => decidable_of_iff' _ (Iff.of_eq (k0_chk300.eq_1 v771 v796))
theorem k0_idx300_inb : ∀ (v771 : IVec S16 32) (v796 : IVec S16 32) (k0_hw300 : k0_chk300 v771 v796), ∀ a x, ((![v771, v796] : Fin 2 → IVec S16 32) a x).toNat < S128x128.size a := fun v771 v796 k0_hw300 => k0_hw300

def k0_chk301 (v771 : IVec S16 32) (v798 : IVec S16 32) : Prop :=
  (∀ a x, ((![v771, v798] : Fin 2 → IVec S16 32) a x).toNat < S128x128.size a)
instance k0_chk301.dec : ∀ (v771 : IVec S16 32) (v798 : IVec S16 32), Decidable (k0_chk301 v771 v798) := fun v771 v798 => decidable_of_iff' _ (Iff.of_eq (k0_chk301.eq_1 v771 v798))
theorem k0_idx301_inb : ∀ (v771 : IVec S16 32) (v798 : IVec S16 32) (k0_hw301 : k0_chk301 v771 v798), ∀ a x, ((![v771, v798] : Fin 2 → IVec S16 32) a x).toNat < S128x128.size a := fun v771 v798 k0_hw301 => k0_hw301

def k0_chk302 (v771 : IVec S16 32) (v800 : IVec S16 32) : Prop :=
  (∀ a x, ((![v771, v800] : Fin 2 → IVec S16 32) a x).toNat < S128x128.size a)
instance k0_chk302.dec : ∀ (v771 : IVec S16 32) (v800 : IVec S16 32), Decidable (k0_chk302 v771 v800) := fun v771 v800 => decidable_of_iff' _ (Iff.of_eq (k0_chk302.eq_1 v771 v800))
theorem k0_idx302_inb : ∀ (v771 : IVec S16 32) (v800 : IVec S16 32) (k0_hw302 : k0_chk302 v771 v800), ∀ a x, ((![v771, v800] : Fin 2 → IVec S16 32) a x).toNat < S128x128.size a := fun v771 v800 k0_hw302 => k0_hw302

def k0_chk303 (v771 : IVec S16 32) (v802 : IVec S16 32) : Prop :=
  (∀ a x, ((![v771, v802] : Fin 2 → IVec S16 32) a x).toNat < S128x128.size a)
instance k0_chk303.dec : ∀ (v771 : IVec S16 32) (v802 : IVec S16 32), Decidable (k0_chk303 v771 v802) := fun v771 v802 => decidable_of_iff' _ (Iff.of_eq (k0_chk303.eq_1 v771 v802))
theorem k0_idx303_inb : ∀ (v771 : IVec S16 32) (v802 : IVec S16 32) (k0_hw303 : k0_chk303 v771 v802), ∀ a x, ((![v771, v802] : Fin 2 → IVec S16 32) a x).toNat < S128x128.size a := fun v771 v802 k0_hw303 => k0_hw303

def k0_chk304 (v771 : IVec S16 32) (v804 : IVec S16 32) : Prop :=
  (∀ a x, ((![v771, v804] : Fin 2 → IVec S16 32) a x).toNat < S128x128.size a)
instance k0_chk304.dec : ∀ (v771 : IVec S16 32) (v804 : IVec S16 32), Decidable (k0_chk304 v771 v804) := fun v771 v804 => decidable_of_iff' _ (Iff.of_eq (k0_chk304.eq_1 v771 v804))
theorem k0_idx304_inb : ∀ (v771 : IVec S16 32) (v804 : IVec S16 32) (k0_hw304 : k0_chk304 v771 v804), ∀ a x, ((![v771, v804] : Fin 2 → IVec S16 32) a x).toNat < S128x128.size a := fun v771 v804 k0_hw304 => k0_hw304

def k0_chk305 (v771 : IVec S16 32) (v807 : IVec S16 32) : Prop :=
  (∀ a x, ((![v807, v771] : Fin 2 → IVec S16 32) a x).toNat < S64x128.size a)
instance k0_chk305.dec : ∀ (v771 : IVec S16 32) (v807 : IVec S16 32), Decidable (k0_chk305 v771 v807) := fun v771 v807 => decidable_of_iff' _ (Iff.of_eq (k0_chk305.eq_1 v771 v807))
theorem k0_idx305_inb : ∀ (v771 : IVec S16 32) (v807 : IVec S16 32) (k0_hw305 : k0_chk305 v771 v807), ∀ a x, ((![v807, v771] : Fin 2 → IVec S16 32) a x).toNat < S64x128.size a := fun v771 v807 k0_hw305 => k0_hw305

def k0_chk306 (v771 : IVec S16 32) (v809 : IVec S16 32) : Prop :=
  (∀ a x, ((![v809, v771] : Fin 2 → IVec S16 32) a x).toNat < S64x128.size a)
instance k0_chk306.dec : ∀ (v771 : IVec S16 32) (v809 : IVec S16 32), Decidable (k0_chk306 v771 v809) := fun v771 v809 => decidable_of_iff' _ (Iff.of_eq (k0_chk306.eq_1 v771 v809))
theorem k0_idx306_inb : ∀ (v771 : IVec S16 32) (v809 : IVec S16 32) (k0_hw306 : k0_chk306 v771 v809), ∀ a x, ((![v809, v771] : Fin 2 → IVec S16 32) a x).toNat < S64x128.size a := fun v771 v809 k0_hw306 => k0_hw306

def k0_chk307 (v771 : IVec S16 32) (v811 : IVec S16 32) : Prop :=
  (∀ a x, ((![v811, v771] : Fin 2 → IVec S16 32) a x).toNat < S64x128.size a)
instance k0_chk307.dec : ∀ (v771 : IVec S16 32) (v811 : IVec S16 32), Decidable (k0_chk307 v771 v811) := fun v771 v811 => decidable_of_iff' _ (Iff.of_eq (k0_chk307.eq_1 v771 v811))
theorem k0_idx307_inb : ∀ (v771 : IVec S16 32) (v811 : IVec S16 32) (k0_hw307 : k0_chk307 v771 v811), ∀ a x, ((![v811, v771] : Fin 2 → IVec S16 32) a x).toNat < S64x128.size a := fun v771 v811 k0_hw307 => k0_hw307

def k0_chk308 (v771 : IVec S16 32) (v813 : IVec S16 32) : Prop :=
  (∀ a x, ((![v813, v771] : Fin 2 → IVec S16 32) a x).toNat < S64x128.size a)
instance k0_chk308.dec : ∀ (v771 : IVec S16 32) (v813 : IVec S16 32), Decidable (k0_chk308 v771 v813) := fun v771 v813 => decidable_of_iff' _ (Iff.of_eq (k0_chk308.eq_1 v771 v813))
theorem k0_idx308_inb : ∀ (v771 : IVec S16 32) (v813 : IVec S16 32) (k0_hw308 : k0_chk308 v771 v813), ∀ a x, ((![v813, v771] : Fin 2 → IVec S16 32) a x).toNat < S64x128.size a := fun v771 v813 k0_hw308 => k0_hw308

def k0_chk309 (v771 : IVec S16 32) (v815 : IVec S16 32) : Prop :=
  (∀ a x, ((![v815, v771] : Fin 2 → IVec S16 32) a x).toNat < S64x128.size a)
instance k0_chk309.dec : ∀ (v771 : IVec S16 32) (v815 : IVec S16 32), Decidable (k0_chk309 v771 v815) := fun v771 v815 => decidable_of_iff' _ (Iff.of_eq (k0_chk309.eq_1 v771 v815))
theorem k0_idx309_inb : ∀ (v771 : IVec S16 32) (v815 : IVec S16 32) (k0_hw309 : k0_chk309 v771 v815), ∀ a x, ((![v815, v771] : Fin 2 → IVec S16 32) a x).toNat < S64x128.size a := fun v771 v815 k0_hw309 => k0_hw309

def k0_chk310 (v771 : IVec S16 32) (v817 : IVec S16 32) : Prop :=
  (∀ a x, ((![v817, v771] : Fin 2 → IVec S16 32) a x).toNat < S64x128.size a)
instance k0_chk310.dec : ∀ (v771 : IVec S16 32) (v817 : IVec S16 32), Decidable (k0_chk310 v771 v817) := fun v771 v817 => decidable_of_iff' _ (Iff.of_eq (k0_chk310.eq_1 v771 v817))
theorem k0_idx310_inb : ∀ (v771 : IVec S16 32) (v817 : IVec S16 32) (k0_hw310 : k0_chk310 v771 v817), ∀ a x, ((![v817, v771] : Fin 2 → IVec S16 32) a x).toNat < S64x128.size a := fun v771 v817 k0_hw310 => k0_hw310

def k0_chk311 (v771 : IVec S16 32) (v819 : IVec S16 32) : Prop :=
  (∀ a x, ((![v819, v771] : Fin 2 → IVec S16 32) a x).toNat < S64x128.size a)
instance k0_chk311.dec : ∀ (v771 : IVec S16 32) (v819 : IVec S16 32), Decidable (k0_chk311 v771 v819) := fun v771 v819 => decidable_of_iff' _ (Iff.of_eq (k0_chk311.eq_1 v771 v819))
theorem k0_idx311_inb : ∀ (v771 : IVec S16 32) (v819 : IVec S16 32) (k0_hw311 : k0_chk311 v771 v819), ∀ a x, ((![v819, v771] : Fin 2 → IVec S16 32) a x).toNat < S64x128.size a := fun v771 v819 k0_hw311 => k0_hw311

def k0_chk312 (v771 : IVec S16 32) (v821 : IVec S16 32) : Prop :=
  (∀ a x, ((![v821, v771] : Fin 2 → IVec S16 32) a x).toNat < S64x128.size a)
instance k0_chk312.dec : ∀ (v771 : IVec S16 32) (v821 : IVec S16 32), Decidable (k0_chk312 v771 v821) := fun v771 v821 => decidable_of_iff' _ (Iff.of_eq (k0_chk312.eq_1 v771 v821))
theorem k0_idx312_inb : ∀ (v771 : IVec S16 32) (v821 : IVec S16 32) (k0_hw312 : k0_chk312 v771 v821), ∀ a x, ((![v821, v771] : Fin 2 → IVec S16 32) a x).toNat < S64x128.size a := fun v771 v821 k0_hw312 => k0_hw312

def k0_chk313 (v771 : IVec S16 32) (v823 : IVec S16 32) : Prop :=
  (∀ a x, ((![v823, v771] : Fin 2 → IVec S16 32) a x).toNat < S64x128.size a)
instance k0_chk313.dec : ∀ (v771 : IVec S16 32) (v823 : IVec S16 32), Decidable (k0_chk313 v771 v823) := fun v771 v823 => decidable_of_iff' _ (Iff.of_eq (k0_chk313.eq_1 v771 v823))
theorem k0_idx313_inb : ∀ (v771 : IVec S16 32) (v823 : IVec S16 32) (k0_hw313 : k0_chk313 v771 v823), ∀ a x, ((![v823, v771] : Fin 2 → IVec S16 32) a x).toNat < S64x128.size a := fun v771 v823 k0_hw313 => k0_hw313

def k0_chk314 (v771 : IVec S16 32) (v825 : IVec S16 32) : Prop :=
  (∀ a x, ((![v825, v771] : Fin 2 → IVec S16 32) a x).toNat < S64x128.size a)
instance k0_chk314.dec : ∀ (v771 : IVec S16 32) (v825 : IVec S16 32), Decidable (k0_chk314 v771 v825) := fun v771 v825 => decidable_of_iff' _ (Iff.of_eq (k0_chk314.eq_1 v771 v825))
theorem k0_idx314_inb : ∀ (v771 : IVec S16 32) (v825 : IVec S16 32) (k0_hw314 : k0_chk314 v771 v825), ∀ a x, ((![v825, v771] : Fin 2 → IVec S16 32) a x).toNat < S64x128.size a := fun v771 v825 k0_hw314 => k0_hw314

def k0_chk315 (v771 : IVec S16 32) (v827 : IVec S16 32) : Prop :=
  (∀ a x, ((![v827, v771] : Fin 2 → IVec S16 32) a x).toNat < S64x128.size a)
instance k0_chk315.dec : ∀ (v771 : IVec S16 32) (v827 : IVec S16 32), Decidable (k0_chk315 v771 v827) := fun v771 v827 => decidable_of_iff' _ (Iff.of_eq (k0_chk315.eq_1 v771 v827))
theorem k0_idx315_inb : ∀ (v771 : IVec S16 32) (v827 : IVec S16 32) (k0_hw315 : k0_chk315 v771 v827), ∀ a x, ((![v827, v771] : Fin 2 → IVec S16 32) a x).toNat < S64x128.size a := fun v771 v827 k0_hw315 => k0_hw315

def k0_chk316 (v771 : IVec S16 32) (v829 : IVec S16 32) : Prop :=
  (∀ a x, ((![v829, v771] : Fin 2 → IVec S16 32) a x).toNat < S64x128.size a)
instance k0_chk316.dec : ∀ (v771 : IVec S16 32) (v829 : IVec S16 32), Decidable (k0_chk316 v771 v829) := fun v771 v829 => decidable_of_iff' _ (Iff.of_eq (k0_chk316.eq_1 v771 v829))
theorem k0_idx316_inb : ∀ (v771 : IVec S16 32) (v829 : IVec S16 32) (k0_hw316 : k0_chk316 v771 v829), ∀ a x, ((![v829, v771] : Fin 2 → IVec S16 32) a x).toNat < S64x128.size a := fun v771 v829 k0_hw316 => k0_hw316

def k0_chk317 (v771 : IVec S16 32) (v831 : IVec S16 32) : Prop :=
  (∀ a x, ((![v831, v771] : Fin 2 → IVec S16 32) a x).toNat < S64x128.size a)
instance k0_chk317.dec : ∀ (v771 : IVec S16 32) (v831 : IVec S16 32), Decidable (k0_chk317 v771 v831) := fun v771 v831 => decidable_of_iff' _ (Iff.of_eq (k0_chk317.eq_1 v771 v831))
theorem k0_idx317_inb : ∀ (v771 : IVec S16 32) (v831 : IVec S16 32) (k0_hw317 : k0_chk317 v771 v831), ∀ a x, ((![v831, v771] : Fin 2 → IVec S16 32) a x).toNat < S64x128.size a := fun v771 v831 k0_hw317 => k0_hw317

def k0_chk318 (v771 : IVec S16 32) (v833 : IVec S16 32) : Prop :=
  (∀ a x, ((![v833, v771] : Fin 2 → IVec S16 32) a x).toNat < S64x128.size a)
instance k0_chk318.dec : ∀ (v771 : IVec S16 32) (v833 : IVec S16 32), Decidable (k0_chk318 v771 v833) := fun v771 v833 => decidable_of_iff' _ (Iff.of_eq (k0_chk318.eq_1 v771 v833))
theorem k0_idx318_inb : ∀ (v771 : IVec S16 32) (v833 : IVec S16 32) (k0_hw318 : k0_chk318 v771 v833), ∀ a x, ((![v833, v771] : Fin 2 → IVec S16 32) a x).toNat < S64x128.size a := fun v771 v833 k0_hw318 => k0_hw318

def k0_chk319 (v771 : IVec S16 32) (v835 : IVec S16 32) : Prop :=
  (∀ a x, ((![v835, v771] : Fin 2 → IVec S16 32) a x).toNat < S64x128.size a)
instance k0_chk319.dec : ∀ (v771 : IVec S16 32) (v835 : IVec S16 32), Decidable (k0_chk319 v771 v835) := fun v771 v835 => decidable_of_iff' _ (Iff.of_eq (k0_chk319.eq_1 v771 v835))
theorem k0_idx319_inb : ∀ (v771 : IVec S16 32) (v835 : IVec S16 32) (k0_hw319 : k0_chk319 v771 v835), ∀ a x, ((![v835, v771] : Fin 2 → IVec S16 32) a x).toNat < S64x128.size a := fun v771 v835 k0_hw319 => k0_hw319

def k0_chk320 (v771 : IVec S16 32) (v837 : IVec S16 32) : Prop :=
  (∀ a x, ((![v837, v771] : Fin 2 → IVec S16 32) a x).toNat < S64x128.size a)
instance k0_chk320.dec : ∀ (v771 : IVec S16 32) (v837 : IVec S16 32), Decidable (k0_chk320 v771 v837) := fun v771 v837 => decidable_of_iff' _ (Iff.of_eq (k0_chk320.eq_1 v771 v837))
theorem k0_idx320_inb : ∀ (v771 : IVec S16 32) (v837 : IVec S16 32) (k0_hw320 : k0_chk320 v771 v837), ∀ a x, ((![v837, v771] : Fin 2 → IVec S16 32) a x).toNat < S64x128.size a := fun v771 v837 k0_hw320 => k0_hw320

def k0_chk321 (v771 : IVec S16 32) (v840 : IVec S16 32) : Prop :=
  (∀ a x, ((![v771, v840] : Fin 2 → IVec S16 32) a x).toNat < S128x128.size a)
instance k0_chk321.dec : ∀ (v771 : IVec S16 32) (v840 : IVec S16 32), Decidable (k0_chk321 v771 v840) := fun v771 v840 => decidable_of_iff' _ (Iff.of_eq (k0_chk321.eq_1 v771 v840))
theorem k0_idx321_inb : ∀ (v771 : IVec S16 32) (v840 : IVec S16 32) (k0_hw321 : k0_chk321 v771 v840), ∀ a x, ((![v771, v840] : Fin 2 → IVec S16 32) a x).toNat < S128x128.size a := fun v771 v840 k0_hw321 => k0_hw321

def k0_chk322 (v771 : IVec S16 32) (v842 : IVec S16 32) : Prop :=
  (∀ a x, ((![v771, v842] : Fin 2 → IVec S16 32) a x).toNat < S128x128.size a)
instance k0_chk322.dec : ∀ (v771 : IVec S16 32) (v842 : IVec S16 32), Decidable (k0_chk322 v771 v842) := fun v771 v842 => decidable_of_iff' _ (Iff.of_eq (k0_chk322.eq_1 v771 v842))
theorem k0_idx322_inb : ∀ (v771 : IVec S16 32) (v842 : IVec S16 32) (k0_hw322 : k0_chk322 v771 v842), ∀ a x, ((![v771, v842] : Fin 2 → IVec S16 32) a x).toNat < S128x128.size a := fun v771 v842 k0_hw322 => k0_hw322

def k0_chk323 (v771 : IVec S16 32) (v844 : IVec S16 32) : Prop :=
  (∀ a x, ((![v771, v844] : Fin 2 → IVec S16 32) a x).toNat < S128x128.size a)
instance k0_chk323.dec : ∀ (v771 : IVec S16 32) (v844 : IVec S16 32), Decidable (k0_chk323 v771 v844) := fun v771 v844 => decidable_of_iff' _ (Iff.of_eq (k0_chk323.eq_1 v771 v844))
theorem k0_idx323_inb : ∀ (v771 : IVec S16 32) (v844 : IVec S16 32) (k0_hw323 : k0_chk323 v771 v844), ∀ a x, ((![v771, v844] : Fin 2 → IVec S16 32) a x).toNat < S128x128.size a := fun v771 v844 k0_hw323 => k0_hw323

def k0_chk324 (v771 : IVec S16 32) (v846 : IVec S16 32) : Prop :=
  (∀ a x, ((![v771, v846] : Fin 2 → IVec S16 32) a x).toNat < S128x128.size a)
instance k0_chk324.dec : ∀ (v771 : IVec S16 32) (v846 : IVec S16 32), Decidable (k0_chk324 v771 v846) := fun v771 v846 => decidable_of_iff' _ (Iff.of_eq (k0_chk324.eq_1 v771 v846))
theorem k0_idx324_inb : ∀ (v771 : IVec S16 32) (v846 : IVec S16 32) (k0_hw324 : k0_chk324 v771 v846), ∀ a x, ((![v771, v846] : Fin 2 → IVec S16 32) a x).toNat < S128x128.size a := fun v771 v846 k0_hw324 => k0_hw324

def k0_chk325 (v771 : IVec S16 32) (v848 : IVec S16 32) : Prop :=
  (∀ a x, ((![v771, v848] : Fin 2 → IVec S16 32) a x).toNat < S128x128.size a)
instance k0_chk325.dec : ∀ (v771 : IVec S16 32) (v848 : IVec S16 32), Decidable (k0_chk325 v771 v848) := fun v771 v848 => decidable_of_iff' _ (Iff.of_eq (k0_chk325.eq_1 v771 v848))
theorem k0_idx325_inb : ∀ (v771 : IVec S16 32) (v848 : IVec S16 32) (k0_hw325 : k0_chk325 v771 v848), ∀ a x, ((![v771, v848] : Fin 2 → IVec S16 32) a x).toNat < S128x128.size a := fun v771 v848 k0_hw325 => k0_hw325

def k0_chk326 (v771 : IVec S16 32) (v850 : IVec S16 32) : Prop :=
  (∀ a x, ((![v771, v850] : Fin 2 → IVec S16 32) a x).toNat < S128x128.size a)
instance k0_chk326.dec : ∀ (v771 : IVec S16 32) (v850 : IVec S16 32), Decidable (k0_chk326 v771 v850) := fun v771 v850 => decidable_of_iff' _ (Iff.of_eq (k0_chk326.eq_1 v771 v850))
theorem k0_idx326_inb : ∀ (v771 : IVec S16 32) (v850 : IVec S16 32) (k0_hw326 : k0_chk326 v771 v850), ∀ a x, ((![v771, v850] : Fin 2 → IVec S16 32) a x).toNat < S128x128.size a := fun v771 v850 k0_hw326 => k0_hw326

def k0_chk327 (v771 : IVec S16 32) (v852 : IVec S16 32) : Prop :=
  (∀ a x, ((![v771, v852] : Fin 2 → IVec S16 32) a x).toNat < S128x128.size a)
instance k0_chk327.dec : ∀ (v771 : IVec S16 32) (v852 : IVec S16 32), Decidable (k0_chk327 v771 v852) := fun v771 v852 => decidable_of_iff' _ (Iff.of_eq (k0_chk327.eq_1 v771 v852))
theorem k0_idx327_inb : ∀ (v771 : IVec S16 32) (v852 : IVec S16 32) (k0_hw327 : k0_chk327 v771 v852), ∀ a x, ((![v771, v852] : Fin 2 → IVec S16 32) a x).toNat < S128x128.size a := fun v771 v852 k0_hw327 => k0_hw327

def k0_chk328 (v771 : IVec S16 32) (v854 : IVec S16 32) : Prop :=
  (∀ a x, ((![v771, v854] : Fin 2 → IVec S16 32) a x).toNat < S128x128.size a)
instance k0_chk328.dec : ∀ (v771 : IVec S16 32) (v854 : IVec S16 32), Decidable (k0_chk328 v771 v854) := fun v771 v854 => decidable_of_iff' _ (Iff.of_eq (k0_chk328.eq_1 v771 v854))
theorem k0_idx328_inb : ∀ (v771 : IVec S16 32) (v854 : IVec S16 32) (k0_hw328 : k0_chk328 v771 v854), ∀ a x, ((![v771, v854] : Fin 2 → IVec S16 32) a x).toNat < S128x128.size a := fun v771 v854 k0_hw328 => k0_hw328

def k0_chk329 (v771 : IVec S16 32) (v856 : IVec S16 32) : Prop :=
  (∀ a x, ((![v771, v856] : Fin 2 → IVec S16 32) a x).toNat < S128x128.size a)
instance k0_chk329.dec : ∀ (v771 : IVec S16 32) (v856 : IVec S16 32), Decidable (k0_chk329 v771 v856) := fun v771 v856 => decidable_of_iff' _ (Iff.of_eq (k0_chk329.eq_1 v771 v856))
theorem k0_idx329_inb : ∀ (v771 : IVec S16 32) (v856 : IVec S16 32) (k0_hw329 : k0_chk329 v771 v856), ∀ a x, ((![v771, v856] : Fin 2 → IVec S16 32) a x).toNat < S128x128.size a := fun v771 v856 k0_hw329 => k0_hw329

def k0_chk330 (v771 : IVec S16 32) (v858 : IVec S16 32) : Prop :=
  (∀ a x, ((![v771, v858] : Fin 2 → IVec S16 32) a x).toNat < S128x128.size a)
instance k0_chk330.dec : ∀ (v771 : IVec S16 32) (v858 : IVec S16 32), Decidable (k0_chk330 v771 v858) := fun v771 v858 => decidable_of_iff' _ (Iff.of_eq (k0_chk330.eq_1 v771 v858))
theorem k0_idx330_inb : ∀ (v771 : IVec S16 32) (v858 : IVec S16 32) (k0_hw330 : k0_chk330 v771 v858), ∀ a x, ((![v771, v858] : Fin 2 → IVec S16 32) a x).toNat < S128x128.size a := fun v771 v858 k0_hw330 => k0_hw330

def k0_chk331 (v771 : IVec S16 32) (v860 : IVec S16 32) : Prop :=
  (∀ a x, ((![v771, v860] : Fin 2 → IVec S16 32) a x).toNat < S128x128.size a)
instance k0_chk331.dec : ∀ (v771 : IVec S16 32) (v860 : IVec S16 32), Decidable (k0_chk331 v771 v860) := fun v771 v860 => decidable_of_iff' _ (Iff.of_eq (k0_chk331.eq_1 v771 v860))
theorem k0_idx331_inb : ∀ (v771 : IVec S16 32) (v860 : IVec S16 32) (k0_hw331 : k0_chk331 v771 v860), ∀ a x, ((![v771, v860] : Fin 2 → IVec S16 32) a x).toNat < S128x128.size a := fun v771 v860 k0_hw331 => k0_hw331

def k0_chk332 (v771 : IVec S16 32) (v862 : IVec S16 32) : Prop :=
  (∀ a x, ((![v771, v862] : Fin 2 → IVec S16 32) a x).toNat < S128x128.size a)
instance k0_chk332.dec : ∀ (v771 : IVec S16 32) (v862 : IVec S16 32), Decidable (k0_chk332 v771 v862) := fun v771 v862 => decidable_of_iff' _ (Iff.of_eq (k0_chk332.eq_1 v771 v862))
theorem k0_idx332_inb : ∀ (v771 : IVec S16 32) (v862 : IVec S16 32) (k0_hw332 : k0_chk332 v771 v862), ∀ a x, ((![v771, v862] : Fin 2 → IVec S16 32) a x).toNat < S128x128.size a := fun v771 v862 k0_hw332 => k0_hw332

def k0_chk333 (v771 : IVec S16 32) (v864 : IVec S16 32) : Prop :=
  (∀ a x, ((![v771, v864] : Fin 2 → IVec S16 32) a x).toNat < S128x128.size a)
instance k0_chk333.dec : ∀ (v771 : IVec S16 32) (v864 : IVec S16 32), Decidable (k0_chk333 v771 v864) := fun v771 v864 => decidable_of_iff' _ (Iff.of_eq (k0_chk333.eq_1 v771 v864))
theorem k0_idx333_inb : ∀ (v771 : IVec S16 32) (v864 : IVec S16 32) (k0_hw333 : k0_chk333 v771 v864), ∀ a x, ((![v771, v864] : Fin 2 → IVec S16 32) a x).toNat < S128x128.size a := fun v771 v864 k0_hw333 => k0_hw333

def k0_chk334 (v771 : IVec S16 32) (v866 : IVec S16 32) : Prop :=
  (∀ a x, ((![v771, v866] : Fin 2 → IVec S16 32) a x).toNat < S128x128.size a)
instance k0_chk334.dec : ∀ (v771 : IVec S16 32) (v866 : IVec S16 32), Decidable (k0_chk334 v771 v866) := fun v771 v866 => decidable_of_iff' _ (Iff.of_eq (k0_chk334.eq_1 v771 v866))
theorem k0_idx334_inb : ∀ (v771 : IVec S16 32) (v866 : IVec S16 32) (k0_hw334 : k0_chk334 v771 v866), ∀ a x, ((![v771, v866] : Fin 2 → IVec S16 32) a x).toNat < S128x128.size a := fun v771 v866 k0_hw334 => k0_hw334

def k0_chk335 (v771 : IVec S16 32) (v868 : IVec S16 32) : Prop :=
  (∀ a x, ((![v771, v868] : Fin 2 → IVec S16 32) a x).toNat < S128x128.size a)
instance k0_chk335.dec : ∀ (v771 : IVec S16 32) (v868 : IVec S16 32), Decidable (k0_chk335 v771 v868) := fun v771 v868 => decidable_of_iff' _ (Iff.of_eq (k0_chk335.eq_1 v771 v868))
theorem k0_idx335_inb : ∀ (v771 : IVec S16 32) (v868 : IVec S16 32) (k0_hw335 : k0_chk335 v771 v868), ∀ a x, ((![v771, v868] : Fin 2 → IVec S16 32) a x).toNat < S128x128.size a := fun v771 v868 k0_hw335 => k0_hw335

def k0_chk336 (v771 : IVec S16 32) (v870 : IVec S16 32) : Prop :=
  (∀ a x, ((![v771, v870] : Fin 2 → IVec S16 32) a x).toNat < S128x128.size a)
instance k0_chk336.dec : ∀ (v771 : IVec S16 32) (v870 : IVec S16 32), Decidable (k0_chk336 v771 v870) := fun v771 v870 => decidable_of_iff' _ (Iff.of_eq (k0_chk336.eq_1 v771 v870))
theorem k0_idx336_inb : ∀ (v771 : IVec S16 32) (v870 : IVec S16 32) (k0_hw336 : k0_chk336 v771 v870), ∀ a x, ((![v771, v870] : Fin 2 → IVec S16 32) a x).toNat < S128x128.size a := fun v771 v870 k0_hw336 => k0_hw336

def k0_chk337 (v771 : IVec S16 32) (v873 : IVec S16 32) : Prop :=
  (∀ a x, ((![v873, v771] : Fin 2 → IVec S16 32) a x).toNat < S64x128.size a)
instance k0_chk337.dec : ∀ (v771 : IVec S16 32) (v873 : IVec S16 32), Decidable (k0_chk337 v771 v873) := fun v771 v873 => decidable_of_iff' _ (Iff.of_eq (k0_chk337.eq_1 v771 v873))
theorem k0_idx337_inb : ∀ (v771 : IVec S16 32) (v873 : IVec S16 32) (k0_hw337 : k0_chk337 v771 v873), ∀ a x, ((![v873, v771] : Fin 2 → IVec S16 32) a x).toNat < S64x128.size a := fun v771 v873 k0_hw337 => k0_hw337

def k0_chk338 (v771 : IVec S16 32) (v875 : IVec S16 32) : Prop :=
  (∀ a x, ((![v875, v771] : Fin 2 → IVec S16 32) a x).toNat < S64x128.size a)
instance k0_chk338.dec : ∀ (v771 : IVec S16 32) (v875 : IVec S16 32), Decidable (k0_chk338 v771 v875) := fun v771 v875 => decidable_of_iff' _ (Iff.of_eq (k0_chk338.eq_1 v771 v875))
theorem k0_idx338_inb : ∀ (v771 : IVec S16 32) (v875 : IVec S16 32) (k0_hw338 : k0_chk338 v771 v875), ∀ a x, ((![v875, v771] : Fin 2 → IVec S16 32) a x).toNat < S64x128.size a := fun v771 v875 k0_hw338 => k0_hw338

def k0_chk339 (v771 : IVec S16 32) (v877 : IVec S16 32) : Prop :=
  (∀ a x, ((![v877, v771] : Fin 2 → IVec S16 32) a x).toNat < S64x128.size a)
instance k0_chk339.dec : ∀ (v771 : IVec S16 32) (v877 : IVec S16 32), Decidable (k0_chk339 v771 v877) := fun v771 v877 => decidable_of_iff' _ (Iff.of_eq (k0_chk339.eq_1 v771 v877))
theorem k0_idx339_inb : ∀ (v771 : IVec S16 32) (v877 : IVec S16 32) (k0_hw339 : k0_chk339 v771 v877), ∀ a x, ((![v877, v771] : Fin 2 → IVec S16 32) a x).toNat < S64x128.size a := fun v771 v877 k0_hw339 => k0_hw339

def k0_chk340 (v771 : IVec S16 32) (v879 : IVec S16 32) : Prop :=
  (∀ a x, ((![v879, v771] : Fin 2 → IVec S16 32) a x).toNat < S64x128.size a)
instance k0_chk340.dec : ∀ (v771 : IVec S16 32) (v879 : IVec S16 32), Decidable (k0_chk340 v771 v879) := fun v771 v879 => decidable_of_iff' _ (Iff.of_eq (k0_chk340.eq_1 v771 v879))
theorem k0_idx340_inb : ∀ (v771 : IVec S16 32) (v879 : IVec S16 32) (k0_hw340 : k0_chk340 v771 v879), ∀ a x, ((![v879, v771] : Fin 2 → IVec S16 32) a x).toNat < S64x128.size a := fun v771 v879 k0_hw340 => k0_hw340

def k0_chk341 (v771 : IVec S16 32) (v881 : IVec S16 32) : Prop :=
  (∀ a x, ((![v881, v771] : Fin 2 → IVec S16 32) a x).toNat < S64x128.size a)
instance k0_chk341.dec : ∀ (v771 : IVec S16 32) (v881 : IVec S16 32), Decidable (k0_chk341 v771 v881) := fun v771 v881 => decidable_of_iff' _ (Iff.of_eq (k0_chk341.eq_1 v771 v881))
theorem k0_idx341_inb : ∀ (v771 : IVec S16 32) (v881 : IVec S16 32) (k0_hw341 : k0_chk341 v771 v881), ∀ a x, ((![v881, v771] : Fin 2 → IVec S16 32) a x).toNat < S64x128.size a := fun v771 v881 k0_hw341 => k0_hw341

def k0_chk342 (v771 : IVec S16 32) (v883 : IVec S16 32) : Prop :=
  (∀ a x, ((![v883, v771] : Fin 2 → IVec S16 32) a x).toNat < S64x128.size a)
instance k0_chk342.dec : ∀ (v771 : IVec S16 32) (v883 : IVec S16 32), Decidable (k0_chk342 v771 v883) := fun v771 v883 => decidable_of_iff' _ (Iff.of_eq (k0_chk342.eq_1 v771 v883))
theorem k0_idx342_inb : ∀ (v771 : IVec S16 32) (v883 : IVec S16 32) (k0_hw342 : k0_chk342 v771 v883), ∀ a x, ((![v883, v771] : Fin 2 → IVec S16 32) a x).toNat < S64x128.size a := fun v771 v883 k0_hw342 => k0_hw342

def k0_chk343 (v771 : IVec S16 32) (v885 : IVec S16 32) : Prop :=
  (∀ a x, ((![v885, v771] : Fin 2 → IVec S16 32) a x).toNat < S64x128.size a)
instance k0_chk343.dec : ∀ (v771 : IVec S16 32) (v885 : IVec S16 32), Decidable (k0_chk343 v771 v885) := fun v771 v885 => decidable_of_iff' _ (Iff.of_eq (k0_chk343.eq_1 v771 v885))
theorem k0_idx343_inb : ∀ (v771 : IVec S16 32) (v885 : IVec S16 32) (k0_hw343 : k0_chk343 v771 v885), ∀ a x, ((![v885, v771] : Fin 2 → IVec S16 32) a x).toNat < S64x128.size a := fun v771 v885 k0_hw343 => k0_hw343

def k0_chk344 (v771 : IVec S16 32) (v887 : IVec S16 32) : Prop :=
  (∀ a x, ((![v887, v771] : Fin 2 → IVec S16 32) a x).toNat < S64x128.size a)
instance k0_chk344.dec : ∀ (v771 : IVec S16 32) (v887 : IVec S16 32), Decidable (k0_chk344 v771 v887) := fun v771 v887 => decidable_of_iff' _ (Iff.of_eq (k0_chk344.eq_1 v771 v887))
theorem k0_idx344_inb : ∀ (v771 : IVec S16 32) (v887 : IVec S16 32) (k0_hw344 : k0_chk344 v771 v887), ∀ a x, ((![v887, v771] : Fin 2 → IVec S16 32) a x).toNat < S64x128.size a := fun v771 v887 k0_hw344 => k0_hw344

def k0_chk345 (v771 : IVec S16 32) (v889 : IVec S16 32) : Prop :=
  (∀ a x, ((![v889, v771] : Fin 2 → IVec S16 32) a x).toNat < S64x128.size a)
instance k0_chk345.dec : ∀ (v771 : IVec S16 32) (v889 : IVec S16 32), Decidable (k0_chk345 v771 v889) := fun v771 v889 => decidable_of_iff' _ (Iff.of_eq (k0_chk345.eq_1 v771 v889))
theorem k0_idx345_inb : ∀ (v771 : IVec S16 32) (v889 : IVec S16 32) (k0_hw345 : k0_chk345 v771 v889), ∀ a x, ((![v889, v771] : Fin 2 → IVec S16 32) a x).toNat < S64x128.size a := fun v771 v889 k0_hw345 => k0_hw345

def k0_chk346 (v771 : IVec S16 32) (v891 : IVec S16 32) : Prop :=
  (∀ a x, ((![v891, v771] : Fin 2 → IVec S16 32) a x).toNat < S64x128.size a)
instance k0_chk346.dec : ∀ (v771 : IVec S16 32) (v891 : IVec S16 32), Decidable (k0_chk346 v771 v891) := fun v771 v891 => decidable_of_iff' _ (Iff.of_eq (k0_chk346.eq_1 v771 v891))
theorem k0_idx346_inb : ∀ (v771 : IVec S16 32) (v891 : IVec S16 32) (k0_hw346 : k0_chk346 v771 v891), ∀ a x, ((![v891, v771] : Fin 2 → IVec S16 32) a x).toNat < S64x128.size a := fun v771 v891 k0_hw346 => k0_hw346

def k0_chk347 (v771 : IVec S16 32) (v893 : IVec S16 32) : Prop :=
  (∀ a x, ((![v893, v771] : Fin 2 → IVec S16 32) a x).toNat < S64x128.size a)
instance k0_chk347.dec : ∀ (v771 : IVec S16 32) (v893 : IVec S16 32), Decidable (k0_chk347 v771 v893) := fun v771 v893 => decidable_of_iff' _ (Iff.of_eq (k0_chk347.eq_1 v771 v893))
theorem k0_idx347_inb : ∀ (v771 : IVec S16 32) (v893 : IVec S16 32) (k0_hw347 : k0_chk347 v771 v893), ∀ a x, ((![v893, v771] : Fin 2 → IVec S16 32) a x).toNat < S64x128.size a := fun v771 v893 k0_hw347 => k0_hw347

def k0_chk348 (v771 : IVec S16 32) (v895 : IVec S16 32) : Prop :=
  (∀ a x, ((![v895, v771] : Fin 2 → IVec S16 32) a x).toNat < S64x128.size a)
instance k0_chk348.dec : ∀ (v771 : IVec S16 32) (v895 : IVec S16 32), Decidable (k0_chk348 v771 v895) := fun v771 v895 => decidable_of_iff' _ (Iff.of_eq (k0_chk348.eq_1 v771 v895))
theorem k0_idx348_inb : ∀ (v771 : IVec S16 32) (v895 : IVec S16 32) (k0_hw348 : k0_chk348 v771 v895), ∀ a x, ((![v895, v771] : Fin 2 → IVec S16 32) a x).toNat < S64x128.size a := fun v771 v895 k0_hw348 => k0_hw348

def k0_chk349 (v771 : IVec S16 32) (v897 : IVec S16 32) : Prop :=
  (∀ a x, ((![v897, v771] : Fin 2 → IVec S16 32) a x).toNat < S64x128.size a)
instance k0_chk349.dec : ∀ (v771 : IVec S16 32) (v897 : IVec S16 32), Decidable (k0_chk349 v771 v897) := fun v771 v897 => decidable_of_iff' _ (Iff.of_eq (k0_chk349.eq_1 v771 v897))
theorem k0_idx349_inb : ∀ (v771 : IVec S16 32) (v897 : IVec S16 32) (k0_hw349 : k0_chk349 v771 v897), ∀ a x, ((![v897, v771] : Fin 2 → IVec S16 32) a x).toNat < S64x128.size a := fun v771 v897 k0_hw349 => k0_hw349

def k0_chk350 (v771 : IVec S16 32) (v899 : IVec S16 32) : Prop :=
  (∀ a x, ((![v899, v771] : Fin 2 → IVec S16 32) a x).toNat < S64x128.size a)
instance k0_chk350.dec : ∀ (v771 : IVec S16 32) (v899 : IVec S16 32), Decidable (k0_chk350 v771 v899) := fun v771 v899 => decidable_of_iff' _ (Iff.of_eq (k0_chk350.eq_1 v771 v899))
theorem k0_idx350_inb : ∀ (v771 : IVec S16 32) (v899 : IVec S16 32) (k0_hw350 : k0_chk350 v771 v899), ∀ a x, ((![v899, v771] : Fin 2 → IVec S16 32) a x).toNat < S64x128.size a := fun v771 v899 k0_hw350 => k0_hw350

def k0_chk351 (v771 : IVec S16 32) (v901 : IVec S16 32) : Prop :=
  (∀ a x, ((![v901, v771] : Fin 2 → IVec S16 32) a x).toNat < S64x128.size a)
instance k0_chk351.dec : ∀ (v771 : IVec S16 32) (v901 : IVec S16 32), Decidable (k0_chk351 v771 v901) := fun v771 v901 => decidable_of_iff' _ (Iff.of_eq (k0_chk351.eq_1 v771 v901))
theorem k0_idx351_inb : ∀ (v771 : IVec S16 32) (v901 : IVec S16 32) (k0_hw351 : k0_chk351 v771 v901), ∀ a x, ((![v901, v771] : Fin 2 → IVec S16 32) a x).toNat < S64x128.size a := fun v771 v901 k0_hw351 => k0_hw351

def k0_chk352 (v771 : IVec S16 32) (v903 : IVec S16 32) : Prop :=
  (∀ a x, ((![v903, v771] : Fin 2 → IVec S16 32) a x).toNat < S64x128.size a)
instance k0_chk352.dec : ∀ (v771 : IVec S16 32) (v903 : IVec S16 32), Decidable (k0_chk352 v771 v903) := fun v771 v903 => decidable_of_iff' _ (Iff.of_eq (k0_chk352.eq_1 v771 v903))
theorem k0_idx352_inb : ∀ (v771 : IVec S16 32) (v903 : IVec S16 32) (k0_hw352 : k0_chk352 v771 v903), ∀ a x, ((![v903, v771] : Fin 2 → IVec S16 32) a x).toNat < S64x128.size a := fun v771 v903 k0_hw352 => k0_hw352

def k0_chk353 (v771 : IVec S16 32) (v906 : IVec S16 32) : Prop :=
  (∀ a x, ((![v771, v906] : Fin 2 → IVec S16 32) a x).toNat < S128x128.size a)
instance k0_chk353.dec : ∀ (v771 : IVec S16 32) (v906 : IVec S16 32), Decidable (k0_chk353 v771 v906) := fun v771 v906 => decidable_of_iff' _ (Iff.of_eq (k0_chk353.eq_1 v771 v906))
theorem k0_idx353_inb : ∀ (v771 : IVec S16 32) (v906 : IVec S16 32) (k0_hw353 : k0_chk353 v771 v906), ∀ a x, ((![v771, v906] : Fin 2 → IVec S16 32) a x).toNat < S128x128.size a := fun v771 v906 k0_hw353 => k0_hw353

def k0_chk354 (v771 : IVec S16 32) (v908 : IVec S16 32) : Prop :=
  (∀ a x, ((![v771, v908] : Fin 2 → IVec S16 32) a x).toNat < S128x128.size a)
instance k0_chk354.dec : ∀ (v771 : IVec S16 32) (v908 : IVec S16 32), Decidable (k0_chk354 v771 v908) := fun v771 v908 => decidable_of_iff' _ (Iff.of_eq (k0_chk354.eq_1 v771 v908))
theorem k0_idx354_inb : ∀ (v771 : IVec S16 32) (v908 : IVec S16 32) (k0_hw354 : k0_chk354 v771 v908), ∀ a x, ((![v771, v908] : Fin 2 → IVec S16 32) a x).toNat < S128x128.size a := fun v771 v908 k0_hw354 => k0_hw354

def k0_chk355 (v771 : IVec S16 32) (v910 : IVec S16 32) : Prop :=
  (∀ a x, ((![v771, v910] : Fin 2 → IVec S16 32) a x).toNat < S128x128.size a)
instance k0_chk355.dec : ∀ (v771 : IVec S16 32) (v910 : IVec S16 32), Decidable (k0_chk355 v771 v910) := fun v771 v910 => decidable_of_iff' _ (Iff.of_eq (k0_chk355.eq_1 v771 v910))
theorem k0_idx355_inb : ∀ (v771 : IVec S16 32) (v910 : IVec S16 32) (k0_hw355 : k0_chk355 v771 v910), ∀ a x, ((![v771, v910] : Fin 2 → IVec S16 32) a x).toNat < S128x128.size a := fun v771 v910 k0_hw355 => k0_hw355

def k0_chk356 (v771 : IVec S16 32) (v912 : IVec S16 32) : Prop :=
  (∀ a x, ((![v771, v912] : Fin 2 → IVec S16 32) a x).toNat < S128x128.size a)
instance k0_chk356.dec : ∀ (v771 : IVec S16 32) (v912 : IVec S16 32), Decidable (k0_chk356 v771 v912) := fun v771 v912 => decidable_of_iff' _ (Iff.of_eq (k0_chk356.eq_1 v771 v912))
theorem k0_idx356_inb : ∀ (v771 : IVec S16 32) (v912 : IVec S16 32) (k0_hw356 : k0_chk356 v771 v912), ∀ a x, ((![v771, v912] : Fin 2 → IVec S16 32) a x).toNat < S128x128.size a := fun v771 v912 k0_hw356 => k0_hw356

def k0_chk357 (v771 : IVec S16 32) (v914 : IVec S16 32) : Prop :=
  (∀ a x, ((![v771, v914] : Fin 2 → IVec S16 32) a x).toNat < S128x128.size a)
instance k0_chk357.dec : ∀ (v771 : IVec S16 32) (v914 : IVec S16 32), Decidable (k0_chk357 v771 v914) := fun v771 v914 => decidable_of_iff' _ (Iff.of_eq (k0_chk357.eq_1 v771 v914))
theorem k0_idx357_inb : ∀ (v771 : IVec S16 32) (v914 : IVec S16 32) (k0_hw357 : k0_chk357 v771 v914), ∀ a x, ((![v771, v914] : Fin 2 → IVec S16 32) a x).toNat < S128x128.size a := fun v771 v914 k0_hw357 => k0_hw357

def k0_chk358 (v771 : IVec S16 32) (v916 : IVec S16 32) : Prop :=
  (∀ a x, ((![v771, v916] : Fin 2 → IVec S16 32) a x).toNat < S128x128.size a)
instance k0_chk358.dec : ∀ (v771 : IVec S16 32) (v916 : IVec S16 32), Decidable (k0_chk358 v771 v916) := fun v771 v916 => decidable_of_iff' _ (Iff.of_eq (k0_chk358.eq_1 v771 v916))
theorem k0_idx358_inb : ∀ (v771 : IVec S16 32) (v916 : IVec S16 32) (k0_hw358 : k0_chk358 v771 v916), ∀ a x, ((![v771, v916] : Fin 2 → IVec S16 32) a x).toNat < S128x128.size a := fun v771 v916 k0_hw358 => k0_hw358

def k0_chk359 (v771 : IVec S16 32) (v918 : IVec S16 32) : Prop :=
  (∀ a x, ((![v771, v918] : Fin 2 → IVec S16 32) a x).toNat < S128x128.size a)
instance k0_chk359.dec : ∀ (v771 : IVec S16 32) (v918 : IVec S16 32), Decidable (k0_chk359 v771 v918) := fun v771 v918 => decidable_of_iff' _ (Iff.of_eq (k0_chk359.eq_1 v771 v918))
theorem k0_idx359_inb : ∀ (v771 : IVec S16 32) (v918 : IVec S16 32) (k0_hw359 : k0_chk359 v771 v918), ∀ a x, ((![v771, v918] : Fin 2 → IVec S16 32) a x).toNat < S128x128.size a := fun v771 v918 k0_hw359 => k0_hw359

def k0_chk360 (v771 : IVec S16 32) (v920 : IVec S16 32) : Prop :=
  (∀ a x, ((![v771, v920] : Fin 2 → IVec S16 32) a x).toNat < S128x128.size a)
instance k0_chk360.dec : ∀ (v771 : IVec S16 32) (v920 : IVec S16 32), Decidable (k0_chk360 v771 v920) := fun v771 v920 => decidable_of_iff' _ (Iff.of_eq (k0_chk360.eq_1 v771 v920))
theorem k0_idx360_inb : ∀ (v771 : IVec S16 32) (v920 : IVec S16 32) (k0_hw360 : k0_chk360 v771 v920), ∀ a x, ((![v771, v920] : Fin 2 → IVec S16 32) a x).toNat < S128x128.size a := fun v771 v920 k0_hw360 => k0_hw360

def k0_chk361 (v771 : IVec S16 32) (v922 : IVec S16 32) : Prop :=
  (∀ a x, ((![v771, v922] : Fin 2 → IVec S16 32) a x).toNat < S128x128.size a)
instance k0_chk361.dec : ∀ (v771 : IVec S16 32) (v922 : IVec S16 32), Decidable (k0_chk361 v771 v922) := fun v771 v922 => decidable_of_iff' _ (Iff.of_eq (k0_chk361.eq_1 v771 v922))
theorem k0_idx361_inb : ∀ (v771 : IVec S16 32) (v922 : IVec S16 32) (k0_hw361 : k0_chk361 v771 v922), ∀ a x, ((![v771, v922] : Fin 2 → IVec S16 32) a x).toNat < S128x128.size a := fun v771 v922 k0_hw361 => k0_hw361

def k0_chk362 (v771 : IVec S16 32) (v924 : IVec S16 32) : Prop :=
  (∀ a x, ((![v771, v924] : Fin 2 → IVec S16 32) a x).toNat < S128x128.size a)
instance k0_chk362.dec : ∀ (v771 : IVec S16 32) (v924 : IVec S16 32), Decidable (k0_chk362 v771 v924) := fun v771 v924 => decidable_of_iff' _ (Iff.of_eq (k0_chk362.eq_1 v771 v924))
theorem k0_idx362_inb : ∀ (v771 : IVec S16 32) (v924 : IVec S16 32) (k0_hw362 : k0_chk362 v771 v924), ∀ a x, ((![v771, v924] : Fin 2 → IVec S16 32) a x).toNat < S128x128.size a := fun v771 v924 k0_hw362 => k0_hw362

def k0_chk363 (v771 : IVec S16 32) (v926 : IVec S16 32) : Prop :=
  (∀ a x, ((![v771, v926] : Fin 2 → IVec S16 32) a x).toNat < S128x128.size a)
instance k0_chk363.dec : ∀ (v771 : IVec S16 32) (v926 : IVec S16 32), Decidable (k0_chk363 v771 v926) := fun v771 v926 => decidable_of_iff' _ (Iff.of_eq (k0_chk363.eq_1 v771 v926))
theorem k0_idx363_inb : ∀ (v771 : IVec S16 32) (v926 : IVec S16 32) (k0_hw363 : k0_chk363 v771 v926), ∀ a x, ((![v771, v926] : Fin 2 → IVec S16 32) a x).toNat < S128x128.size a := fun v771 v926 k0_hw363 => k0_hw363

def k0_chk364 (v771 : IVec S16 32) (v928 : IVec S16 32) : Prop :=
  (∀ a x, ((![v771, v928] : Fin 2 → IVec S16 32) a x).toNat < S128x128.size a)
instance k0_chk364.dec : ∀ (v771 : IVec S16 32) (v928 : IVec S16 32), Decidable (k0_chk364 v771 v928) := fun v771 v928 => decidable_of_iff' _ (Iff.of_eq (k0_chk364.eq_1 v771 v928))
theorem k0_idx364_inb : ∀ (v771 : IVec S16 32) (v928 : IVec S16 32) (k0_hw364 : k0_chk364 v771 v928), ∀ a x, ((![v771, v928] : Fin 2 → IVec S16 32) a x).toNat < S128x128.size a := fun v771 v928 k0_hw364 => k0_hw364

def k0_chk365 (v771 : IVec S16 32) (v930 : IVec S16 32) : Prop :=
  (∀ a x, ((![v771, v930] : Fin 2 → IVec S16 32) a x).toNat < S128x128.size a)
instance k0_chk365.dec : ∀ (v771 : IVec S16 32) (v930 : IVec S16 32), Decidable (k0_chk365 v771 v930) := fun v771 v930 => decidable_of_iff' _ (Iff.of_eq (k0_chk365.eq_1 v771 v930))
theorem k0_idx365_inb : ∀ (v771 : IVec S16 32) (v930 : IVec S16 32) (k0_hw365 : k0_chk365 v771 v930), ∀ a x, ((![v771, v930] : Fin 2 → IVec S16 32) a x).toNat < S128x128.size a := fun v771 v930 k0_hw365 => k0_hw365

def k0_chk366 (v771 : IVec S16 32) (v932 : IVec S16 32) : Prop :=
  (∀ a x, ((![v771, v932] : Fin 2 → IVec S16 32) a x).toNat < S128x128.size a)
instance k0_chk366.dec : ∀ (v771 : IVec S16 32) (v932 : IVec S16 32), Decidable (k0_chk366 v771 v932) := fun v771 v932 => decidable_of_iff' _ (Iff.of_eq (k0_chk366.eq_1 v771 v932))
theorem k0_idx366_inb : ∀ (v771 : IVec S16 32) (v932 : IVec S16 32) (k0_hw366 : k0_chk366 v771 v932), ∀ a x, ((![v771, v932] : Fin 2 → IVec S16 32) a x).toNat < S128x128.size a := fun v771 v932 k0_hw366 => k0_hw366

def k0_chk367 (v771 : IVec S16 32) (v934 : IVec S16 32) : Prop :=
  (∀ a x, ((![v771, v934] : Fin 2 → IVec S16 32) a x).toNat < S128x128.size a)
instance k0_chk367.dec : ∀ (v771 : IVec S16 32) (v934 : IVec S16 32), Decidable (k0_chk367 v771 v934) := fun v771 v934 => decidable_of_iff' _ (Iff.of_eq (k0_chk367.eq_1 v771 v934))
theorem k0_idx367_inb : ∀ (v771 : IVec S16 32) (v934 : IVec S16 32) (k0_hw367 : k0_chk367 v771 v934), ∀ a x, ((![v771, v934] : Fin 2 → IVec S16 32) a x).toNat < S128x128.size a := fun v771 v934 k0_hw367 => k0_hw367

def k0_chk368 (v771 : IVec S16 32) (v936 : IVec S16 32) : Prop :=
  (∀ a x, ((![v771, v936] : Fin 2 → IVec S16 32) a x).toNat < S128x128.size a)
instance k0_chk368.dec : ∀ (v771 : IVec S16 32) (v936 : IVec S16 32), Decidable (k0_chk368 v771 v936) := fun v771 v936 => decidable_of_iff' _ (Iff.of_eq (k0_chk368.eq_1 v771 v936))
theorem k0_idx368_inb : ∀ (v771 : IVec S16 32) (v936 : IVec S16 32) (k0_hw368 : k0_chk368 v771 v936), ∀ a x, ((![v771, v936] : Fin 2 → IVec S16 32) a x).toNat < S128x128.size a := fun v771 v936 k0_hw368 => k0_hw368

def k0_chk369 (v771 : IVec S16 32) (v939 : IVec S16 32) : Prop :=
  (∀ a x, ((![v939, v771] : Fin 2 → IVec S16 32) a x).toNat < S64x128.size a)
instance k0_chk369.dec : ∀ (v771 : IVec S16 32) (v939 : IVec S16 32), Decidable (k0_chk369 v771 v939) := fun v771 v939 => decidable_of_iff' _ (Iff.of_eq (k0_chk369.eq_1 v771 v939))
theorem k0_idx369_inb : ∀ (v771 : IVec S16 32) (v939 : IVec S16 32) (k0_hw369 : k0_chk369 v771 v939), ∀ a x, ((![v939, v771] : Fin 2 → IVec S16 32) a x).toNat < S64x128.size a := fun v771 v939 k0_hw369 => k0_hw369

def k0_chk370 (v771 : IVec S16 32) (v941 : IVec S16 32) : Prop :=
  (∀ a x, ((![v941, v771] : Fin 2 → IVec S16 32) a x).toNat < S64x128.size a)
instance k0_chk370.dec : ∀ (v771 : IVec S16 32) (v941 : IVec S16 32), Decidable (k0_chk370 v771 v941) := fun v771 v941 => decidable_of_iff' _ (Iff.of_eq (k0_chk370.eq_1 v771 v941))
theorem k0_idx370_inb : ∀ (v771 : IVec S16 32) (v941 : IVec S16 32) (k0_hw370 : k0_chk370 v771 v941), ∀ a x, ((![v941, v771] : Fin 2 → IVec S16 32) a x).toNat < S64x128.size a := fun v771 v941 k0_hw370 => k0_hw370

def k0_chk371 (v771 : IVec S16 32) (v943 : IVec S16 32) : Prop :=
  (∀ a x, ((![v943, v771] : Fin 2 → IVec S16 32) a x).toNat < S64x128.size a)
instance k0_chk371.dec : ∀ (v771 : IVec S16 32) (v943 : IVec S16 32), Decidable (k0_chk371 v771 v943) := fun v771 v943 => decidable_of_iff' _ (Iff.of_eq (k0_chk371.eq_1 v771 v943))
theorem k0_idx371_inb : ∀ (v771 : IVec S16 32) (v943 : IVec S16 32) (k0_hw371 : k0_chk371 v771 v943), ∀ a x, ((![v943, v771] : Fin 2 → IVec S16 32) a x).toNat < S64x128.size a := fun v771 v943 k0_hw371 => k0_hw371

def k0_chk372 (v771 : IVec S16 32) (v945 : IVec S16 32) : Prop :=
  (∀ a x, ((![v945, v771] : Fin 2 → IVec S16 32) a x).toNat < S64x128.size a)
instance k0_chk372.dec : ∀ (v771 : IVec S16 32) (v945 : IVec S16 32), Decidable (k0_chk372 v771 v945) := fun v771 v945 => decidable_of_iff' _ (Iff.of_eq (k0_chk372.eq_1 v771 v945))
theorem k0_idx372_inb : ∀ (v771 : IVec S16 32) (v945 : IVec S16 32) (k0_hw372 : k0_chk372 v771 v945), ∀ a x, ((![v945, v771] : Fin 2 → IVec S16 32) a x).toNat < S64x128.size a := fun v771 v945 k0_hw372 => k0_hw372

def k0_chk373 (v771 : IVec S16 32) (v947 : IVec S16 32) : Prop :=
  (∀ a x, ((![v947, v771] : Fin 2 → IVec S16 32) a x).toNat < S64x128.size a)
instance k0_chk373.dec : ∀ (v771 : IVec S16 32) (v947 : IVec S16 32), Decidable (k0_chk373 v771 v947) := fun v771 v947 => decidable_of_iff' _ (Iff.of_eq (k0_chk373.eq_1 v771 v947))
theorem k0_idx373_inb : ∀ (v771 : IVec S16 32) (v947 : IVec S16 32) (k0_hw373 : k0_chk373 v771 v947), ∀ a x, ((![v947, v771] : Fin 2 → IVec S16 32) a x).toNat < S64x128.size a := fun v771 v947 k0_hw373 => k0_hw373

def k0_chk374 (v771 : IVec S16 32) (v949 : IVec S16 32) : Prop :=
  (∀ a x, ((![v949, v771] : Fin 2 → IVec S16 32) a x).toNat < S64x128.size a)
instance k0_chk374.dec : ∀ (v771 : IVec S16 32) (v949 : IVec S16 32), Decidable (k0_chk374 v771 v949) := fun v771 v949 => decidable_of_iff' _ (Iff.of_eq (k0_chk374.eq_1 v771 v949))
theorem k0_idx374_inb : ∀ (v771 : IVec S16 32) (v949 : IVec S16 32) (k0_hw374 : k0_chk374 v771 v949), ∀ a x, ((![v949, v771] : Fin 2 → IVec S16 32) a x).toNat < S64x128.size a := fun v771 v949 k0_hw374 => k0_hw374

def k0_chk375 (v771 : IVec S16 32) (v951 : IVec S16 32) : Prop :=
  (∀ a x, ((![v951, v771] : Fin 2 → IVec S16 32) a x).toNat < S64x128.size a)
instance k0_chk375.dec : ∀ (v771 : IVec S16 32) (v951 : IVec S16 32), Decidable (k0_chk375 v771 v951) := fun v771 v951 => decidable_of_iff' _ (Iff.of_eq (k0_chk375.eq_1 v771 v951))
theorem k0_idx375_inb : ∀ (v771 : IVec S16 32) (v951 : IVec S16 32) (k0_hw375 : k0_chk375 v771 v951), ∀ a x, ((![v951, v771] : Fin 2 → IVec S16 32) a x).toNat < S64x128.size a := fun v771 v951 k0_hw375 => k0_hw375

def k0_chk376 (v771 : IVec S16 32) (v953 : IVec S16 32) : Prop :=
  (∀ a x, ((![v953, v771] : Fin 2 → IVec S16 32) a x).toNat < S64x128.size a)
instance k0_chk376.dec : ∀ (v771 : IVec S16 32) (v953 : IVec S16 32), Decidable (k0_chk376 v771 v953) := fun v771 v953 => decidable_of_iff' _ (Iff.of_eq (k0_chk376.eq_1 v771 v953))
theorem k0_idx376_inb : ∀ (v771 : IVec S16 32) (v953 : IVec S16 32) (k0_hw376 : k0_chk376 v771 v953), ∀ a x, ((![v953, v771] : Fin 2 → IVec S16 32) a x).toNat < S64x128.size a := fun v771 v953 k0_hw376 => k0_hw376

def k0_chk377 (v771 : IVec S16 32) (v955 : IVec S16 32) : Prop :=
  (∀ a x, ((![v955, v771] : Fin 2 → IVec S16 32) a x).toNat < S64x128.size a)
instance k0_chk377.dec : ∀ (v771 : IVec S16 32) (v955 : IVec S16 32), Decidable (k0_chk377 v771 v955) := fun v771 v955 => decidable_of_iff' _ (Iff.of_eq (k0_chk377.eq_1 v771 v955))
theorem k0_idx377_inb : ∀ (v771 : IVec S16 32) (v955 : IVec S16 32) (k0_hw377 : k0_chk377 v771 v955), ∀ a x, ((![v955, v771] : Fin 2 → IVec S16 32) a x).toNat < S64x128.size a := fun v771 v955 k0_hw377 => k0_hw377

def k0_chk378 (v771 : IVec S16 32) (v957 : IVec S16 32) : Prop :=
  (∀ a x, ((![v957, v771] : Fin 2 → IVec S16 32) a x).toNat < S64x128.size a)
instance k0_chk378.dec : ∀ (v771 : IVec S16 32) (v957 : IVec S16 32), Decidable (k0_chk378 v771 v957) := fun v771 v957 => decidable_of_iff' _ (Iff.of_eq (k0_chk378.eq_1 v771 v957))
theorem k0_idx378_inb : ∀ (v771 : IVec S16 32) (v957 : IVec S16 32) (k0_hw378 : k0_chk378 v771 v957), ∀ a x, ((![v957, v771] : Fin 2 → IVec S16 32) a x).toNat < S64x128.size a := fun v771 v957 k0_hw378 => k0_hw378

def k0_chk379 (v771 : IVec S16 32) (v959 : IVec S16 32) : Prop :=
  (∀ a x, ((![v959, v771] : Fin 2 → IVec S16 32) a x).toNat < S64x128.size a)
instance k0_chk379.dec : ∀ (v771 : IVec S16 32) (v959 : IVec S16 32), Decidable (k0_chk379 v771 v959) := fun v771 v959 => decidable_of_iff' _ (Iff.of_eq (k0_chk379.eq_1 v771 v959))
theorem k0_idx379_inb : ∀ (v771 : IVec S16 32) (v959 : IVec S16 32) (k0_hw379 : k0_chk379 v771 v959), ∀ a x, ((![v959, v771] : Fin 2 → IVec S16 32) a x).toNat < S64x128.size a := fun v771 v959 k0_hw379 => k0_hw379

def k0_chk380 (v771 : IVec S16 32) (v961 : IVec S16 32) : Prop :=
  (∀ a x, ((![v961, v771] : Fin 2 → IVec S16 32) a x).toNat < S64x128.size a)
instance k0_chk380.dec : ∀ (v771 : IVec S16 32) (v961 : IVec S16 32), Decidable (k0_chk380 v771 v961) := fun v771 v961 => decidable_of_iff' _ (Iff.of_eq (k0_chk380.eq_1 v771 v961))
theorem k0_idx380_inb : ∀ (v771 : IVec S16 32) (v961 : IVec S16 32) (k0_hw380 : k0_chk380 v771 v961), ∀ a x, ((![v961, v771] : Fin 2 → IVec S16 32) a x).toNat < S64x128.size a := fun v771 v961 k0_hw380 => k0_hw380

def k0_chk381 (v771 : IVec S16 32) (v963 : IVec S16 32) : Prop :=
  (∀ a x, ((![v963, v771] : Fin 2 → IVec S16 32) a x).toNat < S64x128.size a)
instance k0_chk381.dec : ∀ (v771 : IVec S16 32) (v963 : IVec S16 32), Decidable (k0_chk381 v771 v963) := fun v771 v963 => decidable_of_iff' _ (Iff.of_eq (k0_chk381.eq_1 v771 v963))
theorem k0_idx381_inb : ∀ (v771 : IVec S16 32) (v963 : IVec S16 32) (k0_hw381 : k0_chk381 v771 v963), ∀ a x, ((![v963, v771] : Fin 2 → IVec S16 32) a x).toNat < S64x128.size a := fun v771 v963 k0_hw381 => k0_hw381

def k0_chk382 (v771 : IVec S16 32) (v965 : IVec S16 32) : Prop :=
  (∀ a x, ((![v965, v771] : Fin 2 → IVec S16 32) a x).toNat < S64x128.size a)
instance k0_chk382.dec : ∀ (v771 : IVec S16 32) (v965 : IVec S16 32), Decidable (k0_chk382 v771 v965) := fun v771 v965 => decidable_of_iff' _ (Iff.of_eq (k0_chk382.eq_1 v771 v965))
theorem k0_idx382_inb : ∀ (v771 : IVec S16 32) (v965 : IVec S16 32) (k0_hw382 : k0_chk382 v771 v965), ∀ a x, ((![v965, v771] : Fin 2 → IVec S16 32) a x).toNat < S64x128.size a := fun v771 v965 k0_hw382 => k0_hw382

def k0_chk383 (v771 : IVec S16 32) (v967 : IVec S16 32) : Prop :=
  (∀ a x, ((![v967, v771] : Fin 2 → IVec S16 32) a x).toNat < S64x128.size a)
instance k0_chk383.dec : ∀ (v771 : IVec S16 32) (v967 : IVec S16 32), Decidable (k0_chk383 v771 v967) := fun v771 v967 => decidable_of_iff' _ (Iff.of_eq (k0_chk383.eq_1 v771 v967))
theorem k0_idx383_inb : ∀ (v771 : IVec S16 32) (v967 : IVec S16 32) (k0_hw383 : k0_chk383 v771 v967), ∀ a x, ((![v967, v771] : Fin 2 → IVec S16 32) a x).toNat < S64x128.size a := fun v771 v967 k0_hw383 => k0_hw383

def k0_chk384 (v771 : IVec S16 32) (v969 : IVec S16 32) : Prop :=
  (∀ a x, ((![v969, v771] : Fin 2 → IVec S16 32) a x).toNat < S64x128.size a)
instance k0_chk384.dec : ∀ (v771 : IVec S16 32) (v969 : IVec S16 32), Decidable (k0_chk384 v771 v969) := fun v771 v969 => decidable_of_iff' _ (Iff.of_eq (k0_chk384.eq_1 v771 v969))
theorem k0_idx384_inb : ∀ (v771 : IVec S16 32) (v969 : IVec S16 32) (k0_hw384 : k0_chk384 v771 v969), ∀ a x, ((![v969, v771] : Fin 2 → IVec S16 32) a x).toNat < S64x128.size a := fun v771 v969 k0_hw384 => k0_hw384

def k0_chk385 (v771 : IVec S16 32) (v972 : IVec S16 32) : Prop :=
  (∀ a x, ((![v771, v972] : Fin 2 → IVec S16 32) a x).toNat < S128x128.size a)
instance k0_chk385.dec : ∀ (v771 : IVec S16 32) (v972 : IVec S16 32), Decidable (k0_chk385 v771 v972) := fun v771 v972 => decidable_of_iff' _ (Iff.of_eq (k0_chk385.eq_1 v771 v972))
theorem k0_idx385_inb : ∀ (v771 : IVec S16 32) (v972 : IVec S16 32) (k0_hw385 : k0_chk385 v771 v972), ∀ a x, ((![v771, v972] : Fin 2 → IVec S16 32) a x).toNat < S128x128.size a := fun v771 v972 k0_hw385 => k0_hw385

def k0_chk386 (v771 : IVec S16 32) (v974 : IVec S16 32) : Prop :=
  (∀ a x, ((![v771, v974] : Fin 2 → IVec S16 32) a x).toNat < S128x128.size a)
instance k0_chk386.dec : ∀ (v771 : IVec S16 32) (v974 : IVec S16 32), Decidable (k0_chk386 v771 v974) := fun v771 v974 => decidable_of_iff' _ (Iff.of_eq (k0_chk386.eq_1 v771 v974))
theorem k0_idx386_inb : ∀ (v771 : IVec S16 32) (v974 : IVec S16 32) (k0_hw386 : k0_chk386 v771 v974), ∀ a x, ((![v771, v974] : Fin 2 → IVec S16 32) a x).toNat < S128x128.size a := fun v771 v974 k0_hw386 => k0_hw386

def k0_chk387 (v771 : IVec S16 32) (v976 : IVec S16 32) : Prop :=
  (∀ a x, ((![v771, v976] : Fin 2 → IVec S16 32) a x).toNat < S128x128.size a)
instance k0_chk387.dec : ∀ (v771 : IVec S16 32) (v976 : IVec S16 32), Decidable (k0_chk387 v771 v976) := fun v771 v976 => decidable_of_iff' _ (Iff.of_eq (k0_chk387.eq_1 v771 v976))
theorem k0_idx387_inb : ∀ (v771 : IVec S16 32) (v976 : IVec S16 32) (k0_hw387 : k0_chk387 v771 v976), ∀ a x, ((![v771, v976] : Fin 2 → IVec S16 32) a x).toNat < S128x128.size a := fun v771 v976 k0_hw387 => k0_hw387

def k0_chk388 (v771 : IVec S16 32) (v978 : IVec S16 32) : Prop :=
  (∀ a x, ((![v771, v978] : Fin 2 → IVec S16 32) a x).toNat < S128x128.size a)
instance k0_chk388.dec : ∀ (v771 : IVec S16 32) (v978 : IVec S16 32), Decidable (k0_chk388 v771 v978) := fun v771 v978 => decidable_of_iff' _ (Iff.of_eq (k0_chk388.eq_1 v771 v978))
theorem k0_idx388_inb : ∀ (v771 : IVec S16 32) (v978 : IVec S16 32) (k0_hw388 : k0_chk388 v771 v978), ∀ a x, ((![v771, v978] : Fin 2 → IVec S16 32) a x).toNat < S128x128.size a := fun v771 v978 k0_hw388 => k0_hw388

def k0_chk389 (v771 : IVec S16 32) (v980 : IVec S16 32) : Prop :=
  (∀ a x, ((![v771, v980] : Fin 2 → IVec S16 32) a x).toNat < S128x128.size a)
instance k0_chk389.dec : ∀ (v771 : IVec S16 32) (v980 : IVec S16 32), Decidable (k0_chk389 v771 v980) := fun v771 v980 => decidable_of_iff' _ (Iff.of_eq (k0_chk389.eq_1 v771 v980))
theorem k0_idx389_inb : ∀ (v771 : IVec S16 32) (v980 : IVec S16 32) (k0_hw389 : k0_chk389 v771 v980), ∀ a x, ((![v771, v980] : Fin 2 → IVec S16 32) a x).toNat < S128x128.size a := fun v771 v980 k0_hw389 => k0_hw389

def k0_chk390 (v771 : IVec S16 32) (v982 : IVec S16 32) : Prop :=
  (∀ a x, ((![v771, v982] : Fin 2 → IVec S16 32) a x).toNat < S128x128.size a)
instance k0_chk390.dec : ∀ (v771 : IVec S16 32) (v982 : IVec S16 32), Decidable (k0_chk390 v771 v982) := fun v771 v982 => decidable_of_iff' _ (Iff.of_eq (k0_chk390.eq_1 v771 v982))
theorem k0_idx390_inb : ∀ (v771 : IVec S16 32) (v982 : IVec S16 32) (k0_hw390 : k0_chk390 v771 v982), ∀ a x, ((![v771, v982] : Fin 2 → IVec S16 32) a x).toNat < S128x128.size a := fun v771 v982 k0_hw390 => k0_hw390

def k0_chk391 (v771 : IVec S16 32) (v984 : IVec S16 32) : Prop :=
  (∀ a x, ((![v771, v984] : Fin 2 → IVec S16 32) a x).toNat < S128x128.size a)
instance k0_chk391.dec : ∀ (v771 : IVec S16 32) (v984 : IVec S16 32), Decidable (k0_chk391 v771 v984) := fun v771 v984 => decidable_of_iff' _ (Iff.of_eq (k0_chk391.eq_1 v771 v984))
theorem k0_idx391_inb : ∀ (v771 : IVec S16 32) (v984 : IVec S16 32) (k0_hw391 : k0_chk391 v771 v984), ∀ a x, ((![v771, v984] : Fin 2 → IVec S16 32) a x).toNat < S128x128.size a := fun v771 v984 k0_hw391 => k0_hw391

def k0_chk392 (v771 : IVec S16 32) (v986 : IVec S16 32) : Prop :=
  (∀ a x, ((![v771, v986] : Fin 2 → IVec S16 32) a x).toNat < S128x128.size a)
instance k0_chk392.dec : ∀ (v771 : IVec S16 32) (v986 : IVec S16 32), Decidable (k0_chk392 v771 v986) := fun v771 v986 => decidable_of_iff' _ (Iff.of_eq (k0_chk392.eq_1 v771 v986))
theorem k0_idx392_inb : ∀ (v771 : IVec S16 32) (v986 : IVec S16 32) (k0_hw392 : k0_chk392 v771 v986), ∀ a x, ((![v771, v986] : Fin 2 → IVec S16 32) a x).toNat < S128x128.size a := fun v771 v986 k0_hw392 => k0_hw392

def k0_chk393 (v771 : IVec S16 32) (v988 : IVec S16 32) : Prop :=
  (∀ a x, ((![v771, v988] : Fin 2 → IVec S16 32) a x).toNat < S128x128.size a)
instance k0_chk393.dec : ∀ (v771 : IVec S16 32) (v988 : IVec S16 32), Decidable (k0_chk393 v771 v988) := fun v771 v988 => decidable_of_iff' _ (Iff.of_eq (k0_chk393.eq_1 v771 v988))
theorem k0_idx393_inb : ∀ (v771 : IVec S16 32) (v988 : IVec S16 32) (k0_hw393 : k0_chk393 v771 v988), ∀ a x, ((![v771, v988] : Fin 2 → IVec S16 32) a x).toNat < S128x128.size a := fun v771 v988 k0_hw393 => k0_hw393

def k0_chk394 (v771 : IVec S16 32) (v990 : IVec S16 32) : Prop :=
  (∀ a x, ((![v771, v990] : Fin 2 → IVec S16 32) a x).toNat < S128x128.size a)
instance k0_chk394.dec : ∀ (v771 : IVec S16 32) (v990 : IVec S16 32), Decidable (k0_chk394 v771 v990) := fun v771 v990 => decidable_of_iff' _ (Iff.of_eq (k0_chk394.eq_1 v771 v990))
theorem k0_idx394_inb : ∀ (v771 : IVec S16 32) (v990 : IVec S16 32) (k0_hw394 : k0_chk394 v771 v990), ∀ a x, ((![v771, v990] : Fin 2 → IVec S16 32) a x).toNat < S128x128.size a := fun v771 v990 k0_hw394 => k0_hw394

def k0_chk395 (v771 : IVec S16 32) (v992 : IVec S16 32) : Prop :=
  (∀ a x, ((![v771, v992] : Fin 2 → IVec S16 32) a x).toNat < S128x128.size a)
instance k0_chk395.dec : ∀ (v771 : IVec S16 32) (v992 : IVec S16 32), Decidable (k0_chk395 v771 v992) := fun v771 v992 => decidable_of_iff' _ (Iff.of_eq (k0_chk395.eq_1 v771 v992))
theorem k0_idx395_inb : ∀ (v771 : IVec S16 32) (v992 : IVec S16 32) (k0_hw395 : k0_chk395 v771 v992), ∀ a x, ((![v771, v992] : Fin 2 → IVec S16 32) a x).toNat < S128x128.size a := fun v771 v992 k0_hw395 => k0_hw395

def k0_chk396 (v771 : IVec S16 32) (v994 : IVec S16 32) : Prop :=
  (∀ a x, ((![v771, v994] : Fin 2 → IVec S16 32) a x).toNat < S128x128.size a)
instance k0_chk396.dec : ∀ (v771 : IVec S16 32) (v994 : IVec S16 32), Decidable (k0_chk396 v771 v994) := fun v771 v994 => decidable_of_iff' _ (Iff.of_eq (k0_chk396.eq_1 v771 v994))
theorem k0_idx396_inb : ∀ (v771 : IVec S16 32) (v994 : IVec S16 32) (k0_hw396 : k0_chk396 v771 v994), ∀ a x, ((![v771, v994] : Fin 2 → IVec S16 32) a x).toNat < S128x128.size a := fun v771 v994 k0_hw396 => k0_hw396

def k0_chk397 (v771 : IVec S16 32) (v996 : IVec S16 32) : Prop :=
  (∀ a x, ((![v771, v996] : Fin 2 → IVec S16 32) a x).toNat < S128x128.size a)
instance k0_chk397.dec : ∀ (v771 : IVec S16 32) (v996 : IVec S16 32), Decidable (k0_chk397 v771 v996) := fun v771 v996 => decidable_of_iff' _ (Iff.of_eq (k0_chk397.eq_1 v771 v996))
theorem k0_idx397_inb : ∀ (v771 : IVec S16 32) (v996 : IVec S16 32) (k0_hw397 : k0_chk397 v771 v996), ∀ a x, ((![v771, v996] : Fin 2 → IVec S16 32) a x).toNat < S128x128.size a := fun v771 v996 k0_hw397 => k0_hw397

def k0_chk398 (v771 : IVec S16 32) (v998 : IVec S16 32) : Prop :=
  (∀ a x, ((![v771, v998] : Fin 2 → IVec S16 32) a x).toNat < S128x128.size a)
instance k0_chk398.dec : ∀ (v771 : IVec S16 32) (v998 : IVec S16 32), Decidable (k0_chk398 v771 v998) := fun v771 v998 => decidable_of_iff' _ (Iff.of_eq (k0_chk398.eq_1 v771 v998))
theorem k0_idx398_inb : ∀ (v771 : IVec S16 32) (v998 : IVec S16 32) (k0_hw398 : k0_chk398 v771 v998), ∀ a x, ((![v771, v998] : Fin 2 → IVec S16 32) a x).toNat < S128x128.size a := fun v771 v998 k0_hw398 => k0_hw398

def k0_chk399 (v771 : IVec S16 32) (v1000 : IVec S16 32) : Prop :=
  (∀ a x, ((![v771, v1000] : Fin 2 → IVec S16 32) a x).toNat < S128x128.size a)
instance k0_chk399.dec : ∀ (v771 : IVec S16 32) (v1000 : IVec S16 32), Decidable (k0_chk399 v771 v1000) := fun v771 v1000 => decidable_of_iff' _ (Iff.of_eq (k0_chk399.eq_1 v771 v1000))
theorem k0_idx399_inb : ∀ (v771 : IVec S16 32) (v1000 : IVec S16 32) (k0_hw399 : k0_chk399 v771 v1000), ∀ a x, ((![v771, v1000] : Fin 2 → IVec S16 32) a x).toNat < S128x128.size a := fun v771 v1000 k0_hw399 => k0_hw399

def k0_chk400 (v771 : IVec S16 32) (v1002 : IVec S16 32) : Prop :=
  (∀ a x, ((![v771, v1002] : Fin 2 → IVec S16 32) a x).toNat < S128x128.size a)
instance k0_chk400.dec : ∀ (v771 : IVec S16 32) (v1002 : IVec S16 32), Decidable (k0_chk400 v771 v1002) := fun v771 v1002 => decidable_of_iff' _ (Iff.of_eq (k0_chk400.eq_1 v771 v1002))
theorem k0_idx400_inb : ∀ (v771 : IVec S16 32) (v1002 : IVec S16 32) (k0_hw400 : k0_chk400 v771 v1002), ∀ a x, ((![v771, v1002] : Fin 2 → IVec S16 32) a x).toNat < S128x128.size a := fun v771 v1002 k0_hw400 => k0_hw400

def k0_chk401 (v771 : IVec S16 32) (v1005 : IVec S16 32) : Prop :=
  (∀ a x, ((![v1005, v771] : Fin 2 → IVec S16 32) a x).toNat < S64x128.size a)
instance k0_chk401.dec : ∀ (v771 : IVec S16 32) (v1005 : IVec S16 32), Decidable (k0_chk401 v771 v1005) := fun v771 v1005 => decidable_of_iff' _ (Iff.of_eq (k0_chk401.eq_1 v771 v1005))
theorem k0_idx401_inb : ∀ (v771 : IVec S16 32) (v1005 : IVec S16 32) (k0_hw401 : k0_chk401 v771 v1005), ∀ a x, ((![v1005, v771] : Fin 2 → IVec S16 32) a x).toNat < S64x128.size a := fun v771 v1005 k0_hw401 => k0_hw401

def k0_chk402 (v771 : IVec S16 32) (v1007 : IVec S16 32) : Prop :=
  (∀ a x, ((![v1007, v771] : Fin 2 → IVec S16 32) a x).toNat < S64x128.size a)
instance k0_chk402.dec : ∀ (v771 : IVec S16 32) (v1007 : IVec S16 32), Decidable (k0_chk402 v771 v1007) := fun v771 v1007 => decidable_of_iff' _ (Iff.of_eq (k0_chk402.eq_1 v771 v1007))
theorem k0_idx402_inb : ∀ (v771 : IVec S16 32) (v1007 : IVec S16 32) (k0_hw402 : k0_chk402 v771 v1007), ∀ a x, ((![v1007, v771] : Fin 2 → IVec S16 32) a x).toNat < S64x128.size a := fun v771 v1007 k0_hw402 => k0_hw402

def k0_chk403 (v771 : IVec S16 32) (v1009 : IVec S16 32) : Prop :=
  (∀ a x, ((![v1009, v771] : Fin 2 → IVec S16 32) a x).toNat < S64x128.size a)
instance k0_chk403.dec : ∀ (v771 : IVec S16 32) (v1009 : IVec S16 32), Decidable (k0_chk403 v771 v1009) := fun v771 v1009 => decidable_of_iff' _ (Iff.of_eq (k0_chk403.eq_1 v771 v1009))
theorem k0_idx403_inb : ∀ (v771 : IVec S16 32) (v1009 : IVec S16 32) (k0_hw403 : k0_chk403 v771 v1009), ∀ a x, ((![v1009, v771] : Fin 2 → IVec S16 32) a x).toNat < S64x128.size a := fun v771 v1009 k0_hw403 => k0_hw403

def k0_chk404 (v771 : IVec S16 32) (v1011 : IVec S16 32) : Prop :=
  (∀ a x, ((![v1011, v771] : Fin 2 → IVec S16 32) a x).toNat < S64x128.size a)
instance k0_chk404.dec : ∀ (v771 : IVec S16 32) (v1011 : IVec S16 32), Decidable (k0_chk404 v771 v1011) := fun v771 v1011 => decidable_of_iff' _ (Iff.of_eq (k0_chk404.eq_1 v771 v1011))
theorem k0_idx404_inb : ∀ (v771 : IVec S16 32) (v1011 : IVec S16 32) (k0_hw404 : k0_chk404 v771 v1011), ∀ a x, ((![v1011, v771] : Fin 2 → IVec S16 32) a x).toNat < S64x128.size a := fun v771 v1011 k0_hw404 => k0_hw404

def k0_chk405 (v771 : IVec S16 32) (v1013 : IVec S16 32) : Prop :=
  (∀ a x, ((![v1013, v771] : Fin 2 → IVec S16 32) a x).toNat < S64x128.size a)
instance k0_chk405.dec : ∀ (v771 : IVec S16 32) (v1013 : IVec S16 32), Decidable (k0_chk405 v771 v1013) := fun v771 v1013 => decidable_of_iff' _ (Iff.of_eq (k0_chk405.eq_1 v771 v1013))
theorem k0_idx405_inb : ∀ (v771 : IVec S16 32) (v1013 : IVec S16 32) (k0_hw405 : k0_chk405 v771 v1013), ∀ a x, ((![v1013, v771] : Fin 2 → IVec S16 32) a x).toNat < S64x128.size a := fun v771 v1013 k0_hw405 => k0_hw405

def k0_chk406 (v771 : IVec S16 32) (v1015 : IVec S16 32) : Prop :=
  (∀ a x, ((![v1015, v771] : Fin 2 → IVec S16 32) a x).toNat < S64x128.size a)
instance k0_chk406.dec : ∀ (v771 : IVec S16 32) (v1015 : IVec S16 32), Decidable (k0_chk406 v771 v1015) := fun v771 v1015 => decidable_of_iff' _ (Iff.of_eq (k0_chk406.eq_1 v771 v1015))
theorem k0_idx406_inb : ∀ (v771 : IVec S16 32) (v1015 : IVec S16 32) (k0_hw406 : k0_chk406 v771 v1015), ∀ a x, ((![v1015, v771] : Fin 2 → IVec S16 32) a x).toNat < S64x128.size a := fun v771 v1015 k0_hw406 => k0_hw406

def k0_chk407 (v771 : IVec S16 32) (v1017 : IVec S16 32) : Prop :=
  (∀ a x, ((![v1017, v771] : Fin 2 → IVec S16 32) a x).toNat < S64x128.size a)
instance k0_chk407.dec : ∀ (v771 : IVec S16 32) (v1017 : IVec S16 32), Decidable (k0_chk407 v771 v1017) := fun v771 v1017 => decidable_of_iff' _ (Iff.of_eq (k0_chk407.eq_1 v771 v1017))
theorem k0_idx407_inb : ∀ (v771 : IVec S16 32) (v1017 : IVec S16 32) (k0_hw407 : k0_chk407 v771 v1017), ∀ a x, ((![v1017, v771] : Fin 2 → IVec S16 32) a x).toNat < S64x128.size a := fun v771 v1017 k0_hw407 => k0_hw407

def k0_chk408 (v771 : IVec S16 32) (v1019 : IVec S16 32) : Prop :=
  (∀ a x, ((![v1019, v771] : Fin 2 → IVec S16 32) a x).toNat < S64x128.size a)
instance k0_chk408.dec : ∀ (v771 : IVec S16 32) (v1019 : IVec S16 32), Decidable (k0_chk408 v771 v1019) := fun v771 v1019 => decidable_of_iff' _ (Iff.of_eq (k0_chk408.eq_1 v771 v1019))
theorem k0_idx408_inb : ∀ (v771 : IVec S16 32) (v1019 : IVec S16 32) (k0_hw408 : k0_chk408 v771 v1019), ∀ a x, ((![v1019, v771] : Fin 2 → IVec S16 32) a x).toNat < S64x128.size a := fun v771 v1019 k0_hw408 => k0_hw408

def k0_chk409 (v771 : IVec S16 32) (v1021 : IVec S16 32) : Prop :=
  (∀ a x, ((![v1021, v771] : Fin 2 → IVec S16 32) a x).toNat < S64x128.size a)
instance k0_chk409.dec : ∀ (v771 : IVec S16 32) (v1021 : IVec S16 32), Decidable (k0_chk409 v771 v1021) := fun v771 v1021 => decidable_of_iff' _ (Iff.of_eq (k0_chk409.eq_1 v771 v1021))
theorem k0_idx409_inb : ∀ (v771 : IVec S16 32) (v1021 : IVec S16 32) (k0_hw409 : k0_chk409 v771 v1021), ∀ a x, ((![v1021, v771] : Fin 2 → IVec S16 32) a x).toNat < S64x128.size a := fun v771 v1021 k0_hw409 => k0_hw409

def k0_chk410 (v771 : IVec S16 32) (v1023 : IVec S16 32) : Prop :=
  (∀ a x, ((![v1023, v771] : Fin 2 → IVec S16 32) a x).toNat < S64x128.size a)
instance k0_chk410.dec : ∀ (v771 : IVec S16 32) (v1023 : IVec S16 32), Decidable (k0_chk410 v771 v1023) := fun v771 v1023 => decidable_of_iff' _ (Iff.of_eq (k0_chk410.eq_1 v771 v1023))
theorem k0_idx410_inb : ∀ (v771 : IVec S16 32) (v1023 : IVec S16 32) (k0_hw410 : k0_chk410 v771 v1023), ∀ a x, ((![v1023, v771] : Fin 2 → IVec S16 32) a x).toNat < S64x128.size a := fun v771 v1023 k0_hw410 => k0_hw410

def k0_chk411 (v771 : IVec S16 32) (v1025 : IVec S16 32) : Prop :=
  (∀ a x, ((![v1025, v771] : Fin 2 → IVec S16 32) a x).toNat < S64x128.size a)
instance k0_chk411.dec : ∀ (v771 : IVec S16 32) (v1025 : IVec S16 32), Decidable (k0_chk411 v771 v1025) := fun v771 v1025 => decidable_of_iff' _ (Iff.of_eq (k0_chk411.eq_1 v771 v1025))
theorem k0_idx411_inb : ∀ (v771 : IVec S16 32) (v1025 : IVec S16 32) (k0_hw411 : k0_chk411 v771 v1025), ∀ a x, ((![v1025, v771] : Fin 2 → IVec S16 32) a x).toNat < S64x128.size a := fun v771 v1025 k0_hw411 => k0_hw411

def k0_chk412 (v771 : IVec S16 32) (v1027 : IVec S16 32) : Prop :=
  (∀ a x, ((![v1027, v771] : Fin 2 → IVec S16 32) a x).toNat < S64x128.size a)
instance k0_chk412.dec : ∀ (v771 : IVec S16 32) (v1027 : IVec S16 32), Decidable (k0_chk412 v771 v1027) := fun v771 v1027 => decidable_of_iff' _ (Iff.of_eq (k0_chk412.eq_1 v771 v1027))
theorem k0_idx412_inb : ∀ (v771 : IVec S16 32) (v1027 : IVec S16 32) (k0_hw412 : k0_chk412 v771 v1027), ∀ a x, ((![v1027, v771] : Fin 2 → IVec S16 32) a x).toNat < S64x128.size a := fun v771 v1027 k0_hw412 => k0_hw412

def k0_chk413 (v771 : IVec S16 32) (v1029 : IVec S16 32) : Prop :=
  (∀ a x, ((![v1029, v771] : Fin 2 → IVec S16 32) a x).toNat < S64x128.size a)
instance k0_chk413.dec : ∀ (v771 : IVec S16 32) (v1029 : IVec S16 32), Decidable (k0_chk413 v771 v1029) := fun v771 v1029 => decidable_of_iff' _ (Iff.of_eq (k0_chk413.eq_1 v771 v1029))
theorem k0_idx413_inb : ∀ (v771 : IVec S16 32) (v1029 : IVec S16 32) (k0_hw413 : k0_chk413 v771 v1029), ∀ a x, ((![v1029, v771] : Fin 2 → IVec S16 32) a x).toNat < S64x128.size a := fun v771 v1029 k0_hw413 => k0_hw413

def k0_chk414 (v771 : IVec S16 32) (v1031 : IVec S16 32) : Prop :=
  (∀ a x, ((![v1031, v771] : Fin 2 → IVec S16 32) a x).toNat < S64x128.size a)
instance k0_chk414.dec : ∀ (v771 : IVec S16 32) (v1031 : IVec S16 32), Decidable (k0_chk414 v771 v1031) := fun v771 v1031 => decidable_of_iff' _ (Iff.of_eq (k0_chk414.eq_1 v771 v1031))
theorem k0_idx414_inb : ∀ (v771 : IVec S16 32) (v1031 : IVec S16 32) (k0_hw414 : k0_chk414 v771 v1031), ∀ a x, ((![v1031, v771] : Fin 2 → IVec S16 32) a x).toNat < S64x128.size a := fun v771 v1031 k0_hw414 => k0_hw414

def k0_chk415 (v771 : IVec S16 32) (v1033 : IVec S16 32) : Prop :=
  (∀ a x, ((![v1033, v771] : Fin 2 → IVec S16 32) a x).toNat < S64x128.size a)
instance k0_chk415.dec : ∀ (v771 : IVec S16 32) (v1033 : IVec S16 32), Decidable (k0_chk415 v771 v1033) := fun v771 v1033 => decidable_of_iff' _ (Iff.of_eq (k0_chk415.eq_1 v771 v1033))
theorem k0_idx415_inb : ∀ (v771 : IVec S16 32) (v1033 : IVec S16 32) (k0_hw415 : k0_chk415 v771 v1033), ∀ a x, ((![v1033, v771] : Fin 2 → IVec S16 32) a x).toNat < S64x128.size a := fun v771 v1033 k0_hw415 => k0_hw415

def k0_chk416 (v771 : IVec S16 32) (v1035 : IVec S16 32) : Prop :=
  (∀ a x, ((![v1035, v771] : Fin 2 → IVec S16 32) a x).toNat < S64x128.size a)
instance k0_chk416.dec : ∀ (v771 : IVec S16 32) (v1035 : IVec S16 32), Decidable (k0_chk416 v771 v1035) := fun v771 v1035 => decidable_of_iff' _ (Iff.of_eq (k0_chk416.eq_1 v771 v1035))
theorem k0_idx416_inb : ∀ (v771 : IVec S16 32) (v1035 : IVec S16 32) (k0_hw416 : k0_chk416 v771 v1035), ∀ a x, ((![v1035, v771] : Fin 2 → IVec S16 32) a x).toNat < S64x128.size a := fun v771 v1035 k0_hw416 => k0_hw416
def k0_off9 (i : grid0.Coords) (k0_t2 : Fin k0_t2_loop.trips) : Fin 3 → Nat :=
  let c2_i32_302 : BitVec 32 := 2#32
  let c1_i32_163 : BitVec 32 := 1#32
  let c1_i32_164 : BitVec 32 := 1#32
  let arg18 : BitVec 32 := Scf.iv c1_i32_163 c1_i32_164 k0_t2
  let v563 : BitVec 32 := Scalar.muli c2_i32_302 arg18
  let c1_i32_303 : BitVec 32 := 1#32
  let v564 : BitVec 32 := Scalar.addi v563 c1_i32_303
  let c1_i32_397 : BitVec 32 := 1#32
  let v732 : BitVec 32 := Scalar.subi v564 c1_i32_397
  let c50_i32_398 : BitVec 32 := 50#32
  let c0_i32_399 : BitVec 32 := 0#32
  let v733 : BitVec 1 := Scalar.cmpi .eq c50_i32_398 c0_i32_399
  let c1_i32_400 : BitVec 32 := 1#32
  let v734 : BitVec 32 := Scalar.select v733 c1_i32_400 c50_i32_398
  let v735 : BitVec 32 := Scalar.remsi v732 v734
  let c0_i32_402 : BitVec 32 := 0#32
  let v737 : BitVec 1 := Scalar.cmpi .slt v735 c0_i32_402
  let c0_i32_403 : BitVec 32 := 0#32
  let v738 : BitVec 1 := Scalar.cmpi .slt v734 c0_i32_403
  let v739 : BitVec 1 := Scalar.xori v737 v738
  let c0_i32_401 : BitVec 32 := 0#32
  let v736 : BitVec 1 := Scalar.cmpi .ne v735 c0_i32_401
  let v740 : BitVec 1 := Scalar.andi v739 v736
  let v741 : BitVec 32 := Scalar.addi v735 v734
  let v742 : BitVec 32 := Scalar.select v740 v741 v735
  let c0_i32_413 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_404 : BitVec 32 := 4#32
  let v743 : BitVec 32 := Scalar.muli v1 c4_i32_404
  let c0_i32_406 : BitVec 32 := 0#32
  let v745 : BitVec 1 := Scalar.cmpi .sgt v732 c0_i32_406
  let v746 : BitVec 32 := Scalar.extui v745
  let c0_i32_407 : BitVec 32 := 0#32
  let v747 : BitVec 1 := Scalar.cmpi .slt v732 c0_i32_407
  let v748 : BitVec 32 := Scalar.extui v747
  let v749 : BitVec 32 := Scalar.subi v746 v748
  let c50_i32_405 : BitVec 32 := 50#32
  let c0_i32_408 : BitVec 32 := 0#32
  let v750 : BitVec 1 := Scalar.cmpi .sgt c50_i32_405 c0_i32_408
  let v751 : BitVec 32 := Scalar.extui v750
  let c0_i32_409 : BitVec 32 := 0#32
  let v752 : BitVec 1 := Scalar.cmpi .slt c50_i32_405 c0_i32_409
  let v753 : BitVec 32 := Scalar.extui v752
  let v754 : BitVec 32 := Scalar.subi v751 v753
  let v755 : BitVec 1 := Scalar.cmpi .ne v749 v754
  let v756 : BitVec 32 := Scalar.remsi v732 c50_i32_405
  let c0_i32_410 : BitVec 32 := 0#32
  let v757 : BitVec 1 := Scalar.cmpi .ne v756 c0_i32_410
  let v758 : BitVec 1 := Scalar.andi v755 v757
  let v744 : BitVec 32 := Scalar.divsi v732 c50_i32_405
  let c1_i32_411 : BitVec 32 := 1#32
  let v759 : BitVec 32 := Scalar.subi v744 c1_i32_411
  let v760 : BitVec 32 := Scalar.select v758 v759 v744
  let v761 : BitVec 32 := Scalar.addi v743 v760
  let c128_i32_412 : BitVec 32 := 128#32
  let v762 : BitVec 32 := Scalar.muli v761 c128_i32_412
  ![v742.toNat, 0, v762.toNat]
@[reducible] def k0_t5_loop : Scf.Loop 32 :=
  let c0_i32_169 : BitVec 32 := 0#32
  let c8_i32_170 : BitVec 32 := 8#32
  let v338 : BitVec 32 := Scalar.addi c0_i32_169 c8_i32_170
  let c1_i32_171 : BitVec 32 := 1#32
  ⟨c0_i32_169, v338, c1_i32_171⟩
def k0_off10 (k0_t5 : Fin k0_t5_loop.trips) : Fin 2 → Nat :=
  let c0_i32_169 : BitVec 32 := 0#32
  let c1_i32_171 : BitVec 32 := 1#32
  let arg18 : BitVec 32 := Scf.iv c0_i32_169 c1_i32_171 k0_t5
  let v360 : Index := Scalar.indexCast arg18
  let c0_190 : Index := 0#32
  ![v360.toNat, 0]

def k0_chk417 (v364 : IVec S16 32) (v367 : IVec S16 32) : Prop :=
  (∀ a x, ((![v364, v367] : Fin 2 → IVec S16 32) a x).toNat < S128x128.size a)
instance k0_chk417.dec : ∀ (v364 : IVec S16 32) (v367 : IVec S16 32), Decidable (k0_chk417 v364 v367) := fun v364 v367 => decidable_of_iff' _ (Iff.of_eq (k0_chk417.eq_1 v364 v367))
theorem k0_idx417_inb : ∀ (v364 : IVec S16 32) (v367 : IVec S16 32) (k0_hw417 : k0_chk417 v364 v367), ∀ a x, ((![v364, v367] : Fin 2 → IVec S16 32) a x).toNat < S128x128.size a := fun v364 v367 k0_hw417 => k0_hw417

def k0_chk418 (v364 : IVec S16 32) (v369 : IVec S16 32) : Prop :=
  (∀ a x, ((![v364, v369] : Fin 2 → IVec S16 32) a x).toNat < S128x128.size a)
instance k0_chk418.dec : ∀ (v364 : IVec S16 32) (v369 : IVec S16 32), Decidable (k0_chk418 v364 v369) := fun v364 v369 => decidable_of_iff' _ (Iff.of_eq (k0_chk418.eq_1 v364 v369))
theorem k0_idx418_inb : ∀ (v364 : IVec S16 32) (v369 : IVec S16 32) (k0_hw418 : k0_chk418 v364 v369), ∀ a x, ((![v364, v369] : Fin 2 → IVec S16 32) a x).toNat < S128x128.size a := fun v364 v369 k0_hw418 => k0_hw418

def k0_chk419 (v364 : IVec S16 32) (v371 : IVec S16 32) : Prop :=
  (∀ a x, ((![v364, v371] : Fin 2 → IVec S16 32) a x).toNat < S128x128.size a)
instance k0_chk419.dec : ∀ (v364 : IVec S16 32) (v371 : IVec S16 32), Decidable (k0_chk419 v364 v371) := fun v364 v371 => decidable_of_iff' _ (Iff.of_eq (k0_chk419.eq_1 v364 v371))
theorem k0_idx419_inb : ∀ (v364 : IVec S16 32) (v371 : IVec S16 32) (k0_hw419 : k0_chk419 v364 v371), ∀ a x, ((![v364, v371] : Fin 2 → IVec S16 32) a x).toNat < S128x128.size a := fun v364 v371 k0_hw419 => k0_hw419

def k0_chk420 (v364 : IVec S16 32) (v373 : IVec S16 32) : Prop :=
  (∀ a x, ((![v364, v373] : Fin 2 → IVec S16 32) a x).toNat < S128x128.size a)
instance k0_chk420.dec : ∀ (v364 : IVec S16 32) (v373 : IVec S16 32), Decidable (k0_chk420 v364 v373) := fun v364 v373 => decidable_of_iff' _ (Iff.of_eq (k0_chk420.eq_1 v364 v373))
theorem k0_idx420_inb : ∀ (v364 : IVec S16 32) (v373 : IVec S16 32) (k0_hw420 : k0_chk420 v364 v373), ∀ a x, ((![v364, v373] : Fin 2 → IVec S16 32) a x).toNat < S128x128.size a := fun v364 v373 k0_hw420 => k0_hw420

def k0_chk421 (v364 : IVec S16 32) (v375 : IVec S16 32) : Prop :=
  (∀ a x, ((![v364, v375] : Fin 2 → IVec S16 32) a x).toNat < S128x128.size a)
instance k0_chk421.dec : ∀ (v364 : IVec S16 32) (v375 : IVec S16 32), Decidable (k0_chk421 v364 v375) := fun v364 v375 => decidable_of_iff' _ (Iff.of_eq (k0_chk421.eq_1 v364 v375))
theorem k0_idx421_inb : ∀ (v364 : IVec S16 32) (v375 : IVec S16 32) (k0_hw421 : k0_chk421 v364 v375), ∀ a x, ((![v364, v375] : Fin 2 → IVec S16 32) a x).toNat < S128x128.size a := fun v364 v375 k0_hw421 => k0_hw421

def k0_chk422 (v364 : IVec S16 32) (v377 : IVec S16 32) : Prop :=
  (∀ a x, ((![v364, v377] : Fin 2 → IVec S16 32) a x).toNat < S128x128.size a)
instance k0_chk422.dec : ∀ (v364 : IVec S16 32) (v377 : IVec S16 32), Decidable (k0_chk422 v364 v377) := fun v364 v377 => decidable_of_iff' _ (Iff.of_eq (k0_chk422.eq_1 v364 v377))
theorem k0_idx422_inb : ∀ (v364 : IVec S16 32) (v377 : IVec S16 32) (k0_hw422 : k0_chk422 v364 v377), ∀ a x, ((![v364, v377] : Fin 2 → IVec S16 32) a x).toNat < S128x128.size a := fun v364 v377 k0_hw422 => k0_hw422

def k0_chk423 (v364 : IVec S16 32) (v379 : IVec S16 32) : Prop :=
  (∀ a x, ((![v364, v379] : Fin 2 → IVec S16 32) a x).toNat < S128x128.size a)
instance k0_chk423.dec : ∀ (v364 : IVec S16 32) (v379 : IVec S16 32), Decidable (k0_chk423 v364 v379) := fun v364 v379 => decidable_of_iff' _ (Iff.of_eq (k0_chk423.eq_1 v364 v379))
theorem k0_idx423_inb : ∀ (v364 : IVec S16 32) (v379 : IVec S16 32) (k0_hw423 : k0_chk423 v364 v379), ∀ a x, ((![v364, v379] : Fin 2 → IVec S16 32) a x).toNat < S128x128.size a := fun v364 v379 k0_hw423 => k0_hw423

def k0_chk424 (v364 : IVec S16 32) (v381 : IVec S16 32) : Prop :=
  (∀ a x, ((![v364, v381] : Fin 2 → IVec S16 32) a x).toNat < S128x128.size a)
instance k0_chk424.dec : ∀ (v364 : IVec S16 32) (v381 : IVec S16 32), Decidable (k0_chk424 v364 v381) := fun v364 v381 => decidable_of_iff' _ (Iff.of_eq (k0_chk424.eq_1 v364 v381))
theorem k0_idx424_inb : ∀ (v364 : IVec S16 32) (v381 : IVec S16 32) (k0_hw424 : k0_chk424 v364 v381), ∀ a x, ((![v364, v381] : Fin 2 → IVec S16 32) a x).toNat < S128x128.size a := fun v364 v381 k0_hw424 => k0_hw424

def k0_chk425 (v364 : IVec S16 32) (v383 : IVec S16 32) : Prop :=
  (∀ a x, ((![v364, v383] : Fin 2 → IVec S16 32) a x).toNat < S128x128.size a)
instance k0_chk425.dec : ∀ (v364 : IVec S16 32) (v383 : IVec S16 32), Decidable (k0_chk425 v364 v383) := fun v364 v383 => decidable_of_iff' _ (Iff.of_eq (k0_chk425.eq_1 v364 v383))
theorem k0_idx425_inb : ∀ (v364 : IVec S16 32) (v383 : IVec S16 32) (k0_hw425 : k0_chk425 v364 v383), ∀ a x, ((![v364, v383] : Fin 2 → IVec S16 32) a x).toNat < S128x128.size a := fun v364 v383 k0_hw425 => k0_hw425

def k0_chk426 (v364 : IVec S16 32) (v385 : IVec S16 32) : Prop :=
  (∀ a x, ((![v364, v385] : Fin 2 → IVec S16 32) a x).toNat < S128x128.size a)
instance k0_chk426.dec : ∀ (v364 : IVec S16 32) (v385 : IVec S16 32), Decidable (k0_chk426 v364 v385) := fun v364 v385 => decidable_of_iff' _ (Iff.of_eq (k0_chk426.eq_1 v364 v385))
theorem k0_idx426_inb : ∀ (v364 : IVec S16 32) (v385 : IVec S16 32) (k0_hw426 : k0_chk426 v364 v385), ∀ a x, ((![v364, v385] : Fin 2 → IVec S16 32) a x).toNat < S128x128.size a := fun v364 v385 k0_hw426 => k0_hw426

def k0_chk427 (v364 : IVec S16 32) (v387 : IVec S16 32) : Prop :=
  (∀ a x, ((![v364, v387] : Fin 2 → IVec S16 32) a x).toNat < S128x128.size a)
instance k0_chk427.dec : ∀ (v364 : IVec S16 32) (v387 : IVec S16 32), Decidable (k0_chk427 v364 v387) := fun v364 v387 => decidable_of_iff' _ (Iff.of_eq (k0_chk427.eq_1 v364 v387))
theorem k0_idx427_inb : ∀ (v364 : IVec S16 32) (v387 : IVec S16 32) (k0_hw427 : k0_chk427 v364 v387), ∀ a x, ((![v364, v387] : Fin 2 → IVec S16 32) a x).toNat < S128x128.size a := fun v364 v387 k0_hw427 => k0_hw427

def k0_chk428 (v364 : IVec S16 32) (v389 : IVec S16 32) : Prop :=
  (∀ a x, ((![v364, v389] : Fin 2 → IVec S16 32) a x).toNat < S128x128.size a)
instance k0_chk428.dec : ∀ (v364 : IVec S16 32) (v389 : IVec S16 32), Decidable (k0_chk428 v364 v389) := fun v364 v389 => decidable_of_iff' _ (Iff.of_eq (k0_chk428.eq_1 v364 v389))
theorem k0_idx428_inb : ∀ (v364 : IVec S16 32) (v389 : IVec S16 32) (k0_hw428 : k0_chk428 v364 v389), ∀ a x, ((![v364, v389] : Fin 2 → IVec S16 32) a x).toNat < S128x128.size a := fun v364 v389 k0_hw428 => k0_hw428

def k0_chk429 (v364 : IVec S16 32) (v391 : IVec S16 32) : Prop :=
  (∀ a x, ((![v364, v391] : Fin 2 → IVec S16 32) a x).toNat < S128x128.size a)
instance k0_chk429.dec : ∀ (v364 : IVec S16 32) (v391 : IVec S16 32), Decidable (k0_chk429 v364 v391) := fun v364 v391 => decidable_of_iff' _ (Iff.of_eq (k0_chk429.eq_1 v364 v391))
theorem k0_idx429_inb : ∀ (v364 : IVec S16 32) (v391 : IVec S16 32) (k0_hw429 : k0_chk429 v364 v391), ∀ a x, ((![v364, v391] : Fin 2 → IVec S16 32) a x).toNat < S128x128.size a := fun v364 v391 k0_hw429 => k0_hw429

def k0_chk430 (v364 : IVec S16 32) (v393 : IVec S16 32) : Prop :=
  (∀ a x, ((![v364, v393] : Fin 2 → IVec S16 32) a x).toNat < S128x128.size a)
instance k0_chk430.dec : ∀ (v364 : IVec S16 32) (v393 : IVec S16 32), Decidable (k0_chk430 v364 v393) := fun v364 v393 => decidable_of_iff' _ (Iff.of_eq (k0_chk430.eq_1 v364 v393))
theorem k0_idx430_inb : ∀ (v364 : IVec S16 32) (v393 : IVec S16 32) (k0_hw430 : k0_chk430 v364 v393), ∀ a x, ((![v364, v393] : Fin 2 → IVec S16 32) a x).toNat < S128x128.size a := fun v364 v393 k0_hw430 => k0_hw430

def k0_chk431 (v364 : IVec S16 32) (v395 : IVec S16 32) : Prop :=
  (∀ a x, ((![v364, v395] : Fin 2 → IVec S16 32) a x).toNat < S128x128.size a)
instance k0_chk431.dec : ∀ (v364 : IVec S16 32) (v395 : IVec S16 32), Decidable (k0_chk431 v364 v395) := fun v364 v395 => decidable_of_iff' _ (Iff.of_eq (k0_chk431.eq_1 v364 v395))
theorem k0_idx431_inb : ∀ (v364 : IVec S16 32) (v395 : IVec S16 32) (k0_hw431 : k0_chk431 v364 v395), ∀ a x, ((![v364, v395] : Fin 2 → IVec S16 32) a x).toNat < S128x128.size a := fun v364 v395 k0_hw431 => k0_hw431

def k0_chk432 (v364 : IVec S16 32) (v397 : IVec S16 32) : Prop :=
  (∀ a x, ((![v364, v397] : Fin 2 → IVec S16 32) a x).toNat < S128x128.size a)
instance k0_chk432.dec : ∀ (v364 : IVec S16 32) (v397 : IVec S16 32), Decidable (k0_chk432 v364 v397) := fun v364 v397 => decidable_of_iff' _ (Iff.of_eq (k0_chk432.eq_1 v364 v397))
theorem k0_idx432_inb : ∀ (v364 : IVec S16 32) (v397 : IVec S16 32) (k0_hw432 : k0_chk432 v364 v397), ∀ a x, ((![v364, v397] : Fin 2 → IVec S16 32) a x).toNat < S128x128.size a := fun v364 v397 k0_hw432 => k0_hw432

def k0_chk433 (v364 : IVec S16 32) (v400 : IVec S16 32) : Prop :=
  (∀ a x, ((![v400, v364] : Fin 2 → IVec S16 32) a x).toNat < S64x128.size a)
instance k0_chk433.dec : ∀ (v364 : IVec S16 32) (v400 : IVec S16 32), Decidable (k0_chk433 v364 v400) := fun v364 v400 => decidable_of_iff' _ (Iff.of_eq (k0_chk433.eq_1 v364 v400))
theorem k0_idx433_inb : ∀ (v364 : IVec S16 32) (v400 : IVec S16 32) (k0_hw433 : k0_chk433 v364 v400), ∀ a x, ((![v400, v364] : Fin 2 → IVec S16 32) a x).toNat < S64x128.size a := fun v364 v400 k0_hw433 => k0_hw433

def k0_chk434 (v364 : IVec S16 32) (v402 : IVec S16 32) : Prop :=
  (∀ a x, ((![v402, v364] : Fin 2 → IVec S16 32) a x).toNat < S64x128.size a)
instance k0_chk434.dec : ∀ (v364 : IVec S16 32) (v402 : IVec S16 32), Decidable (k0_chk434 v364 v402) := fun v364 v402 => decidable_of_iff' _ (Iff.of_eq (k0_chk434.eq_1 v364 v402))
theorem k0_idx434_inb : ∀ (v364 : IVec S16 32) (v402 : IVec S16 32) (k0_hw434 : k0_chk434 v364 v402), ∀ a x, ((![v402, v364] : Fin 2 → IVec S16 32) a x).toNat < S64x128.size a := fun v364 v402 k0_hw434 => k0_hw434

def k0_chk435 (v364 : IVec S16 32) (v404 : IVec S16 32) : Prop :=
  (∀ a x, ((![v404, v364] : Fin 2 → IVec S16 32) a x).toNat < S64x128.size a)
instance k0_chk435.dec : ∀ (v364 : IVec S16 32) (v404 : IVec S16 32), Decidable (k0_chk435 v364 v404) := fun v364 v404 => decidable_of_iff' _ (Iff.of_eq (k0_chk435.eq_1 v364 v404))
theorem k0_idx435_inb : ∀ (v364 : IVec S16 32) (v404 : IVec S16 32) (k0_hw435 : k0_chk435 v364 v404), ∀ a x, ((![v404, v364] : Fin 2 → IVec S16 32) a x).toNat < S64x128.size a := fun v364 v404 k0_hw435 => k0_hw435

def k0_chk436 (v364 : IVec S16 32) (v406 : IVec S16 32) : Prop :=
  (∀ a x, ((![v406, v364] : Fin 2 → IVec S16 32) a x).toNat < S64x128.size a)
instance k0_chk436.dec : ∀ (v364 : IVec S16 32) (v406 : IVec S16 32), Decidable (k0_chk436 v364 v406) := fun v364 v406 => decidable_of_iff' _ (Iff.of_eq (k0_chk436.eq_1 v364 v406))
theorem k0_idx436_inb : ∀ (v364 : IVec S16 32) (v406 : IVec S16 32) (k0_hw436 : k0_chk436 v364 v406), ∀ a x, ((![v406, v364] : Fin 2 → IVec S16 32) a x).toNat < S64x128.size a := fun v364 v406 k0_hw436 => k0_hw436

def k0_chk437 (v364 : IVec S16 32) (v408 : IVec S16 32) : Prop :=
  (∀ a x, ((![v408, v364] : Fin 2 → IVec S16 32) a x).toNat < S64x128.size a)
instance k0_chk437.dec : ∀ (v364 : IVec S16 32) (v408 : IVec S16 32), Decidable (k0_chk437 v364 v408) := fun v364 v408 => decidable_of_iff' _ (Iff.of_eq (k0_chk437.eq_1 v364 v408))
theorem k0_idx437_inb : ∀ (v364 : IVec S16 32) (v408 : IVec S16 32) (k0_hw437 : k0_chk437 v364 v408), ∀ a x, ((![v408, v364] : Fin 2 → IVec S16 32) a x).toNat < S64x128.size a := fun v364 v408 k0_hw437 => k0_hw437

def k0_chk438 (v364 : IVec S16 32) (v410 : IVec S16 32) : Prop :=
  (∀ a x, ((![v410, v364] : Fin 2 → IVec S16 32) a x).toNat < S64x128.size a)
instance k0_chk438.dec : ∀ (v364 : IVec S16 32) (v410 : IVec S16 32), Decidable (k0_chk438 v364 v410) := fun v364 v410 => decidable_of_iff' _ (Iff.of_eq (k0_chk438.eq_1 v364 v410))
theorem k0_idx438_inb : ∀ (v364 : IVec S16 32) (v410 : IVec S16 32) (k0_hw438 : k0_chk438 v364 v410), ∀ a x, ((![v410, v364] : Fin 2 → IVec S16 32) a x).toNat < S64x128.size a := fun v364 v410 k0_hw438 => k0_hw438

def k0_chk439 (v364 : IVec S16 32) (v412 : IVec S16 32) : Prop :=
  (∀ a x, ((![v412, v364] : Fin 2 → IVec S16 32) a x).toNat < S64x128.size a)
instance k0_chk439.dec : ∀ (v364 : IVec S16 32) (v412 : IVec S16 32), Decidable (k0_chk439 v364 v412) := fun v364 v412 => decidable_of_iff' _ (Iff.of_eq (k0_chk439.eq_1 v364 v412))
theorem k0_idx439_inb : ∀ (v364 : IVec S16 32) (v412 : IVec S16 32) (k0_hw439 : k0_chk439 v364 v412), ∀ a x, ((![v412, v364] : Fin 2 → IVec S16 32) a x).toNat < S64x128.size a := fun v364 v412 k0_hw439 => k0_hw439

def k0_chk440 (v364 : IVec S16 32) (v414 : IVec S16 32) : Prop :=
  (∀ a x, ((![v414, v364] : Fin 2 → IVec S16 32) a x).toNat < S64x128.size a)
instance k0_chk440.dec : ∀ (v364 : IVec S16 32) (v414 : IVec S16 32), Decidable (k0_chk440 v364 v414) := fun v364 v414 => decidable_of_iff' _ (Iff.of_eq (k0_chk440.eq_1 v364 v414))
theorem k0_idx440_inb : ∀ (v364 : IVec S16 32) (v414 : IVec S16 32) (k0_hw440 : k0_chk440 v364 v414), ∀ a x, ((![v414, v364] : Fin 2 → IVec S16 32) a x).toNat < S64x128.size a := fun v364 v414 k0_hw440 => k0_hw440

def k0_chk441 (v364 : IVec S16 32) (v416 : IVec S16 32) : Prop :=
  (∀ a x, ((![v416, v364] : Fin 2 → IVec S16 32) a x).toNat < S64x128.size a)
instance k0_chk441.dec : ∀ (v364 : IVec S16 32) (v416 : IVec S16 32), Decidable (k0_chk441 v364 v416) := fun v364 v416 => decidable_of_iff' _ (Iff.of_eq (k0_chk441.eq_1 v364 v416))
theorem k0_idx441_inb : ∀ (v364 : IVec S16 32) (v416 : IVec S16 32) (k0_hw441 : k0_chk441 v364 v416), ∀ a x, ((![v416, v364] : Fin 2 → IVec S16 32) a x).toNat < S64x128.size a := fun v364 v416 k0_hw441 => k0_hw441

def k0_chk442 (v364 : IVec S16 32) (v418 : IVec S16 32) : Prop :=
  (∀ a x, ((![v418, v364] : Fin 2 → IVec S16 32) a x).toNat < S64x128.size a)
instance k0_chk442.dec : ∀ (v364 : IVec S16 32) (v418 : IVec S16 32), Decidable (k0_chk442 v364 v418) := fun v364 v418 => decidable_of_iff' _ (Iff.of_eq (k0_chk442.eq_1 v364 v418))
theorem k0_idx442_inb : ∀ (v364 : IVec S16 32) (v418 : IVec S16 32) (k0_hw442 : k0_chk442 v364 v418), ∀ a x, ((![v418, v364] : Fin 2 → IVec S16 32) a x).toNat < S64x128.size a := fun v364 v418 k0_hw442 => k0_hw442

def k0_chk443 (v364 : IVec S16 32) (v420 : IVec S16 32) : Prop :=
  (∀ a x, ((![v420, v364] : Fin 2 → IVec S16 32) a x).toNat < S64x128.size a)
instance k0_chk443.dec : ∀ (v364 : IVec S16 32) (v420 : IVec S16 32), Decidable (k0_chk443 v364 v420) := fun v364 v420 => decidable_of_iff' _ (Iff.of_eq (k0_chk443.eq_1 v364 v420))
theorem k0_idx443_inb : ∀ (v364 : IVec S16 32) (v420 : IVec S16 32) (k0_hw443 : k0_chk443 v364 v420), ∀ a x, ((![v420, v364] : Fin 2 → IVec S16 32) a x).toNat < S64x128.size a := fun v364 v420 k0_hw443 => k0_hw443

def k0_chk444 (v364 : IVec S16 32) (v422 : IVec S16 32) : Prop :=
  (∀ a x, ((![v422, v364] : Fin 2 → IVec S16 32) a x).toNat < S64x128.size a)
instance k0_chk444.dec : ∀ (v364 : IVec S16 32) (v422 : IVec S16 32), Decidable (k0_chk444 v364 v422) := fun v364 v422 => decidable_of_iff' _ (Iff.of_eq (k0_chk444.eq_1 v364 v422))
theorem k0_idx444_inb : ∀ (v364 : IVec S16 32) (v422 : IVec S16 32) (k0_hw444 : k0_chk444 v364 v422), ∀ a x, ((![v422, v364] : Fin 2 → IVec S16 32) a x).toNat < S64x128.size a := fun v364 v422 k0_hw444 => k0_hw444

def k0_chk445 (v364 : IVec S16 32) (v424 : IVec S16 32) : Prop :=
  (∀ a x, ((![v424, v364] : Fin 2 → IVec S16 32) a x).toNat < S64x128.size a)
instance k0_chk445.dec : ∀ (v364 : IVec S16 32) (v424 : IVec S16 32), Decidable (k0_chk445 v364 v424) := fun v364 v424 => decidable_of_iff' _ (Iff.of_eq (k0_chk445.eq_1 v364 v424))
theorem k0_idx445_inb : ∀ (v364 : IVec S16 32) (v424 : IVec S16 32) (k0_hw445 : k0_chk445 v364 v424), ∀ a x, ((![v424, v364] : Fin 2 → IVec S16 32) a x).toNat < S64x128.size a := fun v364 v424 k0_hw445 => k0_hw445

def k0_chk446 (v364 : IVec S16 32) (v426 : IVec S16 32) : Prop :=
  (∀ a x, ((![v426, v364] : Fin 2 → IVec S16 32) a x).toNat < S64x128.size a)
instance k0_chk446.dec : ∀ (v364 : IVec S16 32) (v426 : IVec S16 32), Decidable (k0_chk446 v364 v426) := fun v364 v426 => decidable_of_iff' _ (Iff.of_eq (k0_chk446.eq_1 v364 v426))
theorem k0_idx446_inb : ∀ (v364 : IVec S16 32) (v426 : IVec S16 32) (k0_hw446 : k0_chk446 v364 v426), ∀ a x, ((![v426, v364] : Fin 2 → IVec S16 32) a x).toNat < S64x128.size a := fun v364 v426 k0_hw446 => k0_hw446

def k0_chk447 (v364 : IVec S16 32) (v428 : IVec S16 32) : Prop :=
  (∀ a x, ((![v428, v364] : Fin 2 → IVec S16 32) a x).toNat < S64x128.size a)
instance k0_chk447.dec : ∀ (v364 : IVec S16 32) (v428 : IVec S16 32), Decidable (k0_chk447 v364 v428) := fun v364 v428 => decidable_of_iff' _ (Iff.of_eq (k0_chk447.eq_1 v364 v428))
theorem k0_idx447_inb : ∀ (v364 : IVec S16 32) (v428 : IVec S16 32) (k0_hw447 : k0_chk447 v364 v428), ∀ a x, ((![v428, v364] : Fin 2 → IVec S16 32) a x).toNat < S64x128.size a := fun v364 v428 k0_hw447 => k0_hw447

def k0_chk448 (v364 : IVec S16 32) (v430 : IVec S16 32) : Prop :=
  (∀ a x, ((![v430, v364] : Fin 2 → IVec S16 32) a x).toNat < S64x128.size a)
instance k0_chk448.dec : ∀ (v364 : IVec S16 32) (v430 : IVec S16 32), Decidable (k0_chk448 v364 v430) := fun v364 v430 => decidable_of_iff' _ (Iff.of_eq (k0_chk448.eq_1 v364 v430))
theorem k0_idx448_inb : ∀ (v364 : IVec S16 32) (v430 : IVec S16 32) (k0_hw448 : k0_chk448 v364 v430), ∀ a x, ((![v430, v364] : Fin 2 → IVec S16 32) a x).toNat < S64x128.size a := fun v364 v430 k0_hw448 => k0_hw448

def k0_chk449 (v364 : IVec S16 32) (v433 : IVec S16 32) : Prop :=
  (∀ a x, ((![v364, v433] : Fin 2 → IVec S16 32) a x).toNat < S128x128.size a)
instance k0_chk449.dec : ∀ (v364 : IVec S16 32) (v433 : IVec S16 32), Decidable (k0_chk449 v364 v433) := fun v364 v433 => decidable_of_iff' _ (Iff.of_eq (k0_chk449.eq_1 v364 v433))
theorem k0_idx449_inb : ∀ (v364 : IVec S16 32) (v433 : IVec S16 32) (k0_hw449 : k0_chk449 v364 v433), ∀ a x, ((![v364, v433] : Fin 2 → IVec S16 32) a x).toNat < S128x128.size a := fun v364 v433 k0_hw449 => k0_hw449

def k0_chk450 (v364 : IVec S16 32) (v435 : IVec S16 32) : Prop :=
  (∀ a x, ((![v364, v435] : Fin 2 → IVec S16 32) a x).toNat < S128x128.size a)
instance k0_chk450.dec : ∀ (v364 : IVec S16 32) (v435 : IVec S16 32), Decidable (k0_chk450 v364 v435) := fun v364 v435 => decidable_of_iff' _ (Iff.of_eq (k0_chk450.eq_1 v364 v435))
theorem k0_idx450_inb : ∀ (v364 : IVec S16 32) (v435 : IVec S16 32) (k0_hw450 : k0_chk450 v364 v435), ∀ a x, ((![v364, v435] : Fin 2 → IVec S16 32) a x).toNat < S128x128.size a := fun v364 v435 k0_hw450 => k0_hw450

def k0_chk451 (v364 : IVec S16 32) (v437 : IVec S16 32) : Prop :=
  (∀ a x, ((![v364, v437] : Fin 2 → IVec S16 32) a x).toNat < S128x128.size a)
instance k0_chk451.dec : ∀ (v364 : IVec S16 32) (v437 : IVec S16 32), Decidable (k0_chk451 v364 v437) := fun v364 v437 => decidable_of_iff' _ (Iff.of_eq (k0_chk451.eq_1 v364 v437))
theorem k0_idx451_inb : ∀ (v364 : IVec S16 32) (v437 : IVec S16 32) (k0_hw451 : k0_chk451 v364 v437), ∀ a x, ((![v364, v437] : Fin 2 → IVec S16 32) a x).toNat < S128x128.size a := fun v364 v437 k0_hw451 => k0_hw451

def k0_chk452 (v364 : IVec S16 32) (v439 : IVec S16 32) : Prop :=
  (∀ a x, ((![v364, v439] : Fin 2 → IVec S16 32) a x).toNat < S128x128.size a)
instance k0_chk452.dec : ∀ (v364 : IVec S16 32) (v439 : IVec S16 32), Decidable (k0_chk452 v364 v439) := fun v364 v439 => decidable_of_iff' _ (Iff.of_eq (k0_chk452.eq_1 v364 v439))
theorem k0_idx452_inb : ∀ (v364 : IVec S16 32) (v439 : IVec S16 32) (k0_hw452 : k0_chk452 v364 v439), ∀ a x, ((![v364, v439] : Fin 2 → IVec S16 32) a x).toNat < S128x128.size a := fun v364 v439 k0_hw452 => k0_hw452

def k0_chk453 (v364 : IVec S16 32) (v441 : IVec S16 32) : Prop :=
  (∀ a x, ((![v364, v441] : Fin 2 → IVec S16 32) a x).toNat < S128x128.size a)
instance k0_chk453.dec : ∀ (v364 : IVec S16 32) (v441 : IVec S16 32), Decidable (k0_chk453 v364 v441) := fun v364 v441 => decidable_of_iff' _ (Iff.of_eq (k0_chk453.eq_1 v364 v441))
theorem k0_idx453_inb : ∀ (v364 : IVec S16 32) (v441 : IVec S16 32) (k0_hw453 : k0_chk453 v364 v441), ∀ a x, ((![v364, v441] : Fin 2 → IVec S16 32) a x).toNat < S128x128.size a := fun v364 v441 k0_hw453 => k0_hw453

def k0_chk454 (v364 : IVec S16 32) (v443 : IVec S16 32) : Prop :=
  (∀ a x, ((![v364, v443] : Fin 2 → IVec S16 32) a x).toNat < S128x128.size a)
instance k0_chk454.dec : ∀ (v364 : IVec S16 32) (v443 : IVec S16 32), Decidable (k0_chk454 v364 v443) := fun v364 v443 => decidable_of_iff' _ (Iff.of_eq (k0_chk454.eq_1 v364 v443))
theorem k0_idx454_inb : ∀ (v364 : IVec S16 32) (v443 : IVec S16 32) (k0_hw454 : k0_chk454 v364 v443), ∀ a x, ((![v364, v443] : Fin 2 → IVec S16 32) a x).toNat < S128x128.size a := fun v364 v443 k0_hw454 => k0_hw454

def k0_chk455 (v364 : IVec S16 32) (v445 : IVec S16 32) : Prop :=
  (∀ a x, ((![v364, v445] : Fin 2 → IVec S16 32) a x).toNat < S128x128.size a)
instance k0_chk455.dec : ∀ (v364 : IVec S16 32) (v445 : IVec S16 32), Decidable (k0_chk455 v364 v445) := fun v364 v445 => decidable_of_iff' _ (Iff.of_eq (k0_chk455.eq_1 v364 v445))
theorem k0_idx455_inb : ∀ (v364 : IVec S16 32) (v445 : IVec S16 32) (k0_hw455 : k0_chk455 v364 v445), ∀ a x, ((![v364, v445] : Fin 2 → IVec S16 32) a x).toNat < S128x128.size a := fun v364 v445 k0_hw455 => k0_hw455

def k0_chk456 (v364 : IVec S16 32) (v447 : IVec S16 32) : Prop :=
  (∀ a x, ((![v364, v447] : Fin 2 → IVec S16 32) a x).toNat < S128x128.size a)
instance k0_chk456.dec : ∀ (v364 : IVec S16 32) (v447 : IVec S16 32), Decidable (k0_chk456 v364 v447) := fun v364 v447 => decidable_of_iff' _ (Iff.of_eq (k0_chk456.eq_1 v364 v447))
theorem k0_idx456_inb : ∀ (v364 : IVec S16 32) (v447 : IVec S16 32) (k0_hw456 : k0_chk456 v364 v447), ∀ a x, ((![v364, v447] : Fin 2 → IVec S16 32) a x).toNat < S128x128.size a := fun v364 v447 k0_hw456 => k0_hw456

def k0_chk457 (v364 : IVec S16 32) (v449 : IVec S16 32) : Prop :=
  (∀ a x, ((![v364, v449] : Fin 2 → IVec S16 32) a x).toNat < S128x128.size a)
instance k0_chk457.dec : ∀ (v364 : IVec S16 32) (v449 : IVec S16 32), Decidable (k0_chk457 v364 v449) := fun v364 v449 => decidable_of_iff' _ (Iff.of_eq (k0_chk457.eq_1 v364 v449))
theorem k0_idx457_inb : ∀ (v364 : IVec S16 32) (v449 : IVec S16 32) (k0_hw457 : k0_chk457 v364 v449), ∀ a x, ((![v364, v449] : Fin 2 → IVec S16 32) a x).toNat < S128x128.size a := fun v364 v449 k0_hw457 => k0_hw457

def k0_chk458 (v364 : IVec S16 32) (v451 : IVec S16 32) : Prop :=
  (∀ a x, ((![v364, v451] : Fin 2 → IVec S16 32) a x).toNat < S128x128.size a)
instance k0_chk458.dec : ∀ (v364 : IVec S16 32) (v451 : IVec S16 32), Decidable (k0_chk458 v364 v451) := fun v364 v451 => decidable_of_iff' _ (Iff.of_eq (k0_chk458.eq_1 v364 v451))
theorem k0_idx458_inb : ∀ (v364 : IVec S16 32) (v451 : IVec S16 32) (k0_hw458 : k0_chk458 v364 v451), ∀ a x, ((![v364, v451] : Fin 2 → IVec S16 32) a x).toNat < S128x128.size a := fun v364 v451 k0_hw458 => k0_hw458

def k0_chk459 (v364 : IVec S16 32) (v453 : IVec S16 32) : Prop :=
  (∀ a x, ((![v364, v453] : Fin 2 → IVec S16 32) a x).toNat < S128x128.size a)
instance k0_chk459.dec : ∀ (v364 : IVec S16 32) (v453 : IVec S16 32), Decidable (k0_chk459 v364 v453) := fun v364 v453 => decidable_of_iff' _ (Iff.of_eq (k0_chk459.eq_1 v364 v453))
theorem k0_idx459_inb : ∀ (v364 : IVec S16 32) (v453 : IVec S16 32) (k0_hw459 : k0_chk459 v364 v453), ∀ a x, ((![v364, v453] : Fin 2 → IVec S16 32) a x).toNat < S128x128.size a := fun v364 v453 k0_hw459 => k0_hw459

def k0_chk460 (v364 : IVec S16 32) (v455 : IVec S16 32) : Prop :=
  (∀ a x, ((![v364, v455] : Fin 2 → IVec S16 32) a x).toNat < S128x128.size a)
instance k0_chk460.dec : ∀ (v364 : IVec S16 32) (v455 : IVec S16 32), Decidable (k0_chk460 v364 v455) := fun v364 v455 => decidable_of_iff' _ (Iff.of_eq (k0_chk460.eq_1 v364 v455))
theorem k0_idx460_inb : ∀ (v364 : IVec S16 32) (v455 : IVec S16 32) (k0_hw460 : k0_chk460 v364 v455), ∀ a x, ((![v364, v455] : Fin 2 → IVec S16 32) a x).toNat < S128x128.size a := fun v364 v455 k0_hw460 => k0_hw460

def k0_chk461 (v364 : IVec S16 32) (v457 : IVec S16 32) : Prop :=
  (∀ a x, ((![v364, v457] : Fin 2 → IVec S16 32) a x).toNat < S128x128.size a)
instance k0_chk461.dec : ∀ (v364 : IVec S16 32) (v457 : IVec S16 32), Decidable (k0_chk461 v364 v457) := fun v364 v457 => decidable_of_iff' _ (Iff.of_eq (k0_chk461.eq_1 v364 v457))
theorem k0_idx461_inb : ∀ (v364 : IVec S16 32) (v457 : IVec S16 32) (k0_hw461 : k0_chk461 v364 v457), ∀ a x, ((![v364, v457] : Fin 2 → IVec S16 32) a x).toNat < S128x128.size a := fun v364 v457 k0_hw461 => k0_hw461

def k0_chk462 (v364 : IVec S16 32) (v459 : IVec S16 32) : Prop :=
  (∀ a x, ((![v364, v459] : Fin 2 → IVec S16 32) a x).toNat < S128x128.size a)
instance k0_chk462.dec : ∀ (v364 : IVec S16 32) (v459 : IVec S16 32), Decidable (k0_chk462 v364 v459) := fun v364 v459 => decidable_of_iff' _ (Iff.of_eq (k0_chk462.eq_1 v364 v459))
theorem k0_idx462_inb : ∀ (v364 : IVec S16 32) (v459 : IVec S16 32) (k0_hw462 : k0_chk462 v364 v459), ∀ a x, ((![v364, v459] : Fin 2 → IVec S16 32) a x).toNat < S128x128.size a := fun v364 v459 k0_hw462 => k0_hw462

def k0_chk463 (v364 : IVec S16 32) (v461 : IVec S16 32) : Prop :=
  (∀ a x, ((![v364, v461] : Fin 2 → IVec S16 32) a x).toNat < S128x128.size a)
instance k0_chk463.dec : ∀ (v364 : IVec S16 32) (v461 : IVec S16 32), Decidable (k0_chk463 v364 v461) := fun v364 v461 => decidable_of_iff' _ (Iff.of_eq (k0_chk463.eq_1 v364 v461))
theorem k0_idx463_inb : ∀ (v364 : IVec S16 32) (v461 : IVec S16 32) (k0_hw463 : k0_chk463 v364 v461), ∀ a x, ((![v364, v461] : Fin 2 → IVec S16 32) a x).toNat < S128x128.size a := fun v364 v461 k0_hw463 => k0_hw463

def k0_chk464 (v364 : IVec S16 32) (v463 : IVec S16 32) : Prop :=
  (∀ a x, ((![v364, v463] : Fin 2 → IVec S16 32) a x).toNat < S128x128.size a)
instance k0_chk464.dec : ∀ (v364 : IVec S16 32) (v463 : IVec S16 32), Decidable (k0_chk464 v364 v463) := fun v364 v463 => decidable_of_iff' _ (Iff.of_eq (k0_chk464.eq_1 v364 v463))
theorem k0_idx464_inb : ∀ (v364 : IVec S16 32) (v463 : IVec S16 32) (k0_hw464 : k0_chk464 v364 v463), ∀ a x, ((![v364, v463] : Fin 2 → IVec S16 32) a x).toNat < S128x128.size a := fun v364 v463 k0_hw464 => k0_hw464

def k0_chk465 (v364 : IVec S16 32) (v466 : IVec S16 32) : Prop :=
  (∀ a x, ((![v466, v364] : Fin 2 → IVec S16 32) a x).toNat < S64x128.size a)
instance k0_chk465.dec : ∀ (v364 : IVec S16 32) (v466 : IVec S16 32), Decidable (k0_chk465 v364 v466) := fun v364 v466 => decidable_of_iff' _ (Iff.of_eq (k0_chk465.eq_1 v364 v466))
theorem k0_idx465_inb : ∀ (v364 : IVec S16 32) (v466 : IVec S16 32) (k0_hw465 : k0_chk465 v364 v466), ∀ a x, ((![v466, v364] : Fin 2 → IVec S16 32) a x).toNat < S64x128.size a := fun v364 v466 k0_hw465 => k0_hw465

def k0_chk466 (v364 : IVec S16 32) (v468 : IVec S16 32) : Prop :=
  (∀ a x, ((![v468, v364] : Fin 2 → IVec S16 32) a x).toNat < S64x128.size a)
instance k0_chk466.dec : ∀ (v364 : IVec S16 32) (v468 : IVec S16 32), Decidable (k0_chk466 v364 v468) := fun v364 v468 => decidable_of_iff' _ (Iff.of_eq (k0_chk466.eq_1 v364 v468))
theorem k0_idx466_inb : ∀ (v364 : IVec S16 32) (v468 : IVec S16 32) (k0_hw466 : k0_chk466 v364 v468), ∀ a x, ((![v468, v364] : Fin 2 → IVec S16 32) a x).toNat < S64x128.size a := fun v364 v468 k0_hw466 => k0_hw466

def k0_chk467 (v364 : IVec S16 32) (v470 : IVec S16 32) : Prop :=
  (∀ a x, ((![v470, v364] : Fin 2 → IVec S16 32) a x).toNat < S64x128.size a)
instance k0_chk467.dec : ∀ (v364 : IVec S16 32) (v470 : IVec S16 32), Decidable (k0_chk467 v364 v470) := fun v364 v470 => decidable_of_iff' _ (Iff.of_eq (k0_chk467.eq_1 v364 v470))
theorem k0_idx467_inb : ∀ (v364 : IVec S16 32) (v470 : IVec S16 32) (k0_hw467 : k0_chk467 v364 v470), ∀ a x, ((![v470, v364] : Fin 2 → IVec S16 32) a x).toNat < S64x128.size a := fun v364 v470 k0_hw467 => k0_hw467

def k0_chk468 (v364 : IVec S16 32) (v472 : IVec S16 32) : Prop :=
  (∀ a x, ((![v472, v364] : Fin 2 → IVec S16 32) a x).toNat < S64x128.size a)
instance k0_chk468.dec : ∀ (v364 : IVec S16 32) (v472 : IVec S16 32), Decidable (k0_chk468 v364 v472) := fun v364 v472 => decidable_of_iff' _ (Iff.of_eq (k0_chk468.eq_1 v364 v472))
theorem k0_idx468_inb : ∀ (v364 : IVec S16 32) (v472 : IVec S16 32) (k0_hw468 : k0_chk468 v364 v472), ∀ a x, ((![v472, v364] : Fin 2 → IVec S16 32) a x).toNat < S64x128.size a := fun v364 v472 k0_hw468 => k0_hw468

def k0_chk469 (v364 : IVec S16 32) (v474 : IVec S16 32) : Prop :=
  (∀ a x, ((![v474, v364] : Fin 2 → IVec S16 32) a x).toNat < S64x128.size a)
instance k0_chk469.dec : ∀ (v364 : IVec S16 32) (v474 : IVec S16 32), Decidable (k0_chk469 v364 v474) := fun v364 v474 => decidable_of_iff' _ (Iff.of_eq (k0_chk469.eq_1 v364 v474))
theorem k0_idx469_inb : ∀ (v364 : IVec S16 32) (v474 : IVec S16 32) (k0_hw469 : k0_chk469 v364 v474), ∀ a x, ((![v474, v364] : Fin 2 → IVec S16 32) a x).toNat < S64x128.size a := fun v364 v474 k0_hw469 => k0_hw469

def k0_chk470 (v364 : IVec S16 32) (v476 : IVec S16 32) : Prop :=
  (∀ a x, ((![v476, v364] : Fin 2 → IVec S16 32) a x).toNat < S64x128.size a)
instance k0_chk470.dec : ∀ (v364 : IVec S16 32) (v476 : IVec S16 32), Decidable (k0_chk470 v364 v476) := fun v364 v476 => decidable_of_iff' _ (Iff.of_eq (k0_chk470.eq_1 v364 v476))
theorem k0_idx470_inb : ∀ (v364 : IVec S16 32) (v476 : IVec S16 32) (k0_hw470 : k0_chk470 v364 v476), ∀ a x, ((![v476, v364] : Fin 2 → IVec S16 32) a x).toNat < S64x128.size a := fun v364 v476 k0_hw470 => k0_hw470

def k0_chk471 (v364 : IVec S16 32) (v478 : IVec S16 32) : Prop :=
  (∀ a x, ((![v478, v364] : Fin 2 → IVec S16 32) a x).toNat < S64x128.size a)
instance k0_chk471.dec : ∀ (v364 : IVec S16 32) (v478 : IVec S16 32), Decidable (k0_chk471 v364 v478) := fun v364 v478 => decidable_of_iff' _ (Iff.of_eq (k0_chk471.eq_1 v364 v478))
theorem k0_idx471_inb : ∀ (v364 : IVec S16 32) (v478 : IVec S16 32) (k0_hw471 : k0_chk471 v364 v478), ∀ a x, ((![v478, v364] : Fin 2 → IVec S16 32) a x).toNat < S64x128.size a := fun v364 v478 k0_hw471 => k0_hw471

def k0_chk472 (v364 : IVec S16 32) (v480 : IVec S16 32) : Prop :=
  (∀ a x, ((![v480, v364] : Fin 2 → IVec S16 32) a x).toNat < S64x128.size a)
instance k0_chk472.dec : ∀ (v364 : IVec S16 32) (v480 : IVec S16 32), Decidable (k0_chk472 v364 v480) := fun v364 v480 => decidable_of_iff' _ (Iff.of_eq (k0_chk472.eq_1 v364 v480))
theorem k0_idx472_inb : ∀ (v364 : IVec S16 32) (v480 : IVec S16 32) (k0_hw472 : k0_chk472 v364 v480), ∀ a x, ((![v480, v364] : Fin 2 → IVec S16 32) a x).toNat < S64x128.size a := fun v364 v480 k0_hw472 => k0_hw472

def k0_chk473 (v364 : IVec S16 32) (v482 : IVec S16 32) : Prop :=
  (∀ a x, ((![v482, v364] : Fin 2 → IVec S16 32) a x).toNat < S64x128.size a)
instance k0_chk473.dec : ∀ (v364 : IVec S16 32) (v482 : IVec S16 32), Decidable (k0_chk473 v364 v482) := fun v364 v482 => decidable_of_iff' _ (Iff.of_eq (k0_chk473.eq_1 v364 v482))
theorem k0_idx473_inb : ∀ (v364 : IVec S16 32) (v482 : IVec S16 32) (k0_hw473 : k0_chk473 v364 v482), ∀ a x, ((![v482, v364] : Fin 2 → IVec S16 32) a x).toNat < S64x128.size a := fun v364 v482 k0_hw473 => k0_hw473

def k0_chk474 (v364 : IVec S16 32) (v484 : IVec S16 32) : Prop :=
  (∀ a x, ((![v484, v364] : Fin 2 → IVec S16 32) a x).toNat < S64x128.size a)
instance k0_chk474.dec : ∀ (v364 : IVec S16 32) (v484 : IVec S16 32), Decidable (k0_chk474 v364 v484) := fun v364 v484 => decidable_of_iff' _ (Iff.of_eq (k0_chk474.eq_1 v364 v484))
theorem k0_idx474_inb : ∀ (v364 : IVec S16 32) (v484 : IVec S16 32) (k0_hw474 : k0_chk474 v364 v484), ∀ a x, ((![v484, v364] : Fin 2 → IVec S16 32) a x).toNat < S64x128.size a := fun v364 v484 k0_hw474 => k0_hw474

def k0_chk475 (v364 : IVec S16 32) (v486 : IVec S16 32) : Prop :=
  (∀ a x, ((![v486, v364] : Fin 2 → IVec S16 32) a x).toNat < S64x128.size a)
instance k0_chk475.dec : ∀ (v364 : IVec S16 32) (v486 : IVec S16 32), Decidable (k0_chk475 v364 v486) := fun v364 v486 => decidable_of_iff' _ (Iff.of_eq (k0_chk475.eq_1 v364 v486))
theorem k0_idx475_inb : ∀ (v364 : IVec S16 32) (v486 : IVec S16 32) (k0_hw475 : k0_chk475 v364 v486), ∀ a x, ((![v486, v364] : Fin 2 → IVec S16 32) a x).toNat < S64x128.size a := fun v364 v486 k0_hw475 => k0_hw475

def k0_chk476 (v364 : IVec S16 32) (v488 : IVec S16 32) : Prop :=
  (∀ a x, ((![v488, v364] : Fin 2 → IVec S16 32) a x).toNat < S64x128.size a)
instance k0_chk476.dec : ∀ (v364 : IVec S16 32) (v488 : IVec S16 32), Decidable (k0_chk476 v364 v488) := fun v364 v488 => decidable_of_iff' _ (Iff.of_eq (k0_chk476.eq_1 v364 v488))
theorem k0_idx476_inb : ∀ (v364 : IVec S16 32) (v488 : IVec S16 32) (k0_hw476 : k0_chk476 v364 v488), ∀ a x, ((![v488, v364] : Fin 2 → IVec S16 32) a x).toNat < S64x128.size a := fun v364 v488 k0_hw476 => k0_hw476

def k0_chk477 (v364 : IVec S16 32) (v490 : IVec S16 32) : Prop :=
  (∀ a x, ((![v490, v364] : Fin 2 → IVec S16 32) a x).toNat < S64x128.size a)
instance k0_chk477.dec : ∀ (v364 : IVec S16 32) (v490 : IVec S16 32), Decidable (k0_chk477 v364 v490) := fun v364 v490 => decidable_of_iff' _ (Iff.of_eq (k0_chk477.eq_1 v364 v490))
theorem k0_idx477_inb : ∀ (v364 : IVec S16 32) (v490 : IVec S16 32) (k0_hw477 : k0_chk477 v364 v490), ∀ a x, ((![v490, v364] : Fin 2 → IVec S16 32) a x).toNat < S64x128.size a := fun v364 v490 k0_hw477 => k0_hw477

def k0_chk478 (v364 : IVec S16 32) (v492 : IVec S16 32) : Prop :=
  (∀ a x, ((![v492, v364] : Fin 2 → IVec S16 32) a x).toNat < S64x128.size a)
instance k0_chk478.dec : ∀ (v364 : IVec S16 32) (v492 : IVec S16 32), Decidable (k0_chk478 v364 v492) := fun v364 v492 => decidable_of_iff' _ (Iff.of_eq (k0_chk478.eq_1 v364 v492))
theorem k0_idx478_inb : ∀ (v364 : IVec S16 32) (v492 : IVec S16 32) (k0_hw478 : k0_chk478 v364 v492), ∀ a x, ((![v492, v364] : Fin 2 → IVec S16 32) a x).toNat < S64x128.size a := fun v364 v492 k0_hw478 => k0_hw478

def k0_chk479 (v364 : IVec S16 32) (v494 : IVec S16 32) : Prop :=
  (∀ a x, ((![v494, v364] : Fin 2 → IVec S16 32) a x).toNat < S64x128.size a)
instance k0_chk479.dec : ∀ (v364 : IVec S16 32) (v494 : IVec S16 32), Decidable (k0_chk479 v364 v494) := fun v364 v494 => decidable_of_iff' _ (Iff.of_eq (k0_chk479.eq_1 v364 v494))
theorem k0_idx479_inb : ∀ (v364 : IVec S16 32) (v494 : IVec S16 32) (k0_hw479 : k0_chk479 v364 v494), ∀ a x, ((![v494, v364] : Fin 2 → IVec S16 32) a x).toNat < S64x128.size a := fun v364 v494 k0_hw479 => k0_hw479

def k0_chk480 (v364 : IVec S16 32) (v496 : IVec S16 32) : Prop :=
  (∀ a x, ((![v496, v364] : Fin 2 → IVec S16 32) a x).toNat < S64x128.size a)
instance k0_chk480.dec : ∀ (v364 : IVec S16 32) (v496 : IVec S16 32), Decidable (k0_chk480 v364 v496) := fun v364 v496 => decidable_of_iff' _ (Iff.of_eq (k0_chk480.eq_1 v364 v496))
theorem k0_idx480_inb : ∀ (v364 : IVec S16 32) (v496 : IVec S16 32) (k0_hw480 : k0_chk480 v364 v496), ∀ a x, ((![v496, v364] : Fin 2 → IVec S16 32) a x).toNat < S64x128.size a := fun v364 v496 k0_hw480 => k0_hw480

def k0_chk481 (v364 : IVec S16 32) (v499 : IVec S16 32) : Prop :=
  (∀ a x, ((![v364, v499] : Fin 2 → IVec S16 32) a x).toNat < S128x128.size a)
instance k0_chk481.dec : ∀ (v364 : IVec S16 32) (v499 : IVec S16 32), Decidable (k0_chk481 v364 v499) := fun v364 v499 => decidable_of_iff' _ (Iff.of_eq (k0_chk481.eq_1 v364 v499))
theorem k0_idx481_inb : ∀ (v364 : IVec S16 32) (v499 : IVec S16 32) (k0_hw481 : k0_chk481 v364 v499), ∀ a x, ((![v364, v499] : Fin 2 → IVec S16 32) a x).toNat < S128x128.size a := fun v364 v499 k0_hw481 => k0_hw481

def k0_chk482 (v364 : IVec S16 32) (v501 : IVec S16 32) : Prop :=
  (∀ a x, ((![v364, v501] : Fin 2 → IVec S16 32) a x).toNat < S128x128.size a)
instance k0_chk482.dec : ∀ (v364 : IVec S16 32) (v501 : IVec S16 32), Decidable (k0_chk482 v364 v501) := fun v364 v501 => decidable_of_iff' _ (Iff.of_eq (k0_chk482.eq_1 v364 v501))
theorem k0_idx482_inb : ∀ (v364 : IVec S16 32) (v501 : IVec S16 32) (k0_hw482 : k0_chk482 v364 v501), ∀ a x, ((![v364, v501] : Fin 2 → IVec S16 32) a x).toNat < S128x128.size a := fun v364 v501 k0_hw482 => k0_hw482

def k0_chk483 (v364 : IVec S16 32) (v503 : IVec S16 32) : Prop :=
  (∀ a x, ((![v364, v503] : Fin 2 → IVec S16 32) a x).toNat < S128x128.size a)
instance k0_chk483.dec : ∀ (v364 : IVec S16 32) (v503 : IVec S16 32), Decidable (k0_chk483 v364 v503) := fun v364 v503 => decidable_of_iff' _ (Iff.of_eq (k0_chk483.eq_1 v364 v503))
theorem k0_idx483_inb : ∀ (v364 : IVec S16 32) (v503 : IVec S16 32) (k0_hw483 : k0_chk483 v364 v503), ∀ a x, ((![v364, v503] : Fin 2 → IVec S16 32) a x).toNat < S128x128.size a := fun v364 v503 k0_hw483 => k0_hw483

def k0_chk484 (v364 : IVec S16 32) (v505 : IVec S16 32) : Prop :=
  (∀ a x, ((![v364, v505] : Fin 2 → IVec S16 32) a x).toNat < S128x128.size a)
instance k0_chk484.dec : ∀ (v364 : IVec S16 32) (v505 : IVec S16 32), Decidable (k0_chk484 v364 v505) := fun v364 v505 => decidable_of_iff' _ (Iff.of_eq (k0_chk484.eq_1 v364 v505))
theorem k0_idx484_inb : ∀ (v364 : IVec S16 32) (v505 : IVec S16 32) (k0_hw484 : k0_chk484 v364 v505), ∀ a x, ((![v364, v505] : Fin 2 → IVec S16 32) a x).toNat < S128x128.size a := fun v364 v505 k0_hw484 => k0_hw484

def k0_chk485 (v364 : IVec S16 32) (v507 : IVec S16 32) : Prop :=
  (∀ a x, ((![v364, v507] : Fin 2 → IVec S16 32) a x).toNat < S128x128.size a)
instance k0_chk485.dec : ∀ (v364 : IVec S16 32) (v507 : IVec S16 32), Decidable (k0_chk485 v364 v507) := fun v364 v507 => decidable_of_iff' _ (Iff.of_eq (k0_chk485.eq_1 v364 v507))
theorem k0_idx485_inb : ∀ (v364 : IVec S16 32) (v507 : IVec S16 32) (k0_hw485 : k0_chk485 v364 v507), ∀ a x, ((![v364, v507] : Fin 2 → IVec S16 32) a x).toNat < S128x128.size a := fun v364 v507 k0_hw485 => k0_hw485

def k0_chk486 (v364 : IVec S16 32) (v509 : IVec S16 32) : Prop :=
  (∀ a x, ((![v364, v509] : Fin 2 → IVec S16 32) a x).toNat < S128x128.size a)
instance k0_chk486.dec : ∀ (v364 : IVec S16 32) (v509 : IVec S16 32), Decidable (k0_chk486 v364 v509) := fun v364 v509 => decidable_of_iff' _ (Iff.of_eq (k0_chk486.eq_1 v364 v509))
theorem k0_idx486_inb : ∀ (v364 : IVec S16 32) (v509 : IVec S16 32) (k0_hw486 : k0_chk486 v364 v509), ∀ a x, ((![v364, v509] : Fin 2 → IVec S16 32) a x).toNat < S128x128.size a := fun v364 v509 k0_hw486 => k0_hw486

def k0_chk487 (v364 : IVec S16 32) (v511 : IVec S16 32) : Prop :=
  (∀ a x, ((![v364, v511] : Fin 2 → IVec S16 32) a x).toNat < S128x128.size a)
instance k0_chk487.dec : ∀ (v364 : IVec S16 32) (v511 : IVec S16 32), Decidable (k0_chk487 v364 v511) := fun v364 v511 => decidable_of_iff' _ (Iff.of_eq (k0_chk487.eq_1 v364 v511))
theorem k0_idx487_inb : ∀ (v364 : IVec S16 32) (v511 : IVec S16 32) (k0_hw487 : k0_chk487 v364 v511), ∀ a x, ((![v364, v511] : Fin 2 → IVec S16 32) a x).toNat < S128x128.size a := fun v364 v511 k0_hw487 => k0_hw487

def k0_chk488 (v364 : IVec S16 32) (v513 : IVec S16 32) : Prop :=
  (∀ a x, ((![v364, v513] : Fin 2 → IVec S16 32) a x).toNat < S128x128.size a)
instance k0_chk488.dec : ∀ (v364 : IVec S16 32) (v513 : IVec S16 32), Decidable (k0_chk488 v364 v513) := fun v364 v513 => decidable_of_iff' _ (Iff.of_eq (k0_chk488.eq_1 v364 v513))
theorem k0_idx488_inb : ∀ (v364 : IVec S16 32) (v513 : IVec S16 32) (k0_hw488 : k0_chk488 v364 v513), ∀ a x, ((![v364, v513] : Fin 2 → IVec S16 32) a x).toNat < S128x128.size a := fun v364 v513 k0_hw488 => k0_hw488

def k0_chk489 (v364 : IVec S16 32) (v515 : IVec S16 32) : Prop :=
  (∀ a x, ((![v364, v515] : Fin 2 → IVec S16 32) a x).toNat < S128x128.size a)
instance k0_chk489.dec : ∀ (v364 : IVec S16 32) (v515 : IVec S16 32), Decidable (k0_chk489 v364 v515) := fun v364 v515 => decidable_of_iff' _ (Iff.of_eq (k0_chk489.eq_1 v364 v515))
theorem k0_idx489_inb : ∀ (v364 : IVec S16 32) (v515 : IVec S16 32) (k0_hw489 : k0_chk489 v364 v515), ∀ a x, ((![v364, v515] : Fin 2 → IVec S16 32) a x).toNat < S128x128.size a := fun v364 v515 k0_hw489 => k0_hw489

def k0_chk490 (v364 : IVec S16 32) (v517 : IVec S16 32) : Prop :=
  (∀ a x, ((![v364, v517] : Fin 2 → IVec S16 32) a x).toNat < S128x128.size a)
instance k0_chk490.dec : ∀ (v364 : IVec S16 32) (v517 : IVec S16 32), Decidable (k0_chk490 v364 v517) := fun v364 v517 => decidable_of_iff' _ (Iff.of_eq (k0_chk490.eq_1 v364 v517))
theorem k0_idx490_inb : ∀ (v364 : IVec S16 32) (v517 : IVec S16 32) (k0_hw490 : k0_chk490 v364 v517), ∀ a x, ((![v364, v517] : Fin 2 → IVec S16 32) a x).toNat < S128x128.size a := fun v364 v517 k0_hw490 => k0_hw490

def k0_chk491 (v364 : IVec S16 32) (v519 : IVec S16 32) : Prop :=
  (∀ a x, ((![v364, v519] : Fin 2 → IVec S16 32) a x).toNat < S128x128.size a)
instance k0_chk491.dec : ∀ (v364 : IVec S16 32) (v519 : IVec S16 32), Decidable (k0_chk491 v364 v519) := fun v364 v519 => decidable_of_iff' _ (Iff.of_eq (k0_chk491.eq_1 v364 v519))
theorem k0_idx491_inb : ∀ (v364 : IVec S16 32) (v519 : IVec S16 32) (k0_hw491 : k0_chk491 v364 v519), ∀ a x, ((![v364, v519] : Fin 2 → IVec S16 32) a x).toNat < S128x128.size a := fun v364 v519 k0_hw491 => k0_hw491

def k0_chk492 (v364 : IVec S16 32) (v521 : IVec S16 32) : Prop :=
  (∀ a x, ((![v364, v521] : Fin 2 → IVec S16 32) a x).toNat < S128x128.size a)
instance k0_chk492.dec : ∀ (v364 : IVec S16 32) (v521 : IVec S16 32), Decidable (k0_chk492 v364 v521) := fun v364 v521 => decidable_of_iff' _ (Iff.of_eq (k0_chk492.eq_1 v364 v521))
theorem k0_idx492_inb : ∀ (v364 : IVec S16 32) (v521 : IVec S16 32) (k0_hw492 : k0_chk492 v364 v521), ∀ a x, ((![v364, v521] : Fin 2 → IVec S16 32) a x).toNat < S128x128.size a := fun v364 v521 k0_hw492 => k0_hw492

def k0_chk493 (v364 : IVec S16 32) (v523 : IVec S16 32) : Prop :=
  (∀ a x, ((![v364, v523] : Fin 2 → IVec S16 32) a x).toNat < S128x128.size a)
instance k0_chk493.dec : ∀ (v364 : IVec S16 32) (v523 : IVec S16 32), Decidable (k0_chk493 v364 v523) := fun v364 v523 => decidable_of_iff' _ (Iff.of_eq (k0_chk493.eq_1 v364 v523))
theorem k0_idx493_inb : ∀ (v364 : IVec S16 32) (v523 : IVec S16 32) (k0_hw493 : k0_chk493 v364 v523), ∀ a x, ((![v364, v523] : Fin 2 → IVec S16 32) a x).toNat < S128x128.size a := fun v364 v523 k0_hw493 => k0_hw493

def k0_chk494 (v364 : IVec S16 32) (v525 : IVec S16 32) : Prop :=
  (∀ a x, ((![v364, v525] : Fin 2 → IVec S16 32) a x).toNat < S128x128.size a)
instance k0_chk494.dec : ∀ (v364 : IVec S16 32) (v525 : IVec S16 32), Decidable (k0_chk494 v364 v525) := fun v364 v525 => decidable_of_iff' _ (Iff.of_eq (k0_chk494.eq_1 v364 v525))
theorem k0_idx494_inb : ∀ (v364 : IVec S16 32) (v525 : IVec S16 32) (k0_hw494 : k0_chk494 v364 v525), ∀ a x, ((![v364, v525] : Fin 2 → IVec S16 32) a x).toNat < S128x128.size a := fun v364 v525 k0_hw494 => k0_hw494

def k0_chk495 (v364 : IVec S16 32) (v527 : IVec S16 32) : Prop :=
  (∀ a x, ((![v364, v527] : Fin 2 → IVec S16 32) a x).toNat < S128x128.size a)
instance k0_chk495.dec : ∀ (v364 : IVec S16 32) (v527 : IVec S16 32), Decidable (k0_chk495 v364 v527) := fun v364 v527 => decidable_of_iff' _ (Iff.of_eq (k0_chk495.eq_1 v364 v527))
theorem k0_idx495_inb : ∀ (v364 : IVec S16 32) (v527 : IVec S16 32) (k0_hw495 : k0_chk495 v364 v527), ∀ a x, ((![v364, v527] : Fin 2 → IVec S16 32) a x).toNat < S128x128.size a := fun v364 v527 k0_hw495 => k0_hw495

def k0_chk496 (v364 : IVec S16 32) (v529 : IVec S16 32) : Prop :=
  (∀ a x, ((![v364, v529] : Fin 2 → IVec S16 32) a x).toNat < S128x128.size a)
instance k0_chk496.dec : ∀ (v364 : IVec S16 32) (v529 : IVec S16 32), Decidable (k0_chk496 v364 v529) := fun v364 v529 => decidable_of_iff' _ (Iff.of_eq (k0_chk496.eq_1 v364 v529))
theorem k0_idx496_inb : ∀ (v364 : IVec S16 32) (v529 : IVec S16 32) (k0_hw496 : k0_chk496 v364 v529), ∀ a x, ((![v364, v529] : Fin 2 → IVec S16 32) a x).toNat < S128x128.size a := fun v364 v529 k0_hw496 => k0_hw496

def k0_chk497 (v364 : IVec S16 32) (v532 : IVec S16 32) : Prop :=
  (∀ a x, ((![v532, v364] : Fin 2 → IVec S16 32) a x).toNat < S64x128.size a)
instance k0_chk497.dec : ∀ (v364 : IVec S16 32) (v532 : IVec S16 32), Decidable (k0_chk497 v364 v532) := fun v364 v532 => decidable_of_iff' _ (Iff.of_eq (k0_chk497.eq_1 v364 v532))
theorem k0_idx497_inb : ∀ (v364 : IVec S16 32) (v532 : IVec S16 32) (k0_hw497 : k0_chk497 v364 v532), ∀ a x, ((![v532, v364] : Fin 2 → IVec S16 32) a x).toNat < S64x128.size a := fun v364 v532 k0_hw497 => k0_hw497

def k0_chk498 (v364 : IVec S16 32) (v534 : IVec S16 32) : Prop :=
  (∀ a x, ((![v534, v364] : Fin 2 → IVec S16 32) a x).toNat < S64x128.size a)
instance k0_chk498.dec : ∀ (v364 : IVec S16 32) (v534 : IVec S16 32), Decidable (k0_chk498 v364 v534) := fun v364 v534 => decidable_of_iff' _ (Iff.of_eq (k0_chk498.eq_1 v364 v534))
theorem k0_idx498_inb : ∀ (v364 : IVec S16 32) (v534 : IVec S16 32) (k0_hw498 : k0_chk498 v364 v534), ∀ a x, ((![v534, v364] : Fin 2 → IVec S16 32) a x).toNat < S64x128.size a := fun v364 v534 k0_hw498 => k0_hw498

def k0_chk499 (v364 : IVec S16 32) (v536 : IVec S16 32) : Prop :=
  (∀ a x, ((![v536, v364] : Fin 2 → IVec S16 32) a x).toNat < S64x128.size a)
instance k0_chk499.dec : ∀ (v364 : IVec S16 32) (v536 : IVec S16 32), Decidable (k0_chk499 v364 v536) := fun v364 v536 => decidable_of_iff' _ (Iff.of_eq (k0_chk499.eq_1 v364 v536))
theorem k0_idx499_inb : ∀ (v364 : IVec S16 32) (v536 : IVec S16 32) (k0_hw499 : k0_chk499 v364 v536), ∀ a x, ((![v536, v364] : Fin 2 → IVec S16 32) a x).toNat < S64x128.size a := fun v364 v536 k0_hw499 => k0_hw499

def k0_chk500 (v364 : IVec S16 32) (v538 : IVec S16 32) : Prop :=
  (∀ a x, ((![v538, v364] : Fin 2 → IVec S16 32) a x).toNat < S64x128.size a)
instance k0_chk500.dec : ∀ (v364 : IVec S16 32) (v538 : IVec S16 32), Decidable (k0_chk500 v364 v538) := fun v364 v538 => decidable_of_iff' _ (Iff.of_eq (k0_chk500.eq_1 v364 v538))
theorem k0_idx500_inb : ∀ (v364 : IVec S16 32) (v538 : IVec S16 32) (k0_hw500 : k0_chk500 v364 v538), ∀ a x, ((![v538, v364] : Fin 2 → IVec S16 32) a x).toNat < S64x128.size a := fun v364 v538 k0_hw500 => k0_hw500

def k0_chk501 (v364 : IVec S16 32) (v540 : IVec S16 32) : Prop :=
  (∀ a x, ((![v540, v364] : Fin 2 → IVec S16 32) a x).toNat < S64x128.size a)
instance k0_chk501.dec : ∀ (v364 : IVec S16 32) (v540 : IVec S16 32), Decidable (k0_chk501 v364 v540) := fun v364 v540 => decidable_of_iff' _ (Iff.of_eq (k0_chk501.eq_1 v364 v540))
theorem k0_idx501_inb : ∀ (v364 : IVec S16 32) (v540 : IVec S16 32) (k0_hw501 : k0_chk501 v364 v540), ∀ a x, ((![v540, v364] : Fin 2 → IVec S16 32) a x).toNat < S64x128.size a := fun v364 v540 k0_hw501 => k0_hw501

def k0_chk502 (v364 : IVec S16 32) (v542 : IVec S16 32) : Prop :=
  (∀ a x, ((![v542, v364] : Fin 2 → IVec S16 32) a x).toNat < S64x128.size a)
instance k0_chk502.dec : ∀ (v364 : IVec S16 32) (v542 : IVec S16 32), Decidable (k0_chk502 v364 v542) := fun v364 v542 => decidable_of_iff' _ (Iff.of_eq (k0_chk502.eq_1 v364 v542))
theorem k0_idx502_inb : ∀ (v364 : IVec S16 32) (v542 : IVec S16 32) (k0_hw502 : k0_chk502 v364 v542), ∀ a x, ((![v542, v364] : Fin 2 → IVec S16 32) a x).toNat < S64x128.size a := fun v364 v542 k0_hw502 => k0_hw502

def k0_chk503 (v364 : IVec S16 32) (v544 : IVec S16 32) : Prop :=
  (∀ a x, ((![v544, v364] : Fin 2 → IVec S16 32) a x).toNat < S64x128.size a)
instance k0_chk503.dec : ∀ (v364 : IVec S16 32) (v544 : IVec S16 32), Decidable (k0_chk503 v364 v544) := fun v364 v544 => decidable_of_iff' _ (Iff.of_eq (k0_chk503.eq_1 v364 v544))
theorem k0_idx503_inb : ∀ (v364 : IVec S16 32) (v544 : IVec S16 32) (k0_hw503 : k0_chk503 v364 v544), ∀ a x, ((![v544, v364] : Fin 2 → IVec S16 32) a x).toNat < S64x128.size a := fun v364 v544 k0_hw503 => k0_hw503

def k0_chk504 (v364 : IVec S16 32) (v546 : IVec S16 32) : Prop :=
  (∀ a x, ((![v546, v364] : Fin 2 → IVec S16 32) a x).toNat < S64x128.size a)
instance k0_chk504.dec : ∀ (v364 : IVec S16 32) (v546 : IVec S16 32), Decidable (k0_chk504 v364 v546) := fun v364 v546 => decidable_of_iff' _ (Iff.of_eq (k0_chk504.eq_1 v364 v546))
theorem k0_idx504_inb : ∀ (v364 : IVec S16 32) (v546 : IVec S16 32) (k0_hw504 : k0_chk504 v364 v546), ∀ a x, ((![v546, v364] : Fin 2 → IVec S16 32) a x).toNat < S64x128.size a := fun v364 v546 k0_hw504 => k0_hw504

def k0_chk505 (v364 : IVec S16 32) (v548 : IVec S16 32) : Prop :=
  (∀ a x, ((![v548, v364] : Fin 2 → IVec S16 32) a x).toNat < S64x128.size a)
instance k0_chk505.dec : ∀ (v364 : IVec S16 32) (v548 : IVec S16 32), Decidable (k0_chk505 v364 v548) := fun v364 v548 => decidable_of_iff' _ (Iff.of_eq (k0_chk505.eq_1 v364 v548))
theorem k0_idx505_inb : ∀ (v364 : IVec S16 32) (v548 : IVec S16 32) (k0_hw505 : k0_chk505 v364 v548), ∀ a x, ((![v548, v364] : Fin 2 → IVec S16 32) a x).toNat < S64x128.size a := fun v364 v548 k0_hw505 => k0_hw505

def k0_chk506 (v364 : IVec S16 32) (v550 : IVec S16 32) : Prop :=
  (∀ a x, ((![v550, v364] : Fin 2 → IVec S16 32) a x).toNat < S64x128.size a)
instance k0_chk506.dec : ∀ (v364 : IVec S16 32) (v550 : IVec S16 32), Decidable (k0_chk506 v364 v550) := fun v364 v550 => decidable_of_iff' _ (Iff.of_eq (k0_chk506.eq_1 v364 v550))
theorem k0_idx506_inb : ∀ (v364 : IVec S16 32) (v550 : IVec S16 32) (k0_hw506 : k0_chk506 v364 v550), ∀ a x, ((![v550, v364] : Fin 2 → IVec S16 32) a x).toNat < S64x128.size a := fun v364 v550 k0_hw506 => k0_hw506

def k0_chk507 (v364 : IVec S16 32) (v552 : IVec S16 32) : Prop :=
  (∀ a x, ((![v552, v364] : Fin 2 → IVec S16 32) a x).toNat < S64x128.size a)
instance k0_chk507.dec : ∀ (v364 : IVec S16 32) (v552 : IVec S16 32), Decidable (k0_chk507 v364 v552) := fun v364 v552 => decidable_of_iff' _ (Iff.of_eq (k0_chk507.eq_1 v364 v552))
theorem k0_idx507_inb : ∀ (v364 : IVec S16 32) (v552 : IVec S16 32) (k0_hw507 : k0_chk507 v364 v552), ∀ a x, ((![v552, v364] : Fin 2 → IVec S16 32) a x).toNat < S64x128.size a := fun v364 v552 k0_hw507 => k0_hw507

def k0_chk508 (v364 : IVec S16 32) (v554 : IVec S16 32) : Prop :=
  (∀ a x, ((![v554, v364] : Fin 2 → IVec S16 32) a x).toNat < S64x128.size a)
instance k0_chk508.dec : ∀ (v364 : IVec S16 32) (v554 : IVec S16 32), Decidable (k0_chk508 v364 v554) := fun v364 v554 => decidable_of_iff' _ (Iff.of_eq (k0_chk508.eq_1 v364 v554))
theorem k0_idx508_inb : ∀ (v364 : IVec S16 32) (v554 : IVec S16 32) (k0_hw508 : k0_chk508 v364 v554), ∀ a x, ((![v554, v364] : Fin 2 → IVec S16 32) a x).toNat < S64x128.size a := fun v364 v554 k0_hw508 => k0_hw508

def k0_chk509 (v364 : IVec S16 32) (v556 : IVec S16 32) : Prop :=
  (∀ a x, ((![v556, v364] : Fin 2 → IVec S16 32) a x).toNat < S64x128.size a)
instance k0_chk509.dec : ∀ (v364 : IVec S16 32) (v556 : IVec S16 32), Decidable (k0_chk509 v364 v556) := fun v364 v556 => decidable_of_iff' _ (Iff.of_eq (k0_chk509.eq_1 v364 v556))
theorem k0_idx509_inb : ∀ (v364 : IVec S16 32) (v556 : IVec S16 32) (k0_hw509 : k0_chk509 v364 v556), ∀ a x, ((![v556, v364] : Fin 2 → IVec S16 32) a x).toNat < S64x128.size a := fun v364 v556 k0_hw509 => k0_hw509

def k0_chk510 (v364 : IVec S16 32) (v558 : IVec S16 32) : Prop :=
  (∀ a x, ((![v558, v364] : Fin 2 → IVec S16 32) a x).toNat < S64x128.size a)
instance k0_chk510.dec : ∀ (v364 : IVec S16 32) (v558 : IVec S16 32), Decidable (k0_chk510 v364 v558) := fun v364 v558 => decidable_of_iff' _ (Iff.of_eq (k0_chk510.eq_1 v364 v558))
theorem k0_idx510_inb : ∀ (v364 : IVec S16 32) (v558 : IVec S16 32) (k0_hw510 : k0_chk510 v364 v558), ∀ a x, ((![v558, v364] : Fin 2 → IVec S16 32) a x).toNat < S64x128.size a := fun v364 v558 k0_hw510 => k0_hw510

def k0_chk511 (v364 : IVec S16 32) (v560 : IVec S16 32) : Prop :=
  (∀ a x, ((![v560, v364] : Fin 2 → IVec S16 32) a x).toNat < S64x128.size a)
instance k0_chk511.dec : ∀ (v364 : IVec S16 32) (v560 : IVec S16 32), Decidable (k0_chk511 v364 v560) := fun v364 v560 => decidable_of_iff' _ (Iff.of_eq (k0_chk511.eq_1 v364 v560))
theorem k0_idx511_inb : ∀ (v364 : IVec S16 32) (v560 : IVec S16 32) (k0_hw511 : k0_chk511 v364 v560), ∀ a x, ((![v560, v364] : Fin 2 → IVec S16 32) a x).toNat < S64x128.size a := fun v364 v560 k0_hw511 => k0_hw511

def k0_chk512 (v364 : IVec S16 32) (v562 : IVec S16 32) : Prop :=
  (∀ a x, ((![v562, v364] : Fin 2 → IVec S16 32) a x).toNat < S64x128.size a)
instance k0_chk512.dec : ∀ (v364 : IVec S16 32) (v562 : IVec S16 32), Decidable (k0_chk512 v364 v562) := fun v364 v562 => decidable_of_iff' _ (Iff.of_eq (k0_chk512.eq_1 v364 v562))
theorem k0_idx512_inb : ∀ (v364 : IVec S16 32) (v562 : IVec S16 32) (k0_hw512 : k0_chk512 v364 v562), ∀ a x, ((![v562, v364] : Fin 2 → IVec S16 32) a x).toNat < S64x128.size a := fun v364 v562 k0_hw512 => k0_hw512

def k0_chk513 (v364 : IVec S16 32) (v565 : IVec S16 32) : Prop :=
  (∀ a x, ((![v364, v565] : Fin 2 → IVec S16 32) a x).toNat < S128x128.size a)
instance k0_chk513.dec : ∀ (v364 : IVec S16 32) (v565 : IVec S16 32), Decidable (k0_chk513 v364 v565) := fun v364 v565 => decidable_of_iff' _ (Iff.of_eq (k0_chk513.eq_1 v364 v565))
theorem k0_idx513_inb : ∀ (v364 : IVec S16 32) (v565 : IVec S16 32) (k0_hw513 : k0_chk513 v364 v565), ∀ a x, ((![v364, v565] : Fin 2 → IVec S16 32) a x).toNat < S128x128.size a := fun v364 v565 k0_hw513 => k0_hw513

def k0_chk514 (v364 : IVec S16 32) (v567 : IVec S16 32) : Prop :=
  (∀ a x, ((![v364, v567] : Fin 2 → IVec S16 32) a x).toNat < S128x128.size a)
instance k0_chk514.dec : ∀ (v364 : IVec S16 32) (v567 : IVec S16 32), Decidable (k0_chk514 v364 v567) := fun v364 v567 => decidable_of_iff' _ (Iff.of_eq (k0_chk514.eq_1 v364 v567))
theorem k0_idx514_inb : ∀ (v364 : IVec S16 32) (v567 : IVec S16 32) (k0_hw514 : k0_chk514 v364 v567), ∀ a x, ((![v364, v567] : Fin 2 → IVec S16 32) a x).toNat < S128x128.size a := fun v364 v567 k0_hw514 => k0_hw514

def k0_chk515 (v364 : IVec S16 32) (v569 : IVec S16 32) : Prop :=
  (∀ a x, ((![v364, v569] : Fin 2 → IVec S16 32) a x).toNat < S128x128.size a)
instance k0_chk515.dec : ∀ (v364 : IVec S16 32) (v569 : IVec S16 32), Decidable (k0_chk515 v364 v569) := fun v364 v569 => decidable_of_iff' _ (Iff.of_eq (k0_chk515.eq_1 v364 v569))
theorem k0_idx515_inb : ∀ (v364 : IVec S16 32) (v569 : IVec S16 32) (k0_hw515 : k0_chk515 v364 v569), ∀ a x, ((![v364, v569] : Fin 2 → IVec S16 32) a x).toNat < S128x128.size a := fun v364 v569 k0_hw515 => k0_hw515

def k0_chk516 (v364 : IVec S16 32) (v571 : IVec S16 32) : Prop :=
  (∀ a x, ((![v364, v571] : Fin 2 → IVec S16 32) a x).toNat < S128x128.size a)
instance k0_chk516.dec : ∀ (v364 : IVec S16 32) (v571 : IVec S16 32), Decidable (k0_chk516 v364 v571) := fun v364 v571 => decidable_of_iff' _ (Iff.of_eq (k0_chk516.eq_1 v364 v571))
theorem k0_idx516_inb : ∀ (v364 : IVec S16 32) (v571 : IVec S16 32) (k0_hw516 : k0_chk516 v364 v571), ∀ a x, ((![v364, v571] : Fin 2 → IVec S16 32) a x).toNat < S128x128.size a := fun v364 v571 k0_hw516 => k0_hw516

def k0_chk517 (v364 : IVec S16 32) (v573 : IVec S16 32) : Prop :=
  (∀ a x, ((![v364, v573] : Fin 2 → IVec S16 32) a x).toNat < S128x128.size a)
instance k0_chk517.dec : ∀ (v364 : IVec S16 32) (v573 : IVec S16 32), Decidable (k0_chk517 v364 v573) := fun v364 v573 => decidable_of_iff' _ (Iff.of_eq (k0_chk517.eq_1 v364 v573))
theorem k0_idx517_inb : ∀ (v364 : IVec S16 32) (v573 : IVec S16 32) (k0_hw517 : k0_chk517 v364 v573), ∀ a x, ((![v364, v573] : Fin 2 → IVec S16 32) a x).toNat < S128x128.size a := fun v364 v573 k0_hw517 => k0_hw517

def k0_chk518 (v364 : IVec S16 32) (v575 : IVec S16 32) : Prop :=
  (∀ a x, ((![v364, v575] : Fin 2 → IVec S16 32) a x).toNat < S128x128.size a)
instance k0_chk518.dec : ∀ (v364 : IVec S16 32) (v575 : IVec S16 32), Decidable (k0_chk518 v364 v575) := fun v364 v575 => decidable_of_iff' _ (Iff.of_eq (k0_chk518.eq_1 v364 v575))
theorem k0_idx518_inb : ∀ (v364 : IVec S16 32) (v575 : IVec S16 32) (k0_hw518 : k0_chk518 v364 v575), ∀ a x, ((![v364, v575] : Fin 2 → IVec S16 32) a x).toNat < S128x128.size a := fun v364 v575 k0_hw518 => k0_hw518

def k0_chk519 (v364 : IVec S16 32) (v577 : IVec S16 32) : Prop :=
  (∀ a x, ((![v364, v577] : Fin 2 → IVec S16 32) a x).toNat < S128x128.size a)
instance k0_chk519.dec : ∀ (v364 : IVec S16 32) (v577 : IVec S16 32), Decidable (k0_chk519 v364 v577) := fun v364 v577 => decidable_of_iff' _ (Iff.of_eq (k0_chk519.eq_1 v364 v577))
theorem k0_idx519_inb : ∀ (v364 : IVec S16 32) (v577 : IVec S16 32) (k0_hw519 : k0_chk519 v364 v577), ∀ a x, ((![v364, v577] : Fin 2 → IVec S16 32) a x).toNat < S128x128.size a := fun v364 v577 k0_hw519 => k0_hw519

def k0_chk520 (v364 : IVec S16 32) (v579 : IVec S16 32) : Prop :=
  (∀ a x, ((![v364, v579] : Fin 2 → IVec S16 32) a x).toNat < S128x128.size a)
instance k0_chk520.dec : ∀ (v364 : IVec S16 32) (v579 : IVec S16 32), Decidable (k0_chk520 v364 v579) := fun v364 v579 => decidable_of_iff' _ (Iff.of_eq (k0_chk520.eq_1 v364 v579))
theorem k0_idx520_inb : ∀ (v364 : IVec S16 32) (v579 : IVec S16 32) (k0_hw520 : k0_chk520 v364 v579), ∀ a x, ((![v364, v579] : Fin 2 → IVec S16 32) a x).toNat < S128x128.size a := fun v364 v579 k0_hw520 => k0_hw520

def k0_chk521 (v364 : IVec S16 32) (v581 : IVec S16 32) : Prop :=
  (∀ a x, ((![v364, v581] : Fin 2 → IVec S16 32) a x).toNat < S128x128.size a)
instance k0_chk521.dec : ∀ (v364 : IVec S16 32) (v581 : IVec S16 32), Decidable (k0_chk521 v364 v581) := fun v364 v581 => decidable_of_iff' _ (Iff.of_eq (k0_chk521.eq_1 v364 v581))
theorem k0_idx521_inb : ∀ (v364 : IVec S16 32) (v581 : IVec S16 32) (k0_hw521 : k0_chk521 v364 v581), ∀ a x, ((![v364, v581] : Fin 2 → IVec S16 32) a x).toNat < S128x128.size a := fun v364 v581 k0_hw521 => k0_hw521

def k0_chk522 (v364 : IVec S16 32) (v583 : IVec S16 32) : Prop :=
  (∀ a x, ((![v364, v583] : Fin 2 → IVec S16 32) a x).toNat < S128x128.size a)
instance k0_chk522.dec : ∀ (v364 : IVec S16 32) (v583 : IVec S16 32), Decidable (k0_chk522 v364 v583) := fun v364 v583 => decidable_of_iff' _ (Iff.of_eq (k0_chk522.eq_1 v364 v583))
theorem k0_idx522_inb : ∀ (v364 : IVec S16 32) (v583 : IVec S16 32) (k0_hw522 : k0_chk522 v364 v583), ∀ a x, ((![v364, v583] : Fin 2 → IVec S16 32) a x).toNat < S128x128.size a := fun v364 v583 k0_hw522 => k0_hw522

def k0_chk523 (v364 : IVec S16 32) (v585 : IVec S16 32) : Prop :=
  (∀ a x, ((![v364, v585] : Fin 2 → IVec S16 32) a x).toNat < S128x128.size a)
instance k0_chk523.dec : ∀ (v364 : IVec S16 32) (v585 : IVec S16 32), Decidable (k0_chk523 v364 v585) := fun v364 v585 => decidable_of_iff' _ (Iff.of_eq (k0_chk523.eq_1 v364 v585))
theorem k0_idx523_inb : ∀ (v364 : IVec S16 32) (v585 : IVec S16 32) (k0_hw523 : k0_chk523 v364 v585), ∀ a x, ((![v364, v585] : Fin 2 → IVec S16 32) a x).toNat < S128x128.size a := fun v364 v585 k0_hw523 => k0_hw523

def k0_chk524 (v364 : IVec S16 32) (v587 : IVec S16 32) : Prop :=
  (∀ a x, ((![v364, v587] : Fin 2 → IVec S16 32) a x).toNat < S128x128.size a)
instance k0_chk524.dec : ∀ (v364 : IVec S16 32) (v587 : IVec S16 32), Decidable (k0_chk524 v364 v587) := fun v364 v587 => decidable_of_iff' _ (Iff.of_eq (k0_chk524.eq_1 v364 v587))
theorem k0_idx524_inb : ∀ (v364 : IVec S16 32) (v587 : IVec S16 32) (k0_hw524 : k0_chk524 v364 v587), ∀ a x, ((![v364, v587] : Fin 2 → IVec S16 32) a x).toNat < S128x128.size a := fun v364 v587 k0_hw524 => k0_hw524

def k0_chk525 (v364 : IVec S16 32) (v589 : IVec S16 32) : Prop :=
  (∀ a x, ((![v364, v589] : Fin 2 → IVec S16 32) a x).toNat < S128x128.size a)
instance k0_chk525.dec : ∀ (v364 : IVec S16 32) (v589 : IVec S16 32), Decidable (k0_chk525 v364 v589) := fun v364 v589 => decidable_of_iff' _ (Iff.of_eq (k0_chk525.eq_1 v364 v589))
theorem k0_idx525_inb : ∀ (v364 : IVec S16 32) (v589 : IVec S16 32) (k0_hw525 : k0_chk525 v364 v589), ∀ a x, ((![v364, v589] : Fin 2 → IVec S16 32) a x).toNat < S128x128.size a := fun v364 v589 k0_hw525 => k0_hw525

def k0_chk526 (v364 : IVec S16 32) (v591 : IVec S16 32) : Prop :=
  (∀ a x, ((![v364, v591] : Fin 2 → IVec S16 32) a x).toNat < S128x128.size a)
instance k0_chk526.dec : ∀ (v364 : IVec S16 32) (v591 : IVec S16 32), Decidable (k0_chk526 v364 v591) := fun v364 v591 => decidable_of_iff' _ (Iff.of_eq (k0_chk526.eq_1 v364 v591))
theorem k0_idx526_inb : ∀ (v364 : IVec S16 32) (v591 : IVec S16 32) (k0_hw526 : k0_chk526 v364 v591), ∀ a x, ((![v364, v591] : Fin 2 → IVec S16 32) a x).toNat < S128x128.size a := fun v364 v591 k0_hw526 => k0_hw526

def k0_chk527 (v364 : IVec S16 32) (v593 : IVec S16 32) : Prop :=
  (∀ a x, ((![v364, v593] : Fin 2 → IVec S16 32) a x).toNat < S128x128.size a)
instance k0_chk527.dec : ∀ (v364 : IVec S16 32) (v593 : IVec S16 32), Decidable (k0_chk527 v364 v593) := fun v364 v593 => decidable_of_iff' _ (Iff.of_eq (k0_chk527.eq_1 v364 v593))
theorem k0_idx527_inb : ∀ (v364 : IVec S16 32) (v593 : IVec S16 32) (k0_hw527 : k0_chk527 v364 v593), ∀ a x, ((![v364, v593] : Fin 2 → IVec S16 32) a x).toNat < S128x128.size a := fun v364 v593 k0_hw527 => k0_hw527

def k0_chk528 (v364 : IVec S16 32) (v595 : IVec S16 32) : Prop :=
  (∀ a x, ((![v364, v595] : Fin 2 → IVec S16 32) a x).toNat < S128x128.size a)
instance k0_chk528.dec : ∀ (v364 : IVec S16 32) (v595 : IVec S16 32), Decidable (k0_chk528 v364 v595) := fun v364 v595 => decidable_of_iff' _ (Iff.of_eq (k0_chk528.eq_1 v364 v595))
theorem k0_idx528_inb : ∀ (v364 : IVec S16 32) (v595 : IVec S16 32) (k0_hw528 : k0_chk528 v364 v595), ∀ a x, ((![v364, v595] : Fin 2 → IVec S16 32) a x).toNat < S128x128.size a := fun v364 v595 k0_hw528 => k0_hw528

def k0_chk529 (v364 : IVec S16 32) (v598 : IVec S16 32) : Prop :=
  (∀ a x, ((![v598, v364] : Fin 2 → IVec S16 32) a x).toNat < S64x128.size a)
instance k0_chk529.dec : ∀ (v364 : IVec S16 32) (v598 : IVec S16 32), Decidable (k0_chk529 v364 v598) := fun v364 v598 => decidable_of_iff' _ (Iff.of_eq (k0_chk529.eq_1 v364 v598))
theorem k0_idx529_inb : ∀ (v364 : IVec S16 32) (v598 : IVec S16 32) (k0_hw529 : k0_chk529 v364 v598), ∀ a x, ((![v598, v364] : Fin 2 → IVec S16 32) a x).toNat < S64x128.size a := fun v364 v598 k0_hw529 => k0_hw529

def k0_chk530 (v364 : IVec S16 32) (v600 : IVec S16 32) : Prop :=
  (∀ a x, ((![v600, v364] : Fin 2 → IVec S16 32) a x).toNat < S64x128.size a)
instance k0_chk530.dec : ∀ (v364 : IVec S16 32) (v600 : IVec S16 32), Decidable (k0_chk530 v364 v600) := fun v364 v600 => decidable_of_iff' _ (Iff.of_eq (k0_chk530.eq_1 v364 v600))
theorem k0_idx530_inb : ∀ (v364 : IVec S16 32) (v600 : IVec S16 32) (k0_hw530 : k0_chk530 v364 v600), ∀ a x, ((![v600, v364] : Fin 2 → IVec S16 32) a x).toNat < S64x128.size a := fun v364 v600 k0_hw530 => k0_hw530

def k0_chk531 (v364 : IVec S16 32) (v602 : IVec S16 32) : Prop :=
  (∀ a x, ((![v602, v364] : Fin 2 → IVec S16 32) a x).toNat < S64x128.size a)
instance k0_chk531.dec : ∀ (v364 : IVec S16 32) (v602 : IVec S16 32), Decidable (k0_chk531 v364 v602) := fun v364 v602 => decidable_of_iff' _ (Iff.of_eq (k0_chk531.eq_1 v364 v602))
theorem k0_idx531_inb : ∀ (v364 : IVec S16 32) (v602 : IVec S16 32) (k0_hw531 : k0_chk531 v364 v602), ∀ a x, ((![v602, v364] : Fin 2 → IVec S16 32) a x).toNat < S64x128.size a := fun v364 v602 k0_hw531 => k0_hw531

def k0_chk532 (v364 : IVec S16 32) (v604 : IVec S16 32) : Prop :=
  (∀ a x, ((![v604, v364] : Fin 2 → IVec S16 32) a x).toNat < S64x128.size a)
instance k0_chk532.dec : ∀ (v364 : IVec S16 32) (v604 : IVec S16 32), Decidable (k0_chk532 v364 v604) := fun v364 v604 => decidable_of_iff' _ (Iff.of_eq (k0_chk532.eq_1 v364 v604))
theorem k0_idx532_inb : ∀ (v364 : IVec S16 32) (v604 : IVec S16 32) (k0_hw532 : k0_chk532 v364 v604), ∀ a x, ((![v604, v364] : Fin 2 → IVec S16 32) a x).toNat < S64x128.size a := fun v364 v604 k0_hw532 => k0_hw532

def k0_chk533 (v364 : IVec S16 32) (v606 : IVec S16 32) : Prop :=
  (∀ a x, ((![v606, v364] : Fin 2 → IVec S16 32) a x).toNat < S64x128.size a)
instance k0_chk533.dec : ∀ (v364 : IVec S16 32) (v606 : IVec S16 32), Decidable (k0_chk533 v364 v606) := fun v364 v606 => decidable_of_iff' _ (Iff.of_eq (k0_chk533.eq_1 v364 v606))
theorem k0_idx533_inb : ∀ (v364 : IVec S16 32) (v606 : IVec S16 32) (k0_hw533 : k0_chk533 v364 v606), ∀ a x, ((![v606, v364] : Fin 2 → IVec S16 32) a x).toNat < S64x128.size a := fun v364 v606 k0_hw533 => k0_hw533

def k0_chk534 (v364 : IVec S16 32) (v608 : IVec S16 32) : Prop :=
  (∀ a x, ((![v608, v364] : Fin 2 → IVec S16 32) a x).toNat < S64x128.size a)
instance k0_chk534.dec : ∀ (v364 : IVec S16 32) (v608 : IVec S16 32), Decidable (k0_chk534 v364 v608) := fun v364 v608 => decidable_of_iff' _ (Iff.of_eq (k0_chk534.eq_1 v364 v608))
theorem k0_idx534_inb : ∀ (v364 : IVec S16 32) (v608 : IVec S16 32) (k0_hw534 : k0_chk534 v364 v608), ∀ a x, ((![v608, v364] : Fin 2 → IVec S16 32) a x).toNat < S64x128.size a := fun v364 v608 k0_hw534 => k0_hw534

def k0_chk535 (v364 : IVec S16 32) (v610 : IVec S16 32) : Prop :=
  (∀ a x, ((![v610, v364] : Fin 2 → IVec S16 32) a x).toNat < S64x128.size a)
instance k0_chk535.dec : ∀ (v364 : IVec S16 32) (v610 : IVec S16 32), Decidable (k0_chk535 v364 v610) := fun v364 v610 => decidable_of_iff' _ (Iff.of_eq (k0_chk535.eq_1 v364 v610))
theorem k0_idx535_inb : ∀ (v364 : IVec S16 32) (v610 : IVec S16 32) (k0_hw535 : k0_chk535 v364 v610), ∀ a x, ((![v610, v364] : Fin 2 → IVec S16 32) a x).toNat < S64x128.size a := fun v364 v610 k0_hw535 => k0_hw535

def k0_chk536 (v364 : IVec S16 32) (v612 : IVec S16 32) : Prop :=
  (∀ a x, ((![v612, v364] : Fin 2 → IVec S16 32) a x).toNat < S64x128.size a)
instance k0_chk536.dec : ∀ (v364 : IVec S16 32) (v612 : IVec S16 32), Decidable (k0_chk536 v364 v612) := fun v364 v612 => decidable_of_iff' _ (Iff.of_eq (k0_chk536.eq_1 v364 v612))
theorem k0_idx536_inb : ∀ (v364 : IVec S16 32) (v612 : IVec S16 32) (k0_hw536 : k0_chk536 v364 v612), ∀ a x, ((![v612, v364] : Fin 2 → IVec S16 32) a x).toNat < S64x128.size a := fun v364 v612 k0_hw536 => k0_hw536

def k0_chk537 (v364 : IVec S16 32) (v614 : IVec S16 32) : Prop :=
  (∀ a x, ((![v614, v364] : Fin 2 → IVec S16 32) a x).toNat < S64x128.size a)
instance k0_chk537.dec : ∀ (v364 : IVec S16 32) (v614 : IVec S16 32), Decidable (k0_chk537 v364 v614) := fun v364 v614 => decidable_of_iff' _ (Iff.of_eq (k0_chk537.eq_1 v364 v614))
theorem k0_idx537_inb : ∀ (v364 : IVec S16 32) (v614 : IVec S16 32) (k0_hw537 : k0_chk537 v364 v614), ∀ a x, ((![v614, v364] : Fin 2 → IVec S16 32) a x).toNat < S64x128.size a := fun v364 v614 k0_hw537 => k0_hw537

def k0_chk538 (v364 : IVec S16 32) (v616 : IVec S16 32) : Prop :=
  (∀ a x, ((![v616, v364] : Fin 2 → IVec S16 32) a x).toNat < S64x128.size a)
instance k0_chk538.dec : ∀ (v364 : IVec S16 32) (v616 : IVec S16 32), Decidable (k0_chk538 v364 v616) := fun v364 v616 => decidable_of_iff' _ (Iff.of_eq (k0_chk538.eq_1 v364 v616))
theorem k0_idx538_inb : ∀ (v364 : IVec S16 32) (v616 : IVec S16 32) (k0_hw538 : k0_chk538 v364 v616), ∀ a x, ((![v616, v364] : Fin 2 → IVec S16 32) a x).toNat < S64x128.size a := fun v364 v616 k0_hw538 => k0_hw538

def k0_chk539 (v364 : IVec S16 32) (v618 : IVec S16 32) : Prop :=
  (∀ a x, ((![v618, v364] : Fin 2 → IVec S16 32) a x).toNat < S64x128.size a)
instance k0_chk539.dec : ∀ (v364 : IVec S16 32) (v618 : IVec S16 32), Decidable (k0_chk539 v364 v618) := fun v364 v618 => decidable_of_iff' _ (Iff.of_eq (k0_chk539.eq_1 v364 v618))
theorem k0_idx539_inb : ∀ (v364 : IVec S16 32) (v618 : IVec S16 32) (k0_hw539 : k0_chk539 v364 v618), ∀ a x, ((![v618, v364] : Fin 2 → IVec S16 32) a x).toNat < S64x128.size a := fun v364 v618 k0_hw539 => k0_hw539

def k0_chk540 (v364 : IVec S16 32) (v620 : IVec S16 32) : Prop :=
  (∀ a x, ((![v620, v364] : Fin 2 → IVec S16 32) a x).toNat < S64x128.size a)
instance k0_chk540.dec : ∀ (v364 : IVec S16 32) (v620 : IVec S16 32), Decidable (k0_chk540 v364 v620) := fun v364 v620 => decidable_of_iff' _ (Iff.of_eq (k0_chk540.eq_1 v364 v620))
theorem k0_idx540_inb : ∀ (v364 : IVec S16 32) (v620 : IVec S16 32) (k0_hw540 : k0_chk540 v364 v620), ∀ a x, ((![v620, v364] : Fin 2 → IVec S16 32) a x).toNat < S64x128.size a := fun v364 v620 k0_hw540 => k0_hw540

def k0_chk541 (v364 : IVec S16 32) (v622 : IVec S16 32) : Prop :=
  (∀ a x, ((![v622, v364] : Fin 2 → IVec S16 32) a x).toNat < S64x128.size a)
instance k0_chk541.dec : ∀ (v364 : IVec S16 32) (v622 : IVec S16 32), Decidable (k0_chk541 v364 v622) := fun v364 v622 => decidable_of_iff' _ (Iff.of_eq (k0_chk541.eq_1 v364 v622))
theorem k0_idx541_inb : ∀ (v364 : IVec S16 32) (v622 : IVec S16 32) (k0_hw541 : k0_chk541 v364 v622), ∀ a x, ((![v622, v364] : Fin 2 → IVec S16 32) a x).toNat < S64x128.size a := fun v364 v622 k0_hw541 => k0_hw541

def k0_chk542 (v364 : IVec S16 32) (v624 : IVec S16 32) : Prop :=
  (∀ a x, ((![v624, v364] : Fin 2 → IVec S16 32) a x).toNat < S64x128.size a)
instance k0_chk542.dec : ∀ (v364 : IVec S16 32) (v624 : IVec S16 32), Decidable (k0_chk542 v364 v624) := fun v364 v624 => decidable_of_iff' _ (Iff.of_eq (k0_chk542.eq_1 v364 v624))
theorem k0_idx542_inb : ∀ (v364 : IVec S16 32) (v624 : IVec S16 32) (k0_hw542 : k0_chk542 v364 v624), ∀ a x, ((![v624, v364] : Fin 2 → IVec S16 32) a x).toNat < S64x128.size a := fun v364 v624 k0_hw542 => k0_hw542

def k0_chk543 (v364 : IVec S16 32) (v626 : IVec S16 32) : Prop :=
  (∀ a x, ((![v626, v364] : Fin 2 → IVec S16 32) a x).toNat < S64x128.size a)
instance k0_chk543.dec : ∀ (v364 : IVec S16 32) (v626 : IVec S16 32), Decidable (k0_chk543 v364 v626) := fun v364 v626 => decidable_of_iff' _ (Iff.of_eq (k0_chk543.eq_1 v364 v626))
theorem k0_idx543_inb : ∀ (v364 : IVec S16 32) (v626 : IVec S16 32) (k0_hw543 : k0_chk543 v364 v626), ∀ a x, ((![v626, v364] : Fin 2 → IVec S16 32) a x).toNat < S64x128.size a := fun v364 v626 k0_hw543 => k0_hw543

def k0_chk544 (v364 : IVec S16 32) (v628 : IVec S16 32) : Prop :=
  (∀ a x, ((![v628, v364] : Fin 2 → IVec S16 32) a x).toNat < S64x128.size a)
instance k0_chk544.dec : ∀ (v364 : IVec S16 32) (v628 : IVec S16 32), Decidable (k0_chk544 v364 v628) := fun v364 v628 => decidable_of_iff' _ (Iff.of_eq (k0_chk544.eq_1 v364 v628))
theorem k0_idx544_inb : ∀ (v364 : IVec S16 32) (v628 : IVec S16 32) (k0_hw544 : k0_chk544 v364 v628), ∀ a x, ((![v628, v364] : Fin 2 → IVec S16 32) a x).toNat < S64x128.size a := fun v364 v628 k0_hw544 => k0_hw544
def k0_off11 (i : grid0.Coords) : Fin 3 → Nat :=
  let c49_i32 : BitVec 32 := 49#32
  let c0_i32_176 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_173 : BitVec 32 := 4#32
  let v339 : BitVec 32 := Scalar.muli v1 c4_i32_173
  let c3_i32_174 : BitVec 32 := 3#32
  let v340 : BitVec 32 := Scalar.addi v339 c3_i32_174
  let c128_i32_175 : BitVec 32 := 128#32
  let v341 : BitVec 32 := Scalar.muli v340 c128_i32_175
  ![49, 0, v341.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x50_S819200 : S16384x50.ShapeCasts S819200
  shapeCasts_S1000000x64_S500000x128 : S1000000x64.ShapeCasts S500000x128
  iota_S16_d0_w32_scVector : S16.Iotas .scVector 32 [0]
  h_S25600 : 0 < S25600.numel
  inb_S128_S16_0 : ∀ a, (![0] : Fin 1 → Nat) a + S16.size a ≤ S128.size a
  h_S16 : 0 < S16.numel
  inb_S8x16_S1x16_0_0 : ∀ a, (![0, 0] : Fin 2 → Nat) a + S1x16.size a ≤ S8x16.size a
  h_S1x16 : 0 < S1x16.numel
  shapeCasts_S1x16_S16 : S1x16.ShapeCasts S16
  shapeCasts_S16_S1x16 : S16.ShapeCasts S1x16
  inb_S128_S16_16 : ∀ a, (![16] : Fin 1 → Nat) a + S16.size a ≤ S128.size a
  inb_S8x16_S1x16_1_0 : ∀ a, (![1, 0] : Fin 2 → Nat) a + S1x16.size a ≤ S8x16.size a
  inb_S128_S16_32 : ∀ a, (![32] : Fin 1 → Nat) a + S16.size a ≤ S128.size a
  inb_S8x16_S1x16_2_0 : ∀ a, (![2, 0] : Fin 2 → Nat) a + S1x16.size a ≤ S8x16.size a
  inb_S128_S16_48 : ∀ a, (![48] : Fin 1 → Nat) a + S16.size a ≤ S128.size a
  inb_S8x16_S1x16_3_0 : ∀ a, (![3, 0] : Fin 2 → Nat) a + S1x16.size a ≤ S8x16.size a
  inb_S128_S16_64 : ∀ a, (![64] : Fin 1 → Nat) a + S16.size a ≤ S128.size a
  inb_S8x16_S1x16_4_0 : ∀ a, (![4, 0] : Fin 2 → Nat) a + S1x16.size a ≤ S8x16.size a
  inb_S128_S16_80 : ∀ a, (![80] : Fin 1 → Nat) a + S16.size a ≤ S128.size a
  inb_S8x16_S1x16_5_0 : ∀ a, (![5, 0] : Fin 2 → Nat) a + S1x16.size a ≤ S8x16.size a
  inb_S128_S16_96 : ∀ a, (![96] : Fin 1 → Nat) a + S16.size a ≤ S128.size a
  inb_S8x16_S1x16_6_0 : ∀ a, (![6, 0] : Fin 2 → Nat) a + S1x16.size a ≤ S8x16.size a
  inb_S128_S16_112 : ∀ a, (![112] : Fin 1 → Nat) a + S16.size a ≤ S128.size a
  inb_S8x16_S1x16_7_0 : ∀ a, (![7, 0] : Fin 2 → Nat) a + S1x16.size a ≤ S8x16.size a
  inb_S500000x128_S500000x128_0_0 : ∀ a, (![0, 0] : Fin 2 → Nat) a + S500000x128.size a ≤ S500000x128.size a
  gathers_S500000x128_S128x128 : S500000x128.Gathers 0 S128x128
  h_S128x128 : 0 < S128x128.numel
  h_S64x128 : 0 < S64x128.numel
  squeezes_S1x64x128_S64x128 : S1x64x128.Squeezes S64x128
  transposes_S50x64x16384_S16384x50x64_2_0_1 : S50x64x16384.Transposes [2, 0, 1] S16384x50x64
  hcc0_scratch9 : 0 + S_.numel ≤ 5
  hcc0_scratch10 : 1 + S_.numel ≤ 5
  hcc0_scratch11 : 2 + S_.numel ≤ 5
  hcc0_scratch12 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S25600.size a ≤ S819200.size a
  k0_t1_ok : k0_t1_loop.OK
  k0_off2_inb : ∀ k0_t1 : Fin k0_t1_loop.trips, ∀ a, (k0_off2 k0_t1) a + S1x16.size a ≤ S8x16.size a
  k0_off3_inb : ∀ i : grid0.Coords, ∀ a, (k0_off3 i) a + S1x64x128.size a ≤ S50x64x16384.size a
  k0_t2_ok : k0_t2_loop.OK
  k0_off4_inb : ∀ i : grid0.Coords, ∀ a, (k0_off4 i) a + S1x64x128.size a ≤ S50x64x16384.size a
  k0_t3_ok : k0_t3_loop.OK
  k0_off5_inb : ∀ k0_t3 : Fin k0_t3_loop.trips, ∀ a, (k0_off5 k0_t3) a + S1x16.size a ≤ S8x16.size a
  k0_off6_inb : ∀ (i : grid0.Coords) (k0_t2 : Fin k0_t2_loop.trips), ∀ a, (k0_off6 i k0_t2) a + S1x64x128.size a ≤ S50x64x16384.size a
  k0_off7_inb : ∀ i : grid0.Coords, ∀ a, (k0_off7 i) a + S1x64x128.size a ≤ S50x64x16384.size a
  k0_t4_ok : k0_t4_loop.OK
  k0_off8_inb : ∀ k0_t4 : Fin k0_t4_loop.trips, ∀ a, (k0_off8 k0_t4) a + S1x16.size a ≤ S8x16.size a
  k0_off9_inb : ∀ (i : grid0.Coords) (k0_t2 : Fin k0_t2_loop.trips), ∀ a, (k0_off9 i k0_t2) a + S1x64x128.size a ≤ S50x64x16384.size a
  k0_t5_ok : k0_t5_loop.OK
  k0_off10_inb : ∀ k0_t5 : Fin k0_t5_loop.trips, ∀ a, (k0_off10 k0_t5) a + S1x16.size a ≤ S8x16.size a
  k0_off11_inb : ∀ i : grid0.Coords, ∀ a, (k0_off11 i) a + S1x64x128.size a ≤ S50x64x16384.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scoped0 : DmaSems sig S_ := SemArray.consecutive 4 S_ hcc0_scoped0

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.Spec.lean ====
/-
  What the lookup computes, as one function of the two argument arrays, index by index.

  `ids` is the [16384, 50] array of row numbers and `w` the [1000000, 64] table. Entry (b, h, f) of the result is
  entry f of the row of `w` that `ids` names at (b, h):   result[b, h, f] = w[ids[b, h], f].
  A word that names no row is read as the last row, so that the function is total; for row numbers in
  [0, 999999] (the precondition) the clamp changes nothing. The element type is a parameter: the same function is
  stated of words and of extended reals.
-/
import Idealize.ShloMosaic.PureOps.Ideal
import Idealize.ShloMosaic.Lib.ValueIdx

namespace Cert.Proof.Spec

open Idealize.ShloMosaic Idealize.ShloMosaic.ValueIdx

/-- The row numbers: one per (batch entry, history position). -/
abbrev SIds : Shape := ⟨2, ![16384, 50]⟩
/-- The table: a million rows of 64 entries. -/
abbrev STbl : Shape := ⟨2, ![1000000, 64]⟩
/-- The result: for each (batch entry, history position) the 64 entries of the named row. -/
abbrev SOut : Shape := ⟨3, ![16384, 50, 64]⟩

/-- The row a word names, clamped into the table. -/
def rowOf (v : BitVec 32) : Fin 1000000 := ⟨min v.toNat 999999, by omega⟩

/-- For a word below a million the clamp is the identity. -/
theorem rowOf_val {v : BitVec 32} (h : v.toNat < 1000000) : (rowOf v).val = v.toNat := by
  show min v.toNat 999999 = v.toNat
  omega

/-- The lookup: result[b, h, f] = w[ids[b, h], f]. -/
def lookup {E : Type} (ids : SIds.Idx → BitVec 32) (w : STbl.Idx → E) : SOut.Idx → E :=
  fun j => w (ix2 (rowOf (ids (ix2 (j 0) (j 1)))) (j 2))

theorem lookup_apply {E : Type} (ids : SIds.Idx → BitVec 32) (w : STbl.Idx → E)
    (b : Fin 16384) (h : Fin 50) (f : Fin 64) :
    lookup ids w (ix3 b h f) = w (ix2 (rowOf (ids (ix2 b h))) f) := rfl

end Cert.Proof.Spec
-- ==== Proof.RefPre.lean ====
/-
  The precondition read as a range.

  The precondition is one bit: the conjunction, over all entries, of "the weight is finite" and
  "0 <= id and id <= 999999" (both comparisons signed). When that bit is 1, every conjunct is 1;
  in particular each row number, read as a signed 32-bit integer, lies in [0, 999999], and a
  signed word in that interval is the same number read unsigned. So every row number is, as a
  natural number, below one million.
-/
import proofs.«206508_g82686710383178_cont_9to1c4b_561_19_alg».proof.Pre_input_domain
import Idealize.ShloMosaic.Lib.ReduceAll
import Idealize.ShloMosaic.Lib.ValueIdx

namespace Cert.Proof.RefSide

open Idealize.ShloMosaic Idealize.ShloMosaic.ValueIdx

/-- The scalar shape has exactly one index. -/
instance : Subsingleton Cert.Pre_input_domain.S_.Idx := ⟨fun a b => funext fun d => d.elim0⟩

/-- A 32-bit word whose signed value lies in [0, 999999] is below one million read unsigned. -/
theorem toNat_lt_of_toInt_range (v : BitVec 32) (h0 : (0#32 : BitVec 32).toInt ≤ v.toInt)
    (h1 : v.toInt ≤ (999999#32 : BitVec 32).toInt) : v.toNat < 1000000 := by
  have e0 : (0#32 : BitVec 32).toInt = 0 := by decide
  have e1 : (999999#32 : BitVec 32).toInt = 999999 := by decide
  rw [e0] at h0
  rw [e1] at h1
  rw [BitVec.toInt_eq_toNat_cond] at h0 h1
  have hlt := v.isLt
  split at h0 <;> omega

/-- If the precondition's bit is 1 then every row number is below one million. The bit is the
    conjunction of two all-reductions; the second one runs over the entrywise conjunction of the
    two signed comparisons of the row number with 0 and with 999999. -/
theorem ids_in_range {F : FTy → Type} [FloatOps F] [Cert.Pre_input_domain.Facts]
    (ids : IVec Cert.Pre_input_domain.S16384x50 32) (w : FVec F Cert.Pre_input_domain.S1000000x64 .f32)
    (h : Cert.Pre_input_domain.fn (F := F) ids w = fun _ => 1#1) : ∀ i, (ids i).toNat < 1000000 := by
  intro i
  have h0 := congrFun h ix0
  dsimp only [Cert.Pre_input_domain.fn] at h0
  obtain ⟨-, h9⟩ := IntOp.andi_eq_one.1 h0
  have h8 := Host.reduce_andi_all _ _ _ _ ix0 h9 i
  obtain ⟨hge, hle⟩ := IntOp.andi_eq_one.1 h8
  exact toNat_lt_of_toInt_range (ids i) (IntOp.cmpi_sge.1 hge) (IntOp.cmpi_sle.1 hle)

end Cert.Proof.RefSide
-- ==== Proof.RefTerm.lean ====
/-
  What the reference computes, as one function of its two arguments, and why in range it is the lookup.

  The reference is jnp.take(weight, ids, axis=0). Its operations, in order:
    * a negative row number is wrapped once by adding one million (numpy's negative indexing):
        wrapped = select(ids < 0, ids + 1000000, ids);
    * the wrapped numbers get a trailing unit axis (the start indices of the gather);
    * a row number is "in the table" when 0 <= wrapped and wrapped <= 999999 (signed); the bit is
      all-reduced over the unit axis, so it is the same bit;
    * the gather reads, for result entry (b, h, f), entry f of the row whose number is the start index
      at (b, h, 0), read signed and clamped into [0, 999999];
    * where the row number is not in the table the result is a NaN instead of the gathered entry.
  For row numbers that are already in [0, 999999]: the wrap does nothing (they are not negative), both
  comparisons hold (so the bit is 1 and the NaN branch is never taken), and the clamp does nothing.
  What is left is weight[ids[b, h], f].
-/
import proofs.«206508_g82686710383178_cont_9to1c4b_561_19_alg».proof.ReferenceIdeal
import proofs.«206508_g82686710383178_cont_9to1c4b_561_19_alg».proof.Proof.Spec
import Idealize.ShloMosaic.Lib.ReduceAll
import Idealize.ShloMosaic.Lib.ValueIdx
import Idealize.ShloMosaic.Lib.Pipeline.Value

noncomputable section

namespace Cert.Proof.RefSide

open Idealize.ShloMosaic Idealize.ShloMosaic.ValueIdx Cert.ReferenceIdeal Cert.ReferenceIdeal.Facts₀

variable [Cert.ReferenceIdeal.Facts]

/-! ## The term -/

/-- The row numbers with a negative one wrapped once by a million. -/
def wrapped (ids : IVec S16384x50 32) : IVec S16384x50 32 :=
  select (cmpi .slt ids (broadcastInDim S16384x50 ![] bcast_S_S16384x50 (constantI S_ 32 0#32)))
    (addi ids (broadcastInDim S16384x50 ![] bcast_S_S16384x50 (constantI S_ 32 1000000#32))) ids

/-- The gather's start indices: the wrapped row numbers under a trailing unit axis. -/
def starts (ids : IVec S16384x50 32) : IVec S16384x50x1 32 :=
  broadcastInDim S16384x50x1 ![0, 1] bcast_S16384x50_S16384x50x1_0_1 (wrapped ids)

/-- Per start index, the bit "0 <= start and start <= 999999", both signed. -/
def inRange (st : IVec S16384x50x1 32) : IVec S16384x50x1 1 :=
  andi (cmpi .sge st (broadcastInDim S16384x50x1 ![] bcast_S_S16384x50x1 (constantI S_ 32 0#32)))
    (cmpi .sle st (broadcastInDim S16384x50x1 ![0, 1, 2] bcast_S1x1x1_S16384x50x1_0_1_2
      (broadcastInDim S1x1x1 ![2] bcast_S1_S1x1x1_2 (constantI S1 32 999999#32))))

/-- Per (batch entry, position), that bit all-reduced over the unit axis. -/
def inTable (st : IVec S16384x50x1 32) : IVec S16384x50 1 :=
  Host.reduce IntOp.andi (inRange st) (constantI S_ 1 1#1) reducesTo_S16384x50x1_S16384x50_d2 h_S_

/-- The last step: where the bit is 1 the gathered entry, elsewhere a NaN. -/
def pick {F : FTy → Type} [FloatOps F] (tb : IVec S16384x50 1) (st : IVec S16384x50x1 32)
    (w : FVec F S1000000x64 .f32) : FVec F S16384x50x64 .f32 :=
  select (broadcastInDim S16384x50x64 ![0, 1] bcast_S16384x50_S16384x50x64_0_1 tb)
    (Host.gather gather_S1000000x64_S16384x50x1_S16384x50x64_2_0_n_n_0_2_164 w st)
    (broadcastInDim S16384x50x64 ![] bcast_S_S16384x50x64 (constant S_ .f32 0x7FC00000#32))

/-- The reference's result as a function of the row numbers and the table. -/
def refOut {F : FTy → Type} [FloatOps F] (ids : IVec S16384x50 32) (w : FVec F S1000000x64 .f32) :
    FVec F S16384x50x64 .f32 :=
  pick (inTable (starts ids)) (starts ids) w

/-! ## Words in range -/

/-- A word below a million reads the same signed and unsigned. -/
theorem toInt_of_lt {v : BitVec 32} (hv : v.toNat < 1000000) : v.toInt = (v.toNat : Int) :=
  BitVec.toInt_eq_toNat_of_lt (by omega)

/-- A word below a million is not negative: the wrap's condition is 0. -/
theorem not_slt_zero {v : BitVec 32} (hv : v.toNat < 1000000) : ¬ IntOp.cmpi .slt v 0#32 = 1#1 := by
  rw [IntOp.cmpi_slt, toInt_of_lt hv, show (0#32 : BitVec 32).toInt = 0 from by decide]
  omega

/-- A word below a million passes both comparisons of the mask. -/
theorem in_range_bit {v : BitVec 32} (hv : v.toNat < 1000000) :
    IntOp.andi (IntOp.cmpi .sge v 0#32) (IntOp.cmpi .sle v 999999#32) = 1#1 := by
  refine IntOp.andi_eq_one.2 ⟨IntOp.cmpi_sge.2 ?_, IntOp.cmpi_sle.2 ?_⟩
  · rw [toInt_of_lt hv, show (0#32 : BitVec 32).toInt = 0 from by decide]; omega
  · rw [toInt_of_lt hv, show (999999#32 : BitVec 32).toInt = 999999 from by decide]; omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The pieces in range -/

section InRange

variable (ids : IVec S16384x50 32) (hr : ∀ k, (ids k).toNat < 1000000)
include hr

/-- In range the wrap is the identity. -/
theorem wrapped_apply (k : S16384x50.Idx) : wrapped ids k = ids k := by
  show Scalar.select (IntOp.cmpi .slt (ids k) 0#32) (IntOp.addi (ids k) 1000000#32) (ids k) = ids k
  exact if_neg (not_slt_zero (hr k))

/-- In range every start index is a row number, below a million. -/
theorem starts_lt (i : S16384x50x1.Idx) : (starts ids i).toNat < 1000000 := by
  show (wrapped ids _).toNat < 1000000
  rw [wrapped_apply ids hr]
  exact hr _

/-- The start index at (b, h, 0) is the row number at (b, h). -/
theorem starts_apply (b : Fin 16384) (h : Fin 50) : starts ids (ix3 b h 0) = ids (ix2 b h) := by
  unfold starts
  rw [broadcastInDim_apply _ _ _ (ix3 b h (0 : Fin 1)) (ix2 b h)
    (fun a => by match a with | ⟨0, _⟩ => rfl | ⟨1, _⟩ => rfl)]
  exact wrapped_apply ids hr _

end InRange

/-- Over start indices that are all below a million every entry of the mask is 1. -/
theorem inTable_apply (st : IVec S16384x50x1 32) (hst : ∀ i, (st i).toNat < 1000000) (k : S16384x50.Idx) :
    inTable st k = 1#1 := by
  unfold inTable
  rw [Host.reduce_eq_foldl]
  exact foldl_andi_one _ (fun i => in_range_bit (hst i)) _

/-! ## The gather at an index -/

/-- The gather of whole rows read at (b, h, f): entry f of the row named by the start index at (b, h, 0),
    read signed and clamped into [0, 999999]. Axis 0 of the table is the collapsed axis the start index
    addresses; axis 1 is the one offset axis, read by the result's last coordinate. -/
theorem gather_rows_apply {α : Type} (x : S1000000x64.Idx → α) (idx : IVec S16384x50x1 32)
    (b : Fin 16384) (h : Fin 50) (f : Fin 64) :
    Host.gather gather_S1000000x64_S16384x50x1_S16384x50x64_2_0_n_n_0_2_164 x idx (ix3 b h f)
      = x (ix2 (⟨min (idx (ix3 b h 0)).toInt.toNat 999999, by omega⟩ : Fin 1000000) f) := by
  unfold Host.gather
  congr 1
  funext a
  refine Fin.ext ?_
  match a with
  | ⟨0, _⟩ =>
    show GatherDims.start _ (ix3 b h f) idx 0 + GatherDims.batchCoord _ (ix3 b h f) 0 + GatherDims.offCoord _ (ix3 b h f) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (gather_S1000000x64_S16384x50x1_S16384x50x64_2_0_n_n_0_2_164).startIndexMap from List.mem_singleton.mpr rfl)]
    have hsi : (gather_S1000000x64_S16384x50x1_S16384x50x64_2_0_n_n_0_2_164).siIdx (ix3 b h f)
        ⟨List.idxOf (0 : Fin 2) (gather_S1000000x64_S16384x50x1_S16384x50x64_2_0_n_n_0_2_164).startIndexMap,
          List.idxOf_lt_length_iff.2 (List.mem_singleton.mpr rfl)⟩ = ix3 b h 0 := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b h f) idx 1 + GatherDims.batchCoord _ (ix3 b h f) 1 + GatherDims.offCoord _ (ix3 b h f) 1 = f.val
    rw [GatherDims.batchCoord_eq_zero _ _ _ List.not_mem_nil]
    have hs : GatherDims.start gather_S1000000x64_S16384x50x1_S16384x50x64_2_0_n_n_0_2_164 (ix3 b h f) idx 1 = 0 := by
      unfold GatherDims.start
      exact dif_neg (show (1 : Fin 2) ∉ ([0] : List (Fin 2)) from by decide)
    have ho : GatherDims.offCoord gather_S1000000x64_S16384x50x1_S16384x50x64_2_0_n_n_0_2_164 (ix3 b h f) 1 = f.val := by
      unfold GatherDims.offCoord
      rw [dif_pos ((GatherDims.mem_sKept _ _).2
        ⟨show (1 : Fin 2) ∉ ([0] : List (Fin 2)) from by decide, List.not_mem_nil⟩)]
      rfl
    rw [hs, ho]
    omega

/-! ## The value -/

/-- In range the reference's result is the lookup. -/
theorem refOut_eq_lookup {F : FTy → Type} [FloatOps F] (ids : IVec S16384x50 32) (w : FVec F S1000000x64 .f32)
    (hr : ∀ k, (ids k).toNat < 1000000) : refOut ids w = Cert.Proof.Spec.lookup ids w := by
  funext j
  obtain ⟨b, h, f, rfl⟩ : ∃ (b : Fin 16384) (h : Fin 50) (f : Fin 64), j = ix3 b h f := ⟨j 0, j 1, j 2, eq_ix3 j⟩
  rw [Cert.Proof.Spec.lookup_apply]
  unfold refOut pick
  rw [select_apply, broadcastInDim_apply _ _ _ (ix3 b h f) (ix2 b h)
    (fun a => by match a with | ⟨0, _⟩ => rfl | ⟨1, _⟩ => rfl),
    inTable_apply _ (starts_lt ids hr), select_one, gather_rows_apply]
  refine congrArg w (congrArg (fun r => ix2 r f) (Fin.ext ?_))
  show min (starts ids (ix3 b h 0)).toInt.toNat 999999 = min (ids (ix2 b h)).toNat 999999
  rw [starts_apply ids hr, toInt_of_lt (hr _), Int.toNat_natCast]

end Cert.Proof.RefSide

end
-- ==== Proof.RefRun.lean ====
/-
  The reference's run.

  The reference's @main is one call of the outlined take, which itself calls the outlined select once;
  with both calls unfolded at their call sites it is a straight line of 23 operations, each writing a
  buffer of its own. Read in three stretches:
    * eight operations compute the gather's start indices from the row numbers (compare with 0, add a
      million, select: the wrap of a negative row number; then the trailing unit axis);
    * ten compute the mask from the start indices (the two signed comparisons with their constants and
      broadcasts, their conjunction, its all-reduction over the unit axis);
    * five produce the result from the mask, the start indices and the table (the gather, the mask's
      broadcast, the NaN constant and its broadcast, the final select).
  A straight line terminates on every execution and leaves each buffer at the fold of the operations'
  results over the launch contents. A stretch only changes the buffers it writes, so the fold over the
  whole line composes the three stretches' functions, and the two arguments, which nothing writes, are
  as they were. The result buffer therefore holds the composed function of the two arguments, which in
  range is the lookup.
-/
import proofs.«206508_g82686710383178_cont_9to1c4b_561_19_alg».proof.Proof.RefTerm
import Idealize.ShloMosaic.Lib.StableHlo.Run

noncomputable section

namespace Cert.Proof.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The fold over two lines one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The wrap and the unit axis: eight operations, ending in the gather's start indices. -/
abbrev opsStarts : List (HloOp τ sig (Elt F)) :=
  [ TRef.nullary main_call0.c (constantI S_ 32 0#32),
    TRef.unary main_call0.c main_call0.v0 (broadcastInDim S16384x50 ![] bcast_S_S16384x50),
    TRef.binary (.of main_arg0) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0) main_call0.v2 main_call0.v3 addi,
    TRef.ternary main_call0.v1 main_call0.v3 (.of main_arg0) main_call0.call0.v0 select,
    TRef.unary main_call0.call0.v0 main_call0.v5 (broadcastInDim S16384x50x1 ![0, 1] bcast_S16384x50_S16384x50x1_0_1) ]

/-- The mask: ten operations, ending in its all-reduction over the unit axis. -/
abbrev opsMask : List (HloOp τ sig (Elt F)) :=
  [ TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x50x1_S16384x50_d2 h_S_) ]

/-- The gather and the final select: five operations, ending in the result. -/
abbrev opsPick : List (HloOp τ sig (Elt F)) :=
  [ TRef.binary (.of main_arg1) main_call0.v5 main_call0.v13 (fun x i => Host.gather gather_S1000000x64_S16384x50x1_S16384x50x64_2_0_n_n_0_2_164 x i),
    TRef.unary main_call0.v12 main_call0.v14 (broadcastInDim S16384x50x64 ![0, 1] bcast_S16384x50_S16384x50x64_0_1),
    TRef.nullary main_call0.cst (constant S_ .f32 0x7FC00000#32),
    TRef.unary main_call0.cst main_call0.v15 (broadcastInDim S16384x50x64 ![] bcast_S_S16384x50x64),
    TRef.ternary main_call0.v14 main_call0.v13 main_call0.v15 main_call0.v16 select ]

/-- @main's 23 operations in order, the two calls unfolded: the callee's operations over the call's own buffers. -/
abbrev ops : List (HloOp τ sig (Elt F)) := opsStarts ++ (opsMask ++ opsPick)

set_option maxRecDepth 1024 in
/-- @main is that straight line: the two functions' definitions unfolded at their calls, the three stretches
    joined, then sequencing reassociated. -/
theorem main_eq (c : Dev nD) : main (F := F) c = seq ops := by
  simp only [main, fn_take.body, fn_where.body, ops, opsStarts, opsMask, opsPick, List.cons_append, List.nil_append,
    seq, bind_assoc, pure_bind]

/-! ## Each stretch, from any contents -/

/-- The first stretch leaves the start indices of the row numbers. -/
theorem starts_eq (V : Valuation τ sig (Elt F)) :
    after opsStarts V (main_call0_v5 : DevRef τ sig) = starts (V (main_arg0 : DevRef τ sig)) := by
  after_results
  rfl

theorem starts_arg0 (V : Valuation τ sig (Elt F)) :
    after opsStarts V (main_arg0 : DevRef τ sig) = V (main_arg0 : DevRef τ sig) := by
  after_results

theorem starts_arg1 (V : Valuation τ sig (Elt F)) :
    after opsStarts V (main_arg1 : DevRef τ sig) = V (main_arg1 : DevRef τ sig) := by
  after_results

-- the all-reduction is kept folded while the two sides are compared: its body is a fold over the operand's elements
attribute [local irreducible] Host.reduce in
/-- The second stretch leaves the mask of the start indices. -/
theorem mask_eq (V : Valuation τ sig (Elt F)) :
    after opsMask V (main_call0_v12 : DevRef τ sig) = inTable (V (main_call0_v5 : DevRef τ sig)) := by
  after_results
  rfl

theorem mask_v5 (V : Valuation τ sig (Elt F)) :
    after opsMask V (main_call0_v5 : DevRef τ sig) = V (main_call0_v5 : DevRef τ sig) := by
  after_results

theorem mask_arg0 (V : Valuation τ sig (Elt F)) :
    after opsMask V (main_arg0 : DevRef τ sig) = V (main_arg0 : DevRef τ sig) := by
  after_results

theorem mask_arg1 (V : Valuation τ sig (Elt F)) :
    after opsMask V (main_arg1 : DevRef τ sig) = V (main_arg1 : DevRef τ sig) := by
  after_results

-- the gather and the all-reduction are kept folded while the two sides are compared
attribute [local irreducible] Host.reduce Host.gather in
/-- The third stretch leaves the gathered entry where the mask is 1, a NaN elsewhere. -/
theorem pick_eq (V : Valuation τ sig (Elt F)) :
    after opsPick V (main_v0 : DevRef τ sig)
      = pick (V (main_call0_v12 : DevRef τ sig)) (V (main_call0_v5 : DevRef τ sig)) (V (main_arg1 : DevRef τ sig)) := by
  after_results
  rfl

theorem pick_arg0 (V : Valuation τ sig (Elt F)) :
    after opsPick V (main_arg0 : DevRef τ sig) = V (main_arg0 : DevRef τ sig) := by
  after_results

theorem pick_arg1 (V : Valuation τ sig (Elt F)) :
    after opsPick V (main_arg1 : DevRef τ sig) = V (main_arg1 : DevRef τ sig) := by
  after_results

/-! ## The whole line -/

/-- The fold at the result buffer is the composed term of the two arguments' contents. -/
theorem out_eq (V : Valuation τ sig (Elt F)) :
    after ops V (main_v0 : DevRef τ sig) = refOut (V (main_arg0 : DevRef τ sig)) (V (main_arg1 : DevRef τ sig)) := by
  show after (opsStarts ++ (opsMask ++ opsPick)) V (main_v0 : DevRef τ sig) = _
  rw [after_append, after_append, pick_eq, mask_eq, mask_v5, mask_arg1, starts_eq, starts_arg1]
  rfl

/-- No operation writes the row numbers. -/
theorem arg0_eq (V : Valuation τ sig (Elt F)) :
    after ops V (main_arg0 : DevRef τ sig) = V (main_arg0 : DevRef τ sig) := by
  show after (opsStarts ++ (opsMask ++ opsPick)) V (main_arg0 : DevRef τ sig) = _
  rw [after_append, after_append, pick_arg0, mask_arg0, starts_arg0]

/-- No operation writes the table. -/
theorem arg1_eq (V : Valuation τ sig (Elt F)) :
    after ops V (main_arg1 : DevRef τ sig) = V (main_arg1 : DevRef τ sig) := by
  show after (opsStarts ++ (opsMask ++ opsPick)) V (main_arg1 : DevRef τ sig) = _
  rw [after_append, after_append, pick_arg1, mask_arg1, starts_arg1]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of
    @main terminates with the result buffer at the composed term of the two arguments, and the arguments unchanged.
    No range is needed for this. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

/-- With every row number below a million, the result buffer holds the lookup. -/
theorem run (m' : (ℓ : Loc nD τ sig) → Buf (Elt F) ℓ) (ρ' : Dev nD → PrngReg)
    (hids : ∀ (c : Dev nD) i, (m' ((c.tc : Thread nD τ).loc main_arg0) i).toNat < 1000000) :
    θ_run (defs (F := F)) (onTc (τ := τ) (main (F := F))) ⟨m', fun _ => 0, ρ'⟩ fun r => ∀ c : Dev nD,
      r.2.mem ((c.tc : Thread nD τ).loc main_v0)
          = Cert.Proof.Spec.lookup (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun _ h c => ⟨(h c).1.trans (refOut_eq_lookup _ _ (hids c)), (h c).2⟩) (run_term m' ρ')

end Cert.Proof.RefSide

end
-- ==== Proof.KISetup.lean ====
/-
  The kernel program as the launch theorem sees it, and what its handshakes carry.

  @main on the TensorCore flattens the row numbers ([16384, 50] to [819200]) and pairs up the table's rows
  ([1000000, 64] to [500000, 128]), both in row-major order, starts one vector-subcore kernel on 2 SparseCores of 16
  tiles each, and transposes what the kernel wrote ([50, 64, 16384] to [16384, 50, 64]).

  Tile (core c, subcore s) has number s * 2 + c among the 32. It only READS the flattened row numbers and the paired table,
  and it WRITES exactly the entries (h, f, b) of the [50, 64, 16384] array whose last coordinate b lies in its own
  block of 512 columns, b / 512 = s * 2 + c. The 32 blocks tile the 16384 columns, so the output array splits into 32
  pairwise disjoint parts, one per tile, and first into two parts, one per SparseCore (the blocks of even and of odd
  number). The two arrays that are only read go out as read shares of the whole array: a share per SparseCore, of it a
  share per tile; of the table each tile gets TWO shares, since two of its gathers are in flight at the same time and
  each holds a share of the table until it has been waited for.
-/
import proofs.«206508_g82686710383178_cont_9to1c4b_561_19_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the kernel's memrefs -/

variable (m : (ℓ : Loc nD τ sig) → Buf (Elt F) ℓ) (ρ : Dev nD → PrngReg)

/-- The two arguments, the two reshaped arrays the kernel reads, the array it writes, and the result. -/
abbrev a0Loc (d : Dev nD) : Loc nD τ sig := (SparseCore.T d).loc main_arg0
abbrev a1Loc (d : Dev nD) : Loc nD τ sig := (SparseCore.T d).loc main_arg1
abbrev idsLoc (d : Dev nD) : Loc nD τ sig := (SparseCore.T d).loc main_v0
abbrev tblLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

variable [FloatOps F]

abbrev idsW : Memref sig .scVector .hbm S819200 .i32 := Memref.whole main_v0_scv
abbrev tblW : Memref sig .scVector .hbm S500000x128 .f32 := Memref.whole main_v1_scv
abbrev outW : Memref sig .scVector .hbm S50x64x16384 .f32 := Memref.whole main_v2_scv
abbrev b0 : Memref sig .scVector .vmem S25600 .i32 := Memref.whole cc0_scratch0
abbrev b1 : Memref sig .scVector .vmem S128 .i32 := Memref.whole cc0_scratch1
abbrev b2 : Memref sig .scVector .vmem S128 .i32 := Memref.whole cc0_scratch2
abbrev b3 : Memref sig .scVector .vmem S8x16 .i32 := Memref.whole cc0_scratch3
abbrev b4 : Memref sig .scVector .vmem S8x16 .i32 := Memref.whole cc0_scratch4
abbrev b5 : Memref sig .scVector .vmem S128x128 .f32 := Memref.whole cc0_scratch5
abbrev b6 : Memref sig .scVector .vmem S128x128 .f32 := Memref.whole cc0_scratch6
abbrev b7 : Memref sig .scVector .vmem S64x128 .f32 := Memref.whole cc0_scratch7
abbrev b8 : Memref sig .scVector .vmem S64x128 .f32 := Memref.whole cc0_scratch8

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-! ## What the kernel reads: the two arguments in row-major order under their new shapes -/

/-- The row numbers flattened: what the first host operation writes. -/
def idsFlat (d : Dev nD) : Buf (Elt F) (idsLoc d) :=
  shapeCast S819200 (m (a0Loc d)) shapeCasts_S16384x50_S819200
/-- The table with its rows paired: what the second host operation writes. -/
def tbl (d : Dev nD) : Buf (Elt F) (tblLoc d) :=
  shapeCast S500000x128 (m (a1Loc d)) shapeCasts_S1000000x64_S500000x128

/-! ## Shares and parts -/

/-- SparseCore `c`'s read share of an array, tile `(c, i)`'s share of that, and its two halves. -/
abbrev qC (c : ℕ) : PosShare TreeShare := shareTokN fullShare c
abbrev qI (c i : ℕ) : PosShare TreeShare := shareTokN (qC c) i
abbrev qT (c i : ℕ) : PosShare TreeShare := (qI c i).left
abbrev qT' (c i : ℕ) : PosShare TreeShare := (qI c i).right

/-- Tile `(c, i)`'s part of the output: the entries whose column lies in block `i * 2 + c` of 512 columns. -/
def outSet (c i : ℕ) : Finset S50x64x16384.Idx := Finset.univ.filter fun j => (j 2).val / 512 = i * 2 + c
theorem mem_outSet {c i : ℕ} {j : S50x64x16384.Idx} : j ∈ outSet c i ↔ (j 2).val / 512 = i * 2 + c := by
  unfold outSet; rw [Finset.mem_filter]; exact ⟨fun h => h.2, fun h => ⟨Finset.mem_univ _, h⟩⟩
/-- SparseCore `c`'s part: the blocks whose number has parity `c`. -/
def coreSet (c : ℕ) : Finset S50x64x16384.Idx := Finset.univ.filter fun j => (j 2).val / 512 % 2 = c
theorem mem_coreSet {c : ℕ} {j : S50x64x16384.Idx} : j ∈ coreSet c ↔ (j 2).val / 512 % 2 = c := by
  unfold coreSet; rw [Finset.mem_filter]; exact ⟨fun h => h.2, fun h => ⟨Finset.mem_univ _, h⟩⟩

abbrev idsPts (d : Dev nD) (q : PosShare TreeShare) : sProp 𝕄 := idsLoc d ↦{q} idsFlat m d
abbrev tblPts (d : Dev nD) (q : PosShare TreeShare) : sProp 𝕄 := tblLoc d ↦{q} tbl m d
abbrev outPts (d : Dev nD) (A : Finset S50x64x16384.Idx) (f : Buf (Elt F) (outLoc d)) : sProp 𝕄 := outLoc d ↦[A]{fullShare} f

/-- What a tile is handed, and what it hands back: its read shares, and its part of the output, at the launch
    contents on the way in and at whatever it wrote on the way back. -/
abbrev goRes (d : Dev nD) (c i : ℕ) : sProp 𝕄 :=
  iprop(idsPts m d (qI c i) ∗ tblPts m d (qT c i) ∗ tblPts m d (qT' c i) ∗ outPts d (outSet c i) (m (outLoc d)))
abbrev tdRes (d : Dev nD) (c i : ℕ) : sProp 𝕄 :=
  iprop(idsPts m d (qI c i) ∗ tblPts m d (qT c i) ∗ tblPts m d (qT' c i) ∗ ∃ f, outPts d (outSet c i) f)
/-- The same per SparseCore. -/
abbrev stRes (d : Dev nD) (c : ℕ) : sProp 𝕄 :=
  iprop(idsPts m d (qC c) ∗ tblPts m d (qC c) ∗ outPts d (coreSet c) (m (outLoc d)))
abbrev dnRes (d : Dev nD) (c : ℕ) : sProp 𝕄 :=
  iprop(idsPts m d (qC c) ∗ tblPts m d (qC c) ∗ ∃ f, outPts d (coreSet c) f)

/-- What the handshakes carry. The kernel has no cells of its own: it only makes local copies and waits for them. -/
def P : (K (F := F)).Pay (nD := nD) (Val := Elt F) (Name := ℕ) (U := UU) where
  st := fun q d c => match q with | 0 => stRes m d c.val
  dn := fun q d c => match q with | 0 => dnRes m d c.val
  go := fun q d c i => match q with | 0 => goRes m d c.val i.val
  td := fun q d c i => match q with | 0 => tdRes m d c.val i.val
  x := fun _ _ => iprop(emp)

instance P_storable : (P (F := F) m).IsStorable where
  st q d c := match q with | 0 => (inferInstance : BI.Storable (upEmb : UEmb _ 𝕄) (stRes m d c.val))
  dn q d c := match q with | 0 => (inferInstance : BI.Storable (upEmb : UEmb _ 𝕄) (dnRes m d c.val))
  go q d c i := match q with | 0 => (inferInstance : BI.Storable (upEmb : UEmb _ 𝕄) (goRes m d c.val i.val))
  td q d c i := match q with | 0 => (inferInstance : BI.Storable (upEmb : UEmb _ 𝕄) (tdRes m d c.val i.val))

/-! ## The body statement the launch takes -/

/-- One tile's task, at a symbolic place `L` of the grid: from its read shares, its part of the output and its own
    scoped storage, the kernel function runs to the same with its part of the output at some contents. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => iprop(tdRes m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KILaunch.lean ====
/-
  The launch of the kernel program: from one tile's task, proved once at a symbolic place, to every weakly
  fair execution of the device's 35 threads.

  Each of the 32 tiles reads the flattened row numbers and the paired table through read shares of the whole
  arrays and owns its own 512 columns of the output. The columns of number b / 512 = i * 2 + c, for i below 16,
  are exactly the columns whose block number has parity c: SparseCore c's part of the output is the disjoint
  union of its sixteen tiles' parts, and the whole output is the disjoint union of the two SparseCores' parts.
  A share of an array splits into a remainder and sixteen (or two) tokens, and joins back; a token splits into
  its two halves, and joins back. So the TensorCore can hand each SparseCore a share of the two read-only arrays
  and half of the output, each SparseCore can hand each tile a share of its share (two for the table) and that
  tile's columns, and everything comes back the same way, the output at whatever the tiles wrote.

  On the TensorCore, @main is: the two reshapes (each a host operation that writes one new array and leaves the
  arguments alone), the call, and the transpose of the kernel's output into the result. The two arguments are never
  written: they are held aside at their launch contents from the first line to the last.
-/
import proofs.«206508_g82686710383178_cont_9to1c4b_561_19_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareDrop shareTok pointsTo_toks pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The tile obligation, from the body statement -/

theorem defs₀_vector (c : Fin τ.nSC) (s : Fin τ.nSub) :
    defs₀ (F := F) (.scVector c s) 0 ()
      = SparseCore.onTile hcore0 hsub0 (fun c s => cc0__emb_lookup (coordsV c s)
          idsW (Memref.isWhole_whole _) tblW (Memref.isWhole_whole _) outW (Memref.isWhole_whole _)
          b0 (Memref.isWhole_whole _) b1 (Memref.isWhole_whole _) b2 (Memref.isWhole_whole _) b3 (Memref.isWhole_whole _)
          b4 (Memref.isWhole_whole _) b5 (Memref.isWhole_whole _) b6 (Memref.isWhole_whole _) b7 (Memref.isWhole_whole _)
          b8 (Memref.isWhole_whole _) cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the kernel, from one tile's task at a symbolic place. -/
theorem tileObl (hb : TileBody m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## The output's parts -/

omit [FloatOps F] in
theorem col_lt (x : S50x64x16384.Idx) : (x 2).val < 16384 := (x 2).isLt

omit [FloatOps F] in
theorem outSet_disjoint (c : ℕ) : ∀ i ∈ (Finset.univ : Finset (Fin 16)), ∀ j ∈ (Finset.univ : Finset (Fin 16)), i ≠ j →
    Disjoint (outSet c i.val) (outSet c j.val) := by
  intro i _ j _ h
  rw [Finset.disjoint_left]
  intro x hx hy
  rw [mem_outSet] at hx hy
  exact h (Fin.ext (by omega))

omit [FloatOps F] in
theorem outSet_cover (c : ℕ) (hc : c < 2) : (Finset.univ : Finset (Fin 16)).biUnion (fun i => outSet c i.val) = coreSet c := by
  ext x
  rw [Finset.mem_biUnion, mem_coreSet]
  constructor
  · rintro ⟨i, -, hi⟩
    rw [mem_outSet] at hi
    omega
  · intro h
    have hx := col_lt x
    exact ⟨⟨(x 2).val / 512 / 2, by omega⟩, Finset.mem_univ _, mem_outSet.2 (by show (x 2).val / 512 = (x 2).val / 512 / 2 * 2 + c; omega)⟩

omit [FloatOps F] in
theorem coreSet_disjoint : ∀ c ∈ (Finset.univ : Finset (Fin 2)), ∀ c' ∈ (Finset.univ : Finset (Fin 2)), c ≠ c' →
    Disjoint (coreSet c.val) (coreSet c'.val) := by
  intro c _ c' _ h
  rw [Finset.disjoint_left]
  intro x hx hy
  rw [mem_coreSet] at hx hy
  exact h (Fin.ext (by omega))

omit [FloatOps F] in
theorem coreSet_cover : (Finset.univ : Finset (Fin 2)).biUnion (fun c => coreSet c.val) = (Finset.univ : Finset S50x64x16384.Idx) := by
  ext x
  rw [Finset.mem_biUnion]
  exact ⟨fun _ => Finset.mem_univ _, fun _ => ⟨⟨(x 2).val / 512 % 2, by omega⟩, Finset.mem_univ _, mem_coreSet.2 rfl⟩⟩

omit [FloatOps F] in
theorem out_tiles (d : Dev nD) (c : ℕ) (hc : c < 2) (f : Buf (Elt F) (outLoc d)) :
    (outPts d (coreSet c) f : sProp 𝕄) = bigSep Finset.univ fun i : Fin 16 => outPts d (outSet c i.val) f := by
  rw [← pointsTo_biUnion Finset.univ (ℓ := outLoc d) (fun i : Fin 16 => outSet c i.val) (outSet_disjoint c), outSet_cover c hc]

omit [FloatOps F] in
theorem out_cores (d : Dev nD) (f : Buf (Elt F) (outLoc d)) :
    (outLoc d ↦{fullShare} f : sProp 𝕄) = bigSep Finset.univ fun c : Fin 2 => outPts d (coreSet c.val) f := by
  rw [← pointsTo_biUnion Finset.univ (ℓ := outLoc d) (fun c : Fin 2 => coreSet c.val) coreSet_disjoint, coreSet_cover]

theorem out_tiles_join (d : Dev nD) (c : ℕ) (hc : c < 2) :
    (bigSep Finset.univ fun i : Fin 16 => iprop(∃ f, outPts (F := F) d (outSet c i.val) f)) ⊢ (iprop(∃ f, outPts d (coreSet c) f) : sProp 𝕄) := by
  refine (bigSep_exists_pi Finset.univ (fun (i : Fin 16) (f : Buf (Elt F) (outLoc d)) => outPts d (outSet c i.val) f)).trans ?_
  iintro ⟨%fs, H⟩
  ihave H' := (pointsTo_biUnion_join Finset.univ (fun i : Fin 16 => outSet c i.val) fs (fs 0) (outSet_disjoint c)) $$ H
  icases H' with ⟨%g, -, Hg⟩
  rw [outSet_cover c hc]
  iexists g; iexact Hg

theorem out_cores_join (d : Dev nD) :
    (bigSep Finset.univ fun c : Fin 2 => iprop(∃ f, outPts (F := F) d (coreSet c.val) f)) ⊢ (iprop(∃ f, outLoc d ↦{fullShare} f) : sProp 𝕄) := by
  refine (bigSep_exists_pi Finset.univ (fun (c : Fin 2) (f : Buf (Elt F) (outLoc d)) => outPts d (coreSet c.val) f)).trans ?_
  iintro ⟨%fs, H⟩
  ihave H' := (pointsTo_biUnion_join Finset.univ (fun c : Fin 2 => coreSet c.val) fs (fs 0) coreSet_disjoint) $$ H
  icases H' with ⟨%g, -, Hg⟩
  rw [coreSet_cover]
  iexists g; iexact Hg

/-! ## A token's halves -/

omit [FloatOps F] in
theorem halves {ℓ : Loc nD τ sig} (f : Buf (Elt F) ℓ) (q : PosShare TreeShare) :
    (ℓ ↦{q} f : sProp 𝕄) ⊣⊢ iprop((ℓ ↦{q.left} f) ∗ ℓ ↦{q.right} f) :=
  pointsTo_share (PosShare.mem_left_op_right _)

omit [FloatOps F] in
theorem halves_split {ℓ : Loc nD τ sig} (f : Buf (Elt F) ℓ) (c : ℕ) :
    (bigSep Finset.univ fun i : Fin 16 => (ℓ ↦{qI c i.val} f : sProp 𝕄))
      ⊢ iprop((bigSep Finset.univ fun i : Fin 16 => ℓ ↦{qT c i.val} f) ∗ bigSep Finset.univ fun i : Fin 16 => ℓ ↦{qT' c i.val} f) := by
  rw [← bigSep_sep']
  exact bigSep_mono fun i _ => (halves f (qI c i.val)).1

omit [FloatOps F] in
theorem halves_join {ℓ : Loc nD τ sig} (f : Buf (Elt F) ℓ) (c : ℕ) :
    iprop((bigSep Finset.univ fun i : Fin 16 => ℓ ↦{qT c i.val} f) ∗ bigSep Finset.univ fun i : Fin 16 => ℓ ↦{qT' c i.val} f)
      ⊢ (bigSep Finset.univ fun i : Fin 16 => (ℓ ↦{qI c i.val} f : sProp 𝕄)) := by
  rw [← bigSep_sep']
  exact bigSep_mono fun i _ => (halves f (qI c i.val)).2

/-! ## A SparseCore's operands split among its tiles -/

theorem vecSplit : (K (F := F)).VecSplit' (P m) 0 := by
  intro d c
  have hc : c.val < 2 := c.isLt
  show stRes m d c.val ⊢ |={Set.univ}=> iprop(
      (bigSep Finset.univ fun i : Fin 16 => goRes m d c.val i.val)
      ∗ ((bigSep Finset.univ fun i : Fin 16 => tdRes m d c.val i.val) -∗ dnRes m d c.val))
  unfold stRes dnRes goRes tdRes
  rw [bigSep_sep', bigSep_sep', bigSep_sep', bigSep_sep', bigSep_sep', bigSep_sep', out_tiles d c.val hc]
  iintro ⟨Hi, Ht, Ho⟩
  ihave Hi' := (pointsTo_toks_split (qC c.val) 16) $$ Hi
  icases Hi' with ⟨HiR, HiT⟩
  ihave Ht' := (pointsTo_toks_split (qC c.val) 16) $$ Ht
  icases Ht' with ⟨HtR, HtT⟩
  ihave Hh := (halves_split (tbl m d) c.val) $$ HtT
  icases Hh with ⟨HtA, HtB⟩
  imodintro
  isplitl [HiT HtA HtB Ho]
  · isplitl [HiT]; · iexact HiT
    isplitl [HtA]; · iexact HtA
    isplitl [HtB]; · iexact HtB
    iexact Ho
  iintro ⟨Hi2, HtA2, HtB2, Ho2⟩
  isplitl [HiR Hi2]
  · iapply (pointsTo_toks_join (qC c.val) 16)
    isplitl [HiR]; · iexact HiR
    iexact Hi2
  isplitl [HtR HtA2 HtB2]
  · iapply (pointsTo_toks_join (qC c.val) 16)
    isplitl [HtR]; · iexact HtR
    iapply (halves_join (tbl m d) c.val)
    isplitl [HtA2]; · iexact HtA2
    iexact HtB2
  iapply (out_tiles_join d c.val hc); iexact Ho2

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three host operations. -/
abbrev opR0 : HloOp τ sig (Elt F) := StableHlo.reshape main_arg0 main_v0 rfl shapeCasts_S16384x50_S819200
abbrev opR1 : HloOp τ sig (Elt F) := StableHlo.reshape main_arg1 main_v1 rfl shapeCasts_S1000000x64_S500000x128
abbrev opT : HloOp τ sig (Elt F) :=
  StableHlo.unary main_v2 main_v3 ((transpose S16384x50x64 [2, 0, 1] · transposes_S50x64x16384_S16384x50x64_2_0_1) :
    (⟨S50x64x16384, .f32⟩ : BufTy).Contents (Elt F) → (⟨S16384x50x64, .f32⟩ : BufTy).Contents (Elt F))

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (idsLoc d ↦{fullShare} W main_v0)
      ∗ (tblLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Two whole arrays of the device, as the host operations' rule holds them. -/
theorem held_pair (d : Dev nD) (x y : Ref sig .tc) (h : (Proc.devRef .tc x : DevRef τ sig) ≠ Proc.devRef .tc y) (W : Valuation τ sig (Elt F)) :
    (held (T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := by
  unfold held
  rw [SparseCore.bigSep_insert' (Finset.notMem_singleton.mpr h), bigSep_singleton]

/-- The launch valuation. -/
def V0 (d : Dev nD) : Valuation τ sig (Elt F) := fun b => m (d, b)
/-- A valuation with the kernel's output at `f`. -/
def V3 (d : Dev nD) (f : Buf (Elt F) (outLoc d)) : Valuation τ sig (Elt F) := Function.update (V0 m d) v2' f

theorem R0_a0 (d : Dev nD) : (opR0 (F := F)).result (V0 m d) a0' = m (a0Loc d) :=
  StableHlo.reshape_result_ne _ _ _ _ _ _ (V0 m d) (show (main_arg0 : Ref sig .tc) ≠ main_v0 by decide)
theorem R0_v0 (d : Dev nD) : (opR0 (F := F)).result (V0 m d) v0' = idsFlat m d :=
  (StableHlo.reshape_result main_arg0 main_v0 rfl shapeCasts_S16384x50_S819200 _ _ (V0 m d)).trans rfl
theorem R1_a1 (d : Dev nD) : (opR1 (F := F)).result (V0 m d) a1' = m (a1Loc d) :=
  StableHlo.reshape_result_ne _ _ _ _ _ _ (V0 m d) (show (main_arg1 : Ref sig .tc) ≠ main_v1 by decide)
theorem R1_v1 (d : Dev nD) : (opR1 (F := F)).result (V0 m d) v1' = tbl m d :=
  (StableHlo.reshape_result main_arg1 main_v1 rfl shapeCasts_S1000000x64_S500000x128 _ _ (V0 m d)).trans rfl

theorem hR0 : (opR0 (F := F)).bufs ⊆ ({a0', v0'} : Finset (DevRef τ sig)) := by
  rw [StableHlo.reshape_bufs]
theorem hR1 : (opR1 (F := F)).bufs ⊆ ({a1', v1'} : Finset (DevRef τ sig)) := by
  rw [StableHlo.reshape_bufs]
theorem hT : (opT (F := F)).bufs ⊆ ({v2', v3'} : Finset (DevRef τ sig)) := by
  rw [StableHlo.unary_bufs]

/-- What the call takes for the two SparseCores, and what it hands back. -/
theorem st0_eq (d : Dev nD) : (bigSep Finset.univ fun c : Fin ((K (F := F)).nCore 0) => (P m).st 0 d c) = bigSep Finset.univ fun c : Fin 2 => stRes m d c.val := rfl
theorem dn0_eq (d : Dev nD) : (bigSep Finset.univ fun c : Fin ((K (F := F)).nCore 0) => (P m).dn 0 d c) = bigSep Finset.univ fun c : Fin 2 => dnRes m d c.val := rfl

/-- What @main leaves the claim: the two arguments at their launch contents. -/
abbrev FIN (d : Dev nD) : sProp 𝕄 := iprop((a0Loc d ↦{fullShare} m (a0Loc d)) ∗ a1Loc d ↦{fullShare} m (a1Loc d))

theorem st0_split (d : Dev nD) : (bigSep Finset.univ fun c : Fin ((K (F := F)).nCore 0) => (P m).st 0 d c)
    = iprop((bigSep Finset.univ fun c : Fin 2 => idsPts m d (qC c.val)) ∗ (bigSep Finset.univ fun c : Fin 2 => tblPts m d (qC c.val))
        ∗ bigSep Finset.univ fun c : Fin 2 => outPts d (coreSet c.val) (m (outLoc d))) := by
  rw [st0_eq]; unfold stRes; rw [bigSep_sep', bigSep_sep']
theorem dn0_split (d : Dev nD) : (bigSep Finset.univ fun c : Fin ((K (F := F)).nCore 0) => (P m).dn 0 d c)
    = iprop((bigSep Finset.univ fun c : Fin 2 => idsPts m d (qC c.val)) ∗ (bigSep Finset.univ fun c : Fin 2 => tblPts m d (qC c.val))
        ∗ bigSep Finset.univ fun c : Fin 2 => iprop(∃ f, outPts (F := F) d (coreSet c.val) f)) := by
  rw [dn0_eq]; unfold dnRes; rw [bigSep_sep', bigSep_sep']

/-- The arrays each host operation holds, before and after it. -/
theorem held_in0 (d : Dev nD) : (held (T d) {a0', v0'} (V0 m d) : sProp 𝕄) = iprop((a0Loc d ↦{fullShare} m (a0Loc d)) ∗ idsLoc d ↦{fullShare} m (idsLoc d)) :=
  held_pair d main_arg0 main_v0 (by decide) _
theorem held_out0 (d : Dev nD) : (held (T d) {a0', v0'} ((opR0 (F := F)).result (V0 m d)) : sProp 𝕄) = iprop((a0Loc d ↦{fullShare} m (a0Loc d)) ∗ idsLoc d ↦{fullShare} idsFlat m d) := by
  rw [held_pair d main_arg0 main_v0 (by decide), R0_a0, R0_v0]
theorem held_in1 (d : Dev nD) : (held (T d) {a1', v1'} (V0 m d) : sProp 𝕄) = iprop((a1Loc d ↦{fullShare} m (a1Loc d)) ∗ tblLoc d ↦{fullShare} m (tblLoc d)) :=
  held_pair d main_arg1 main_v1 (by decide) _
theorem held_out1 (d : Dev nD) : (held (T d) {a1', v1'} ((opR1 (F := F)).result (V0 m d)) : sProp 𝕄) = iprop((a1Loc d ↦{fullShare} m (a1Loc d)) ∗ tblLoc d ↦{fullShare} tbl m d) := by
  rw [held_pair d main_arg1 main_v1 (by decide), R1_a1, R1_v1]
theorem held_inT (d : Dev nD) (f : Buf (Elt F) (outLoc d)) : (held (T d) {v2', v3'} (V3 m d f) : sProp 𝕄) = iprop((outLoc d ↦{fullShare} f) ∗ resLoc d ↦{fullShare} m (resLoc d)) := by
  rw [held_pair d main_v2 main_v3 (by decide)]
  unfold V3
  rw [Function.update_self, Function.update_of_ne (show v3' ≠ v2' by decide)]
  rfl

/-- @main on device `d`'s TensorCore: the two reshapes, the call, the transpose; the two arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3⟩, -, -⟩, -⟩
  -- the row numbers flattened
  iapply (wp_hlo_within 𝒱 (SparseCore.T d) none Set.univ (op := opR0) (S := {a0', v0'}) hR0 (V := V0 m d)) $$ [Hb Ha0 Hv0]
  · isplitl [Hb]; · iexact Hb
    rw [held_in0]
    isplitl [Ha0]; · iexact Ha0
    iexact Hv0
  iintro ⟨Hb, Hheld⟩
  ihave Hh := (Entails.of_eq (held_out0 m d)) $$ Hheld
  icases Hh with ⟨Ha0, Hv0⟩
  rw [wp_ret]; imodintro
  -- the table's rows paired
  iapply (wp_hlo_within 𝒱 (SparseCore.T d) none Set.univ (op := opR1) (S := {a1', v1'}) hR1 (V := V0 m d)) $$ [Hb Ha1 Hv1]
  · isplitl [Hb]; · iexact Hb
    rw [held_in1]
    isplitl [Ha1]; · iexact Ha1
    iexact Hv1
  iintro ⟨Hb, Hheld⟩
  ihave Hh := (Entails.of_eq (held_out1 m d)) $$ Hheld
  icases Hh with ⟨Ha1, Hv1⟩
  rw [wp_ret]; imodintro
  -- the call: a read share of each reshaped array and its half of the output to each SparseCore
  ihave Hv0' := (pointsTo_toks_split fullShare 2) $$ Hv0
  icases Hv0' with ⟨-, Hv0T⟩
  ihave Hv1' := (pointsTo_toks_split fullShare 2) $$ Hv1
  icases Hv1' with ⟨-, Hv1T⟩
  ihave Hv2' := (Entails.of_eq (out_cores d (m (outLoc d)))) $$ Hv2
  iapply ((K (F := F)).wp_run (D (F := F)) 𝒱 (EH := EH) (P := P m) κ d 0) $$ [Hst Hv0T Hv1T Hv2' Hb Ha0 Ha1 Hv3]
  isplitr; · iexact Hctx
  isplitl [Hst]; · iexact Hst
  isplitl [Hv0T Hv1T Hv2']
  · rw [st0_split]
    isplitl [Hv0T]; · iexact Hv0T
    isplitl [Hv1T]; · iexact Hv1T
    iexact Hv2'
  iintro ⟨Hst, Hdn⟩
  ihave Hdn' := (Entails.of_eq (dn0_split m d)) $$ Hdn
  icases Hdn' with ⟨-, -, Ho⟩
  ihave Ho' := (out_cores_join d) $$ Ho
  icases Ho' with ⟨%f, Hv2⟩
  -- the transpose of whatever the kernel wrote
  iapply (wp_hlo_within 𝒱 (SparseCore.T d) none Set.univ (op := opT) (S := {v2', v3'}) hT (V := V3 m d f)) $$ [Hb Hv2 Hv3]
  · isplitl [Hb]; · iexact Hb
    rw [held_inT]
    isplitl [Hv2]; · iexact Hv2
    iexact Hv3
  iintro ⟨Hb, -⟩
  rw [wp_ret]; imodintro; imodintro
  isplitl [Hst]; · iexact Hst
  isplitl [Ha0]; · iexact Ha0
  iexact Ha1

def fq (d : Dev nD) (s' : Phys nD τ sig (Elt F)) : Prop := s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := a0Loc d) (I := Finset.univ) (q := fullShare) (f := m (a0Loc d)))) $$ [HSI Hi]
  · isplitl [HSI] <;> iassumption
  icases H with ⟨%h1, HSI, -⟩
  ihave H := (SI_pointsTo_agree (st := s') (ℓ := a1Loc d) (I := Finset.univ) (q := fullShare) (f := m (a1Loc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (a0Loc c) = m (a0Loc c) ∧ r.2.mem (a1Loc c) = m (a1Loc c)

/-- From one tile's task: every weakly fair execution of the device's threads terminates, the two arguments unchanged. -/
theorem run_main' [∀ e, Nonempty (Elt F e)] (hb : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The same with the post spelt over the TensorCore's locations. -/
theorem run_main [∀ e, Nonempty (Elt F e)] (hb : TileBody m) :
    θ_run (Cert.KernelIdeal.defs (F := F)) (Cert.KernelIdeal.threads (F := F)) ⟨m, fun _ => 0, ρ⟩
      (fun r => ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  (θ_run Cert.KernelIdeal.defs _ _).mono (fun _ h c => h c) (run_main' m ρ hb)

end Cert.Proof.KI

end
-- ==== Proof.KIPts.lean ====
/-
  The arrays as a tile's memrefs address them are the device's arrays: a whole-array memref of an HBM buffer names,
  from any thread of the device, the location the TensorCore names. These equations move a piece held at the
  TensorCore's location under the spelling a tile's accesses use, and back.
-/
import proofs.«206508_g82686710383178_cont_9to1c4b_561_19_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem pts_ids (d : Dev nD) (c : Fin τ.nSC) (i : Fin τ.nSub) (q : PosShare TreeShare) (f : Buf (Elt F) (idsLoc d)) :
    ((idsW).view.loc (V d c i) ↦{q} f : sProp 𝕄) = idsLoc d ↦{q} f := rfl
theorem pts_tbl (d : Dev nD) (c : Fin τ.nSC) (i : Fin τ.nSub) (q : PosShare TreeShare) (f : Buf (Elt F) (tblLoc d)) :
    ((tblW).view.loc (V d c i) ↦{q} f : sProp 𝕄) = tblLoc d ↦{q} f := rfl
theorem pts_out (d : Dev nD) (c : Fin τ.nSC) (i : Fin τ.nSub) (A : Finset S50x64x16384.Idx) (f : Buf (Elt F) (outLoc d)) :
    ((outW).view.loc (V d c i) ↦[A]{fullShare} f : sProp 𝕄) = outLoc d ↦[A]{fullShare} f := rfl

end Cert.Proof.KI

end
-- ==== Proof.KIOwn.lean ====
/-
  A tile's own storage, piece by piece.

  What a vector subcore is handed at the entry of its task is all of its scoped storage: every buffer of its own at
  some contents, every scoped semaphore of its own at zero. The kernel names nine of those buffers (its scratch
  operands) and five of those semaphores (its four DMA semaphores and the one it allocates): they are carved out one
  by one, the rest kept as it was, and put back the same way at the exit.
-/
import proofs.«206508_g82686710383178_cont_9to1c4b_561_19_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile's buffers other than the nine scratch operands. -/
abbrev restRefs (c : Fin τ.nSC) (i : Fin τ.nSub) : Finset (DevRef τ sig) :=
  ((((((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5)).erase ((Proc.scVector c i).devRef cc0_scratch6)).erase ((Proc.scVector c i).devRef cc0_scratch7)).erase ((Proc.scVector c i).devRef cc0_scratch8))

/-- The tile's scoped semaphores other than the five the kernel names. -/
abbrev restCells (d : Dev nD) (c : Fin τ.nSC) (i : Fin τ.nSub) : Finset (GSem nD τ sig) :=
  ((((((ownCells (V d c i)).erase ((V d c i, SemLoc.dma cc0_scratch9.sem) : GSem nD τ sig)).erase ((V d c i, SemLoc.dma cc0_scratch10.sem) : GSem nD τ sig)).erase ((V d c i, SemLoc.dma cc0_scratch11.sem) : GSem nD τ sig)).erase ((V d c i, SemLoc.dma cc0_scratch12.sem) : GSem nD τ sig)).erase ((V d c i, SemLoc.dma cc0_scoped0.sem) : GSem nD τ sig))

/-- The nine scratch buffers are among the subcore's own: they are them, each at some contents, and the rest. -/
theorem ownBufs_V9 (d : Dev nD) (c : Fin τ.nSC) (i : Fin τ.nSub) :
    (ownBufs (V d c i) : sProp 𝕄)
      = iprop((∃ f, (V d c i).loc cc0_scratch0 ↦{fullShare} f)
          ∗ (∃ f, (V d c i).loc cc0_scratch1 ↦{fullShare} f)
          ∗ (∃ f, (V d c i).loc cc0_scratch2 ↦{fullShare} f)
          ∗ (∃ f, (V d c i).loc cc0_scratch3 ↦{fullShare} f)
          ∗ (∃ f, (V d c i).loc cc0_scratch4 ↦{fullShare} f)
          ∗ (∃ f, (V d c i).loc cc0_scratch5 ↦{fullShare} f)
          ∗ (∃ f, (V d c i).loc cc0_scratch6 ↦{fullShare} f)
          ∗ (∃ f, (V d c i).loc cc0_scratch7 ↦{fullShare} f)
          ∗ (∃ f, (V d c i).loc cc0_scratch8 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := (Proc.scVector c i).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := (Proc.scVector c i).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := (Proc.scVector c i).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := (Proc.scVector c i).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector c i) (b := (Proc.scVector c i).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector c i) (b := (Proc.scVector c i).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector c i) (b := (Proc.scVector c i).devRef cc0_scratch8) rfl⟩⟩⟩⟩⟩⟩⟩⟩)]

/-- The five DMA semaphores are among the subcore's scoped ones: they are them, at zero, and the rest at zero. -/
theorem ownSems0_V5 (d : Dev nD) (c : Fin τ.nSC) (i : Fin τ.nSub) :
    (ownSems0 (V d c i) : sProp 𝕄)
      = iprop(semVal ((V d c i, SemLoc.dma cc0_scratch9.sem) : GSem nD τ sig) 0
          ∗ semVal ((V d c i, SemLoc.dma cc0_scratch10.sem) : GSem nD τ sig) 0
          ∗ semVal ((V d c i, SemLoc.dma cc0_scratch11.sem) : GSem nD τ sig) 0
          ∗ semVal ((V d c i, SemLoc.dma cc0_scratch12.sem) : GSem nD τ sig) 0
          ∗ semVal ((V d c i, SemLoc.dma cc0_scoped0.sem) : GSem nD τ sig) 0
          ∗ bigSep (restCells d c i) fun g => semVal g 0) := by
  unfold SparseCore.Cfg.ownSems0
  rw [SparseCore.bigSep_erase' ((mem_ownCells (g := ((V d c i, SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (congrArg Prod.snd e) (show (SemLoc.dma cc0_scratch10.sem : SemLoc sig) ≠ SemLoc.dma cc0_scratch9.sem by decide), (mem_ownCells (g := ((V d c i, SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), (mem_ownCells (g := ((V d c i, SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (congrArg Prod.snd e) (show (SemLoc.dma cc0_scratch12.sem : SemLoc sig) ≠ SemLoc.dma cc0_scratch11.sem by decide), Finset.mem_erase.mpr ⟨fun e => absurd (congrArg Prod.snd e) (show (SemLoc.dma cc0_scratch12.sem : SemLoc sig) ≠ SemLoc.dma cc0_scratch10.sem by decide), Finset.mem_erase.mpr ⟨fun e => absurd (congrArg Prod.snd e) (show (SemLoc.dma cc0_scratch12.sem : SemLoc sig) ≠ SemLoc.dma cc0_scratch9.sem by decide), (mem_ownCells (g := ((V d c i, SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch12.sem by decide), Finset.mem_erase.mpr ⟨fun e => absurd (congrArg Prod.snd e) (show (SemLoc.dma cc0_scoped0.sem : SemLoc sig) ≠ SemLoc.dma cc0_scratch11.sem by decide), Finset.mem_erase.mpr ⟨fun e => absurd (congrArg Prod.snd e) (show (SemLoc.dma cc0_scoped0.sem : SemLoc sig) ≠ SemLoc.dma cc0_scratch10.sem by decide), Finset.mem_erase.mpr ⟨fun e => absurd (congrArg Prod.snd e) (show (SemLoc.dma cc0_scoped0.sem : SemLoc sig) ≠ SemLoc.dma cc0_scratch9.sem by decide), (mem_ownCells (g := ((V d c i, SemLoc.dma cc0_scoped0.sem) : GSem nD τ sig))).mpr ⟨rfl, by show (SemLoc.dma cc0_scoped0.sem : SemLoc sig).isScoped .scVector = true; decide⟩⟩⟩⟩⟩)]

end Cert.Proof.KI

end
-- ==== Proof.KIFacts.lean ====
/-
  Facts about what the lookup's scratch buffers hold, each stated once for any tile.

  The staged row numbers are a slice of the row-number array, so each is a row number of the million-row table
  (below 1000000). Halving such a word (a right shift by one) names a row of the table re-laid as 500000 rows of 128
  entries, and its parity times 64 — the column where the named row starts inside that wider row — is 0 or 64.
  A buffer written piece by piece by rectangles that tile it holds, at every index, a word of one of the pieces:
  a property of every piece's words is a property of every word read back.
-/
import proofs.«206508_g82686710383178_cont_9to1c4b_561_19_alg».proof.Proof.KISetup
import Idealize.ShloMosaic.Lib.SparseCore.Ops
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Reading back a buffer written by covering pieces -/

section Reads

variable {sig' : RefSig} {κ : Kind} {sp : Space} {s : Shape} {e : EltTy} {Val : EltTy → Type}
variable (v : View sig' κ sp s e) (f : v.ty.Contents Val)

/-- If every word of every piece has the property `Q` and the pieces cover the index `y`, the word read back at
    `y` has it, whatever the buffer held before. -/
theorem read_writes_forall (Q : Val e → Prop) :
    ∀ L : List (View.Piece Val s e), (∀ p ∈ L, ∀ x : p.1.shape.Idx, Q (p.2 x)) →
      ∀ y : s.Idx, (∃ p ∈ L, y ∈ p.1.set) → Q (v.read Val (v.writes Val f L) y)
  | [], _, _, h => by obtain ⟨_, hm, _⟩ := h; exact absurd hm List.not_mem_nil
  | p :: L, hQ, y, h => by
    by_cases hy : y ∈ p.1.set
    · obtain ⟨x, rfl⟩ : ∃ x, p.1.emb x = y := p.1.exists_idx_of_mem hy
      obtain ⟨r, w⟩ := p
      rw [View.read_writes_cons_emb]
      exact hQ ⟨r, w⟩ List.mem_cons_self x
    · have hy' : y ∉ Finset.univ.map p.1.emb := by rwa [Rect.map_emb_univ]
      rw [View.writes_cons, View.read_slice_write_of_not_mem p.1 _ _ _ hy']
      refine read_writes_forall Q L (fun p' hp' => hQ p' (List.mem_cons_of_mem _ hp')) y ?_
      obtain ⟨p', hm, hy''⟩ := h
      rcases List.mem_cons.mp hm with rfl | hm
      · exact absurd hy'' hy
      · exact ⟨p', hm, hy''⟩

end Reads

/-! ## Words -/

/-- Half of a row number of the million-row table is a row number of the table of 500000 double rows. -/
theorem half_lt (u : ArithUnit) (w : BitVec 32) (h : w.toNat < 1000000) : (IntOp.shrui u w 1#32).toNat < 500000 := by
  unfold IntOp.shrui
  rw [if_pos (by decide)]
  have e : (w >>> (1#32 : BitVec 32)).toNat = w.toNat / 2 := by
    rw [BitVec.ushiftRight_eq', BitVec.toNat_ushiftRight]
    simp [Nat.shiftRight_eq_div_pow]
  rw [e]; omega

/-- The parity of a word, times 64, is 0 or 64. -/
theorem par_cases (w : BitVec 32) : (IntOp.muli (IntOp.andi w 1#32) 64#32).toNat = 0 ∨ (IntOp.muli (IntOp.andi w 1#32) 64#32).toNat = 64 := by
  unfold IntOp.muli IntOp.andi
  have h : (w &&& 1#32) = 0#32 ∨ (w &&& 1#32) = 1#32 := by
    have : (w &&& 1#32).toNat < 2 := by
      rw [BitVec.toNat_and]; exact lt_of_le_of_lt Nat.and_le_right (by decide)
    rcases Nat.lt_succ_iff_lt_or_eq.mp this with h0 | h1
    · left; apply BitVec.eq_of_toNat_eq; simp only [BitVec.toNat_ofNat, Nat.reducePow, Nat.zero_mod]; omega
    · right; apply BitVec.eq_of_toNat_eq; simp only [BitVec.toNat_ofNat, Nat.reducePow, Nat.reduceMod]; omega
  rcases h with h | h <;> rw [h] <;> decide

/-! ## What the scratch buffers hold -/

section Buffers

variable [FloatOps F] (d : Dev nD) (c : Fin τ.nSC) (i : Fin τ.nSub)

/-- Every staged word is a row number of the million-row table. -/
def StageOK (S0 : Buf (Elt F) ((b0).view.loc (V d c i))) : Prop := ∀ j, (S0 j).toNat < 1000000

/-- Every word of a slot's row list names a row of the re-laid table: what the row gather asks of its list. -/
def QOK (bq : Memref sig .scVector .vmem S128 .i32) (Q : Buf (Elt F) ((bq).view.loc (V d c i))) : Prop :=
  ∀ j, ((bq).view.read (Elt F) Q j).toNat < S500000x128.size 0

/-- Every word of a slot's parity scratch is 0 or 64: the column where the named row starts inside its double row. -/
def ParOK (bp : Memref sig .scVector .vmem S8x16 .i32) (P : Buf (Elt F) ((bp).view.loc (V d c i))) : Prop :=
  ∀ j, ((bp).view.read (Elt F) P j).toNat = 0 ∨ ((bp).view.read (Elt F) P j).toNat = 64

/-- The staging copy lands a slice of the row-number array: row numbers, if the array holds row numbers. -/
theorem stage_intro (L : grid0.Coords) (f0 : Buf (Elt F) ((b0).view.loc (V d c i))) (fI : Buf (Elt F) ((idsW).view.loc (V d c i)))
    (hI : ∀ j, (fI j).toNat < 1000000) :
    ((b0).view.loc (V d c i) ↦{fullShare} View.write (Elt F) (b0).view f0
        (ReadAs.same.apply (View.read (Elt F) ((idsW).slice (Rect.unit (s := S819200) (k0_off1 L) S25600.size (k0_off1_inb L)) (fun _ => rfl)).view fI)) Finset.univ : sProp 𝕄)
      ⊢ iprop(∃ S0, ⌜StageOK d c i S0⌝ ∗ (b0).view.loc (V d c i) ↦{fullShare} S0) := by
  iintro H
  iexists (View.write (Elt F) (b0).view f0
        (ReadAs.same.apply (View.read (Elt F) ((idsW).slice (Rect.unit (s := S819200) (k0_off1 L) S25600.size (k0_off1_inb L)) (fun _ => rfl)).view fI)) Finset.univ)
  isplitr
  · ipureintro
    intro j
    show ((View.whole cc0_scratch0).write (Elt F) f0
      (View.read (Elt F) ((idsW).slice (Rect.unit (s := S819200) (k0_off1 L) S25600.size (k0_off1_inb L)) (fun _ => rfl)).view fI) Finset.univ j).toNat < 1000000
    rw [View.write_whole_univ, View.read_apply]
    exact hI _
  · iexact H

/-- A staged word, halved, names a row of the re-laid table. -/
theorem q_word (S0 : Buf (Elt F) ((b0).view.loc (V d c i))) (hS0 : StageOK d c i S0) (pos : IVec S16 32)
    (h : ∀ a x, ((![pos] : Fin 1 → IVec S16 32) a x).toNat < S25600.size a) (x : S16.Idx) :
    (shrui (loadIdx (View.readAt (Elt F) (b0).view (LoadRect.whole S25600) S0) ![pos] h) (broadcast S16 1#32) x).toNat < S500000x128.size 0 := by
  show (IntOp.shrui .vector (S0 _) 1#32).toNat < 500000
  exact half_lt .vector _ (hS0 _)

/-- A staged word's parity times 64 is 0 or 64. -/
theorem p_word (S0 : Buf (Elt F) ((b0).view.loc (V d c i))) (pos : IVec S16 32)
    (h : ∀ a x, ((![pos] : Fin 1 → IVec S16 32) a x).toNat < S25600.size a) (x : S16.Idx) :
    (muli (andi (loadIdx (View.readAt (Elt F) (b0).view (LoadRect.whole S25600) S0) ![pos] h) (broadcast S16 1#32)) (broadcast S16 64#32) x).toNat = 0
      ∨ (muli (andi (loadIdx (View.readAt (Elt F) (b0).view (LoadRect.whole S25600) S0) ![pos] h) (broadcast S16 1#32)) (broadcast S16 64#32) x).toNat = 64 :=
  par_cases _

/-- A slot's row list, written sixteen words at a time with halved staged words, names rows of the re-laid table. -/
theorem q_intro (bq : Memref sig .scVector .vmem S128 .i32) (S0 : Buf (Elt F) ((b0).view.loc (V d c i))) (hS0 : StageOK d c i S0)
    (g : Buf (Elt F) ((bq).view.loc (V d c i))) (pos0 pos1 pos2 pos3 pos4 pos5 pos6 pos7 : IVec S16 32)
    (h0 : ∀ a x, ((![pos0] : Fin 1 → IVec S16 32) a x).toNat < S25600.size a)
    (h1 : ∀ a x, ((![pos1] : Fin 1 → IVec S16 32) a x).toNat < S25600.size a)
    (h2 : ∀ a x, ((![pos2] : Fin 1 → IVec S16 32) a x).toNat < S25600.size a)
    (h3 : ∀ a x, ((![pos3] : Fin 1 → IVec S16 32) a x).toNat < S25600.size a)
    (h4 : ∀ a x, ((![pos4] : Fin 1 → IVec S16 32) a x).toNat < S25600.size a)
    (h5 : ∀ a x, ((![pos5] : Fin 1 → IVec S16 32) a x).toNat < S25600.size a)
    (h6 : ∀ a x, ((![pos6] : Fin 1 → IVec S16 32) a x).toNat < S25600.size a)
    (h7 : ∀ a x, ((![pos7] : Fin 1 → IVec S16 32) a x).toNat < S25600.size a) :
    ((bq).view.loc (V d c i) ↦{fullShare} (bq).view.writes (Elt F) g
      [⟨Rect.unit (s := S128) ![112] S16.size inb_S128_S16_112, shrui (loadIdx (View.readAt (Elt F) (b0).view (LoadRect.whole S25600) S0) ![pos7] h7) (broadcast S16 1#32)⟩,
        ⟨Rect.unit (s := S128) ![96] S16.size inb_S128_S16_96, shrui (loadIdx (View.readAt (Elt F) (b0).view (LoadRect.whole S25600) S0) ![pos6] h6) (broadcast S16 1#32)⟩,
        ⟨Rect.unit (s := S128) ![80] S16.size inb_S128_S16_80, shrui (loadIdx (View.readAt (Elt F) (b0).view (LoadRect.whole S25600) S0) ![pos5] h5) (broadcast S16 1#32)⟩,
        ⟨Rect.unit (s := S128) ![64] S16.size inb_S128_S16_64, shrui (loadIdx (View.readAt (Elt F) (b0).view (LoadRect.whole S25600) S0) ![pos4] h4) (broadcast S16 1#32)⟩,
        ⟨Rect.unit (s := S128) ![48] S16.size inb_S128_S16_48, shrui (loadIdx (View.readAt (Elt F) (b0).view (LoadRect.whole S25600) S0) ![pos3] h3) (broadcast S16 1#32)⟩,
        ⟨Rect.unit (s := S128) ![32] S16.size inb_S128_S16_32, shrui (loadIdx (View.readAt (Elt F) (b0).view (LoadRect.whole S25600) S0) ![pos2] h2) (broadcast S16 1#32)⟩,
        ⟨Rect.unit (s := S128) ![16] S16.size inb_S128_S16_16, shrui (loadIdx (View.readAt (Elt F) (b0).view (LoadRect.whole S25600) S0) ![pos1] h1) (broadcast S16 1#32)⟩,
        ⟨Rect.unit (s := S128) ![0] S16.size inb_S128_S16_0, shrui (loadIdx (View.readAt (Elt F) (b0).view (LoadRect.whole S25600) S0) ![pos0] h0) (broadcast S16 1#32)⟩] : sProp 𝕄)
      ⊢ iprop(∃ Q, ⌜QOK d c i bq Q⌝ ∗ (bq).view.loc (V d c i) ↦{fullShare} Q) := by
  iintro H
  iexists _
  isplitr
  rotate_left
  · iexact H
  · ipureintro
    intro j
    refine read_writes_forall (bq).view g (fun w : Elt F .i32 => w.toNat < S500000x128.size 0) _ ?hQ j ?hc
    case hc => exact View.cover_of_tiled _ ![16] (by rfl) j
    intro p hp x
    simp only [List.mem_cons, List.mem_nil_iff, _root_.or_false] at hp
    rcases hp with rfl | rfl | rfl | rfl | rfl | rfl | rfl | rfl <;> exact q_word d c i S0 hS0 _ _ x

/-- A slot's parity scratch, written a row at a time with the staged words' parities times 64, holds 0s and 64s. -/
theorem par_intro (bp : Memref sig .scVector .vmem S8x16 .i32) (S0 : Buf (Elt F) ((b0).view.loc (V d c i)))
    (g : Buf (Elt F) ((bp).view.loc (V d c i))) (pos0 pos1 pos2 pos3 pos4 pos5 pos6 pos7 : IVec S16 32)
    (h0 : ∀ a x, ((![pos0] : Fin 1 → IVec S16 32) a x).toNat < S25600.size a)
    (h1 : ∀ a x, ((![pos1] : Fin 1 → IVec S16 32) a x).toNat < S25600.size a)
    (h2 : ∀ a x, ((![pos2] : Fin 1 → IVec S16 32) a x).toNat < S25600.size a)
    (h3 : ∀ a x, ((![pos3] : Fin 1 → IVec S16 32) a x).toNat < S25600.size a)
    (h4 : ∀ a x, ((![pos4] : Fin 1 → IVec S16 32) a x).toNat < S25600.size a)
    (h5 : ∀ a x, ((![pos5] : Fin 1 → IVec S16 32) a x).toNat < S25600.size a)
    (h6 : ∀ a x, ((![pos6] : Fin 1 → IVec S16 32) a x).toNat < S25600.size a)
    (h7 : ∀ a x, ((![pos7] : Fin 1 → IVec S16 32) a x).toNat < S25600.size a) :
    ((bp).view.loc (V d c i) ↦{fullShare} (bp).view.writes (Elt F) g
      [⟨Rect.unit (s := S8x16) ![7, 0] S1x16.size inb_S8x16_S1x16_7_0, shapeCast S1x16 (muli (andi (loadIdx (View.readAt (Elt F) (b0).view (LoadRect.whole S25600) S0) ![pos7] h7) (broadcast S16 1#32)) (broadcast S16 64#32)) shapeCasts_S16_S1x16⟩,
        ⟨Rect.unit (s := S8x16) ![6, 0] S1x16.size inb_S8x16_S1x16_6_0, shapeCast S1x16 (muli (andi (loadIdx (View.readAt (Elt F) (b0).view (LoadRect.whole S25600) S0) ![pos6] h6) (broadcast S16 1#32)) (broadcast S16 64#32)) shapeCasts_S16_S1x16⟩,
        ⟨Rect.unit (s := S8x16) ![5, 0] S1x16.size inb_S8x16_S1x16_5_0, shapeCast S1x16 (muli (andi (loadIdx (View.readAt (Elt F) (b0).view (LoadRect.whole S25600) S0) ![pos5] h5) (broadcast S16 1#32)) (broadcast S16 64#32)) shapeCasts_S16_S1x16⟩,
        ⟨Rect.unit (s := S8x16) ![4, 0] S1x16.size inb_S8x16_S1x16_4_0, shapeCast S1x16 (muli (andi (loadIdx (View.readAt (Elt F) (b0).view (LoadRect.whole S25600) S0) ![pos4] h4) (broadcast S16 1#32)) (broadcast S16 64#32)) shapeCasts_S16_S1x16⟩,
        ⟨Rect.unit (s := S8x16) ![3, 0] S1x16.size inb_S8x16_S1x16_3_0, shapeCast S1x16 (muli (andi (loadIdx (View.readAt (Elt F) (b0).view (LoadRect.whole S25600) S0) ![pos3] h3) (broadcast S16 1#32)) (broadcast S16 64#32)) shapeCasts_S16_S1x16⟩,
        ⟨Rect.unit (s := S8x16) ![2, 0] S1x16.size inb_S8x16_S1x16_2_0, shapeCast S1x16 (muli (andi (loadIdx (View.readAt (Elt F) (b0).view (LoadRect.whole S25600) S0) ![pos2] h2) (broadcast S16 1#32)) (broadcast S16 64#32)) shapeCasts_S16_S1x16⟩,
        ⟨Rect.unit (s := S8x16) ![1, 0] S1x16.size inb_S8x16_S1x16_1_0, shapeCast S1x16 (muli (andi (loadIdx (View.readAt (Elt F) (b0).view (LoadRect.whole S25600) S0) ![pos1] h1) (broadcast S16 1#32)) (broadcast S16 64#32)) shapeCasts_S16_S1x16⟩,
        ⟨Rect.unit (s := S8x16) ![0, 0] S1x16.size inb_S8x16_S1x16_0_0, shapeCast S1x16 (muli (andi (loadIdx (View.readAt (Elt F) (b0).view (LoadRect.whole S25600) S0) ![pos0] h0) (broadcast S16 1#32)) (broadcast S16 64#32)) shapeCasts_S16_S1x16⟩] : sProp 𝕄)
      ⊢ iprop(∃ P, ⌜ParOK d c i bp P⌝ ∗ (bp).view.loc (V d c i) ↦{fullShare} P) := by
  iintro H
  iexists _
  isplitr
  rotate_left
  · iexact H
  · ipureintro
    intro j
    refine read_writes_forall (bp).view g (fun w : Elt F .i32 => w.toNat = 0 ∨ w.toNat = 64) _ ?hQ j ?hc
    case hc => exact View.cover_of_tiled _ ![1, 16] (by rfl) j
    intro p hp x
    simp only [List.mem_cons, List.mem_nil_iff, _root_.or_false] at hp
    rcases hp with rfl | rfl | rfl | rfl | rfl | rfl | rfl | rfl <;> exact p_word d c i S0 _ _ _

end Buffers

/-! ## The write-out's target as a set -/

/-- The elements of the [50, 64, 16384] result that one write-out fills: one history position, all 64 entries, 128
    consecutive batch entries — spelt as the copy's target memref spells it. -/
abbrev sliceSet (off : Fin 3 → ℕ) (h : ∀ a, off a + S1x64x128.size a ≤ S50x64x16384.size a) : Finset S50x64x16384.Idx :=
  (((outW).slice (Rect.unit (s := S50x64x16384) off S1x64x128.size h) (fun _ => rfl)).squeeze S64x128 squeezes_S1x64x128_S64x128).view.set

/-- The whole re-laid table as the row gathers address it. -/
abbrev sliceT : Memref sig .scVector .hbm S500000x128 .f32 :=
  (tblW).slice (Rect.unit (s := S500000x128) ![0, 0] S500000x128.size inb_S500000x128_S500000x128_0_0) (fun _ => rfl)

end Cert.Proof.KI

end
-- ==== Proof.KISets.lean ====
/-
  The write-out slices as sets of entries of the output.

  Each write-out copies a [64, 128] block of a destination scratch into the output array at one history position h and
  128 consecutive columns. The four slices' offsets, as the kernel computes them from the place (c, s) and, inside the
  loop, from the trip number k:
      before the loop      h = 0,              columns from 1024 s + 512 c
      in trip k, slot 1    h = (2k + 1) mod 50, columns from 1024 s + 512 c + 128 ((2k + 1) / 50)
      in trip k, slot 0    h = (2k + 2) mod 50, columns from 1024 s + 512 c + 128 ((2k + 2) / 50)
      after the loop       h = 49,             columns from 1024 s + 512 c + 384
  with k below 99, so the quotient is at most 3: all the columns lie in the block of 512 columns number 2 s + c, the
  tile's own. The slices of slot 0 have an even h (2k + 2 is even and so is 50), the last one has h = 49: they do
  not meet.
-/
import proofs.«206508_g82686710383178_cont_9to1c4b_561_19_alg».proof.Proof.KIFacts
import Idealize.ShloMosaic.Lib.Decide

noncomputable section

namespace Cert.Proof.KI

open Cert.KernelIdeal Cert.KernelIdeal.Gen

open Idealize.ShloMosaic

/-- The entries of the output a write-out addresses are those of its unit rectangle. -/
theorem sliceSet_eq (off : Fin 3 → ℕ) (h : ∀ a, off a + S1x64x128.size a ≤ S50x64x16384.size a) :
    sliceSet off h = (Rect.unit (s := S50x64x16384) off S1x64x128.size h).set := by
  show (((View.whole (main_v2_scv : Ref sig .scVector)).slice (Rect.unit (s := S50x64x16384) off S1x64x128.size h)).reshape S64x128
    squeezes_S1x64x128_S64x128.numel_eq).set = _
  rw [View.set_reshape, View.set_slice_whole]

/-- An entry is in a slice when its history position is the slice's and its column is one of the slice's 128. -/
theorem mem_sliceSet {off : Fin 3 → ℕ} {h : ∀ a, off a + S1x64x128.size a ≤ S50x64x16384.size a} {j : S50x64x16384.Idx}
    (hj : j ∈ sliceSet off h) : (j 0).val = off 0 ∧ off 2 ≤ (j 2).val ∧ (j 2).val < off 2 + 128 := by
  rw [sliceSet_eq, Rect.mem_set_unit] at hj
  have h0 := hj 0
  have h2 := hj 2
  have e0 : S1x64x128.size 0 = 1 := rfl
  have e2 : S1x64x128.size 2 = 128 := rfl
  rw [e0] at h0
  rw [e2] at h2
  exact ⟨by omega, h2.1, h2.2⟩

/-! ## The offsets inside the loop, in closed form -/

theorem k0_off6_eq : ∀ (i : grid0.Coords) (k : Fin k0_t2_loop.trips),
    k0_off6 i k = ![(2 * k.val + 1) % 50, 0, 1024 * (i 1).val + 512 * (i 0).val + 128 * ((2 * k.val + 1) / 50)] := by decide +kernel
theorem k0_off9_eq : ∀ (i : grid0.Coords) (k : Fin k0_t2_loop.trips),
    k0_off9 i k = ![(2 * k.val + 2) % 50, 0, 1024 * (i 1).val + 512 * (i 0).val + 128 * ((2 * k.val + 2) / 50)] := by decide +kernel
theorem trips2_le : k0_t2_loop.trips ≤ 99 := k0_t2_abs.2.1

/-! ## Each slice lies in the tile's own columns -/

theorem slice3_sub (L : grid0.Coords) : sliceSet (k0_off3 L) (k0_off3_inb L) ⊆ outSet (L 0).val (L 1).val := by
  intro j hj
  obtain ⟨-, h1, h2⟩ := mem_sliceSet hj
  rw [k0_off3_eq] at h1 h2
  have e : (![0, 0, 1024 * (L 1).val + 512 * (L 0).val] : Fin 3 → ℕ) 2 = 1024 * (L 1).val + 512 * (L 0).val := rfl
  rw [e] at h1 h2
  rw [mem_outSet]
  omega

theorem slice6_sub (L : grid0.Coords) (k : Fin k0_t2_loop.trips) : sliceSet (k0_off6 L k) (k0_off6_inb L k) ⊆ outSet (L 0).val (L 1).val := by
  intro j hj
  obtain ⟨-, h1, h2⟩ := mem_sliceSet hj
  rw [k0_off6_eq] at h1 h2
  have e : (![(2 * k.val + 1) % 50, 0, 1024 * (L 1).val + 512 * (L 0).val + 128 * ((2 * k.val + 1) / 50)] : Fin 3 → ℕ) 2
      = 1024 * (L 1).val + 512 * (L 0).val + 128 * ((2 * k.val + 1) / 50) := rfl
  rw [e] at h1 h2
  have hk := Nat.lt_of_lt_of_le k.isLt trips2_le
  rw [mem_outSet]
  omega

theorem slice9_sub (L : grid0.Coords) (k : Fin k0_t2_loop.trips) : sliceSet (k0_off9 L k) (k0_off9_inb L k) ⊆ outSet (L 0).val (L 1).val := by
  intro j hj
  obtain ⟨-, h1, h2⟩ := mem_sliceSet hj
  rw [k0_off9_eq] at h1 h2
  have e : (![(2 * k.val + 2) % 50, 0, 1024 * (L 1).val + 512 * (L 0).val + 128 * ((2 * k.val + 2) / 50)] : Fin 3 → ℕ) 2
      = 1024 * (L 1).val + 512 * (L 0).val + 128 * ((2 * k.val + 2) / 50) := rfl
  rw [e] at h1 h2
  have hk := Nat.lt_of_lt_of_le k.isLt trips2_le
  rw [mem_outSet]
  omega

theorem slice11_sub (L : grid0.Coords) : sliceSet (k0_off11 L) (k0_off11_inb L) ⊆ outSet (L 0).val (L 1).val := by
  intro j hj
  obtain ⟨-, h1, h2⟩ := mem_sliceSet hj
  rw [k0_off11_eq] at h1 h2
  have e : (![49, 0, 1024 * (L 1).val + 512 * (L 0).val + 384] : Fin 3 → ℕ) 2 = 1024 * (L 1).val + 512 * (L 0).val + 384 := rfl
  rw [e] at h1 h2
  rw [mem_outSet]
  omega

/-! ## The slices of slot 0 do not meet the last one -/

theorem slice3_disj (L : grid0.Coords) : Disjoint (sliceSet (k0_off3 L) (k0_off3_inb L)) (sliceSet (k0_off11 L) (k0_off11_inb L)) := by
  rw [Finset.disjoint_left]
  intro j h3 h11
  have a := (mem_sliceSet h3).1
  have b := (mem_sliceSet h11).1
  rw [k0_off3_eq] at a
  rw [k0_off11_eq] at b
  have ea : (![0, 0, 1024 * (L 1).val + 512 * (L 0).val] : Fin 3 → ℕ) 0 = 0 := rfl
  have eb : (![49, 0, 1024 * (L 1).val + 512 * (L 0).val + 384] : Fin 3 → ℕ) 0 = 49 := rfl
  rw [ea] at a
  rw [eb] at b
  omega

theorem slice9_disj (L : grid0.Coords) (k : Fin k0_t2_loop.trips) :
    Disjoint (sliceSet (k0_off9 L k) (k0_off9_inb L k)) (sliceSet (k0_off11 L) (k0_off11_inb L)) := by
  rw [Finset.disjoint_left]
  intro j h9 h11
  have a := (mem_sliceSet h9).1
  have b := (mem_sliceSet h11).1
  rw [k0_off9_eq] at a
  rw [k0_off11_eq] at b
  have ea : (![(2 * k.val + 2) % 50, 0, 1024 * (L 1).val + 512 * (L 0).val + 128 * ((2 * k.val + 2) / 50)] : Fin 3 → ℕ) 0 = (2 * k.val + 2) % 50 := rfl
  have eb : (![49, 0, 1024 * (L 1).val + 512 * (L 0).val + 384] : Fin 3 → ℕ) 0 = 49 := rfl
  rw [ea] at a
  rw [eb] at b
  omega

end Cert.Proof.KI

end
-- ==== Proof.KIInv.lean ====
/-
  What a transpose trip keeps, and the arithmetic of its index vectors.

  A transpose trip reads one row of the parity scratch, then sixty-four times gathers sixteen entries of the rows
  scratch and scatters them into the destination scratch. It changes only the destination: the parity scratch and
  the rows scratch are the same before and after, the destination holds something.

  Every indexed access is checked to be inside its scratch. The row index of a load is lane + 16 k for trip k below 8,
  so below 128. The column index of a load is parity + 16 fb + rot, where parity is 0 or 64 (the one fact about the
  data), fb is below 4 and rot, a lane number taken modulo 16, is below 16: so below 128. The row index of a store is
  rot + 16 fb, below 64, and its column index is the load's row index, below 128. None of the additions wraps.
-/
import proofs.«206508_g82686710383178_cont_9to1c4b_561_19_alg».proof.Proof.KISetup
import proofs.«206508_g82686710383178_cont_9to1c4b_561_19_alg».proof.Proof.Gen.KernelIdeal.Skeleton
import Idealize.ShloMosaic.Lib.SparseCore.Ops
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile at place `L` of the grid, on device `d`. -/
abbrev thr (d : Dev nD) (L : grid0.Coords) : Thread nD τ := V d (cV L) (jV L)

/-- What a transpose trip keeps: the parity scratch and the rows scratch at their contents, the destination at some. -/
def invU (d : Dev nD) (L : grid0.Coords) (bA : Memref sig .scVector .vmem S8x16 .i32) (bR : Memref sig .scVector .vmem S128x128 .f32)
    (bD : Memref sig .scVector .vmem S64x128 .f32)
    (P : Buf (Elt F) ((bA).view.loc (thr d L))) (R : Buf (Elt F) ((bR).view.loc (thr d L)))
    (_ : Nat) (_ : PUnit) : sProp 𝕄 :=
  iprop(((bA).view.loc (thr d L) ↦{fullShare} P) ∗ ((bR).view.loc (thr d L) ↦{fullShare} R) ∗ ∃ f, (bD).view.loc (thr d L) ↦{fullShare} f)

/-! ## The checks, from bounds on the two index vectors -/

theorem chkL (r c : IVec S16 32) (hr : ∀ x, (r x).toNat < 128) (hc : ∀ x, (c x).toNat < 128) :
    ∀ a x, ((![r, c] : Fin 2 → IVec S16 32) a x).toNat < S128x128.size a := by
  intro a x
  match a with
  | ⟨0, _⟩ => exact hr x
  | ⟨1, _⟩ => exact hc x

theorem chkS (t r : IVec S16 32) (ht : ∀ x, (t x).toNat < 64) (hr : ∀ x, (r x).toNat < 128) :
    ∀ a x, ((![t, r] : Fin 2 → IVec S16 32) a x).toNat < S64x128.size a := by
  intro a x
  match a with
  | ⟨0, _⟩ => exact ht x
  | ⟨1, _⟩ => exact hr x

/-! ## The index vectors -/

/-- A word masked by 15 is below 16. -/
theorem andi15_lt (a : IVec S16 32) (x : S16.Idx) : (andi a (broadcast S16 15#32) x).toNat < 16 := by
  show (a x &&& 15#32).toNat < 16
  rw [BitVec.toNat_and]
  have h := Nat.and_le_right (n := (a x).toNat) (m := (15#32 : BitVec 32).toNat)
  have e : (15#32 : BitVec 32).toNat = 15 := by decide
  omega

/-- A store's row index: a rotation plus 16 fb. -/
theorem rotOK (v : IVec S16 32) (hv : ∀ x, (v x).toNat < 16) (c : BitVec 32) (hc : c.toNat ≤ 48) :
    ∀ x, (addi v (broadcast S16 c) x).toNat < 64 := by
  intro x
  show (v x + c).toNat < 64
  rw [BitVec.toNat_add]
  have := hv x
  omega

/-- A load's column index: the parity word plus 16 fb plus a rotation. -/
theorem colOK (p : IVec S16 32) (hp : ∀ x, (p x).toNat = 0 ∨ (p x).toNat = 64) (c : BitVec 32) (hc : c.toNat ≤ 48)
    (v : IVec S16 32) (hv : ∀ x, (v x).toNat < 16) : ∀ x, (addi (addi p (broadcast S16 c)) v x).toNat < 128 := by
  intro x
  show (p x + c + v x).toNat < 128
  rw [BitVec.toNat_add, BitVec.toNat_add]
  have := hv x
  rcases hp x with h | h <;> omega

/-- The lane numbers are below 16. -/
theorem lanes_lt (x : S16.Idx) : (iota .scVector S16 32 [0] iota_S16_d0_w32_scVector x).toNat < 16 := by
  rw [iota_single_apply, BitVec.toNat_ofNat]
  have : (x 0).val < 16 := (x 0).isLt
  omega

/-- A load's row index (a store's column index): lane + 16 k, for a trip number k below 8. -/
theorem rowOK (k : ℕ) (hk : k < 8) :
    ∀ x, (addi (iota .scVector S16 32 [0] iota_S16_d0_w32_scVector) (broadcast S16 (Scalar.muli 16#32 (Scf.iv 0#32 1#32 k))) x).toNat < 128 := by
  intro x
  show (iota .scVector S16 32 [0] iota_S16_d0_w32_scVector x + 16#32 * (0#32 + BitVec.ofNat 32 k * 1#32)).toNat < 128
  have hl := lanes_lt x
  have ek : (BitVec.ofNat 32 k).toNat = k := by rw [BitVec.toNat_ofNat]; omega
  have e16 : (16#32 : BitVec 32).toNat = 16 := by decide
  have e0 : (0#32 : BitVec 32).toNat = 0 := by decide
  have e1 : (1#32 : BitVec 32).toNat = 1 := by decide
  rw [BitVec.toNat_add, BitVec.toNat_mul, BitVec.toNat_add, BitVec.toNat_mul, e16, e0, e1, ek]
  omega

/-- The same over a vector known to be the lane numbers. -/
theorem rowOK' (v2 : IVec S16 32) (hv2 : v2 = iota .scVector S16 32 [0] iota_S16_d0_w32_scVector) (k : ℕ) (hk : k < 8) :
    ∀ x, (addi v2 (broadcast S16 (Scalar.muli 16#32 (Scf.iv 0#32 1#32 k))) x).toNat < 128 := by
  subst hv2; exact rowOK k hk

/-- The sixteen rotations are lane numbers taken modulo 16. -/
theorem rot_lt_of_eq {v a : IVec S16 32} (h : v = andi a (broadcast S16 15#32)) : ∀ x, (v x).toNat < 16 := by
  subst h; exact andi15_lt a

/-- A row of a parity scratch, loaded and flattened, holds parity words. -/
theorem par_row3 (d : Dev nD) (L : grid0.Coords) (P : Buf (Elt F) ((b3).view.loc (thr d L))) (hP : ∀ j, (P j).toNat = 0 ∨ (P j).toNat = 64)
    (off : Fin 2 → Nat) (hoff : ∀ a, off a + S1x16.size a ≤ S8x16.size a) (hc : S1x16.ShapeCasts S16) :
    ∀ x, (shapeCast S16 (View.readAt (Elt F) (b3).view (Rect.unit (s := S8x16) off S1x16.size hoff).toLoadRect P) hc x).toNat = 0
      ∨ (shapeCast S16 (View.readAt (Elt F) (b3).view (Rect.unit (s := S8x16) off S1x16.size hoff).toLoadRect P) hc x).toNat = 64 := by
  intro x
  unfold shapeCast
  simp only [View.readAt_apply, Memref.view_whole, View.read_whole]
  exact hP _
theorem par_row4 (d : Dev nD) (L : grid0.Coords) (P : Buf (Elt F) ((b4).view.loc (thr d L))) (hP : ∀ j, (P j).toNat = 0 ∨ (P j).toNat = 64)
    (off : Fin 2 → Nat) (hoff : ∀ a, off a + S1x16.size a ≤ S8x16.size a) (hc : S1x16.ShapeCasts S16) :
    ∀ x, (shapeCast S16 (View.readAt (Elt F) (b4).view (Rect.unit (s := S8x16) off S1x16.size hoff).toLoadRect P) hc x).toNat = 0
      ∨ (shapeCast S16 (View.readAt (Elt F) (b4).view (Rect.unit (s := S8x16) off S1x16.size hoff).toLoadRect P) hc x).toNat = 64 := by
  intro x
  unfold shapeCast
  simp only [View.readAt_apply, Memref.view_whole, View.read_whole]
  exact hP _

end Cert.Proof.KI

end
-- ==== Proof.KITile.lean ====
/-
  One tile's task, from its body in the kernel's own spelling.

  The launch hands a tile its read shares and its part of the output at the TensorCore's names for the arrays, and
  all of its scoped storage in one piece. The body is stated over the kernel's memrefs and over exactly the nine
  scratch buffers and five DMA counters it names. Between the two: the arrays' names are the same locations; the
  nine buffers and five counters are carved out of the tile's storage and the rest is carried around the body
  untouched; the tile's waits are all at the lowest level, below everything it owes; the four write-out slices lie in
  the tile's own columns and the last one meets neither of the two it may overlap in time.
-/
import proofs.«206508_g82686710383178_cont_9to1c4b_561_19_alg».proof.Proof.KIPts
import proofs.«206508_g82686710383178_cont_9to1c4b_561_19_alg».proof.Proof.KIOwn
import proofs.«206508_g82686710383178_cont_9to1c4b_561_19_alg».proof.Proof.KISets
import proofs.«206508_g82686710383178_cont_9to1c4b_561_19_alg».proof.Proof.KIInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- What the body starts from, in the kernel's own spelling: its waits allowed, a share of the row numbers, two shares
    of the table, a part of the output, the nine scratch buffers, the five DMA counters at zero, what it owes. -/
abbrev corePre (d : Dev nD) (L : grid0.Coords) (O : CellTallies nD τ sig (HIx 1)) (W : Waits sig (HIx 1)) (qI qT qT' : PosShare TreeShare)
    (fI : Buf (Elt F) ((idsW).view.loc (thr d L))) (fT : Buf (Elt F) ((tblW).view.loc (thr d L)))
    (Sout : Finset S50x64x16384.Idx) (fO : Buf (Elt F) ((outW).view.loc (thr d L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))) : sProp 𝕄 :=
  iprop(Transfers.MayWaits (thr d L) (none : HIx 1) O
        ∗ ((idsW).view.loc (thr d L) ↦{qI} fI) ∗ ((tblW).view.loc (thr d L) ↦{qT} fT) ∗ ((tblW).view.loc (thr d L) ↦{qT'} fT)
        ∗ ((outW).view.loc (thr d L) ↦[Sout]{fullShare} fO)
        ∗ ((b0).view.loc (thr d L) ↦{fullShare} f0) ∗ ((b1).view.loc (thr d L) ↦{fullShare} f1) ∗ ((b2).view.loc (thr d L) ↦{fullShare} f2) ∗ ((b3).view.loc (thr d L) ↦{fullShare} f3) ∗ ((b4).view.loc (thr d L) ↦{fullShare} f4) ∗ ((b5).view.loc (thr d L) ↦{fullShare} f5) ∗ ((b6).view.loc (thr d L) ↦{fullShare} f6) ∗ ((b7).view.loc (thr d L) ↦{fullShare} f7) ∗ ((b8).view.loc (thr d L) ↦{fullShare} f8)
        ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scoped0.sem) 0
        ∗ owes (thr d L) O W : sProp 𝕄)

/-- What the body ends with: the same, the output's part and the scratch buffers at some contents. -/
abbrev corePost (d : Dev nD) (L : grid0.Coords) (O : CellTallies nD τ sig (HIx 1)) (W : Waits sig (HIx 1)) (qI qT qT' : PosShare TreeShare)
    (fI : Buf (Elt F) ((idsW).view.loc (thr d L))) (fT : Buf (Elt F) ((tblW).view.loc (thr d L)))
    (Sout : Finset S50x64x16384.Idx) (fO : Buf (Elt F) ((outW).view.loc (thr d L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))) : sProp 𝕄 :=
  iprop(((idsW).view.loc (thr d L) ↦{qI} fI) ∗ ((tblW).view.loc (thr d L) ↦{qT} fT) ∗ ((tblW).view.loc (thr d L) ↦{qT'} fT)
            ∗ (∃ f, (outW).view.loc (thr d L) ↦[Sout]{fullShare} f)
            ∗ (∃ f, (b0).view.loc (thr d L) ↦{fullShare} f) ∗ (∃ f, (b1).view.loc (thr d L) ↦{fullShare} f) ∗ (∃ f, (b2).view.loc (thr d L) ↦{fullShare} f) ∗ (∃ f, (b3).view.loc (thr d L) ↦{fullShare} f) ∗ (∃ f, (b4).view.loc (thr d L) ↦{fullShare} f) ∗ (∃ f, (b5).view.loc (thr d L) ↦{fullShare} f) ∗ (∃ f, (b6).view.loc (thr d L) ↦{fullShare} f) ∗ (∃ f, (b7).view.loc (thr d L) ↦{fullShare} f) ∗ (∃ f, (b8).view.loc (thr d L) ↦{fullShare} f)
            ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scoped0.sem) 0
            ∗ ∃ W', ⌜∀ p ∈ W', p ∈ W ∨ p.2 = none⌝ ∗ owes (thr d L) O W')

/-- The body's statement in the kernel's own spelling: from `corePre`, with the row numbers all below a million and the
    part of the output containing the four write-out slices (the last one apart from the two it may overlap in
    time), the kernel function runs to `corePost`. -/
def BodyCore : Prop :=
  ∀ (d : Dev nD) (L : grid0.Coords) (O : CellTallies nD τ sig (HIx 1)) (W : Waits sig (HIx 1)) (qI qT qT' : PosShare TreeShare)
    (fI : Buf (Elt F) ((idsW).view.loc (thr d L))) (fT : Buf (Elt F) ((tblW).view.loc (thr d L)))
    (_ : ∀ j, (fI j).toNat < 1000000)
    (Sout : Finset S50x64x16384.Idx) (fO : Buf (Elt F) ((outW).view.loc (thr d L)))
    (_ : sliceSet (k0_off3 L) (k0_off3_inb L) ⊆ Sout)
    (_ : ∀ k, sliceSet (k0_off6 L k) (k0_off6_inb L k) ⊆ Sout)
    (_ : ∀ k, sliceSet (k0_off9 L k) (k0_off9_inb L k) ⊆ Sout)
    (_ : sliceSet (k0_off11 L) (k0_off11_inb L) ⊆ Sout)
    (_ : Disjoint (sliceSet (k0_off3 L) (k0_off3_inb L)) (sliceSet (k0_off11 L) (k0_off11_inb L)))
    (_ : ∀ k, Disjoint (sliceSet (k0_off9 L k) (k0_off9_inb L k)) (sliceSet (k0_off11 L) (k0_off11_inb L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))),
    corePre d L O W qI qT qT' fI fT Sout fO f0 f1 f2 f3 f4 f5 f6 f7 f8
      ⊢ wp frame (wpE (defs₀ (F := F)) 𝒱₀ (thr d L) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => corePost d L O W qI qT qT' fI fT Sout fO f0 f1 f2 f3 f4 f5 f6 f7 f8

/-- The tile's storage the kernel does not name. -/
abbrev restRes (d : Dev nD) (L : grid0.Coords) : sProp 𝕄 :=
  iprop((bigSep (restRefs (cV L) (jV L)) fun b => iprop(∃ f, ((d, b) : Loc nD τ sig) ↦{fullShare} f))
    ∗ bigSep (restCells d (cV L) (jV L)) fun g => semVal g 0)

/-- One tile's task at a symbolic place, from the body and the range of the row numbers. -/
theorem tile_body_of (hcore : BodyCore (F := F)) (hpre : ∀ d j, (idsFlat m d j).toNat < 1000000) : TileBody m := by
  intro d L O W hO
  rw [(K (F := F)).scopedBufs_V facts d (cV L) (jV L), SparseCore.Cfg.scopedSems0_V (Val := Elt F) d (cV L) (jV L), ownSems0_V5, ownBufs_V9]
  iintro ⟨#Hlv, -, ⟨HI, HT, HT', HOut⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩, ⟨Hs9, Hs10, Hs11, Hs12, Hsc, Hsems⟩, Howes⟩
  ihave Hmw := ((K (F := F)).mayWaits_none (thr := thr d L) hO) $$ Hlv
  -- the body's post and the rest of the storage, regrouped into the launch's shape
  iapply (wp_mono frame _ _ (Q := fun _ => iprop(restRes d L ∗ corePost d L O W (qI (L 0).val (L 1).val) (qT (L 0).val (L 1).val) (qT' (L 0).val (L 1).val) (idsFlat m d) (tbl m d) (outSet (L 0).val (L 1).val) (m (outLoc d)) f0 f1 f2 f3 f4 f5 f6 f7 f8)) fun _ => ?post)
  case post =>
    iintro ⟨⟨Hbufs, Hsems⟩, HI, HT, HT', HOut, H0, H1, H2, H3, H4, H5, H6, H7, H8, Hs9, Hs10, Hs11, Hs12, Hsc, HW⟩
    isplitl [HI HT HT' HOut]
    · isplitl [HI]; · iexact HI
      isplitl [HT]; · iexact HT
      isplitl [HT']; · iexact HT'
      iexact HOut
    isplitl [H0 H1 H2 H3 H4 H5 H6 H7 H8 Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact Hbufs
    isplitl [Hs9 Hs10 Hs11 Hs12 Hsc Hsems]
    · isplitl [Hs9]; · iexact Hs9
      isplitl [Hs10]; · iexact Hs10
      isplitl [Hs11]; · iexact Hs11
      isplitl [Hs12]; · iexact Hs12
      isplitl [Hsc]; · iexact Hsc
      iexact Hsems
    iexact HW
  -- the rest of the storage carried around the body
  iapply (wp_frame_l frame _ Set.univ (R := restRes d L) (Q := fun _ => corePost d L O W (qI (L 0).val (L 1).val) (qT (L 0).val (L 1).val) (qT' (L 0).val (L 1).val) (idsFlat m d) (tbl m d) (outSet (L 0).val (L 1).val) (m (outLoc d)) f0 f1 f2 f3 f4 f5 f6 f7 f8)) $$ [Hbufs Hsems Hmw HI HT HT' HOut H0 H1 H2 H3 H4 H5 H6 H7 H8 Hs9 Hs10 Hs11 Hs12 Hsc Howes]
  isplitl [Hbufs Hsems]
  · isplitl [Hbufs]; · iexact Hbufs
    iexact Hsems
  -- the body
  iapply (hcore d L O W (qI (L 0).val (L 1).val) (qT (L 0).val (L 1).val) (qT' (L 0).val (L 1).val) (idsFlat m d) (tbl m d) (hpre d)
    (outSet (L 0).val (L 1).val) (m (outLoc d)) (slice3_sub L) (slice6_sub L) (slice9_sub L) (slice11_sub L) (slice3_disj L) (slice9_disj L)
    f0 f1 f2 f3 f4 f5 f6 f7 f8) $$ [Hmw HI HT HT' HOut H0 H1 H2 H3 H4 H5 H6 H7 H8 Hs9 Hs10 Hs11 Hs12 Hsc Howes]
  isplitl [Hmw]; · iexact Hmw
  isplitl [HI]; · iexact HI
  isplitl [HT]; · iexact HT
  isplitl [HT']; · iexact HT'
  isplitl [HOut]; · iexact HOut
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs9]; · iexact Hs9
  isplitl [Hs10]; · iexact Hs10
  isplitl [Hs11]; · iexact Hs11
  isplitl [Hs12]; · iexact Hs12
  isplitl [Hsc]; · iexact Hsc
  iexact Howes

end Cert.Proof.KI

end
-- ==== Proof.KITrip1.lean ====
import proofs.«206508_g82686710383178_cont_9to1c4b_561_19_alg».proof.Proof.KIInv
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of the first transpose of slot 0. Trip k reads row k of the parity scratch and, for each of the four groups of sixteen
  feature columns and each of the sixteen rotations, gathers sixteen entries of the rows scratch (row lane + 16 k, column
  parity + 16 fb + rotation) and scatters them into the destination scratch (row rotation + 16 fb, column lane + 16 k).
  Every index is inside its scratch by the bounds on the three kinds of index vector; the trip changes only the destination.
-/
set_option maxHeartbeats 40000000 in
theorem trip_t1 (d : Dev nD) (L : grid0.Coords) (P : Buf (Elt F) ((b3).view.loc (thr d L))) (R : Buf (Elt F) ((b5).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v300 : Vec F S16 .i32) (c1_i32_135 : BitVec 32) (k : Fin k0_t1_loop.trips) (acc : PUnit) :
    invU d L b3 b5 b7 P R k.val acc ⊢ wp frame (wpE (defs₀ (F := F)) 𝒱₀ (thr d L) none) Set.univ
      (k0_t1_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v300 c1_i32_135 k acc)
      (invU d L b3 b5 b7 P R (k.val + 1)) := by
  have hk : k.val < 8 := by
    have h := k.isLt
    have e : k0_t1_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t1_body
  sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KI

end
-- ==== Proof.KITrip3.lean ====
import proofs.«206508_g82686710383178_cont_9to1c4b_561_19_alg».proof.Proof.KIInv
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of a transpose of slot 1 inside the outer loop: the parity scratch, the rows scratch and the destination scratch are the
  second of each pair. Trip k reads row k of the parity scratch and, for each of the four groups of sixteen feature columns and each of
  the sixteen rotations, gathers sixteen entries of the rows scratch (row lane + 16 k, column parity + 16 fb + rotation) and scatters
  them into the destination scratch (row rotation + 16 fb, column lane + 16 k). Every index is inside its scratch by the bounds on the
  three kinds of index vector; the trip changes only the destination.
-/
set_option maxHeartbeats 40000000 in
theorem trip_t3 (d : Dev nD) (L : grid0.Coords) (P : Buf (Elt F) ((b4).view.loc (thr d L))) (R : Buf (Elt F) ((b6).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v389 : BitVec 32) (v499 : IVec S16 32) (v501_ld : Vec F S1x16 .i32) (k : Fin k0_t3_loop.trips) (acc : PUnit) :
    invU d L b4 b6 b8 P R k.val acc ⊢ wp frame (wpE (defs₀ (F := F)) 𝒱₀ (thr d L) none) Set.univ
      (k0_t3_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v389 v499 v501_ld k acc)
      (invU d L b4 b6 b8 P R (k.val + 1)) := by
  have hk : k.val < 8 := by
    have h := k.isLt
    have e : k0_t3_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t3_body
  sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KI

end
-- ==== Proof.KITrip4.lean ====
import proofs.«206508_g82686710383178_cont_9to1c4b_561_19_alg».proof.Proof.KIInv
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of a transpose of slot 0 inside the outer loop. Trip k reads row k of the parity scratch and, for each of the four groups
  of sixteen feature columns and each of the sixteen rotations, gathers sixteen entries of the rows scratch (row lane + 16 k, column
  parity + 16 fb + rotation) and scatters them into the destination scratch (row rotation + 16 fb, column lane + 16 k). Every index is
  inside its scratch by the bounds on the three kinds of index vector; the trip changes only the destination.
-/
set_option maxHeartbeats 40000000 in
theorem trip_t4 (d : Dev nD) (L : grid0.Coords) (P : Buf (Elt F) ((b3).view.loc (thr d L))) (R : Buf (Elt F) ((b5).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v564 : BitVec 32) (v593 : BitVec 32) (v707 : IVec S16 32) (c50_i32_375 : BitVec 32) (k : Fin k0_t4_loop.trips) (acc : PUnit) :
    invU d L b3 b5 b7 P R k.val acc ⊢ wp frame (wpE (defs₀ (F := F)) 𝒱₀ (thr d L) none) Set.univ
      (k0_t4_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v564 v593 v707 c50_i32_375 k acc)
      (invU d L b3 b5 b7 P R (k.val + 1)) := by
  have hk : k.val < 8 := by
    have h := k.isLt
    have e : k0_t4_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t4_body
  sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KI

end
-- ==== Proof.KITrip5.lean ====
import proofs.«206508_g82686710383178_cont_9to1c4b_561_19_alg».proof.Proof.KIInv
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of the last transpose of slot 1, after the outer loop. Trip k reads row k of the parity scratch and, for each of the four
  groups of sixteen feature columns and each of the sixteen rotations, gathers sixteen entries of the rows scratch (row lane + 16 k,
  column parity + 16 fb + rotation) and scatters them into the destination scratch (row rotation + 16 fb, column lane + 16 k). Every
  index is inside its scratch by the bounds on the three kinds of index vector; the trip changes only the destination.
-/
set_option maxHeartbeats 40000000 in
theorem trip_t5 (d : Dev nD) (L : grid0.Coords) (P : Buf (Elt F) ((b4).view.loc (thr d L))) (R : Buf (Elt F) ((b6).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v330 : BitVec 32) (c128_i32 : BitVec 32) (k : Fin k0_t5_loop.trips) (acc : PUnit) :
    invU d L b4 b6 b8 P R k.val acc ⊢ wp frame (wpE (defs₀ (F := F)) 𝒱₀ (thr d L) none) Set.univ
      (k0_t5_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v330 c128_i32 k acc)
      (invU d L b4 b6 b8 P R (k.val + 1)) := by
  have hk : k.val < 8 := by
    have h := k.isLt
    have e : k0_t5_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t5_body
  sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KI

end
-- ==== Proof.KIPos.lean ====
/-
  The position vectors of the outer loop are inside the staged row numbers.

  In trip k of the outer loop (k below 99, induction variable k + 1) the tile extracts the row numbers of two
  history steps, g = 2 (k + 1) and g = 2 (k + 1) + 1. Its 25600 staged row numbers are laid out as four blocks of 6400
  (one per group of 128 batch entries), each holding 128 batch entries times 50 history positions. The sixteen words a
  load reads are at positions (lane + 16 j) * 50 + base, for j below 8, where base = (g / 50) * 6400 + g mod 50.
  Since g is at most 199, base is at most 3 * 6400 + 49 = 19249, and (lane + 16 j) * 50 is at most 127 * 50 = 6350:
  every position is below 25600, and no addition or product wraps.
-/
import proofs.«206508_g82686710383178_cont_9to1c4b_561_19_alg».proof.Proof.KISetup
import Idealize.ShloMosaic.Lib.Decide
import Idealize.ShloMosaic.Lib.Pipeline.Value

noncomputable section

namespace Cert.Proof.KI

open Cert.KernelIdeal Cert.KernelIdeal.Gen

open Idealize.ShloMosaic

/-- The base of the even history step of trip `k`, as the kernel computes it from the induction variable:
    the floor quotient by 50 times 6400, plus the floor remainder. -/
def baseE (k : Fin k0_t2_loop.trips) : BitVec 32 :=
  let arg18 : BitVec 32 := Scf.iv 1#32 1#32 k
  let v360 : BitVec 32 := Scalar.muli 2#32 arg18
  let v361 : BitVec 32 := Scalar.divsi v360 50#32
  let v362 : BitVec 1 := Scalar.cmpi .sgt v360 0#32
  let v363 : BitVec 32 := Scalar.extui v362
  let v364 : BitVec 1 := Scalar.cmpi .slt v360 0#32
  let v365 : BitVec 32 := Scalar.extui v364
  let v366 : BitVec 32 := Scalar.subi v363 v365
  let v367 : BitVec 1 := Scalar.cmpi .sgt 50#32 0#32
  let v368 : BitVec 32 := Scalar.extui v367
  let v369 : BitVec 1 := Scalar.cmpi .slt 50#32 0#32
  let v370 : BitVec 32 := Scalar.extui v369
  let v371 : BitVec 32 := Scalar.subi v368 v370
  let v372 : BitVec 1 := Scalar.cmpi .ne v366 v371
  let v373 : BitVec 32 := Scalar.remsi v360 50#32
  let v374 : BitVec 1 := Scalar.cmpi .ne v373 0#32
  let v375 : BitVec 1 := Scalar.andi v372 v374
  let v376 : BitVec 32 := Scalar.subi v361 1#32
  let v377 : BitVec 32 := Scalar.select v375 v376 v361
  let v378 : BitVec 32 := Scalar.muli v377 6400#32
  let v379 : BitVec 1 := Scalar.cmpi .eq 50#32 0#32
  let v380 : BitVec 32 := Scalar.select v379 1#32 50#32
  let v381 : BitVec 32 := Scalar.remsi v360 v380
  let v382 : BitVec 1 := Scalar.cmpi .ne v381 0#32
  let v383 : BitVec 1 := Scalar.cmpi .slt v381 0#32
  let v384 : BitVec 1 := Scalar.cmpi .slt v380 0#32
  let v385 : BitVec 1 := Scalar.xori v383 v384
  let v386 : BitVec 1 := Scalar.andi v385 v382
  let v387 : BitVec 32 := Scalar.addi v381 v380
  let v388 : BitVec 32 := Scalar.select v386 v387 v381
  let v389 : BitVec 32 := Scalar.addi v378 v388
  v389

/-- The base of the odd history step of trip `k`, likewise. -/
def baseO (k : Fin k0_t2_loop.trips) : BitVec 32 :=
  let arg18 : BitVec 32 := Scf.iv 1#32 1#32 k
  let v563 : BitVec 32 := Scalar.muli 2#32 arg18
  let v564 : BitVec 32 := Scalar.addi v563 1#32
  let v565 : BitVec 32 := Scalar.divsi v564 50#32
  let v566 : BitVec 1 := Scalar.cmpi .sgt v564 0#32
  let v567 : BitVec 32 := Scalar.extui v566
  let v568 : BitVec 1 := Scalar.cmpi .slt v564 0#32
  let v569 : BitVec 32 := Scalar.extui v568
  let v570 : BitVec 32 := Scalar.subi v567 v569
  let v571 : BitVec 1 := Scalar.cmpi .sgt 50#32 0#32
  let v572 : BitVec 32 := Scalar.extui v571
  let v573 : BitVec 1 := Scalar.cmpi .slt 50#32 0#32
  let v574 : BitVec 32 := Scalar.extui v573
  let v575 : BitVec 32 := Scalar.subi v572 v574
  let v576 : BitVec 1 := Scalar.cmpi .ne v570 v575
  let v577 : BitVec 32 := Scalar.remsi v564 50#32
  let v578 : BitVec 1 := Scalar.cmpi .ne v577 0#32
  let v579 : BitVec 1 := Scalar.andi v576 v578
  let v580 : BitVec 32 := Scalar.subi v565 1#32
  let v581 : BitVec 32 := Scalar.select v579 v580 v565
  let v582 : BitVec 32 := Scalar.muli v581 6400#32
  let v583 : BitVec 1 := Scalar.cmpi .eq 50#32 0#32
  let v584 : BitVec 32 := Scalar.select v583 1#32 50#32
  let v585 : BitVec 32 := Scalar.remsi v564 v584
  let v586 : BitVec 1 := Scalar.cmpi .ne v585 0#32
  let v587 : BitVec 1 := Scalar.cmpi .slt v585 0#32
  let v588 : BitVec 1 := Scalar.cmpi .slt v584 0#32
  let v589 : BitVec 1 := Scalar.xori v587 v588
  let v590 : BitVec 1 := Scalar.andi v589 v586
  let v591 : BitVec 32 := Scalar.addi v585 v584
  let v592 : BitVec 32 := Scalar.select v590 v591 v585
  let v593 : BitVec 32 := Scalar.addi v582 v592
  v593

theorem baseE_le : ∀ k : Fin k0_t2_loop.trips, (baseE k).toNat ≤ 19249 := by decide +kernel
theorem baseO_le : ∀ k : Fin k0_t2_loop.trips, (baseO k).toNat ≤ 19249 := by decide +kernel

/-- A position vector (lane + c) * 50 + base, with c at most 112 and base at most 19249, is inside the 25600 staged words. -/
theorem pos_ok (v2 : IVec S16 32) (hv2 : v2 = iota .scVector S16 32 [0] iota_S16_d0_w32_scVector) (c : BitVec 32) (hc : c.toNat ≤ 112)
    (base : BitVec 32) (hb : base.toNat ≤ 19249) :
    ∀ a x, ((![addi (muli (addi v2 (broadcast S16 c)) (broadcast S16 50#32)) (broadcast S16 base)] : Fin 1 → IVec S16 32) a x).toNat < S25600.size a := by
  subst hv2
  intro a x
  obtain rfl : a = 0 := Subsingleton.elim _ _
  show ((iota .scVector S16 32 [0] iota_S16_d0_w32_scVector x + c) * 50#32 + base).toNat < 25600
  have hl : (iota .scVector S16 32 [0] iota_S16_d0_w32_scVector x).toNat < 16 := by
    rw [iota_single_apply, BitVec.toNat_ofNat]
    have : (x 0).val < 16 := (x 0).isLt
    omega
  have e50 : (50#32 : BitVec 32).toNat = 50 := by decide
  rw [BitVec.toNat_add, BitVec.toNat_mul, BitVec.toNat_add, e50]
  have h1 : ((iota .scVector S16 32 [0] iota_S16_d0_w32_scVector x).toNat + c.toNat) % 2 ^ 32
      = (iota .scVector S16 32 [0] iota_S16_d0_w32_scVector x).toNat + c.toNat := Nat.mod_eq_of_lt (by omega)
  rw [h1]
  have h2 : ((iota .scVector S16 32 [0] iota_S16_d0_w32_scVector x).toNat + c.toNat) * 50 % 2 ^ 32
      = ((iota .scVector S16 32 [0] iota_S16_d0_w32_scVector x).toNat + c.toNat) * 50 := Nat.mod_eq_of_lt (by omega)
  rw [h2]
  have h3 : (((iota .scVector S16 32 [0] iota_S16_d0_w32_scVector x).toNat + c.toNat) * 50 + base.toNat) % 2 ^ 32
      = ((iota .scVector S16 32 [0] iota_S16_d0_w32_scVector x).toNat + c.toNat) * 50 + base.toNat := Nat.mod_eq_of_lt (by omega)
  rw [h3]
  show _ < 25600
  omega

/-! ## The same over the history step -/

/-- The base of history step `g` once the sign conditions of the floor division are settled: quotient times 6400 plus
    remainder. For `g` at most 199 it is at most 19249. -/
theorem baseG_small : ∀ n : Fin 200,
    (Scalar.addi (Scalar.muli (Scalar.divsi (BitVec.ofNat 32 n.val) 50#32) 6400#32) (Scalar.remsi (BitVec.ofNat 32 n.val) 50#32)).toNat ≤ 19249 := by
  decide +kernel
theorem baseG_le (g : BitVec 32) (hg : g.toNat ≤ 199) :
    (Scalar.addi (Scalar.muli (Scalar.divsi g 50#32) 6400#32) (Scalar.remsi g 50#32)).toNat ≤ 19249 := by
  have e : BitVec.ofNat 32 g.toNat = g := by
    apply BitVec.eq_of_toNat_eq
    rw [BitVec.toNat_ofNat]
    have := g.isLt
    omega
  have h : (Scalar.addi (Scalar.muli (Scalar.divsi (BitVec.ofNat 32 g.toNat) 50#32) 6400#32) (Scalar.remsi (BitVec.ofNat 32 g.toNat) 50#32)).toNat ≤ 19249 :=
    baseG_small ⟨g.toNat, by omega⟩
  rwa [e] at h

/-- The two history steps of trip `k` of the outer loop are at most 199. -/
theorem gE_le : ∀ k : Fin k0_t2_loop.trips, (Scalar.muli 2#32 (Scf.iv 1#32 1#32 k.val)).toNat ≤ 199 := by decide +kernel
theorem gO_le : ∀ k : Fin k0_t2_loop.trips, (Scalar.addi (Scalar.muli 2#32 (Scf.iv 1#32 1#32 k.val)) 1#32).toNat ≤ 199 := by decide +kernel

/-- A position vector over a history step: (lane + c) * 50 + base of `g`. -/
theorem pos_okG (v2 : IVec S16 32) (hv2 : v2 = iota .scVector S16 32 [0] iota_S16_d0_w32_scVector) (c : BitVec 32) (hc : c.toNat ≤ 112)
    (g : BitVec 32) (hg : g.toNat ≤ 199) :
    ∀ a x, ((![addi (muli (addi v2 (broadcast S16 c)) (broadcast S16 50#32))
        (broadcast S16 (Scalar.addi (Scalar.muli (Scalar.divsi g 50#32) 6400#32) (Scalar.remsi g 50#32)))] : Fin 1 → IVec S16 32) a x).toNat
      < S25600.size a :=
  pos_ok v2 hv2 c hc _ (baseG_le g hg)

end Cert.Proof.KI

end
-- ==== Proof.KIBody.lean ====
/-
  The body of the lookup on one tile: it runs to its end, nothing faulting, and hands back what it was lent.

  A tile stages its 25600 row numbers, then works through 200 groups of 128 lookups in two alternating slots. For a
  group it reads the 128 row numbers out of the staged ones (halved: the row of the table re-laid as double rows;
  the parity times 64: where the wanted row starts inside the double row), gathers the 128 double rows, transposes the
  wanted halves into a [64, 128] block and writes that block out. While one slot's gather is under way the other
  slot's rows are transposed and written, so at the head of each round of the main loop one gather and one write-out
  are still under way: the loop's invariant holds both. Every index the body uses is in range because every staged
  word is a row number of the million-row table.
-/
import proofs.«206508_g82686710383178_cont_9to1c4b_561_19_alg».proof.Proof.KIFacts
import proofs.«206508_g82686710383178_cont_9to1c4b_561_19_alg».proof.Proof.KIInv
import proofs.«206508_g82686710383178_cont_9to1c4b_561_19_alg».proof.Proof.KITrip1
import proofs.«206508_g82686710383178_cont_9to1c4b_561_19_alg».proof.Proof.KITrip3
import proofs.«206508_g82686710383178_cont_9to1c4b_561_19_alg».proof.Proof.KITrip4
import proofs.«206508_g82686710383178_cont_9to1c4b_561_19_alg».proof.Proof.KITrip5
import proofs.«206508_g82686710383178_cont_9to1c4b_561_19_alg».proof.Proof.KIPos
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F]
variable (d : Dev nD) (L : grid0.Coords)

/-- What the main loop keeps from round to round. Slot 0's row list, parity scratch and rows are free; slot 1's parity
    scratch holds 0s and 64s (its transpose comes first in the next round); slot 1's gather is under way, holding its
    rows, its list and one of the two shares of the table; the write-out of slot 0's block is under way, holding the
    block and the part `A` of the result it fills — a part of what the tile was lent, apart from the last part the tile
    will fill; the rest of what was lent is held at some contents. -/
def invMain (O : CellTallies nD τ sig (HIx 1)) (W : Waits sig (HIx 1)) (qI qT qT' : PosShare TreeShare)
    (fI : Buf (Elt F) ((idsW).view.loc (thr d L))) (fT : Buf (Elt F) ((tblW).view.loc (thr d L)))
    (S0 : Buf (Elt F) ((b0).view.loc (thr d L))) (Sout : Finset S50x64x16384.Idx) (_ : Nat) (_ : PUnit) : sProp 𝕄 :=
  iprop(Transfers.MayWaits (thr d L) (none : HIx 1) O
    ∗ ((b0).view.loc (thr d L) ↦{fullShare} S0) ∗ ((idsW).view.loc (thr d L) ↦{qI} fI)
    ∗ (∃ f, (b1).view.loc (thr d L) ↦{fullShare} f) ∗ (∃ f, (b3).view.loc (thr d L) ↦{fullShare} f)
    ∗ (∃ f, (b5).view.loc (thr d L) ↦{fullShare} f)
    ∗ (∃ P4, ⌜ParOK d (cV L) (jV L) b4 P4⌝ ∗ (b4).view.loc (thr d L) ↦{fullShare} P4)
    ∗ (∃ f, (b8).view.loc (thr d L) ↦{fullShare} f)
    ∗ ((tblW).view.loc (thr d L) ↦{qT} fT)
    ∗ ((tblW).view.loc (thr d L) ↦[Finset.univ \ (sliceT).view.set]{qT'} fT)
    ∗ semVal (thr d L, SemLoc.dma cc0_scratch9.sem) 0 ∗ semVal (thr d L, SemLoc.dma cc0_scratch12.sem) 0
    ∗ semVal (thr d L, SemLoc.dma cc0_scoped0.sem) 0
    ∗ (∃ f6, ∃ f2, Transfers.Flight countersEmb (thr d L) (SemLoc.dma cc0_scratch10.sem) default 524288
        iprop((((b6).view.loc (thr d L) ↦{fullShare} f6) ∗ ((b2).view.loc (thr d L) ↦{fullShare} f2))
          ∗ ((tblW).view.loc (thr d L) ↦[(sliceT).view.set]{qT'} fT)))
    ∗ (∃ (A : Finset S50x64x16384.Idx), ⌜A ⊆ Sout ∧ Disjoint A (sliceSet (k0_off11 L) (k0_off11_inb L))⌝
        ∗ (∃ fo, ∃ f7, Transfers.Flight countersEmb (thr d L) (SemLoc.dma cc0_scratch11.sem) default 262144
            iprop(((outW).view.loc (thr d L) ↦[A]{fullShare} fo) ∗ ((b7).view.loc (thr d L) ↦[(b7).view.set]{fullShare} f7))
          ∗ ((b7).view.loc (thr d L) ↦[Finset.univ \ (b7).view.set]{fullShare} f7))
        ∗ ∃ fr, (outW).view.loc (thr d L) ↦[Sout \ A]{fullShare} fr)
    ∗ ∃ W', ⌜∀ p ∈ W', p ∈ W ∨ p.2 = none⌝ ∗ owes (thr d L) O W')

/-- The target memref of a write-out, as the program spells it. -/
abbrev outSlice (off : Fin 3 → ℕ) (h : ∀ a, off a + S1x64x128.size a ≤ S50x64x16384.size a) : Memref sig .scVector .hbm S64x128 .f32 :=
  ((outW).slice (Rect.unit (s := S50x64x16384) off S1x64x128.size h) (fun _ => rfl)).squeeze S64x128 squeezes_S1x64x128_S64x128

/-- A part of the result held through the result's own location is the same thing held through the write-out's
    target memref: the form in which a transfer looks for its destination. -/
theorem pts_slice (off : Fin 3 → ℕ) (h : ∀ a, off a + S1x64x128.size a ≤ S50x64x16384.size a) (f : Buf (Elt F) ((outW).view.loc (thr d L))) :
    ((outW).view.loc (thr d L) ↦[sliceSet off h]{fullShare} f : sProp 𝕄)
      = ((outSlice off h).view.loc (thr d L) ↦[(outSlice off h).view.set]{fullShare} f) := rfl

omit [FloatOps F] in
/-- One more wait recorded at no index keeps the record of the waits in the form the tile's obligation asks. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (by rw [hp]; rfl)
  · exact h p hp

set_option maxHeartbeats 40000000 in
/-- The tile's body, from what it is lent — a share of the row numbers, two shares of the table, a part `Sout` of the
    result that contains every part the tile fills, its own nine scratch buffers and five transfer counters — runs to
    its end and hands all of it back, the result's part at some contents. -/
theorem body_core (O : CellTallies nD τ sig (HIx 1)) (W : Waits sig (HIx 1)) (qI qT qT' : PosShare TreeShare)
    (fI : Buf (Elt F) ((idsW).view.loc (thr d L))) (fT : Buf (Elt F) ((tblW).view.loc (thr d L)))
    (hI : ∀ j, (fI j).toNat < 1000000)
    (Sout : Finset S50x64x16384.Idx) (fO : Buf (Elt F) ((outW).view.loc (thr d L)))
    (hs3 : sliceSet (k0_off3 L) (k0_off3_inb L) ⊆ Sout)
    (hs6 : ∀ k, sliceSet (k0_off6 L k) (k0_off6_inb L k) ⊆ Sout)
    (hs9 : ∀ k, sliceSet (k0_off9 L k) (k0_off9_inb L k) ⊆ Sout)
    (hs11 : sliceSet (k0_off11 L) (k0_off11_inb L) ⊆ Sout)
    (hd3 : Disjoint (sliceSet (k0_off3 L) (k0_off3_inb L)) (sliceSet (k0_off11 L) (k0_off11_inb L)))
    (hd9 : ∀ k, Disjoint (sliceSet (k0_off9 L k) (k0_off9_inb L k)) (sliceSet (k0_off11 L) (k0_off11_inb L)))
    (f0 : Buf (Elt F) ((b0).view.loc (thr d L))) (f1 : Buf (Elt F) ((b1).view.loc (thr d L))) (f2 : Buf (Elt F) ((b2).view.loc (thr d L)))
    (f3 : Buf (Elt F) ((b3).view.loc (thr d L))) (f4 : Buf (Elt F) ((b4).view.loc (thr d L))) (f5 : Buf (Elt F) ((b5).view.loc (thr d L)))
    (f6 : Buf (Elt F) ((b6).view.loc (thr d L))) (f7 : Buf (Elt F) ((b7).view.loc (thr d L))) (f8 : Buf (Elt F) ((b8).view.loc (thr d L))) :
    iprop(Transfers.MayWaits (thr d L) (none : HIx 1) O
        ∗ ((idsW).view.loc (thr d L) ↦{qI} fI) ∗ ((tblW).view.loc (thr d L) ↦{qT} fT) ∗ ((tblW).view.loc (thr d L) ↦{qT'} fT)
        ∗ ((outW).view.loc (thr d L) ↦[Sout]{fullShare} fO)
        ∗ ((b0).view.loc (thr d L) ↦{fullShare} f0) ∗ ((b1).view.loc (thr d L) ↦{fullShare} f1) ∗ ((b2).view.loc (thr d L) ↦{fullShare} f2)
        ∗ ((b3).view.loc (thr d L) ↦{fullShare} f3) ∗ ((b4).view.loc (thr d L) ↦{fullShare} f4) ∗ ((b5).view.loc (thr d L) ↦{fullShare} f5)
        ∗ ((b6).view.loc (thr d L) ↦{fullShare} f6) ∗ ((b7).view.loc (thr d L) ↦{fullShare} f7) ∗ ((b8).view.loc (thr d L) ↦{fullShare} f8)
        ∗ semVal (thr d L, SemLoc.dma cc0_scratch9.sem) 0 ∗ semVal (thr d L, SemLoc.dma cc0_scratch10.sem) 0
        ∗ semVal (thr d L, SemLoc.dma cc0_scratch11.sem) 0 ∗ semVal (thr d L, SemLoc.dma cc0_scratch12.sem) 0
        ∗ semVal (thr d L, SemLoc.dma cc0_scoped0.sem) 0
        ∗ owes (thr d L) O W : sProp 𝕄)
      ⊢ wp frame (wpE (defs₀ (F := F)) 𝒱₀ (thr d L) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => iprop(((idsW).view.loc (thr d L) ↦{qI} fI) ∗ ((tblW).view.loc (thr d L) ↦{qT} fT) ∗ ((tblW).view.loc (thr d L) ↦{qT'} fT)
            ∗ (∃ f, (outW).view.loc (thr d L) ↦[Sout]{fullShare} f)
            ∗ (∃ f, (b0).view.loc (thr d L) ↦{fullShare} f) ∗ (∃ f, (b1).view.loc (thr d L) ↦{fullShare} f) ∗ (∃ f, (b2).view.loc (thr d L) ↦{fullShare} f)
            ∗ (∃ f, (b3).view.loc (thr d L) ↦{fullShare} f) ∗ (∃ f, (b4).view.loc (thr d L) ↦{fullShare} f) ∗ (∃ f, (b5).view.loc (thr d L) ↦{fullShare} f)
            ∗ (∃ f, (b6).view.loc (thr d L) ↦{fullShare} f) ∗ (∃ f, (b7).view.loc (thr d L) ↦{fullShare} f) ∗ (∃ f, (b8).view.loc (thr d L) ↦{fullShare} f)
            ∗ semVal (thr d L, SemLoc.dma cc0_scratch9.sem) 0 ∗ semVal (thr d L, SemLoc.dma cc0_scratch10.sem) 0
            ∗ semVal (thr d L, SemLoc.dma cc0_scratch11.sem) 0 ∗ semVal (thr d L, SemLoc.dma cc0_scratch12.sem) 0
            ∗ semVal (thr d L, SemLoc.dma cc0_scoped0.sem) 0
            ∗ ∃ W', ⌜∀ p ∈ W', p ∈ W ∨ p.2 = none⌝ ∗ owes (thr d L) O W') := by
  have e398 : ∀ (v : Vec F S16 .i32) (c : BitVec 32), k0_pay398 (F := F) v c = muli (andi v (broadcast S16 c)) (broadcast S16 64#32) := fun _ _ => rfl
  have e400 : ∀ (v : Vec F S16 .i32), k0_pay400 (F := F) v = shrui v (broadcast S16 1#32) := fun _ => rfl
  have e401 : ∀ (v : Vec F S16 .i32), k0_pay401 (F := F) v = muli (andi v (broadcast S16 1#32)) (broadcast S16 64#32) := fun _ => rfl
  have e237 : ∀ (v : Vec F S16 .i32), k0_pay237 (F := F) v = shrui v (broadcast S16 1#32) := fun _ => rfl
  have e238 : ∀ (v : Vec F S16 .i32), k0_pay238 (F := F) v = muli (andi v (broadcast S16 1#32)) (broadcast S16 64#32) := fun _ => rfl
  have e263 : ∀ (v : Vec F S16 .i32), k0_pay263 (F := F) v = shrui v (broadcast S16 1#32) := fun _ => rfl
  have e264 : ∀ (v : Vec F S16 .i32), k0_pay264 (F := F) v = muli (andi v (broadcast S16 1#32)) (broadcast S16 64#32) := fun _ => rfl
  rw [cc0__emb_lookup_eq_skeleton]; unfold cc0__emb_lookup_skel
  rw [k0_part48_eq_skeleton]; unfold k0_part48_skel
  iintro ⟨Hmw, HI, HT, HT', HOut, H0, H1, H2, H3, H4, H5, H6, H7, H8, Hg0, Hg1, Hw0, Hw1, Hsc, HO⟩
  -- the staging copy: the staged words are row numbers
  sl_exec
  unfold body_core.sl.dma0
  ihave H0' := (stage_intro d (cV L) (jV L) L f0 fI hI) $$ H0
  icases H0' with ⟨%S0, %hS0, H0⟩
  -- group 0 into slot 0: its row list and parities
  repeat (rw [SparseCore.vectorLoadIdx_bind (c := thr d L)]; sl_exec)
  sl_unfold_run_names
  ihave H1' := (q_intro d (cV L) (jV L) b1 S0 hS0 _ _ _ _ _ _ _ _ _ _ _ _ _ _ _ _ _) $$ H1
  icases H1' with ⟨%Q1, %hQ1, H1⟩
  have hin1 : ∀ x, ((b1).view.read (Elt F) Q1 x).toNat < 500000 := hQ1
  ihave H3' := (par_intro d (cV L) (jV L) b3 S0 _ _ _ _ _ _ _ _ _ _ _ _ _ _ _ _ _) $$ H3
  icases H3' with ⟨%P3, %hP3, H3⟩
  -- slot 0's gather is issued; group 1 into slot 1
  sl_exec
  repeat (rw [SparseCore.vectorLoadIdx_bind (c := thr d L)]; sl_exec)
  sl_unfold_run_names
  rw [e400, e401, e398]
  ihave H2' := (q_intro d (cV L) (jV L) b2 S0 hS0 _ _ _ _ _ _ _ _ _ _ _ _ _ _ _ _ _) $$ H2
  icases H2' with ⟨%Q2, %hQ2, H2⟩
  have hin2 : ∀ x, ((b2).view.read (Elt F) Q2 x).toNat < 500000 := hQ2
  ihave H4' := (par_intro d (cV L) (jV L) b4 S0 _ _ _ _ _ _ _ _ _ _ _ _ _ _ _ _ _) $$ H4
  icases H4' with ⟨%P4, %hP4, H4⟩
  -- slot 1's gather is issued, slot 0's is waited for; slot 0's rows are transposed
  sl_exec
  sl_for (invU d L b3 b5 b7 _ _) $$ [H3 H5 H7]
  rotate_left
  · unfold invU
    isplitl [H3]; · iexact H3
    isplitl [H5]; · iexact H5
    iexists _; iexact H7
  rotate_left
  · intro k acc
    sl_unfold_run_names
    exact trip_t1 d L _ _ hP3 _ _ _ _ _ _ _ _ _ _ _ _ _ _ _ _ _ _ rfl rfl rfl rfl rfl rfl rfl rfl rfl rfl rfl rfl rfl rfl rfl rfl rfl _ _ k acc
  iintro %_ HI
  unfold invU
  icases HI with ⟨H3, H5, %f7a, H7⟩
  -- the first write-out: its part of the result is carved out of what the tile holds
  ihave Hc := (pointsTo_split_subset (ℓ := (outW).view.loc (thr d L)) (q := fullShare) (f := fO) hs3).1 $$ HOut
  icases Hc with ⟨HA, HOut⟩
  ihave HA := (Entails.of_eq (pts_slice d L (k0_off3 L) (k0_off3_inb L) fO)) $$ HA
  sl_exec
  sl_for (invMain d L O W qI qT qT' fI fT S0 Sout) $$ [Hmw H0 HI H1 H3 H5 H4 H8 HT HT' Hg0 Hw1 Hsc Hg1 Hw0 H7 HOut HO]
  rotate_left
  · unfold invMain
    isplitl [Hmw]; · iexact Hmw
    isplitl [H0]; · iexact H0
    isplitl [HI]; · iexact HI
    isplitl [H1]; · iexists _; iexact H1
    isplitl [H3]; · iexists _; iexact H3
    isplitl [H5]; · iexists _; iexact H5
    isplitl [H4]
    · iexists P4; isplitr
      · ipureintro; exact hP4
      · iexact H4
    isplitl [H8]; · iexists _; iexact H8
    isplitl [HT]; · iexact HT
    isplitl [HT']; · iexact HT'
    isplitl [Hg0]; · iexact Hg0
    isplitl [Hw1]; · iexact Hw1
    isplitl [Hsc]; · iexact Hsc
    isplitl [Hg1]; · iexists _; iexists _; iexact Hg1
    isplitl [Hw0 H7 HOut]
    · iexists (sliceSet (k0_off3 L) (k0_off3_inb L)); isplitr
      · ipureintro; exact ⟨hs3, hd3⟩
      isplitl [Hw0 H7]
      · iexists _; iexists _
        isplitl [Hw0]; · iexact Hw0
        iexact H7
      iexists _; iexact HOut
    iexists _; isplitr
    rotate_left
    · iexact HO
    · ipureintro; repeat (first | exact (fun _ h => .inl h) | apply waits_insert)
  rotate_left
  · intro k _
    unfold invMain
    iintro ⟨Hmw, H0, HI, ⟨%f1', H1⟩, ⟨%f3', H3⟩, ⟨%f5', H5⟩, ⟨%P4', %hP4', H4⟩, ⟨%f8', H8⟩, HT, HT', Hg0, Hw1, Hsc, ⟨%f6', %f2', Hg1⟩, ⟨%A, %hA, ⟨%fo, %f7', Hw0, H7⟩, ⟨%fr, HOut⟩⟩, %W', %hW', HO⟩
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    repeat (rw [SparseCore.vectorLoadIdx_bind (c := thr d L)]; sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k)))))
    sl_unfold_run_names
    try rw [e237]
    try rw [e238]
    ihave H1' := (q_intro d (cV L) (jV L) b1 S0 hS0 _ _ _ _ _ _ _ _ _ _ _ _ _ _ _ _ _) $$ H1
    icases H1' with ⟨%Q1', %hQ1', H1⟩
    have hin1' : ∀ x, ((b1).view.read (Elt F) Q1' x).toNat < 500000 := hQ1'
    ihave H3' := (par_intro d (cV L) (jV L) b3 S0 _ _ _ _ _ _ _ _ _ _ _ _ _ _ _ _ _) $$ H3
    icases H3' with ⟨%P3', %hP3', H3⟩
    -- slot 0's gather is issued, slot 1's is waited for; slot 1's rows are transposed
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_for (invU d L b4 b6 b8 _ _) $$ [H4 Hg1_dst H8]
    rotate_left
    · unfold invU
      isplitl [H4]; · iexact H4
      isplitl [Hg1_dst]; · iexact Hg1_dst
      iexists _; iexact H8
    rotate_left
    · intro k acc
      sl_unfold_run_names
      exact trip_t3 d L _ _ hP4' _ _ _ _ _ _ _ _ _ _ _ _ _ _ _ _ _ _ rfl rfl rfl rfl rfl rfl rfl rfl rfl rfl rfl rfl rfl rfl rfl rfl rfl _ _ _ k acc
    iintro %_ HI
    unfold invU
    icases HI with ⟨H4, H6, %f8a, H8⟩
    -- slot 1's write-out: the part that came back is put back, the next part carved out
    ihave HOutM := (pointsTo_join_subset (ℓ := (outW).view.loc (thr d L)) (q := fullShare) (g := fo) (f := fr) hA.1) $$ [Hw0_dst HOut]
    · isplitl [Hw0_dst]; · iexact Hw0_dst
      iexact HOut
    ihave Hc := (pointsTo_split_subset (ℓ := (outW).view.loc (thr d L)) (q := fullShare) (hs6 k)).1 $$ HOutM
    icases Hc with ⟨HB, HOut⟩
    ihave HB := (Entails.of_eq (pts_slice d L (k0_off6 L k) (k0_off6_inb L k) _)) $$ HB
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    repeat (rw [SparseCore.vectorLoadIdx_bind (c := thr d L)]; sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k)))))
    sl_unfold_run_names
    try rw [e263]
    try rw [e264]
    ihave H2' := (q_intro d (cV L) (jV L) b2 S0 hS0 _ _ _ _ _ _ _ _ _ _ _ _ _ _ _ _ _) $$ Hg1_dst_and
    icases H2' with ⟨%Q2', %hQ2', H2⟩
    have hin2' : ∀ x, ((b2).view.read (Elt F) Q2' x).toNat < 500000 := hQ2'
    ihave H4' := (par_intro d (cV L) (jV L) b4 S0 _ _ _ _ _ _ _ _ _ _ _ _ _ _ _ _ _) $$ H4
    icases H4' with ⟨%P4'', %hP4'', H4⟩
    -- slot 1's gather is issued, slot 0's is waited for; slot 0's rows are transposed
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_for (invU d L b3 b5 b7 _ _) $$ [H3 H5 H7]
    rotate_left
    · unfold invU
      isplitl [H3]; · iexact H3
      isplitl [H5]; · iexact H5
      iexists _; iexact H7
    rotate_left
    · intro k acc
      sl_unfold_run_names
      exact trip_t4 d L _ _ hP3' _ _ _ _ _ _ _ _ _ _ _ _ _ _ _ _ _ _ rfl rfl rfl rfl rfl rfl rfl rfl rfl rfl rfl rfl rfl rfl rfl rfl rfl _ _ _ _ k acc
    iintro %_ HI
    unfold invU
    icases HI with ⟨H3, H5, %f7b, H7⟩
    -- slot 0's write-out: the part that came back is put back, the next part carved out
    ihave HB := (Entails.of_eq (pts_slice d L (k0_off6 L k) (k0_off6_inb L k) _).symm) $$ HB
    ihave HOutM := (pointsTo_join_subset (ℓ := (outW).view.loc (thr d L)) (q := fullShare) (hs6 k)) $$ [HB HOut]
    · isplitl [HB]; · iexact HB
      iexact HOut
    ihave Hc := (pointsTo_split_subset (ℓ := (outW).view.loc (thr d L)) (q := fullShare) (hs9 k)).1 $$ HOutM
    icases Hc with ⟨HA, HOut⟩
    ihave HA := (Entails.of_eq (pts_slice d L (k0_off9 L k) (k0_off9_inb L k) _)) $$ HA
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_step
    isplitl [Hmw]; · iexact Hmw
    isplitl [H0]; · iexact H0
    isplitl [HI]; · iexact HI
    isplitl [H1]; · iexists _; iexact H1
    isplitl [H3]; · iexists _; iexact H3
    isplitl [H5]; · iexists _; iexact H5
    isplitl [H4]
    · iexists P4''; isplitr
      · ipureintro; exact hP4''
      · iexact H4
    isplitl [H8]; · iexists _; iexact H8
    isplitl [HT]; · iexact HT
    isplitl [HT']; · iexact HT'
    isplitl [Hg0]; · iexact Hg0
    isplitl [Hw1]; · iexact Hw1
    isplitl [Hsc]; · iexact Hsc
    isplitl [Hg1]; · iexists _; iexists _; iexact Hg1
    isplitl [Hw0 H7 HOut]
    · iexists (sliceSet (k0_off9 L k) (k0_off9_inb L k)); isplitr
      · ipureintro; exact ⟨hs9 k, hd9 k⟩
      isplitl [Hw0 H7]
      · iexists _; iexists _
        isplitl [Hw0]; · iexact Hw0
        iexact H7
      iexists _; iexact HOut
    iexists _; isplitr
    rotate_left
    · iexact HO
    · ipureintro; repeat (first | exact hW' | apply waits_insert)
  -- after the last round: the last gather's wait, the last transpose, the last write-out, the two writes' waits
  iintro %_ HI
  unfold invMain
  icases HI with ⟨Hmw, H0, HI, ⟨%f1', H1⟩, ⟨%f3', H3⟩, ⟨%f5', H5⟩, ⟨%P4', %hP4', H4⟩, ⟨%f8', H8⟩, HT, HT', Hg0, Hw1, Hsc, ⟨%f6', %f2', Hg1⟩, ⟨%A, %hA, ⟨%fo, %f7', Hw0, H7⟩, ⟨%fr, HOut⟩⟩, %W', %hW', HO⟩
  sl_exec
  sl_for (invU d L b4 b6 b8 _ _) $$ [H4 Hg1_dst H8]
  rotate_left
  · unfold invU
    isplitl [H4]; · iexact H4
    isplitl [Hg1_dst]; · iexact Hg1_dst
    iexists _; iexact H8
  rotate_left
  · intro k acc
    sl_unfold_run_names
    exact trip_t5 d L _ _ hP4' _ _ _ _ _ _ _ _ _ _ _ _ _ _ _ _ _ _ rfl rfl rfl rfl rfl rfl rfl rfl rfl rfl rfl rfl rfl rfl rfl rfl rfl _ _ k acc
  iintro %_ HI
  unfold invU
  icases HI with ⟨H4, H6, %f8b, H8⟩
  have hsub : sliceSet (k0_off11 L) (k0_off11_inb L) ⊆ Sout \ A := Finset.subset_sdiff.mpr ⟨hs11, hA.2.symm⟩
  ihave Hc := (pointsTo_split_subset (ℓ := (outW).view.loc (thr d L)) (q := fullShare) hsub).1 $$ HOut
  icases Hc with ⟨HB, HOut⟩
  ihave HB := (Entails.of_eq (pts_slice d L (k0_off11 L) (k0_off11_inb L) _)) $$ HB
  sl_exec
  sl_step
  isplitl [HI]; · iexact HI
  isplitl [HT]; · iexact HT
  isplitl [HT']; · iexact HT'
  isplitl [HOut Hw0_dst HB]
  · -- the result's part is put back together: the last part, then the part of the last round's write-out
    ihave HB := (Entails.of_eq (pts_slice d L (k0_off11 L) (k0_off11_inb L) _).symm) $$ HB
    ihave HM1 := (pointsTo_join_subset (ℓ := (outW).view.loc (thr d L)) (q := fullShare) hsub) $$ [HB HOut]
    · isplitl [HB]; · iexact HB
      iexact HOut
    ihave HM2 := (pointsTo_join_subset (ℓ := (outW).view.loc (thr d L)) (q := fullShare) hA.1) $$ [Hw0_dst HM1]
    · isplitl [Hw0_dst]; · iexact Hw0_dst
      iexact HM1
    iexists _; iexact HM2
  isplitl [H0]; · iexists _; iexact H0
  isplitl [H1]; · iexists _; iexact H1
  isplitl [Hg1_dst_and]; · iexists _; iexact Hg1_dst_and
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [Hg0]; · iexact Hg0
  isplitl [Hg1]; · iexact Hg1
  isplitl [Hw0]; · iexact Hw0
  isplitl [Hw1]; · iexact Hw1
  isplitl [Hsc]; · iexact Hsc
  iexists _; isplitr
  rotate_left
  · iexact HO
  · ipureintro; repeat (first | exact hW' | apply waits_insert)

end Cert.Proof.KI

end
-- ==== Proof.KIFrames.lean ====
/-
  The kernel program's frame, assembled.

  The precondition says every row number is in [0, 999999]; the flattened row numbers are the same words in row-major
  order, so they are in range too. With that, one tile's task follows from its body, and the launch turns one tile's
  task into: every weakly fair execution of the device's threads terminates with the two arguments unchanged.
-/
import proofs.«206508_g82686710383178_cont_9to1c4b_561_19_alg».proof.Defs
import proofs.«206508_g82686710383178_cont_9to1c4b_561_19_alg».proof.Proof.RefPre
import proofs.«206508_g82686710383178_cont_9to1c4b_561_19_alg».proof.Proof.KILaunch
import proofs.«206508_g82686710383178_cont_9to1c4b_561_19_alg».proof.Proof.KITile
import proofs.«206508_g82686710383178_cont_9to1c4b_561_19_alg».proof.Proof.KIBody
import proofs.«206508_g82686710383178_cont_9to1c4b_561_19_alg».proof.Proof.Gen.Pre_input_domain

namespace Cert.Proof.KI

open Cert.KernelIdeal Cert.KernelIdeal.Gen

open Idealize.ShloMosaic

/-- Under the precondition the flattened row numbers are below a million. -/
theorem ids_flat_lt (m : (ℓ : Loc nD τ sig) → Buf (Elt Ideal) ℓ) (h : Cert.Pre_KernelIdeal m) :
    ∀ d j, (idsFlat m d j).toNat < 1000000 := by
  intro d j
  unfold idsFlat shapeCast
  exact Cert.Proof.RefSide.ids_in_range (F := Ideal) _ _ (h d) _

/-- The frame of the kernel program at the ideal instance, from the tile's body. -/
theorem frame_KernelIdeal_of (hcore : BodyCore (F := Ideal)) : Cert.frame_KernelIdeal :=
  fun m ρ hp => run_main (F := Ideal) m ρ (tile_body_of m hcore (ids_flat_lt m hp))

/-- One tile's task, for every float instance, from the range of the flattened row numbers. -/
theorem tile_body {F : FTy → Type} [FloatOps F] (m : (ℓ : Loc nD τ sig) → Buf (Elt F) ℓ)
    (hpre : ∀ d j, (idsFlat m d j).toNat < 1000000) : TileBody m :=
  tile_body_of m (fun d L => body_core d L) hpre

/-- The frame of the kernel program: every weakly fair execution terminates, the two arguments unchanged. -/
theorem frame_KernelIdeal : Cert.frame_KernelIdeal :=
  frame_KernelIdeal_of (fun d L => body_core d L)

end Cert.Proof.KI
-- ==== Proof.KBSetup.lean ====
/-
  The kernel program as the launch theorem sees it, and what its handshakes carry.

  @main on the TensorCore flattens the row numbers ([16384, 50] to [819200]) and pairs up the table's rows
  ([1000000, 64] to [500000, 128]), both in row-major order, starts one vector-subcore kernel on 2 SparseCores of 16
  tiles each, and transposes what the kernel wrote ([50, 64, 16384] to [16384, 50, 64]).

  Tile (core c, subcore s) has number s * 2 + c among the 32. It only READS the flattened row numbers and the paired table,
  and it WRITES exactly the entries (h, f, b) of the [50, 64, 16384] array whose last coordinate b lies in its own
  block of 512 columns, b / 512 = s * 2 + c. The 32 blocks tile the 16384 columns, so the output array splits into 32
  pairwise disjoint parts, one per tile, and first into two parts, one per SparseCore (the blocks of even and of odd
  number). The two arrays that are only read go out as read shares of the whole array: a share per SparseCore, of it a
  share per tile; of the table each tile gets TWO shares, since two of its gathers are in flight at the same time and
  each holds a share of the table until it has been waited for.
-/
import proofs.«206508_g82686710383178_cont_9to1c4b_561_19_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the kernel's memrefs -/

variable (m : (ℓ : Loc nD τ sig) → Buf (Elt F) ℓ) (ρ : Dev nD → PrngReg)

/-- The two arguments, the two reshaped arrays the kernel reads, the array it writes, and the result. -/
abbrev a0Loc (d : Dev nD) : Loc nD τ sig := (SparseCore.T d).loc main_arg0
abbrev a1Loc (d : Dev nD) : Loc nD τ sig := (SparseCore.T d).loc main_arg1
abbrev idsLoc (d : Dev nD) : Loc nD τ sig := (SparseCore.T d).loc main_v0
abbrev tblLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

variable [FloatOps F]

abbrev idsW : Memref sig .scVector .hbm S819200 .i32 := Memref.whole main_v0_scv
abbrev tblW : Memref sig .scVector .hbm S500000x128 .f32 := Memref.whole main_v1_scv
abbrev outW : Memref sig .scVector .hbm S50x64x16384 .f32 := Memref.whole main_v2_scv
abbrev b0 : Memref sig .scVector .vmem S25600 .i32 := Memref.whole cc0_scratch0
abbrev b1 : Memref sig .scVector .vmem S128 .i32 := Memref.whole cc0_scratch1
abbrev b2 : Memref sig .scVector .vmem S128 .i32 := Memref.whole cc0_scratch2
abbrev b3 : Memref sig .scVector .vmem S8x16 .i32 := Memref.whole cc0_scratch3
abbrev b4 : Memref sig .scVector .vmem S8x16 .i32 := Memref.whole cc0_scratch4
abbrev b5 : Memref sig .scVector .vmem S128x128 .f32 := Memref.whole cc0_scratch5
abbrev b6 : Memref sig .scVector .vmem S128x128 .f32 := Memref.whole cc0_scratch6
abbrev b7 : Memref sig .scVector .vmem S64x128 .f32 := Memref.whole cc0_scratch7
abbrev b8 : Memref sig .scVector .vmem S64x128 .f32 := Memref.whole cc0_scratch8

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-! ## What the kernel reads: the two arguments in row-major order under their new shapes -/

/-- The row numbers flattened: what the first host operation writes. -/
def idsFlat (d : Dev nD) : Buf (Elt F) (idsLoc d) :=
  shapeCast S819200 (m (a0Loc d)) shapeCasts_S16384x50_S819200
/-- The table with its rows paired: what the second host operation writes. -/
def tbl (d : Dev nD) : Buf (Elt F) (tblLoc d) :=
  shapeCast S500000x128 (m (a1Loc d)) shapeCasts_S1000000x64_S500000x128

/-! ## Shares and parts -/

/-- SparseCore `c`'s read share of an array, tile `(c, i)`'s share of that, and its two halves. -/
abbrev qC (c : ℕ) : PosShare TreeShare := shareTokN fullShare c
abbrev qI (c i : ℕ) : PosShare TreeShare := shareTokN (qC c) i
abbrev qT (c i : ℕ) : PosShare TreeShare := (qI c i).left
abbrev qT' (c i : ℕ) : PosShare TreeShare := (qI c i).right

/-- Tile `(c, i)`'s part of the output: the entries whose column lies in block `i * 2 + c` of 512 columns. -/
def outSet (c i : ℕ) : Finset S50x64x16384.Idx := Finset.univ.filter fun j => (j 2).val / 512 = i * 2 + c
theorem mem_outSet {c i : ℕ} {j : S50x64x16384.Idx} : j ∈ outSet c i ↔ (j 2).val / 512 = i * 2 + c := by
  unfold outSet; rw [Finset.mem_filter]; exact ⟨fun h => h.2, fun h => ⟨Finset.mem_univ _, h⟩⟩
/-- SparseCore `c`'s part: the blocks whose number has parity `c`. -/
def coreSet (c : ℕ) : Finset S50x64x16384.Idx := Finset.univ.filter fun j => (j 2).val / 512 % 2 = c
theorem mem_coreSet {c : ℕ} {j : S50x64x16384.Idx} : j ∈ coreSet c ↔ (j 2).val / 512 % 2 = c := by
  unfold coreSet; rw [Finset.mem_filter]; exact ⟨fun h => h.2, fun h => ⟨Finset.mem_univ _, h⟩⟩

abbrev idsPts (d : Dev nD) (q : PosShare TreeShare) : sProp 𝕄 := idsLoc d ↦{q} idsFlat m d
abbrev tblPts (d : Dev nD) (q : PosShare TreeShare) : sProp 𝕄 := tblLoc d ↦{q} tbl m d
abbrev outPts (d : Dev nD) (A : Finset S50x64x16384.Idx) (f : Buf (Elt F) (outLoc d)) : sProp 𝕄 := outLoc d ↦[A]{fullShare} f

/-- What a tile is handed, and what it hands back: its read shares, and its part of the output, at the launch
    contents on the way in and at whatever it wrote on the way back. -/
abbrev goRes (d : Dev nD) (c i : ℕ) : sProp 𝕄 :=
  iprop(idsPts m d (qI c i) ∗ tblPts m d (qT c i) ∗ tblPts m d (qT' c i) ∗ outPts d (outSet c i) (m (outLoc d)))
abbrev tdRes (d : Dev nD) (c i : ℕ) : sProp 𝕄 :=
  iprop(idsPts m d (qI c i) ∗ tblPts m d (qT c i) ∗ tblPts m d (qT' c i) ∗ ∃ f, outPts d (outSet c i) f)
/-- The same per SparseCore. -/
abbrev stRes (d : Dev nD) (c : ℕ) : sProp 𝕄 :=
  iprop(idsPts m d (qC c) ∗ tblPts m d (qC c) ∗ outPts d (coreSet c) (m (outLoc d)))
abbrev dnRes (d : Dev nD) (c : ℕ) : sProp 𝕄 :=
  iprop(idsPts m d (qC c) ∗ tblPts m d (qC c) ∗ ∃ f, outPts d (coreSet c) f)

/-- What the handshakes carry. The kernel has no cells of its own: it only makes local copies and waits for them. -/
def P : (K (F := F)).Pay (nD := nD) (Val := Elt F) (Name := ℕ) (U := UU) where
  st := fun q d c => match q with | 0 => stRes m d c.val
  dn := fun q d c => match q with | 0 => dnRes m d c.val
  go := fun q d c i => match q with | 0 => goRes m d c.val i.val
  td := fun q d c i => match q with | 0 => tdRes m d c.val i.val
  x := fun _ _ => iprop(emp)

instance P_storable : (P (F := F) m).IsStorable where
  st q d c := match q with | 0 => (inferInstance : BI.Storable (upEmb : UEmb _ 𝕄) (stRes m d c.val))
  dn q d c := match q with | 0 => (inferInstance : BI.Storable (upEmb : UEmb _ 𝕄) (dnRes m d c.val))
  go q d c i := match q with | 0 => (inferInstance : BI.Storable (upEmb : UEmb _ 𝕄) (goRes m d c.val i.val))
  td q d c i := match q with | 0 => (inferInstance : BI.Storable (upEmb : UEmb _ 𝕄) (tdRes m d c.val i.val))

/-! ## The body statement the launch takes -/

/-- One tile's task, at a symbolic place `L` of the grid: from its read shares, its part of the output and its own
    scoped storage, the kernel function runs to the same with its part of the output at some contents. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => iprop(tdRes m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KBLaunch.lean ====
/-
  The launch of the kernel program: from one tile's task, proved once at a symbolic place, to every weakly
  fair execution of the device's 35 threads.

  Each of the 32 tiles reads the flattened row numbers and the paired table through read shares of the whole
  arrays and owns its own 512 columns of the output. The columns of number b / 512 = i * 2 + c, for i below 16,
  are exactly the columns whose block number has parity c: SparseCore c's part of the output is the disjoint
  union of its sixteen tiles' parts, and the whole output is the disjoint union of the two SparseCores' parts.
  A share of an array splits into a remainder and sixteen (or two) tokens, and joins back; a token splits into
  its two halves, and joins back. So the TensorCore can hand each SparseCore a share of the two read-only arrays
  and half of the output, each SparseCore can hand each tile a share of its share (two for the table) and that
  tile's columns, and everything comes back the same way, the output at whatever the tiles wrote.

  On the TensorCore, @main is: the two reshapes (each a host operation that writes one new array and leaves the
  arguments alone), the call, and the transpose of the kernel's output into the result. The two arguments are never
  written: they are held aside at their launch contents from the first line to the last.
-/
import proofs.«206508_g82686710383178_cont_9to1c4b_561_19_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareDrop shareTok pointsTo_toks pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The tile obligation, from the body statement -/

theorem defs₀_vector (c : Fin τ.nSC) (s : Fin τ.nSub) :
    defs₀ (F := F) (.scVector c s) 0 ()
      = SparseCore.onTile hcore0 hsub0 (fun c s => cc0__emb_lookup (coordsV c s)
          idsW (Memref.isWhole_whole _) tblW (Memref.isWhole_whole _) outW (Memref.isWhole_whole _)
          b0 (Memref.isWhole_whole _) b1 (Memref.isWhole_whole _) b2 (Memref.isWhole_whole _) b3 (Memref.isWhole_whole _)
          b4 (Memref.isWhole_whole _) b5 (Memref.isWhole_whole _) b6 (Memref.isWhole_whole _) b7 (Memref.isWhole_whole _)
          b8 (Memref.isWhole_whole _) cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the kernel, from one tile's task at a symbolic place. -/
theorem tileObl (hb : TileBody m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## The output's parts -/

omit [FloatOps F] in
theorem col_lt (x : S50x64x16384.Idx) : (x 2).val < 16384 := (x 2).isLt

omit [FloatOps F] in
theorem outSet_disjoint (c : ℕ) : ∀ i ∈ (Finset.univ : Finset (Fin 16)), ∀ j ∈ (Finset.univ : Finset (Fin 16)), i ≠ j →
    Disjoint (outSet c i.val) (outSet c j.val) := by
  intro i _ j _ h
  rw [Finset.disjoint_left]
  intro x hx hy
  rw [mem_outSet] at hx hy
  exact h (Fin.ext (by omega))

omit [FloatOps F] in
theorem outSet_cover (c : ℕ) (hc : c < 2) : (Finset.univ : Finset (Fin 16)).biUnion (fun i => outSet c i.val) = coreSet c := by
  ext x
  rw [Finset.mem_biUnion, mem_coreSet]
  constructor
  · rintro ⟨i, -, hi⟩
    rw [mem_outSet] at hi
    omega
  · intro h
    have hx := col_lt x
    exact ⟨⟨(x 2).val / 512 / 2, by omega⟩, Finset.mem_univ _, mem_outSet.2 (by show (x 2).val / 512 = (x 2).val / 512 / 2 * 2 + c; omega)⟩

omit [FloatOps F] in
theorem coreSet_disjoint : ∀ c ∈ (Finset.univ : Finset (Fin 2)), ∀ c' ∈ (Finset.univ : Finset (Fin 2)), c ≠ c' →
    Disjoint (coreSet c.val) (coreSet c'.val) := by
  intro c _ c' _ h
  rw [Finset.disjoint_left]
  intro x hx hy
  rw [mem_coreSet] at hx hy
  exact h (Fin.ext (by omega))

omit [FloatOps F] in
theorem coreSet_cover : (Finset.univ : Finset (Fin 2)).biUnion (fun c => coreSet c.val) = (Finset.univ : Finset S50x64x16384.Idx) := by
  ext x
  rw [Finset.mem_biUnion]
  exact ⟨fun _ => Finset.mem_univ _, fun _ => ⟨⟨(x 2).val / 512 % 2, by omega⟩, Finset.mem_univ _, mem_coreSet.2 rfl⟩⟩

omit [FloatOps F] in
theorem out_tiles (d : Dev nD) (c : ℕ) (hc : c < 2) (f : Buf (Elt F) (outLoc d)) :
    (outPts d (coreSet c) f : sProp 𝕄) = bigSep Finset.univ fun i : Fin 16 => outPts d (outSet c i.val) f := by
  rw [← pointsTo_biUnion Finset.univ (ℓ := outLoc d) (fun i : Fin 16 => outSet c i.val) (outSet_disjoint c), outSet_cover c hc]

omit [FloatOps F] in
theorem out_cores (d : Dev nD) (f : Buf (Elt F) (outLoc d)) :
    (outLoc d ↦{fullShare} f : sProp 𝕄) = bigSep Finset.univ fun c : Fin 2 => outPts d (coreSet c.val) f := by
  rw [← pointsTo_biUnion Finset.univ (ℓ := outLoc d) (fun c : Fin 2 => coreSet c.val) coreSet_disjoint, coreSet_cover]

theorem out_tiles_join (d : Dev nD) (c : ℕ) (hc : c < 2) :
    (bigSep Finset.univ fun i : Fin 16 => iprop(∃ f, outPts (F := F) d (outSet c i.val) f)) ⊢ (iprop(∃ f, outPts d (coreSet c) f) : sProp 𝕄) := by
  refine (bigSep_exists_pi Finset.univ (fun (i : Fin 16) (f : Buf (Elt F) (outLoc d)) => outPts d (outSet c i.val) f)).trans ?_
  iintro ⟨%fs, H⟩
  ihave H' := (pointsTo_biUnion_join Finset.univ (fun i : Fin 16 => outSet c i.val) fs (fs 0) (outSet_disjoint c)) $$ H
  icases H' with ⟨%g, -, Hg⟩
  rw [outSet_cover c hc]
  iexists g; iexact Hg

theorem out_cores_join (d : Dev nD) :
    (bigSep Finset.univ fun c : Fin 2 => iprop(∃ f, outPts (F := F) d (coreSet c.val) f)) ⊢ (iprop(∃ f, outLoc d ↦{fullShare} f) : sProp 𝕄) := by
  refine (bigSep_exists_pi Finset.univ (fun (c : Fin 2) (f : Buf (Elt F) (outLoc d)) => outPts d (coreSet c.val) f)).trans ?_
  iintro ⟨%fs, H⟩
  ihave H' := (pointsTo_biUnion_join Finset.univ (fun c : Fin 2 => coreSet c.val) fs (fs 0) coreSet_disjoint) $$ H
  icases H' with ⟨%g, -, Hg⟩
  rw [coreSet_cover]
  iexists g; iexact Hg

/-! ## A token's halves -/

omit [FloatOps F] in
theorem halves {ℓ : Loc nD τ sig} (f : Buf (Elt F) ℓ) (q : PosShare TreeShare) :
    (ℓ ↦{q} f : sProp 𝕄) ⊣⊢ iprop((ℓ ↦{q.left} f) ∗ ℓ ↦{q.right} f) :=
  pointsTo_share (PosShare.mem_left_op_right _)

omit [FloatOps F] in
theorem halves_split {ℓ : Loc nD τ sig} (f : Buf (Elt F) ℓ) (c : ℕ) :
    (bigSep Finset.univ fun i : Fin 16 => (ℓ ↦{qI c i.val} f : sProp 𝕄))
      ⊢ iprop((bigSep Finset.univ fun i : Fin 16 => ℓ ↦{qT c i.val} f) ∗ bigSep Finset.univ fun i : Fin 16 => ℓ ↦{qT' c i.val} f) := by
  rw [← bigSep_sep']
  exact bigSep_mono fun i _ => (halves f (qI c i.val)).1

omit [FloatOps F] in
theorem halves_join {ℓ : Loc nD τ sig} (f : Buf (Elt F) ℓ) (c : ℕ) :
    iprop((bigSep Finset.univ fun i : Fin 16 => ℓ ↦{qT c i.val} f) ∗ bigSep Finset.univ fun i : Fin 16 => ℓ ↦{qT' c i.val} f)
      ⊢ (bigSep Finset.univ fun i : Fin 16 => (ℓ ↦{qI c i.val} f : sProp 𝕄)) := by
  rw [← bigSep_sep']
  exact bigSep_mono fun i _ => (halves f (qI c i.val)).2

/-! ## A SparseCore's operands split among its tiles -/

theorem vecSplit : (K (F := F)).VecSplit' (P m) 0 := by
  intro d c
  have hc : c.val < 2 := c.isLt
  show stRes m d c.val ⊢ |={Set.univ}=> iprop(
      (bigSep Finset.univ fun i : Fin 16 => goRes m d c.val i.val)
      ∗ ((bigSep Finset.univ fun i : Fin 16 => tdRes m d c.val i.val) -∗ dnRes m d c.val))
  unfold stRes dnRes goRes tdRes
  rw [bigSep_sep', bigSep_sep', bigSep_sep', bigSep_sep', bigSep_sep', bigSep_sep', out_tiles d c.val hc]
  iintro ⟨Hi, Ht, Ho⟩
  ihave Hi' := (pointsTo_toks_split (qC c.val) 16) $$ Hi
  icases Hi' with ⟨HiR, HiT⟩
  ihave Ht' := (pointsTo_toks_split (qC c.val) 16) $$ Ht
  icases Ht' with ⟨HtR, HtT⟩
  ihave Hh := (halves_split (tbl m d) c.val) $$ HtT
  icases Hh with ⟨HtA, HtB⟩
  imodintro
  isplitl [HiT HtA HtB Ho]
  · isplitl [HiT]; · iexact HiT
    isplitl [HtA]; · iexact HtA
    isplitl [HtB]; · iexact HtB
    iexact Ho
  iintro ⟨Hi2, HtA2, HtB2, Ho2⟩
  isplitl [HiR Hi2]
  · iapply (pointsTo_toks_join (qC c.val) 16)
    isplitl [HiR]; · iexact HiR
    iexact Hi2
  isplitl [HtR HtA2 HtB2]
  · iapply (pointsTo_toks_join (qC c.val) 16)
    isplitl [HtR]; · iexact HtR
    iapply (halves_join (tbl m d) c.val)
    isplitl [HtA2]; · iexact HtA2
    iexact HtB2
  iapply (out_tiles_join d c.val hc); iexact Ho2

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three host operations. -/
abbrev opR0 : HloOp τ sig (Elt F) := StableHlo.reshape main_arg0 main_v0 rfl shapeCasts_S16384x50_S819200
abbrev opR1 : HloOp τ sig (Elt F) := StableHlo.reshape main_arg1 main_v1 rfl shapeCasts_S1000000x64_S500000x128
abbrev opT : HloOp τ sig (Elt F) :=
  StableHlo.unary main_v2 main_v3 ((transpose S16384x50x64 [2, 0, 1] · transposes_S50x64x16384_S16384x50x64_2_0_1) :
    (⟨S50x64x16384, .f32⟩ : BufTy).Contents (Elt F) → (⟨S16384x50x64, .f32⟩ : BufTy).Contents (Elt F))

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (idsLoc d ↦{fullShare} W main_v0)
      ∗ (tblLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Two whole arrays of the device, as the host operations' rule holds them. -/
theorem held_pair (d : Dev nD) (x y : Ref sig .tc) (h : (Proc.devRef .tc x : DevRef τ sig) ≠ Proc.devRef .tc y) (W : Valuation τ sig (Elt F)) :
    (held (T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := by
  unfold held
  rw [SparseCore.bigSep_insert' (Finset.notMem_singleton.mpr h), bigSep_singleton]

/-- The launch valuation. -/
def V0 (d : Dev nD) : Valuation τ sig (Elt F) := fun b => m (d, b)
/-- A valuation with the kernel's output at `f`. -/
def V3 (d : Dev nD) (f : Buf (Elt F) (outLoc d)) : Valuation τ sig (Elt F) := Function.update (V0 m d) v2' f

theorem R0_a0 (d : Dev nD) : (opR0 (F := F)).result (V0 m d) a0' = m (a0Loc d) :=
  StableHlo.reshape_result_ne _ _ _ _ _ _ (V0 m d) (show (main_arg0 : Ref sig .tc) ≠ main_v0 by decide)
theorem R0_v0 (d : Dev nD) : (opR0 (F := F)).result (V0 m d) v0' = idsFlat m d :=
  (StableHlo.reshape_result main_arg0 main_v0 rfl shapeCasts_S16384x50_S819200 _ _ (V0 m d)).trans rfl
theorem R1_a1 (d : Dev nD) : (opR1 (F := F)).result (V0 m d) a1' = m (a1Loc d) :=
  StableHlo.reshape_result_ne _ _ _ _ _ _ (V0 m d) (show (main_arg1 : Ref sig .tc) ≠ main_v1 by decide)
theorem R1_v1 (d : Dev nD) : (opR1 (F := F)).result (V0 m d) v1' = tbl m d :=
  (StableHlo.reshape_result main_arg1 main_v1 rfl shapeCasts_S1000000x64_S500000x128 _ _ (V0 m d)).trans rfl

theorem hR0 : (opR0 (F := F)).bufs ⊆ ({a0', v0'} : Finset (DevRef τ sig)) := by
  rw [StableHlo.reshape_bufs]
theorem hR1 : (opR1 (F := F)).bufs ⊆ ({a1', v1'} : Finset (DevRef τ sig)) := by
  rw [StableHlo.reshape_bufs]
theorem hT : (opT (F := F)).bufs ⊆ ({v2', v3'} : Finset (DevRef τ sig)) := by
  rw [StableHlo.unary_bufs]

/-- What the call takes for the two SparseCores, and what it hands back. -/
theorem st0_eq (d : Dev nD) : (bigSep Finset.univ fun c : Fin ((K (F := F)).nCore 0) => (P m).st 0 d c) = bigSep Finset.univ fun c : Fin 2 => stRes m d c.val := rfl
theorem dn0_eq (d : Dev nD) : (bigSep Finset.univ fun c : Fin ((K (F := F)).nCore 0) => (P m).dn 0 d c) = bigSep Finset.univ fun c : Fin 2 => dnRes m d c.val := rfl

/-- What @main leaves the claim: the two arguments at their launch contents. -/
abbrev FIN (d : Dev nD) : sProp 𝕄 := iprop((a0Loc d ↦{fullShare} m (a0Loc d)) ∗ a1Loc d ↦{fullShare} m (a1Loc d))

theorem st0_split (d : Dev nD) : (bigSep Finset.univ fun c : Fin ((K (F := F)).nCore 0) => (P m).st 0 d c)
    = iprop((bigSep Finset.univ fun c : Fin 2 => idsPts m d (qC c.val)) ∗ (bigSep Finset.univ fun c : Fin 2 => tblPts m d (qC c.val))
        ∗ bigSep Finset.univ fun c : Fin 2 => outPts d (coreSet c.val) (m (outLoc d))) := by
  rw [st0_eq]; unfold stRes; rw [bigSep_sep', bigSep_sep']
theorem dn0_split (d : Dev nD) : (bigSep Finset.univ fun c : Fin ((K (F := F)).nCore 0) => (P m).dn 0 d c)
    = iprop((bigSep Finset.univ fun c : Fin 2 => idsPts m d (qC c.val)) ∗ (bigSep Finset.univ fun c : Fin 2 => tblPts m d (qC c.val))
        ∗ bigSep Finset.univ fun c : Fin 2 => iprop(∃ f, outPts (F := F) d (coreSet c.val) f)) := by
  rw [dn0_eq]; unfold dnRes; rw [bigSep_sep', bigSep_sep']

/-- The arrays each host operation holds, before and after it. -/
theorem held_in0 (d : Dev nD) : (held (T d) {a0', v0'} (V0 m d) : sProp 𝕄) = iprop((a0Loc d ↦{fullShare} m (a0Loc d)) ∗ idsLoc d ↦{fullShare} m (idsLoc d)) :=
  held_pair d main_arg0 main_v0 (by decide) _
theorem held_out0 (d : Dev nD) : (held (T d) {a0', v0'} ((opR0 (F := F)).result (V0 m d)) : sProp 𝕄) = iprop((a0Loc d ↦{fullShare} m (a0Loc d)) ∗ idsLoc d ↦{fullShare} idsFlat m d) := by
  rw [held_pair d main_arg0 main_v0 (by decide), R0_a0, R0_v0]
theorem held_in1 (d : Dev nD) : (held (T d) {a1', v1'} (V0 m d) : sProp 𝕄) = iprop((a1Loc d ↦{fullShare} m (a1Loc d)) ∗ tblLoc d ↦{fullShare} m (tblLoc d)) :=
  held_pair d main_arg1 main_v1 (by decide) _
theorem held_out1 (d : Dev nD) : (held (T d) {a1', v1'} ((opR1 (F := F)).result (V0 m d)) : sProp 𝕄) = iprop((a1Loc d ↦{fullShare} m (a1Loc d)) ∗ tblLoc d ↦{fullShare} tbl m d) := by
  rw [held_pair d main_arg1 main_v1 (by decide), R1_a1, R1_v1]
theorem held_inT (d : Dev nD) (f : Buf (Elt F) (outLoc d)) : (held (T d) {v2', v3'} (V3 m d f) : sProp 𝕄) = iprop((outLoc d ↦{fullShare} f) ∗ resLoc d ↦{fullShare} m (resLoc d)) := by
  rw [held_pair d main_v2 main_v3 (by decide)]
  unfold V3
  rw [Function.update_self, Function.update_of_ne (show v3' ≠ v2' by decide)]
  rfl

/-- @main on device `d`'s TensorCore: the two reshapes, the call, the transpose; the two arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3⟩, -, -⟩, -⟩
  -- the row numbers flattened
  iapply (wp_hlo_within 𝒱 (SparseCore.T d) none Set.univ (op := opR0) (S := {a0', v0'}) hR0 (V := V0 m d)) $$ [Hb Ha0 Hv0]
  · isplitl [Hb]; · iexact Hb
    rw [held_in0]
    isplitl [Ha0]; · iexact Ha0
    iexact Hv0
  iintro ⟨Hb, Hheld⟩
  ihave Hh := (Entails.of_eq (held_out0 m d)) $$ Hheld
  icases Hh with ⟨Ha0, Hv0⟩
  rw [wp_ret]; imodintro
  -- the table's rows paired
  iapply (wp_hlo_within 𝒱 (SparseCore.T d) none Set.univ (op := opR1) (S := {a1', v1'}) hR1 (V := V0 m d)) $$ [Hb Ha1 Hv1]
  · isplitl [Hb]; · iexact Hb
    rw [held_in1]
    isplitl [Ha1]; · iexact Ha1
    iexact Hv1
  iintro ⟨Hb, Hheld⟩
  ihave Hh := (Entails.of_eq (held_out1 m d)) $$ Hheld
  icases Hh with ⟨Ha1, Hv1⟩
  rw [wp_ret]; imodintro
  -- the call: a read share of each reshaped array and its half of the output to each SparseCore
  ihave Hv0' := (pointsTo_toks_split fullShare 2) $$ Hv0
  icases Hv0' with ⟨-, Hv0T⟩
  ihave Hv1' := (pointsTo_toks_split fullShare 2) $$ Hv1
  icases Hv1' with ⟨-, Hv1T⟩
  ihave Hv2' := (Entails.of_eq (out_cores d (m (outLoc d)))) $$ Hv2
  iapply ((K (F := F)).wp_run (D (F := F)) 𝒱 (EH := EH) (P := P m) κ d 0) $$ [Hst Hv0T Hv1T Hv2' Hb Ha0 Ha1 Hv3]
  isplitr; · iexact Hctx
  isplitl [Hst]; · iexact Hst
  isplitl [Hv0T Hv1T Hv2']
  · rw [st0_split]
    isplitl [Hv0T]; · iexact Hv0T
    isplitl [Hv1T]; · iexact Hv1T
    iexact Hv2'
  iintro ⟨Hst, Hdn⟩
  ihave Hdn' := (Entails.of_eq (dn0_split m d)) $$ Hdn
  icases Hdn' with ⟨-, -, Ho⟩
  ihave Ho' := (out_cores_join d) $$ Ho
  icases Ho' with ⟨%f, Hv2⟩
  -- the transpose of whatever the kernel wrote
  iapply (wp_hlo_within 𝒱 (SparseCore.T d) none Set.univ (op := opT) (S := {v2', v3'}) hT (V := V3 m d f)) $$ [Hb Hv2 Hv3]
  · isplitl [Hb]; · iexact Hb
    rw [held_inT]
    isplitl [Hv2]; · iexact Hv2
    iexact Hv3
  iintro ⟨Hb, -⟩
  rw [wp_ret]; imodintro; imodintro
  isplitl [Hst]; · iexact Hst
  isplitl [Ha0]; · iexact Ha0
  iexact Ha1

def fq (d : Dev nD) (s' : Phys nD τ sig (Elt F)) : Prop := s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := a0Loc d) (I := Finset.univ) (q := fullShare) (f := m (a0Loc d)))) $$ [HSI Hi]
  · isplitl [HSI] <;> iassumption
  icases H with ⟨%h1, HSI, -⟩
  ihave H := (SI_pointsTo_agree (st := s') (ℓ := a1Loc d) (I := Finset.univ) (q := fullShare) (f := m (a1Loc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (a0Loc c) = m (a0Loc c) ∧ r.2.mem (a1Loc c) = m (a1Loc c)

/-- From one tile's task: every weakly fair execution of the device's threads terminates, the two arguments unchanged. -/
theorem run_main' [∀ e, Nonempty (Elt F e)] (hb : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The same with the post spelt over the TensorCore's locations. -/
theorem run_main [∀ e, Nonempty (Elt F e)] (hb : TileBody m) :
    θ_run (Cert.Kernel.defs (F := F)) (Cert.Kernel.threads (F := F)) ⟨m, fun _ => 0, ρ⟩
      (fun r => ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  (θ_run Cert.Kernel.defs _ _).mono (fun _ h c => h c) (run_main' m ρ hb)

end Cert.Proof.KB

end
-- ==== Proof.KBPts.lean ====
/-
  The arrays as a tile's memrefs address them are the device's arrays: a whole-array memref of an HBM buffer names,
  from any thread of the device, the location the TensorCore names. These equations move a piece held at the
  TensorCore's location under the spelling a tile's accesses use, and back.
-/
import proofs.«206508_g82686710383178_cont_9to1c4b_561_19_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem pts_ids (d : Dev nD) (c : Fin τ.nSC) (i : Fin τ.nSub) (q : PosShare TreeShare) (f : Buf (Elt F) (idsLoc d)) :
    ((idsW).view.loc (V d c i) ↦{q} f : sProp 𝕄) = idsLoc d ↦{q} f := rfl
theorem pts_tbl (d : Dev nD) (c : Fin τ.nSC) (i : Fin τ.nSub) (q : PosShare TreeShare) (f : Buf (Elt F) (tblLoc d)) :
    ((tblW).view.loc (V d c i) ↦{q} f : sProp 𝕄) = tblLoc d ↦{q} f := rfl
theorem pts_out (d : Dev nD) (c : Fin τ.nSC) (i : Fin τ.nSub) (A : Finset S50x64x16384.Idx) (f : Buf (Elt F) (outLoc d)) :
    ((outW).view.loc (V d c i) ↦[A]{fullShare} f : sProp 𝕄) = outLoc d ↦[A]{fullShare} f := rfl

end Cert.Proof.KB

end
-- ==== Proof.KBOwn.lean ====
/-
  A tile's own storage, piece by piece.

  What a vector subcore is handed at the entry of its task is all of its scoped storage: every buffer of its own at
  some contents, every scoped semaphore of its own at zero. The kernel names nine of those buffers (its scratch
  operands) and five of those semaphores (its four DMA semaphores and the one it allocates): they are carved out one
  by one, the rest kept as it was, and put back the same way at the exit.
-/
import proofs.«206508_g82686710383178_cont_9to1c4b_561_19_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile's buffers other than the nine scratch operands. -/
abbrev restRefs (c : Fin τ.nSC) (i : Fin τ.nSub) : Finset (DevRef τ sig) :=
  ((((((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5)).erase ((Proc.scVector c i).devRef cc0_scratch6)).erase ((Proc.scVector c i).devRef cc0_scratch7)).erase ((Proc.scVector c i).devRef cc0_scratch8))

/-- The tile's scoped semaphores other than the five the kernel names. -/
abbrev restCells (d : Dev nD) (c : Fin τ.nSC) (i : Fin τ.nSub) : Finset (GSem nD τ sig) :=
  ((((((ownCells (V d c i)).erase ((V d c i, SemLoc.dma cc0_scratch9.sem) : GSem nD τ sig)).erase ((V d c i, SemLoc.dma cc0_scratch10.sem) : GSem nD τ sig)).erase ((V d c i, SemLoc.dma cc0_scratch11.sem) : GSem nD τ sig)).erase ((V d c i, SemLoc.dma cc0_scratch12.sem) : GSem nD τ sig)).erase ((V d c i, SemLoc.dma cc0_scoped0.sem) : GSem nD τ sig))

/-- The nine scratch buffers are among the subcore's own: they are them, each at some contents, and the rest. -/
theorem ownBufs_V9 (d : Dev nD) (c : Fin τ.nSC) (i : Fin τ.nSub) :
    (ownBufs (V d c i) : sProp 𝕄)
      = iprop((∃ f, (V d c i).loc cc0_scratch0 ↦{fullShare} f)
          ∗ (∃ f, (V d c i).loc cc0_scratch1 ↦{fullShare} f)
          ∗ (∃ f, (V d c i).loc cc0_scratch2 ↦{fullShare} f)
          ∗ (∃ f, (V d c i).loc cc0_scratch3 ↦{fullShare} f)
          ∗ (∃ f, (V d c i).loc cc0_scratch4 ↦{fullShare} f)
          ∗ (∃ f, (V d c i).loc cc0_scratch5 ↦{fullShare} f)
          ∗ (∃ f, (V d c i).loc cc0_scratch6 ↦{fullShare} f)
          ∗ (∃ f, (V d c i).loc cc0_scratch7 ↦{fullShare} f)
          ∗ (∃ f, (V d c i).loc cc0_scratch8 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := (Proc.scVector c i).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := (Proc.scVector c i).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := (Proc.scVector c i).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := (Proc.scVector c i).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector c i) (b := (Proc.scVector c i).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector c i) (b := (Proc.scVector c i).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector c i) (b := (Proc.scVector c i).devRef cc0_scratch8) rfl⟩⟩⟩⟩⟩⟩⟩⟩)]

/-- The five DMA semaphores are among the subcore's scoped ones: they are them, at zero, and the rest at zero. -/
theorem ownSems0_V5 (d : Dev nD) (c : Fin τ.nSC) (i : Fin τ.nSub) :
    (ownSems0 (V d c i) : sProp 𝕄)
      = iprop(semVal ((V d c i, SemLoc.dma cc0_scratch9.sem) : GSem nD τ sig) 0
          ∗ semVal ((V d c i, SemLoc.dma cc0_scratch10.sem) : GSem nD τ sig) 0
          ∗ semVal ((V d c i, SemLoc.dma cc0_scratch11.sem) : GSem nD τ sig) 0
          ∗ semVal ((V d c i, SemLoc.dma cc0_scratch12.sem) : GSem nD τ sig) 0
          ∗ semVal ((V d c i, SemLoc.dma cc0_scoped0.sem) : GSem nD τ sig) 0
          ∗ bigSep (restCells d c i) fun g => semVal g 0) := by
  unfold SparseCore.Cfg.ownSems0
  rw [SparseCore.bigSep_erase' ((mem_ownCells (g := ((V d c i, SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (congrArg Prod.snd e) (show (SemLoc.dma cc0_scratch10.sem : SemLoc sig) ≠ SemLoc.dma cc0_scratch9.sem by decide), (mem_ownCells (g := ((V d c i, SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), (mem_ownCells (g := ((V d c i, SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (congrArg Prod.snd e) (show (SemLoc.dma cc0_scratch12.sem : SemLoc sig) ≠ SemLoc.dma cc0_scratch11.sem by decide), Finset.mem_erase.mpr ⟨fun e => absurd (congrArg Prod.snd e) (show (SemLoc.dma cc0_scratch12.sem : SemLoc sig) ≠ SemLoc.dma cc0_scratch10.sem by decide), Finset.mem_erase.mpr ⟨fun e => absurd (congrArg Prod.snd e) (show (SemLoc.dma cc0_scratch12.sem : SemLoc sig) ≠ SemLoc.dma cc0_scratch9.sem by decide), (mem_ownCells (g := ((V d c i, SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch12.sem by decide), Finset.mem_erase.mpr ⟨fun e => absurd (congrArg Prod.snd e) (show (SemLoc.dma cc0_scoped0.sem : SemLoc sig) ≠ SemLoc.dma cc0_scratch11.sem by decide), Finset.mem_erase.mpr ⟨fun e => absurd (congrArg Prod.snd e) (show (SemLoc.dma cc0_scoped0.sem : SemLoc sig) ≠ SemLoc.dma cc0_scratch10.sem by decide), Finset.mem_erase.mpr ⟨fun e => absurd (congrArg Prod.snd e) (show (SemLoc.dma cc0_scoped0.sem : SemLoc sig) ≠ SemLoc.dma cc0_scratch9.sem by decide), (mem_ownCells (g := ((V d c i, SemLoc.dma cc0_scoped0.sem) : GSem nD τ sig))).mpr ⟨rfl, by show (SemLoc.dma cc0_scoped0.sem : SemLoc sig).isScoped .scVector = true; decide⟩⟩⟩⟩⟩)]

end Cert.Proof.KB

end
-- ==== Proof.KBFacts.lean ====
/-
  Facts about what the lookup's scratch buffers hold, each stated once for any tile.

  The staged row numbers are a slice of the row-number array, so each is a row number of the million-row table
  (below 1000000). Halving such a word (a right shift by one) names a row of the table re-laid as 500000 rows of 128
  entries, and its parity times 64 — the column where the named row starts inside that wider row — is 0 or 64.
  A buffer written piece by piece by rectangles that tile it holds, at every index, a word of one of the pieces:
  a property of every piece's words is a property of every word read back.
-/
import proofs.«206508_g82686710383178_cont_9to1c4b_561_19_alg».proof.Proof.KBSetup
import Idealize.ShloMosaic.Lib.SparseCore.Ops
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Reading back a buffer written by covering pieces -/

section Reads

variable {sig' : RefSig} {κ : Kind} {sp : Space} {s : Shape} {e : EltTy} {Val : EltTy → Type}
variable (v : View sig' κ sp s e) (f : v.ty.Contents Val)

/-- If every word of every piece has the property `Q` and the pieces cover the index `y`, the word read back at
    `y` has it, whatever the buffer held before. -/
theorem read_writes_forall (Q : Val e → Prop) :
    ∀ L : List (View.Piece Val s e), (∀ p ∈ L, ∀ x : p.1.shape.Idx, Q (p.2 x)) →
      ∀ y : s.Idx, (∃ p ∈ L, y ∈ p.1.set) → Q (v.read Val (v.writes Val f L) y)
  | [], _, _, h => by obtain ⟨_, hm, _⟩ := h; exact absurd hm List.not_mem_nil
  | p :: L, hQ, y, h => by
    by_cases hy : y ∈ p.1.set
    · obtain ⟨x, rfl⟩ : ∃ x, p.1.emb x = y := p.1.exists_idx_of_mem hy
      obtain ⟨r, w⟩ := p
      rw [View.read_writes_cons_emb]
      exact hQ ⟨r, w⟩ List.mem_cons_self x
    · have hy' : y ∉ Finset.univ.map p.1.emb := by rwa [Rect.map_emb_univ]
      rw [View.writes_cons, View.read_slice_write_of_not_mem p.1 _ _ _ hy']
      refine read_writes_forall Q L (fun p' hp' => hQ p' (List.mem_cons_of_mem _ hp')) y ?_
      obtain ⟨p', hm, hy''⟩ := h
      rcases List.mem_cons.mp hm with rfl | hm
      · exact absurd hy'' hy
      · exact ⟨p', hm, hy''⟩

end Reads

/-! ## Words -/

/-- Half of a row number of the million-row table is a row number of the table of 500000 double rows. -/
theorem half_lt (u : ArithUnit) (w : BitVec 32) (h : w.toNat < 1000000) : (IntOp.shrui u w 1#32).toNat < 500000 := by
  unfold IntOp.shrui
  rw [if_pos (by decide)]
  have e : (w >>> (1#32 : BitVec 32)).toNat = w.toNat / 2 := by
    rw [BitVec.ushiftRight_eq', BitVec.toNat_ushiftRight]
    simp [Nat.shiftRight_eq_div_pow]
  rw [e]; omega

/-- The parity of a word, times 64, is 0 or 64. -/
theorem par_cases (w : BitVec 32) : (IntOp.muli (IntOp.andi w 1#32) 64#32).toNat = 0 ∨ (IntOp.muli (IntOp.andi w 1#32) 64#32).toNat = 64 := by
  unfold IntOp.muli IntOp.andi
  have h : (w &&& 1#32) = 0#32 ∨ (w &&& 1#32) = 1#32 := by
    have : (w &&& 1#32).toNat < 2 := by
      rw [BitVec.toNat_and]; exact lt_of_le_of_lt Nat.and_le_right (by decide)
    rcases Nat.lt_succ_iff_lt_or_eq.mp this with h0 | h1
    · left; apply BitVec.eq_of_toNat_eq; simp only [BitVec.toNat_ofNat, Nat.reducePow, Nat.zero_mod]; omega
    · right; apply BitVec.eq_of_toNat_eq; simp only [BitVec.toNat_ofNat, Nat.reducePow, Nat.reduceMod]; omega
  rcases h with h | h <;> rw [h] <;> decide

/-! ## What the scratch buffers hold -/

section Buffers

variable [FloatOps F] (d : Dev nD) (c : Fin τ.nSC) (i : Fin τ.nSub)

/-- Every staged word is a row number of the million-row table. -/
def StageOK (S0 : Buf (Elt F) ((b0).view.loc (V d c i))) : Prop := ∀ j, (S0 j).toNat < 1000000

/-- Every word of a slot's row list names a row of the re-laid table: what the row gather asks of its list. -/
def QOK (bq : Memref sig .scVector .vmem S128 .i32) (Q : Buf (Elt F) ((bq).view.loc (V d c i))) : Prop :=
  ∀ j, ((bq).view.read (Elt F) Q j).toNat < S500000x128.size 0

/-- Every word of a slot's parity scratch is 0 or 64: the column where the named row starts inside its double row. -/
def ParOK (bp : Memref sig .scVector .vmem S8x16 .i32) (P : Buf (Elt F) ((bp).view.loc (V d c i))) : Prop :=
  ∀ j, ((bp).view.read (Elt F) P j).toNat = 0 ∨ ((bp).view.read (Elt F) P j).toNat = 64

/-- The staging copy lands a slice of the row-number array: row numbers, if the array holds row numbers. -/
theorem stage_intro (L : grid0.Coords) (f0 : Buf (Elt F) ((b0).view.loc (V d c i))) (fI : Buf (Elt F) ((idsW).view.loc (V d c i)))
    (hI : ∀ j, (fI j).toNat < 1000000) :
    ((b0).view.loc (V d c i) ↦{fullShare} View.write (Elt F) (b0).view f0
        (ReadAs.same.apply (View.read (Elt F) ((idsW).slice (Rect.unit (s := S819200) (k0_off1 L) S25600.size (k0_off1_inb L)) (fun _ => rfl)).view fI)) Finset.univ : sProp 𝕄)
      ⊢ iprop(∃ S0, ⌜StageOK d c i S0⌝ ∗ (b0).view.loc (V d c i) ↦{fullShare} S0) := by
  iintro H
  iexists (View.write (Elt F) (b0).view f0
        (ReadAs.same.apply (View.read (Elt F) ((idsW).slice (Rect.unit (s := S819200) (k0_off1 L) S25600.size (k0_off1_inb L)) (fun _ => rfl)).view fI)) Finset.univ)
  isplitr
  · ipureintro
    intro j
    show ((View.whole cc0_scratch0).write (Elt F) f0
      (View.read (Elt F) ((idsW).slice (Rect.unit (s := S819200) (k0_off1 L) S25600.size (k0_off1_inb L)) (fun _ => rfl)).view fI) Finset.univ j).toNat < 1000000
    rw [View.write_whole_univ, View.read_apply]
    exact hI _
  · iexact H

/-- A staged word, halved, names a row of the re-laid table. -/
theorem q_word (S0 : Buf (Elt F) ((b0).view.loc (V d c i))) (hS0 : StageOK d c i S0) (pos : IVec S16 32)
    (h : ∀ a x, ((![pos] : Fin 1 → IVec S16 32) a x).toNat < S25600.size a) (x : S16.Idx) :
    (shrui (loadIdx (View.readAt (Elt F) (b0).view (LoadRect.whole S25600) S0) ![pos] h) (broadcast S16 1#32) x).toNat < S500000x128.size 0 := by
  show (IntOp.shrui .vector (S0 _) 1#32).toNat < 500000
  exact half_lt .vector _ (hS0 _)

/-- A staged word's parity times 64 is 0 or 64. -/
theorem p_word (S0 : Buf (Elt F) ((b0).view.loc (V d c i))) (pos : IVec S16 32)
    (h : ∀ a x, ((![pos] : Fin 1 → IVec S16 32) a x).toNat < S25600.size a) (x : S16.Idx) :
    (muli (andi (loadIdx (View.readAt (Elt F) (b0).view (LoadRect.whole S25600) S0) ![pos] h) (broadcast S16 1#32)) (broadcast S16 64#32) x).toNat = 0
      ∨ (muli (andi (loadIdx (View.readAt (Elt F) (b0).view (LoadRect.whole S25600) S0) ![pos] h) (broadcast S16 1#32)) (broadcast S16 64#32) x).toNat = 64 :=
  par_cases _

/-- A slot's row list, written sixteen words at a time with halved staged words, names rows of the re-laid table. -/
theorem q_intro (bq : Memref sig .scVector .vmem S128 .i32) (S0 : Buf (Elt F) ((b0).view.loc (V d c i))) (hS0 : StageOK d c i S0)
    (g : Buf (Elt F) ((bq).view.loc (V d c i))) (pos0 pos1 pos2 pos3 pos4 pos5 pos6 pos7 : IVec S16 32)
    (h0 : ∀ a x, ((![pos0] : Fin 1 → IVec S16 32) a x).toNat < S25600.size a)
    (h1 : ∀ a x, ((![pos1] : Fin 1 → IVec S16 32) a x).toNat < S25600.size a)
    (h2 : ∀ a x, ((![pos2] : Fin 1 → IVec S16 32) a x).toNat < S25600.size a)
    (h3 : ∀ a x, ((![pos3] : Fin 1 → IVec S16 32) a x).toNat < S25600.size a)
    (h4 : ∀ a x, ((![pos4] : Fin 1 → IVec S16 32) a x).toNat < S25600.size a)
    (h5 : ∀ a x, ((![pos5] : Fin 1 → IVec S16 32) a x).toNat < S25600.size a)
    (h6 : ∀ a x, ((![pos6] : Fin 1 → IVec S16 32) a x).toNat < S25600.size a)
    (h7 : ∀ a x, ((![pos7] : Fin 1 → IVec S16 32) a x).toNat < S25600.size a) :
    ((bq).view.loc (V d c i) ↦{fullShare} (bq).view.writes (Elt F) g
      [⟨Rect.unit (s := S128) ![112] S16.size inb_S128_S16_112, shrui (loadIdx (View.readAt (Elt F) (b0).view (LoadRect.whole S25600) S0) ![pos7] h7) (broadcast S16 1#32)⟩,
        ⟨Rect.unit (s := S128) ![96] S16.size inb_S128_S16_96, shrui (loadIdx (View.readAt (Elt F) (b0).view (LoadRect.whole S25600) S0) ![pos6] h6) (broadcast S16 1#32)⟩,
        ⟨Rect.unit (s := S128) ![80] S16.size inb_S128_S16_80, shrui (loadIdx (View.readAt (Elt F) (b0).view (LoadRect.whole S25600) S0) ![pos5] h5) (broadcast S16 1#32)⟩,
        ⟨Rect.unit (s := S128) ![64] S16.size inb_S128_S16_64, shrui (loadIdx (View.readAt (Elt F) (b0).view (LoadRect.whole S25600) S0) ![pos4] h4) (broadcast S16 1#32)⟩,
        ⟨Rect.unit (s := S128) ![48] S16.size inb_S128_S16_48, shrui (loadIdx (View.readAt (Elt F) (b0).view (LoadRect.whole S25600) S0) ![pos3] h3) (broadcast S16 1#32)⟩,
        ⟨Rect.unit (s := S128) ![32] S16.size inb_S128_S16_32, shrui (loadIdx (View.readAt (Elt F) (b0).view (LoadRect.whole S25600) S0) ![pos2] h2) (broadcast S16 1#32)⟩,
        ⟨Rect.unit (s := S128) ![16] S16.size inb_S128_S16_16, shrui (loadIdx (View.readAt (Elt F) (b0).view (LoadRect.whole S25600) S0) ![pos1] h1) (broadcast S16 1#32)⟩,
        ⟨Rect.unit (s := S128) ![0] S16.size inb_S128_S16_0, shrui (loadIdx (View.readAt (Elt F) (b0).view (LoadRect.whole S25600) S0) ![pos0] h0) (broadcast S16 1#32)⟩] : sProp 𝕄)
      ⊢ iprop(∃ Q, ⌜QOK d c i bq Q⌝ ∗ (bq).view.loc (V d c i) ↦{fullShare} Q) := by
  iintro H
  iexists _
  isplitr
  rotate_left
  · iexact H
  · ipureintro
    intro j
    refine read_writes_forall (bq).view g (fun w : Elt F .i32 => w.toNat < S500000x128.size 0) _ ?hQ j ?hc
    case hc => exact View.cover_of_tiled _ ![16] (by rfl) j
    intro p hp x
    simp only [List.mem_cons, List.mem_nil_iff, _root_.or_false] at hp
    rcases hp with rfl | rfl | rfl | rfl | rfl | rfl | rfl | rfl <;> exact q_word d c i S0 hS0 _ _ x

/-- A slot's parity scratch, written a row at a time with the staged words' parities times 64, holds 0s and 64s. -/
theorem par_intro (bp : Memref sig .scVector .vmem S8x16 .i32) (S0 : Buf (Elt F) ((b0).view.loc (V d c i)))
    (g : Buf (Elt F) ((bp).view.loc (V d c i))) (pos0 pos1 pos2 pos3 pos4 pos5 pos6 pos7 : IVec S16 32)
    (h0 : ∀ a x, ((![pos0] : Fin 1 → IVec S16 32) a x).toNat < S25600.size a)
    (h1 : ∀ a x, ((![pos1] : Fin 1 → IVec S16 32) a x).toNat < S25600.size a)
    (h2 : ∀ a x, ((![pos2] : Fin 1 → IVec S16 32) a x).toNat < S25600.size a)
    (h3 : ∀ a x, ((![pos3] : Fin 1 → IVec S16 32) a x).toNat < S25600.size a)
    (h4 : ∀ a x, ((![pos4] : Fin 1 → IVec S16 32) a x).toNat < S25600.size a)
    (h5 : ∀ a x, ((![pos5] : Fin 1 → IVec S16 32) a x).toNat < S25600.size a)
    (h6 : ∀ a x, ((![pos6] : Fin 1 → IVec S16 32) a x).toNat < S25600.size a)
    (h7 : ∀ a x, ((![pos7] : Fin 1 → IVec S16 32) a x).toNat < S25600.size a) :
    ((bp).view.loc (V d c i) ↦{fullShare} (bp).view.writes (Elt F) g
      [⟨Rect.unit (s := S8x16) ![7, 0] S1x16.size inb_S8x16_S1x16_7_0, shapeCast S1x16 (muli (andi (loadIdx (View.readAt (Elt F) (b0).view (LoadRect.whole S25600) S0) ![pos7] h7) (broadcast S16 1#32)) (broadcast S16 64#32)) shapeCasts_S16_S1x16⟩,
        ⟨Rect.unit (s := S8x16) ![6, 0] S1x16.size inb_S8x16_S1x16_6_0, shapeCast S1x16 (muli (andi (loadIdx (View.readAt (Elt F) (b0).view (LoadRect.whole S25600) S0) ![pos6] h6) (broadcast S16 1#32)) (broadcast S16 64#32)) shapeCasts_S16_S1x16⟩,
        ⟨Rect.unit (s := S8x16) ![5, 0] S1x16.size inb_S8x16_S1x16_5_0, shapeCast S1x16 (muli (andi (loadIdx (View.readAt (Elt F) (b0).view (LoadRect.whole S25600) S0) ![pos5] h5) (broadcast S16 1#32)) (broadcast S16 64#32)) shapeCasts_S16_S1x16⟩,
        ⟨Rect.unit (s := S8x16) ![4, 0] S1x16.size inb_S8x16_S1x16_4_0, shapeCast S1x16 (muli (andi (loadIdx (View.readAt (Elt F) (b0).view (LoadRect.whole S25600) S0) ![pos4] h4) (broadcast S16 1#32)) (broadcast S16 64#32)) shapeCasts_S16_S1x16⟩,
        ⟨Rect.unit (s := S8x16) ![3, 0] S1x16.size inb_S8x16_S1x16_3_0, shapeCast S1x16 (muli (andi (loadIdx (View.readAt (Elt F) (b0).view (LoadRect.whole S25600) S0) ![pos3] h3) (broadcast S16 1#32)) (broadcast S16 64#32)) shapeCasts_S16_S1x16⟩,
        ⟨Rect.unit (s := S8x16) ![2, 0] S1x16.size inb_S8x16_S1x16_2_0, shapeCast S1x16 (muli (andi (loadIdx (View.readAt (Elt F) (b0).view (LoadRect.whole S25600) S0) ![pos2] h2) (broadcast S16 1#32)) (broadcast S16 64#32)) shapeCasts_S16_S1x16⟩,
        ⟨Rect.unit (s := S8x16) ![1, 0] S1x16.size inb_S8x16_S1x16_1_0, shapeCast S1x16 (muli (andi (loadIdx (View.readAt (Elt F) (b0).view (LoadRect.whole S25600) S0) ![pos1] h1) (broadcast S16 1#32)) (broadcast S16 64#32)) shapeCasts_S16_S1x16⟩,
        ⟨Rect.unit (s := S8x16) ![0, 0] S1x16.size inb_S8x16_S1x16_0_0, shapeCast S1x16 (muli (andi (loadIdx (View.readAt (Elt F) (b0).view (LoadRect.whole S25600) S0) ![pos0] h0) (broadcast S16 1#32)) (broadcast S16 64#32)) shapeCasts_S16_S1x16⟩] : sProp 𝕄)
      ⊢ iprop(∃ P, ⌜ParOK d c i bp P⌝ ∗ (bp).view.loc (V d c i) ↦{fullShare} P) := by
  iintro H
  iexists _
  isplitr
  rotate_left
  · iexact H
  · ipureintro
    intro j
    refine read_writes_forall (bp).view g (fun w : Elt F .i32 => w.toNat = 0 ∨ w.toNat = 64) _ ?hQ j ?hc
    case hc => exact View.cover_of_tiled _ ![1, 16] (by rfl) j
    intro p hp x
    simp only [List.mem_cons, List.mem_nil_iff, _root_.or_false] at hp
    rcases hp with rfl | rfl | rfl | rfl | rfl | rfl | rfl | rfl <;> exact p_word d c i S0 _ _ _

end Buffers

/-! ## The write-out's target as a set -/

/-- The elements of the [50, 64, 16384] result that one write-out fills: one history position, all 64 entries, 128
    consecutive batch entries — spelt as the copy's target memref spells it. -/
abbrev sliceSet (off : Fin 3 → ℕ) (h : ∀ a, off a + S1x64x128.size a ≤ S50x64x16384.size a) : Finset S50x64x16384.Idx :=
  (((outW).slice (Rect.unit (s := S50x64x16384) off S1x64x128.size h) (fun _ => rfl)).squeeze S64x128 squeezes_S1x64x128_S64x128).view.set

/-- The whole re-laid table as the row gathers address it. -/
abbrev sliceT : Memref sig .scVector .hbm S500000x128 .f32 :=
  (tblW).slice (Rect.unit (s := S500000x128) ![0, 0] S500000x128.size inb_S500000x128_S500000x128_0_0) (fun _ => rfl)

end Cert.Proof.KB

end
-- ==== Proof.KBSets.lean ====
/-
  The write-out slices as sets of entries of the output.

  Each write-out copies a [64, 128] block of a destination scratch into the output array at one history position h and
  128 consecutive columns. The four slices' offsets, as the kernel computes them from the place (c, s) and, inside the
  loop, from the trip number k:
      before the loop      h = 0,              columns from 1024 s + 512 c
      in trip k, slot 1    h = (2k + 1) mod 50, columns from 1024 s + 512 c + 128 ((2k + 1) / 50)
      in trip k, slot 0    h = (2k + 2) mod 50, columns from 1024 s + 512 c + 128 ((2k + 2) / 50)
      after the loop       h = 49,             columns from 1024 s + 512 c + 384
  with k below 99, so the quotient is at most 3: all the columns lie in the block of 512 columns number 2 s + c, the
  tile's own. The slices of slot 0 have an even h (2k + 2 is even and so is 50), the last one has h = 49: they do
  not meet.
-/
import proofs.«206508_g82686710383178_cont_9to1c4b_561_19_alg».proof.Proof.KBFacts
import Idealize.ShloMosaic.Lib.Decide

noncomputable section

namespace Cert.Proof.KB

open Cert.Kernel Cert.Kernel.Gen

open Idealize.ShloMosaic

/-- The entries of the output a write-out addresses are those of its unit rectangle. -/
theorem sliceSet_eq (off : Fin 3 → ℕ) (h : ∀ a, off a + S1x64x128.size a ≤ S50x64x16384.size a) :
    sliceSet off h = (Rect.unit (s := S50x64x16384) off S1x64x128.size h).set := by
  show (((View.whole (main_v2_scv : Ref sig .scVector)).slice (Rect.unit (s := S50x64x16384) off S1x64x128.size h)).reshape S64x128
    squeezes_S1x64x128_S64x128.numel_eq).set = _
  rw [View.set_reshape, View.set_slice_whole]

/-- An entry is in a slice when its history position is the slice's and its column is one of the slice's 128. -/
theorem mem_sliceSet {off : Fin 3 → ℕ} {h : ∀ a, off a + S1x64x128.size a ≤ S50x64x16384.size a} {j : S50x64x16384.Idx}
    (hj : j ∈ sliceSet off h) : (j 0).val = off 0 ∧ off 2 ≤ (j 2).val ∧ (j 2).val < off 2 + 128 := by
  rw [sliceSet_eq, Rect.mem_set_unit] at hj
  have h0 := hj 0
  have h2 := hj 2
  have e0 : S1x64x128.size 0 = 1 := rfl
  have e2 : S1x64x128.size 2 = 128 := rfl
  rw [e0] at h0
  rw [e2] at h2
  exact ⟨by omega, h2.1, h2.2⟩

/-! ## The offsets inside the loop, in closed form -/

theorem k0_off6_eq : ∀ (i : grid0.Coords) (k : Fin k0_t2_loop.trips),
    k0_off6 i k = ![(2 * k.val + 1) % 50, 0, 1024 * (i 1).val + 512 * (i 0).val + 128 * ((2 * k.val + 1) / 50)] := by decide +kernel
theorem k0_off9_eq : ∀ (i : grid0.Coords) (k : Fin k0_t2_loop.trips),
    k0_off9 i k = ![(2 * k.val + 2) % 50, 0, 1024 * (i 1).val + 512 * (i 0).val + 128 * ((2 * k.val + 2) / 50)] := by decide +kernel
theorem trips2_le : k0_t2_loop.trips ≤ 99 := k0_t2_abs.2.1

/-! ## Each slice lies in the tile's own columns -/

theorem slice3_sub (L : grid0.Coords) : sliceSet (k0_off3 L) (k0_off3_inb L) ⊆ outSet (L 0).val (L 1).val := by
  intro j hj
  obtain ⟨-, h1, h2⟩ := mem_sliceSet hj
  rw [k0_off3_eq] at h1 h2
  have e : (![0, 0, 1024 * (L 1).val + 512 * (L 0).val] : Fin 3 → ℕ) 2 = 1024 * (L 1).val + 512 * (L 0).val := rfl
  rw [e] at h1 h2
  rw [mem_outSet]
  omega

theorem slice6_sub (L : grid0.Coords) (k : Fin k0_t2_loop.trips) : sliceSet (k0_off6 L k) (k0_off6_inb L k) ⊆ outSet (L 0).val (L 1).val := by
  intro j hj
  obtain ⟨-, h1, h2⟩ := mem_sliceSet hj
  rw [k0_off6_eq] at h1 h2
  have e : (![(2 * k.val + 1) % 50, 0, 1024 * (L 1).val + 512 * (L 0).val + 128 * ((2 * k.val + 1) / 50)] : Fin 3 → ℕ) 2
      = 1024 * (L 1).val + 512 * (L 0).val + 128 * ((2 * k.val + 1) / 50) := rfl
  rw [e] at h1 h2
  have hk := Nat.lt_of_lt_of_le k.isLt trips2_le
  rw [mem_outSet]
  omega

theorem slice9_sub (L : grid0.Coords) (k : Fin k0_t2_loop.trips) : sliceSet (k0_off9 L k) (k0_off9_inb L k) ⊆ outSet (L 0).val (L 1).val := by
  intro j hj
  obtain ⟨-, h1, h2⟩ := mem_sliceSet hj
  rw [k0_off9_eq] at h1 h2
  have e : (![(2 * k.val + 2) % 50, 0, 1024 * (L 1).val + 512 * (L 0).val + 128 * ((2 * k.val + 2) / 50)] : Fin 3 → ℕ) 2
      = 1024 * (L 1).val + 512 * (L 0).val + 128 * ((2 * k.val + 2) / 50) := rfl
  rw [e] at h1 h2
  have hk := Nat.lt_of_lt_of_le k.isLt trips2_le
  rw [mem_outSet]
  omega

theorem slice11_sub (L : grid0.Coords) : sliceSet (k0_off11 L) (k0_off11_inb L) ⊆ outSet (L 0).val (L 1).val := by
  intro j hj
  obtain ⟨-, h1, h2⟩ := mem_sliceSet hj
  rw [k0_off11_eq] at h1 h2
  have e : (![49, 0, 1024 * (L 1).val + 512 * (L 0).val + 384] : Fin 3 → ℕ) 2 = 1024 * (L 1).val + 512 * (L 0).val + 384 := rfl
  rw [e] at h1 h2
  rw [mem_outSet]
  omega

/-! ## The slices of slot 0 do not meet the last one -/

theorem slice3_disj (L : grid0.Coords) : Disjoint (sliceSet (k0_off3 L) (k0_off3_inb L)) (sliceSet (k0_off11 L) (k0_off11_inb L)) := by
  rw [Finset.disjoint_left]
  intro j h3 h11
  have a := (mem_sliceSet h3).1
  have b := (mem_sliceSet h11).1
  rw [k0_off3_eq] at a
  rw [k0_off11_eq] at b
  have ea : (![0, 0, 1024 * (L 1).val + 512 * (L 0).val] : Fin 3 → ℕ) 0 = 0 := rfl
  have eb : (![49, 0, 1024 * (L 1).val + 512 * (L 0).val + 384] : Fin 3 → ℕ) 0 = 49 := rfl
  rw [ea] at a
  rw [eb] at b
  omega

theorem slice9_disj (L : grid0.Coords) (k : Fin k0_t2_loop.trips) :
    Disjoint (sliceSet (k0_off9 L k) (k0_off9_inb L k)) (sliceSet (k0_off11 L) (k0_off11_inb L)) := by
  rw [Finset.disjoint_left]
  intro j h9 h11
  have a := (mem_sliceSet h9).1
  have b := (mem_sliceSet h11).1
  rw [k0_off9_eq] at a
  rw [k0_off11_eq] at b
  have ea : (![(2 * k.val + 2) % 50, 0, 1024 * (L 1).val + 512 * (L 0).val + 128 * ((2 * k.val + 2) / 50)] : Fin 3 → ℕ) 0 = (2 * k.val + 2) % 50 := rfl
  have eb : (![49, 0, 1024 * (L 1).val + 512 * (L 0).val + 384] : Fin 3 → ℕ) 0 = 49 := rfl
  rw [ea] at a
  rw [eb] at b
  omega

end Cert.Proof.KB

end
-- ==== Proof.KBInv.lean ====
/-
  What a transpose trip keeps, and the arithmetic of its index vectors.

  A transpose trip reads one row of the parity scratch, then sixty-four times gathers sixteen entries of the rows
  scratch and scatters them into the destination scratch. It changes only the destination: the parity scratch and
  the rows scratch are the same before and after, the destination holds something.

  Every indexed access is checked to be inside its scratch. The row index of a load is lane + 16 k for trip k below 8,
  so below 128. The column index of a load is parity + 16 fb + rot, where parity is 0 or 64 (the one fact about the
  data), fb is below 4 and rot, a lane number taken modulo 16, is below 16: so below 128. The row index of a store is
  rot + 16 fb, below 64, and its column index is the load's row index, below 128. None of the additions wraps.
-/
import proofs.«206508_g82686710383178_cont_9to1c4b_561_19_alg».proof.Proof.KBSetup
import proofs.«206508_g82686710383178_cont_9to1c4b_561_19_alg».proof.Proof.Gen.Kernel.Skeleton
import Idealize.ShloMosaic.Lib.SparseCore.Ops
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile at place `L` of the grid, on device `d`. -/
abbrev thr (d : Dev nD) (L : grid0.Coords) : Thread nD τ := V d (cV L) (jV L)

/-- What a transpose trip keeps: the parity scratch and the rows scratch at their contents, the destination at some. -/
def invU (d : Dev nD) (L : grid0.Coords) (bA : Memref sig .scVector .vmem S8x16 .i32) (bR : Memref sig .scVector .vmem S128x128 .f32)
    (bD : Memref sig .scVector .vmem S64x128 .f32)
    (P : Buf (Elt F) ((bA).view.loc (thr d L))) (R : Buf (Elt F) ((bR).view.loc (thr d L)))
    (_ : Nat) (_ : PUnit) : sProp 𝕄 :=
  iprop(((bA).view.loc (thr d L) ↦{fullShare} P) ∗ ((bR).view.loc (thr d L) ↦{fullShare} R) ∗ ∃ f, (bD).view.loc (thr d L) ↦{fullShare} f)

/-! ## The checks, from bounds on the two index vectors -/

theorem chkL (r c : IVec S16 32) (hr : ∀ x, (r x).toNat < 128) (hc : ∀ x, (c x).toNat < 128) :
    ∀ a x, ((![r, c] : Fin 2 → IVec S16 32) a x).toNat < S128x128.size a := by
  intro a x
  match a with
  | ⟨0, _⟩ => exact hr x
  | ⟨1, _⟩ => exact hc x

theorem chkS (t r : IVec S16 32) (ht : ∀ x, (t x).toNat < 64) (hr : ∀ x, (r x).toNat < 128) :
    ∀ a x, ((![t, r] : Fin 2 → IVec S16 32) a x).toNat < S64x128.size a := by
  intro a x
  match a with
  | ⟨0, _⟩ => exact ht x
  | ⟨1, _⟩ => exact hr x

/-! ## The index vectors -/

/-- A word masked by 15 is below 16. -/
theorem andi15_lt (a : IVec S16 32) (x : S16.Idx) : (andi a (broadcast S16 15#32) x).toNat < 16 := by
  show (a x &&& 15#32).toNat < 16
  rw [BitVec.toNat_and]
  have h := Nat.and_le_right (n := (a x).toNat) (m := (15#32 : BitVec 32).toNat)
  have e : (15#32 : BitVec 32).toNat = 15 := by decide
  omega

/-- A store's row index: a rotation plus 16 fb. -/
theorem rotOK (v : IVec S16 32) (hv : ∀ x, (v x).toNat < 16) (c : BitVec 32) (hc : c.toNat ≤ 48) :
    ∀ x, (addi v (broadcast S16 c) x).toNat < 64 := by
  intro x
  show (v x + c).toNat < 64
  rw [BitVec.toNat_add]
  have := hv x
  omega

/-- A load's column index: the parity word plus 16 fb plus a rotation. -/
theorem colOK (p : IVec S16 32) (hp : ∀ x, (p x).toNat = 0 ∨ (p x).toNat = 64) (c : BitVec 32) (hc : c.toNat ≤ 48)
    (v : IVec S16 32) (hv : ∀ x, (v x).toNat < 16) : ∀ x, (addi (addi p (broadcast S16 c)) v x).toNat < 128 := by
  intro x
  show (p x + c + v x).toNat < 128
  rw [BitVec.toNat_add, BitVec.toNat_add]
  have := hv x
  rcases hp x with h | h <;> omega

/-- The lane numbers are below 16. -/
theorem lanes_lt (x : S16.Idx) : (iota .scVector S16 32 [0] iota_S16_d0_w32_scVector x).toNat < 16 := by
  rw [iota_single_apply, BitVec.toNat_ofNat]
  have : (x 0).val < 16 := (x 0).isLt
  omega

/-- A load's row index (a store's column index): lane + 16 k, for a trip number k below 8. -/
theorem rowOK (k : ℕ) (hk : k < 8) :
    ∀ x, (addi (iota .scVector S16 32 [0] iota_S16_d0_w32_scVector) (broadcast S16 (Scalar.muli 16#32 (Scf.iv 0#32 1#32 k))) x).toNat < 128 := by
  intro x
  show (iota .scVector S16 32 [0] iota_S16_d0_w32_scVector x + 16#32 * (0#32 + BitVec.ofNat 32 k * 1#32)).toNat < 128
  have hl := lanes_lt x
  have ek : (BitVec.ofNat 32 k).toNat = k := by rw [BitVec.toNat_ofNat]; omega
  have e16 : (16#32 : BitVec 32).toNat = 16 := by decide
  have e0 : (0#32 : BitVec 32).toNat = 0 := by decide
  have e1 : (1#32 : BitVec 32).toNat = 1 := by decide
  rw [BitVec.toNat_add, BitVec.toNat_mul, BitVec.toNat_add, BitVec.toNat_mul, e16, e0, e1, ek]
  omega

/-- The same over a vector known to be the lane numbers. -/
theorem rowOK' (v2 : IVec S16 32) (hv2 : v2 = iota .scVector S16 32 [0] iota_S16_d0_w32_scVector) (k : ℕ) (hk : k < 8) :
    ∀ x, (addi v2 (broadcast S16 (Scalar.muli 16#32 (Scf.iv 0#32 1#32 k))) x).toNat < 128 := by
  subst hv2; exact rowOK k hk

/-- The sixteen rotations are lane numbers taken modulo 16. -/
theorem rot_lt_of_eq {v a : IVec S16 32} (h : v = andi a (broadcast S16 15#32)) : ∀ x, (v x).toNat < 16 := by
  subst h; exact andi15_lt a

/-- A row of a parity scratch, loaded and flattened, holds parity words. -/
theorem par_row3 (d : Dev nD) (L : grid0.Coords) (P : Buf (Elt F) ((b3).view.loc (thr d L))) (hP : ∀ j, (P j).toNat = 0 ∨ (P j).toNat = 64)
    (off : Fin 2 → Nat) (hoff : ∀ a, off a + S1x16.size a ≤ S8x16.size a) (hc : S1x16.ShapeCasts S16) :
    ∀ x, (shapeCast S16 (View.readAt (Elt F) (b3).view (Rect.unit (s := S8x16) off S1x16.size hoff).toLoadRect P) hc x).toNat = 0
      ∨ (shapeCast S16 (View.readAt (Elt F) (b3).view (Rect.unit (s := S8x16) off S1x16.size hoff).toLoadRect P) hc x).toNat = 64 := by
  intro x
  unfold shapeCast
  simp only [View.readAt_apply, Memref.view_whole, View.read_whole]
  exact hP _
theorem par_row4 (d : Dev nD) (L : grid0.Coords) (P : Buf (Elt F) ((b4).view.loc (thr d L))) (hP : ∀ j, (P j).toNat = 0 ∨ (P j).toNat = 64)
    (off : Fin 2 → Nat) (hoff : ∀ a, off a + S1x16.size a ≤ S8x16.size a) (hc : S1x16.ShapeCasts S16) :
    ∀ x, (shapeCast S16 (View.readAt (Elt F) (b4).view (Rect.unit (s := S8x16) off S1x16.size hoff).toLoadRect P) hc x).toNat = 0
      ∨ (shapeCast S16 (View.readAt (Elt F) (b4).view (Rect.unit (s := S8x16) off S1x16.size hoff).toLoadRect P) hc x).toNat = 64 := by
  intro x
  unfold shapeCast
  simp only [View.readAt_apply, Memref.view_whole, View.read_whole]
  exact hP _

end Cert.Proof.KB

end
-- ==== Proof.KBTile.lean ====
/-
  One tile's task, from its body in the kernel's own spelling.

  The launch hands a tile its read shares and its part of the output at the TensorCore's names for the arrays, and
  all of its scoped storage in one piece. The body is stated over the kernel's memrefs and over exactly the nine
  scratch buffers and five DMA counters it names. Between the two: the arrays' names are the same locations; the
  nine buffers and five counters are carved out of the tile's storage and the rest is carried around the body
  untouched; the tile's waits are all at the lowest level, below everything it owes; the four write-out slices lie in
  the tile's own columns and the last one meets neither of the two it may overlap in time.
-/
import proofs.«206508_g82686710383178_cont_9to1c4b_561_19_alg».proof.Proof.KBPts
import proofs.«206508_g82686710383178_cont_9to1c4b_561_19_alg».proof.Proof.KBOwn
import proofs.«206508_g82686710383178_cont_9to1c4b_561_19_alg».proof.Proof.KBSets
import proofs.«206508_g82686710383178_cont_9to1c4b_561_19_alg».proof.Proof.KBInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- What the body starts from, in the kernel's own spelling: its waits allowed, a share of the row numbers, two shares
    of the table, a part of the output, the nine scratch buffers, the five DMA counters at zero, what it owes. -/
abbrev corePre (d : Dev nD) (L : grid0.Coords) (O : CellTallies nD τ sig (HIx 1)) (W : Waits sig (HIx 1)) (qI qT qT' : PosShare TreeShare)
    (fI : Buf (Elt F) ((idsW).view.loc (thr d L))) (fT : Buf (Elt F) ((tblW).view.loc (thr d L)))
    (Sout : Finset S50x64x16384.Idx) (fO : Buf (Elt F) ((outW).view.loc (thr d L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))) : sProp 𝕄 :=
  iprop(Transfers.MayWaits (thr d L) (none : HIx 1) O
        ∗ ((idsW).view.loc (thr d L) ↦{qI} fI) ∗ ((tblW).view.loc (thr d L) ↦{qT} fT) ∗ ((tblW).view.loc (thr d L) ↦{qT'} fT)
        ∗ ((outW).view.loc (thr d L) ↦[Sout]{fullShare} fO)
        ∗ ((b0).view.loc (thr d L) ↦{fullShare} f0) ∗ ((b1).view.loc (thr d L) ↦{fullShare} f1) ∗ ((b2).view.loc (thr d L) ↦{fullShare} f2) ∗ ((b3).view.loc (thr d L) ↦{fullShare} f3) ∗ ((b4).view.loc (thr d L) ↦{fullShare} f4) ∗ ((b5).view.loc (thr d L) ↦{fullShare} f5) ∗ ((b6).view.loc (thr d L) ↦{fullShare} f6) ∗ ((b7).view.loc (thr d L) ↦{fullShare} f7) ∗ ((b8).view.loc (thr d L) ↦{fullShare} f8)
        ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scoped0.sem) 0
        ∗ owes (thr d L) O W : sProp 𝕄)

/-- What the body ends with: the same, the output's part and the scratch buffers at some contents. -/
abbrev corePost (d : Dev nD) (L : grid0.Coords) (O : CellTallies nD τ sig (HIx 1)) (W : Waits sig (HIx 1)) (qI qT qT' : PosShare TreeShare)
    (fI : Buf (Elt F) ((idsW).view.loc (thr d L))) (fT : Buf (Elt F) ((tblW).view.loc (thr d L)))
    (Sout : Finset S50x64x16384.Idx) (fO : Buf (Elt F) ((outW).view.loc (thr d L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))) : sProp 𝕄 :=
  iprop(((idsW).view.loc (thr d L) ↦{qI} fI) ∗ ((tblW).view.loc (thr d L) ↦{qT} fT) ∗ ((tblW).view.loc (thr d L) ↦{qT'} fT)
            ∗ (∃ f, (outW).view.loc (thr d L) ↦[Sout]{fullShare} f)
            ∗ (∃ f, (b0).view.loc (thr d L) ↦{fullShare} f) ∗ (∃ f, (b1).view.loc (thr d L) ↦{fullShare} f) ∗ (∃ f, (b2).view.loc (thr d L) ↦{fullShare} f) ∗ (∃ f, (b3).view.loc (thr d L) ↦{fullShare} f) ∗ (∃ f, (b4).view.loc (thr d L) ↦{fullShare} f) ∗ (∃ f, (b5).view.loc (thr d L) ↦{fullShare} f) ∗ (∃ f, (b6).view.loc (thr d L) ↦{fullShare} f) ∗ (∃ f, (b7).view.loc (thr d L) ↦{fullShare} f) ∗ (∃ f, (b8).view.loc (thr d L) ↦{fullShare} f)
            ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scoped0.sem) 0
            ∗ ∃ W', ⌜∀ p ∈ W', p ∈ W ∨ p.2 = none⌝ ∗ owes (thr d L) O W')

/-- The body's statement in the kernel's own spelling: from `corePre`, with the row numbers all below a million and the
    part of the output containing the four write-out slices (the last one apart from the two it may overlap in
    time), the kernel function runs to `corePost`. -/
def BodyCore : Prop :=
  ∀ (d : Dev nD) (L : grid0.Coords) (O : CellTallies nD τ sig (HIx 1)) (W : Waits sig (HIx 1)) (qI qT qT' : PosShare TreeShare)
    (fI : Buf (Elt F) ((idsW).view.loc (thr d L))) (fT : Buf (Elt F) ((tblW).view.loc (thr d L)))
    (_ : ∀ j, (fI j).toNat < 1000000)
    (Sout : Finset S50x64x16384.Idx) (fO : Buf (Elt F) ((outW).view.loc (thr d L)))
    (_ : sliceSet (k0_off3 L) (k0_off3_inb L) ⊆ Sout)
    (_ : ∀ k, sliceSet (k0_off6 L k) (k0_off6_inb L k) ⊆ Sout)
    (_ : ∀ k, sliceSet (k0_off9 L k) (k0_off9_inb L k) ⊆ Sout)
    (_ : sliceSet (k0_off11 L) (k0_off11_inb L) ⊆ Sout)
    (_ : Disjoint (sliceSet (k0_off3 L) (k0_off3_inb L)) (sliceSet (k0_off11 L) (k0_off11_inb L)))
    (_ : ∀ k, Disjoint (sliceSet (k0_off9 L k) (k0_off9_inb L k)) (sliceSet (k0_off11 L) (k0_off11_inb L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))),
    corePre d L O W qI qT qT' fI fT Sout fO f0 f1 f2 f3 f4 f5 f6 f7 f8
      ⊢ wp frame (wpE (defs₀ (F := F)) 𝒱₀ (thr d L) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => corePost d L O W qI qT qT' fI fT Sout fO f0 f1 f2 f3 f4 f5 f6 f7 f8

/-- The tile's storage the kernel does not name. -/
abbrev restRes (d : Dev nD) (L : grid0.Coords) : sProp 𝕄 :=
  iprop((bigSep (restRefs (cV L) (jV L)) fun b => iprop(∃ f, ((d, b) : Loc nD τ sig) ↦{fullShare} f))
    ∗ bigSep (restCells d (cV L) (jV L)) fun g => semVal g 0)

/-- One tile's task at a symbolic place, from the body and the range of the row numbers. -/
theorem tile_body_of (hcore : BodyCore (F := F)) (hpre : ∀ d j, (idsFlat m d j).toNat < 1000000) : TileBody m := by
  intro d L O W hO
  rw [(K (F := F)).scopedBufs_V facts d (cV L) (jV L), SparseCore.Cfg.scopedSems0_V (Val := Elt F) d (cV L) (jV L), ownSems0_V5, ownBufs_V9]
  iintro ⟨#Hlv, -, ⟨HI, HT, HT', HOut⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩, ⟨Hs9, Hs10, Hs11, Hs12, Hsc, Hsems⟩, Howes⟩
  ihave Hmw := ((K (F := F)).mayWaits_none (thr := thr d L) hO) $$ Hlv
  -- the body's post and the rest of the storage, regrouped into the launch's shape
  iapply (wp_mono frame _ _ (Q := fun _ => iprop(restRes d L ∗ corePost d L O W (qI (L 0).val (L 1).val) (qT (L 0).val (L 1).val) (qT' (L 0).val (L 1).val) (idsFlat m d) (tbl m d) (outSet (L 0).val (L 1).val) (m (outLoc d)) f0 f1 f2 f3 f4 f5 f6 f7 f8)) fun _ => ?post)
  case post =>
    iintro ⟨⟨Hbufs, Hsems⟩, HI, HT, HT', HOut, H0, H1, H2, H3, H4, H5, H6, H7, H8, Hs9, Hs10, Hs11, Hs12, Hsc, HW⟩
    isplitl [HI HT HT' HOut]
    · isplitl [HI]; · iexact HI
      isplitl [HT]; · iexact HT
      isplitl [HT']; · iexact HT'
      iexact HOut
    isplitl [H0 H1 H2 H3 H4 H5 H6 H7 H8 Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact Hbufs
    isplitl [Hs9 Hs10 Hs11 Hs12 Hsc Hsems]
    · isplitl [Hs9]; · iexact Hs9
      isplitl [Hs10]; · iexact Hs10
      isplitl [Hs11]; · iexact Hs11
      isplitl [Hs12]; · iexact Hs12
      isplitl [Hsc]; · iexact Hsc
      iexact Hsems
    iexact HW
  -- the rest of the storage carried around the body
  iapply (wp_frame_l frame _ Set.univ (R := restRes d L) (Q := fun _ => corePost d L O W (qI (L 0).val (L 1).val) (qT (L 0).val (L 1).val) (qT' (L 0).val (L 1).val) (idsFlat m d) (tbl m d) (outSet (L 0).val (L 1).val) (m (outLoc d)) f0 f1 f2 f3 f4 f5 f6 f7 f8)) $$ [Hbufs Hsems Hmw HI HT HT' HOut H0 H1 H2 H3 H4 H5 H6 H7 H8 Hs9 Hs10 Hs11 Hs12 Hsc Howes]
  isplitl [Hbufs Hsems]
  · isplitl [Hbufs]; · iexact Hbufs
    iexact Hsems
  -- the body
  iapply (hcore d L O W (qI (L 0).val (L 1).val) (qT (L 0).val (L 1).val) (qT' (L 0).val (L 1).val) (idsFlat m d) (tbl m d) (hpre d)
    (outSet (L 0).val (L 1).val) (m (outLoc d)) (slice3_sub L) (slice6_sub L) (slice9_sub L) (slice11_sub L) (slice3_disj L) (slice9_disj L)
    f0 f1 f2 f3 f4 f5 f6 f7 f8) $$ [Hmw HI HT HT' HOut H0 H1 H2 H3 H4 H5 H6 H7 H8 Hs9 Hs10 Hs11 Hs12 Hsc Howes]
  isplitl [Hmw]; · iexact Hmw
  isplitl [HI]; · iexact HI
  isplitl [HT]; · iexact HT
  isplitl [HT']; · iexact HT'
  isplitl [HOut]; · iexact HOut
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs9]; · iexact Hs9
  isplitl [Hs10]; · iexact Hs10
  isplitl [Hs11]; · iexact Hs11
  isplitl [Hs12]; · iexact Hs12
  isplitl [Hsc]; · iexact Hsc
  iexact Howes

end Cert.Proof.KB

end
-- ==== Proof.KBTrip1.lean ====
import proofs.«206508_g82686710383178_cont_9to1c4b_561_19_alg».proof.Proof.KBInv
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of the first transpose of slot 0. Trip k reads row k of the parity scratch and, for each of the four groups of sixteen
  feature columns and each of the sixteen rotations, gathers sixteen entries of the rows scratch (row lane + 16 k, column
  parity + 16 fb + rotation) and scatters them into the destination scratch (row rotation + 16 fb, column lane + 16 k).
  Every index is inside its scratch by the bounds on the three kinds of index vector; the trip changes only the destination.
-/
set_option maxHeartbeats 40000000 in
theorem trip_t1 (d : Dev nD) (L : grid0.Coords) (P : Buf (Elt F) ((b3).view.loc (thr d L))) (R : Buf (Elt F) ((b5).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v300 : Vec F S16 .i32) (c1_i32_135 : BitVec 32) (k : Fin k0_t1_loop.trips) (acc : PUnit) :
    invU d L b3 b5 b7 P R k.val acc ⊢ wp frame (wpE (defs₀ (F := F)) 𝒱₀ (thr d L) none) Set.univ
      (k0_t1_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v300 c1_i32_135 k acc)
      (invU d L b3 b5 b7 P R (k.val + 1)) := by
  have hk : k.val < 8 := by
    have h := k.isLt
    have e : k0_t1_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t1_body
  sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KB

end
-- ==== Proof.KBTrip3.lean ====
import proofs.«206508_g82686710383178_cont_9to1c4b_561_19_alg».proof.Proof.KBInv
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of a transpose of slot 1 inside the outer loop: the parity scratch, the rows scratch and the destination scratch are the
  second of each pair. Trip k reads row k of the parity scratch and, for each of the four groups of sixteen feature columns and each of
  the sixteen rotations, gathers sixteen entries of the rows scratch (row lane + 16 k, column parity + 16 fb + rotation) and scatters
  them into the destination scratch (row rotation + 16 fb, column lane + 16 k). Every index is inside its scratch by the bounds on the
  three kinds of index vector; the trip changes only the destination.
-/
set_option maxHeartbeats 40000000 in
theorem trip_t3 (d : Dev nD) (L : grid0.Coords) (P : Buf (Elt F) ((b4).view.loc (thr d L))) (R : Buf (Elt F) ((b6).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v389 : BitVec 32) (v499 : IVec S16 32) (v501_ld : Vec F S1x16 .i32) (k : Fin k0_t3_loop.trips) (acc : PUnit) :
    invU d L b4 b6 b8 P R k.val acc ⊢ wp frame (wpE (defs₀ (F := F)) 𝒱₀ (thr d L) none) Set.univ
      (k0_t3_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v389 v499 v501_ld k acc)
      (invU d L b4 b6 b8 P R (k.val + 1)) := by
  have hk : k.val < 8 := by
    have h := k.isLt
    have e : k0_t3_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t3_body
  sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KB

end
-- ==== Proof.KBTrip4.lean ====
import proofs.«206508_g82686710383178_cont_9to1c4b_561_19_alg».proof.Proof.KBInv
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of a transpose of slot 0 inside the outer loop. Trip k reads row k of the parity scratch and, for each of the four groups
  of sixteen feature columns and each of the sixteen rotations, gathers sixteen entries of the rows scratch (row lane + 16 k, column
  parity + 16 fb + rotation) and scatters them into the destination scratch (row rotation + 16 fb, column lane + 16 k). Every index is
  inside its scratch by the bounds on the three kinds of index vector; the trip changes only the destination.
-/
set_option maxHeartbeats 40000000 in
theorem trip_t4 (d : Dev nD) (L : grid0.Coords) (P : Buf (Elt F) ((b3).view.loc (thr d L))) (R : Buf (Elt F) ((b5).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v564 : BitVec 32) (v593 : BitVec 32) (v707 : IVec S16 32) (c50_i32_375 : BitVec 32) (k : Fin k0_t4_loop.trips) (acc : PUnit) :
    invU d L b3 b5 b7 P R k.val acc ⊢ wp frame (wpE (defs₀ (F := F)) 𝒱₀ (thr d L) none) Set.univ
      (k0_t4_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v564 v593 v707 c50_i32_375 k acc)
      (invU d L b3 b5 b7 P R (k.val + 1)) := by
  have hk : k.val < 8 := by
    have h := k.isLt
    have e : k0_t4_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t4_body
  sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KB

end
-- ==== Proof.KBTrip5.lean ====
import proofs.«206508_g82686710383178_cont_9to1c4b_561_19_alg».proof.Proof.KBInv
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of the last transpose of slot 1, after the outer loop. Trip k reads row k of the parity scratch and, for each of the four
  groups of sixteen feature columns and each of the sixteen rotations, gathers sixteen entries of the rows scratch (row lane + 16 k,
  column parity + 16 fb + rotation) and scatters them into the destination scratch (row rotation + 16 fb, column lane + 16 k). Every
  index is inside its scratch by the bounds on the three kinds of index vector; the trip changes only the destination.
-/
set_option maxHeartbeats 40000000 in
theorem trip_t5 (d : Dev nD) (L : grid0.Coords) (P : Buf (Elt F) ((b4).view.loc (thr d L))) (R : Buf (Elt F) ((b6).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v330 : BitVec 32) (c128_i32 : BitVec 32) (k : Fin k0_t5_loop.trips) (acc : PUnit) :
    invU d L b4 b6 b8 P R k.val acc ⊢ wp frame (wpE (defs₀ (F := F)) 𝒱₀ (thr d L) none) Set.univ
      (k0_t5_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v330 c128_i32 k acc)
      (invU d L b4 b6 b8 P R (k.val + 1)) := by
  have hk : k.val < 8 := by
    have h := k.isLt
    have e : k0_t5_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  unfold invU
  iintro ⟨HA, HR, %f, HD⟩
  unfold k0_t5_body
  sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  repeat (first
    | (rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide))))
    | (rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))))
  sl_step
  isplitl [HA]; · iexact HA
  isplitl [HR]; · iexact HR
  iexists _; iexact HD

end Cert.Proof.KB

end
-- ==== Proof.KBPos.lean ====
/-
  The position vectors of the outer loop are inside the staged row numbers.

  In trip k of the outer loop (k below 99, induction variable k + 1) the tile extracts the row numbers of two
  history steps, g = 2 (k + 1) and g = 2 (k + 1) + 1. Its 25600 staged row numbers are laid out as four blocks of 6400
  (one per group of 128 batch entries), each holding 128 batch entries times 50 history positions. The sixteen words a
  load reads are at positions (lane + 16 j) * 50 + base, for j below 8, where base = (g / 50) * 6400 + g mod 50.
  Since g is at most 199, base is at most 3 * 6400 + 49 = 19249, and (lane + 16 j) * 50 is at most 127 * 50 = 6350:
  every position is below 25600, and no addition or product wraps.
-/
import proofs.«206508_g82686710383178_cont_9to1c4b_561_19_alg».proof.Proof.KBSetup
import Idealize.ShloMosaic.Lib.Decide
import Idealize.ShloMosaic.Lib.Pipeline.Value

noncomputable section

namespace Cert.Proof.KB

open Cert.Kernel Cert.Kernel.Gen

open Idealize.ShloMosaic

/-- The base of the even history step of trip `k`, as the kernel computes it from the induction variable:
    the floor quotient by 50 times 6400, plus the floor remainder. -/
def baseE (k : Fin k0_t2_loop.trips) : BitVec 32 :=
  let arg18 : BitVec 32 := Scf.iv 1#32 1#32 k
  let v360 : BitVec 32 := Scalar.muli 2#32 arg18
  let v361 : BitVec 32 := Scalar.divsi v360 50#32
  let v362 : BitVec 1 := Scalar.cmpi .sgt v360 0#32
  let v363 : BitVec 32 := Scalar.extui v362
  let v364 : BitVec 1 := Scalar.cmpi .slt v360 0#32
  let v365 : BitVec 32 := Scalar.extui v364
  let v366 : BitVec 32 := Scalar.subi v363 v365
  let v367 : BitVec 1 := Scalar.cmpi .sgt 50#32 0#32
  let v368 : BitVec 32 := Scalar.extui v367
  let v369 : BitVec 1 := Scalar.cmpi .slt 50#32 0#32
  let v370 : BitVec 32 := Scalar.extui v369
  let v371 : BitVec 32 := Scalar.subi v368 v370
  let v372 : BitVec 1 := Scalar.cmpi .ne v366 v371
  let v373 : BitVec 32 := Scalar.remsi v360 50#32
  let v374 : BitVec 1 := Scalar.cmpi .ne v373 0#32
  let v375 : BitVec 1 := Scalar.andi v372 v374
  let v376 : BitVec 32 := Scalar.subi v361 1#32
  let v377 : BitVec 32 := Scalar.select v375 v376 v361
  let v378 : BitVec 32 := Scalar.muli v377 6400#32
  let v379 : BitVec 1 := Scalar.cmpi .eq 50#32 0#32
  let v380 : BitVec 32 := Scalar.select v379 1#32 50#32
  let v381 : BitVec 32 := Scalar.remsi v360 v380
  let v382 : BitVec 1 := Scalar.cmpi .ne v381 0#32
  let v383 : BitVec 1 := Scalar.cmpi .slt v381 0#32
  let v384 : BitVec 1 := Scalar.cmpi .slt v380 0#32
  let v385 : BitVec 1 := Scalar.xori v383 v384
  let v386 : BitVec 1 := Scalar.andi v385 v382
  let v387 : BitVec 32 := Scalar.addi v381 v380
  let v388 : BitVec 32 := Scalar.select v386 v387 v381
  let v389 : BitVec 32 := Scalar.addi v378 v388
  v389

/-- The base of the odd history step of trip `k`, likewise. -/
def baseO (k : Fin k0_t2_loop.trips) : BitVec 32 :=
  let arg18 : BitVec 32 := Scf.iv 1#32 1#32 k
  let v563 : BitVec 32 := Scalar.muli 2#32 arg18
  let v564 : BitVec 32 := Scalar.addi v563 1#32
  let v565 : BitVec 32 := Scalar.divsi v564 50#32
  let v566 : BitVec 1 := Scalar.cmpi .sgt v564 0#32
  let v567 : BitVec 32 := Scalar.extui v566
  let v568 : BitVec 1 := Scalar.cmpi .slt v564 0#32
  let v569 : BitVec 32 := Scalar.extui v568
  let v570 : BitVec 32 := Scalar.subi v567 v569
  let v571 : BitVec 1 := Scalar.cmpi .sgt 50#32 0#32
  let v572 : BitVec 32 := Scalar.extui v571
  let v573 : BitVec 1 := Scalar.cmpi .slt 50#32 0#32
  let v574 : BitVec 32 := Scalar.extui v573
  let v575 : BitVec 32 := Scalar.subi v572 v574
  let v576 : BitVec 1 := Scalar.cmpi .ne v570 v575
  let v577 : BitVec 32 := Scalar.remsi v564 50#32
  let v578 : BitVec 1 := Scalar.cmpi .ne v577 0#32
  let v579 : BitVec 1 := Scalar.andi v576 v578
  let v580 : BitVec 32 := Scalar.subi v565 1#32
  let v581 : BitVec 32 := Scalar.select v579 v580 v565
  let v582 : BitVec 32 := Scalar.muli v581 6400#32
  let v583 : BitVec 1 := Scalar.cmpi .eq 50#32 0#32
  let v584 : BitVec 32 := Scalar.select v583 1#32 50#32
  let v585 : BitVec 32 := Scalar.remsi v564 v584
  let v586 : BitVec 1 := Scalar.cmpi .ne v585 0#32
  let v587 : BitVec 1 := Scalar.cmpi .slt v585 0#32
  let v588 : BitVec 1 := Scalar.cmpi .slt v584 0#32
  let v589 : BitVec 1 := Scalar.xori v587 v588
  let v590 : BitVec 1 := Scalar.andi v589 v586
  let v591 : BitVec 32 := Scalar.addi v585 v584
  let v592 : BitVec 32 := Scalar.select v590 v591 v585
  let v593 : BitVec 32 := Scalar.addi v582 v592
  v593

theorem baseE_le : ∀ k : Fin k0_t2_loop.trips, (baseE k).toNat ≤ 19249 := by decide +kernel
theorem baseO_le : ∀ k : Fin k0_t2_loop.trips, (baseO k).toNat ≤ 19249 := by decide +kernel

/-- A position vector (lane + c) * 50 + base, with c at most 112 and base at most 19249, is inside the 25600 staged words. -/
theorem pos_ok (v2 : IVec S16 32) (hv2 : v2 = iota .scVector S16 32 [0] iota_S16_d0_w32_scVector) (c : BitVec 32) (hc : c.toNat ≤ 112)
    (base : BitVec 32) (hb : base.toNat ≤ 19249) :
    ∀ a x, ((![addi (muli (addi v2 (broadcast S16 c)) (broadcast S16 50#32)) (broadcast S16 base)] : Fin 1 → IVec S16 32) a x).toNat < S25600.size a := by
  subst hv2
  intro a x
  obtain rfl : a = 0 := Subsingleton.elim _ _
  show ((iota .scVector S16 32 [0] iota_S16_d0_w32_scVector x + c) * 50#32 + base).toNat < 25600
  have hl : (iota .scVector S16 32 [0] iota_S16_d0_w32_scVector x).toNat < 16 := by
    rw [iota_single_apply, BitVec.toNat_ofNat]
    have : (x 0).val < 16 := (x 0).isLt
    omega
  have e50 : (50#32 : BitVec 32).toNat = 50 := by decide
  rw [BitVec.toNat_add, BitVec.toNat_mul, BitVec.toNat_add, e50]
  have h1 : ((iota .scVector S16 32 [0] iota_S16_d0_w32_scVector x).toNat + c.toNat) % 2 ^ 32
      = (iota .scVector S16 32 [0] iota_S16_d0_w32_scVector x).toNat + c.toNat := Nat.mod_eq_of_lt (by omega)
  rw [h1]
  have h2 : ((iota .scVector S16 32 [0] iota_S16_d0_w32_scVector x).toNat + c.toNat) * 50 % 2 ^ 32
      = ((iota .scVector S16 32 [0] iota_S16_d0_w32_scVector x).toNat + c.toNat) * 50 := Nat.mod_eq_of_lt (by omega)
  rw [h2]
  have h3 : (((iota .scVector S16 32 [0] iota_S16_d0_w32_scVector x).toNat + c.toNat) * 50 + base.toNat) % 2 ^ 32
      = ((iota .scVector S16 32 [0] iota_S16_d0_w32_scVector x).toNat + c.toNat) * 50 + base.toNat := Nat.mod_eq_of_lt (by omega)
  rw [h3]
  show _ < 25600
  omega

/-! ## The same over the history step -/

/-- The base of history step `g` once the sign conditions of the floor division are settled: quotient times 6400 plus
    remainder. For `g` at most 199 it is at most 19249. -/
theorem baseG_small : ∀ n : Fin 200,
    (Scalar.addi (Scalar.muli (Scalar.divsi (BitVec.ofNat 32 n.val) 50#32) 6400#32) (Scalar.remsi (BitVec.ofNat 32 n.val) 50#32)).toNat ≤ 19249 := by
  decide +kernel
theorem baseG_le (g : BitVec 32) (hg : g.toNat ≤ 199) :
    (Scalar.addi (Scalar.muli (Scalar.divsi g 50#32) 6400#32) (Scalar.remsi g 50#32)).toNat ≤ 19249 := by
  have e : BitVec.ofNat 32 g.toNat = g := by
    apply BitVec.eq_of_toNat_eq
    rw [BitVec.toNat_ofNat]
    have := g.isLt
    omega
  have h : (Scalar.addi (Scalar.muli (Scalar.divsi (BitVec.ofNat 32 g.toNat) 50#32) 6400#32) (Scalar.remsi (BitVec.ofNat 32 g.toNat) 50#32)).toNat ≤ 19249 :=
    baseG_small ⟨g.toNat, by omega⟩
  rwa [e] at h

/-- The two history steps of trip `k` of the outer loop are at most 199. -/
theorem gE_le : ∀ k : Fin k0_t2_loop.trips, (Scalar.muli 2#32 (Scf.iv 1#32 1#32 k.val)).toNat ≤ 199 := by decide +kernel
theorem gO_le : ∀ k : Fin k0_t2_loop.trips, (Scalar.addi (Scalar.muli 2#32 (Scf.iv 1#32 1#32 k.val)) 1#32).toNat ≤ 199 := by decide +kernel

/-- A position vector over a history step: (lane + c) * 50 + base of `g`. -/
theorem pos_okG (v2 : IVec S16 32) (hv2 : v2 = iota .scVector S16 32 [0] iota_S16_d0_w32_scVector) (c : BitVec 32) (hc : c.toNat ≤ 112)
    (g : BitVec 32) (hg : g.toNat ≤ 199) :
    ∀ a x, ((![addi (muli (addi v2 (broadcast S16 c)) (broadcast S16 50#32))
        (broadcast S16 (Scalar.addi (Scalar.muli (Scalar.divsi g 50#32) 6400#32) (Scalar.remsi g 50#32)))] : Fin 1 → IVec S16 32) a x).toNat
      < S25600.size a :=
  pos_ok v2 hv2 c hc _ (baseG_le g hg)

end Cert.Proof.KB

end
-- ==== Proof.KBBody.lean ====
/-
  The body of the lookup on one tile: it runs to its end, nothing faulting, and hands back what it was lent.

  A tile stages its 25600 row numbers, then works through 200 groups of 128 lookups in two alternating slots. For a
  group it reads the 128 row numbers out of the staged ones (halved: the row of the table re-laid as double rows;
  the parity times 64: where the wanted row starts inside the double row), gathers the 128 double rows, transposes the
  wanted halves into a [64, 128] block and writes that block out. While one slot's gather is under way the other
  slot's rows are transposed and written, so at the head of each round of the main loop one gather and one write-out
  are still under way: the loop's invariant holds both. Every index the body uses is in range because every staged
  word is a row number of the million-row table.
-/
import proofs.«206508_g82686710383178_cont_9to1c4b_561_19_alg».proof.Proof.KBFacts
import proofs.«206508_g82686710383178_cont_9to1c4b_561_19_alg».proof.Proof.KBInv
import proofs.«206508_g82686710383178_cont_9to1c4b_561_19_alg».proof.Proof.KBTrip1
import proofs.«206508_g82686710383178_cont_9to1c4b_561_19_alg».proof.Proof.KBTrip3
import proofs.«206508_g82686710383178_cont_9to1c4b_561_19_alg».proof.Proof.KBTrip4
import proofs.«206508_g82686710383178_cont_9to1c4b_561_19_alg».proof.Proof.KBTrip5
import proofs.«206508_g82686710383178_cont_9to1c4b_561_19_alg».proof.Proof.KBPos
import Idealize.ShloMosaic.Lib.Tactic

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F]
variable (d : Dev nD) (L : grid0.Coords)

/-- What the main loop keeps from round to round. Slot 0's row list, parity scratch and rows are free; slot 1's parity
    scratch holds 0s and 64s (its transpose comes first in the next round); slot 1's gather is under way, holding its
    rows, its list and one of the two shares of the table; the write-out of slot 0's block is under way, holding the
    block and the part `A` of the result it fills — a part of what the tile was lent, apart from the last part the tile
    will fill; the rest of what was lent is held at some contents. -/
def invMain (O : CellTallies nD τ sig (HIx 1)) (W : Waits sig (HIx 1)) (qI qT qT' : PosShare TreeShare)
    (fI : Buf (Elt F) ((idsW).view.loc (thr d L))) (fT : Buf (Elt F) ((tblW).view.loc (thr d L)))
    (S0 : Buf (Elt F) ((b0).view.loc (thr d L))) (Sout : Finset S50x64x16384.Idx) (_ : Nat) (_ : PUnit) : sProp 𝕄 :=
  iprop(Transfers.MayWaits (thr d L) (none : HIx 1) O
    ∗ ((b0).view.loc (thr d L) ↦{fullShare} S0) ∗ ((idsW).view.loc (thr d L) ↦{qI} fI)
    ∗ (∃ f, (b1).view.loc (thr d L) ↦{fullShare} f) ∗ (∃ f, (b3).view.loc (thr d L) ↦{fullShare} f)
    ∗ (∃ f, (b5).view.loc (thr d L) ↦{fullShare} f)
    ∗ (∃ P4, ⌜ParOK d (cV L) (jV L) b4 P4⌝ ∗ (b4).view.loc (thr d L) ↦{fullShare} P4)
    ∗ (∃ f, (b8).view.loc (thr d L) ↦{fullShare} f)
    ∗ ((tblW).view.loc (thr d L) ↦{qT} fT)
    ∗ ((tblW).view.loc (thr d L) ↦[Finset.univ \ (sliceT).view.set]{qT'} fT)
    ∗ semVal (thr d L, SemLoc.dma cc0_scratch9.sem) 0 ∗ semVal (thr d L, SemLoc.dma cc0_scratch12.sem) 0
    ∗ semVal (thr d L, SemLoc.dma cc0_scoped0.sem) 0
    ∗ (∃ f6, ∃ f2, Transfers.Flight countersEmb (thr d L) (SemLoc.dma cc0_scratch10.sem) default 524288
        iprop((((b6).view.loc (thr d L) ↦{fullShare} f6) ∗ ((b2).view.loc (thr d L) ↦{fullShare} f2))
          ∗ ((tblW).view.loc (thr d L) ↦[(sliceT).view.set]{qT'} fT)))
    ∗ (∃ (A : Finset S50x64x16384.Idx), ⌜A ⊆ Sout ∧ Disjoint A (sliceSet (k0_off11 L) (k0_off11_inb L))⌝
        ∗ (∃ fo, ∃ f7, Transfers.Flight countersEmb (thr d L) (SemLoc.dma cc0_scratch11.sem) default 262144
            iprop(((outW).view.loc (thr d L) ↦[A]{fullShare} fo) ∗ ((b7).view.loc (thr d L) ↦[(b7).view.set]{fullShare} f7))
          ∗ ((b7).view.loc (thr d L) ↦[Finset.univ \ (b7).view.set]{fullShare} f7))
        ∗ ∃ fr, (outW).view.loc (thr d L) ↦[Sout \ A]{fullShare} fr)
    ∗ ∃ W', ⌜∀ p ∈ W', p ∈ W ∨ p.2 = none⌝ ∗ owes (thr d L) O W')

/-- The target memref of a write-out, as the program spells it. -/
abbrev outSlice (off : Fin 3 → ℕ) (h : ∀ a, off a + S1x64x128.size a ≤ S50x64x16384.size a) : Memref sig .scVector .hbm S64x128 .f32 :=
  ((outW).slice (Rect.unit (s := S50x64x16384) off S1x64x128.size h) (fun _ => rfl)).squeeze S64x128 squeezes_S1x64x128_S64x128

/-- A part of the result held through the result's own location is the same thing held through the write-out's
    target memref: the form in which a transfer looks for its destination. -/
theorem pts_slice (off : Fin 3 → ℕ) (h : ∀ a, off a + S1x64x128.size a ≤ S50x64x16384.size a) (f : Buf (Elt F) ((outW).view.loc (thr d L))) :
    ((outW).view.loc (thr d L) ↦[sliceSet off h]{fullShare} f : sProp 𝕄)
      = ((outSlice off h).view.loc (thr d L) ↦[(outSlice off h).view.set]{fullShare} f) := rfl

omit [FloatOps F] in
/-- One more wait recorded at no index keeps the record of the waits in the form the tile's obligation asks. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (by rw [hp]; rfl)
  · exact h p hp

set_option maxHeartbeats 40000000 in
/-- The tile's body, from what it is lent — a share of the row numbers, two shares of the table, a part `Sout` of the
    result that contains every part the tile fills, its own nine scratch buffers and five transfer counters — runs to
    its end and hands all of it back, the result's part at some contents. -/
theorem body_core (O : CellTallies nD τ sig (HIx 1)) (W : Waits sig (HIx 1)) (qI qT qT' : PosShare TreeShare)
    (fI : Buf (Elt F) ((idsW).view.loc (thr d L))) (fT : Buf (Elt F) ((tblW).view.loc (thr d L)))
    (hI : ∀ j, (fI j).toNat < 1000000)
    (Sout : Finset S50x64x16384.Idx) (fO : Buf (Elt F) ((outW).view.loc (thr d L)))
    (hs3 : sliceSet (k0_off3 L) (k0_off3_inb L) ⊆ Sout)
    (hs6 : ∀ k, sliceSet (k0_off6 L k) (k0_off6_inb L k) ⊆ Sout)
    (hs9 : ∀ k, sliceSet (k0_off9 L k) (k0_off9_inb L k) ⊆ Sout)
    (hs11 : sliceSet (k0_off11 L) (k0_off11_inb L) ⊆ Sout)
    (hd3 : Disjoint (sliceSet (k0_off3 L) (k0_off3_inb L)) (sliceSet (k0_off11 L) (k0_off11_inb L)))
    (hd9 : ∀ k, Disjoint (sliceSet (k0_off9 L k) (k0_off9_inb L k)) (sliceSet (k0_off11 L) (k0_off11_inb L)))
    (f0 : Buf (Elt F) ((b0).view.loc (thr d L))) (f1 : Buf (Elt F) ((b1).view.loc (thr d L))) (f2 : Buf (Elt F) ((b2).view.loc (thr d L)))
    (f3 : Buf (Elt F) ((b3).view.loc (thr d L))) (f4 : Buf (Elt F) ((b4).view.loc (thr d L))) (f5 : Buf (Elt F) ((b5).view.loc (thr d L)))
    (f6 : Buf (Elt F) ((b6).view.loc (thr d L))) (f7 : Buf (Elt F) ((b7).view.loc (thr d L))) (f8 : Buf (Elt F) ((b8).view.loc (thr d L))) :
    iprop(Transfers.MayWaits (thr d L) (none : HIx 1) O
        ∗ ((idsW).view.loc (thr d L) ↦{qI} fI) ∗ ((tblW).view.loc (thr d L) ↦{qT} fT) ∗ ((tblW).view.loc (thr d L) ↦{qT'} fT)
        ∗ ((outW).view.loc (thr d L) ↦[Sout]{fullShare} fO)
        ∗ ((b0).view.loc (thr d L) ↦{fullShare} f0) ∗ ((b1).view.loc (thr d L) ↦{fullShare} f1) ∗ ((b2).view.loc (thr d L) ↦{fullShare} f2)
        ∗ ((b3).view.loc (thr d L) ↦{fullShare} f3) ∗ ((b4).view.loc (thr d L) ↦{fullShare} f4) ∗ ((b5).view.loc (thr d L) ↦{fullShare} f5)
        ∗ ((b6).view.loc (thr d L) ↦{fullShare} f6) ∗ ((b7).view.loc (thr d L) ↦{fullShare} f7) ∗ ((b8).view.loc (thr d L) ↦{fullShare} f8)
        ∗ semVal (thr d L, SemLoc.dma cc0_scratch9.sem) 0 ∗ semVal (thr d L, SemLoc.dma cc0_scratch10.sem) 0
        ∗ semVal (thr d L, SemLoc.dma cc0_scratch11.sem) 0 ∗ semVal (thr d L, SemLoc.dma cc0_scratch12.sem) 0
        ∗ semVal (thr d L, SemLoc.dma cc0_scoped0.sem) 0
        ∗ owes (thr d L) O W : sProp 𝕄)
      ⊢ wp frame (wpE (defs₀ (F := F)) 𝒱₀ (thr d L) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => iprop(((idsW).view.loc (thr d L) ↦{qI} fI) ∗ ((tblW).view.loc (thr d L) ↦{qT} fT) ∗ ((tblW).view.loc (thr d L) ↦{qT'} fT)
            ∗ (∃ f, (outW).view.loc (thr d L) ↦[Sout]{fullShare} f)
            ∗ (∃ f, (b0).view.loc (thr d L) ↦{fullShare} f) ∗ (∃ f, (b1).view.loc (thr d L) ↦{fullShare} f) ∗ (∃ f, (b2).view.loc (thr d L) ↦{fullShare} f)
            ∗ (∃ f, (b3).view.loc (thr d L) ↦{fullShare} f) ∗ (∃ f, (b4).view.loc (thr d L) ↦{fullShare} f) ∗ (∃ f, (b5).view.loc (thr d L) ↦{fullShare} f)
            ∗ (∃ f, (b6).view.loc (thr d L) ↦{fullShare} f) ∗ (∃ f, (b7).view.loc (thr d L) ↦{fullShare} f) ∗ (∃ f, (b8).view.loc (thr d L) ↦{fullShare} f)
            ∗ semVal (thr d L, SemLoc.dma cc0_scratch9.sem) 0 ∗ semVal (thr d L, SemLoc.dma cc0_scratch10.sem) 0
            ∗ semVal (thr d L, SemLoc.dma cc0_scratch11.sem) 0 ∗ semVal (thr d L, SemLoc.dma cc0_scratch12.sem) 0
            ∗ semVal (thr d L, SemLoc.dma cc0_scoped0.sem) 0
            ∗ ∃ W', ⌜∀ p ∈ W', p ∈ W ∨ p.2 = none⌝ ∗ owes (thr d L) O W') := by
  have e398 : ∀ (v : Vec F S16 .i32) (c : BitVec 32), k0_pay398 (F := F) v c = muli (andi v (broadcast S16 c)) (broadcast S16 64#32) := fun _ _ => rfl
  have e400 : ∀ (v : Vec F S16 .i32), k0_pay400 (F := F) v = shrui v (broadcast S16 1#32) := fun _ => rfl
  have e401 : ∀ (v : Vec F S16 .i32), k0_pay401 (F := F) v = muli (andi v (broadcast S16 1#32)) (broadcast S16 64#32) := fun _ => rfl
  have e237 : ∀ (v : Vec F S16 .i32), k0_pay237 (F := F) v = shrui v (broadcast S16 1#32) := fun _ => rfl
  have e238 : ∀ (v : Vec F S16 .i32), k0_pay238 (F := F) v = muli (andi v (broadcast S16 1#32)) (broadcast S16 64#32) := fun _ => rfl
  have e263 : ∀ (v : Vec F S16 .i32), k0_pay263 (F := F) v = shrui v (broadcast S16 1#32) := fun _ => rfl
  have e264 : ∀ (v : Vec F S16 .i32), k0_pay264 (F := F) v = muli (andi v (broadcast S16 1#32)) (broadcast S16 64#32) := fun _ => rfl
  rw [cc0__emb_lookup_eq_skeleton]; unfold cc0__emb_lookup_skel
  rw [k0_part48_eq_skeleton]; unfold k0_part48_skel
  iintro ⟨Hmw, HI, HT, HT', HOut, H0, H1, H2, H3, H4, H5, H6, H7, H8, Hg0, Hg1, Hw0, Hw1, Hsc, HO⟩
  -- the staging copy: the staged words are row numbers
  sl_exec
  unfold body_core.sl.dma0
  ihave H0' := (stage_intro d (cV L) (jV L) L f0 fI hI) $$ H0
  icases H0' with ⟨%S0, %hS0, H0⟩
  -- group 0 into slot 0: its row list and parities
  repeat (rw [SparseCore.vectorLoadIdx_bind (c := thr d L)]; sl_exec)
  sl_unfold_run_names
  ihave H1' := (q_intro d (cV L) (jV L) b1 S0 hS0 _ _ _ _ _ _ _ _ _ _ _ _ _ _ _ _ _) $$ H1
  icases H1' with ⟨%Q1, %hQ1, H1⟩
  have hin1 : ∀ x, ((b1).view.read (Elt F) Q1 x).toNat < 500000 := hQ1
  ihave H3' := (par_intro d (cV L) (jV L) b3 S0 _ _ _ _ _ _ _ _ _ _ _ _ _ _ _ _ _) $$ H3
  icases H3' with ⟨%P3, %hP3, H3⟩
  -- slot 0's gather is issued; group 1 into slot 1
  sl_exec
  repeat (rw [SparseCore.vectorLoadIdx_bind (c := thr d L)]; sl_exec)
  sl_unfold_run_names
  rw [e400, e401, e398]
  ihave H2' := (q_intro d (cV L) (jV L) b2 S0 hS0 _ _ _ _ _ _ _ _ _ _ _ _ _ _ _ _ _) $$ H2
  icases H2' with ⟨%Q2, %hQ2, H2⟩
  have hin2 : ∀ x, ((b2).view.read (Elt F) Q2 x).toNat < 500000 := hQ2
  ihave H4' := (par_intro d (cV L) (jV L) b4 S0 _ _ _ _ _ _ _ _ _ _ _ _ _ _ _ _ _) $$ H4
  icases H4' with ⟨%P4, %hP4, H4⟩
  -- slot 1's gather is issued, slot 0's is waited for; slot 0's rows are transposed
  sl_exec
  sl_for (invU d L b3 b5 b7 _ _) $$ [H3 H5 H7]
  rotate_left
  · unfold invU
    isplitl [H3]; · iexact H3
    isplitl [H5]; · iexact H5
    iexists _; iexact H7
  rotate_left
  · intro k acc
    sl_unfold_run_names
    exact trip_t1 d L _ _ hP3 _ _ _ _ _ _ _ _ _ _ _ _ _ _ _ _ _ _ rfl rfl rfl rfl rfl rfl rfl rfl rfl rfl rfl rfl rfl rfl rfl rfl rfl _ _ k acc
  iintro %_ HI
  unfold invU
  icases HI with ⟨H3, H5, %f7a, H7⟩
  -- the first write-out: its part of the result is carved out of what the tile holds
  ihave Hc := (pointsTo_split_subset (ℓ := (outW).view.loc (thr d L)) (q := fullShare) (f := fO) hs3).1 $$ HOut
  icases Hc with ⟨HA, HOut⟩
  ihave HA := (Entails.of_eq (pts_slice d L (k0_off3 L) (k0_off3_inb L) fO)) $$ HA
  sl_exec
  sl_for (invMain d L O W qI qT qT' fI fT S0 Sout) $$ [Hmw H0 HI H1 H3 H5 H4 H8 HT HT' Hg0 Hw1 Hsc Hg1 Hw0 H7 HOut HO]
  rotate_left
  · unfold invMain
    isplitl [Hmw]; · iexact Hmw
    isplitl [H0]; · iexact H0
    isplitl [HI]; · iexact HI
    isplitl [H1]; · iexists _; iexact H1
    isplitl [H3]; · iexists _; iexact H3
    isplitl [H5]; · iexists _; iexact H5
    isplitl [H4]
    · iexists P4; isplitr
      · ipureintro; exact hP4
      · iexact H4
    isplitl [H8]; · iexists _; iexact H8
    isplitl [HT]; · iexact HT
    isplitl [HT']; · iexact HT'
    isplitl [Hg0]; · iexact Hg0
    isplitl [Hw1]; · iexact Hw1
    isplitl [Hsc]; · iexact Hsc
    isplitl [Hg1]; · iexists _; iexists _; iexact Hg1
    isplitl [Hw0 H7 HOut]
    · iexists (sliceSet (k0_off3 L) (k0_off3_inb L)); isplitr
      · ipureintro; exact ⟨hs3, hd3⟩
      isplitl [Hw0 H7]
      · iexists _; iexists _
        isplitl [Hw0]; · iexact Hw0
        iexact H7
      iexists _; iexact HOut
    iexists _; isplitr
    rotate_left
    · iexact HO
    · ipureintro; repeat (first | exact (fun _ h => .inl h) | apply waits_insert)
  rotate_left
  · intro k _
    unfold invMain
    iintro ⟨Hmw, H0, HI, ⟨%f1', H1⟩, ⟨%f3', H3⟩, ⟨%f5', H5⟩, ⟨%P4', %hP4', H4⟩, ⟨%f8', H8⟩, HT, HT', Hg0, Hw1, Hsc, ⟨%f6', %f2', Hg1⟩, ⟨%A, %hA, ⟨%fo, %f7', Hw0, H7⟩, ⟨%fr, HOut⟩⟩, %W', %hW', HO⟩
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    repeat (rw [SparseCore.vectorLoadIdx_bind (c := thr d L)]; sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k)))))
    sl_unfold_run_names
    try rw [e237]
    try rw [e238]
    ihave H1' := (q_intro d (cV L) (jV L) b1 S0 hS0 _ _ _ _ _ _ _ _ _ _ _ _ _ _ _ _ _) $$ H1
    icases H1' with ⟨%Q1', %hQ1', H1⟩
    have hin1' : ∀ x, ((b1).view.read (Elt F) Q1' x).toNat < 500000 := hQ1'
    ihave H3' := (par_intro d (cV L) (jV L) b3 S0 _ _ _ _ _ _ _ _ _ _ _ _ _ _ _ _ _) $$ H3
    icases H3' with ⟨%P3', %hP3', H3⟩
    -- slot 0's gather is issued, slot 1's is waited for; slot 1's rows are transposed
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_for (invU d L b4 b6 b8 _ _) $$ [H4 Hg1_dst H8]
    rotate_left
    · unfold invU
      isplitl [H4]; · iexact H4
      isplitl [Hg1_dst]; · iexact Hg1_dst
      iexists _; iexact H8
    rotate_left
    · intro k acc
      sl_unfold_run_names
      exact trip_t3 d L _ _ hP4' _ _ _ _ _ _ _ _ _ _ _ _ _ _ _ _ _ _ rfl rfl rfl rfl rfl rfl rfl rfl rfl rfl rfl rfl rfl rfl rfl rfl rfl _ _ _ k acc
    iintro %_ HI
    unfold invU
    icases HI with ⟨H4, H6, %f8a, H8⟩
    -- slot 1's write-out: the part that came back is put back, the next part carved out
    ihave HOutM := (pointsTo_join_subset (ℓ := (outW).view.loc (thr d L)) (q := fullShare) (g := fo) (f := fr) hA.1) $$ [Hw0_dst HOut]
    · isplitl [Hw0_dst]; · iexact Hw0_dst
      iexact HOut
    ihave Hc := (pointsTo_split_subset (ℓ := (outW).view.loc (thr d L)) (q := fullShare) (hs6 k)).1 $$ HOutM
    icases Hc with ⟨HB, HOut⟩
    ihave HB := (Entails.of_eq (pts_slice d L (k0_off6 L k) (k0_off6_inb L k) _)) $$ HB
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    repeat (rw [SparseCore.vectorLoadIdx_bind (c := thr d L)]; sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k)))))
    sl_unfold_run_names
    try rw [e263]
    try rw [e264]
    ihave H2' := (q_intro d (cV L) (jV L) b2 S0 hS0 _ _ _ _ _ _ _ _ _ _ _ _ _ _ _ _ _) $$ Hg1_dst_and
    icases H2' with ⟨%Q2', %hQ2', H2⟩
    have hin2' : ∀ x, ((b2).view.read (Elt F) Q2' x).toNat < 500000 := hQ2'
    ihave H4' := (par_intro d (cV L) (jV L) b4 S0 _ _ _ _ _ _ _ _ _ _ _ _ _ _ _ _ _) $$ H4
    icases H4' with ⟨%P4'', %hP4'', H4⟩
    -- slot 1's gather is issued, slot 0's is waited for; slot 0's rows are transposed
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_for (invU d L b3 b5 b7 _ _) $$ [H3 H5 H7]
    rotate_left
    · unfold invU
      isplitl [H3]; · iexact H3
      isplitl [H5]; · iexact H5
      iexists _; iexact H7
    rotate_left
    · intro k acc
      sl_unfold_run_names
      exact trip_t4 d L _ _ hP3' _ _ _ _ _ _ _ _ _ _ _ _ _ _ _ _ _ _ rfl rfl rfl rfl rfl rfl rfl rfl rfl rfl rfl rfl rfl rfl rfl rfl rfl _ _ _ _ k acc
    iintro %_ HI
    unfold invU
    icases HI with ⟨H3, H5, %f7b, H7⟩
    -- slot 0's write-out: the part that came back is put back, the next part carved out
    ihave HB := (Entails.of_eq (pts_slice d L (k0_off6 L k) (k0_off6_inb L k) _).symm) $$ HB
    ihave HOutM := (pointsTo_join_subset (ℓ := (outW).view.loc (thr d L)) (q := fullShare) (hs6 k)) $$ [HB HOut]
    · isplitl [HB]; · iexact HB
      iexact HOut
    ihave Hc := (pointsTo_split_subset (ℓ := (outW).view.loc (thr d L)) (q := fullShare) (hs9 k)).1 $$ HOutM
    icases Hc with ⟨HA, HOut⟩
    ihave HA := (Entails.of_eq (pts_slice d L (k0_off9 L k) (k0_off9_inb L k) _)) $$ HA
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_step
    isplitl [Hmw]; · iexact Hmw
    isplitl [H0]; · iexact H0
    isplitl [HI]; · iexact HI
    isplitl [H1]; · iexists _; iexact H1
    isplitl [H3]; · iexists _; iexact H3
    isplitl [H5]; · iexists _; iexact H5
    isplitl [H4]
    · iexists P4''; isplitr
      · ipureintro; exact hP4''
      · iexact H4
    isplitl [H8]; · iexists _; iexact H8
    isplitl [HT]; · iexact HT
    isplitl [HT']; · iexact HT'
    isplitl [Hg0]; · iexact Hg0
    isplitl [Hw1]; · iexact Hw1
    isplitl [Hsc]; · iexact Hsc
    isplitl [Hg1]; · iexists _; iexists _; iexact Hg1
    isplitl [Hw0 H7 HOut]
    · iexists (sliceSet (k0_off9 L k) (k0_off9_inb L k)); isplitr
      · ipureintro; exact ⟨hs9 k, hd9 k⟩
      isplitl [Hw0 H7]
      · iexists _; iexists _
        isplitl [Hw0]; · iexact Hw0
        iexact H7
      iexists _; iexact HOut
    iexists _; isplitr
    rotate_left
    · iexact HO
    · ipureintro; repeat (first | exact hW' | apply waits_insert)
  -- after the last round: the last gather's wait, the last transpose, the last write-out, the two writes' waits
  iintro %_ HI
  unfold invMain
  icases HI with ⟨Hmw, H0, HI, ⟨%f1', H1⟩, ⟨%f3', H3⟩, ⟨%f5', H5⟩, ⟨%P4', %hP4', H4⟩, ⟨%f8', H8⟩, HT, HT', Hg0, Hw1, Hsc, ⟨%f6', %f2', Hg1⟩, ⟨%A, %hA, ⟨%fo, %f7', Hw0, H7⟩, ⟨%fr, HOut⟩⟩, %W', %hW', HO⟩
  sl_exec
  sl_for (invU d L b4 b6 b8 _ _) $$ [H4 Hg1_dst H8]
  rotate_left
  · unfold invU
    isplitl [H4]; · iexact H4
    isplitl [Hg1_dst]; · iexact Hg1_dst
    iexists _; iexact H8
  rotate_left
  · intro k acc
    sl_unfold_run_names
    exact trip_t5 d L _ _ hP4' _ _ _ _ _ _ _ _ _ _ _ _ _ _ _ _ _ _ rfl rfl rfl rfl rfl rfl rfl rfl rfl rfl rfl rfl rfl rfl rfl rfl rfl _ _ k acc
  iintro %_ HI
  unfold invU
  icases HI with ⟨H4, H6, %f8b, H8⟩
  have hsub : sliceSet (k0_off11 L) (k0_off11_inb L) ⊆ Sout \ A := Finset.subset_sdiff.mpr ⟨hs11, hA.2.symm⟩
  ihave Hc := (pointsTo_split_subset (ℓ := (outW).view.loc (thr d L)) (q := fullShare) hsub).1 $$ HOut
  icases Hc with ⟨HB, HOut⟩
  ihave HB := (Entails.of_eq (pts_slice d L (k0_off11 L) (k0_off11_inb L) _)) $$ HB
  sl_exec
  sl_step
  isplitl [HI]; · iexact HI
  isplitl [HT]; · iexact HT
  isplitl [HT']; · iexact HT'
  isplitl [HOut Hw0_dst HB]
  · -- the result's part is put back together: the last part, then the part of the last round's write-out
    ihave HB := (Entails.of_eq (pts_slice d L (k0_off11 L) (k0_off11_inb L) _).symm) $$ HB
    ihave HM1 := (pointsTo_join_subset (ℓ := (outW).view.loc (thr d L)) (q := fullShare) hsub) $$ [HB HOut]
    · isplitl [HB]; · iexact HB
      iexact HOut
    ihave HM2 := (pointsTo_join_subset (ℓ := (outW).view.loc (thr d L)) (q := fullShare) hA.1) $$ [Hw0_dst HM1]
    · isplitl [Hw0_dst]; · iexact Hw0_dst
      iexact HM1
    iexists _; iexact HM2
  isplitl [H0]; · iexists _; iexact H0
  isplitl [H1]; · iexists _; iexact H1
  isplitl [Hg1_dst_and]; · iexists _; iexact Hg1_dst_and
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [Hg0]; · iexact Hg0
  isplitl [Hg1]; · iexact Hg1
  isplitl [Hw0]; · iexact Hw0
  isplitl [Hw1]; · iexact Hw1
  isplitl [Hsc]; · iexact Hsc
  iexists _; isplitr
  rotate_left
  · iexact HO
  · ipureintro; repeat (first | exact hW' | apply waits_insert)

end Cert.Proof.KB

end
-- ==== Proof.KBFrames.lean ====
/-
  The kernel program's frame, assembled.

  The precondition says every row number is in [0, 999999]; the flattened row numbers are the same words in row-major
  order, so they are in range too. With that, one tile's task follows from its body, and the launch turns one tile's
  task into: every weakly fair execution of the device's threads terminates with the two arguments unchanged.
-/
import proofs.«206508_g82686710383178_cont_9to1c4b_561_19_alg».proof.Defs
import proofs.«206508_g82686710383178_cont_9to1c4b_561_19_alg».proof.Proof.RefPre
import proofs.«206508_g82686710383178_cont_9to1c4b_561_19_alg».proof.Proof.KBLaunch
import proofs.«206508_g82686710383178_cont_9to1c4b_561_19_alg».proof.Proof.KBTile
import proofs.«206508_g82686710383178_cont_9to1c4b_561_19_alg».proof.Proof.KBBody
import proofs.«206508_g82686710383178_cont_9to1c4b_561_19_alg».proof.Proof.Gen.Pre_input_domain

namespace Cert.Proof.KB

open Cert.Kernel Cert.Kernel.Gen

open Idealize.ShloMosaic

/-- Under the precondition the flattened row numbers are below a million. -/
theorem ids_flat_lt (m : (ℓ : Loc nD τ sig) → Buf (Elt Bits) ℓ) (h : Cert.Pre_Kernel m) :
    ∀ d j, (idsFlat m d j).toNat < 1000000 := by
  intro d j
  unfold idsFlat shapeCast
  exact Cert.Proof.RefSide.ids_in_range (F := Bits) _ _ (h d) _

/-- The frame of the kernel program at the word instance, from the tile's body. -/
theorem frame_Kernel_of (hcore : BodyCore (F := Bits)) : Cert.frame_Kernel :=
  fun m ρ hp => run_main (F := Bits) m ρ (tile_body_of m hcore (ids_flat_lt m hp))

/-- One tile's task, for every float instance, from the range of the flattened row numbers. -/
theorem tile_body {F : FTy → Type} [FloatOps F] (m : (ℓ : Loc nD τ sig) → Buf (Elt F) ℓ)
    (hpre : ∀ d j, (idsFlat m d j).toNat < 1000000) : TileBody m :=
  tile_body_of m (fun d L => body_core d L) hpre

/-- The frame of the kernel program: every weakly fair execution terminates, the two arguments unchanged. -/
theorem frame_Kernel : Cert.frame_Kernel :=
  frame_Kernel_of (fun d L => body_core d L)

end Cert.Proof.KB
-- ==== Proof.KIVal.lean ====
/-
  The value the kernel leaves, as one function, and the launch's interface at that value.

  The kernel's own result is the [50, 64, 16384] array with  out[h, f, b] = weight[ids[b, h], f] ; the host then
  transposes it to [16384, 50, 64], the lookup itself. A tile hands back its 512 columns of that array AT that function;
  a SparseCore its half; the call the whole.
-/
import proofs.«206508_g82686710383178_cont_9to1c4b_561_19_alg».proof.Proof.KISetup
import proofs.«206508_g82686710383178_cont_9to1c4b_561_19_alg».proof.Proof.Spec
import Idealize.ShloMosaic.Lib.Pipeline.Value

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable (m : (ℓ : Loc nD τ sig) → Buf (Elt F) ℓ)
variable [FloatOps F]

/-- What the kernel leaves in its [50, 64, 16384] result: entry (h, f, b) is entry f of the row that the row numbers
    name at (b, h). -/
def OUT (d : Dev nD) : Buf (Elt F) (outLoc d) :=
  fun j => Cert.Proof.Spec.lookup (m (a0Loc d)) (m (a1Loc d)) (ix3 (j 2) (j 0) (j 1))

/-- The host's transpose of that array is the lookup. -/
theorem transpose_OUT (d : Dev nD) :
    (transpose S16384x50x64 [2, 0, 1] (OUT m d) transposes_S50x64x16384_S16384x50x64_2_0_1 : S16384x50x64.Idx → Elt F .f32)
      = Cert.Proof.Spec.lookup (m (a0Loc d)) (m (a1Loc d)) := by
  funext j
  rw [Idealize.ShloMosaic.transpose_apply [2, 0, 1] (OUT m d) transposes_S50x64x16384_S16384x50x64_2_0_1 j (ix3 (j 1) (j 2) (j 0))
    (by intro b; match b with | ⟨0, _⟩ => rfl | ⟨1, _⟩ => rfl | ⟨2, _⟩ => rfl)]
  exact congrArg (Cert.Proof.Spec.lookup (m (a0Loc d)) (m (a1Loc d))) (eq_ix3 (n0 := 16384) (n1 := 50) (n2 := 64) j).symm

/-- What a tile hands back: its read shares, and its part of the result at the value. The same per SparseCore. -/
abbrev tdResV (d : Dev nD) (c i : ℕ) : sProp 𝕄 :=
  iprop(idsPts m d (qI c i) ∗ tblPts m d (qT c i) ∗ tblPts m d (qT' c i) ∗ outPts d (outSet c i) (OUT m d))
abbrev dnResV (d : Dev nD) (c : ℕ) : sProp 𝕄 :=
  iprop(idsPts m d (qC c) ∗ tblPts m d (qC c) ∗ outPts d (coreSet c) (OUT m d))

/-- What the handshakes carry, the result's parts coming back at the value. -/
def PV : (K (F := F)).Pay (nD := nD) (Val := Elt F) (Name := ℕ) (U := UU) where
  st := fun q d c => match q with | 0 => stRes m d c.val
  dn := fun q d c => match q with | 0 => dnResV m d c.val
  go := fun q d c i => match q with | 0 => goRes m d c.val i.val
  td := fun q d c i => match q with | 0 => tdResV m d c.val i.val
  x := fun _ _ => iprop(emp)

instance PV_storable : (PV (F := F) m).IsStorable where
  st q d c := match q with | 0 => (inferInstance : BI.Storable (upEmb : UEmb _ 𝕄) (stRes m d c.val))
  dn q d c := match q with | 0 => (inferInstance : BI.Storable (upEmb : UEmb _ 𝕄) (dnResV m d c.val))
  go q d c i := match q with | 0 => (inferInstance : BI.Storable (upEmb : UEmb _ 𝕄) (goRes m d c.val i.val))
  td q d c i := match q with | 0 => (inferInstance : BI.Storable (upEmb : UEmb _ 𝕄) (tdResV m d c.val i.val))

/-- One tile's task with its value: as the frame's, its part of the result handed back at the value. -/
def TileBodyV : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => iprop(tdResV m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KILaunchV.lean ====
/-
  The launch at the value: from one tile's task WITH its value to the whole program's run with its result.

  The shares and the parts go out and come back exactly as for the frame; what changes is that each tile hands its
  512 columns back at the one function `OUT`, so the sixteen tiles' parts are a SparseCore's half at that function, the
  two halves the whole array at that function, and the host's transpose of it is the lookup.
-/
import proofs.«206508_g82686710383178_cont_9to1c4b_561_19_alg».proof.Proof.KILaunch
import proofs.«206508_g82686710383178_cont_9to1c4b_561_19_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareDrop shareTok pointsTo_toks pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The launch theorem's obligation for the kernel, from one tile's task with its value. -/
theorem tileOblV (hb : TileBodyV m) : (K (F := F)).TileObl (D (F := F)) 𝒱 (PV m) v₀ 0 := by
  intro d c i O W hO _ _
  simp only [show (PV m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-- A SparseCore's operands split among its tiles; the tiles' parts of the result come back as its half, at the value. -/
theorem vecSplitV : (K (F := F)).VecSplit' (PV m) 0 := by
  intro d c
  have hc : c.val < 2 := c.isLt
  show stRes m d c.val ⊢ |={Set.univ}=> iprop(
      (bigSep Finset.univ fun i : Fin 16 => goRes m d c.val i.val)
      ∗ ((bigSep Finset.univ fun i : Fin 16 => tdResV m d c.val i.val) -∗ dnResV m d c.val))
  unfold stRes dnResV goRes tdResV
  rw [bigSep_sep', bigSep_sep', bigSep_sep', bigSep_sep', bigSep_sep', bigSep_sep', out_tiles d c.val hc (m (outLoc d)),
    out_tiles d c.val hc (OUT m d)]
  iintro ⟨Hi, Ht, Ho⟩
  ihave Hi' := (pointsTo_toks_split (qC c.val) 16) $$ Hi
  icases Hi' with ⟨HiR, HiT⟩
  ihave Ht' := (pointsTo_toks_split (qC c.val) 16) $$ Ht
  icases Ht' with ⟨HtR, HtT⟩
  ihave Hh := (halves_split (tbl m d) c.val) $$ HtT
  icases Hh with ⟨HtA, HtB⟩
  imodintro
  isplitl [HiT HtA HtB Ho]
  · isplitl [HiT]; · iexact HiT
    isplitl [HtA]; · iexact HtA
    isplitl [HtB]; · iexact HtB
    iexact Ho
  iintro ⟨Hi2, HtA2, HtB2, Ho2⟩
  isplitl [HiR Hi2]
  · iapply (pointsTo_toks_join (qC c.val) 16)
    isplitl [HiR]; · iexact HiR
    iexact Hi2
  isplitl [HtR HtA2 HtB2]
  · iapply (pointsTo_toks_join (qC c.val) 16)
    isplitl [HtR]; · iexact HtR
    iapply (halves_join (tbl m d) c.val)
    isplitl [HtA2]; · iexact HtA2
    iexact HtB2
  iexact Ho2

theorem hu₀V : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PV m).x q thr) := by
  unfold u₀
  iintro Hu
  ihave H := (ownU_pair _ _) $$ Hu
  icases H with ⟨HH, -⟩
  imodintro
  isplitl [HH]; · iexact HH
  isplitr; · rw [bigSep_emp']; iempintro
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem st0_splitV (d : Dev nD) : (bigSep Finset.univ fun c : Fin ((K (F := F)).nCore 0) => (PV m).st 0 d c)
    = iprop((bigSep Finset.univ fun c : Fin 2 => idsPts m d (qC c.val)) ∗ (bigSep Finset.univ fun c : Fin 2 => tblPts m d (qC c.val))
        ∗ bigSep Finset.univ fun c : Fin 2 => outPts d (coreSet c.val) (m (outLoc d))) := by
  show (bigSep Finset.univ fun c : Fin 2 => stRes m d c.val) = _
  unfold stRes; rw [bigSep_sep', bigSep_sep']
theorem dn0_splitV (d : Dev nD) : (bigSep Finset.univ fun c : Fin ((K (F := F)).nCore 0) => (PV m).dn 0 d c)
    = iprop((bigSep Finset.univ fun c : Fin 2 => idsPts m d (qC c.val)) ∗ (bigSep Finset.univ fun c : Fin 2 => tblPts m d (qC c.val))
        ∗ bigSep Finset.univ fun c : Fin 2 => outPts d (coreSet c.val) (OUT m d)) := by
  show (bigSep Finset.univ fun c : Fin 2 => dnResV m d c.val) = _
  unfold dnResV; rw [bigSep_sep', bigSep_sep']

/-- The transpose's two arrays after it: the kernel's result unchanged, the program's result its transpose. -/
theorem T_v2 (d : Dev nD) (f : Buf (Elt F) (outLoc d)) : (opT (F := F)).result (V3 m d f) v2' = f :=
  (StableHlo.unary_result_ne _ _ _ _ _ (V3 m d f) (show (main_v2 : Ref sig .tc) ≠ main_v3 by decide)).trans (by unfold V3; rw [Function.update_self])
theorem T_v3 (d : Dev nD) (f : Buf (Elt F) (outLoc d)) :
    (opT (F := F)).result (V3 m d f) v3' = (transpose S16384x50x64 [2, 0, 1] f transposes_S50x64x16384_S16384x50x64_2_0_1 : S16384x50x64.Idx → Elt F .f32) :=
  (StableHlo.unary_result main_v2 main_v3 _ _ _ (V3 m d f)).trans (by unfold V3; rw [Function.update_self])
theorem held_outT (d : Dev nD) (f : Buf (Elt F) (outLoc d)) :
    (held (T d) {v2', v3'} ((opT (F := F)).result (V3 m d f)) : sProp 𝕄)
      = iprop((outLoc d ↦{fullShare} f) ∗ resLoc d ↦{fullShare} (transpose S16384x50x64 [2, 0, 1] f transposes_S50x64x16384_S16384x50x64_2_0_1 : S16384x50x64.Idx → Elt F .f32)) := by
  rw [held_pair d main_v2 main_v3 (by decide), T_v2, T_v3]

/-- What @main leaves the claim: the two arguments at their launch contents and the result at the lookup. -/
abbrev FINV (d : Dev nD) : sProp 𝕄 :=
  iprop((a0Loc d ↦{fullShare} m (a0Loc d)) ∗ (a1Loc d ↦{fullShare} m (a1Loc d))
    ∗ resLoc d ↦{fullShare} (Cert.Proof.Spec.lookup (m (a0Loc d)) (m (a1Loc d)) : S16384x50x64.Idx → Elt F .f32))

/-- @main on device `d`'s TensorCore: the two reshapes, the call, the transpose; the arguments kept, the result the lookup. -/
theorem hmainV (κ : GSem nD τ sig → ℕ) (d : Dev nD) :
    iprop((K (F := F)).ctx EH (PV m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscopedBufs_eq]
  simp only [main, wp_bind, wp_pure]
  iintro ⟨#Hctx, Hst, ⟨Hb, ⟨Ha0, Ha1, Hv0, Hv1, Hv2, Hv3⟩, -, -⟩, -⟩
  iapply (wp_hlo_within 𝒱 (SparseCore.T d) none Set.univ (op := opR0) (S := {a0', v0'}) hR0 (V := V0 m d)) $$ [Hb Ha0 Hv0]
  · isplitl [Hb]; · iexact Hb
    rw [held_in0]
    isplitl [Ha0]; · iexact Ha0
    iexact Hv0
  iintro ⟨Hb, Hheld⟩
  ihave Hh := (Entails.of_eq (held_out0 m d)) $$ Hheld
  icases Hh with ⟨Ha0, Hv0⟩
  rw [wp_ret]; imodintro
  iapply (wp_hlo_within 𝒱 (SparseCore.T d) none Set.univ (op := opR1) (S := {a1', v1'}) hR1 (V := V0 m d)) $$ [Hb Ha1 Hv1]
  · isplitl [Hb]; · iexact Hb
    rw [held_in1]
    isplitl [Ha1]; · iexact Ha1
    iexact Hv1
  iintro ⟨Hb, Hheld⟩
  ihave Hh := (Entails.of_eq (held_out1 m d)) $$ Hheld
  icases Hh with ⟨Ha1, Hv1⟩
  rw [wp_ret]; imodintro
  ihave Hv0' := (pointsTo_toks_split fullShare 2) $$ Hv0
  icases Hv0' with ⟨-, Hv0T⟩
  ihave Hv1' := (pointsTo_toks_split fullShare 2) $$ Hv1
  icases Hv1' with ⟨-, Hv1T⟩
  ihave Hv2' := (Entails.of_eq (out_cores d (m (outLoc d)))) $$ Hv2
  iapply ((K (F := F)).wp_run (D (F := F)) 𝒱 (EH := EH) (P := PV m) κ d 0) $$ [Hst Hv0T Hv1T Hv2' Hb Ha0 Ha1 Hv3]
  isplitr; · iexact Hctx
  isplitl [Hst]; · iexact Hst
  isplitl [Hv0T Hv1T Hv2']
  · rw [st0_splitV]
    isplitl [Hv0T]; · iexact Hv0T
    isplitl [Hv1T]; · iexact Hv1T
    iexact Hv2'
  iintro ⟨Hst, Hdn⟩
  ihave Hdn' := (Entails.of_eq (dn0_splitV m d)) $$ Hdn
  icases Hdn' with ⟨-, -, Ho⟩
  ihave Hv2 := (Entails.of_eq (out_cores d (OUT m d)).symm) $$ Ho
  -- the transpose of the kernel's result
  iapply (wp_hlo_within 𝒱 (SparseCore.T d) none Set.univ (op := opT) (S := {v2', v3'}) hT (V := V3 m d (OUT m d))) $$ [Hb Hv2 Hv3]
  · isplitl [Hb]; · iexact Hb
    rw [held_inT]
    isplitl [Hv2]; · iexact Hv2
    iexact Hv3
  iintro ⟨Hb, Hheld⟩
  ihave Hh := (Entails.of_eq (held_outT m d (OUT m d))) $$ Hheld
  icases Hh with ⟨-, Hv3⟩
  rw [transpose_OUT]
  rw [wp_ret]; imodintro; imodintro
  isplitl [Hst]; · iexact Hst
  isplitl [Ha0]; · iexact Ha0
  isplitl [Ha1]; · iexact Ha1
  iexact Hv3

def fqV (d : Dev nD) (s' : Phys nD τ sig (Elt F)) : Prop :=
  s'.mem.mem (resLoc d) = (Cert.Proof.Spec.lookup (m (a0Loc d)) (m (a1Loc d)) : S16384x50x64.Idx → Elt F .f32)
    ∧ s'.mem.mem (a0Loc d) = m (a0Loc d) ∧ s'.mem.mem (a1Loc d) = m (a1Loc d)

theorem hfinV (d : Dev nD) (s' : Phys nD τ sig (Elt F)) : iprop(FINV m d ∗ SI s') ⊢ (⌜fqV m d s'⌝ : sProp 𝕄) := by
  iintro ⟨⟨Hi, Hx, Hr⟩, HSI⟩
  ihave H := (persistent_entails_right (SI_pointsTo_agree (st := s') (ℓ := a0Loc d) (I := Finset.univ) (q := fullShare) (f := m (a0Loc d)))) $$ [HSI Hi]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Hx]
  · isplitl [HSI] <;> iassumption
  icases H with ⟨%h2, HSI, -⟩
  ihave H := (SI_pointsTo_agree (st := s') (ℓ := resLoc d) (I := Finset.univ) (q := fullShare)
    (f := (Cert.Proof.Spec.lookup (m (a0Loc d)) (m (a1Loc d)) : S16384x50x64.Idx → Elt F .f32))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QCV : PUnit × MemSt nD τ sig (Elt F) → Prop := fun r => ∀ c : Dev nD,
  r.2.mem (resLoc c) = (Cert.Proof.Spec.lookup (m (a0Loc c)) (m (a1Loc c)) : S16384x50x64.Idx → Elt F .f32)
    ∧ r.2.mem (a0Loc c) = m (a0Loc c) ∧ r.2.mem (a1Loc c) = m (a1Loc c)

/-- From one tile's task with its value: every weakly fair execution of the device's threads terminates with the
    result at the lookup of the arguments, the arguments unchanged. -/
theorem run_main_val [∀ e, Nonempty (Elt F e)] (hb : TileBodyV m) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PV m) facts v₀
    (fun q hq => match q with | 0 => nomatch hq)
    (fun q _ => match q with | 0 => tileOblV m hb)
    (fun q _ => match q with | 0 => SparseCore.Cfg.VecSplit.of_plain (vecSplitV m))
    m ρ main (fun _ => iprop(emp)) (FINV m) (u₀ (F := F)) (sep_elim_left.trans (hu₀V m)) (hmainV m ρ) (fqV m) (hfinV m) (QCV m) (fun _ h => h)

end Cert.Proof.KI

end
-- ==== Proof.KIPosVal.lean ====
/-
  The position a lane reads in the staged row numbers, as a number.

  Lane x of the k-th chunk of group g reads the staged word at (x + 16 k) * 50 + (g / 50) * 6400 + g mod 50: row
  r = 16 k + x of the group's block of 128 batch entries, history position g mod 50, inside the block number g / 50 of
  the tile's four. None of the sums wraps around (the largest is 25599). Round k of the main loop stages groups
  2 k + 2 and 2 k + 3.
-/
import proofs.«206508_g82686710383178_cont_9to1c4b_561_19_alg».proof.Proof.KIPos

noncomputable section

namespace Cert.Proof.KI

open Cert.KernelIdeal Cert.KernelIdeal.Gen
open Idealize.ShloMosaic

/-- Lane `x` of a position vector (lane + c) * 50 + base, with c at most 112 and base at most 19249. -/
theorem pos_val (v2 : IVec S16 32) (hv2 : v2 = iota .scVector S16 32 [0] iota_S16_d0_w32_scVector) (c : BitVec 32) (hc : c.toNat ≤ 112)
    (base : BitVec 32) (hb : base.toNat ≤ 19249) (x : S16.Idx) :
    ((addi (muli (addi v2 (broadcast S16 c)) (broadcast S16 50#32)) (broadcast S16 base)) x).toNat
      = ((x 0).val + c.toNat) * 50 + base.toNat := by
  subst hv2
  show ((iota .scVector S16 32 [0] iota_S16_d0_w32_scVector x + c) * 50#32 + base).toNat = _
  have hx : (x 0).val < 16 := (x 0).isLt
  have hl : (iota .scVector S16 32 [0] iota_S16_d0_w32_scVector x).toNat = (x 0).val := by
    rw [iota_single_apply, BitVec.toNat_ofNat]
    exact Nat.mod_eq_of_lt (by omega)
  have e50 : (50#32 : BitVec 32).toNat = 50 := by decide
  rw [BitVec.toNat_add, BitVec.toNat_mul, BitVec.toNat_add, e50, hl]
  have h1 : ((x 0).val + c.toNat) % 2 ^ 32 = (x 0).val + c.toNat := Nat.mod_eq_of_lt (by omega)
  rw [h1]
  have h2 : ((x 0).val + c.toNat) * 50 % 2 ^ 32 = ((x 0).val + c.toNat) * 50 := Nat.mod_eq_of_lt (by omega)
  rw [h2]
  exact Nat.mod_eq_of_lt (by omega)

/-- The base of group `n`: the block number times 6400 plus the history position. -/
theorem baseG_val_small : ∀ n : Fin 200,
    (Scalar.addi (Scalar.muli (Scalar.divsi (BitVec.ofNat 32 n.val) 50#32) 6400#32) (Scalar.remsi (BitVec.ofNat 32 n.val) 50#32)).toNat
      = n.val / 50 * 6400 + n.val % 50 := by
  decide +kernel
theorem baseG_val (g : BitVec 32) (hg : g.toNat ≤ 199) :
    (Scalar.addi (Scalar.muli (Scalar.divsi g 50#32) 6400#32) (Scalar.remsi g 50#32)).toNat = g.toNat / 50 * 6400 + g.toNat % 50 := by
  have e : BitVec.ofNat 32 g.toNat = g := by
    apply BitVec.eq_of_toNat_eq
    rw [BitVec.toNat_ofNat]
    have := g.isLt
    omega
  have h := baseG_val_small ⟨g.toNat, by omega⟩
  rwa [e] at h

/-- The two groups staged in round `k` of the main loop. -/
theorem gE_val : ∀ k : Fin k0_t2_loop.trips, (Scalar.muli 2#32 (Scf.iv 1#32 1#32 k.val)).toNat = 2 * k.val + 2 := by decide +kernel
theorem gO_val : ∀ k : Fin k0_t2_loop.trips, (Scalar.addi (Scalar.muli 2#32 (Scf.iv 1#32 1#32 k.val)) 1#32).toNat = 2 * k.val + 3 := by decide +kernel

end Cert.Proof.KI

end
-- ==== Proof.KIFactsV.lean ====
/-
  The exact words a slot's row list and parity scratch hold, and the staged words, as numbers.

  Group g (below 200) of a tile is block g / 50 of the tile's four blocks of 128 batch entries, history position
  g mod 50. Its r-th row number is the staged word at (g / 50) * 6400 + r * 50 + g mod 50; the row list holds it
  halved, the parity scratch holds its parity times 64 at (r / 16, r mod 16). The staged word j of tile (c, s) is the
  flattened row number at (2 s + c) * 25600 + j.
-/
import proofs.«206508_g82686710383178_cont_9to1c4b_561_19_alg».proof.Proof.KIFacts
import proofs.«206508_g82686710383178_cont_9to1c4b_561_19_alg».proof.Proof.KIPosVal
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable [FloatOps F] (d : Dev nD) (c : Fin τ.nSC) (i : Fin τ.nSub)

/-- Where the r-th row number of group g sits among the staged words. -/
theorem stPos_lt (g : ℕ) (hg : g < 200) (r : Fin 128) : g / 50 * 6400 + r.val * 50 + g % 50 < 25600 := by
  have := r.isLt; omega
abbrev stIdx (g : ℕ) (hg : g < 200) (r : Fin 128) : S25600.Idx := ix1 ⟨g / 50 * 6400 + r.val * 50 + g % 50, stPos_lt g hg r⟩

/-- The staged word a lane of a position vector reads, as that index. -/
theorem idxAt_pos (g : ℕ) (hg : g < 200) (o : ℕ) (ho : o + 16 ≤ 128) (base : BitVec 32) (hb : base.toNat = g / 50 * 6400 + g % 50)
    (h : ∀ a x, ((![addi (muli (addi (iota .scVector S16 32 [0] iota_S16_d0_w32_scVector) (broadcast S16 (BitVec.ofNat 32 o))) (broadcast S16 50#32)) (broadcast S16 base)] : Fin 1 → IVec S16 32) a x).toNat < S25600.size a)
    (x : S16.Idx) :
    idxAt ![addi (muli (addi (iota .scVector S16 32 [0] iota_S16_d0_w32_scVector) (broadcast S16 (BitVec.ofNat 32 o))) (broadcast S16 50#32)) (broadcast S16 base)] h x
      = stIdx g hg ⟨o + (x 0).val, by have hx : (x 0).val < 16 := (x 0).isLt; omega⟩ := by
  funext a
  obtain rfl : a = 0 := Subsingleton.elim _ _
  apply Fin.ext
  show ((addi (muli (addi (iota .scVector S16 32 [0] iota_S16_d0_w32_scVector) (broadcast S16 (BitVec.ofNat 32 o))) (broadcast S16 50#32)) (broadcast S16 base)) x).toNat
    = g / 50 * 6400 + (o + (x 0).val) * 50 + g % 50
  have ho' : (BitVec.ofNat 32 o).toNat = o := by rw [BitVec.toNat_ofNat]; exact Nat.mod_eq_of_lt (by omega)
  rw [pos_val _ rfl (BitVec.ofNat 32 o) (by rw [ho']; omega) base (by rw [hb]; omega) x, ho', hb]
  have hx : (x 0).val < 16 := (x 0).isLt
  omega

/-- The row list of group g, exactly. -/
def QVal (bq : Memref sig .scVector .vmem S128 .i32) (S0 : Buf (Elt F) ((b0).view.loc (V d c i))) (g : ℕ) (hg : g < 200)
    (Q : Buf (Elt F) ((bq).view.loc (V d c i))) : Prop :=
  ∀ r : Fin 128, (bq).view.read (Elt F) Q (ix1 r) = IntOp.shrui .vector (S0 (stIdx g hg r)) 1#32

theorem q_introV (bq : Memref sig .scVector .vmem S128 .i32) (S0 : Buf (Elt F) ((b0).view.loc (V d c i))) (hS0 : StageOK d c i S0)
    (g : ℕ) (hg : g < 200) (base : BitVec 32) (hb : base.toNat = g / 50 * 6400 + g % 50)
    (g0 : Buf (Elt F) ((bq).view.loc (V d c i)))
    (h0 : ∀ a x, ((![addi (muli (addi (iota .scVector S16 32 [0] iota_S16_d0_w32_scVector) (broadcast S16 0#32)) (broadcast S16 50#32)) (broadcast S16 base)] : Fin 1 → IVec S16 32) a x).toNat < S25600.size a)
    (h16 : ∀ a x, ((![addi (muli (addi (iota .scVector S16 32 [0] iota_S16_d0_w32_scVector) (broadcast S16 16#32)) (broadcast S16 50#32)) (broadcast S16 base)] : Fin 1 → IVec S16 32) a x).toNat < S25600.size a)
    (h32 : ∀ a x, ((![addi (muli (addi (iota .scVector S16 32 [0] iota_S16_d0_w32_scVector) (broadcast S16 32#32)) (broadcast S16 50#32)) (broadcast S16 base)] : Fin 1 → IVec S16 32) a x).toNat < S25600.size a)
    (h48 : ∀ a x, ((![addi (muli (addi (iota .scVector S16 32 [0] iota_S16_d0_w32_scVector) (broadcast S16 48#32)) (broadcast S16 50#32)) (broadcast S16 base)] : Fin 1 → IVec S16 32) a x).toNat < S25600.size a)
    (h64 : ∀ a x, ((![addi (muli (addi (iota .scVector S16 32 [0] iota_S16_d0_w32_scVector) (broadcast S16 64#32)) (broadcast S16 50#32)) (broadcast S16 base)] : Fin 1 → IVec S16 32) a x).toNat < S25600.size a)
    (h80 : ∀ a x, ((![addi (muli (addi (iota .scVector S16 32 [0] iota_S16_d0_w32_scVector) (broadcast S16 80#32)) (broadcast S16 50#32)) (broadcast S16 base)] : Fin 1 → IVec S16 32) a x).toNat < S25600.size a)
    (h96 : ∀ a x, ((![addi (muli (addi (iota .scVector S16 32 [0] iota_S16_d0_w32_scVector) (broadcast S16 96#32)) (broadcast S16 50#32)) (broadcast S16 base)] : Fin 1 → IVec S16 32) a x).toNat < S25600.size a)
    (h112 : ∀ a x, ((![addi (muli (addi (iota .scVector S16 32 [0] iota_S16_d0_w32_scVector) (broadcast S16 112#32)) (broadcast S16 50#32)) (broadcast S16 base)] : Fin 1 → IVec S16 32) a x).toNat < S25600.size a) :
    ((bq).view.loc (V d c i) ↦{fullShare} (bq).view.writes (Elt F) g0
      [⟨Rect.unit (s := S128) ![112] S16.size inb_S128_S16_112, shrui (loadIdx (View.readAt (Elt F) (b0).view (LoadRect.whole S25600) S0) ![addi (muli (addi (iota .scVector S16 32 [0] iota_S16_d0_w32_scVector) (broadcast S16 112#32)) (broadcast S16 50#32)) (broadcast S16 base)] h112) (broadcast S16 1#32)⟩,
        ⟨Rect.unit (s := S128) ![96] S16.size inb_S128_S16_96, shrui (loadIdx (View.readAt (Elt F) (b0).view (LoadRect.whole S25600) S0) ![addi (muli (addi (iota .scVector S16 32 [0] iota_S16_d0_w32_scVector) (broadcast S16 96#32)) (broadcast S16 50#32)) (broadcast S16 base)] h96) (broadcast S16 1#32)⟩,
        ⟨Rect.unit (s := S128) ![80] S16.size inb_S128_S16_80, shrui (loadIdx (View.readAt (Elt F) (b0).view (LoadRect.whole S25600) S0) ![addi (muli (addi (iota .scVector S16 32 [0] iota_S16_d0_w32_scVector) (broadcast S16 80#32)) (broadcast S16 50#32)) (broadcast S16 base)] h80) (broadcast S16 1#32)⟩,
        ⟨Rect.unit (s := S128) ![64] S16.size inb_S128_S16_64, shrui (loadIdx (View.readAt (Elt F) (b0).view (LoadRect.whole S25600) S0) ![addi (muli (addi (iota .scVector S16 32 [0] iota_S16_d0_w32_scVector) (broadcast S16 64#32)) (broadcast S16 50#32)) (broadcast S16 base)] h64) (broadcast S16 1#32)⟩,
        ⟨Rect.unit (s := S128) ![48] S16.size inb_S128_S16_48, shrui (loadIdx (View.readAt (Elt F) (b0).view (LoadRect.whole S25600) S0) ![addi (muli (addi (iota .scVector S16 32 [0] iota_S16_d0_w32_scVector) (broadcast S16 48#32)) (broadcast S16 50#32)) (broadcast S16 base)] h48) (broadcast S16 1#32)⟩,
        ⟨Rect.unit (s := S128) ![32] S16.size inb_S128_S16_32, shrui (loadIdx (View.readAt (Elt F) (b0).view (LoadRect.whole S25600) S0) ![addi (muli (addi (iota .scVector S16 32 [0] iota_S16_d0_w32_scVector) (broadcast S16 32#32)) (broadcast S16 50#32)) (broadcast S16 base)] h32) (broadcast S16 1#32)⟩,
        ⟨Rect.unit (s := S128) ![16] S16.size inb_S128_S16_16, shrui (loadIdx (View.readAt (Elt F) (b0).view (LoadRect.whole S25600) S0) ![addi (muli (addi (iota .scVector S16 32 [0] iota_S16_d0_w32_scVector) (broadcast S16 16#32)) (broadcast S16 50#32)) (broadcast S16 base)] h16) (broadcast S16 1#32)⟩,
        ⟨Rect.unit (s := S128) ![0] S16.size inb_S128_S16_0, shrui (loadIdx (View.readAt (Elt F) (b0).view (LoadRect.whole S25600) S0) ![addi (muli (addi (iota .scVector S16 32 [0] iota_S16_d0_w32_scVector) (broadcast S16 0#32)) (broadcast S16 50#32)) (broadcast S16 base)] h0) (broadcast S16 1#32)⟩] : sProp 𝕄)
      ⊢ iprop(∃ Q, ⌜QOK d c i bq Q ∧ QVal d c i bq S0 g hg Q⌝ ∗ (bq).view.loc (V d c i) ↦{fullShare} Q) := by
  iintro H
  iexists _
  isplitr
  rotate_left
  · iexact H
  · ipureintro
    constructor
    · intro j
      refine read_writes_forall (bq).view g0 (fun w : Elt F .i32 => w.toNat < S500000x128.size 0) _ ?hQ j ?hc
      case hc => exact View.cover_of_tiled _ ![16] (by rfl) j
      intro p hp x
      simp only [List.mem_cons, List.mem_nil_iff, _root_.or_false] at hp
      rcases hp with rfl | rfl | rfl | rfl | rfl | rfl | rfl | rfl <;> exact q_word d c i S0 hS0 _ _ x
    · intro r
      have e : View.readAt (Elt F) (b0).view (LoadRect.whole S25600) S0 = S0 := Memref.readAt_whole (Elt F) cc0_scratch0 S0
      rw [e]
      refine View.read_writes_apply_of_pieces (bq).view g0
        (fun y : S128.Idx => IntOp.shrui .vector (S0 (stIdx g hg ⟨(y 0).val, (y 0).isLt⟩)) 1#32) _ ?hG (ix1 r) ?hc
      case hc => exact View.cover_of_tiled _ ![16] (by rfl) (ix1 r)
      intro p hp x
      simp only [List.mem_cons, List.mem_nil_iff, _root_.or_false] at hp
      rcases hp with rfl | rfl | rfl | rfl | rfl | rfl | rfl | rfl
      · refine (congrArg (fun z => IntOp.shrui .vector (S0 z) 1#32) (idxAt_pos g hg 112 (by decide) base hb h112 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 96 (by decide) base hb h96 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 80 (by decide) base hb h80 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 64 (by decide) base hb h64 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 48 (by decide) base hb h48 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 32 (by decide) base hb h32 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 16 (by decide) base hb h16 x)).trans ?_
        refine congrArg (fun z => IntOp.shrui .vector (S0 (stIdx g hg z)) 1#32) (Fin.ext ?_)
        simp [Rect.emb_apply]
      · refine (congrArg (fun z => IntOp.shrui .vector (S0 z) 1#32) (idxAt_pos g hg 0 (by decide) base hb h0 x)).trans ?_
        refine congrArg (fun z => IntOp.shrui .vector (S0 (stIdx g hg z)) 1#32) (Fin.ext ?_)
        simp [Rect.emb_apply]

/-- The parity scratch of group g, exactly. -/
def PVal (bp : Memref sig .scVector .vmem S8x16 .i32) (S0 : Buf (Elt F) ((b0).view.loc (V d c i))) (g : ℕ) (hg : g < 200)
    (P : Buf (Elt F) ((bp).view.loc (V d c i))) : Prop :=
  ∀ r : Fin 128, (bp).view.read (Elt F) P (ix2 ⟨r.val / 16, by have := r.isLt; omega⟩ ⟨r.val % 16, Nat.mod_lt _ (by decide)⟩)
    = IntOp.muli (IntOp.andi (S0 (stIdx g hg r)) 1#32) 64#32

theorem par_introV (bp : Memref sig .scVector .vmem S8x16 .i32) (S0 : Buf (Elt F) ((b0).view.loc (V d c i)))
    (g : ℕ) (hg : g < 200) (base : BitVec 32) (hb : base.toNat = g / 50 * 6400 + g % 50)
    (g0 : Buf (Elt F) ((bp).view.loc (V d c i)))
    (h0 : ∀ a x, ((![addi (muli (addi (iota .scVector S16 32 [0] iota_S16_d0_w32_scVector) (broadcast S16 0#32)) (broadcast S16 50#32)) (broadcast S16 base)] : Fin 1 → IVec S16 32) a x).toNat < S25600.size a)
    (h16 : ∀ a x, ((![addi (muli (addi (iota .scVector S16 32 [0] iota_S16_d0_w32_scVector) (broadcast S16 16#32)) (broadcast S16 50#32)) (broadcast S16 base)] : Fin 1 → IVec S16 32) a x).toNat < S25600.size a)
    (h32 : ∀ a x, ((![addi (muli (addi (iota .scVector S16 32 [0] iota_S16_d0_w32_scVector) (broadcast S16 32#32)) (broadcast S16 50#32)) (broadcast S16 base)] : Fin 1 → IVec S16 32) a x).toNat < S25600.size a)
    (h48 : ∀ a x, ((![addi (muli (addi (iota .scVector S16 32 [0] iota_S16_d0_w32_scVector) (broadcast S16 48#32)) (broadcast S16 50#32)) (broadcast S16 base)] : Fin 1 → IVec S16 32) a x).toNat < S25600.size a)
    (h64 : ∀ a x, ((![addi (muli (addi (iota .scVector S16 32 [0] iota_S16_d0_w32_scVector) (broadcast S16 64#32)) (broadcast S16 50#32)) (broadcast S16 base)] : Fin 1 → IVec S16 32) a x).toNat < S25600.size a)
    (h80 : ∀ a x, ((![addi (muli (addi (iota .scVector S16 32 [0] iota_S16_d0_w32_scVector) (broadcast S16 80#32)) (broadcast S16 50#32)) (broadcast S16 base)] : Fin 1 → IVec S16 32) a x).toNat < S25600.size a)
    (h96 : ∀ a x, ((![addi (muli (addi (iota .scVector S16 32 [0] iota_S16_d0_w32_scVector) (broadcast S16 96#32)) (broadcast S16 50#32)) (broadcast S16 base)] : Fin 1 → IVec S16 32) a x).toNat < S25600.size a)
    (h112 : ∀ a x, ((![addi (muli (addi (iota .scVector S16 32 [0] iota_S16_d0_w32_scVector) (broadcast S16 112#32)) (broadcast S16 50#32)) (broadcast S16 base)] : Fin 1 → IVec S16 32) a x).toNat < S25600.size a) :
    ((bp).view.loc (V d c i) ↦{fullShare} (bp).view.writes (Elt F) g0
      [⟨Rect.unit (s := S8x16) ![7, 0] S1x16.size inb_S8x16_S1x16_7_0, shapeCast S1x16 (muli (andi (loadIdx (View.readAt (Elt F) (b0).view (LoadRect.whole S25600) S0) ![addi (muli (addi (iota .scVector S16 32 [0] iota_S16_d0_w32_scVector) (broadcast S16 112#32)) (broadcast S16 50#32)) (broadcast S16 base)] h112) (broadcast S16 1#32)) (broadcast S16 64#32)) shapeCasts_S16_S1x16⟩,
        ⟨Rect.unit (s := S8x16) ![6, 0] S1x16.size inb_S8x16_S1x16_6_0, shapeCast S1x16 (muli (andi (loadIdx (View.readAt (Elt F) (b0).view (LoadRect.whole S25600) S0) ![addi (muli (addi (iota .scVector S16 32 [0] iota_S16_d0_w32_scVector) (broadcast S16 96#32)) (broadcast S16 50#32)) (broadcast S16 base)] h96) (broadcast S16 1#32)) (broadcast S16 64#32)) shapeCasts_S16_S1x16⟩,
        ⟨Rect.unit (s := S8x16) ![5, 0] S1x16.size inb_S8x16_S1x16_5_0, shapeCast S1x16 (muli (andi (loadIdx (View.readAt (Elt F) (b0).view (LoadRect.whole S25600) S0) ![addi (muli (addi (iota .scVector S16 32 [0] iota_S16_d0_w32_scVector) (broadcast S16 80#32)) (broadcast S16 50#32)) (broadcast S16 base)] h80) (broadcast S16 1#32)) (broadcast S16 64#32)) shapeCasts_S16_S1x16⟩,
        ⟨Rect.unit (s := S8x16) ![4, 0] S1x16.size inb_S8x16_S1x16_4_0, shapeCast S1x16 (muli (andi (loadIdx (View.readAt (Elt F) (b0).view (LoadRect.whole S25600) S0) ![addi (muli (addi (iota .scVector S16 32 [0] iota_S16_d0_w32_scVector) (broadcast S16 64#32)) (broadcast S16 50#32)) (broadcast S16 base)] h64) (broadcast S16 1#32)) (broadcast S16 64#32)) shapeCasts_S16_S1x16⟩,
        ⟨Rect.unit (s := S8x16) ![3, 0] S1x16.size inb_S8x16_S1x16_3_0, shapeCast S1x16 (muli (andi (loadIdx (View.readAt (Elt F) (b0).view (LoadRect.whole S25600) S0) ![addi (muli (addi (iota .scVector S16 32 [0] iota_S16_d0_w32_scVector) (broadcast S16 48#32)) (broadcast S16 50#32)) (broadcast S16 base)] h48) (broadcast S16 1#32)) (broadcast S16 64#32)) shapeCasts_S16_S1x16⟩,
        ⟨Rect.unit (s := S8x16) ![2, 0] S1x16.size inb_S8x16_S1x16_2_0, shapeCast S1x16 (muli (andi (loadIdx (View.readAt (Elt F) (b0).view (LoadRect.whole S25600) S0) ![addi (muli (addi (iota .scVector S16 32 [0] iota_S16_d0_w32_scVector) (broadcast S16 32#32)) (broadcast S16 50#32)) (broadcast S16 base)] h32) (broadcast S16 1#32)) (broadcast S16 64#32)) shapeCasts_S16_S1x16⟩,
        ⟨Rect.unit (s := S8x16) ![1, 0] S1x16.size inb_S8x16_S1x16_1_0, shapeCast S1x16 (muli (andi (loadIdx (View.readAt (Elt F) (b0).view (LoadRect.whole S25600) S0) ![addi (muli (addi (iota .scVector S16 32 [0] iota_S16_d0_w32_scVector) (broadcast S16 16#32)) (broadcast S16 50#32)) (broadcast S16 base)] h16) (broadcast S16 1#32)) (broadcast S16 64#32)) shapeCasts_S16_S1x16⟩,
        ⟨Rect.unit (s := S8x16) ![0, 0] S1x16.size inb_S8x16_S1x16_0_0, shapeCast S1x16 (muli (andi (loadIdx (View.readAt (Elt F) (b0).view (LoadRect.whole S25600) S0) ![addi (muli (addi (iota .scVector S16 32 [0] iota_S16_d0_w32_scVector) (broadcast S16 0#32)) (broadcast S16 50#32)) (broadcast S16 base)] h0) (broadcast S16 1#32)) (broadcast S16 64#32)) shapeCasts_S16_S1x16⟩] : sProp 𝕄)
      ⊢ iprop(∃ P, ⌜ParOK d c i bp P ∧ PVal d c i bp S0 g hg P⌝ ∗ (bp).view.loc (V d c i) ↦{fullShare} P) := by
  iintro H
  iexists _
  isplitr
  rotate_left
  · iexact H
  · ipureintro
    constructor
    · intro j
      refine read_writes_forall (bp).view g0 (fun w : Elt F .i32 => w.toNat = 0 ∨ w.toNat = 64) _ ?hQ j ?hc
      case hc => exact View.cover_of_tiled _ ![1, 16] (by rfl) j
      intro p hp x
      simp only [List.mem_cons, List.mem_nil_iff, _root_.or_false] at hp
      rcases hp with rfl | rfl | rfl | rfl | rfl | rfl | rfl | rfl <;> exact p_word d c i S0 _ _ _
    · intro r
      have e : View.readAt (Elt F) (b0).view (LoadRect.whole S25600) S0 = S0 := Memref.readAt_whole (Elt F) cc0_scratch0 S0
      rw [e]
      have hr := r.isLt
      refine (View.read_writes_apply_of_pieces (bp).view g0
        (fun y : S8x16.Idx => IntOp.muli (IntOp.andi (S0 (stIdx g hg ⟨(y 0).val * 16 + (y 1).val,
          by have h0 : (y 0).val < 8 := (y 0).isLt; have h1 : (y 1).val < 16 := (y 1).isLt; omega⟩)) 1#32) 64#32) _ ?hG
        (ix2 ⟨r.val / 16, by omega⟩ ⟨r.val % 16, Nat.mod_lt _ (by decide)⟩) ?hc).trans ?_
      case hc => exact View.cover_of_tiled _ ![1, 16] (by rfl) _
      case hG =>
        intro p hp x
        simp only [List.mem_cons, List.mem_nil_iff, _root_.or_false] at hp
        rcases hp with rfl | rfl | rfl | rfl | rfl | rfl | rfl | rfl <;> dsimp only
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 112 (by decide) base hb h112 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 96 (by decide) base hb h96 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 80 (by decide) base hb h80 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 64 (by decide) base hb h64 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 48 (by decide) base hb h48 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 32 (by decide) base hb h32 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 16 (by decide) base hb h16 (ix1 ⟨(x 1).val, hx1⟩))).trans ?_
          refine congrArg (fun z => IntOp.muli (IntOp.andi (S0 (stIdx g hg z)) 1#32) 64#32) (Fin.ext ?_)
          simp [Rect.emb_apply, hx0]
        · have hx0 : (x 0).val = 0 := by have h1 : (x 0).val < 1 := (x 0).isLt; omega
          have hx1 : (x 1).val < 16 := (x 1).isLt
          refine (shapeCast_apply _ shapeCasts_S16_S1x16 x (ix1 ⟨(x 1).val, hx1⟩) ?_).trans ?_
          · refine (Shape.rowMajor_val_one (d := ![16]) (ix1 ⟨(x 1).val, hx1⟩)).trans ?_
            refine Eq.trans ?_ (Shape.rowMajor_val_two (d := ![1, 16]) x).symm
            show (x 1).val = (x 0).val * 16 + (x 1).val
            omega
          refine (congrArg (fun z => IntOp.muli (IntOp.andi (S0 z) 1#32) 64#32) (idxAt_pos g hg 0 (by decide) base hb h0 (ix1 ⟨(x 1).val, hx1⟩))).trans ?_
          refine congrArg (fun z => IntOp.muli (IntOp.andi (S0 (stIdx g hg z)) 1#32) 64#32) (Fin.ext ?_)
          simp [Rect.emb_apply, hx0]
      · refine congrArg (fun z => IntOp.muli (IntOp.andi (S0 (stIdx g hg z)) 1#32) 64#32) (Fin.ext ?_)
        show r.val / 16 * 16 + r.val % 16 = r.val
        omega

/-- The staged words of tile (c, s), exactly: a slice of the flattened row numbers. -/
theorem stOff_lt (L : grid0.Coords) (j : Fin 25600) : 51200 * (L 1).val + 25600 * (L 0).val + j.val < 819200 := by
  have h0 : (L 0).val < 2 := (L 0).isLt
  have h1 : (L 1).val < 16 := (L 1).isLt
  have := j.isLt
  omega
def StageVal (L : grid0.Coords) (fI : Buf (Elt F) ((idsW).view.loc (V d c i))) (S0 : Buf (Elt F) ((b0).view.loc (V d c i))) : Prop :=
  ∀ j : Fin 25600, S0 (ix1 j) = fI (ix1 ⟨51200 * (L 1).val + 25600 * (L 0).val + j.val, stOff_lt L j⟩)

theorem stage_introV (L : grid0.Coords) (f0 : Buf (Elt F) ((b0).view.loc (V d c i))) (fI : Buf (Elt F) ((idsW).view.loc (V d c i)))
    (hI : ∀ j, (fI j).toNat < 1000000) :
    ((b0).view.loc (V d c i) ↦{fullShare} View.write (Elt F) (b0).view f0
        (ReadAs.same.apply (View.read (Elt F) ((idsW).slice (Rect.unit (s := S819200) (k0_off1 L) S25600.size (k0_off1_inb L)) (fun _ => rfl)).view fI)) Finset.univ : sProp 𝕄)
      ⊢ iprop(∃ S0, ⌜StageOK d c i S0 ∧ StageVal d c i L fI S0⌝ ∗ (b0).view.loc (V d c i) ↦{fullShare} S0) := by
  iintro H
  iexists _
  isplitr
  rotate_left
  · iexact H
  · ipureintro
    constructor
    · intro j
      show ((View.whole cc0_scratch0).write (Elt F) f0
        (View.read (Elt F) ((idsW).slice (Rect.unit (s := S819200) (k0_off1 L) S25600.size (k0_off1_inb L)) (fun _ => rfl)).view fI) Finset.univ j).toNat < 1000000
      rw [View.write_whole_univ, View.read_apply]
      exact hI _
    · intro j
      show ((View.whole cc0_scratch0).write (Elt F) f0
        (View.read (Elt F) ((idsW).slice (Rect.unit (s := S819200) (k0_off1 L) S25600.size (k0_off1_inb L)) (fun _ => rfl)).view fI) Finset.univ (ix1 j)) = _
      rw [View.write_whole_univ, View.read_apply]
      refine (cast_eq _ _).trans (congrArg fI ?_)
      funext a
      rcases a with ⟨a, ha⟩
      have ha0 : a = 0 := by have h1 : a < 1 := ha; omega
      subst ha0
      apply Fin.ext
      show (k0_off1 L) 0 + 1 * j.val = 51200 * (L 1).val + 25600 * (L 0).val + j.val
      rw [k0_off1_eq]
      show 51200 * (L 1).val + 25600 * (L 0).val + 1 * j.val = _
      omega

end Cert.Proof.KI

end
-- ==== Proof.KIValArith.lean ====
/-
  The two re-laid arrays read at an index, and the kernel's result read through them.

  Flattening the [16384, 50] row numbers puts (b, h) at position b * 50 + h. Pairing the rows of the [1000000, 64]
  table puts row r's entry f at row r / 2, column (r % 2) * 64 + f, since (r / 2) * 128 + (r % 2) * 64 + f = r * 64 + f.
  So the result's entry (h, f, b), entry f of the row numbered id = ids[b, h], is the paired table at
  (id / 2, (id % 2) * 64 + f) with id read from the flattened row numbers at b * 50 + h: what the kernel's body sees.
-/
import proofs.«206508_g82686710383178_cont_9to1c4b_561_19_alg».proof.Proof.KIVal
import Idealize.ShloMosaic.Lib.SparseCore.Stream

noncomputable section

namespace Cert.Proof.KI

open Cert.KernelIdeal Cert.KernelIdeal.Gen
open Idealize.ShloMosaic Idealize.ShloMosaic.ValueIdx

variable {F : FTy → Type}
variable (m : (ℓ : Loc nD τ sig) → Buf (Elt F) ℓ)
variable [FloatOps F]

/-- The flattened row numbers at `b * 50 + h` are the row numbers at `(b, h)`. -/
theorem idsFlat_apply (d : Dev nD) (b : Fin 16384) (h : Fin 50) (hlt : b.val * 50 + h.val < 819200) :
    idsFlat m d (ix1 ⟨b.val * 50 + h.val, hlt⟩) = m (a0Loc d) (ix2 b h) := by
  unfold idsFlat
  refine shapeCast_apply _ _ _ _ ?_
  refine (Shape.rowMajor_val_two (d := ![16384, 50]) (ix2 b h)).trans ?_
  refine Eq.trans ?_ (Shape.rowMajor_val_one (d := ![819200]) (ix1 ⟨b.val * 50 + h.val, hlt⟩)).symm
  rfl

/-- The paired table at row `r / 2`, column `(r % 2) * 64 + f`, is the table's row `r` at `f`. -/
theorem tbl_apply (d : Dev nD) (r : Fin 1000000) (f : Fin 64) (h1 : r.val / 2 < 500000) (h2 : r.val % 2 * 64 + f.val < 128) :
    tbl m d (ix2 ⟨r.val / 2, h1⟩ ⟨r.val % 2 * 64 + f.val, h2⟩) = m (a1Loc d) (ix2 r f) := by
  unfold tbl
  refine shapeCast_apply _ _ _ _ ?_
  refine (Shape.rowMajor_val_two (d := ![1000000, 64]) (ix2 r f)).trans ?_
  refine Eq.trans ?_ (Shape.rowMajor_val_two (d := ![500000, 128]) (ix2 ⟨r.val / 2, h1⟩ ⟨r.val % 2 * 64 + f.val, h2⟩)).symm
  show r.val * 64 + f.val = r.val / 2 * 128 + (r.val % 2 * 64 + f.val)
  omega

/-- The kernel's result at `(h, f, b)`, read through the flattened row numbers and the paired table. -/
theorem OUT_flat (d : Dev nD) (h : Fin 50) (f : Fin 64) (b : Fin 16384) (hlt : b.val * 50 + h.val < 819200)
    (hr : (idsFlat m d (ix1 ⟨b.val * 50 + h.val, hlt⟩)).toNat < 1000000)
    (h1 : (idsFlat m d (ix1 ⟨b.val * 50 + h.val, hlt⟩)).toNat / 2 < 500000)
    (h2 : (idsFlat m d (ix1 ⟨b.val * 50 + h.val, hlt⟩)).toNat % 2 * 64 + f.val < 128) :
    OUT m d (ix3 h f b)
      = tbl m d (ix2 ⟨(idsFlat m d (ix1 ⟨b.val * 50 + h.val, hlt⟩)).toNat / 2, h1⟩
          ⟨(idsFlat m d (ix1 ⟨b.val * 50 + h.val, hlt⟩)).toNat % 2 * 64 + f.val, h2⟩) := by
  rw [tbl_apply m d ⟨(idsFlat m d (ix1 ⟨b.val * 50 + h.val, hlt⟩)).toNat, hr⟩ f h1 h2]
  show Cert.Proof.Spec.lookup (m (a0Loc d)) (m (a1Loc d)) (ix3 b h f) = _
  rw [Cert.Proof.Spec.lookup_apply]
  refine congrArg (m (a1Loc d)) ?_
  have e : (Cert.Proof.Spec.rowOf (m (a0Loc d) (ix2 b h))) = ⟨(idsFlat m d (ix1 ⟨b.val * 50 + h.val, hlt⟩)).toNat, hr⟩ := by
    apply Fin.ext
    have hv := idsFlat_apply m d b h hlt
    show (Cert.Proof.Spec.rowOf (m (a0Loc d) (ix2 b h))).val = (idsFlat m d (ix1 ⟨b.val * 50 + h.val, hlt⟩)).toNat
    rw [Cert.Proof.Spec.rowOf_val (hv ▸ hr)]
    exact congrArg BitVec.toNat hv.symm
  rw [e]

/-! ## A row gather read at an index -/

/-- The rows gathered out of the paired table: entry `(i, c)` of the payload is the table at the row the list names
    for `i`, column `c`. -/
theorem gather_at {E : EltTy} (g : S500000x128.Idx → Elt F E)
    (r : Fin (S128x128.size gathers_S500000x128_S128x128.axis') → Fin (S500000x128.size gathers_S500000x128_S128x128.axis))
    (i : Fin 128) (c : Fin 128) :
    SparseCore.gatherPayload gathers_S500000x128_S128x128 g r (ix2 i c) = g (ix2 (r i) c) := by
  unfold SparseCore.gatherPayload
  refine congrArg g (funext fun b => ?_)
  match b with
  | ⟨0, _⟩ => exact Shape.Gathers.idx_axis gathers_S500000x128_S128x128 r (ix2 i c)
  | ⟨1, _⟩ => exact Fin.ext (Shape.Gathers.idx_of_ne gathers_S500000x128_S128x128 r (ix2 i c) ⟨1, by decide⟩ (by decide))

end Cert.Proof.KI

end
-- ==== Proof.KIGatherVal.lean ====
/-
  What a landed row gather holds.

  The rows scratch, written whole with the gather's payload over a slot's row list, holds at (r, c) the paired table's
  entry c of the row the list names for r.
-/
import proofs.«206508_g82686710383178_cont_9to1c4b_561_19_alg».proof.Proof.KIFacts
import proofs.«206508_g82686710383178_cont_9to1c4b_561_19_alg».proof.Proof.KIValArith

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable [FloatOps F] (d : Dev nD) (c : Fin τ.nSC) (i : Fin τ.nSub)

/-- The rows a gather over the list `Q` landed: row `r` is the paired table's row `Q[r]`. -/
def RowsVal (bR : Memref sig .scVector .vmem S128x128 .f32) (bq : Memref sig .scVector .vmem S128 .i32)
    (fT : Buf (Elt F) ((tblW).view.loc (V d c i))) (Q : Buf (Elt F) ((bq).view.loc (V d c i)))
    (hin : ∀ x, ((bq).view.read (Elt F) Q x).toNat < 500000) (R : Buf (Elt F) ((bR).view.loc (V d c i))) : Prop :=
  ∀ r cc : Fin 128, (bR).view.read (Elt F) R (ix2 r cc) = fT (ix2 (⟨((bq).view.read (Elt F) Q (ix1 r)).toNat, hin (ix1 r)⟩ : Fin 500000) cc)

theorem gather_intro (bR : Memref sig .scVector .vmem S128x128 .f32) (bq : Memref sig .scVector .vmem S128 .i32)
    (fT : Buf (Elt F) ((tblW).view.loc (V d c i))) (Q : Buf (Elt F) ((bq).view.loc (V d c i)))
    (hin : ∀ x, ((bq).view.read (Elt F) Q x).toNat < 500000)
    (hin' : ∀ x, ((bq).view.read (Elt F) Q x).toNat < S500000x128.size gathers_S500000x128_S128x128.axis)
    (hn : S128.numel = S128x128.size gathers_S500000x128_S128x128.axis')
    (fold : Buf (Elt F) ((bR).view.loc (V d c i))) :
    ((bR).view.loc (V d c i) ↦{fullShare} (bR).view.writes (Elt F) fold
      [⟨Rect.whole S128x128, SparseCore.gatherPayload gathers_S500000x128_S128x128
          (View.read (Elt F) (sliceT).view fT) (SparseCore.rows ((bq).view.read (Elt F) Q) hn hin')⟩] : sProp 𝕄)
      ⊢ iprop(∃ R, ⌜RowsVal d c i bR bq fT Q hin R⌝ ∗ (bR).view.loc (V d c i) ↦{fullShare} R) := by
  iintro H
  iexists _
  isplitr
  rotate_left
  · iexact H
  · ipureintro
    intro r cc
    have e := View.read_writes_cons_emb (bR).view fold (Rect.whole S128x128)
      (SparseCore.gatherPayload gathers_S500000x128_S128x128 (View.read (Elt F) (sliceT).view fT) (SparseCore.rows ((bq).view.read (Elt F) Q) hn hin'))
      [] (ix2 r cc)
    rw [Rect.emb_whole_apply] at e
    rw [e, gather_at]
    rw [View.read_apply]
    refine (cast_eq _ _).trans (congrArg fT ?_)
    funext a
    match a with
    | ⟨0, _⟩ =>
      apply Fin.ext
      show 0 + 1 * (SparseCore.rows ((bq).view.read (Elt F) Q) hn hin' r).val = ((bq).view.read (Elt F) Q (ix1 r)).toNat
      rw [Nat.zero_add, Nat.one_mul]
      unfold SparseCore.rows
      show ((bq).view.read (Elt F) Q (S128.rowMajor.symm (r.cast hn.symm))).toNat = _
      refine congrArg (fun z => ((bq).view.read (Elt F) Q z).toNat) ?_
      apply S128.rowMajor.injective
      rw [Equiv.apply_symm_apply]
      apply Fin.ext
      rw [Shape.rowMajor_val_one]
      rfl
    | ⟨1, _⟩ =>
      apply Fin.ext
      show 0 + 1 * cc.val = cc.val
      omega

/-- The same, of the written contents themselves: for naming them and then citing this. -/
theorem gather_rowsval (bR : Memref sig .scVector .vmem S128x128 .f32) (bq : Memref sig .scVector .vmem S128 .i32)
    (fT : Buf (Elt F) ((tblW).view.loc (V d c i))) (Q : Buf (Elt F) ((bq).view.loc (V d c i)))
    (hin : ∀ x, ((bq).view.read (Elt F) Q x).toNat < 500000)
    (hin' : ∀ x, ((bq).view.read (Elt F) Q x).toNat < S500000x128.size gathers_S500000x128_S128x128.axis)
    (hn : S128.numel = S128x128.size gathers_S500000x128_S128x128.axis')
    (fold : Buf (Elt F) ((bR).view.loc (V d c i))) :
    RowsVal d c i bR bq fT Q hin ((bR).view.writes (Elt F) fold
      [⟨Rect.whole S128x128, SparseCore.gatherPayload gathers_S500000x128_S128x128
          (View.read (Elt F) (sliceT).view fT) (SparseCore.rows ((bq).view.read (Elt F) Q) hn hin')⟩]) := by
  intro r cc
  have e := View.read_writes_cons_emb (bR).view fold (Rect.whole S128x128)
    (SparseCore.gatherPayload gathers_S500000x128_S128x128 (View.read (Elt F) (sliceT).view fT) (SparseCore.rows ((bq).view.read (Elt F) Q) hn hin'))
    [] (ix2 r cc)
  rw [Rect.emb_whole_apply] at e
  rw [e, gather_at]
  rw [View.read_apply]
  refine (cast_eq _ _).trans (congrArg fT ?_)
  funext a
  match a with
  | ⟨0, _⟩ =>
    apply Fin.ext
    show 0 + 1 * (SparseCore.rows ((bq).view.read (Elt F) Q) hn hin' r).val = ((bq).view.read (Elt F) Q (ix1 r)).toNat
    rw [Nat.zero_add, Nat.one_mul]
    unfold SparseCore.rows
    show ((bq).view.read (Elt F) Q (S128.rowMajor.symm (r.cast hn.symm))).toNat = _
    refine congrArg (fun z => ((bq).view.read (Elt F) Q z).toNat) ?_
    apply S128.rowMajor.injective
    rw [Equiv.apply_symm_apply]
    apply Fin.ext
    rw [Shape.rowMajor_val_one]
    rfl
  | ⟨1, _⟩ =>
    apply Fin.ext
    show 0 + 1 * cc.val = cc.val
    omega

end Cert.Proof.KI

end
-- ==== Proof.KIWriteOut.lean ====
/-
  A write-out, read back.

  A write-out copies a destination scratch D [64, 128] into the output array at one history position and 128
  consecutive columns: through the target memref — the [1, 64, 128] rectangle at offsets off, seen as [64, 128] — entry
  (f, r) of the scratch lands at entry (off 0, off 1 + f, off 2 + r) of the output, and nothing else of the output
  changes. So, read back at that entry, the output holds D[f, r].
-/
import proofs.«206508_g82686710383178_cont_9to1c4b_561_19_alg».proof.Proof.KISets
import proofs.«206508_g82686710383178_cont_9to1c4b_561_19_alg».proof.Proof.KIInv
import Idealize.ShloMosaic.Lib.ValueIdx

noncomputable section

namespace Cert.Proof.KI

open Cert.KernelIdeal Cert.KernelIdeal.Gen

open Idealize.ShloMosaic Idealize.ShloMosaic.ValueIdx

variable {F : FTy → Type} [FloatOps F]

/-- The write-out's target memref, as the program spells it. -/
abbrev woSlice (off : Fin 3 → ℕ) (h : ∀ a, off a + S1x64x128.size a ≤ S50x64x16384.size a) : Memref sig .scVector .hbm S64x128 .f32 :=
  ((outW).slice (Rect.unit (s := S50x64x16384) off S1x64x128.size h) (fun _ => rfl)).squeeze S64x128 squeezes_S1x64x128_S64x128

/-- Entry `(f, r)` of the target is entry `(off 0, off 1 + f, off 2 + r)` of the output. -/
theorem woSlice_emb (off : Fin 3 → ℕ) (h : ∀ a, off a + S1x64x128.size a ≤ S50x64x16384.size a) (x : S64x128.Idx) :
    ∀ a : Fin 3, ((woSlice off h).view.emb x a).val = off a + (![0, (x 0).val, (x 1).val] : Fin 3 → ℕ) a := by
  have hy : Shape.reshapeEquiv squeezes_S1x64x128_S64x128.numel_eq x = (ix3 (0 : Fin 1) (x 0) (x 1) : S1x64x128.Idx) := by
    refine Shape.reshapeEquiv_eq_of_rowMajor _ ?_
    rw [Shape.rowMajor_val_three, Shape.rowMajor_val_two]
    show ((0 : ℕ) * 64 + (x 0).val) * 128 + (x 1).val = (x 0).val * 128 + (x 1).val
    omega
  intro a
  show ((Rect.unit (s := S50x64x16384) off S1x64x128.size h).emb (Shape.reshapeEquiv squeezes_S1x64x128_S64x128.numel_eq x) a).val = _
  rw [hy, Rect.emb_apply]
  match a with
  | ⟨0, _⟩ => simp
  | ⟨1, _⟩ => simp
  | ⟨2, _⟩ => simp

/-- What the write-out of `b7` lands, read back at the entry the target's `(f, r)` names, is the scratch's `(f, r)`. -/
theorem writeout_at7 (d : Dev nD) (L : grid0.Coords) (off : Fin 3 → ℕ) (h : ∀ a, off a + S1x64x128.size a ≤ S50x64x16384.size a)
    (fO : Buf (Elt F) ((outW).view.loc (thr d L))) (fD : Buf (Elt F) ((b7).view.loc (thr d L))) (x : S64x128.Idx) :
    View.write (Elt F) (woSlice off h).view fO (ReadAs.same.apply (View.read (Elt F) (b7).view fD)) Finset.univ ((woSlice off h).view.emb x) = fD x := by
  rw [View.write_emb_of_mem _ _ (Finset.mem_univ x)]
  simp only [ReadAs.apply_same, Memref.view_whole, View.read_whole]
  rfl

/-- The same at an entry `j = (h', f, b)` of the slice: it holds the scratch's `(f, b - off 2)`. -/
theorem writeout_val7 (d : Dev nD) (L : grid0.Coords) (off : Fin 3 → ℕ) (h : ∀ a, off a + S1x64x128.size a ≤ S50x64x16384.size a)
    (hoff1 : off 1 = 0) (fO : Buf (Elt F) ((outW).view.loc (thr d L))) (fD : Buf (Elt F) ((b7).view.loc (thr d L)))
    (j : S50x64x16384.Idx) (hj : j ∈ sliceSet off h) (h1 : (j 1).val < 64) (h2 : (j 2).val - off 2 < 128) :
    View.write (Elt F) (woSlice off h).view fO (ReadAs.same.apply (View.read (Elt F) (b7).view fD)) Finset.univ j
      = fD (ix2 (⟨(j 1).val, h1⟩ : Fin 64) (⟨(j 2).val - off 2, h2⟩ : Fin 128)) := by
  obtain ⟨e0, e2, -⟩ := mem_sliceSet hj
  have e : (woSlice off h).view.emb (ix2 (⟨(j 1).val, h1⟩ : Fin 64) (⟨(j 2).val - off 2, h2⟩ : Fin 128)) = j := by
    funext a
    refine Fin.ext ?_
    rw [woSlice_emb]
    match a with
    | ⟨0, _⟩ => show off 0 + 0 = (j 0).val; omega
    | ⟨1, _⟩ => show off 1 + (j 1).val = (j 1).val; omega
    | ⟨2, _⟩ => show off 2 + ((j 2).val - off 2) = (j 2).val; omega
  have key := writeout_at7 d L off h fO fD (ix2 (⟨(j 1).val, h1⟩ : Fin 64) (⟨(j 2).val - off 2, h2⟩ : Fin 128))
  rw [e] at key
  exact key

/-- What the write-out of `b8` lands, read back at the entry the target's `(f, r)` names, is the scratch's `(f, r)`. -/
theorem writeout_at8 (d : Dev nD) (L : grid0.Coords) (off : Fin 3 → ℕ) (h : ∀ a, off a + S1x64x128.size a ≤ S50x64x16384.size a)
    (fO : Buf (Elt F) ((outW).view.loc (thr d L))) (fD : Buf (Elt F) ((b8).view.loc (thr d L))) (x : S64x128.Idx) :
    View.write (Elt F) (woSlice off h).view fO (ReadAs.same.apply (View.read (Elt F) (b8).view fD)) Finset.univ ((woSlice off h).view.emb x) = fD x := by
  rw [View.write_emb_of_mem _ _ (Finset.mem_univ x)]
  simp only [ReadAs.apply_same, Memref.view_whole, View.read_whole]
  rfl

/-- The same at an entry `j = (h', f, b)` of the slice: it holds the scratch's `(f, b - off 2)`. -/
theorem writeout_val8 (d : Dev nD) (L : grid0.Coords) (off : Fin 3 → ℕ) (h : ∀ a, off a + S1x64x128.size a ≤ S50x64x16384.size a)
    (hoff1 : off 1 = 0) (fO : Buf (Elt F) ((outW).view.loc (thr d L))) (fD : Buf (Elt F) ((b8).view.loc (thr d L)))
    (j : S50x64x16384.Idx) (hj : j ∈ sliceSet off h) (h1 : (j 1).val < 64) (h2 : (j 2).val - off 2 < 128) :
    View.write (Elt F) (woSlice off h).view fO (ReadAs.same.apply (View.read (Elt F) (b8).view fD)) Finset.univ j
      = fD (ix2 (⟨(j 1).val, h1⟩ : Fin 64) (⟨(j 2).val - off 2, h2⟩ : Fin 128)) := by
  obtain ⟨e0, e2, -⟩ := mem_sliceSet hj
  have e : (woSlice off h).view.emb (ix2 (⟨(j 1).val, h1⟩ : Fin 64) (⟨(j 2).val - off 2, h2⟩ : Fin 128)) = j := by
    funext a
    refine Fin.ext ?_
    rw [woSlice_emb]
    match a with
    | ⟨0, _⟩ => show off 0 + 0 = (j 0).val; omega
    | ⟨1, _⟩ => show off 1 + (j 1).val = (j 1).val; omega
    | ⟨2, _⟩ => show off 2 + ((j 2).val - off 2) = (j 2).val; omega
  have key := writeout_at8 d L off h fO fD (ix2 (⟨(j 1).val, h1⟩ : Fin 64) (⟨(j 2).val - off 2, h2⟩ : Fin 128))
  rw [e] at key
  exact key

end Cert.Proof.KI

end
-- ==== Proof.KIWriteVal.lean ====
/-
  What a write-out's wait hands back, with its value.

  The write-out copies a destination scratch D [64, 128] through the target memref — the [1, 64, 128] rectangle of the
  output at offsets off, seen as [64, 128] — over whatever the output held. Entry (f, r) of the target is entry
  (off 0, off 1 + f, off 2 + r) of the output; with off 1 = 0, the output afterwards holds D[f, r] at (off 0, f, off 2 + r).
-/
import proofs.«206508_g82686710383178_cont_9to1c4b_561_19_alg».proof.Proof.KIWriteOut
import proofs.«206508_g82686710383178_cont_9to1c4b_561_19_alg».proof.Proof.KIFacts

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (c : Fin τ.nSC) (i : Fin τ.nSub)

/-- The whole rectangle of a shape places an index at itself. -/
theorem whole_emb_self (x : S64x128.Idx) : (Rect.whole S64x128).emb x = x := by
  funext a
  refine Fin.ext ?_
  simp [Rect.emb_apply, Rect.whole]

/-- The pure core: the output after the copy holds, at `(off 0, f, off 2 + r)`, what the scratch holds at `(f, r)`. -/
theorem write_val (off : Fin 3 → ℕ) (h : ∀ a, off a + S1x64x128.size a ≤ S50x64x16384.size a) (h1 : off 1 = 0)
    (prev : Buf (Elt F) ((outW).view.loc (V d c i))) (w : S64x128.Idx → Elt F .f32)
    (f : Fin 64) (r : Fin 128) (hh : off 0 < 50) (hb : off 2 + r.val < 16384) :
    ((((outW).slice (Rect.unit (s := S50x64x16384) off S1x64x128.size h) (fun _ => rfl)).squeeze S64x128 squeezes_S1x64x128_S64x128).view.writes (Elt F) prev [⟨Rect.whole S64x128, w⟩] : Buf (Elt F) ((outW).view.loc (V d c i)))
        (ix3 (⟨off 0, hh⟩ : Fin 50) f (⟨off 2 + r.val, hb⟩ : Fin 16384)) = w (ix2 f r) := by
  have e : (woSlice off h).view.emb (ix2 f r) = ix3 (⟨off 0, hh⟩ : Fin 50) f (⟨off 2 + r.val, hb⟩ : Fin 16384) := by
    funext a
    refine Fin.ext ?_
    rw [woSlice_emb]
    match a with
    | ⟨0, _⟩ => show off 0 + 0 = off 0; omega
    | ⟨1, _⟩ => show off 1 + f.val = f.val; omega
    | ⟨2, _⟩ => rfl
  have key := View.read_writes_cons_emb (woSlice off h).view prev (Rect.whole S64x128) w [] (ix2 f r)
  rw [whole_emb_self, View.read_apply, e] at key
  exact key

/-- What a write-out's wait hands back: the slice of the output at some contents that are the scratch's, entry by entry. -/
theorem write_introV (bD : Memref sig .scVector .vmem S64x128 .f32) (off : Fin 3 → ℕ) (h : ∀ a, off a + S1x64x128.size a ≤ S50x64x16384.size a) (h1 : off 1 = 0)
    (prev : Buf (Elt F) ((outW).view.loc (V d c i))) (D : Buf (Elt F) ((bD).view.loc (V d c i))) :
    ((((outW).slice (Rect.unit (s := S50x64x16384) off S1x64x128.size h) (fun _ => rfl)).squeeze S64x128 squeezes_S1x64x128_S64x128).view.loc (V d c i)
        ↦[(((outW).slice (Rect.unit (s := S50x64x16384) off S1x64x128.size h) (fun _ => rfl)).squeeze S64x128 squeezes_S1x64x128_S64x128).view.set]{fullShare}
        (((outW).slice (Rect.unit (s := S50x64x16384) off S1x64x128.size h) (fun _ => rfl)).squeeze S64x128 squeezes_S1x64x128_S64x128).view.writes (Elt F) prev
          [⟨Rect.whole S64x128, ReadAs.same.apply (View.read (Elt F) (bD).view D)⟩] : sProp 𝕄)
      ⊢ iprop(∃ fo : Buf (Elt F) ((outW).view.loc (V d c i)),
          ⌜∀ (f : Fin 64) (r : Fin 128) (hh : off 0 < 50) (hb : off 2 + r.val < 16384),
            fo (ix3 (⟨off 0, hh⟩ : Fin 50) f (⟨off 2 + r.val, hb⟩ : Fin 16384)) = (bD).view.read (Elt F) D (ix2 f r)⌝
          ∗ (outW).view.loc (V d c i) ↦[sliceSet off h]{fullShare} fo) := by
  iintro H
  iexists ((((outW).slice (Rect.unit (s := S50x64x16384) off S1x64x128.size h) (fun _ => rfl)).squeeze S64x128 squeezes_S1x64x128_S64x128).view.writes (Elt F) prev [⟨Rect.whole S64x128, ReadAs.same.apply (View.read (Elt F) (bD).view D)⟩])
  isplitr
  · ipureintro
    intro f r hh hb
    exact write_val d c i off h h1 prev _ f r hh hb
  · iexact H

end Cert.Proof.KI

end
-- ==== Proof.KICover.lean ====
/-
  The tile's 512 columns are covered by its 200 write-outs.

  An entry (h, f, col) of the tile's part has col in [base, base + 512) with base = 1024 s + 512 c; writing
  q = (col - base) / 128 (below 4) its group is g = 50 q + h (below 200): the write-out of group g fills history
  position g mod 50 = h and the 128 columns from base + 128 (g / 50) = base + 128 q, which contain col. Group 0 is
  written before the main loop, group 199 after it, and round k of the loop writes groups 2k + 1 and 2k + 2.
-/
import proofs.«206508_g82686710383178_cont_9to1c4b_561_19_alg».proof.Proof.KISets

noncomputable section

namespace Cert.Proof.KI

open Cert.KernelIdeal Cert.KernelIdeal.Gen
open Idealize.ShloMosaic

/-- The main loop makes 99 rounds. -/
theorem trips2_eq : k0_t2_loop.trips = 99 := by decide

/-- An entry whose history position is the slice's, and whose column is one of the slice's 128, is in the slice (the
    slice takes all 64 entries of a row: its middle offset is 0). -/
theorem mem_sliceSet_of {off : Fin 3 → ℕ} {h : ∀ a, off a + S1x64x128.size a ≤ S50x64x16384.size a} {j : S50x64x16384.Idx}
    (h0 : (j 0).val = off 0) (h1 : off 1 = 0) (h2 : off 2 ≤ (j 2).val) (h2' : (j 2).val < off 2 + 128) : j ∈ sliceSet off h := by
  rw [sliceSet_eq, Rect.mem_set_unit]
  intro a
  match a with
  | ⟨0, _⟩ =>
    have e0 : S1x64x128.size 0 = 1 := rfl
    show off 0 ≤ (j 0).val ∧ (j 0).val < off 0 + S1x64x128.size 0
    rw [e0]; omega
  | ⟨1, _⟩ =>
    have e1 : S1x64x128.size 1 = 64 := rfl
    have hj : (j 1).val < 64 := (j 1).isLt
    show off 1 ≤ (j 1).val ∧ (j 1).val < off 1 + S1x64x128.size 1
    rw [e1, h1]; omega
  | ⟨2, _⟩ =>
    have e2 : S1x64x128.size 2 = 128 := rfl
    show off 2 ≤ (j 2).val ∧ (j 2).val < off 2 + S1x64x128.size 2
    rw [e2]; exact ⟨h2, h2'⟩

/-- Every entry of the tile's part lies in the part one of its write-outs fills. -/
theorem slices_cover (L : grid0.Coords) (j : S50x64x16384.Idx) (hj : j ∈ outSet (L 0).val (L 1).val) :
    j ∈ sliceSet (k0_off3 L) (k0_off3_inb L) ∨ (∃ k, j ∈ sliceSet (k0_off6 L k) (k0_off6_inb L k))
      ∨ (∃ k, j ∈ sliceSet (k0_off9 L k) (k0_off9_inb L k)) ∨ j ∈ sliceSet (k0_off11 L) (k0_off11_inb L) := by
  rw [mem_outSet] at hj
  have hh : (j 0).val < 50 := (j 0).isLt
  have hc : (j 2).val < 16384 := (j 2).isLt
  have hL0 : (L 0).val < 2 := (L 0).isLt
  have hL1 : (L 1).val < 16 := (L 1).isLt
  -- the group of the entry
  obtain ⟨q, hq⟩ : ∃ q, q = ((j 2).val - (1024 * (L 1).val + 512 * (L 0).val)) / 128 := ⟨_, rfl⟩
  obtain ⟨g, hg⟩ : ∃ g, g = 50 * q + (j 0).val := ⟨_, rfl⟩
  have hq4 : q < 4 := by omega
  have hcol1 : 1024 * (L 1).val + 512 * (L 0).val + 128 * q ≤ (j 2).val := by omega
  have hcol2 : (j 2).val < 1024 * (L 1).val + 512 * (L 0).val + 128 * q + 128 := by omega
  by_cases g0 : g = 0
  · left
    have e := k0_off3_eq L
    refine mem_sliceSet_of ?_ ?_ ?_ ?_ <;> rw [e]
    · show (j 0).val = 0; omega
    · rfl
    · show 1024 * (L 1).val + 512 * (L 0).val ≤ (j 2).val; omega
    · show (j 2).val < 1024 * (L 1).val + 512 * (L 0).val + 128; omega
  by_cases g199 : g = 199
  · right; right; right
    have e := k0_off11_eq L
    refine mem_sliceSet_of ?_ ?_ ?_ ?_ <;> rw [e]
    · show (j 0).val = 49; omega
    · rfl
    · show 1024 * (L 1).val + 512 * (L 0).val + 384 ≤ (j 2).val; omega
    · show (j 2).val < 1024 * (L 1).val + 512 * (L 0).val + 384 + 128; omega
  by_cases godd : g % 2 = 1
  · right; left
    have hk : (g - 1) / 2 < k0_t2_loop.trips := by rw [trips2_eq]; omega
    refine ⟨⟨(g - 1) / 2, hk⟩, ?_⟩
    have e := k0_off6_eq L ⟨(g - 1) / 2, hk⟩
    refine mem_sliceSet_of ?_ ?_ ?_ ?_ <;> rw [e]
    · show (j 0).val = (2 * ((g - 1) / 2) + 1) % 50; omega
    · rfl
    · show 1024 * (L 1).val + 512 * (L 0).val + 128 * ((2 * ((g - 1) / 2) + 1) / 50) ≤ (j 2).val; omega
    · show (j 2).val < 1024 * (L 1).val + 512 * (L 0).val + 128 * ((2 * ((g - 1) / 2) + 1) / 50) + 128; omega
  · right; right; left
    have hk : (g - 2) / 2 < k0_t2_loop.trips := by rw [trips2_eq]; omega
    refine ⟨⟨(g - 2) / 2, hk⟩, ?_⟩
    have e := k0_off9_eq L ⟨(g - 2) / 2, hk⟩
    refine mem_sliceSet_of ?_ ?_ ?_ ?_ <;> rw [e]
    · show (j 0).val = (2 * ((g - 2) / 2) + 2) % 50; omega
    · rfl
    · show 1024 * (L 1).val + 512 * (L 0).val + 128 * ((2 * ((g - 2) / 2) + 2) / 50) ≤ (j 2).val; omega
    · show (j 2).val < 1024 * (L 1).val + 512 * (L 0).val + 128 * ((2 * ((g - 2) / 2) + 2) / 50) + 128; omega

end Cert.Proof.KI

end
-- ==== Proof.KIDone.lean ====
/-
  Which parts of the tile's columns are finished, round by round.

  Group 0's part is written before the main loop, round k writes the parts of groups 2k + 1 and 2k + 2, group 199's
  part is written after the loop. At the head of round k the parts of the groups below 2k are finished (written and
  waited for) and group 2k's part is still being written. Putting a returned part back merges its contents into the
  held rest; contents that were the result on the finished parts and are the result on the returned part are the result
  on both. After round 98 the finished parts, the part still being written and the last part are all of the tile's columns.
-/
import proofs.«206508_g82686710383178_cont_9to1c4b_561_19_alg».proof.Proof.KICover
import proofs.«206508_g82686710383178_cont_9to1c4b_561_19_alg».proof.Proof.KIVal

noncomputable section

namespace Cert.Proof.KI

open Cert.KernelIdeal Cert.KernelIdeal.Gen
open Idealize.ShloMosaic

/-- The part of the result still being written at the head of round `k`: group 2k's. -/
def flightPart (L : grid0.Coords) (k : ℕ) : Finset S50x64x16384.Idx :=
  if h : 0 < k ∧ k - 1 < k0_t2_loop.trips then sliceSet (k0_off9 L ⟨k - 1, h.2⟩) (k0_off9_inb L ⟨k - 1, h.2⟩)
  else sliceSet (k0_off3 L) (k0_off3_inb L)

theorem flightPart_zero (L : grid0.Coords) : flightPart L 0 = sliceSet (k0_off3 L) (k0_off3_inb L) := by
  unfold flightPart; rw [dif_neg (by omega)]
theorem flightPart_succ (L : grid0.Coords) (k : Fin k0_t2_loop.trips) :
    flightPart L (k.val + 1) = sliceSet (k0_off9 L k) (k0_off9_inb L k) := by
  unfold flightPart
  rw [dif_pos ⟨by omega, by show k.val + 1 - 1 < _; rw [Nat.add_sub_cancel]; exact k.isLt⟩]
  congr 2 <;> exact Fin.ext (Nat.add_sub_cancel)

/-- The entries whose part is finished at the head of round `k`: those of the groups below 2k. -/
def DoneP (L : grid0.Coords) (k : ℕ) (j : S50x64x16384.Idx) : Prop :=
  (∃ k' : ℕ, k' < k ∧ j ∈ flightPart L k') ∨ (∃ k' : Fin k0_t2_loop.trips, k'.val < k ∧ j ∈ sliceSet (k0_off6 L k') (k0_off6_inb L k'))

theorem doneP_zero (L : grid0.Coords) (j : S50x64x16384.Idx) : ¬ DoneP L 0 j := by
  rintro (⟨k', h, -⟩ | ⟨k', h, -⟩) <;> omega

/-- One round on: the part that was being written and the part round `k` wrote from slot 1 are finished too. -/
theorem doneP_succ (L : grid0.Coords) (k : Fin k0_t2_loop.trips) (j : S50x64x16384.Idx) :
    DoneP L (k.val + 1) j ↔ DoneP L k.val j ∨ j ∈ flightPart L k.val ∨ j ∈ sliceSet (k0_off6 L k) (k0_off6_inb L k) := by
  constructor
  · rintro (⟨k', h, hj⟩ | ⟨k', h, hj⟩)
    · by_cases e : k' = k.val
      · subst e; exact .inr (.inl hj)
      · exact .inl (.inl ⟨k', by omega, hj⟩)
    · by_cases e : k'.val = k.val
      · have : k' = k := Fin.ext e
        subst this; exact .inr (.inr hj)
      · exact .inl (.inr ⟨k', by omega, hj⟩)
  · rintro ((⟨k', h, hj⟩ | ⟨k', h, hj⟩) | hj | hj)
    · exact .inl ⟨k', by omega, hj⟩
    · exact .inr ⟨k', by omega, hj⟩
    · exact .inl ⟨k.val, by omega, hj⟩
    · exact .inr ⟨k, by omega, hj⟩

/-- Merging a returned part into the held rest keeps "is the result on what is finished". -/
theorem merge_agree {E : Type} (A : Finset S50x64x16384.Idx) (fo fr OUTf : S50x64x16384.Idx → E) (Dn : S50x64x16384.Idx → Prop)
    (hA : ∀ j ∈ A, fo j = OUTf j) (hr : ∀ j, j ∉ A → Dn j → fr j = OUTf j) :
    ∀ j, (Dn j ∨ j ∈ A) → A.piecewise fo fr j = OUTf j := by
  intro j hj
  by_cases h : j ∈ A
  · rw [Finset.piecewise_eq_of_mem _ _ _ h]; exact hA j h
  · rw [Finset.piecewise_eq_of_notMem _ _ _ h]
    rcases hj with hj | hj
    · exact hr j h hj
    · exact absurd hj h

/-- After the last round: every entry of the tile's columns is finished, or in the part still being written, or in
    the last part. -/
theorem done_cover (L : grid0.Coords) (j : S50x64x16384.Idx) (hj : j ∈ outSet (L 0).val (L 1).val) :
    DoneP L k0_t2_loop.trips j ∨ j ∈ flightPart L k0_t2_loop.trips ∨ j ∈ sliceSet (k0_off11 L) (k0_off11_inb L) := by
  have ht := trips2_eq
  rcases slices_cover L j hj with h | ⟨k, h⟩ | ⟨k, h⟩ | h
  · exact .inl (.inl ⟨0, by omega, by rw [flightPart_zero]; exact h⟩)
  · exact .inl (.inr ⟨k, k.isLt, h⟩)
  · by_cases e : k.val + 1 = k0_t2_loop.trips
    · refine .inr (.inl ?_)
      rw [← e, flightPart_succ]; exact h
    · refine .inl (.inl ⟨k.val + 1, ?_, by rw [flightPart_succ]; exact h⟩)
      have := k.isLt; omega
  · exact .inr (.inr h)

end Cert.Proof.KI

end
-- ==== Proof.KIStoreIdx.lean ====
/-
  An indexed store that stores the right values.

  An unmasked indexed store without accumulation takes the lanes in ascending order and writes each lane's value at
  the entry its index vectors name. Suppose a target function `val` on the scratch is given and every lane's value is
  `val` at the entry the lane names. Then whatever was right before (equal to `val` on some set of entries) is still
  right after, and every entry a lane names is right after: a later lane naming the same entry overwrites a right
  value with the same right value. Nothing is asked of the lanes' entries being distinct.
-/
import Idealize.ShloMosaic.PureOps.ShapeOps

namespace Cert.Proof.KI

open Idealize.ShloMosaic

variable {F : FTy → Type} [FloatOps F] {s : Shape} {e : EltTy}

/-- Two entries with the same coordinates are the same entry. -/
theorem idx_eq_of_coords {i j : s.Idx} (h : ∀ a, (j a).val = (i a).val) : j = i := funext fun a => Fin.ext (h a)

/-- The fold of an unmasked, non-accumulating indexed store over a list of lanes keeps right entries right and makes
    the listed lanes' entries right. -/
theorem storeFold_right {d : Fin 1 → Nat} (idxs : Fin s.rank → IVec ⟨1, d⟩ 32) (v : Vec F ⟨1, d⟩ e)
    (h : ∀ a x, (idxs a x).toNat < s.size a) (val : s.Idx → Elt F e)
    (hv : ∀ x, v x = val (idxAt idxs h x)) :
    ∀ (l : List (Fin (d 0))) (g : Vec F s e) (T : s.Idx → Prop), (∀ t, T t → g t = val t) →
      ∀ t, (T t ∨ ∃ k ∈ l, idxAt idxs h (Shape.ofLane k) = t) →
        (l.foldl (fun g k =>
          let x := Shape.ofLane k
          if (fun _ => 1#1 : IVec ⟨1, d⟩ 1) x = 1 then
            let i := idxAt idxs h x
            let y := if false then Elt.idxAdd e (g i) (v x) else v x
            fun j => if (∀ a, (j a).val = (i a).val) then y else g j
          else g) g) t = val t
  | [], g, T, hg, t, ht => by
    rcases ht with ht | ⟨k, hk, -⟩
    · exact hg t ht
    · exact absurd hk (List.not_mem_nil)
  | k₀ :: l, g, T, hg, t, ht => by
    rw [List.foldl_cons]
    refine storeFold_right idxs v h val hv l _ (fun t => T t ∨ idxAt idxs h (Shape.ofLane k₀) = t) ?_ t ?_
    · intro t' ht'
      show (if (1#1 : BitVec 1) = 1 then
          (fun j => if (∀ a, (j a).val = (idxAt idxs h (Shape.ofLane k₀) a).val) then
            (if false then Elt.idxAdd e (g (idxAt idxs h (Shape.ofLane k₀))) (v (Shape.ofLane k₀)) else v (Shape.ofLane k₀)) else g j)
          else g) t' = val t'
      rw [if_pos (show (1#1 : BitVec 1) = 1 from by decide)]
      show (if (∀ a, (t' a).val = (idxAt idxs h (Shape.ofLane k₀) a).val) then _ else g t') = val t'
      by_cases hc : ∀ a, (t' a).val = (idxAt idxs h (Shape.ofLane k₀) a).val
      · rw [if_pos hc, if_neg (show ¬ (false = true) from by decide), idx_eq_of_coords hc]
        exact hv _
      · rw [if_neg hc]
        rcases ht' with ht' | ht'
        · exact hg t' ht'
        · exact absurd (fun a => by rw [ht']) hc
    · rcases ht with ht | ⟨k, hk, hkt⟩
      · exact .inl (.inl ht)
      · rcases List.mem_cons.mp hk with rfl | hk
        · exact .inl (.inr hkt)
        · exact .inr ⟨k, hk, hkt⟩

/-- An unmasked indexed store of right values: what was right stays right, what a lane names becomes right. -/
theorem storeIdx_right {d : Fin 1 → Nat} (f : Vec F s e) (idxs : Fin s.rank → IVec ⟨1, d⟩ 32) (v : Vec F ⟨1, d⟩ e)
    (h : ∀ a x, (idxs a x).toNat < s.size a) (val : s.Idx → Elt F e) (T : s.Idx → Prop)
    (hf : ∀ t, T t → f t = val t) (hv : ∀ x, v x = val (idxAt idxs h x)) :
    ∀ t, (T t ∨ ∃ k : Fin (d 0), idxAt idxs h (Shape.ofLane k) = t) → storeIdx f idxs v (fun _ => 1#1) false h t = val t := by
  intro t ht
  unfold storeIdx
  refine storeFold_right idxs v h val hv (List.finRange (d 0)) f T hf t ?_
  rcases ht with ht | ⟨k, hk⟩
  · exact .inl ht
  · exact .inr ⟨k, List.mem_finRange k, hk⟩

end Cert.Proof.KI
-- ==== Proof.KITripVal0.lean ====
/-
  The transpose, store by store.

  The destination scratch D [64, 128] is to hold, at (f, r), entry P[r / 16, r mod 16] + f of row r of the rows scratch
  R [128, 128], where the parity word P[·, ·] is 0 or 64 — call that value tval (f, r). Trip k fills the sixteen
  columns r = 16 k + l, l below 16, by sixty-four indexed stores: store number n = 16 fb + j (fb below 4, j below 16)
  writes, from lane l, the value R[16 k + l, P[k, l] + 16 fb + rot] at (rot + 16 fb, 16 k + l), where rot = (l + j) mod 16.
  Every lane thus stores tval at the entry it names. So by induction over the stores: after n of them, every entry of
  an older column, and every entry (f, 16 k + l) whose store number 16 (f / 16) + ((f - l) mod 16) is below n, holds
  tval. After all sixty-four, every entry of the columns below 16 (k + 1) does.
-/
import proofs.«206508_g82686710383178_cont_9to1c4b_561_19_alg».proof.Proof.KIStoreIdx
import Idealize.ShloMosaic.Lib.ValueIdx

namespace Cert.Proof.KI

open Idealize.ShloMosaic Idealize.ShloMosaic.ValueIdx

abbrev SP : Shape := ⟨2, ![8, 16]⟩
abbrev SR : Shape := ⟨2, ![128, 128]⟩
abbrev SD : Shape := ⟨2, ![64, 128]⟩
abbrev SL : Shape := ⟨1, ![16]⟩

theorem sd_row_lt (t : SD.Idx) : (t 0).val < 64 := (t 0).isLt
theorem sd_col_lt (t : SD.Idx) : (t 1).val < 128 := (t 1).isLt
theorem sl_lane_lt (x : SL.Idx) : (x 0).val < 16 := (x 0).isLt

/-- The parity word of column `r`. -/
def parOf (P : SP.Idx → BitVec 32) (r : ℕ) (hr : r < 128) : BitVec 32 :=
  P (ix2 (⟨r / 16, by omega⟩ : Fin 8) (⟨r % 16, by omega⟩ : Fin 16))

/-- What the destination is to hold at `t = (f, r)`: entry `P[r / 16, r mod 16] + f` of row `r` of the rows scratch. -/
def tval {E : Type} (P : SP.Idx → BitVec 32) (R : SR.Idx → E) (t : SD.Idx) : E :=
  R (ix2 (⟨(t 1).val, sd_col_lt t⟩ : Fin 128)
    (⟨((parOf P (t 1).val (sd_col_lt t)).toNat + (t 0).val) % 128, Nat.mod_lt _ (by omega)⟩ : Fin 128))

/-- The number of the store of trip `k` that writes entry `t` of one of the trip's columns. -/
def stepIdx (k : ℕ) (t : SD.Idx) : ℕ :=
  16 * ((t 0).val / 16) + ((t 0).val + 16 - ((t 1).val - 16 * k) % 16) % 16

/-- The entries that are right after `n` stores of trip `k`: the older columns, and the trip's entries whose store has run. -/
def DoneAt (k n : ℕ) (t : SD.Idx) : Prop :=
  (t 1).val < 16 * k ∨ (16 * k ≤ (t 1).val ∧ (t 1).val < 16 * k + 16 ∧ stepIdx k t < n)

/-- Before the trip's first store the right entries are the older columns. -/
theorem doneAt_zero {k : ℕ} {t : SD.Idx} : DoneAt k 0 t ↔ (t 1).val < 16 * k := by
  unfold DoneAt
  constructor
  · rintro (h | ⟨-, -, h⟩)
    · exact h
    · exact absurd h (Nat.not_lt_zero _)
  · exact .inl

/-- After the trip's sixty-four stores the right entries are the columns below `16 (k + 1)`. -/
theorem doneAt_last {k : ℕ} {t : SD.Idx} (h : (t 1).val < 16 * (k + 1)) : DoneAt k 64 t := by
  unfold DoneAt stepIdx
  have h0 := sd_row_lt t
  by_cases hc : (t 1).val < 16 * k
  · exact .inl hc
  · exact .inr ⟨by omega, by omega, by omega⟩

variable {F : FTy → Type} [FloatOps F]

/-- One store of the trip: store number `n = 16 fb + j` writes, from each lane, the right value at the entry the lane
    names; so what was right after `n` stores and the entries of store `n` are right after it. -/
theorem store_step (P : SP.Idx → BitVec 32) (R : SR.Idx → Elt F .f32) (k n j fb : ℕ) (hj : j < 16) (hfb : fb < 4) (hn : n = 16 * fb + j)
    (g : Vec F SD .f32) (hg : ∀ t, DoneAt k n t → g t = tval P R t)
    (rotc rowv : IVec SL 32) (hrot : ∀ x, (rotc x).toNat = ((x 0).val + j) % 16 + 16 * fb) (hrow : ∀ x, (rowv x).toNat = (x 0).val + 16 * k)
    (h : ∀ a x, ((![rotc, rowv] : Fin 2 → IVec SL 32) a x).toNat < SD.size a)
    (v : Vec F SL .f32) (hv : ∀ x, v x = tval P R (idxAt (s := SD) ![rotc, rowv] h x)) :
    ∀ t, DoneAt k (n + 1) t → storeIdx (s := SD) g ![rotc, rowv] v (fun _ => 1#1) false h t = tval P R t := by
  intro t ht
  refine storeIdx_right (s := SD) g ![rotc, rowv] v h (tval P R) (DoneAt k n) hg hv t ?_
  rcases ht with ht | ⟨h1, h2, h3⟩
  · exact .inl (.inl ht)
  · by_cases hlt : stepIdx k t < n
    · exact .inl (.inr ⟨h1, h2, hlt⟩)
    · refine .inr ⟨(⟨(t 1).val - 16 * k, by omega⟩ : Fin 16), ?_⟩
      have hs : stepIdx k t = 16 * fb + j := by omega
      unfold stepIdx at hs
      have h0 := sd_row_lt t
      funext a
      refine Fin.ext ?_
      match a with
      | ⟨0, _⟩ =>
        show (rotc (Shape.ofLane (⟨(t 1).val - 16 * k, _⟩ : Fin 16))).toNat = (t 0).val
        rw [hrot]
        show ((t 1).val - 16 * k + j) % 16 + 16 * fb = (t 0).val
        omega
      | ⟨1, _⟩ =>
        show (rowv (Shape.ofLane (⟨(t 1).val - 16 * k, _⟩ : Fin 16))).toNat = (t 1).val
        rw [hrow]
        show (t 1).val - 16 * k + 16 * k = (t 1).val
        omega

end Cert.Proof.KI
-- ==== Proof.KITripVal1.lean ====
/-
  The transpose of one slot, one store at a time, over the kernel's own vectors.

  Row k of the parity scratch, flattened, holds at lane l the parity word P[k, l]. The row vector of trip k is
  lane + 16 k. A rotation vector is (lane + j) mod 16; a store's row vector is a rotation plus 16 fb, and the matching
  load's column vector is the parity word plus 16 fb plus the same rotation: so the load reads, at lane l,
  R[16 k + l, P[k, l] + 16 fb + rot] and the store writes it at (rot + 16 fb, 16 k + l) — the transposed value there.
  None of the additions wraps: the parity word is 0 or 64, 16 fb at most 48, a rotation below 16.
-/
import proofs.«206508_g82686710383178_cont_9to1c4b_561_19_alg».proof.Proof.KITripVal0
import proofs.«206508_g82686710383178_cont_9to1c4b_561_19_alg».proof.Proof.KIInv

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## Words -/

/-- A rotation vector: the lane number plus `j`, modulo 16. -/
theorem rot_exact (v A : IVec S16 32) (hA : A = iota .scVector S16 32 [0] iota_S16_d0_w32_scVector) (c : BitVec 32) (j : ℕ)
    (hc : c.toNat = j) (hj : j < 16) (h : v = andi (addi A (broadcast S16 c)) (broadcast S16 15#32)) :
    ∀ x, (v x).toNat = ((x 0).val + j) % 16 := by
  subst h hA
  intro x
  show ((iota .scVector S16 32 [0] iota_S16_d0_w32_scVector x + c) &&& 15#32).toNat = _
  have hx : (x 0).val < 16 := (x 0).isLt
  have e15 : (15#32 : BitVec 32).toNat = 15 := by decide
  rw [BitVec.toNat_and, BitVec.toNat_add, iota_single_apply, BitVec.toNat_ofNat, e15, hc,
    Nat.mod_eq_of_lt (show (x 0).val < 2 ^ 32 by omega), Nat.mod_eq_of_lt (show (x 0).val + j < 2 ^ 32 by omega)]
  exact Nat.and_two_pow_sub_one_eq_mod _ 4

/-- The row vector of trip `k`: lane + 16 k. -/
theorem rowv_toNat (v2 : IVec S16 32) (hv2 : v2 = iota .scVector S16 32 [0] iota_S16_d0_w32_scVector) (k : ℕ) (hk : k < 8) :
    ∀ x, (addi v2 (broadcast S16 (Scalar.muli 16#32 (Scf.iv 0#32 1#32 k))) x).toNat = (x 0).val + 16 * k := by
  subst hv2
  intro x
  show (iota .scVector S16 32 [0] iota_S16_d0_w32_scVector x + 16#32 * (0#32 + BitVec.ofNat 32 k * 1#32)).toNat = _
  have hx : (x 0).val < 16 := (x 0).isLt
  have ek : (BitVec.ofNat 32 k).toNat = k := by rw [BitVec.toNat_ofNat]; omega
  have ex : (BitVec.ofNat 32 (x 0).val).toNat = (x 0).val := by rw [BitVec.toNat_ofNat]; omega
  have e16 : (16#32 : BitVec 32).toNat = 16 := by decide
  have e0 : (0#32 : BitVec 32).toNat = 0 := by decide
  have e1 : (1#32 : BitVec 32).toNat = 1 := by decide
  rw [iota_single_apply, BitVec.toNat_add, BitVec.toNat_mul, BitVec.toNat_add, BitVec.toNat_mul, e16, e0, e1, ek, ex]
  omega

/-- A store's row vector: a rotation plus 16 fb. -/
theorem rotc_toNat (vJ : IVec S16 32) (j : ℕ) (hJ : ∀ x, (vJ x).toNat = ((x 0).val + j) % 16) (c : BitVec 32) (fb : ℕ)
    (hc : c.toNat = 16 * fb) (hfb : fb < 4) : ∀ x, (addi vJ (broadcast S16 c) x).toNat = ((x 0).val + j) % 16 + 16 * fb := by
  intro x
  show (vJ x + c).toNat = _
  rw [BitVec.toNat_add, hJ, hc]
  omega

/-- A load's column vector: the parity word plus 16 fb plus the rotation. -/
theorem colv_toNat (p : IVec S16 32) (hp : ∀ x, (p x).toNat = 0 ∨ (p x).toNat = 64) (c : BitVec 32) (fb : ℕ)
    (hc : c.toNat = 16 * fb) (hfb : fb < 4) (vJ : IVec S16 32) (j : ℕ) (hJ : ∀ x, (vJ x).toNat = ((x 0).val + j) % 16) :
    ∀ x, (addi (addi p (broadcast S16 c)) vJ x).toNat = (p x).toNat + 16 * fb + ((x 0).val + j) % 16 := by
  intro x
  show (p x + c + vJ x).toNat = _
  rw [BitVec.toNat_add, BitVec.toNat_add, hJ, hc]
  rcases hp x with h | h <;> rw [h] <;> omega

/-! ## The scratches at an index -/

/-- Row `kk` of the parity scratch, loaded and flattened, holds at lane `x` the parity word of (kk, lane). -/
theorem prow_apply3 (d : Dev nD) (L : grid0.Coords) (P : Buf (Elt F) ((b3).view.loc (thr d L)))
    (off : Fin 2 → ℕ) (hoff : ∀ a, off a + S1x16.size a ≤ S8x16.size a) (hc : S1x16.ShapeCasts S16) (kk : ℕ) (hk : kk < 8)
    (he : off = ![kk, 0]) (x : S16.Idx) :
    shapeCast S16 (View.readAt (Elt F) (b3).view (Rect.unit (s := S8x16) off S1x16.size hoff).toLoadRect P) hc x
      = P (ix2 (⟨kk, hk⟩ : Fin 8) (⟨(x 0).val, (x 0).isLt⟩ : Fin 16)) := by
  subst he
  rw [shapeCast_apply _ hc x (ix2 (0 : Fin 1) (⟨(x 0).val, (x 0).isLt⟩ : Fin 16))
    (by rw [Shape.rowMajor_val_two, Shape.rowMajor_val_one]; simp)]
  simp only [View.readAt_apply, Memref.view_whole, View.read_whole]
  refine congrArg P (funext fun a => Fin.ext ?_)
  match a with
  | ⟨0, _⟩ => simp [LoadRect.idx_apply]
  | ⟨1, _⟩ => simp [LoadRect.idx_apply]

/-- The rows scratch loaded whole is its contents. -/
theorem whole_read3 (d : Dev nD) (L : grid0.Coords) (R : Buf (Elt F) ((b5).view.loc (thr d L))) :
    View.readAt (Elt F) (b5).view (LoadRect.whole S128x128) R = R := by
  funext x
  simp only [View.readAt_apply, Memref.view_whole, View.read_whole]
  refine congrArg R (funext fun a => Fin.ext ?_)
  simp [LoadRect.idx_apply, LoadRect.whole, Rect.whole]

/-- The destination scratch loaded whole is its contents. -/
theorem whole_readD3 (d : Dev nD) (L : grid0.Coords) (g : Buf (Elt F) ((b7).view.loc (thr d L))) :
    View.readAt (Elt F) (b7).view (LoadRect.whole S64x128) g = g := by
  funext x
  simp only [View.readAt_apply, Memref.view_whole, View.read_whole]
  refine congrArg g (funext fun a => Fin.ext ?_)
  simp [LoadRect.idx_apply, LoadRect.whole, Rect.whole]

/-- The destination scratch after one whole store is what was stored. -/
theorem whole_write3 (d : Dev nD) (L : grid0.Coords) (g w : Buf (Elt F) ((b7).view.loc (thr d L))) :
    (b7).view.writes (Elt F) g [⟨Rect.whole S64x128, w⟩] = w := by
  funext t
  have h := View.read_writes_cons_emb (b7).view g (Rect.whole S64x128) w [] t
  simp only [Memref.view_whole, View.read_whole] at h ⊢
  have e : (Rect.whole S64x128).emb t = t := by
    funext a
    refine Fin.ext ?_
    simp [Rect.emb_apply, Rect.whole]
  rw [e] at h
  exact h

/-! ## The value a load hands a store -/

/-- The parity word of a column of trip `kk`. -/
theorem parOf_row3 (P : SP.Idx → BitVec 32) (kk : ℕ) (hk : kk < 8) (x : S16.Idx) (r : ℕ) (hr : r < 128) (e : r = (x 0).val + 16 * kk) :
    parOf P r hr = P (ix2 (⟨kk, hk⟩ : Fin 8) (⟨(x 0).val, (x 0).isLt⟩ : Fin 16)) := by
  subst e
  have hx : (x 0).val < 16 := (x 0).isLt
  unfold parOf
  refine congrArg P (funext fun a => ?_)
  match a with
  | ⟨0, _⟩ => exact Fin.ext (by show ((x 0).val + 16 * kk) / 16 = kk; omega)
  | ⟨1, _⟩ => exact Fin.ext (by show ((x 0).val + 16 * kk) % 16 = (x 0).val; omega)

/-- What a load reads at lane `x` is the transposed value at the entry the matching store names for lane `x`. -/
theorem val_right3 (P : SP.Idx → BitVec 32) (R : SR.Idx → Elt F .f32)
    (hP : ∀ j, (P j).toNat = 0 ∨ (P j).toNat = 64) (kk : ℕ) (hk : kk < 8) (j fb : ℕ) (hfb : fb < 4)
    (prow rowv colv rotc : IVec S16 32)
    (hprow : ∀ x, prow x = P (ix2 (⟨kk, hk⟩ : Fin 8) (⟨(x 0).val, (x 0).isLt⟩ : Fin 16)))
    (hrow : ∀ x, (rowv x).toNat = (x 0).val + 16 * kk)
    (hrot : ∀ x, (rotc x).toNat = ((x 0).val + j) % 16 + 16 * fb)
    (hcol : ∀ x, (colv x).toNat = (prow x).toNat + 16 * fb + ((x 0).val + j) % 16)
    (hl : ∀ a x, ((![rowv, colv] : Fin 2 → IVec S16 32) a x).toNat < SR.size a)
    (hs : ∀ a x, ((![rotc, rowv] : Fin 2 → IVec S16 32) a x).toNat < SD.size a) :
    ∀ x, loadIdx (F := F) (s := SR) (e := .f32) R ![rowv, colv] hl x = tval P R (idxAt (s := SD) ![rotc, rowv] hs x) := by
  intro x
  unfold loadIdx tval
  refine congrArg R (funext fun a => Fin.ext ?_)
  match a with
  | ⟨0, _⟩ => rfl
  | ⟨1, _⟩ =>
    have ht1 : ((idxAt (s := SD) ![rotc, rowv] hs x) 1).val = (x 0).val + 16 * kk := hrow x
    have ht0 : ((idxAt (s := SD) ![rotc, rowv] hs x) 0).val = ((x 0).val + j) % 16 + 16 * fb := hrot x
    show (colv x).toNat = ((parOf P ((idxAt (s := SD) ![rotc, rowv] hs x) 1).val (sd_col_lt _)).toNat
      + ((idxAt (s := SD) ![rotc, rowv] hs x) 0).val) % 128
    rw [parOf_row3 P kk hk x _ _ ht1, ht0, hcol, hprow]
    have hx : (x 0).val < 16 := (x 0).isLt
    rcases hP (ix2 (⟨kk, hk⟩ : Fin 8) (⟨(x 0).val, (x 0).isLt⟩ : Fin 16)) with h | h <;> rw [h] <;> omega

/-! ## One store of a trip, as the run leaves it -/

/-- Whatever a buffer holds can be named, with the equation. -/
theorem hold_eq {ℓ : Loc nD τ sig} {q : PosShare TreeShare} (C : Buf (Elt F) ℓ) :
    (ℓ ↦{q} C : sProp 𝕄) ⊢ iprop(∃ g', ⌜g' = C⌝ ∗ ℓ ↦{q} g') := by
  iintro H
  iexists C
  isplitr
  · ipureintro; rfl
  · iexact H

/-- The contents the run leaves after store number `n = 16 fb + j` of trip `kk` are right on every older column and on
    every entry of the trip whose store has run. -/
theorem store_fact3 (d : Dev nD) (L : grid0.Coords) (P : Buf (Elt F) ((b3).view.loc (thr d L))) (R : Buf (Elt F) ((b5).view.loc (thr d L)))
    (hP : ∀ j, (P j).toNat = 0 ∨ (P j).toNat = 64) (kk : ℕ) (hk : kk < 8) (n j fb : ℕ) (hj : j < 16) (hfb : fb < 4) (hn : n = 16 * fb + j)
    (v2 : IVec S16 32) (hv2 : v2 = iota .scVector S16 32 [0] iota_S16_d0_w32_scVector)
    (vJ : IVec S16 32) (hJ : ∀ x, (vJ x).toNat = ((x 0).val + j) % 16) (c : BitVec 32) (hc : c.toNat = 16 * fb)
    (off : Fin 2 → ℕ) (hoff : ∀ a, off a + S1x16.size a ≤ S8x16.size a) (hcst : S1x16.ShapeCasts S16) (he : off = ![kk, 0])
    (g : Buf (Elt F) ((b7).view.loc (thr d L))) (hg : ∀ t, DoneAt kk n t → g t = tval P R t)
    (hl : ∀ a x, ((![addi v2 (broadcast S16 (Scalar.muli 16#32 (Scf.iv 0#32 1#32 kk))),
        addi (addi (shapeCast S16 (View.readAt (Elt F) (b3).view (Rect.unit (s := S8x16) off S1x16.size hoff).toLoadRect P) hcst) (broadcast S16 c)) vJ]
          : Fin 2 → IVec S16 32) a x).toNat < S128x128.size a)
    (hs : ∀ a x, ((![addi vJ (broadcast S16 c), addi v2 (broadcast S16 (Scalar.muli 16#32 (Scf.iv 0#32 1#32 kk)))] : Fin 2 → IVec S16 32) a x).toNat < S64x128.size a) :
    ∀ t, DoneAt kk (n + 1) t → ((b7).view.writes (Elt F) g
      [⟨Rect.whole S64x128, storeIdx (View.readAt (Elt F) (b7).view (LoadRect.whole S64x128) g)
          ![addi vJ (broadcast S16 c), addi v2 (broadcast S16 (Scalar.muli 16#32 (Scf.iv 0#32 1#32 kk)))]
          (loadIdx (View.readAt (Elt F) (b5).view (LoadRect.whole S128x128) R)
            ![addi v2 (broadcast S16 (Scalar.muli 16#32 (Scf.iv 0#32 1#32 kk))),
              addi (addi (shapeCast S16 (View.readAt (Elt F) (b3).view (Rect.unit (s := S8x16) off S1x16.size hoff).toLoadRect P) hcst) (broadcast S16 c)) vJ] hl)
          (fun _ => 1#1) false hs⟩]) t = tval P R t := by
  rw [whole_write3, whole_readD3, whole_read3]
  exact store_step P R kk n j fb hj hfb hn g hg _ _ (rotc_toNat vJ j hJ c fb hc hfb) (rowv_toNat v2 hv2 kk hk) hs _
    (val_right3 P R hP kk hk j fb hfb _ _ _ _ (prow_apply3 d L P off hoff hcst kk hk he) (rowv_toNat v2 hv2 kk hk)
      (rotc_toNat vJ j hJ c fb hc hfb)
      (colv_toNat _ (fun x => by rw [prow_apply3 d L P off hoff hcst kk hk he]; exact hP _) c fb hc hfb vJ j hJ) hl hs)

/-- After store number `n = 16 fb + j` of trip `kk` the destination holds something right on every older column and on
    every entry of the trip whose store has run. -/
theorem store_intro3 (d : Dev nD) (L : grid0.Coords) (P : Buf (Elt F) ((b3).view.loc (thr d L))) (R : Buf (Elt F) ((b5).view.loc (thr d L)))
    (hP : ∀ j, (P j).toNat = 0 ∨ (P j).toNat = 64) (kk : ℕ) (hk : kk < 8) (n j fb : ℕ) (hj : j < 16) (hfb : fb < 4) (hn : n = 16 * fb + j)
    (v2 : IVec S16 32) (hv2 : v2 = iota .scVector S16 32 [0] iota_S16_d0_w32_scVector)
    (vJ : IVec S16 32) (hJ : ∀ x, (vJ x).toNat = ((x 0).val + j) % 16) (c : BitVec 32) (hc : c.toNat = 16 * fb)
    (off : Fin 2 → ℕ) (hoff : ∀ a, off a + S1x16.size a ≤ S8x16.size a) (hcst : S1x16.ShapeCasts S16) (he : off = ![kk, 0])
    (g : Buf (Elt F) ((b7).view.loc (thr d L))) (hg : ∀ t, DoneAt kk n t → g t = tval P R t)
    (hl : ∀ a x, ((![addi v2 (broadcast S16 (Scalar.muli 16#32 (Scf.iv 0#32 1#32 kk))),
        addi (addi (shapeCast S16 (View.readAt (Elt F) (b3).view (Rect.unit (s := S8x16) off S1x16.size hoff).toLoadRect P) hcst) (broadcast S16 c)) vJ]
          : Fin 2 → IVec S16 32) a x).toNat < S128x128.size a)
    (hs : ∀ a x, ((![addi vJ (broadcast S16 c), addi v2 (broadcast S16 (Scalar.muli 16#32 (Scf.iv 0#32 1#32 kk)))] : Fin 2 → IVec S16 32) a x).toNat < S64x128.size a) :
    ((b7).view.loc (thr d L) ↦{fullShare} (b7).view.writes (Elt F) g
      [⟨Rect.whole S64x128, storeIdx (View.readAt (Elt F) (b7).view (LoadRect.whole S64x128) g)
          ![addi vJ (broadcast S16 c), addi v2 (broadcast S16 (Scalar.muli 16#32 (Scf.iv 0#32 1#32 kk)))]
          (loadIdx (View.readAt (Elt F) (b5).view (LoadRect.whole S128x128) R)
            ![addi v2 (broadcast S16 (Scalar.muli 16#32 (Scf.iv 0#32 1#32 kk))),
              addi (addi (shapeCast S16 (View.readAt (Elt F) (b3).view (Rect.unit (s := S8x16) off S1x16.size hoff).toLoadRect P) hcst) (broadcast S16 c)) vJ] hl)
          (fun _ => 1#1) false hs⟩] : sProp 𝕄)
      ⊢ iprop(∃ g', ⌜∀ t, DoneAt kk (n + 1) t → g' t = tval P R t⌝ ∗ (b7).view.loc (thr d L) ↦{fullShare} g') := by
  iintro H
  iexists _
  isplitr
  rotate_left
  · iexact H
  · ipureintro
    rw [whole_write3, whole_readD3, whole_read3]
    exact store_step P R kk n j fb hj hfb hn g hg _ _ (rotc_toNat vJ j hJ c fb hc hfb) (rowv_toNat v2 hv2 kk hk) hs _
      (val_right3 P R hP kk hk j fb hfb _ _ _ _ (prow_apply3 d L P off hoff hcst kk hk he) (rowv_toNat v2 hv2 kk hk)
        (rotc_toNat vJ j hJ c fb hc hfb)
        (colv_toNat _ (fun x => by rw [prow_apply3 d L P off hoff hcst kk hk he]; exact hP _) c fb hc hfb vJ j hJ) hl hs)

/-! ## What a trip with value keeps -/

/-- The parity scratch and the rows scratch at their contents; the destination at some contents that are the transposed
    values on every column below `16 n`. -/
def invUV3 (d : Dev nD) (L : grid0.Coords) (P : Buf (Elt F) ((b3).view.loc (thr d L))) (R : Buf (Elt F) ((b5).view.loc (thr d L)))
    (n : Nat) (_ : PUnit) : sProp 𝕄 :=
  iprop(((b3).view.loc (thr d L) ↦{fullShare} P) ∗ ((b5).view.loc (thr d L) ↦{fullShare} R)
    ∗ ∃ f : Buf (Elt F) ((b7).view.loc (thr d L)), ⌜∀ t : SD.Idx, (t 1).val < 16 * n → f t = tval P R t⌝ ∗ (b7).view.loc (thr d L) ↦{fullShare} f)

end Cert.Proof.KI

end
-- ==== Proof.KITripV1.lean ====
import proofs.«206508_g82686710383178_cont_9to1c4b_561_19_alg».proof.Proof.KITripVal1
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of the first transpose of slot 0, with the value. The trip's sixty-four indexed stores each write, from every lane, the transposed
  value at the entry the lane names: after store number n the destination is right on every older column and on every entry of the
  trip whose store number is below n + 1; after the last one it is right on every column below 16 (k + 1).
-/
set_option sl_exec.dischHeartbeats 100000 in
set_option maxHeartbeats 40000000 in
theorem trip_t1_val (d : Dev nD) (L : grid0.Coords) (P : Buf (Elt F) ((b3).view.loc (thr d L))) (R : Buf (Elt F) ((b5).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v300 : Vec F S16 .i32) (c1_i32_135 : BitVec 32) (k : Fin k0_t1_loop.trips) (acc : PUnit) :
    invUV3 d L P R k.val acc ⊢ wp frame (wpE (defs₀ (F := F)) 𝒱₀ (thr d L) none) Set.univ
      (k0_t1_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v300 c1_i32_135 k acc)
      (invUV3 d L P R (k.val + 1)) := by
  have hk : k.val < 8 := by
    have h := k.isLt
    have e : k0_t1_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  have rv8 := rot_exact v8 _ rfl _ 0 (by decide) (by decide) hv8
  have rv12 := rot_exact v12 _ rfl _ 1 (by decide) (by decide) hv12
  have rv16 := rot_exact v16 _ rfl _ 2 (by decide) (by decide) hv16
  have rv20 := rot_exact v20 _ rfl _ 3 (by decide) (by decide) hv20
  have rv24 := rot_exact v24 _ rfl _ 4 (by decide) (by decide) hv24
  have rv28 := rot_exact v28 _ rfl _ 5 (by decide) (by decide) hv28
  have rv32 := rot_exact v32 _ rfl _ 6 (by decide) (by decide) hv32
  have rv36 := rot_exact v36 v2 hv2 _ 7 (by decide) (by decide) hv36
  have rv40 := rot_exact v40 v2 hv2 _ 8 (by decide) (by decide) hv40
  have rv44 := rot_exact v44 v2 hv2 _ 9 (by decide) (by decide) hv44
  have rv48 := rot_exact v48 v2 hv2 _ 10 (by decide) (by decide) hv48
  have rv52 := rot_exact v52 v2 hv2 _ 11 (by decide) (by decide) hv52
  have rv56 := rot_exact v56 v2 hv2 _ 12 (by decide) (by decide) hv56
  have rv60 := rot_exact v60 v2 hv2 _ 13 (by decide) (by decide) hv60
  have rv64 := rot_exact v64 v2 hv2 _ 14 (by decide) (by decide) hv64
  have rv68 := rot_exact v68 v2 hv2 _ 15 (by decide) (by decide) hv68
  unfold invUV3
  iintro ⟨HA, HR, %f, %hf, HD⟩
  have hg0 : ∀ t, DoneAt k.val 0 t → f t = tval P R t := fun t ht => hf t (doneAt_zero.1 ht)
  unfold k0_t1_body
  sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g0, %e0, HD⟩
  have hg0 : ∀ t, DoneAt k.val (0 + 1) t → g0 t = tval P R t := by
    subst e0
    exact store_fact3 d L P R hP k.val hk 0 0 0 (by decide) (by decide) (by decide) v2 hv2 v8 rv8 0#32 (by decide) _ _ _ (k0_off2_eq k) f hg0 _ _
  clear e0
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g1, %e1, HD⟩
  have hg1 : ∀ t, DoneAt k.val (1 + 1) t → g1 t = tval P R t := by
    subst e1
    exact store_fact3 d L P R hP k.val hk 1 1 0 (by decide) (by decide) (by decide) v2 hv2 v12 rv12 0#32 (by decide) _ _ _ (k0_off2_eq k) g0 hg0 _ _
  clear e1
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g2, %e2, HD⟩
  have hg2 : ∀ t, DoneAt k.val (2 + 1) t → g2 t = tval P R t := by
    subst e2
    exact store_fact3 d L P R hP k.val hk 2 2 0 (by decide) (by decide) (by decide) v2 hv2 v16 rv16 0#32 (by decide) _ _ _ (k0_off2_eq k) g1 hg1 _ _
  clear e2
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g3, %e3, HD⟩
  have hg3 : ∀ t, DoneAt k.val (3 + 1) t → g3 t = tval P R t := by
    subst e3
    exact store_fact3 d L P R hP k.val hk 3 3 0 (by decide) (by decide) (by decide) v2 hv2 v20 rv20 0#32 (by decide) _ _ _ (k0_off2_eq k) g2 hg2 _ _
  clear e3
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g4, %e4, HD⟩
  have hg4 : ∀ t, DoneAt k.val (4 + 1) t → g4 t = tval P R t := by
    subst e4
    exact store_fact3 d L P R hP k.val hk 4 4 0 (by decide) (by decide) (by decide) v2 hv2 v24 rv24 0#32 (by decide) _ _ _ (k0_off2_eq k) g3 hg3 _ _
  clear e4
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g5, %e5, HD⟩
  have hg5 : ∀ t, DoneAt k.val (5 + 1) t → g5 t = tval P R t := by
    subst e5
    exact store_fact3 d L P R hP k.val hk 5 5 0 (by decide) (by decide) (by decide) v2 hv2 v28 rv28 0#32 (by decide) _ _ _ (k0_off2_eq k) g4 hg4 _ _
  clear e5
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g6, %e6, HD⟩
  have hg6 : ∀ t, DoneAt k.val (6 + 1) t → g6 t = tval P R t := by
    subst e6
    exact store_fact3 d L P R hP k.val hk 6 6 0 (by decide) (by decide) (by decide) v2 hv2 v32 rv32 0#32 (by decide) _ _ _ (k0_off2_eq k) g5 hg5 _ _
  clear e6
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g7, %e7, HD⟩
  have hg7 : ∀ t, DoneAt k.val (7 + 1) t → g7 t = tval P R t := by
    subst e7
    exact store_fact3 d L P R hP k.val hk 7 7 0 (by decide) (by decide) (by decide) v2 hv2 v36 rv36 0#32 (by decide) _ _ _ (k0_off2_eq k) g6 hg6 _ _
  clear e7
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g8, %e8, HD⟩
  have hg8 : ∀ t, DoneAt k.val (8 + 1) t → g8 t = tval P R t := by
    subst e8
    exact store_fact3 d L P R hP k.val hk 8 8 0 (by decide) (by decide) (by decide) v2 hv2 v40 rv40 0#32 (by decide) _ _ _ (k0_off2_eq k) g7 hg7 _ _
  clear e8
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g9, %e9, HD⟩
  have hg9 : ∀ t, DoneAt k.val (9 + 1) t → g9 t = tval P R t := by
    subst e9
    exact store_fact3 d L P R hP k.val hk 9 9 0 (by decide) (by decide) (by decide) v2 hv2 v44 rv44 0#32 (by decide) _ _ _ (k0_off2_eq k) g8 hg8 _ _
  clear e9
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g10, %e10, HD⟩
  have hg10 : ∀ t, DoneAt k.val (10 + 1) t → g10 t = tval P R t := by
    subst e10
    exact store_fact3 d L P R hP k.val hk 10 10 0 (by decide) (by decide) (by decide) v2 hv2 v48 rv48 0#32 (by decide) _ _ _ (k0_off2_eq k) g9 hg9 _ _
  clear e10
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g11, %e11, HD⟩
  have hg11 : ∀ t, DoneAt k.val (11 + 1) t → g11 t = tval P R t := by
    subst e11
    exact store_fact3 d L P R hP k.val hk 11 11 0 (by decide) (by decide) (by decide) v2 hv2 v52 rv52 0#32 (by decide) _ _ _ (k0_off2_eq k) g10 hg10 _ _
  clear e11
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g12, %e12, HD⟩
  have hg12 : ∀ t, DoneAt k.val (12 + 1) t → g12 t = tval P R t := by
    subst e12
    exact store_fact3 d L P R hP k.val hk 12 12 0 (by decide) (by decide) (by decide) v2 hv2 v56 rv56 0#32 (by decide) _ _ _ (k0_off2_eq k) g11 hg11 _ _
  clear e12
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g13, %e13, HD⟩
  have hg13 : ∀ t, DoneAt k.val (13 + 1) t → g13 t = tval P R t := by
    subst e13
    exact store_fact3 d L P R hP k.val hk 13 13 0 (by decide) (by decide) (by decide) v2 hv2 v60 rv60 0#32 (by decide) _ _ _ (k0_off2_eq k) g12 hg12 _ _
  clear e13
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g14, %e14, HD⟩
  have hg14 : ∀ t, DoneAt k.val (14 + 1) t → g14 t = tval P R t := by
    subst e14
    exact store_fact3 d L P R hP k.val hk 14 14 0 (by decide) (by decide) (by decide) v2 hv2 v64 rv64 0#32 (by decide) _ _ _ (k0_off2_eq k) g13 hg13 _ _
  clear e14
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g15, %e15, HD⟩
  have hg15 : ∀ t, DoneAt k.val (15 + 1) t → g15 t = tval P R t := by
    subst e15
    exact store_fact3 d L P R hP k.val hk 15 15 0 (by decide) (by decide) (by decide) v2 hv2 v68 rv68 0#32 (by decide) _ _ _ (k0_off2_eq k) g14 hg14 _ _
  clear e15
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g16, %e16, HD⟩
  have hg16 : ∀ t, DoneAt k.val (16 + 1) t → g16 t = tval P R t := by
    subst e16
    exact store_fact3 d L P R hP k.val hk 16 0 1 (by decide) (by decide) (by decide) v2 hv2 v8 rv8 16#32 (by decide) _ _ _ (k0_off2_eq k) g15 hg15 _ _
  clear e16
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g17, %e17, HD⟩
  have hg17 : ∀ t, DoneAt k.val (17 + 1) t → g17 t = tval P R t := by
    subst e17
    exact store_fact3 d L P R hP k.val hk 17 1 1 (by decide) (by decide) (by decide) v2 hv2 v12 rv12 16#32 (by decide) _ _ _ (k0_off2_eq k) g16 hg16 _ _
  clear e17
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g18, %e18, HD⟩
  have hg18 : ∀ t, DoneAt k.val (18 + 1) t → g18 t = tval P R t := by
    subst e18
    exact store_fact3 d L P R hP k.val hk 18 2 1 (by decide) (by decide) (by decide) v2 hv2 v16 rv16 16#32 (by decide) _ _ _ (k0_off2_eq k) g17 hg17 _ _
  clear e18
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g19, %e19, HD⟩
  have hg19 : ∀ t, DoneAt k.val (19 + 1) t → g19 t = tval P R t := by
    subst e19
    exact store_fact3 d L P R hP k.val hk 19 3 1 (by decide) (by decide) (by decide) v2 hv2 v20 rv20 16#32 (by decide) _ _ _ (k0_off2_eq k) g18 hg18 _ _
  clear e19
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g20, %e20, HD⟩
  have hg20 : ∀ t, DoneAt k.val (20 + 1) t → g20 t = tval P R t := by
    subst e20
    exact store_fact3 d L P R hP k.val hk 20 4 1 (by decide) (by decide) (by decide) v2 hv2 v24 rv24 16#32 (by decide) _ _ _ (k0_off2_eq k) g19 hg19 _ _
  clear e20
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g21, %e21, HD⟩
  have hg21 : ∀ t, DoneAt k.val (21 + 1) t → g21 t = tval P R t := by
    subst e21
    exact store_fact3 d L P R hP k.val hk 21 5 1 (by decide) (by decide) (by decide) v2 hv2 v28 rv28 16#32 (by decide) _ _ _ (k0_off2_eq k) g20 hg20 _ _
  clear e21
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g22, %e22, HD⟩
  have hg22 : ∀ t, DoneAt k.val (22 + 1) t → g22 t = tval P R t := by
    subst e22
    exact store_fact3 d L P R hP k.val hk 22 6 1 (by decide) (by decide) (by decide) v2 hv2 v32 rv32 16#32 (by decide) _ _ _ (k0_off2_eq k) g21 hg21 _ _
  clear e22
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g23, %e23, HD⟩
  have hg23 : ∀ t, DoneAt k.val (23 + 1) t → g23 t = tval P R t := by
    subst e23
    exact store_fact3 d L P R hP k.val hk 23 7 1 (by decide) (by decide) (by decide) v2 hv2 v36 rv36 16#32 (by decide) _ _ _ (k0_off2_eq k) g22 hg22 _ _
  clear e23
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g24, %e24, HD⟩
  have hg24 : ∀ t, DoneAt k.val (24 + 1) t → g24 t = tval P R t := by
    subst e24
    exact store_fact3 d L P R hP k.val hk 24 8 1 (by decide) (by decide) (by decide) v2 hv2 v40 rv40 16#32 (by decide) _ _ _ (k0_off2_eq k) g23 hg23 _ _
  clear e24
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g25, %e25, HD⟩
  have hg25 : ∀ t, DoneAt k.val (25 + 1) t → g25 t = tval P R t := by
    subst e25
    exact store_fact3 d L P R hP k.val hk 25 9 1 (by decide) (by decide) (by decide) v2 hv2 v44 rv44 16#32 (by decide) _ _ _ (k0_off2_eq k) g24 hg24 _ _
  clear e25
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g26, %e26, HD⟩
  have hg26 : ∀ t, DoneAt k.val (26 + 1) t → g26 t = tval P R t := by
    subst e26
    exact store_fact3 d L P R hP k.val hk 26 10 1 (by decide) (by decide) (by decide) v2 hv2 v48 rv48 16#32 (by decide) _ _ _ (k0_off2_eq k) g25 hg25 _ _
  clear e26
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g27, %e27, HD⟩
  have hg27 : ∀ t, DoneAt k.val (27 + 1) t → g27 t = tval P R t := by
    subst e27
    exact store_fact3 d L P R hP k.val hk 27 11 1 (by decide) (by decide) (by decide) v2 hv2 v52 rv52 16#32 (by decide) _ _ _ (k0_off2_eq k) g26 hg26 _ _
  clear e27
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g28, %e28, HD⟩
  have hg28 : ∀ t, DoneAt k.val (28 + 1) t → g28 t = tval P R t := by
    subst e28
    exact store_fact3 d L P R hP k.val hk 28 12 1 (by decide) (by decide) (by decide) v2 hv2 v56 rv56 16#32 (by decide) _ _ _ (k0_off2_eq k) g27 hg27 _ _
  clear e28
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g29, %e29, HD⟩
  have hg29 : ∀ t, DoneAt k.val (29 + 1) t → g29 t = tval P R t := by
    subst e29
    exact store_fact3 d L P R hP k.val hk 29 13 1 (by decide) (by decide) (by decide) v2 hv2 v60 rv60 16#32 (by decide) _ _ _ (k0_off2_eq k) g28 hg28 _ _
  clear e29
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g30, %e30, HD⟩
  have hg30 : ∀ t, DoneAt k.val (30 + 1) t → g30 t = tval P R t := by
    subst e30
    exact store_fact3 d L P R hP k.val hk 30 14 1 (by decide) (by decide) (by decide) v2 hv2 v64 rv64 16#32 (by decide) _ _ _ (k0_off2_eq k) g29 hg29 _ _
  clear e30
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g31, %e31, HD⟩
  have hg31 : ∀ t, DoneAt k.val (31 + 1) t → g31 t = tval P R t := by
    subst e31
    exact store_fact3 d L P R hP k.val hk 31 15 1 (by decide) (by decide) (by decide) v2 hv2 v68 rv68 16#32 (by decide) _ _ _ (k0_off2_eq k) g30 hg30 _ _
  clear e31
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g32, %e32, HD⟩
  have hg32 : ∀ t, DoneAt k.val (32 + 1) t → g32 t = tval P R t := by
    subst e32
    exact store_fact3 d L P R hP k.val hk 32 0 2 (by decide) (by decide) (by decide) v2 hv2 v8 rv8 32#32 (by decide) _ _ _ (k0_off2_eq k) g31 hg31 _ _
  clear e32
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g33, %e33, HD⟩
  have hg33 : ∀ t, DoneAt k.val (33 + 1) t → g33 t = tval P R t := by
    subst e33
    exact store_fact3 d L P R hP k.val hk 33 1 2 (by decide) (by decide) (by decide) v2 hv2 v12 rv12 32#32 (by decide) _ _ _ (k0_off2_eq k) g32 hg32 _ _
  clear e33
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g34, %e34, HD⟩
  have hg34 : ∀ t, DoneAt k.val (34 + 1) t → g34 t = tval P R t := by
    subst e34
    exact store_fact3 d L P R hP k.val hk 34 2 2 (by decide) (by decide) (by decide) v2 hv2 v16 rv16 32#32 (by decide) _ _ _ (k0_off2_eq k) g33 hg33 _ _
  clear e34
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g35, %e35, HD⟩
  have hg35 : ∀ t, DoneAt k.val (35 + 1) t → g35 t = tval P R t := by
    subst e35
    exact store_fact3 d L P R hP k.val hk 35 3 2 (by decide) (by decide) (by decide) v2 hv2 v20 rv20 32#32 (by decide) _ _ _ (k0_off2_eq k) g34 hg34 _ _
  clear e35
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g36, %e36, HD⟩
  have hg36 : ∀ t, DoneAt k.val (36 + 1) t → g36 t = tval P R t := by
    subst e36
    exact store_fact3 d L P R hP k.val hk 36 4 2 (by decide) (by decide) (by decide) v2 hv2 v24 rv24 32#32 (by decide) _ _ _ (k0_off2_eq k) g35 hg35 _ _
  clear e36
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g37, %e37, HD⟩
  have hg37 : ∀ t, DoneAt k.val (37 + 1) t → g37 t = tval P R t := by
    subst e37
    exact store_fact3 d L P R hP k.val hk 37 5 2 (by decide) (by decide) (by decide) v2 hv2 v28 rv28 32#32 (by decide) _ _ _ (k0_off2_eq k) g36 hg36 _ _
  clear e37
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g38, %e38, HD⟩
  have hg38 : ∀ t, DoneAt k.val (38 + 1) t → g38 t = tval P R t := by
    subst e38
    exact store_fact3 d L P R hP k.val hk 38 6 2 (by decide) (by decide) (by decide) v2 hv2 v32 rv32 32#32 (by decide) _ _ _ (k0_off2_eq k) g37 hg37 _ _
  clear e38
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g39, %e39, HD⟩
  have hg39 : ∀ t, DoneAt k.val (39 + 1) t → g39 t = tval P R t := by
    subst e39
    exact store_fact3 d L P R hP k.val hk 39 7 2 (by decide) (by decide) (by decide) v2 hv2 v36 rv36 32#32 (by decide) _ _ _ (k0_off2_eq k) g38 hg38 _ _
  clear e39
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g40, %e40, HD⟩
  have hg40 : ∀ t, DoneAt k.val (40 + 1) t → g40 t = tval P R t := by
    subst e40
    exact store_fact3 d L P R hP k.val hk 40 8 2 (by decide) (by decide) (by decide) v2 hv2 v40 rv40 32#32 (by decide) _ _ _ (k0_off2_eq k) g39 hg39 _ _
  clear e40
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g41, %e41, HD⟩
  have hg41 : ∀ t, DoneAt k.val (41 + 1) t → g41 t = tval P R t := by
    subst e41
    exact store_fact3 d L P R hP k.val hk 41 9 2 (by decide) (by decide) (by decide) v2 hv2 v44 rv44 32#32 (by decide) _ _ _ (k0_off2_eq k) g40 hg40 _ _
  clear e41
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g42, %e42, HD⟩
  have hg42 : ∀ t, DoneAt k.val (42 + 1) t → g42 t = tval P R t := by
    subst e42
    exact store_fact3 d L P R hP k.val hk 42 10 2 (by decide) (by decide) (by decide) v2 hv2 v48 rv48 32#32 (by decide) _ _ _ (k0_off2_eq k) g41 hg41 _ _
  clear e42
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g43, %e43, HD⟩
  have hg43 : ∀ t, DoneAt k.val (43 + 1) t → g43 t = tval P R t := by
    subst e43
    exact store_fact3 d L P R hP k.val hk 43 11 2 (by decide) (by decide) (by decide) v2 hv2 v52 rv52 32#32 (by decide) _ _ _ (k0_off2_eq k) g42 hg42 _ _
  clear e43
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g44, %e44, HD⟩
  have hg44 : ∀ t, DoneAt k.val (44 + 1) t → g44 t = tval P R t := by
    subst e44
    exact store_fact3 d L P R hP k.val hk 44 12 2 (by decide) (by decide) (by decide) v2 hv2 v56 rv56 32#32 (by decide) _ _ _ (k0_off2_eq k) g43 hg43 _ _
  clear e44
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g45, %e45, HD⟩
  have hg45 : ∀ t, DoneAt k.val (45 + 1) t → g45 t = tval P R t := by
    subst e45
    exact store_fact3 d L P R hP k.val hk 45 13 2 (by decide) (by decide) (by decide) v2 hv2 v60 rv60 32#32 (by decide) _ _ _ (k0_off2_eq k) g44 hg44 _ _
  clear e45
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g46, %e46, HD⟩
  have hg46 : ∀ t, DoneAt k.val (46 + 1) t → g46 t = tval P R t := by
    subst e46
    exact store_fact3 d L P R hP k.val hk 46 14 2 (by decide) (by decide) (by decide) v2 hv2 v64 rv64 32#32 (by decide) _ _ _ (k0_off2_eq k) g45 hg45 _ _
  clear e46
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g47, %e47, HD⟩
  have hg47 : ∀ t, DoneAt k.val (47 + 1) t → g47 t = tval P R t := by
    subst e47
    exact store_fact3 d L P R hP k.val hk 47 15 2 (by decide) (by decide) (by decide) v2 hv2 v68 rv68 32#32 (by decide) _ _ _ (k0_off2_eq k) g46 hg46 _ _
  clear e47
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g48, %e48, HD⟩
  have hg48 : ∀ t, DoneAt k.val (48 + 1) t → g48 t = tval P R t := by
    subst e48
    exact store_fact3 d L P R hP k.val hk 48 0 3 (by decide) (by decide) (by decide) v2 hv2 v8 rv8 48#32 (by decide) _ _ _ (k0_off2_eq k) g47 hg47 _ _
  clear e48
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g49, %e49, HD⟩
  have hg49 : ∀ t, DoneAt k.val (49 + 1) t → g49 t = tval P R t := by
    subst e49
    exact store_fact3 d L P R hP k.val hk 49 1 3 (by decide) (by decide) (by decide) v2 hv2 v12 rv12 48#32 (by decide) _ _ _ (k0_off2_eq k) g48 hg48 _ _
  clear e49
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g50, %e50, HD⟩
  have hg50 : ∀ t, DoneAt k.val (50 + 1) t → g50 t = tval P R t := by
    subst e50
    exact store_fact3 d L P R hP k.val hk 50 2 3 (by decide) (by decide) (by decide) v2 hv2 v16 rv16 48#32 (by decide) _ _ _ (k0_off2_eq k) g49 hg49 _ _
  clear e50
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g51, %e51, HD⟩
  have hg51 : ∀ t, DoneAt k.val (51 + 1) t → g51 t = tval P R t := by
    subst e51
    exact store_fact3 d L P R hP k.val hk 51 3 3 (by decide) (by decide) (by decide) v2 hv2 v20 rv20 48#32 (by decide) _ _ _ (k0_off2_eq k) g50 hg50 _ _
  clear e51
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g52, %e52, HD⟩
  have hg52 : ∀ t, DoneAt k.val (52 + 1) t → g52 t = tval P R t := by
    subst e52
    exact store_fact3 d L P R hP k.val hk 52 4 3 (by decide) (by decide) (by decide) v2 hv2 v24 rv24 48#32 (by decide) _ _ _ (k0_off2_eq k) g51 hg51 _ _
  clear e52
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g53, %e53, HD⟩
  have hg53 : ∀ t, DoneAt k.val (53 + 1) t → g53 t = tval P R t := by
    subst e53
    exact store_fact3 d L P R hP k.val hk 53 5 3 (by decide) (by decide) (by decide) v2 hv2 v28 rv28 48#32 (by decide) _ _ _ (k0_off2_eq k) g52 hg52 _ _
  clear e53
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g54, %e54, HD⟩
  have hg54 : ∀ t, DoneAt k.val (54 + 1) t → g54 t = tval P R t := by
    subst e54
    exact store_fact3 d L P R hP k.val hk 54 6 3 (by decide) (by decide) (by decide) v2 hv2 v32 rv32 48#32 (by decide) _ _ _ (k0_off2_eq k) g53 hg53 _ _
  clear e54
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g55, %e55, HD⟩
  have hg55 : ∀ t, DoneAt k.val (55 + 1) t → g55 t = tval P R t := by
    subst e55
    exact store_fact3 d L P R hP k.val hk 55 7 3 (by decide) (by decide) (by decide) v2 hv2 v36 rv36 48#32 (by decide) _ _ _ (k0_off2_eq k) g54 hg54 _ _
  clear e55
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g56, %e56, HD⟩
  have hg56 : ∀ t, DoneAt k.val (56 + 1) t → g56 t = tval P R t := by
    subst e56
    exact store_fact3 d L P R hP k.val hk 56 8 3 (by decide) (by decide) (by decide) v2 hv2 v40 rv40 48#32 (by decide) _ _ _ (k0_off2_eq k) g55 hg55 _ _
  clear e56
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g57, %e57, HD⟩
  have hg57 : ∀ t, DoneAt k.val (57 + 1) t → g57 t = tval P R t := by
    subst e57
    exact store_fact3 d L P R hP k.val hk 57 9 3 (by decide) (by decide) (by decide) v2 hv2 v44 rv44 48#32 (by decide) _ _ _ (k0_off2_eq k) g56 hg56 _ _
  clear e57
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g58, %e58, HD⟩
  have hg58 : ∀ t, DoneAt k.val (58 + 1) t → g58 t = tval P R t := by
    subst e58
    exact store_fact3 d L P R hP k.val hk 58 10 3 (by decide) (by decide) (by decide) v2 hv2 v48 rv48 48#32 (by decide) _ _ _ (k0_off2_eq k) g57 hg57 _ _
  clear e58
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g59, %e59, HD⟩
  have hg59 : ∀ t, DoneAt k.val (59 + 1) t → g59 t = tval P R t := by
    subst e59
    exact store_fact3 d L P R hP k.val hk 59 11 3 (by decide) (by decide) (by decide) v2 hv2 v52 rv52 48#32 (by decide) _ _ _ (k0_off2_eq k) g58 hg58 _ _
  clear e59
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g60, %e60, HD⟩
  have hg60 : ∀ t, DoneAt k.val (60 + 1) t → g60 t = tval P R t := by
    subst e60
    exact store_fact3 d L P R hP k.val hk 60 12 3 (by decide) (by decide) (by decide) v2 hv2 v56 rv56 48#32 (by decide) _ _ _ (k0_off2_eq k) g59 hg59 _ _
  clear e60
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g61, %e61, HD⟩
  have hg61 : ∀ t, DoneAt k.val (61 + 1) t → g61 t = tval P R t := by
    subst e61
    exact store_fact3 d L P R hP k.val hk 61 13 3 (by decide) (by decide) (by decide) v2 hv2 v60 rv60 48#32 (by decide) _ _ _ (k0_off2_eq k) g60 hg60 _ _
  clear e61
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g62, %e62, HD⟩
  have hg62 : ∀ t, DoneAt k.val (62 + 1) t → g62 t = tval P R t := by
    subst e62
    exact store_fact3 d L P R hP k.val hk 62 14 3 (by decide) (by decide) (by decide) v2 hv2 v64 rv64 48#32 (by decide) _ _ _ (k0_off2_eq k) g61 hg61 _ _
  clear e62
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g63, %e63, HD⟩
  have hg63 : ∀ t, DoneAt k.val (63 + 1) t → g63 t = tval P R t := by
    subst e63
    exact store_fact3 d L P R hP k.val hk 63 15 3 (by decide) (by decide) (by decide) v2 hv2 v68 rv68 48#32 (by decide) _ _ _ (k0_off2_eq k) g62 hg62 _ _
  clear e63
  sl_step
  isplitl [HA]; · iexact HA
  isplitl [HR]; · iexact HR
  iexists g63
  isplitr
  · ipureintro
    exact fun t ht => hg63 t (doneAt_last ht)
  · iexact HD

end Cert.Proof.KI

end
-- ==== Proof.KITripVal2.lean ====
/-
  The transpose of one slot, one store at a time, over the kernel's own vectors.

  Row k of the parity scratch, flattened, holds at lane l the parity word P[k, l]. The row vector of trip k is
  lane + 16 k. A rotation vector is (lane + j) mod 16; a store's row vector is a rotation plus 16 fb, and the matching
  load's column vector is the parity word plus 16 fb plus the same rotation: so the load reads, at lane l,
  R[16 k + l, P[k, l] + 16 fb + rot] and the store writes it at (rot + 16 fb, 16 k + l) — the transposed value there.
  None of the additions wraps: the parity word is 0 or 64, 16 fb at most 48, a rotation below 16.
-/
import proofs.«206508_g82686710383178_cont_9to1c4b_561_19_alg».proof.Proof.KITripVal1

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## The scratches at an index -/

/-- Row `kk` of the parity scratch, loaded and flattened, holds at lane `x` the parity word of (kk, lane). -/
theorem prow_apply4 (d : Dev nD) (L : grid0.Coords) (P : Buf (Elt F) ((b4).view.loc (thr d L)))
    (off : Fin 2 → ℕ) (hoff : ∀ a, off a + S1x16.size a ≤ S8x16.size a) (hc : S1x16.ShapeCasts S16) (kk : ℕ) (hk : kk < 8)
    (he : off = ![kk, 0]) (x : S16.Idx) :
    shapeCast S16 (View.readAt (Elt F) (b4).view (Rect.unit (s := S8x16) off S1x16.size hoff).toLoadRect P) hc x
      = P (ix2 (⟨kk, hk⟩ : Fin 8) (⟨(x 0).val, (x 0).isLt⟩ : Fin 16)) := by
  subst he
  rw [shapeCast_apply _ hc x (ix2 (0 : Fin 1) (⟨(x 0).val, (x 0).isLt⟩ : Fin 16))
    (by rw [Shape.rowMajor_val_two, Shape.rowMajor_val_one]; simp)]
  simp only [View.readAt_apply, Memref.view_whole, View.read_whole]
  refine congrArg P (funext fun a => Fin.ext ?_)
  match a with
  | ⟨0, _⟩ => simp [LoadRect.idx_apply]
  | ⟨1, _⟩ => simp [LoadRect.idx_apply]

/-- The rows scratch loaded whole is its contents. -/
theorem whole_read4 (d : Dev nD) (L : grid0.Coords) (R : Buf (Elt F) ((b6).view.loc (thr d L))) :
    View.readAt (Elt F) (b6).view (LoadRect.whole S128x128) R = R := by
  funext x
  simp only [View.readAt_apply, Memref.view_whole, View.read_whole]
  refine congrArg R (funext fun a => Fin.ext ?_)
  simp [LoadRect.idx_apply, LoadRect.whole, Rect.whole]

/-- The destination scratch loaded whole is its contents. -/
theorem whole_readD4 (d : Dev nD) (L : grid0.Coords) (g : Buf (Elt F) ((b8).view.loc (thr d L))) :
    View.readAt (Elt F) (b8).view (LoadRect.whole S64x128) g = g := by
  funext x
  simp only [View.readAt_apply, Memref.view_whole, View.read_whole]
  refine congrArg g (funext fun a => Fin.ext ?_)
  simp [LoadRect.idx_apply, LoadRect.whole, Rect.whole]

/-- The destination scratch after one whole store is what was stored. -/
theorem whole_write4 (d : Dev nD) (L : grid0.Coords) (g w : Buf (Elt F) ((b8).view.loc (thr d L))) :
    (b8).view.writes (Elt F) g [⟨Rect.whole S64x128, w⟩] = w := by
  funext t
  have h := View.read_writes_cons_emb (b8).view g (Rect.whole S64x128) w [] t
  simp only [Memref.view_whole, View.read_whole] at h ⊢
  have e : (Rect.whole S64x128).emb t = t := by
    funext a
    refine Fin.ext ?_
    simp [Rect.emb_apply, Rect.whole]
  rw [e] at h
  exact h

/-! ## The value a load hands a store -/

/-- The parity word of a column of trip `kk`. -/
theorem parOf_row4 (P : SP.Idx → BitVec 32) (kk : ℕ) (hk : kk < 8) (x : S16.Idx) (r : ℕ) (hr : r < 128) (e : r = (x 0).val + 16 * kk) :
    parOf P r hr = P (ix2 (⟨kk, hk⟩ : Fin 8) (⟨(x 0).val, (x 0).isLt⟩ : Fin 16)) := by
  subst e
  have hx : (x 0).val < 16 := (x 0).isLt
  unfold parOf
  refine congrArg P (funext fun a => ?_)
  match a with
  | ⟨0, _⟩ => exact Fin.ext (by show ((x 0).val + 16 * kk) / 16 = kk; omega)
  | ⟨1, _⟩ => exact Fin.ext (by show ((x 0).val + 16 * kk) % 16 = (x 0).val; omega)

/-- What a load reads at lane `x` is the transposed value at the entry the matching store names for lane `x`. -/
theorem val_right4 (P : SP.Idx → BitVec 32) (R : SR.Idx → Elt F .f32)
    (hP : ∀ j, (P j).toNat = 0 ∨ (P j).toNat = 64) (kk : ℕ) (hk : kk < 8) (j fb : ℕ) (hfb : fb < 4)
    (prow rowv colv rotc : IVec S16 32)
    (hprow : ∀ x, prow x = P (ix2 (⟨kk, hk⟩ : Fin 8) (⟨(x 0).val, (x 0).isLt⟩ : Fin 16)))
    (hrow : ∀ x, (rowv x).toNat = (x 0).val + 16 * kk)
    (hrot : ∀ x, (rotc x).toNat = ((x 0).val + j) % 16 + 16 * fb)
    (hcol : ∀ x, (colv x).toNat = (prow x).toNat + 16 * fb + ((x 0).val + j) % 16)
    (hl : ∀ a x, ((![rowv, colv] : Fin 2 → IVec S16 32) a x).toNat < SR.size a)
    (hs : ∀ a x, ((![rotc, rowv] : Fin 2 → IVec S16 32) a x).toNat < SD.size a) :
    ∀ x, loadIdx (F := F) (s := SR) (e := .f32) R ![rowv, colv] hl x = tval P R (idxAt (s := SD) ![rotc, rowv] hs x) := by
  intro x
  unfold loadIdx tval
  refine congrArg R (funext fun a => Fin.ext ?_)
  match a with
  | ⟨0, _⟩ => rfl
  | ⟨1, _⟩ =>
    have ht1 : ((idxAt (s := SD) ![rotc, rowv] hs x) 1).val = (x 0).val + 16 * kk := hrow x
    have ht0 : ((idxAt (s := SD) ![rotc, rowv] hs x) 0).val = ((x 0).val + j) % 16 + 16 * fb := hrot x
    show (colv x).toNat = ((parOf P ((idxAt (s := SD) ![rotc, rowv] hs x) 1).val (sd_col_lt _)).toNat
      + ((idxAt (s := SD) ![rotc, rowv] hs x) 0).val) % 128
    rw [parOf_row4 P kk hk x _ _ ht1, ht0, hcol, hprow]
    have hx : (x 0).val < 16 := (x 0).isLt
    rcases hP (ix2 (⟨kk, hk⟩ : Fin 8) (⟨(x 0).val, (x 0).isLt⟩ : Fin 16)) with h | h <;> rw [h] <;> omega

/-! ## One store of a trip, as the run leaves it -/

/-- The contents the run leaves after store number `n = 16 fb + j` of trip `kk` are right on every older column and on
    every entry of the trip whose store has run. -/
theorem store_fact4 (d : Dev nD) (L : grid0.Coords) (P : Buf (Elt F) ((b4).view.loc (thr d L))) (R : Buf (Elt F) ((b6).view.loc (thr d L)))
    (hP : ∀ j, (P j).toNat = 0 ∨ (P j).toNat = 64) (kk : ℕ) (hk : kk < 8) (n j fb : ℕ) (hj : j < 16) (hfb : fb < 4) (hn : n = 16 * fb + j)
    (v2 : IVec S16 32) (hv2 : v2 = iota .scVector S16 32 [0] iota_S16_d0_w32_scVector)
    (vJ : IVec S16 32) (hJ : ∀ x, (vJ x).toNat = ((x 0).val + j) % 16) (c : BitVec 32) (hc : c.toNat = 16 * fb)
    (off : Fin 2 → ℕ) (hoff : ∀ a, off a + S1x16.size a ≤ S8x16.size a) (hcst : S1x16.ShapeCasts S16) (he : off = ![kk, 0])
    (g : Buf (Elt F) ((b8).view.loc (thr d L))) (hg : ∀ t, DoneAt kk n t → g t = tval P R t)
    (hl : ∀ a x, ((![addi v2 (broadcast S16 (Scalar.muli 16#32 (Scf.iv 0#32 1#32 kk))),
        addi (addi (shapeCast S16 (View.readAt (Elt F) (b4).view (Rect.unit (s := S8x16) off S1x16.size hoff).toLoadRect P) hcst) (broadcast S16 c)) vJ]
          : Fin 2 → IVec S16 32) a x).toNat < S128x128.size a)
    (hs : ∀ a x, ((![addi vJ (broadcast S16 c), addi v2 (broadcast S16 (Scalar.muli 16#32 (Scf.iv 0#32 1#32 kk)))] : Fin 2 → IVec S16 32) a x).toNat < S64x128.size a) :
    ∀ t, DoneAt kk (n + 1) t → ((b8).view.writes (Elt F) g
      [⟨Rect.whole S64x128, storeIdx (View.readAt (Elt F) (b8).view (LoadRect.whole S64x128) g)
          ![addi vJ (broadcast S16 c), addi v2 (broadcast S16 (Scalar.muli 16#32 (Scf.iv 0#32 1#32 kk)))]
          (loadIdx (View.readAt (Elt F) (b6).view (LoadRect.whole S128x128) R)
            ![addi v2 (broadcast S16 (Scalar.muli 16#32 (Scf.iv 0#32 1#32 kk))),
              addi (addi (shapeCast S16 (View.readAt (Elt F) (b4).view (Rect.unit (s := S8x16) off S1x16.size hoff).toLoadRect P) hcst) (broadcast S16 c)) vJ] hl)
          (fun _ => 1#1) false hs⟩]) t = tval P R t := by
  rw [whole_write4, whole_readD4, whole_read4]
  exact store_step P R kk n j fb hj hfb hn g hg _ _ (rotc_toNat vJ j hJ c fb hc hfb) (rowv_toNat v2 hv2 kk hk) hs _
    (val_right4 P R hP kk hk j fb hfb _ _ _ _ (prow_apply4 d L P off hoff hcst kk hk he) (rowv_toNat v2 hv2 kk hk)
      (rotc_toNat vJ j hJ c fb hc hfb)
      (colv_toNat _ (fun x => by rw [prow_apply4 d L P off hoff hcst kk hk he]; exact hP _) c fb hc hfb vJ j hJ) hl hs)

/-- After store number `n = 16 fb + j` of trip `kk` the destination holds something right on every older column and on
    every entry of the trip whose store has run. -/
theorem store_intro4 (d : Dev nD) (L : grid0.Coords) (P : Buf (Elt F) ((b4).view.loc (thr d L))) (R : Buf (Elt F) ((b6).view.loc (thr d L)))
    (hP : ∀ j, (P j).toNat = 0 ∨ (P j).toNat = 64) (kk : ℕ) (hk : kk < 8) (n j fb : ℕ) (hj : j < 16) (hfb : fb < 4) (hn : n = 16 * fb + j)
    (v2 : IVec S16 32) (hv2 : v2 = iota .scVector S16 32 [0] iota_S16_d0_w32_scVector)
    (vJ : IVec S16 32) (hJ : ∀ x, (vJ x).toNat = ((x 0).val + j) % 16) (c : BitVec 32) (hc : c.toNat = 16 * fb)
    (off : Fin 2 → ℕ) (hoff : ∀ a, off a + S1x16.size a ≤ S8x16.size a) (hcst : S1x16.ShapeCasts S16) (he : off = ![kk, 0])
    (g : Buf (Elt F) ((b8).view.loc (thr d L))) (hg : ∀ t, DoneAt kk n t → g t = tval P R t)
    (hl : ∀ a x, ((![addi v2 (broadcast S16 (Scalar.muli 16#32 (Scf.iv 0#32 1#32 kk))),
        addi (addi (shapeCast S16 (View.readAt (Elt F) (b4).view (Rect.unit (s := S8x16) off S1x16.size hoff).toLoadRect P) hcst) (broadcast S16 c)) vJ]
          : Fin 2 → IVec S16 32) a x).toNat < S128x128.size a)
    (hs : ∀ a x, ((![addi vJ (broadcast S16 c), addi v2 (broadcast S16 (Scalar.muli 16#32 (Scf.iv 0#32 1#32 kk)))] : Fin 2 → IVec S16 32) a x).toNat < S64x128.size a) :
    ((b8).view.loc (thr d L) ↦{fullShare} (b8).view.writes (Elt F) g
      [⟨Rect.whole S64x128, storeIdx (View.readAt (Elt F) (b8).view (LoadRect.whole S64x128) g)
          ![addi vJ (broadcast S16 c), addi v2 (broadcast S16 (Scalar.muli 16#32 (Scf.iv 0#32 1#32 kk)))]
          (loadIdx (View.readAt (Elt F) (b6).view (LoadRect.whole S128x128) R)
            ![addi v2 (broadcast S16 (Scalar.muli 16#32 (Scf.iv 0#32 1#32 kk))),
              addi (addi (shapeCast S16 (View.readAt (Elt F) (b4).view (Rect.unit (s := S8x16) off S1x16.size hoff).toLoadRect P) hcst) (broadcast S16 c)) vJ] hl)
          (fun _ => 1#1) false hs⟩] : sProp 𝕄)
      ⊢ iprop(∃ g', ⌜∀ t, DoneAt kk (n + 1) t → g' t = tval P R t⌝ ∗ (b8).view.loc (thr d L) ↦{fullShare} g') := by
  iintro H
  iexists _
  isplitr
  rotate_left
  · iexact H
  · ipureintro
    rw [whole_write4, whole_readD4, whole_read4]
    exact store_step P R kk n j fb hj hfb hn g hg _ _ (rotc_toNat vJ j hJ c fb hc hfb) (rowv_toNat v2 hv2 kk hk) hs _
      (val_right4 P R hP kk hk j fb hfb _ _ _ _ (prow_apply4 d L P off hoff hcst kk hk he) (rowv_toNat v2 hv2 kk hk)
        (rotc_toNat vJ j hJ c fb hc hfb)
        (colv_toNat _ (fun x => by rw [prow_apply4 d L P off hoff hcst kk hk he]; exact hP _) c fb hc hfb vJ j hJ) hl hs)

/-! ## What a trip with value keeps -/

/-- The parity scratch and the rows scratch at their contents; the destination at some contents that are the transposed
    values on every column below `16 n`. -/
def invUV4 (d : Dev nD) (L : grid0.Coords) (P : Buf (Elt F) ((b4).view.loc (thr d L))) (R : Buf (Elt F) ((b6).view.loc (thr d L)))
    (n : Nat) (_ : PUnit) : sProp 𝕄 :=
  iprop(((b4).view.loc (thr d L) ↦{fullShare} P) ∗ ((b6).view.loc (thr d L) ↦{fullShare} R)
    ∗ ∃ f : Buf (Elt F) ((b8).view.loc (thr d L)), ⌜∀ t : SD.Idx, (t 1).val < 16 * n → f t = tval P R t⌝ ∗ (b8).view.loc (thr d L) ↦{fullShare} f)

end Cert.Proof.KI

end
-- ==== Proof.KITripV3.lean ====
import proofs.«206508_g82686710383178_cont_9to1c4b_561_19_alg».proof.Proof.KITripVal2
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of a transpose of slot 1 inside the outer loop, with the value. The trip's sixty-four indexed stores each write, from every lane, the transposed
  value at the entry the lane names: after store number n the destination is right on every older column and on every entry of the
  trip whose store number is below n + 1; after the last one it is right on every column below 16 (k + 1).
-/
set_option sl_exec.dischHeartbeats 100000 in
set_option maxHeartbeats 40000000 in
theorem trip_t3_val (d : Dev nD) (L : grid0.Coords) (P : Buf (Elt F) ((b4).view.loc (thr d L))) (R : Buf (Elt F) ((b6).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v389 : BitVec 32) (v499 : IVec S16 32) (v501_ld : Vec F S1x16 .i32) (k : Fin k0_t3_loop.trips) (acc : PUnit) :
    invUV4 d L P R k.val acc ⊢ wp frame (wpE (defs₀ (F := F)) 𝒱₀ (thr d L) none) Set.univ
      (k0_t3_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v389 v499 v501_ld k acc)
      (invUV4 d L P R (k.val + 1)) := by
  have hk : k.val < 8 := by
    have h := k.isLt
    have e : k0_t3_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  have rv8 := rot_exact v8 _ rfl _ 0 (by decide) (by decide) hv8
  have rv12 := rot_exact v12 _ rfl _ 1 (by decide) (by decide) hv12
  have rv16 := rot_exact v16 _ rfl _ 2 (by decide) (by decide) hv16
  have rv20 := rot_exact v20 _ rfl _ 3 (by decide) (by decide) hv20
  have rv24 := rot_exact v24 _ rfl _ 4 (by decide) (by decide) hv24
  have rv28 := rot_exact v28 _ rfl _ 5 (by decide) (by decide) hv28
  have rv32 := rot_exact v32 _ rfl _ 6 (by decide) (by decide) hv32
  have rv36 := rot_exact v36 v2 hv2 _ 7 (by decide) (by decide) hv36
  have rv40 := rot_exact v40 v2 hv2 _ 8 (by decide) (by decide) hv40
  have rv44 := rot_exact v44 v2 hv2 _ 9 (by decide) (by decide) hv44
  have rv48 := rot_exact v48 v2 hv2 _ 10 (by decide) (by decide) hv48
  have rv52 := rot_exact v52 v2 hv2 _ 11 (by decide) (by decide) hv52
  have rv56 := rot_exact v56 v2 hv2 _ 12 (by decide) (by decide) hv56
  have rv60 := rot_exact v60 v2 hv2 _ 13 (by decide) (by decide) hv60
  have rv64 := rot_exact v64 v2 hv2 _ 14 (by decide) (by decide) hv64
  have rv68 := rot_exact v68 v2 hv2 _ 15 (by decide) (by decide) hv68
  unfold invUV4
  iintro ⟨HA, HR, %f, %hf, HD⟩
  have hg0 : ∀ t, DoneAt k.val 0 t → f t = tval P R t := fun t ht => hf t (doneAt_zero.1 ht)
  unfold k0_t3_body
  sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g0, %e0, HD⟩
  have hg0 : ∀ t, DoneAt k.val (0 + 1) t → g0 t = tval P R t := by
    subst e0
    exact store_fact4 d L P R hP k.val hk 0 0 0 (by decide) (by decide) (by decide) v2 hv2 v8 rv8 0#32 (by decide) _ _ _ (k0_off5_eq k) f hg0 _ _
  clear e0
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g1, %e1, HD⟩
  have hg1 : ∀ t, DoneAt k.val (1 + 1) t → g1 t = tval P R t := by
    subst e1
    exact store_fact4 d L P R hP k.val hk 1 1 0 (by decide) (by decide) (by decide) v2 hv2 v12 rv12 0#32 (by decide) _ _ _ (k0_off5_eq k) g0 hg0 _ _
  clear e1
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g2, %e2, HD⟩
  have hg2 : ∀ t, DoneAt k.val (2 + 1) t → g2 t = tval P R t := by
    subst e2
    exact store_fact4 d L P R hP k.val hk 2 2 0 (by decide) (by decide) (by decide) v2 hv2 v16 rv16 0#32 (by decide) _ _ _ (k0_off5_eq k) g1 hg1 _ _
  clear e2
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g3, %e3, HD⟩
  have hg3 : ∀ t, DoneAt k.val (3 + 1) t → g3 t = tval P R t := by
    subst e3
    exact store_fact4 d L P R hP k.val hk 3 3 0 (by decide) (by decide) (by decide) v2 hv2 v20 rv20 0#32 (by decide) _ _ _ (k0_off5_eq k) g2 hg2 _ _
  clear e3
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g4, %e4, HD⟩
  have hg4 : ∀ t, DoneAt k.val (4 + 1) t → g4 t = tval P R t := by
    subst e4
    exact store_fact4 d L P R hP k.val hk 4 4 0 (by decide) (by decide) (by decide) v2 hv2 v24 rv24 0#32 (by decide) _ _ _ (k0_off5_eq k) g3 hg3 _ _
  clear e4
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g5, %e5, HD⟩
  have hg5 : ∀ t, DoneAt k.val (5 + 1) t → g5 t = tval P R t := by
    subst e5
    exact store_fact4 d L P R hP k.val hk 5 5 0 (by decide) (by decide) (by decide) v2 hv2 v28 rv28 0#32 (by decide) _ _ _ (k0_off5_eq k) g4 hg4 _ _
  clear e5
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g6, %e6, HD⟩
  have hg6 : ∀ t, DoneAt k.val (6 + 1) t → g6 t = tval P R t := by
    subst e6
    exact store_fact4 d L P R hP k.val hk 6 6 0 (by decide) (by decide) (by decide) v2 hv2 v32 rv32 0#32 (by decide) _ _ _ (k0_off5_eq k) g5 hg5 _ _
  clear e6
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g7, %e7, HD⟩
  have hg7 : ∀ t, DoneAt k.val (7 + 1) t → g7 t = tval P R t := by
    subst e7
    exact store_fact4 d L P R hP k.val hk 7 7 0 (by decide) (by decide) (by decide) v2 hv2 v36 rv36 0#32 (by decide) _ _ _ (k0_off5_eq k) g6 hg6 _ _
  clear e7
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g8, %e8, HD⟩
  have hg8 : ∀ t, DoneAt k.val (8 + 1) t → g8 t = tval P R t := by
    subst e8
    exact store_fact4 d L P R hP k.val hk 8 8 0 (by decide) (by decide) (by decide) v2 hv2 v40 rv40 0#32 (by decide) _ _ _ (k0_off5_eq k) g7 hg7 _ _
  clear e8
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g9, %e9, HD⟩
  have hg9 : ∀ t, DoneAt k.val (9 + 1) t → g9 t = tval P R t := by
    subst e9
    exact store_fact4 d L P R hP k.val hk 9 9 0 (by decide) (by decide) (by decide) v2 hv2 v44 rv44 0#32 (by decide) _ _ _ (k0_off5_eq k) g8 hg8 _ _
  clear e9
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g10, %e10, HD⟩
  have hg10 : ∀ t, DoneAt k.val (10 + 1) t → g10 t = tval P R t := by
    subst e10
    exact store_fact4 d L P R hP k.val hk 10 10 0 (by decide) (by decide) (by decide) v2 hv2 v48 rv48 0#32 (by decide) _ _ _ (k0_off5_eq k) g9 hg9 _ _
  clear e10
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g11, %e11, HD⟩
  have hg11 : ∀ t, DoneAt k.val (11 + 1) t → g11 t = tval P R t := by
    subst e11
    exact store_fact4 d L P R hP k.val hk 11 11 0 (by decide) (by decide) (by decide) v2 hv2 v52 rv52 0#32 (by decide) _ _ _ (k0_off5_eq k) g10 hg10 _ _
  clear e11
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g12, %e12, HD⟩
  have hg12 : ∀ t, DoneAt k.val (12 + 1) t → g12 t = tval P R t := by
    subst e12
    exact store_fact4 d L P R hP k.val hk 12 12 0 (by decide) (by decide) (by decide) v2 hv2 v56 rv56 0#32 (by decide) _ _ _ (k0_off5_eq k) g11 hg11 _ _
  clear e12
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g13, %e13, HD⟩
  have hg13 : ∀ t, DoneAt k.val (13 + 1) t → g13 t = tval P R t := by
    subst e13
    exact store_fact4 d L P R hP k.val hk 13 13 0 (by decide) (by decide) (by decide) v2 hv2 v60 rv60 0#32 (by decide) _ _ _ (k0_off5_eq k) g12 hg12 _ _
  clear e13
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g14, %e14, HD⟩
  have hg14 : ∀ t, DoneAt k.val (14 + 1) t → g14 t = tval P R t := by
    subst e14
    exact store_fact4 d L P R hP k.val hk 14 14 0 (by decide) (by decide) (by decide) v2 hv2 v64 rv64 0#32 (by decide) _ _ _ (k0_off5_eq k) g13 hg13 _ _
  clear e14
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g15, %e15, HD⟩
  have hg15 : ∀ t, DoneAt k.val (15 + 1) t → g15 t = tval P R t := by
    subst e15
    exact store_fact4 d L P R hP k.val hk 15 15 0 (by decide) (by decide) (by decide) v2 hv2 v68 rv68 0#32 (by decide) _ _ _ (k0_off5_eq k) g14 hg14 _ _
  clear e15
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g16, %e16, HD⟩
  have hg16 : ∀ t, DoneAt k.val (16 + 1) t → g16 t = tval P R t := by
    subst e16
    exact store_fact4 d L P R hP k.val hk 16 0 1 (by decide) (by decide) (by decide) v2 hv2 v8 rv8 16#32 (by decide) _ _ _ (k0_off5_eq k) g15 hg15 _ _
  clear e16
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g17, %e17, HD⟩
  have hg17 : ∀ t, DoneAt k.val (17 + 1) t → g17 t = tval P R t := by
    subst e17
    exact store_fact4 d L P R hP k.val hk 17 1 1 (by decide) (by decide) (by decide) v2 hv2 v12 rv12 16#32 (by decide) _ _ _ (k0_off5_eq k) g16 hg16 _ _
  clear e17
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g18, %e18, HD⟩
  have hg18 : ∀ t, DoneAt k.val (18 + 1) t → g18 t = tval P R t := by
    subst e18
    exact store_fact4 d L P R hP k.val hk 18 2 1 (by decide) (by decide) (by decide) v2 hv2 v16 rv16 16#32 (by decide) _ _ _ (k0_off5_eq k) g17 hg17 _ _
  clear e18
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g19, %e19, HD⟩
  have hg19 : ∀ t, DoneAt k.val (19 + 1) t → g19 t = tval P R t := by
    subst e19
    exact store_fact4 d L P R hP k.val hk 19 3 1 (by decide) (by decide) (by decide) v2 hv2 v20 rv20 16#32 (by decide) _ _ _ (k0_off5_eq k) g18 hg18 _ _
  clear e19
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g20, %e20, HD⟩
  have hg20 : ∀ t, DoneAt k.val (20 + 1) t → g20 t = tval P R t := by
    subst e20
    exact store_fact4 d L P R hP k.val hk 20 4 1 (by decide) (by decide) (by decide) v2 hv2 v24 rv24 16#32 (by decide) _ _ _ (k0_off5_eq k) g19 hg19 _ _
  clear e20
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g21, %e21, HD⟩
  have hg21 : ∀ t, DoneAt k.val (21 + 1) t → g21 t = tval P R t := by
    subst e21
    exact store_fact4 d L P R hP k.val hk 21 5 1 (by decide) (by decide) (by decide) v2 hv2 v28 rv28 16#32 (by decide) _ _ _ (k0_off5_eq k) g20 hg20 _ _
  clear e21
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g22, %e22, HD⟩
  have hg22 : ∀ t, DoneAt k.val (22 + 1) t → g22 t = tval P R t := by
    subst e22
    exact store_fact4 d L P R hP k.val hk 22 6 1 (by decide) (by decide) (by decide) v2 hv2 v32 rv32 16#32 (by decide) _ _ _ (k0_off5_eq k) g21 hg21 _ _
  clear e22
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g23, %e23, HD⟩
  have hg23 : ∀ t, DoneAt k.val (23 + 1) t → g23 t = tval P R t := by
    subst e23
    exact store_fact4 d L P R hP k.val hk 23 7 1 (by decide) (by decide) (by decide) v2 hv2 v36 rv36 16#32 (by decide) _ _ _ (k0_off5_eq k) g22 hg22 _ _
  clear e23
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g24, %e24, HD⟩
  have hg24 : ∀ t, DoneAt k.val (24 + 1) t → g24 t = tval P R t := by
    subst e24
    exact store_fact4 d L P R hP k.val hk 24 8 1 (by decide) (by decide) (by decide) v2 hv2 v40 rv40 16#32 (by decide) _ _ _ (k0_off5_eq k) g23 hg23 _ _
  clear e24
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g25, %e25, HD⟩
  have hg25 : ∀ t, DoneAt k.val (25 + 1) t → g25 t = tval P R t := by
    subst e25
    exact store_fact4 d L P R hP k.val hk 25 9 1 (by decide) (by decide) (by decide) v2 hv2 v44 rv44 16#32 (by decide) _ _ _ (k0_off5_eq k) g24 hg24 _ _
  clear e25
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g26, %e26, HD⟩
  have hg26 : ∀ t, DoneAt k.val (26 + 1) t → g26 t = tval P R t := by
    subst e26
    exact store_fact4 d L P R hP k.val hk 26 10 1 (by decide) (by decide) (by decide) v2 hv2 v48 rv48 16#32 (by decide) _ _ _ (k0_off5_eq k) g25 hg25 _ _
  clear e26
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g27, %e27, HD⟩
  have hg27 : ∀ t, DoneAt k.val (27 + 1) t → g27 t = tval P R t := by
    subst e27
    exact store_fact4 d L P R hP k.val hk 27 11 1 (by decide) (by decide) (by decide) v2 hv2 v52 rv52 16#32 (by decide) _ _ _ (k0_off5_eq k) g26 hg26 _ _
  clear e27
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g28, %e28, HD⟩
  have hg28 : ∀ t, DoneAt k.val (28 + 1) t → g28 t = tval P R t := by
    subst e28
    exact store_fact4 d L P R hP k.val hk 28 12 1 (by decide) (by decide) (by decide) v2 hv2 v56 rv56 16#32 (by decide) _ _ _ (k0_off5_eq k) g27 hg27 _ _
  clear e28
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g29, %e29, HD⟩
  have hg29 : ∀ t, DoneAt k.val (29 + 1) t → g29 t = tval P R t := by
    subst e29
    exact store_fact4 d L P R hP k.val hk 29 13 1 (by decide) (by decide) (by decide) v2 hv2 v60 rv60 16#32 (by decide) _ _ _ (k0_off5_eq k) g28 hg28 _ _
  clear e29
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g30, %e30, HD⟩
  have hg30 : ∀ t, DoneAt k.val (30 + 1) t → g30 t = tval P R t := by
    subst e30
    exact store_fact4 d L P R hP k.val hk 30 14 1 (by decide) (by decide) (by decide) v2 hv2 v64 rv64 16#32 (by decide) _ _ _ (k0_off5_eq k) g29 hg29 _ _
  clear e30
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g31, %e31, HD⟩
  have hg31 : ∀ t, DoneAt k.val (31 + 1) t → g31 t = tval P R t := by
    subst e31
    exact store_fact4 d L P R hP k.val hk 31 15 1 (by decide) (by decide) (by decide) v2 hv2 v68 rv68 16#32 (by decide) _ _ _ (k0_off5_eq k) g30 hg30 _ _
  clear e31
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g32, %e32, HD⟩
  have hg32 : ∀ t, DoneAt k.val (32 + 1) t → g32 t = tval P R t := by
    subst e32
    exact store_fact4 d L P R hP k.val hk 32 0 2 (by decide) (by decide) (by decide) v2 hv2 v8 rv8 32#32 (by decide) _ _ _ (k0_off5_eq k) g31 hg31 _ _
  clear e32
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g33, %e33, HD⟩
  have hg33 : ∀ t, DoneAt k.val (33 + 1) t → g33 t = tval P R t := by
    subst e33
    exact store_fact4 d L P R hP k.val hk 33 1 2 (by decide) (by decide) (by decide) v2 hv2 v12 rv12 32#32 (by decide) _ _ _ (k0_off5_eq k) g32 hg32 _ _
  clear e33
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g34, %e34, HD⟩
  have hg34 : ∀ t, DoneAt k.val (34 + 1) t → g34 t = tval P R t := by
    subst e34
    exact store_fact4 d L P R hP k.val hk 34 2 2 (by decide) (by decide) (by decide) v2 hv2 v16 rv16 32#32 (by decide) _ _ _ (k0_off5_eq k) g33 hg33 _ _
  clear e34
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g35, %e35, HD⟩
  have hg35 : ∀ t, DoneAt k.val (35 + 1) t → g35 t = tval P R t := by
    subst e35
    exact store_fact4 d L P R hP k.val hk 35 3 2 (by decide) (by decide) (by decide) v2 hv2 v20 rv20 32#32 (by decide) _ _ _ (k0_off5_eq k) g34 hg34 _ _
  clear e35
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g36, %e36, HD⟩
  have hg36 : ∀ t, DoneAt k.val (36 + 1) t → g36 t = tval P R t := by
    subst e36
    exact store_fact4 d L P R hP k.val hk 36 4 2 (by decide) (by decide) (by decide) v2 hv2 v24 rv24 32#32 (by decide) _ _ _ (k0_off5_eq k) g35 hg35 _ _
  clear e36
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g37, %e37, HD⟩
  have hg37 : ∀ t, DoneAt k.val (37 + 1) t → g37 t = tval P R t := by
    subst e37
    exact store_fact4 d L P R hP k.val hk 37 5 2 (by decide) (by decide) (by decide) v2 hv2 v28 rv28 32#32 (by decide) _ _ _ (k0_off5_eq k) g36 hg36 _ _
  clear e37
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g38, %e38, HD⟩
  have hg38 : ∀ t, DoneAt k.val (38 + 1) t → g38 t = tval P R t := by
    subst e38
    exact store_fact4 d L P R hP k.val hk 38 6 2 (by decide) (by decide) (by decide) v2 hv2 v32 rv32 32#32 (by decide) _ _ _ (k0_off5_eq k) g37 hg37 _ _
  clear e38
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g39, %e39, HD⟩
  have hg39 : ∀ t, DoneAt k.val (39 + 1) t → g39 t = tval P R t := by
    subst e39
    exact store_fact4 d L P R hP k.val hk 39 7 2 (by decide) (by decide) (by decide) v2 hv2 v36 rv36 32#32 (by decide) _ _ _ (k0_off5_eq k) g38 hg38 _ _
  clear e39
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g40, %e40, HD⟩
  have hg40 : ∀ t, DoneAt k.val (40 + 1) t → g40 t = tval P R t := by
    subst e40
    exact store_fact4 d L P R hP k.val hk 40 8 2 (by decide) (by decide) (by decide) v2 hv2 v40 rv40 32#32 (by decide) _ _ _ (k0_off5_eq k) g39 hg39 _ _
  clear e40
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g41, %e41, HD⟩
  have hg41 : ∀ t, DoneAt k.val (41 + 1) t → g41 t = tval P R t := by
    subst e41
    exact store_fact4 d L P R hP k.val hk 41 9 2 (by decide) (by decide) (by decide) v2 hv2 v44 rv44 32#32 (by decide) _ _ _ (k0_off5_eq k) g40 hg40 _ _
  clear e41
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g42, %e42, HD⟩
  have hg42 : ∀ t, DoneAt k.val (42 + 1) t → g42 t = tval P R t := by
    subst e42
    exact store_fact4 d L P R hP k.val hk 42 10 2 (by decide) (by decide) (by decide) v2 hv2 v48 rv48 32#32 (by decide) _ _ _ (k0_off5_eq k) g41 hg41 _ _
  clear e42
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g43, %e43, HD⟩
  have hg43 : ∀ t, DoneAt k.val (43 + 1) t → g43 t = tval P R t := by
    subst e43
    exact store_fact4 d L P R hP k.val hk 43 11 2 (by decide) (by decide) (by decide) v2 hv2 v52 rv52 32#32 (by decide) _ _ _ (k0_off5_eq k) g42 hg42 _ _
  clear e43
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g44, %e44, HD⟩
  have hg44 : ∀ t, DoneAt k.val (44 + 1) t → g44 t = tval P R t := by
    subst e44
    exact store_fact4 d L P R hP k.val hk 44 12 2 (by decide) (by decide) (by decide) v2 hv2 v56 rv56 32#32 (by decide) _ _ _ (k0_off5_eq k) g43 hg43 _ _
  clear e44
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g45, %e45, HD⟩
  have hg45 : ∀ t, DoneAt k.val (45 + 1) t → g45 t = tval P R t := by
    subst e45
    exact store_fact4 d L P R hP k.val hk 45 13 2 (by decide) (by decide) (by decide) v2 hv2 v60 rv60 32#32 (by decide) _ _ _ (k0_off5_eq k) g44 hg44 _ _
  clear e45
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g46, %e46, HD⟩
  have hg46 : ∀ t, DoneAt k.val (46 + 1) t → g46 t = tval P R t := by
    subst e46
    exact store_fact4 d L P R hP k.val hk 46 14 2 (by decide) (by decide) (by decide) v2 hv2 v64 rv64 32#32 (by decide) _ _ _ (k0_off5_eq k) g45 hg45 _ _
  clear e46
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g47, %e47, HD⟩
  have hg47 : ∀ t, DoneAt k.val (47 + 1) t → g47 t = tval P R t := by
    subst e47
    exact store_fact4 d L P R hP k.val hk 47 15 2 (by decide) (by decide) (by decide) v2 hv2 v68 rv68 32#32 (by decide) _ _ _ (k0_off5_eq k) g46 hg46 _ _
  clear e47
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g48, %e48, HD⟩
  have hg48 : ∀ t, DoneAt k.val (48 + 1) t → g48 t = tval P R t := by
    subst e48
    exact store_fact4 d L P R hP k.val hk 48 0 3 (by decide) (by decide) (by decide) v2 hv2 v8 rv8 48#32 (by decide) _ _ _ (k0_off5_eq k) g47 hg47 _ _
  clear e48
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g49, %e49, HD⟩
  have hg49 : ∀ t, DoneAt k.val (49 + 1) t → g49 t = tval P R t := by
    subst e49
    exact store_fact4 d L P R hP k.val hk 49 1 3 (by decide) (by decide) (by decide) v2 hv2 v12 rv12 48#32 (by decide) _ _ _ (k0_off5_eq k) g48 hg48 _ _
  clear e49
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g50, %e50, HD⟩
  have hg50 : ∀ t, DoneAt k.val (50 + 1) t → g50 t = tval P R t := by
    subst e50
    exact store_fact4 d L P R hP k.val hk 50 2 3 (by decide) (by decide) (by decide) v2 hv2 v16 rv16 48#32 (by decide) _ _ _ (k0_off5_eq k) g49 hg49 _ _
  clear e50
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g51, %e51, HD⟩
  have hg51 : ∀ t, DoneAt k.val (51 + 1) t → g51 t = tval P R t := by
    subst e51
    exact store_fact4 d L P R hP k.val hk 51 3 3 (by decide) (by decide) (by decide) v2 hv2 v20 rv20 48#32 (by decide) _ _ _ (k0_off5_eq k) g50 hg50 _ _
  clear e51
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g52, %e52, HD⟩
  have hg52 : ∀ t, DoneAt k.val (52 + 1) t → g52 t = tval P R t := by
    subst e52
    exact store_fact4 d L P R hP k.val hk 52 4 3 (by decide) (by decide) (by decide) v2 hv2 v24 rv24 48#32 (by decide) _ _ _ (k0_off5_eq k) g51 hg51 _ _
  clear e52
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g53, %e53, HD⟩
  have hg53 : ∀ t, DoneAt k.val (53 + 1) t → g53 t = tval P R t := by
    subst e53
    exact store_fact4 d L P R hP k.val hk 53 5 3 (by decide) (by decide) (by decide) v2 hv2 v28 rv28 48#32 (by decide) _ _ _ (k0_off5_eq k) g52 hg52 _ _
  clear e53
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g54, %e54, HD⟩
  have hg54 : ∀ t, DoneAt k.val (54 + 1) t → g54 t = tval P R t := by
    subst e54
    exact store_fact4 d L P R hP k.val hk 54 6 3 (by decide) (by decide) (by decide) v2 hv2 v32 rv32 48#32 (by decide) _ _ _ (k0_off5_eq k) g53 hg53 _ _
  clear e54
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g55, %e55, HD⟩
  have hg55 : ∀ t, DoneAt k.val (55 + 1) t → g55 t = tval P R t := by
    subst e55
    exact store_fact4 d L P R hP k.val hk 55 7 3 (by decide) (by decide) (by decide) v2 hv2 v36 rv36 48#32 (by decide) _ _ _ (k0_off5_eq k) g54 hg54 _ _
  clear e55
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g56, %e56, HD⟩
  have hg56 : ∀ t, DoneAt k.val (56 + 1) t → g56 t = tval P R t := by
    subst e56
    exact store_fact4 d L P R hP k.val hk 56 8 3 (by decide) (by decide) (by decide) v2 hv2 v40 rv40 48#32 (by decide) _ _ _ (k0_off5_eq k) g55 hg55 _ _
  clear e56
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g57, %e57, HD⟩
  have hg57 : ∀ t, DoneAt k.val (57 + 1) t → g57 t = tval P R t := by
    subst e57
    exact store_fact4 d L P R hP k.val hk 57 9 3 (by decide) (by decide) (by decide) v2 hv2 v44 rv44 48#32 (by decide) _ _ _ (k0_off5_eq k) g56 hg56 _ _
  clear e57
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g58, %e58, HD⟩
  have hg58 : ∀ t, DoneAt k.val (58 + 1) t → g58 t = tval P R t := by
    subst e58
    exact store_fact4 d L P R hP k.val hk 58 10 3 (by decide) (by decide) (by decide) v2 hv2 v48 rv48 48#32 (by decide) _ _ _ (k0_off5_eq k) g57 hg57 _ _
  clear e58
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g59, %e59, HD⟩
  have hg59 : ∀ t, DoneAt k.val (59 + 1) t → g59 t = tval P R t := by
    subst e59
    exact store_fact4 d L P R hP k.val hk 59 11 3 (by decide) (by decide) (by decide) v2 hv2 v52 rv52 48#32 (by decide) _ _ _ (k0_off5_eq k) g58 hg58 _ _
  clear e59
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g60, %e60, HD⟩
  have hg60 : ∀ t, DoneAt k.val (60 + 1) t → g60 t = tval P R t := by
    subst e60
    exact store_fact4 d L P R hP k.val hk 60 12 3 (by decide) (by decide) (by decide) v2 hv2 v56 rv56 48#32 (by decide) _ _ _ (k0_off5_eq k) g59 hg59 _ _
  clear e60
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g61, %e61, HD⟩
  have hg61 : ∀ t, DoneAt k.val (61 + 1) t → g61 t = tval P R t := by
    subst e61
    exact store_fact4 d L P R hP k.val hk 61 13 3 (by decide) (by decide) (by decide) v2 hv2 v60 rv60 48#32 (by decide) _ _ _ (k0_off5_eq k) g60 hg60 _ _
  clear e61
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g62, %e62, HD⟩
  have hg62 : ∀ t, DoneAt k.val (62 + 1) t → g62 t = tval P R t := by
    subst e62
    exact store_fact4 d L P R hP k.val hk 62 14 3 (by decide) (by decide) (by decide) v2 hv2 v64 rv64 48#32 (by decide) _ _ _ (k0_off5_eq k) g61 hg61 _ _
  clear e62
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g63, %e63, HD⟩
  have hg63 : ∀ t, DoneAt k.val (63 + 1) t → g63 t = tval P R t := by
    subst e63
    exact store_fact4 d L P R hP k.val hk 63 15 3 (by decide) (by decide) (by decide) v2 hv2 v68 rv68 48#32 (by decide) _ _ _ (k0_off5_eq k) g62 hg62 _ _
  clear e63
  sl_step
  isplitl [HA]; · iexact HA
  isplitl [HR]; · iexact HR
  iexists g63
  isplitr
  · ipureintro
    exact fun t ht => hg63 t (doneAt_last ht)
  · iexact HD

end Cert.Proof.KI

end
-- ==== Proof.KITripV4.lean ====
import proofs.«206508_g82686710383178_cont_9to1c4b_561_19_alg».proof.Proof.KITripVal1
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of a transpose of slot 0 inside the outer loop, with the value. The trip's sixty-four indexed stores each write, from every lane, the transposed
  value at the entry the lane names: after store number n the destination is right on every older column and on every entry of the
  trip whose store number is below n + 1; after the last one it is right on every column below 16 (k + 1).
-/
set_option sl_exec.dischHeartbeats 100000 in
set_option maxHeartbeats 40000000 in
theorem trip_t4_val (d : Dev nD) (L : grid0.Coords) (P : Buf (Elt F) ((b3).view.loc (thr d L))) (R : Buf (Elt F) ((b5).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v564 : BitVec 32) (v593 : BitVec 32) (v707 : IVec S16 32) (c50_i32_375 : BitVec 32) (k : Fin k0_t4_loop.trips) (acc : PUnit) :
    invUV3 d L P R k.val acc ⊢ wp frame (wpE (defs₀ (F := F)) 𝒱₀ (thr d L) none) Set.univ
      (k0_t4_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v564 v593 v707 c50_i32_375 k acc)
      (invUV3 d L P R (k.val + 1)) := by
  have hk : k.val < 8 := by
    have h := k.isLt
    have e : k0_t4_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  have rv8 := rot_exact v8 _ rfl _ 0 (by decide) (by decide) hv8
  have rv12 := rot_exact v12 _ rfl _ 1 (by decide) (by decide) hv12
  have rv16 := rot_exact v16 _ rfl _ 2 (by decide) (by decide) hv16
  have rv20 := rot_exact v20 _ rfl _ 3 (by decide) (by decide) hv20
  have rv24 := rot_exact v24 _ rfl _ 4 (by decide) (by decide) hv24
  have rv28 := rot_exact v28 _ rfl _ 5 (by decide) (by decide) hv28
  have rv32 := rot_exact v32 _ rfl _ 6 (by decide) (by decide) hv32
  have rv36 := rot_exact v36 v2 hv2 _ 7 (by decide) (by decide) hv36
  have rv40 := rot_exact v40 v2 hv2 _ 8 (by decide) (by decide) hv40
  have rv44 := rot_exact v44 v2 hv2 _ 9 (by decide) (by decide) hv44
  have rv48 := rot_exact v48 v2 hv2 _ 10 (by decide) (by decide) hv48
  have rv52 := rot_exact v52 v2 hv2 _ 11 (by decide) (by decide) hv52
  have rv56 := rot_exact v56 v2 hv2 _ 12 (by decide) (by decide) hv56
  have rv60 := rot_exact v60 v2 hv2 _ 13 (by decide) (by decide) hv60
  have rv64 := rot_exact v64 v2 hv2 _ 14 (by decide) (by decide) hv64
  have rv68 := rot_exact v68 v2 hv2 _ 15 (by decide) (by decide) hv68
  unfold invUV3
  iintro ⟨HA, HR, %f, %hf, HD⟩
  have hg0 : ∀ t, DoneAt k.val 0 t → f t = tval P R t := fun t ht => hf t (doneAt_zero.1 ht)
  unfold k0_t4_body
  sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g0, %e0, HD⟩
  have hg0 : ∀ t, DoneAt k.val (0 + 1) t → g0 t = tval P R t := by
    subst e0
    exact store_fact3 d L P R hP k.val hk 0 0 0 (by decide) (by decide) (by decide) v2 hv2 v8 rv8 0#32 (by decide) _ _ _ (k0_off8_eq k) f hg0 _ _
  clear e0
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g1, %e1, HD⟩
  have hg1 : ∀ t, DoneAt k.val (1 + 1) t → g1 t = tval P R t := by
    subst e1
    exact store_fact3 d L P R hP k.val hk 1 1 0 (by decide) (by decide) (by decide) v2 hv2 v12 rv12 0#32 (by decide) _ _ _ (k0_off8_eq k) g0 hg0 _ _
  clear e1
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g2, %e2, HD⟩
  have hg2 : ∀ t, DoneAt k.val (2 + 1) t → g2 t = tval P R t := by
    subst e2
    exact store_fact3 d L P R hP k.val hk 2 2 0 (by decide) (by decide) (by decide) v2 hv2 v16 rv16 0#32 (by decide) _ _ _ (k0_off8_eq k) g1 hg1 _ _
  clear e2
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g3, %e3, HD⟩
  have hg3 : ∀ t, DoneAt k.val (3 + 1) t → g3 t = tval P R t := by
    subst e3
    exact store_fact3 d L P R hP k.val hk 3 3 0 (by decide) (by decide) (by decide) v2 hv2 v20 rv20 0#32 (by decide) _ _ _ (k0_off8_eq k) g2 hg2 _ _
  clear e3
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g4, %e4, HD⟩
  have hg4 : ∀ t, DoneAt k.val (4 + 1) t → g4 t = tval P R t := by
    subst e4
    exact store_fact3 d L P R hP k.val hk 4 4 0 (by decide) (by decide) (by decide) v2 hv2 v24 rv24 0#32 (by decide) _ _ _ (k0_off8_eq k) g3 hg3 _ _
  clear e4
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g5, %e5, HD⟩
  have hg5 : ∀ t, DoneAt k.val (5 + 1) t → g5 t = tval P R t := by
    subst e5
    exact store_fact3 d L P R hP k.val hk 5 5 0 (by decide) (by decide) (by decide) v2 hv2 v28 rv28 0#32 (by decide) _ _ _ (k0_off8_eq k) g4 hg4 _ _
  clear e5
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g6, %e6, HD⟩
  have hg6 : ∀ t, DoneAt k.val (6 + 1) t → g6 t = tval P R t := by
    subst e6
    exact store_fact3 d L P R hP k.val hk 6 6 0 (by decide) (by decide) (by decide) v2 hv2 v32 rv32 0#32 (by decide) _ _ _ (k0_off8_eq k) g5 hg5 _ _
  clear e6
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g7, %e7, HD⟩
  have hg7 : ∀ t, DoneAt k.val (7 + 1) t → g7 t = tval P R t := by
    subst e7
    exact store_fact3 d L P R hP k.val hk 7 7 0 (by decide) (by decide) (by decide) v2 hv2 v36 rv36 0#32 (by decide) _ _ _ (k0_off8_eq k) g6 hg6 _ _
  clear e7
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g8, %e8, HD⟩
  have hg8 : ∀ t, DoneAt k.val (8 + 1) t → g8 t = tval P R t := by
    subst e8
    exact store_fact3 d L P R hP k.val hk 8 8 0 (by decide) (by decide) (by decide) v2 hv2 v40 rv40 0#32 (by decide) _ _ _ (k0_off8_eq k) g7 hg7 _ _
  clear e8
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g9, %e9, HD⟩
  have hg9 : ∀ t, DoneAt k.val (9 + 1) t → g9 t = tval P R t := by
    subst e9
    exact store_fact3 d L P R hP k.val hk 9 9 0 (by decide) (by decide) (by decide) v2 hv2 v44 rv44 0#32 (by decide) _ _ _ (k0_off8_eq k) g8 hg8 _ _
  clear e9
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g10, %e10, HD⟩
  have hg10 : ∀ t, DoneAt k.val (10 + 1) t → g10 t = tval P R t := by
    subst e10
    exact store_fact3 d L P R hP k.val hk 10 10 0 (by decide) (by decide) (by decide) v2 hv2 v48 rv48 0#32 (by decide) _ _ _ (k0_off8_eq k) g9 hg9 _ _
  clear e10
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g11, %e11, HD⟩
  have hg11 : ∀ t, DoneAt k.val (11 + 1) t → g11 t = tval P R t := by
    subst e11
    exact store_fact3 d L P R hP k.val hk 11 11 0 (by decide) (by decide) (by decide) v2 hv2 v52 rv52 0#32 (by decide) _ _ _ (k0_off8_eq k) g10 hg10 _ _
  clear e11
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g12, %e12, HD⟩
  have hg12 : ∀ t, DoneAt k.val (12 + 1) t → g12 t = tval P R t := by
    subst e12
    exact store_fact3 d L P R hP k.val hk 12 12 0 (by decide) (by decide) (by decide) v2 hv2 v56 rv56 0#32 (by decide) _ _ _ (k0_off8_eq k) g11 hg11 _ _
  clear e12
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g13, %e13, HD⟩
  have hg13 : ∀ t, DoneAt k.val (13 + 1) t → g13 t = tval P R t := by
    subst e13
    exact store_fact3 d L P R hP k.val hk 13 13 0 (by decide) (by decide) (by decide) v2 hv2 v60 rv60 0#32 (by decide) _ _ _ (k0_off8_eq k) g12 hg12 _ _
  clear e13
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g14, %e14, HD⟩
  have hg14 : ∀ t, DoneAt k.val (14 + 1) t → g14 t = tval P R t := by
    subst e14
    exact store_fact3 d L P R hP k.val hk 14 14 0 (by decide) (by decide) (by decide) v2 hv2 v64 rv64 0#32 (by decide) _ _ _ (k0_off8_eq k) g13 hg13 _ _
  clear e14
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g15, %e15, HD⟩
  have hg15 : ∀ t, DoneAt k.val (15 + 1) t → g15 t = tval P R t := by
    subst e15
    exact store_fact3 d L P R hP k.val hk 15 15 0 (by decide) (by decide) (by decide) v2 hv2 v68 rv68 0#32 (by decide) _ _ _ (k0_off8_eq k) g14 hg14 _ _
  clear e15
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g16, %e16, HD⟩
  have hg16 : ∀ t, DoneAt k.val (16 + 1) t → g16 t = tval P R t := by
    subst e16
    exact store_fact3 d L P R hP k.val hk 16 0 1 (by decide) (by decide) (by decide) v2 hv2 v8 rv8 16#32 (by decide) _ _ _ (k0_off8_eq k) g15 hg15 _ _
  clear e16
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g17, %e17, HD⟩
  have hg17 : ∀ t, DoneAt k.val (17 + 1) t → g17 t = tval P R t := by
    subst e17
    exact store_fact3 d L P R hP k.val hk 17 1 1 (by decide) (by decide) (by decide) v2 hv2 v12 rv12 16#32 (by decide) _ _ _ (k0_off8_eq k) g16 hg16 _ _
  clear e17
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g18, %e18, HD⟩
  have hg18 : ∀ t, DoneAt k.val (18 + 1) t → g18 t = tval P R t := by
    subst e18
    exact store_fact3 d L P R hP k.val hk 18 2 1 (by decide) (by decide) (by decide) v2 hv2 v16 rv16 16#32 (by decide) _ _ _ (k0_off8_eq k) g17 hg17 _ _
  clear e18
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g19, %e19, HD⟩
  have hg19 : ∀ t, DoneAt k.val (19 + 1) t → g19 t = tval P R t := by
    subst e19
    exact store_fact3 d L P R hP k.val hk 19 3 1 (by decide) (by decide) (by decide) v2 hv2 v20 rv20 16#32 (by decide) _ _ _ (k0_off8_eq k) g18 hg18 _ _
  clear e19
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g20, %e20, HD⟩
  have hg20 : ∀ t, DoneAt k.val (20 + 1) t → g20 t = tval P R t := by
    subst e20
    exact store_fact3 d L P R hP k.val hk 20 4 1 (by decide) (by decide) (by decide) v2 hv2 v24 rv24 16#32 (by decide) _ _ _ (k0_off8_eq k) g19 hg19 _ _
  clear e20
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g21, %e21, HD⟩
  have hg21 : ∀ t, DoneAt k.val (21 + 1) t → g21 t = tval P R t := by
    subst e21
    exact store_fact3 d L P R hP k.val hk 21 5 1 (by decide) (by decide) (by decide) v2 hv2 v28 rv28 16#32 (by decide) _ _ _ (k0_off8_eq k) g20 hg20 _ _
  clear e21
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g22, %e22, HD⟩
  have hg22 : ∀ t, DoneAt k.val (22 + 1) t → g22 t = tval P R t := by
    subst e22
    exact store_fact3 d L P R hP k.val hk 22 6 1 (by decide) (by decide) (by decide) v2 hv2 v32 rv32 16#32 (by decide) _ _ _ (k0_off8_eq k) g21 hg21 _ _
  clear e22
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g23, %e23, HD⟩
  have hg23 : ∀ t, DoneAt k.val (23 + 1) t → g23 t = tval P R t := by
    subst e23
    exact store_fact3 d L P R hP k.val hk 23 7 1 (by decide) (by decide) (by decide) v2 hv2 v36 rv36 16#32 (by decide) _ _ _ (k0_off8_eq k) g22 hg22 _ _
  clear e23
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g24, %e24, HD⟩
  have hg24 : ∀ t, DoneAt k.val (24 + 1) t → g24 t = tval P R t := by
    subst e24
    exact store_fact3 d L P R hP k.val hk 24 8 1 (by decide) (by decide) (by decide) v2 hv2 v40 rv40 16#32 (by decide) _ _ _ (k0_off8_eq k) g23 hg23 _ _
  clear e24
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g25, %e25, HD⟩
  have hg25 : ∀ t, DoneAt k.val (25 + 1) t → g25 t = tval P R t := by
    subst e25
    exact store_fact3 d L P R hP k.val hk 25 9 1 (by decide) (by decide) (by decide) v2 hv2 v44 rv44 16#32 (by decide) _ _ _ (k0_off8_eq k) g24 hg24 _ _
  clear e25
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g26, %e26, HD⟩
  have hg26 : ∀ t, DoneAt k.val (26 + 1) t → g26 t = tval P R t := by
    subst e26
    exact store_fact3 d L P R hP k.val hk 26 10 1 (by decide) (by decide) (by decide) v2 hv2 v48 rv48 16#32 (by decide) _ _ _ (k0_off8_eq k) g25 hg25 _ _
  clear e26
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g27, %e27, HD⟩
  have hg27 : ∀ t, DoneAt k.val (27 + 1) t → g27 t = tval P R t := by
    subst e27
    exact store_fact3 d L P R hP k.val hk 27 11 1 (by decide) (by decide) (by decide) v2 hv2 v52 rv52 16#32 (by decide) _ _ _ (k0_off8_eq k) g26 hg26 _ _
  clear e27
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g28, %e28, HD⟩
  have hg28 : ∀ t, DoneAt k.val (28 + 1) t → g28 t = tval P R t := by
    subst e28
    exact store_fact3 d L P R hP k.val hk 28 12 1 (by decide) (by decide) (by decide) v2 hv2 v56 rv56 16#32 (by decide) _ _ _ (k0_off8_eq k) g27 hg27 _ _
  clear e28
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g29, %e29, HD⟩
  have hg29 : ∀ t, DoneAt k.val (29 + 1) t → g29 t = tval P R t := by
    subst e29
    exact store_fact3 d L P R hP k.val hk 29 13 1 (by decide) (by decide) (by decide) v2 hv2 v60 rv60 16#32 (by decide) _ _ _ (k0_off8_eq k) g28 hg28 _ _
  clear e29
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g30, %e30, HD⟩
  have hg30 : ∀ t, DoneAt k.val (30 + 1) t → g30 t = tval P R t := by
    subst e30
    exact store_fact3 d L P R hP k.val hk 30 14 1 (by decide) (by decide) (by decide) v2 hv2 v64 rv64 16#32 (by decide) _ _ _ (k0_off8_eq k) g29 hg29 _ _
  clear e30
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g31, %e31, HD⟩
  have hg31 : ∀ t, DoneAt k.val (31 + 1) t → g31 t = tval P R t := by
    subst e31
    exact store_fact3 d L P R hP k.val hk 31 15 1 (by decide) (by decide) (by decide) v2 hv2 v68 rv68 16#32 (by decide) _ _ _ (k0_off8_eq k) g30 hg30 _ _
  clear e31
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g32, %e32, HD⟩
  have hg32 : ∀ t, DoneAt k.val (32 + 1) t → g32 t = tval P R t := by
    subst e32
    exact store_fact3 d L P R hP k.val hk 32 0 2 (by decide) (by decide) (by decide) v2 hv2 v8 rv8 32#32 (by decide) _ _ _ (k0_off8_eq k) g31 hg31 _ _
  clear e32
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g33, %e33, HD⟩
  have hg33 : ∀ t, DoneAt k.val (33 + 1) t → g33 t = tval P R t := by
    subst e33
    exact store_fact3 d L P R hP k.val hk 33 1 2 (by decide) (by decide) (by decide) v2 hv2 v12 rv12 32#32 (by decide) _ _ _ (k0_off8_eq k) g32 hg32 _ _
  clear e33
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g34, %e34, HD⟩
  have hg34 : ∀ t, DoneAt k.val (34 + 1) t → g34 t = tval P R t := by
    subst e34
    exact store_fact3 d L P R hP k.val hk 34 2 2 (by decide) (by decide) (by decide) v2 hv2 v16 rv16 32#32 (by decide) _ _ _ (k0_off8_eq k) g33 hg33 _ _
  clear e34
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g35, %e35, HD⟩
  have hg35 : ∀ t, DoneAt k.val (35 + 1) t → g35 t = tval P R t := by
    subst e35
    exact store_fact3 d L P R hP k.val hk 35 3 2 (by decide) (by decide) (by decide) v2 hv2 v20 rv20 32#32 (by decide) _ _ _ (k0_off8_eq k) g34 hg34 _ _
  clear e35
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g36, %e36, HD⟩
  have hg36 : ∀ t, DoneAt k.val (36 + 1) t → g36 t = tval P R t := by
    subst e36
    exact store_fact3 d L P R hP k.val hk 36 4 2 (by decide) (by decide) (by decide) v2 hv2 v24 rv24 32#32 (by decide) _ _ _ (k0_off8_eq k) g35 hg35 _ _
  clear e36
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g37, %e37, HD⟩
  have hg37 : ∀ t, DoneAt k.val (37 + 1) t → g37 t = tval P R t := by
    subst e37
    exact store_fact3 d L P R hP k.val hk 37 5 2 (by decide) (by decide) (by decide) v2 hv2 v28 rv28 32#32 (by decide) _ _ _ (k0_off8_eq k) g36 hg36 _ _
  clear e37
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g38, %e38, HD⟩
  have hg38 : ∀ t, DoneAt k.val (38 + 1) t → g38 t = tval P R t := by
    subst e38
    exact store_fact3 d L P R hP k.val hk 38 6 2 (by decide) (by decide) (by decide) v2 hv2 v32 rv32 32#32 (by decide) _ _ _ (k0_off8_eq k) g37 hg37 _ _
  clear e38
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g39, %e39, HD⟩
  have hg39 : ∀ t, DoneAt k.val (39 + 1) t → g39 t = tval P R t := by
    subst e39
    exact store_fact3 d L P R hP k.val hk 39 7 2 (by decide) (by decide) (by decide) v2 hv2 v36 rv36 32#32 (by decide) _ _ _ (k0_off8_eq k) g38 hg38 _ _
  clear e39
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g40, %e40, HD⟩
  have hg40 : ∀ t, DoneAt k.val (40 + 1) t → g40 t = tval P R t := by
    subst e40
    exact store_fact3 d L P R hP k.val hk 40 8 2 (by decide) (by decide) (by decide) v2 hv2 v40 rv40 32#32 (by decide) _ _ _ (k0_off8_eq k) g39 hg39 _ _
  clear e40
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g41, %e41, HD⟩
  have hg41 : ∀ t, DoneAt k.val (41 + 1) t → g41 t = tval P R t := by
    subst e41
    exact store_fact3 d L P R hP k.val hk 41 9 2 (by decide) (by decide) (by decide) v2 hv2 v44 rv44 32#32 (by decide) _ _ _ (k0_off8_eq k) g40 hg40 _ _
  clear e41
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g42, %e42, HD⟩
  have hg42 : ∀ t, DoneAt k.val (42 + 1) t → g42 t = tval P R t := by
    subst e42
    exact store_fact3 d L P R hP k.val hk 42 10 2 (by decide) (by decide) (by decide) v2 hv2 v48 rv48 32#32 (by decide) _ _ _ (k0_off8_eq k) g41 hg41 _ _
  clear e42
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g43, %e43, HD⟩
  have hg43 : ∀ t, DoneAt k.val (43 + 1) t → g43 t = tval P R t := by
    subst e43
    exact store_fact3 d L P R hP k.val hk 43 11 2 (by decide) (by decide) (by decide) v2 hv2 v52 rv52 32#32 (by decide) _ _ _ (k0_off8_eq k) g42 hg42 _ _
  clear e43
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g44, %e44, HD⟩
  have hg44 : ∀ t, DoneAt k.val (44 + 1) t → g44 t = tval P R t := by
    subst e44
    exact store_fact3 d L P R hP k.val hk 44 12 2 (by decide) (by decide) (by decide) v2 hv2 v56 rv56 32#32 (by decide) _ _ _ (k0_off8_eq k) g43 hg43 _ _
  clear e44
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g45, %e45, HD⟩
  have hg45 : ∀ t, DoneAt k.val (45 + 1) t → g45 t = tval P R t := by
    subst e45
    exact store_fact3 d L P R hP k.val hk 45 13 2 (by decide) (by decide) (by decide) v2 hv2 v60 rv60 32#32 (by decide) _ _ _ (k0_off8_eq k) g44 hg44 _ _
  clear e45
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g46, %e46, HD⟩
  have hg46 : ∀ t, DoneAt k.val (46 + 1) t → g46 t = tval P R t := by
    subst e46
    exact store_fact3 d L P R hP k.val hk 46 14 2 (by decide) (by decide) (by decide) v2 hv2 v64 rv64 32#32 (by decide) _ _ _ (k0_off8_eq k) g45 hg45 _ _
  clear e46
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g47, %e47, HD⟩
  have hg47 : ∀ t, DoneAt k.val (47 + 1) t → g47 t = tval P R t := by
    subst e47
    exact store_fact3 d L P R hP k.val hk 47 15 2 (by decide) (by decide) (by decide) v2 hv2 v68 rv68 32#32 (by decide) _ _ _ (k0_off8_eq k) g46 hg46 _ _
  clear e47
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g48, %e48, HD⟩
  have hg48 : ∀ t, DoneAt k.val (48 + 1) t → g48 t = tval P R t := by
    subst e48
    exact store_fact3 d L P R hP k.val hk 48 0 3 (by decide) (by decide) (by decide) v2 hv2 v8 rv8 48#32 (by decide) _ _ _ (k0_off8_eq k) g47 hg47 _ _
  clear e48
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g49, %e49, HD⟩
  have hg49 : ∀ t, DoneAt k.val (49 + 1) t → g49 t = tval P R t := by
    subst e49
    exact store_fact3 d L P R hP k.val hk 49 1 3 (by decide) (by decide) (by decide) v2 hv2 v12 rv12 48#32 (by decide) _ _ _ (k0_off8_eq k) g48 hg48 _ _
  clear e49
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g50, %e50, HD⟩
  have hg50 : ∀ t, DoneAt k.val (50 + 1) t → g50 t = tval P R t := by
    subst e50
    exact store_fact3 d L P R hP k.val hk 50 2 3 (by decide) (by decide) (by decide) v2 hv2 v16 rv16 48#32 (by decide) _ _ _ (k0_off8_eq k) g49 hg49 _ _
  clear e50
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g51, %e51, HD⟩
  have hg51 : ∀ t, DoneAt k.val (51 + 1) t → g51 t = tval P R t := by
    subst e51
    exact store_fact3 d L P R hP k.val hk 51 3 3 (by decide) (by decide) (by decide) v2 hv2 v20 rv20 48#32 (by decide) _ _ _ (k0_off8_eq k) g50 hg50 _ _
  clear e51
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g52, %e52, HD⟩
  have hg52 : ∀ t, DoneAt k.val (52 + 1) t → g52 t = tval P R t := by
    subst e52
    exact store_fact3 d L P R hP k.val hk 52 4 3 (by decide) (by decide) (by decide) v2 hv2 v24 rv24 48#32 (by decide) _ _ _ (k0_off8_eq k) g51 hg51 _ _
  clear e52
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g53, %e53, HD⟩
  have hg53 : ∀ t, DoneAt k.val (53 + 1) t → g53 t = tval P R t := by
    subst e53
    exact store_fact3 d L P R hP k.val hk 53 5 3 (by decide) (by decide) (by decide) v2 hv2 v28 rv28 48#32 (by decide) _ _ _ (k0_off8_eq k) g52 hg52 _ _
  clear e53
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g54, %e54, HD⟩
  have hg54 : ∀ t, DoneAt k.val (54 + 1) t → g54 t = tval P R t := by
    subst e54
    exact store_fact3 d L P R hP k.val hk 54 6 3 (by decide) (by decide) (by decide) v2 hv2 v32 rv32 48#32 (by decide) _ _ _ (k0_off8_eq k) g53 hg53 _ _
  clear e54
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g55, %e55, HD⟩
  have hg55 : ∀ t, DoneAt k.val (55 + 1) t → g55 t = tval P R t := by
    subst e55
    exact store_fact3 d L P R hP k.val hk 55 7 3 (by decide) (by decide) (by decide) v2 hv2 v36 rv36 48#32 (by decide) _ _ _ (k0_off8_eq k) g54 hg54 _ _
  clear e55
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g56, %e56, HD⟩
  have hg56 : ∀ t, DoneAt k.val (56 + 1) t → g56 t = tval P R t := by
    subst e56
    exact store_fact3 d L P R hP k.val hk 56 8 3 (by decide) (by decide) (by decide) v2 hv2 v40 rv40 48#32 (by decide) _ _ _ (k0_off8_eq k) g55 hg55 _ _
  clear e56
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g57, %e57, HD⟩
  have hg57 : ∀ t, DoneAt k.val (57 + 1) t → g57 t = tval P R t := by
    subst e57
    exact store_fact3 d L P R hP k.val hk 57 9 3 (by decide) (by decide) (by decide) v2 hv2 v44 rv44 48#32 (by decide) _ _ _ (k0_off8_eq k) g56 hg56 _ _
  clear e57
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g58, %e58, HD⟩
  have hg58 : ∀ t, DoneAt k.val (58 + 1) t → g58 t = tval P R t := by
    subst e58
    exact store_fact3 d L P R hP k.val hk 58 10 3 (by decide) (by decide) (by decide) v2 hv2 v48 rv48 48#32 (by decide) _ _ _ (k0_off8_eq k) g57 hg57 _ _
  clear e58
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g59, %e59, HD⟩
  have hg59 : ∀ t, DoneAt k.val (59 + 1) t → g59 t = tval P R t := by
    subst e59
    exact store_fact3 d L P R hP k.val hk 59 11 3 (by decide) (by decide) (by decide) v2 hv2 v52 rv52 48#32 (by decide) _ _ _ (k0_off8_eq k) g58 hg58 _ _
  clear e59
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g60, %e60, HD⟩
  have hg60 : ∀ t, DoneAt k.val (60 + 1) t → g60 t = tval P R t := by
    subst e60
    exact store_fact3 d L P R hP k.val hk 60 12 3 (by decide) (by decide) (by decide) v2 hv2 v56 rv56 48#32 (by decide) _ _ _ (k0_off8_eq k) g59 hg59 _ _
  clear e60
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g61, %e61, HD⟩
  have hg61 : ∀ t, DoneAt k.val (61 + 1) t → g61 t = tval P R t := by
    subst e61
    exact store_fact3 d L P R hP k.val hk 61 13 3 (by decide) (by decide) (by decide) v2 hv2 v60 rv60 48#32 (by decide) _ _ _ (k0_off8_eq k) g60 hg60 _ _
  clear e61
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g62, %e62, HD⟩
  have hg62 : ∀ t, DoneAt k.val (62 + 1) t → g62 t = tval P R t := by
    subst e62
    exact store_fact3 d L P R hP k.val hk 62 14 3 (by decide) (by decide) (by decide) v2 hv2 v64 rv64 48#32 (by decide) _ _ _ (k0_off8_eq k) g61 hg61 _ _
  clear e62
  rw [SparseCore.vectorStoreIdx_bind (c := thr d L)]; sl_exec (disch := (first
      | (refine chkL _ _ (rowOK' v2 hv2 k.val hk) (colOK _ ?_ _ ?_ _ ?_) <;> first | assumption | exact par_row3 d L P hP _ _ _ | decide)
      | (refine chkS _ _ (rotOK _ ?_ _ ?_) (rowOK' v2 hv2 k.val hk) <;> first | assumption | decide)))
  ihave HD' := (hold_eq _) $$ HD
  icases HD' with ⟨%g63, %e63, HD⟩
  have hg63 : ∀ t, DoneAt k.val (63 + 1) t → g63 t = tval P R t := by
    subst e63
    exact store_fact3 d L P R hP k.val hk 63 15 3 (by decide) (by decide) (by decide) v2 hv2 v68 rv68 48#32 (by decide) _ _ _ (k0_off8_eq k) g62 hg62 _ _
  clear e63
  sl_step
  isplitl [HA]; · iexact HA
  isplitl [HR]; · iexact HR
  iexists g63
  isplitr
  · ipureintro
    exact fun t ht => hg63 t (doneAt_last ht)
  · iexact HD

end Cert.Proof.KI

end
-- ==== Proof.KITripV5.lean ====
import proofs.«206508_g82686710383178_cont_9to1c4b_561_19_alg».proof.Proof.KITripVal2
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-
  One trip of the last transpose of slot 1, after the outer loop, with the value. The trip's sixty-four indexed stores each write, from every lane, the transposed
  value at the entry the lane names: after store number n the destination is right on every older column and on every entry of the
  trip whose store number is below n + 1; after the last one it is right on every column below 16 (k + 1).
-/
set_option sl_exec.dischHeartbeats 100000 in
set_option maxHeartbeats 40000000 in
theorem trip_t5_val (d : Dev nD) (L : grid0.Coords) (P : Buf (Elt F) ((b4).view.loc (thr d L))) (R : Buf (Elt F) ((b6).view.loc (thr d L)))
    (hP : ∀ j, (P j).toNat = 0 ∨ (P j).toNat = 64) (v1 : BitVec 32) (v2 v8 v12 v16 v20 v24 v28 v32 v36 v40 v44 v48 v52 v56 v60 v64 v68 : IVec S16 32)
    (hv2 : v2 = iota .scVector S16 32 [0] iota_S16_d0_w32_scVector)
    (hv8 : v8 = k0_pay336) (hv12 : v12 = k0_pay337) (hv16 : v16 = k0_pay338) (hv20 : v20 = k0_pay339) (hv24 : v24 = k0_pay340) (hv28 : v28 = k0_pay341) (hv32 : v32 = k0_pay342) (hv36 : v36 = k0_pay344 v2 k0_pay343) (hv40 : v40 = k0_pay345 v2) (hv44 : v44 = k0_pay346 v2) (hv48 : v48 = k0_pay347 v2) (hv52 : v52 = k0_pay348 v2) (hv56 : v56 = k0_pay349 v2) (hv60 : v60 = k0_pay350 v2) (hv64 : v64 = k0_pay351 v2) (hv68 : v68 = k0_pay352 v2)
    (v330 : BitVec 32) (c128_i32 : BitVec 32) (k : Fin k0_t5_loop.trips) (acc : PUnit) :
    invUV4 d L P R k.val acc ⊢ wp frame (wpE (defs₀ (F := F)) 𝒱₀ (thr d L) none) Set.univ
      (k0_t5_body L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0 v1 v2 v8 v12 v16 v20 v24 v28 v32 v36 v40 v44 v48 v52 v56 v60 v64 v68 v330 c128_i32 k acc)
      (invUV4 d L P R (k.val + 1)) := by
  have hk : k.val < 8 := by
    have h := k.isLt
    have e : k0_t5_loop.trips = 8 := by decide
    omega
  have lv8 := rot_lt_of_eq hv8
  have lv12 := rot_lt_of_eq hv12
  have lv16 := rot_lt_of_eq hv16
  have lv20 := rot_lt_of_eq hv20
  have lv24 := rot_lt_of_eq hv24
  have lv28 := rot_lt_of_eq hv28
  have lv32 := rot_lt_of_eq hv32
  have lv36 := rot_lt_of_eq hv36
  have lv40 := rot_lt_of_eq hv40
  have lv44 := rot_lt_of_eq hv44
  have lv48 := rot_lt_of_eq hv48
  have lv52 := rot_lt_of_eq hv52
  have lv56 := rot_lt_of_eq hv56
  have lv60 := rot_lt_of_eq hv60
  have lv64 := rot_lt_of_eq hv64
  have lv68 := rot_lt_of_eq hv68
  have rv8 := rot_exact v8 _ rfl _ 0 (by decide) (by decide) hv8
  have rv12 := rot_exact v12 _ rfl _ 1 (by decide) (by decide) hv12
  have rv16 := rot_exact v16 _ rfl _ 2 (by decide) (by decide) hv16
  have rv20 := rot_exact v20 _ rfl _ 3 (by decide) (by decide) hv20
  have rv24 := rot_exact v24 _ rfl _ 4 (by decide) (by decide) hv24
  have rv28 := rot_exact v28 _ rfl _ 5 (by decide) (by decide) hv28
  have rv32 := rot_exact v32 _ rfl _ 6 (by decide) (by decide) hv32
  have rv36 := rot_exact v36 v2 hv2 _ 7 (by decide) (by decide) hv36
  have rv40 := rot_exact v40 v2 hv2 _ 8 (by decide) (by decide) hv40
  have rv44 := rot_exact v44 v2 hv2 _ 9 (by decide) (by decide) hv44
  have rv48 := rot_exact v48 v2 hv2 _ 10 (by decide) (by decide) hv48
  have rv52 := rot_exact v52 v2 hv2 _ 11 (by decide) (by decide) hv52
  have rv56 := rot_exact v56 v2 hv2 _ 12 (by decide) (by decide) hv56
  have rv60 := rot_exact v60 v2 hv2 _ 13 (by decide) (by decide) hv60
  have rv64 := rot_exact v64 v2 hv2 _ 14 (by decide) (by decide) hv64
  have rv68 := rot_exact v68 v2 hv2 _ 15 (by decide) (by decide) hv68
  unfold invUV4
  iintro ⟨HA, HR, %f, %hf, HD⟩
  have hg0 : ∀ t, DoneAt k.val 0 t → f t = tval P R t := fun t ht => hf t (doneAt_zero.1 ht)
  unfold k0_t5_body
  sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g0, %e0, HD⟩
  have hg0 : ∀ t, DoneAt k.val (0 + 1) t → g0 t = tval P R t := by
    subst e0
    exact store_fact4 d L P R hP k.val hk 0 0 0 (by decide) (by decide) (by decide) v2 hv2 v8 rv8 0#32 (by decide) _ _ _ (k0_off10_eq k) f hg0 _ _
  clear e0
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g1, %e1, HD⟩
  have hg1 : ∀ t, DoneAt k.val (1 + 1) t → g1 t = tval P R t := by
    subst e1
    exact store_fact4 d L P R hP k.val hk 1 1 0 (by decide) (by decide) (by decide) v2 hv2 v12 rv12 0#32 (by decide) _ _ _ (k0_off10_eq k) g0 hg0 _ _
  clear e1
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g2, %e2, HD⟩
  have hg2 : ∀ t, DoneAt k.val (2 + 1) t → g2 t = tval P R t := by
    subst e2
    exact store_fact4 d L P R hP k.val hk 2 2 0 (by decide) (by decide) (by decide) v2 hv2 v16 rv16 0#32 (by decide) _ _ _ (k0_off10_eq k) g1 hg1 _ _
  clear e2
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g3, %e3, HD⟩
  have hg3 : ∀ t, DoneAt k.val (3 + 1) t → g3 t = tval P R t := by
    subst e3
    exact store_fact4 d L P R hP k.val hk 3 3 0 (by decide) (by decide) (by decide) v2 hv2 v20 rv20 0#32 (by decide) _ _ _ (k0_off10_eq k) g2 hg2 _ _
  clear e3
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g4, %e4, HD⟩
  have hg4 : ∀ t, DoneAt k.val (4 + 1) t → g4 t = tval P R t := by
    subst e4
    exact store_fact4 d L P R hP k.val hk 4 4 0 (by decide) (by decide) (by decide) v2 hv2 v24 rv24 0#32 (by decide) _ _ _ (k0_off10_eq k) g3 hg3 _ _
  clear e4
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g5, %e5, HD⟩
  have hg5 : ∀ t, DoneAt k.val (5 + 1) t → g5 t = tval P R t := by
    subst e5
    exact store_fact4 d L P R hP k.val hk 5 5 0 (by decide) (by decide) (by decide) v2 hv2 v28 rv28 0#32 (by decide) _ _ _ (k0_off10_eq k) g4 hg4 _ _
  clear e5
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g6, %e6, HD⟩
  have hg6 : ∀ t, DoneAt k.val (6 + 1) t → g6 t = tval P R t := by
    subst e6
    exact store_fact4 d L P R hP k.val hk 6 6 0 (by decide) (by decide) (by decide) v2 hv2 v32 rv32 0#32 (by decide) _ _ _ (k0_off10_eq k) g5 hg5 _ _
  clear e6
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g7, %e7, HD⟩
  have hg7 : ∀ t, DoneAt k.val (7 + 1) t → g7 t = tval P R t := by
    subst e7
    exact store_fact4 d L P R hP k.val hk 7 7 0 (by decide) (by decide) (by decide) v2 hv2 v36 rv36 0#32 (by decide) _ _ _ (k0_off10_eq k) g6 hg6 _ _
  clear e7
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g8, %e8, HD⟩
  have hg8 : ∀ t, DoneAt k.val (8 + 1) t → g8 t = tval P R t := by
    subst e8
    exact store_fact4 d L P R hP k.val hk 8 8 0 (by decide) (by decide) (by decide) v2 hv2 v40 rv40 0#32 (by decide) _ _ _ (k0_off10_eq k) g7 hg7 _ _
  clear e8
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g9, %e9, HD⟩
  have hg9 : ∀ t, DoneAt k.val (9 + 1) t → g9 t = tval P R t := by
    subst e9
    exact store_fact4 d L P R hP k.val hk 9 9 0 (by decide) (by decide) (by decide) v2 hv2 v44 rv44 0#32 (by decide) _ _ _ (k0_off10_eq k) g8 hg8 _ _
  clear e9
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g10, %e10, HD⟩
  have hg10 : ∀ t, DoneAt k.val (10 + 1) t → g10 t = tval P R t := by
    subst e10
    exact store_fact4 d L P R hP k.val hk 10 10 0 (by decide) (by decide) (by decide) v2 hv2 v48 rv48 0#32 (by decide) _ _ _ (k0_off10_eq k) g9 hg9 _ _
  clear e10
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g11, %e11, HD⟩
  have hg11 : ∀ t, DoneAt k.val (11 + 1) t → g11 t = tval P R t := by
    subst e11
    exact store_fact4 d L P R hP k.val hk 11 11 0 (by decide) (by decide) (by decide) v2 hv2 v52 rv52 0#32 (by decide) _ _ _ (k0_off10_eq k) g10 hg10 _ _
  clear e11
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g12, %e12, HD⟩
  have hg12 : ∀ t, DoneAt k.val (12 + 1) t → g12 t = tval P R t := by
    subst e12
    exact store_fact4 d L P R hP k.val hk 12 12 0 (by decide) (by decide) (by decide) v2 hv2 v56 rv56 0#32 (by decide) _ _ _ (k0_off10_eq k) g11 hg11 _ _
  clear e12
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g13, %e13, HD⟩
  have hg13 : ∀ t, DoneAt k.val (13 + 1) t → g13 t = tval P R t := by
    subst e13
    exact store_fact4 d L P R hP k.val hk 13 13 0 (by decide) (by decide) (by decide) v2 hv2 v60 rv60 0#32 (by decide) _ _ _ (k0_off10_eq k) g12 hg12 _ _
  clear e13
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g14, %e14, HD⟩
  have hg14 : ∀ t, DoneAt k.val (14 + 1) t → g14 t = tval P R t := by
    subst e14
    exact store_fact4 d L P R hP k.val hk 14 14 0 (by decide) (by decide) (by decide) v2 hv2 v64 rv64 0#32 (by decide) _ _ _ (k0_off10_eq k) g13 hg13 _ _
  clear e14
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g15, %e15, HD⟩
  have hg15 : ∀ t, DoneAt k.val (15 + 1) t → g15 t = tval P R t := by
    subst e15
    exact store_fact4 d L P R hP k.val hk 15 15 0 (by decide) (by decide) (by decide) v2 hv2 v68 rv68 0#32 (by decide) _ _ _ (k0_off10_eq k) g14 hg14 _ _
  clear e15
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g16, %e16, HD⟩
  have hg16 : ∀ t, DoneAt k.val (16 + 1) t → g16 t = tval P R t := by
    subst e16
    exact store_fact4 d L P R hP k.val hk 16 0 1 (by decide) (by decide) (by decide) v2 hv2 v8 rv8 16#32 (by decide) _ _ _ (k0_off10_eq k) g15 hg15 _ _
  clear e16
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g17, %e17, HD⟩
  have hg17 : ∀ t, DoneAt k.val (17 + 1) t → g17 t = tval P R t := by
    subst e17
    exact store_fact4 d L P R hP k.val hk 17 1 1 (by decide) (by decide) (by decide) v2 hv2 v12 rv12 16#32 (by decide) _ _ _ (k0_off10_eq k) g16 hg16 _ _
  clear e17
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g18, %e18, HD⟩
  have hg18 : ∀ t, DoneAt k.val (18 + 1) t → g18 t = tval P R t := by
    subst e18
    exact store_fact4 d L P R hP k.val hk 18 2 1 (by decide) (by decide) (by decide) v2 hv2 v16 rv16 16#32 (by decide) _ _ _ (k0_off10_eq k) g17 hg17 _ _
  clear e18
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g19, %e19, HD⟩
  have hg19 : ∀ t, DoneAt k.val (19 + 1) t → g19 t = tval P R t := by
    subst e19
    exact store_fact4 d L P R hP k.val hk 19 3 1 (by decide) (by decide) (by decide) v2 hv2 v20 rv20 16#32 (by decide) _ _ _ (k0_off10_eq k) g18 hg18 _ _
  clear e19
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g20, %e20, HD⟩
  have hg20 : ∀ t, DoneAt k.val (20 + 1) t → g20 t = tval P R t := by
    subst e20
    exact store_fact4 d L P R hP k.val hk 20 4 1 (by decide) (by decide) (by decide) v2 hv2 v24 rv24 16#32 (by decide) _ _ _ (k0_off10_eq k) g19 hg19 _ _
  clear e20
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g21, %e21, HD⟩
  have hg21 : ∀ t, DoneAt k.val (21 + 1) t → g21 t = tval P R t := by
    subst e21
    exact store_fact4 d L P R hP k.val hk 21 5 1 (by decide) (by decide) (by decide) v2 hv2 v28 rv28 16#32 (by decide) _ _ _ (k0_off10_eq k) g20 hg20 _ _
  clear e21
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g22, %e22, HD⟩
  have hg22 : ∀ t, DoneAt k.val (22 + 1) t → g22 t = tval P R t := by
    subst e22
    exact store_fact4 d L P R hP k.val hk 22 6 1 (by decide) (by decide) (by decide) v2 hv2 v32 rv32 16#32 (by decide) _ _ _ (k0_off10_eq k) g21 hg21 _ _
  clear e22
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g23, %e23, HD⟩
  have hg23 : ∀ t, DoneAt k.val (23 + 1) t → g23 t = tval P R t := by
    subst e23
    exact store_fact4 d L P R hP k.val hk 23 7 1 (by decide) (by decide) (by decide) v2 hv2 v36 rv36 16#32 (by decide) _ _ _ (k0_off10_eq k) g22 hg22 _ _
  clear e23
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g24, %e24, HD⟩
  have hg24 : ∀ t, DoneAt k.val (24 + 1) t → g24 t = tval P R t := by
    subst e24
    exact store_fact4 d L P R hP k.val hk 24 8 1 (by decide) (by decide) (by decide) v2 hv2 v40 rv40 16#32 (by decide) _ _ _ (k0_off10_eq k) g23 hg23 _ _
  clear e24
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g25, %e25, HD⟩
  have hg25 : ∀ t, DoneAt k.val (25 + 1) t → g25 t = tval P R t := by
    subst e25
    exact store_fact4 d L P R hP k.val hk 25 9 1 (by decide) (by decide) (by decide) v2 hv2 v44 rv44 16#32 (by decide) _ _ _ (k0_off10_eq k) g24 hg24 _ _
  clear e25
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g26, %e26, HD⟩
  have hg26 : ∀ t, DoneAt k.val (26 + 1) t → g26 t = tval P R t := by
    subst e26
    exact store_fact4 d L P R hP k.val hk 26 10 1 (by decide) (by decide) (by decide) v2 hv2 v48 rv48 16#32 (by decide) _ _ _ (k0_off10_eq k) g25 hg25 _ _
  clear e26
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g27, %e27, HD⟩
  have hg27 : ∀ t, DoneAt k.val (27 + 1) t → g27 t = tval P R t := by
    subst e27
    exact store_fact4 d L P R hP k.val hk 27 11 1 (by decide) (by decide) (by decide) v2 hv2 v52 rv52 16#32 (by decide) _ _ _ (k0_off10_eq k) g26 hg26 _ _
  clear e27
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g28, %e28, HD⟩
  have hg28 : ∀ t, DoneAt k.val (28 + 1) t → g28 t = tval P R t := by
    subst e28
    exact store_fact4 d L P R hP k.val hk 28 12 1 (by decide) (by decide) (by decide) v2 hv2 v56 rv56 16#32 (by decide) _ _ _ (k0_off10_eq k) g27 hg27 _ _
  clear e28
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g29, %e29, HD⟩
  have hg29 : ∀ t, DoneAt k.val (29 + 1) t → g29 t = tval P R t := by
    subst e29
    exact store_fact4 d L P R hP k.val hk 29 13 1 (by decide) (by decide) (by decide) v2 hv2 v60 rv60 16#32 (by decide) _ _ _ (k0_off10_eq k) g28 hg28 _ _
  clear e29
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g30, %e30, HD⟩
  have hg30 : ∀ t, DoneAt k.val (30 + 1) t → g30 t = tval P R t := by
    subst e30
    exact store_fact4 d L P R hP k.val hk 30 14 1 (by decide) (by decide) (by decide) v2 hv2 v64 rv64 16#32 (by decide) _ _ _ (k0_off10_eq k) g29 hg29 _ _
  clear e30
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g31, %e31, HD⟩
  have hg31 : ∀ t, DoneAt k.val (31 + 1) t → g31 t = tval P R t := by
    subst e31
    exact store_fact4 d L P R hP k.val hk 31 15 1 (by decide) (by decide) (by decide) v2 hv2 v68 rv68 16#32 (by decide) _ _ _ (k0_off10_eq k) g30 hg30 _ _
  clear e31
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g32, %e32, HD⟩
  have hg32 : ∀ t, DoneAt k.val (32 + 1) t → g32 t = tval P R t := by
    subst e32
    exact store_fact4 d L P R hP k.val hk 32 0 2 (by decide) (by decide) (by decide) v2 hv2 v8 rv8 32#32 (by decide) _ _ _ (k0_off10_eq k) g31 hg31 _ _
  clear e32
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g33, %e33, HD⟩
  have hg33 : ∀ t, DoneAt k.val (33 + 1) t → g33 t = tval P R t := by
    subst e33
    exact store_fact4 d L P R hP k.val hk 33 1 2 (by decide) (by decide) (by decide) v2 hv2 v12 rv12 32#32 (by decide) _ _ _ (k0_off10_eq k) g32 hg32 _ _
  clear e33
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g34, %e34, HD⟩
  have hg34 : ∀ t, DoneAt k.val (34 + 1) t → g34 t = tval P R t := by
    subst e34
    exact store_fact4 d L P R hP k.val hk 34 2 2 (by decide) (by decide) (by decide) v2 hv2 v16 rv16 32#32 (by decide) _ _ _ (k0_off10_eq k) g33 hg33 _ _
  clear e34
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g35, %e35, HD⟩
  have hg35 : ∀ t, DoneAt k.val (35 + 1) t → g35 t = tval P R t := by
    subst e35
    exact store_fact4 d L P R hP k.val hk 35 3 2 (by decide) (by decide) (by decide) v2 hv2 v20 rv20 32#32 (by decide) _ _ _ (k0_off10_eq k) g34 hg34 _ _
  clear e35
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g36, %e36, HD⟩
  have hg36 : ∀ t, DoneAt k.val (36 + 1) t → g36 t = tval P R t := by
    subst e36
    exact store_fact4 d L P R hP k.val hk 36 4 2 (by decide) (by decide) (by decide) v2 hv2 v24 rv24 32#32 (by decide) _ _ _ (k0_off10_eq k) g35 hg35 _ _
  clear e36
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g37, %e37, HD⟩
  have hg37 : ∀ t, DoneAt k.val (37 + 1) t → g37 t = tval P R t := by
    subst e37
    exact store_fact4 d L P R hP k.val hk 37 5 2 (by decide) (by decide) (by decide) v2 hv2 v28 rv28 32#32 (by decide) _ _ _ (k0_off10_eq k) g36 hg36 _ _
  clear e37
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g38, %e38, HD⟩
  have hg38 : ∀ t, DoneAt k.val (38 + 1) t → g38 t = tval P R t := by
    subst e38
    exact store_fact4 d L P R hP k.val hk 38 6 2 (by decide) (by decide) (by decide) v2 hv2 v32 rv32 32#32 (by decide) _ _ _ (k0_off10_eq k) g37 hg37 _ _
  clear e38
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g39, %e39, HD⟩
  have hg39 : ∀ t, DoneAt k.val (39 + 1) t → g39 t = tval P R t := by
    subst e39
    exact store_fact4 d L P R hP k.val hk 39 7 2 (by decide) (by decide) (by decide) v2 hv2 v36 rv36 32#32 (by decide) _ _ _ (k0_off10_eq k) g38 hg38 _ _
  clear e39
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g40, %e40, HD⟩
  have hg40 : ∀ t, DoneAt k.val (40 + 1) t → g40 t = tval P R t := by
    subst e40
    exact store_fact4 d L P R hP k.val hk 40 8 2 (by decide) (by decide) (by decide) v2 hv2 v40 rv40 32#32 (by decide) _ _ _ (k0_off10_eq k) g39 hg39 _ _
  clear e40
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g41, %e41, HD⟩
  have hg41 : ∀ t, DoneAt k.val (41 + 1) t → g41 t = tval P R t := by
    subst e41
    exact store_fact4 d L P R hP k.val hk 41 9 2 (by decide) (by decide) (by decide) v2 hv2 v44 rv44 32#32 (by decide) _ _ _ (k0_off10_eq k) g40 hg40 _ _
  clear e41
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g42, %e42, HD⟩
  have hg42 : ∀ t, DoneAt k.val (42 + 1) t → g42 t = tval P R t := by
    subst e42
    exact store_fact4 d L P R hP k.val hk 42 10 2 (by decide) (by decide) (by decide) v2 hv2 v48 rv48 32#32 (by decide) _ _ _ (k0_off10_eq k) g41 hg41 _ _
  clear e42
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g43, %e43, HD⟩
  have hg43 : ∀ t, DoneAt k.val (43 + 1) t → g43 t = tval P R t := by
    subst e43
    exact store_fact4 d L P R hP k.val hk 43 11 2 (by decide) (by decide) (by decide) v2 hv2 v52 rv52 32#32 (by decide) _ _ _ (k0_off10_eq k) g42 hg42 _ _
  clear e43
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g44, %e44, HD⟩
  have hg44 : ∀ t, DoneAt k.val (44 + 1) t → g44 t = tval P R t := by
    subst e44
    exact store_fact4 d L P R hP k.val hk 44 12 2 (by decide) (by decide) (by decide) v2 hv2 v56 rv56 32#32 (by decide) _ _ _ (k0_off10_eq k) g43 hg43 _ _
  clear e44
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g45, %e45, HD⟩
  have hg45 : ∀ t, DoneAt k.val (45 + 1) t → g45 t = tval P R t := by
    subst e45
    exact store_fact4 d L P R hP k.val hk 45 13 2 (by decide) (by decide) (by decide) v2 hv2 v60 rv60 32#32 (by decide) _ _ _ (k0_off10_eq k) g44 hg44 _ _
  clear e45
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g46, %e46, HD⟩
  have hg46 : ∀ t, DoneAt k.val (46 + 1) t → g46 t = tval P R t := by
    subst e46
    exact store_fact4 d L P R hP k.val hk 46 14 2 (by decide) (by decide) (by decide) v2 hv2 v64 rv64 32#32 (by decide) _ _ _ (k0_off10_eq k) g45 hg45 _ _
  clear e46
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g47, %e47, HD⟩
  have hg47 : ∀ t, DoneAt k.val (47 + 1) t → g47 t = tval P R t := by
    subst e47
    exact store_fact4 d L P R hP k.val hk 47 15 2 (by decide) (by decide) (by decide) v2 hv2 v68 rv68 32#32 (by decide) _ _ _ (k0_off10_eq k) g46 hg46 _ _
  clear e47
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorLoadIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g48, %e48, HD⟩
  have hg48 : ∀ t, DoneAt k.val (48 + 1) t → g48 t = tval P R t := by
    subst e48
    exact store_fact4 d L P R hP k.val hk 48 0 3 (by decide) (by decide) (by decide) v2 hv2 v8 rv8 48#32 (by decide) _ _ _ (k0_off10_eq k) g47 hg47 _ _
  clear e48
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g49, %e49, HD⟩
  have hg49 : ∀ t, DoneAt k.val (49 + 1) t → g49 t = tval P R t := by
    subst e49
    exact store_fact4 d L P R hP k.val hk 49 1 3 (by decide) (by decide) (by decide) v2 hv2 v12 rv12 48#32 (by decide) _ _ _ (k0_off10_eq k) g48 hg48 _ _
  clear e49
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g50, %e50, HD⟩
  have hg50 : ∀ t, DoneAt k.val (50 + 1) t → g50 t = tval P R t := by
    subst e50
    exact store_fact4 d L P R hP k.val hk 50 2 3 (by decide) (by decide) (by decide) v2 hv2 v16 rv16 48#32 (by decide) _ _ _ (k0_off10_eq k) g49 hg49 _ _
  clear e50
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g51, %e51, HD⟩
  have hg51 : ∀ t, DoneAt k.val (51 + 1) t → g51 t = tval P R t := by
    subst e51
    exact store_fact4 d L P R hP k.val hk 51 3 3 (by decide) (by decide) (by decide) v2 hv2 v20 rv20 48#32 (by decide) _ _ _ (k0_off10_eq k) g50 hg50 _ _
  clear e51
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g52, %e52, HD⟩
  have hg52 : ∀ t, DoneAt k.val (52 + 1) t → g52 t = tval P R t := by
    subst e52
    exact store_fact4 d L P R hP k.val hk 52 4 3 (by decide) (by decide) (by decide) v2 hv2 v24 rv24 48#32 (by decide) _ _ _ (k0_off10_eq k) g51 hg51 _ _
  clear e52
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g53, %e53, HD⟩
  have hg53 : ∀ t, DoneAt k.val (53 + 1) t → g53 t = tval P R t := by
    subst e53
    exact store_fact4 d L P R hP k.val hk 53 5 3 (by decide) (by decide) (by decide) v2 hv2 v28 rv28 48#32 (by decide) _ _ _ (k0_off10_eq k) g52 hg52 _ _
  clear e53
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g54, %e54, HD⟩
  have hg54 : ∀ t, DoneAt k.val (54 + 1) t → g54 t = tval P R t := by
    subst e54
    exact store_fact4 d L P R hP k.val hk 54 6 3 (by decide) (by decide) (by decide) v2 hv2 v32 rv32 48#32 (by decide) _ _ _ (k0_off10_eq k) g53 hg53 _ _
  clear e54
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g55, %e55, HD⟩
  have hg55 : ∀ t, DoneAt k.val (55 + 1) t → g55 t = tval P R t := by
    subst e55
    exact store_fact4 d L P R hP k.val hk 55 7 3 (by decide) (by decide) (by decide) v2 hv2 v36 rv36 48#32 (by decide) _ _ _ (k0_off10_eq k) g54 hg54 _ _
  clear e55
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g56, %e56, HD⟩
  have hg56 : ∀ t, DoneAt k.val (56 + 1) t → g56 t = tval P R t := by
    subst e56
    exact store_fact4 d L P R hP k.val hk 56 8 3 (by decide) (by decide) (by decide) v2 hv2 v40 rv40 48#32 (by decide) _ _ _ (k0_off10_eq k) g55 hg55 _ _
  clear e56
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g57, %e57, HD⟩
  have hg57 : ∀ t, DoneAt k.val (57 + 1) t → g57 t = tval P R t := by
    subst e57
    exact store_fact4 d L P R hP k.val hk 57 9 3 (by decide) (by decide) (by decide) v2 hv2 v44 rv44 48#32 (by decide) _ _ _ (k0_off10_eq k) g56 hg56 _ _
  clear e57
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g58, %e58, HD⟩
  have hg58 : ∀ t, DoneAt k.val (58 + 1) t → g58 t = tval P R t := by
    subst e58
    exact store_fact4 d L P R hP k.val hk 58 10 3 (by decide) (by decide) (by decide) v2 hv2 v48 rv48 48#32 (by decide) _ _ _ (k0_off10_eq k) g57 hg57 _ _
  clear e58
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g59, %e59, HD⟩
  have hg59 : ∀ t, DoneAt k.val (59 + 1) t → g59 t = tval P R t := by
    subst e59
    exact store_fact4 d L P R hP k.val hk 59 11 3 (by decide) (by decide) (by decide) v2 hv2 v52 rv52 48#32 (by decide) _ _ _ (k0_off10_eq k) g58 hg58 _ _
  clear e59
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g60, %e60, HD⟩
  have hg60 : ∀ t, DoneAt k.val (60 + 1) t → g60 t = tval P R t := by
    subst e60
    exact store_fact4 d L P R hP k.val hk 60 12 3 (by decide) (by decide) (by decide) v2 hv2 v56 rv56 48#32 (by decide) _ _ _ (k0_off10_eq k) g59 hg59 _ _
  clear e60
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g61, %e61, HD⟩
  have hg61 : ∀ t, DoneAt k.val (61 + 1) t → g61 t = tval P R t := by
    subst e61
    exact store_fact4 d L P R hP k.val hk 61 13 3 (by decide) (by decide) (by decide) v2 hv2 v60 rv60 48#32 (by decide) _ _ _ (k0_off10_eq k) g60 hg60 _ _
  clear e61
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g62, %e62, HD⟩
  have hg62 : ∀ t, DoneAt k.val (62 + 1) t → g62 t = tval P R t := by
    subst e62
    exact store_fact4 d L P R hP k.val hk 62 14 3 (by decide) (by decide) (by decide) v2 hv2 v64 rv64 48#32 (by decide) _ _ _ (k0_off10_eq k) g61 hg61 _ _
  clear e62
  rw [SparseCore.vectorStoreIdx_bind (c := thr d L)]; sl_exec (disch := (first
      | (refine chkL _ _ (rowOK' v2 hv2 k.val hk) (colOK _ ?_ _ ?_ _ ?_) <;> first | assumption | exact par_row4 d L P hP _ _ _ | decide)
      | (refine chkS _ _ (rotOK _ ?_ _ ?_) (rowOK' v2 hv2 k.val hk) <;> first | assumption | decide)))
  ihave HD' := (hold_eq _) $$ HD
  icases HD' with ⟨%g63, %e63, HD⟩
  have hg63 : ∀ t, DoneAt k.val (63 + 1) t → g63 t = tval P R t := by
    subst e63
    exact store_fact4 d L P R hP k.val hk 63 15 3 (by decide) (by decide) (by decide) v2 hv2 v68 rv68 48#32 (by decide) _ _ _ (k0_off10_eq k) g62 hg62 _ _
  clear e63
  sl_step
  isplitl [HA]; · iexact HA
  isplitl [HR]; · iexact HR
  iexists g63
  isplitr
  · ipureintro
    exact fun t ht => hg63 t (doneAt_last ht)
  · iexact HD

end Cert.Proof.KI

end
-- ==== Proof.KIBodyV.lean ====
/-
  The body of the lookup on one tile, with its value: the tile's 512 columns of the result come back holding the result.

  The run is the one of Proof/KIBody.lean; what is added is what each buffer holds. The staged words are the tile's
  slice of the flattened row numbers. When group g is read into a slot, the slot's row list holds the staged words of
  the group halved and its parity scratch their parities times 64. The rows a gather lands are the paired table's rows
  the list names; a transpose leaves in the destination, at (f, r), entry parity + f of row r; a write-out puts that
  block on the group's part of the result. By the arithmetic of Proof/KIBlockVal.lean the block IS the result on that
  part; the parts finished round by round (Proof/KIDone.lean) end up covering the tile's columns.
-/
import proofs.«206508_g82686710383178_cont_9to1c4b_561_19_alg».proof.Proof.KIBody
import proofs.«206508_g82686710383178_cont_9to1c4b_561_19_alg».proof.Proof.KIFactsV
import proofs.«206508_g82686710383178_cont_9to1c4b_561_19_alg».proof.Proof.KIGatherVal
import proofs.«206508_g82686710383178_cont_9to1c4b_561_19_alg».proof.Proof.KIWriteVal
import proofs.«206508_g82686710383178_cont_9to1c4b_561_19_alg».proof.Proof.KIDone
import proofs.«206508_g82686710383178_cont_9to1c4b_561_19_alg».proof.Proof.KISets
import proofs.«206508_g82686710383178_cont_9to1c4b_561_19_alg».proof.Proof.KITripV1
import proofs.«206508_g82686710383178_cont_9to1c4b_561_19_alg».proof.Proof.KITripV3
import proofs.«206508_g82686710383178_cont_9to1c4b_561_19_alg».proof.Proof.KITripV4
import proofs.«206508_g82686710383178_cont_9to1c4b_561_19_alg».proof.Proof.KITripV5

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F]
variable (d : Dev nD) (L : grid0.Coords)

theorem blkCol_lt (L : grid0.Coords) (g : ℕ) (hg : g < 200) (r : Fin 128) :
    1024 * (L 1).val + 512 * (L 0).val + 128 * (g / 50) + r.val < 16384 := by
  have h0 : (L 0).val < 2 := (L 0).isLt
  have h1 : (L 1).val < 16 := (L 1).isLt
  have := r.isLt
  omega

/-- On the part a write-out fills, contents that are the group's block entry by entry, the block being the target
    function there, are the target function. -/
theorem slice_valG (g : ℕ) (hg : g < 200) (off : Fin 3 → ℕ) (hin : ∀ a, off a + S1x64x128.size a ≤ S50x64x16384.size a)
    (ho0 : off 0 = g % 50) (ho2 : off 2 = 1024 * (L 1).val + 512 * (L 0).val + 128 * (g / 50))
    (OUTv fo : S50x64x16384.Idx → Elt F .f32) (D : S64x128.Idx → Elt F .f32)
    (hfo : ∀ (f : Fin 64) (r : Fin 128) (hh : off 0 < 50) (hb : off 2 + r.val < 16384),
      fo (ix3 (⟨off 0, hh⟩ : Fin 50) f (⟨off 2 + r.val, hb⟩ : Fin 16384)) = D (ix2 f r))
    (hD : ∀ (f : Fin 64) (r : Fin 128), D (ix2 f r)
      = OUTv (ix3 (⟨g % 50, Nat.mod_lt _ (by decide)⟩ : Fin 50) f (⟨1024 * (L 1).val + 512 * (L 0).val + 128 * (g / 50) + r.val, blkCol_lt L g hg r⟩ : Fin 16384))) :
    ∀ j ∈ sliceSet off hin, fo j = OUTv j := by
  intro j hj
  obtain ⟨h0, h2, h2'⟩ := mem_sliceSet hj
  have hj0 : (j 0).val < 50 := (j 0).isLt
  have hj1 : (j 1).val < 64 := (j 1).isLt
  have hj2 : (j 2).val < 16384 := (j 2).isLt
  have hr : (j 2).val - off 2 < 128 := by omega
  have hb : off 2 + (j 2).val - off 2 < 16384 := by omega
  have ej : j = ix3 (⟨off 0, by omega⟩ : Fin 50) (⟨(j 1).val, hj1⟩ : Fin 64)
      (⟨off 2 + (⟨(j 2).val - off 2, hr⟩ : Fin 128).val, by show off 2 + ((j 2).val - off 2) < 16384; omega⟩ : Fin 16384) := by
    funext a
    match a with
    | ⟨0, _⟩ => exact Fin.ext h0
    | ⟨1, _⟩ => exact Fin.ext rfl
    | ⟨2, _⟩ =>
      apply Fin.ext
      show (j 2).val = off 2 + ((j 2).val - off 2)
      omega
  rw [ej, hfo, hD]
  refine congrArg OUTv ?_
  funext a
  match a with
  | ⟨0, _⟩ => exact Fin.ext ho0.symm
  | ⟨1, _⟩ => exact Fin.ext rfl
  | ⟨2, _⟩ =>
    apply Fin.ext
    show 1024 * (L 1).val + 512 * (L 0).val + 128 * (g / 50) + ((j 2).val - off 2) = off 2 + ((j 2).val - off 2)
    omega

/-- What a write-out lends while under way, weakened to what matters: its part of the result at some contents that are
    the target function there, and the block it copies. -/
theorem write_flight_weaken (bD : Memref sig .scVector .vmem S64x128 .f32) (off : Fin 3 → ℕ)
    (h : ∀ a, off a + S1x64x128.size a ≤ S50x64x16384.size a) (h1 : off 1 = 0)
    (prev : Buf (Elt F) ((outW).view.loc (thr d L))) (D : Buf (Elt F) ((bD).view.loc (thr d L)))
    (OUTv : S50x64x16384.Idx → Elt F .f32)
    (hval : ∀ fo : S50x64x16384.Idx → Elt F .f32,
      (∀ (f : Fin 64) (r : Fin 128) (hh : off 0 < 50) (hb : off 2 + r.val < 16384),
        fo (ix3 (⟨off 0, hh⟩ : Fin 50) f (⟨off 2 + r.val, hb⟩ : Fin 16384)) = (bD).view.read (Elt F) D (ix2 f r)) →
      ∀ j ∈ sliceSet off h, fo j = OUTv j) :
    iprop(((outSlice off h).view.loc (thr d L) ↦[(outSlice off h).view.set]{fullShare}
        (outSlice off h).view.writes (Elt F) prev [⟨Rect.whole S64x128, ReadAs.same.apply (View.read (Elt F) (bD).view D)⟩])
      ∗ ((bD).view.loc (thr d L) ↦[(bD).view.set]{fullShare} D) : sProp 𝕄)
      ⊢ iprop((∃ fo : Buf (Elt F) ((outW).view.loc (thr d L)), ⌜∀ j ∈ sliceSet off h, fo j = OUTv j⌝
          ∗ (outW).view.loc (thr d L) ↦[sliceSet off h]{fullShare} fo)
        ∗ ((bD).view.loc (thr d L) ↦[(bD).view.set]{fullShare} D)) := by
  iintro ⟨HX, HY⟩
  isplitl [HX]
  · ihave HX' := (write_introV d (cV L) (jV L) bD off h h1 prev D) $$ HX
    icases HX' with ⟨%fo, %hfo, HX⟩
    iexists fo
    isplitr
    · ipureintro; exact hval fo hfo
    · iexact HX
  · iexact HY

/-- The exact-contents lemmas with each position vector a variable equal to its canonical form (the run spells some of
    them through a payload's name; the equations then hold by unfolding). -/
theorem q_introV' (c : Fin τ.nSC) (i : Fin τ.nSub) (bq : Memref sig .scVector .vmem S128 .i32) (S0 : Buf (Elt F) ((b0).view.loc (V d c i))) (hS0 : StageOK d c i S0)
    (g : ℕ) (hg : g < 200) (base : BitVec 32) (hb : base.toNat = g / 50 * 6400 + g % 50)
    (g0 : Buf (Elt F) ((bq).view.loc (V d c i))) (p0 p16 p32 p48 p64 p80 p96 p112 : IVec S16 32)
    (e0 : p0 = addi (muli (addi (iota .scVector S16 32 [0] iota_S16_d0_w32_scVector) (broadcast S16 0#32)) (broadcast S16 50#32)) (broadcast S16 base))
    (e16 : p16 = addi (muli (addi (iota .scVector S16 32 [0] iota_S16_d0_w32_scVector) (broadcast S16 16#32)) (broadcast S16 50#32)) (broadcast S16 base))
    (e32 : p32 = addi (muli (addi (iota .scVector S16 32 [0] iota_S16_d0_w32_scVector) (broadcast S16 32#32)) (broadcast S16 50#32)) (broadcast S16 base))
    (e48 : p48 = addi (muli (addi (iota .scVector S16 32 [0] iota_S16_d0_w32_scVector) (broadcast S16 48#32)) (broadcast S16 50#32)) (broadcast S16 base))
    (e64 : p64 = addi (muli (addi (iota .scVector S16 32 [0] iota_S16_d0_w32_scVector) (broadcast S16 64#32)) (broadcast S16 50#32)) (broadcast S16 base))
    (e80 : p80 = addi (muli (addi (iota .scVector S16 32 [0] iota_S16_d0_w32_scVector) (broadcast S16 80#32)) (broadcast S16 50#32)) (broadcast S16 base))
    (e96 : p96 = addi (muli (addi (iota .scVector S16 32 [0] iota_S16_d0_w32_scVector) (broadcast S16 96#32)) (broadcast S16 50#32)) (broadcast S16 base))
    (e112 : p112 = addi (muli (addi (iota .scVector S16 32 [0] iota_S16_d0_w32_scVector) (broadcast S16 112#32)) (broadcast S16 50#32)) (broadcast S16 base))
    (h0 : ∀ a x, ((![p0] : Fin 1 → IVec S16 32) a x).toNat < S25600.size a)
    (h16 : ∀ a x, ((![p16] : Fin 1 → IVec S16 32) a x).toNat < S25600.size a)
    (h32 : ∀ a x, ((![p32] : Fin 1 → IVec S16 32) a x).toNat < S25600.size a)
    (h48 : ∀ a x, ((![p48] : Fin 1 → IVec S16 32) a x).toNat < S25600.size a)
    (h64 : ∀ a x, ((![p64] : Fin 1 → IVec S16 32) a x).toNat < S25600.size a)
    (h80 : ∀ a x, ((![p80] : Fin 1 → IVec S16 32) a x).toNat < S25600.size a)
    (h96 : ∀ a x, ((![p96] : Fin 1 → IVec S16 32) a x).toNat < S25600.size a)
    (h112 : ∀ a x, ((![p112] : Fin 1 → IVec S16 32) a x).toNat < S25600.size a) :
    ((bq).view.loc (V d c i) ↦{fullShare} (bq).view.writes (Elt F) g0
      [⟨Rect.unit (s := S128) ![112] S16.size inb_S128_S16_112, shrui (loadIdx (View.readAt (Elt F) (b0).view (LoadRect.whole S25600) S0) ![p112] h112) (broadcast S16 1#32)⟩,
        ⟨Rect.unit (s := S128) ![96] S16.size inb_S128_S16_96, shrui (loadIdx (View.readAt (Elt F) (b0).view (LoadRect.whole S25600) S0) ![p96] h96) (broadcast S16 1#32)⟩,
        ⟨Rect.unit (s := S128) ![80] S16.size inb_S128_S16_80, shrui (loadIdx (View.readAt (Elt F) (b0).view (LoadRect.whole S25600) S0) ![p80] h80) (broadcast S16 1#32)⟩,
        ⟨Rect.unit (s := S128) ![64] S16.size inb_S128_S16_64, shrui (loadIdx (View.readAt (Elt F) (b0).view (LoadRect.whole S25600) S0) ![p64] h64) (broadcast S16 1#32)⟩,
        ⟨Rect.unit (s := S128) ![48] S16.size inb_S128_S16_48, shrui (loadIdx (View.readAt (Elt F) (b0).view (LoadRect.whole S25600) S0) ![p48] h48) (broadcast S16 1#32)⟩,
        ⟨Rect.unit (s := S128) ![32] S16.size inb_S128_S16_32, shrui (loadIdx (View.readAt (Elt F) (b0).view (LoadRect.whole S25600) S0) ![p32] h32) (broadcast S16 1#32)⟩,
        ⟨Rect.unit (s := S128) ![16] S16.size inb_S128_S16_16, shrui (loadIdx (View.readAt (Elt F) (b0).view (LoadRect.whole S25600) S0) ![p16] h16) (broadcast S16 1#32)⟩,
        ⟨Rect.unit (s := S128) ![0] S16.size inb_S128_S16_0, shrui (loadIdx (View.readAt (Elt F) (b0).view (LoadRect.whole S25600) S0) ![p0] h0) (broadcast S16 1#32)⟩] : sProp 𝕄)
      ⊢ iprop(∃ Q, ⌜QOK d c i bq Q ∧ QVal d c i bq S0 g hg Q⌝ ∗ (bq).view.loc (V d c i) ↦{fullShare} Q) := by
  subst e0 e16 e32 e48 e64 e80 e96 e112
  exact q_introV d c i bq S0 hS0 g hg base hb g0 h0 h16 h32 h48 h64 h80 h96 h112

theorem par_introV' (c : Fin τ.nSC) (i : Fin τ.nSub) (bp : Memref sig .scVector .vmem S8x16 .i32) (S0 : Buf (Elt F) ((b0).view.loc (V d c i)))
    (g : ℕ) (hg : g < 200) (base : BitVec 32) (hb : base.toNat = g / 50 * 6400 + g % 50)
    (g0 : Buf (Elt F) ((bp).view.loc (V d c i))) (p0 p16 p32 p48 p64 p80 p96 p112 : IVec S16 32)
    (e0 : p0 = addi (muli (addi (iota .scVector S16 32 [0] iota_S16_d0_w32_scVector) (broadcast S16 0#32)) (broadcast S16 50#32)) (broadcast S16 base))
    (e16 : p16 = addi (muli (addi (iota .scVector S16 32 [0] iota_S16_d0_w32_scVector) (broadcast S16 16#32)) (broadcast S16 50#32)) (broadcast S16 base))
    (e32 : p32 = addi (muli (addi (iota .scVector S16 32 [0] iota_S16_d0_w32_scVector) (broadcast S16 32#32)) (broadcast S16 50#32)) (broadcast S16 base))
    (e48 : p48 = addi (muli (addi (iota .scVector S16 32 [0] iota_S16_d0_w32_scVector) (broadcast S16 48#32)) (broadcast S16 50#32)) (broadcast S16 base))
    (e64 : p64 = addi (muli (addi (iota .scVector S16 32 [0] iota_S16_d0_w32_scVector) (broadcast S16 64#32)) (broadcast S16 50#32)) (broadcast S16 base))
    (e80 : p80 = addi (muli (addi (iota .scVector S16 32 [0] iota_S16_d0_w32_scVector) (broadcast S16 80#32)) (broadcast S16 50#32)) (broadcast S16 base))
    (e96 : p96 = addi (muli (addi (iota .scVector S16 32 [0] iota_S16_d0_w32_scVector) (broadcast S16 96#32)) (broadcast S16 50#32)) (broadcast S16 base))
    (e112 : p112 = addi (muli (addi (iota .scVector S16 32 [0] iota_S16_d0_w32_scVector) (broadcast S16 112#32)) (broadcast S16 50#32)) (broadcast S16 base))
    (h0 : ∀ a x, ((![p0] : Fin 1 → IVec S16 32) a x).toNat < S25600.size a)
    (h16 : ∀ a x, ((![p16] : Fin 1 → IVec S16 32) a x).toNat < S25600.size a)
    (h32 : ∀ a x, ((![p32] : Fin 1 → IVec S16 32) a x).toNat < S25600.size a)
    (h48 : ∀ a x, ((![p48] : Fin 1 → IVec S16 32) a x).toNat < S25600.size a)
    (h64 : ∀ a x, ((![p64] : Fin 1 → IVec S16 32) a x).toNat < S25600.size a)
    (h80 : ∀ a x, ((![p80] : Fin 1 → IVec S16 32) a x).toNat < S25600.size a)
    (h96 : ∀ a x, ((![p96] : Fin 1 → IVec S16 32) a x).toNat < S25600.size a)
    (h112 : ∀ a x, ((![p112] : Fin 1 → IVec S16 32) a x).toNat < S25600.size a) :
    ((bp).view.loc (V d c i) ↦{fullShare} (bp).view.writes (Elt F) g0
      [⟨Rect.unit (s := S8x16) ![7, 0] S1x16.size inb_S8x16_S1x16_7_0, shapeCast S1x16 (muli (andi (loadIdx (View.readAt (Elt F) (b0).view (LoadRect.whole S25600) S0) ![p112] h112) (broadcast S16 1#32)) (broadcast S16 64#32)) shapeCasts_S16_S1x16⟩,
        ⟨Rect.unit (s := S8x16) ![6, 0] S1x16.size inb_S8x16_S1x16_6_0, shapeCast S1x16 (muli (andi (loadIdx (View.readAt (Elt F) (b0).view (LoadRect.whole S25600) S0) ![p96] h96) (broadcast S16 1#32)) (broadcast S16 64#32)) shapeCasts_S16_S1x16⟩,
        ⟨Rect.unit (s := S8x16) ![5, 0] S1x16.size inb_S8x16_S1x16_5_0, shapeCast S1x16 (muli (andi (loadIdx (View.readAt (Elt F) (b0).view (LoadRect.whole S25600) S0) ![p80] h80) (broadcast S16 1#32)) (broadcast S16 64#32)) shapeCasts_S16_S1x16⟩,
        ⟨Rect.unit (s := S8x16) ![4, 0] S1x16.size inb_S8x16_S1x16_4_0, shapeCast S1x16 (muli (andi (loadIdx (View.readAt (Elt F) (b0).view (LoadRect.whole S25600) S0) ![p64] h64) (broadcast S16 1#32)) (broadcast S16 64#32)) shapeCasts_S16_S1x16⟩,
        ⟨Rect.unit (s := S8x16) ![3, 0] S1x16.size inb_S8x16_S1x16_3_0, shapeCast S1x16 (muli (andi (loadIdx (View.readAt (Elt F) (b0).view (LoadRect.whole S25600) S0) ![p48] h48) (broadcast S16 1#32)) (broadcast S16 64#32)) shapeCasts_S16_S1x16⟩,
        ⟨Rect.unit (s := S8x16) ![2, 0] S1x16.size inb_S8x16_S1x16_2_0, shapeCast S1x16 (muli (andi (loadIdx (View.readAt (Elt F) (b0).view (LoadRect.whole S25600) S0) ![p32] h32) (broadcast S16 1#32)) (broadcast S16 64#32)) shapeCasts_S16_S1x16⟩,
        ⟨Rect.unit (s := S8x16) ![1, 0] S1x16.size inb_S8x16_S1x16_1_0, shapeCast S1x16 (muli (andi (loadIdx (View.readAt (Elt F) (b0).view (LoadRect.whole S25600) S0) ![p16] h16) (broadcast S16 1#32)) (broadcast S16 64#32)) shapeCasts_S16_S1x16⟩,
        ⟨Rect.unit (s := S8x16) ![0, 0] S1x16.size inb_S8x16_S1x16_0_0, shapeCast S1x16 (muli (andi (loadIdx (View.readAt (Elt F) (b0).view (LoadRect.whole S25600) S0) ![p0] h0) (broadcast S16 1#32)) (broadcast S16 64#32)) shapeCasts_S16_S1x16⟩] : sProp 𝕄)
      ⊢ iprop(∃ P, ⌜ParOK d c i bp P ∧ PVal d c i bp S0 g hg P⌝ ∗ (bp).view.loc (V d c i) ↦{fullShare} P) := by
  subst e0 e16 e32 e48 e64 e80 e96 e112
  exact par_introV d c i bp S0 g hg base hb g0 h0 h16 h32 h48 h64 h80 h96 h112

/-- What the main loop keeps from round to round, with the values. At the head of round `k`: slot 1 holds group
    `2 k + 1` (its parity words and its row list are the staged words' parities and halves, its rows are under way and
    will be the table's rows the list names); slot 0's write-out, of the part `flightPart L k`, is under way and will land
    the target function there; the rest of the tile's part is held at contents that are the target function on
    every part already waited for. -/
def invMainV (O : CellTallies nD τ sig (HIx 1)) (W : Waits sig (HIx 1)) (qI qT qT' : PosShare TreeShare)
    (fI : Buf (Elt F) ((idsW).view.loc (thr d L))) (fT : Buf (Elt F) ((tblW).view.loc (thr d L)))
    (S0 : Buf (Elt F) ((b0).view.loc (thr d L))) (OUTv : S50x64x16384.Idx → Elt F .f32) (k : Nat) (_ : PUnit) : sProp 𝕄 :=
  iprop(Transfers.MayWaits (thr d L) (none : HIx 1) O
    ∗ ((b0).view.loc (thr d L) ↦{fullShare} S0) ∗ ((idsW).view.loc (thr d L) ↦{qI} fI)
    ∗ (∃ f, (b1).view.loc (thr d L) ↦{fullShare} f) ∗ (∃ f, (b3).view.loc (thr d L) ↦{fullShare} f)
    ∗ (∃ f, (b5).view.loc (thr d L) ↦{fullShare} f)
    ∗ (∃ P4, ⌜ParOK d (cV L) (jV L) b4 P4 ∧ ∃ hg : 2 * k + 1 < 200, PVal d (cV L) (jV L) b4 S0 (2 * k + 1) hg P4⌝
        ∗ (b4).view.loc (thr d L) ↦{fullShare} P4)
    ∗ (∃ f, (b8).view.loc (thr d L) ↦{fullShare} f)
    ∗ ((tblW).view.loc (thr d L) ↦{qT} fT)
    ∗ ((tblW).view.loc (thr d L) ↦[Finset.univ \ (sliceT).view.set]{qT'} fT)
    ∗ semVal (thr d L, SemLoc.dma cc0_scratch9.sem) 0 ∗ semVal (thr d L, SemLoc.dma cc0_scratch12.sem) 0
    ∗ semVal (thr d L, SemLoc.dma cc0_scoped0.sem) 0
    ∗ (∃ f6, ∃ Q2, ⌜QOK d (cV L) (jV L) b2 Q2 ∧ (∃ hg : 2 * k + 1 < 200, QVal d (cV L) (jV L) b2 S0 (2 * k + 1) hg Q2)
          ∧ ∀ hin, RowsVal d (cV L) (jV L) b6 b2 fT Q2 hin f6⌝
        ∗ Transfers.Flight countersEmb (thr d L) (SemLoc.dma cc0_scratch10.sem) default 524288
          iprop((((b6).view.loc (thr d L) ↦{fullShare} f6) ∗ ((b2).view.loc (thr d L) ↦{fullShare} Q2))
            ∗ ((tblW).view.loc (thr d L) ↦[(sliceT).view.set]{qT'} fT)))
    ∗ (∃ (A : Finset S50x64x16384.Idx), ⌜A ⊆ outSet (L 0).val (L 1).val ∧ Disjoint A (sliceSet (k0_off11 L) (k0_off11_inb L)) ∧ A = flightPart L k⌝
        ∗ (∃ f7, Transfers.Flight countersEmb (thr d L) (SemLoc.dma cc0_scratch11.sem) default 262144
            iprop((∃ fo : Buf (Elt F) ((outW).view.loc (thr d L)), ⌜∀ j ∈ A, fo j = OUTv j⌝ ∗ (outW).view.loc (thr d L) ↦[A]{fullShare} fo)
              ∗ ((b7).view.loc (thr d L) ↦[(b7).view.set]{fullShare} f7))
          ∗ ((b7).view.loc (thr d L) ↦[Finset.univ \ (b7).view.set]{fullShare} f7))
        ∗ ∃ fr : Buf (Elt F) ((outW).view.loc (thr d L)), ⌜∀ j, j ∉ A → DoneP L k j → fr j = OUTv j⌝
            ∗ (outW).view.loc (thr d L) ↦[outSet (L 0).val (L 1).val \ A]{fullShare} fr)
    ∗ ∃ W', ⌜∀ p ∈ W', p ∈ W ∨ p.2 = none⌝ ∗ owes (thr d L) O W')

set_option maxHeartbeats 40000000 in
/-- The tile's body with its value: as `body_core`, and the tile's part of the result comes back holding the target
    function `OUTv`, given that every group's transposed block is `OUTv` on the group's part (`hblk`: the arithmetic
    of Proof/KIBlockVal.lean, stated for the arrays this tile reads). -/
theorem body_core_val (O : CellTallies nD τ sig (HIx 1)) (W : Waits sig (HIx 1)) (qI qT qT' : PosShare TreeShare)
    (fI : Buf (Elt F) ((idsW).view.loc (thr d L))) (fT : Buf (Elt F) ((tblW).view.loc (thr d L)))
    (hI : ∀ j, (fI j).toNat < 1000000)
    (OUTv : S50x64x16384.Idx → Elt F .f32)
    (hblk : ∀ (g : ℕ) (hg : g < 200) (S0 : S25600.Idx → BitVec 32) (Q : S128.Idx → BitVec 32) (P : SP.Idx → BitVec 32) (R : SR.Idx → Elt F .f32),
      (∀ j : Fin 25600, S0 (ix1 j) = fI (ix1 ⟨51200 * (L 1).val + 25600 * (L 0).val + j.val, stOff_lt L j⟩)) →
      (∀ r : Fin 128, Q (ix1 r) = IntOp.shrui .vector (S0 (stIdx g hg r)) 1#32) →
      (∀ r : Fin 128, P (ix2 (⟨r.val / 16, by have := r.isLt; omega⟩ : Fin 8) (⟨r.val % 16, Nat.mod_lt _ (by decide)⟩ : Fin 16))
        = IntOp.muli (IntOp.andi (S0 (stIdx g hg r)) 1#32) 64#32) →
      ∀ (hQlt : ∀ r : Fin 128, (Q (ix1 r)).toNat < 500000),
      (∀ r c : Fin 128, R (ix2 r c) = fT (ix2 (⟨(Q (ix1 r)).toNat, hQlt r⟩ : Fin 500000) c)) →
      ∀ (f : Fin 64) (r : Fin 128), tval P R (ix2 f r)
        = OUTv (ix3 (⟨g % 50, Nat.mod_lt _ (by decide)⟩ : Fin 50) f (⟨1024 * (L 1).val + 512 * (L 0).val + 128 * (g / 50) + r.val, blkCol_lt L g hg r⟩ : Fin 16384)))
    (fO : Buf (Elt F) ((outW).view.loc (thr d L)))
    (f0 : Buf (Elt F) ((b0).view.loc (thr d L))) (f1 : Buf (Elt F) ((b1).view.loc (thr d L))) (f2 : Buf (Elt F) ((b2).view.loc (thr d L)))
    (f3 : Buf (Elt F) ((b3).view.loc (thr d L))) (f4 : Buf (Elt F) ((b4).view.loc (thr d L))) (f5 : Buf (Elt F) ((b5).view.loc (thr d L)))
    (f6 : Buf (Elt F) ((b6).view.loc (thr d L))) (f7 : Buf (Elt F) ((b7).view.loc (thr d L))) (f8 : Buf (Elt F) ((b8).view.loc (thr d L))) :
    iprop(Transfers.MayWaits (thr d L) (none : HIx 1) O
        ∗ ((idsW).view.loc (thr d L) ↦{qI} fI) ∗ ((tblW).view.loc (thr d L) ↦{qT} fT) ∗ ((tblW).view.loc (thr d L) ↦{qT'} fT)
        ∗ ((outW).view.loc (thr d L) ↦[outSet (L 0).val (L 1).val]{fullShare} fO)
        ∗ ((b0).view.loc (thr d L) ↦{fullShare} f0) ∗ ((b1).view.loc (thr d L) ↦{fullShare} f1) ∗ ((b2).view.loc (thr d L) ↦{fullShare} f2)
        ∗ ((b3).view.loc (thr d L) ↦{fullShare} f3) ∗ ((b4).view.loc (thr d L) ↦{fullShare} f4) ∗ ((b5).view.loc (thr d L) ↦{fullShare} f5)
        ∗ ((b6).view.loc (thr d L) ↦{fullShare} f6) ∗ ((b7).view.loc (thr d L) ↦{fullShare} f7) ∗ ((b8).view.loc (thr d L) ↦{fullShare} f8)
        ∗ semVal (thr d L, SemLoc.dma cc0_scratch9.sem) 0 ∗ semVal (thr d L, SemLoc.dma cc0_scratch10.sem) 0
        ∗ semVal (thr d L, SemLoc.dma cc0_scratch11.sem) 0 ∗ semVal (thr d L, SemLoc.dma cc0_scratch12.sem) 0
        ∗ semVal (thr d L, SemLoc.dma cc0_scoped0.sem) 0
        ∗ owes (thr d L) O W : sProp 𝕄)
      ⊢ wp frame (wpE (defs₀ (F := F)) 𝒱₀ (thr d L) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => iprop(((idsW).view.loc (thr d L) ↦{qI} fI) ∗ ((tblW).view.loc (thr d L) ↦{qT} fT) ∗ ((tblW).view.loc (thr d L) ↦{qT'} fT)
            ∗ (∃ f : Buf (Elt F) ((outW).view.loc (thr d L)), ⌜∀ j ∈ outSet (L 0).val (L 1).val, f j = OUTv j⌝
                ∗ (outW).view.loc (thr d L) ↦[outSet (L 0).val (L 1).val]{fullShare} f)
            ∗ (∃ f, (b0).view.loc (thr d L) ↦{fullShare} f) ∗ (∃ f, (b1).view.loc (thr d L) ↦{fullShare} f) ∗ (∃ f, (b2).view.loc (thr d L) ↦{fullShare} f)
            ∗ (∃ f, (b3).view.loc (thr d L) ↦{fullShare} f) ∗ (∃ f, (b4).view.loc (thr d L) ↦{fullShare} f) ∗ (∃ f, (b5).view.loc (thr d L) ↦{fullShare} f)
            ∗ (∃ f, (b6).view.loc (thr d L) ↦{fullShare} f) ∗ (∃ f, (b7).view.loc (thr d L) ↦{fullShare} f) ∗ (∃ f, (b8).view.loc (thr d L) ↦{fullShare} f)
            ∗ semVal (thr d L, SemLoc.dma cc0_scratch9.sem) 0 ∗ semVal (thr d L, SemLoc.dma cc0_scratch10.sem) 0
            ∗ semVal (thr d L, SemLoc.dma cc0_scratch11.sem) 0 ∗ semVal (thr d L, SemLoc.dma cc0_scratch12.sem) 0
            ∗ semVal (thr d L, SemLoc.dma cc0_scoped0.sem) 0
            ∗ ∃ W', ⌜∀ p ∈ W', p ∈ W ∨ p.2 = none⌝ ∗ owes (thr d L) O W') := by
  have e398 : ∀ (v : Vec F S16 .i32) (c : BitVec 32), k0_pay398 (F := F) v c = muli (andi v (broadcast S16 c)) (broadcast S16 64#32) := fun _ _ => rfl
  have e400 : ∀ (v : Vec F S16 .i32), k0_pay400 (F := F) v = shrui v (broadcast S16 1#32) := fun _ => rfl
  have e401 : ∀ (v : Vec F S16 .i32), k0_pay401 (F := F) v = muli (andi v (broadcast S16 1#32)) (broadcast S16 64#32) := fun _ => rfl
  have e237 : ∀ (v : Vec F S16 .i32), k0_pay237 (F := F) v = shrui v (broadcast S16 1#32) := fun _ => rfl
  have e238 : ∀ (v : Vec F S16 .i32), k0_pay238 (F := F) v = muli (andi v (broadcast S16 1#32)) (broadcast S16 64#32) := fun _ => rfl
  have e263 : ∀ (v : Vec F S16 .i32), k0_pay263 (F := F) v = shrui v (broadcast S16 1#32) := fun _ => rfl
  have e264 : ∀ (v : Vec F S16 .i32), k0_pay264 (F := F) v = muli (andi v (broadcast S16 1#32)) (broadcast S16 64#32) := fun _ => rfl
  have e399 : ∀ (v : IVec S16 32), k0_pay399 v = addi (muli (addi v (broadcast S16 112#32)) (broadcast S16 50#32)) (broadcast S16 1#32) := fun _ => rfl
  have e236 : ∀ (v : IVec S16 32) (b : BitVec 32), k0_pay236 v b = addi (muli (addi v (broadcast S16 112#32)) (broadcast S16 50#32)) (broadcast S16 b) := fun _ _ => rfl
  have e262 : ∀ (b : BitVec 32) (v : IVec S16 32) (c : BitVec 32), k0_pay262 b v c = addi (muli v (broadcast S16 c)) (broadcast S16 b) := fun _ _ _ => rfl
  have hs3 := slice3_sub L
  have hs6 := slice6_sub L
  have hs9 := slice9_sub L
  have hs11 := slice11_sub L
  have hd3 := slice3_disj L
  have hd9 := slice9_disj L
  rw [cc0__emb_lookup_eq_skeleton]; unfold cc0__emb_lookup_skel
  rw [k0_part48_eq_skeleton]; unfold k0_part48_skel
  iintro ⟨Hmw, HI, HT, HT', HOut, H0, H1, H2, H3, H4, H5, H6, H7, H8, Hg0, Hg1, Hw0, Hw1, Hsc, HO⟩
  -- the staging copy: the staged words are the tile's slice of the row numbers
  sl_exec
  unfold body_core_val.sl.dma0
  ihave H0' := (stage_introV d (cV L) (jV L) L f0 fI hI) $$ H0
  icases H0' with ⟨%S0, %hS0', H0⟩
  obtain ⟨hS0, hSV⟩ := hS0'
  -- what a slot's block is once its group's words are known
  have grp : ∀ (g : ℕ) (hg : g < 200) (Q : S128.Idx → BitVec 32) (P : SP.Idx → BitVec 32) (R : SR.Idx → Elt F .f32) (D : SD.Idx → Elt F .f32),
      (∀ r : Fin 128, Q (ix1 r) = IntOp.shrui .vector (S0 (stIdx g hg r)) 1#32) →
      (∀ r : Fin 128, P (ix2 (⟨r.val / 16, by have := r.isLt; omega⟩ : Fin 8) (⟨r.val % 16, Nat.mod_lt _ (by decide)⟩ : Fin 16))
        = IntOp.muli (IntOp.andi (S0 (stIdx g hg r)) 1#32) 64#32) →
      ∀ (hQlt : ∀ r : Fin 128, (Q (ix1 r)).toNat < 500000),
      (∀ r c : Fin 128, R (ix2 r c) = fT (ix2 (⟨(Q (ix1 r)).toNat, hQlt r⟩ : Fin 500000) c)) →
      (∀ t : SD.Idx, D t = tval P R t) →
      ∀ (f : Fin 64) (r : Fin 128), D (ix2 f r)
        = OUTv (ix3 (⟨g % 50, Nat.mod_lt _ (by decide)⟩ : Fin 50) f (⟨1024 * (L 1).val + 512 * (L 0).val + 128 * (g / 50) + r.val, blkCol_lt L g hg r⟩ : Fin 16384)) :=
    fun g hg Q P R D hQ hP hQlt hR hD f r => (hD _).trans (hblk g hg S0 Q P R hSV hQ hP hQlt hR f r)
  -- group 0 into slot 0: its row list and parities, exactly
  repeat (rw [SparseCore.vectorLoadIdx_bind (c := thr d L)]; sl_exec)
  sl_unfold_run_names
  ihave H1' := (q_introV' d (cV L) (jV L) b1 S0 hS0 0 (by decide) (0#32) (by decide) _ _ _ _ _ _ _ _ _ rfl rfl rfl rfl rfl rfl rfl rfl _ _ _ _ _ _ _ _) $$ H1
  icases H1' with ⟨%Q1, %hQ1', H1⟩
  obtain ⟨hQ1, hQ1v⟩ := hQ1'
  have hin1 : ∀ x, ((b1).view.read (Elt F) Q1 x).toNat < 500000 := hQ1
  ihave H3' := (par_introV' d (cV L) (jV L) b3 S0 0 (by decide) (0#32) (by decide) _ _ _ _ _ _ _ _ _ rfl rfl rfl rfl rfl rfl rfl rfl _ _ _ _ _ _ _ _) $$ H3
  icases H3' with ⟨%P3, %hP3', H3⟩
  obtain ⟨hP3, hP3v⟩ := hP3'
  -- slot 0's gather is issued; group 1 into slot 1
  sl_exec
  repeat (rw [SparseCore.vectorLoadIdx_bind (c := thr d L)]; sl_exec)
  sl_unfold_run_names
  rw [e400, e401, e398]
  ihave H2' := (q_introV' d (cV L) (jV L) b2 S0 hS0 1 (by decide) (1#32) (by decide) _ _ _ _ _ _ _ _ (k0_pay399 (iota .scVector S16 32 [0] iota_S16_d0_w32_scVector)) rfl rfl rfl rfl rfl rfl rfl rfl _ _ _ _ _ _ _ _) $$ H2
  icases H2' with ⟨%Q2, %hQ2', H2⟩
  obtain ⟨hQ2, hQ2v⟩ := hQ2'
  have hin2 : ∀ x, ((b2).view.read (Elt F) Q2 x).toNat < 500000 := hQ2
  ihave H4' := (par_introV' d (cV L) (jV L) b4 S0 1 (by decide) (1#32) (by decide) _ _ _ _ _ _ _ _ (k0_pay399 (iota .scVector S16 32 [0] iota_S16_d0_w32_scVector)) rfl rfl rfl rfl rfl rfl rfl rfl _ _ _ _ _ _ _ _) $$ H4
  icases H4' with ⟨%P4, %hP4', H4⟩
  obtain ⟨hP4, hP4v⟩ := hP4'
  -- slot 1's gather is issued, slot 0's is waited for: its rows are the table's rows the list names
  sl_exec
  sl_unfold_run_names
  ihave H5' := (hold_eq _) $$ H5
  icases H5' with ⟨%R5, %eR5, H5⟩
  have hR5v : RowsVal d (cV L) (jV L) b5 b1 fT Q1 hin1 R5 := by
    subst eR5
    exact gather_rowsval d (cV L) (jV L) b5 b1 fT Q1 hin1 _ _ _
  clear eR5
  -- slot 0's rows are transposed
  sl_for (invUV3 d L _ _) $$ [H3 H5 H7]
  rotate_left
  · unfold invUV3
    isplitl [H3]; · iexact H3
    isplitl [H5]; · iexact H5
    iexists f7; isplitr
    · ipureintro; intro t ht; exact absurd ht (by omega)
    · iexact H7
  rotate_left
  · intro k acc
    sl_unfold_run_names
    exact trip_t1_val d L _ _ hP3 _ _ _ _ _ _ _ _ _ _ _ _ _ _ _ _ _ _ rfl rfl rfl rfl rfl rfl rfl rfl rfl rfl rfl rfl rfl rfl rfl rfl rfl _ _ k acc
  iintro %_ HI
  unfold invUV3
  icases HI with ⟨H3, H5, %D7, %hD7, H7⟩
  -- the first write-out: its part of the result is carved out of what the tile holds
  ihave Hc := (pointsTo_split_subset (ℓ := (outW).view.loc (thr d L)) (q := fullShare) (f := fO) hs3).1 $$ HOut
  icases Hc with ⟨HA, HOut⟩
  ihave HA := (Entails.of_eq (pts_slice d L (k0_off3 L) (k0_off3_inb L) fO)) $$ HA
  sl_exec
  -- the first write-out will land the target function on its part
  have e8 : Scf.trips k0_t1_loop.lb k0_t1_loop.ub k0_t1_loop.st = 8 := by decide
  have hD7' : ∀ t : SD.Idx, D7 t = tval P3 R5 t := fun t => hD7 t (by rw [e8]; have := sd_col_lt t; omega)
  have hval0 : ∀ fo : S50x64x16384.Idx → Elt F .f32,
      (∀ (f : Fin 64) (r : Fin 128) (hh : k0_off3 L 0 < 50) (hb : k0_off3 L 2 + r.val < 16384),
        fo (ix3 (⟨k0_off3 L 0, hh⟩ : Fin 50) f (⟨k0_off3 L 2 + r.val, hb⟩ : Fin 16384)) = (b7).view.read (Elt F) D7 (ix2 f r)) →
      ∀ j ∈ sliceSet (k0_off3 L) (k0_off3_inb L), fo j = OUTv j :=
    fun fo hfo => slice_valG L 0 (by decide) (k0_off3 L) (k0_off3_inb L) (by rw [k0_off3_eq]; rfl) (by rw [k0_off3_eq]; rfl) OUTv fo _ hfo
      (grp 0 (by decide) _ _ _ _ hQ1v hP3v (fun r => hin1 (ix1 r)) hR5v hD7')
  sl_unfold_run_names
  ihave Hw0 := (Transfers.Flight_mono countersEmb (thr d L) (write_flight_weaken d L b7 (k0_off3 L) (k0_off3_inb L) (by rw [k0_off3_eq]; rfl) fO D7 OUTv hval0)) $$ Hw0
  sl_for (invMainV d L O W qI qT qT' fI fT S0 OUTv) $$ [Hmw H0 HI H1 H3 H5 H4 H8 HT HT' Hg0 Hw1 Hsc Hg1 Hw0 H7 HOut HO]
  rotate_left
  · unfold invMainV
    isplitl [Hmw]; · iexact Hmw
    isplitl [H0]; · iexact H0
    isplitl [HI]; · iexact HI
    isplitl [H1]; · iexists _; iexact H1
    isplitl [H3]; · iexists _; iexact H3
    isplitl [H5]; · iexists _; iexact H5
    isplitl [H4]
    · iexists P4; isplitr
      · ipureintro; exact ⟨hP4, ⟨by decide, hP4v⟩⟩
      · iexact H4
    isplitl [H8]; · iexists _; iexact H8
    isplitl [HT]; · iexact HT
    isplitl [HT']; · iexact HT'
    isplitl [Hg0]; · iexact Hg0
    isplitl [Hw1]; · iexact Hw1
    isplitl [Hsc]; · iexact Hsc
    isplitl [Hg1]
    · iexists _; iexists Q2; isplitr
      rotate_left
      · iexact Hg1
      · ipureintro; exact ⟨hQ2, ⟨by decide, hQ2v⟩, fun hin => gather_rowsval d (cV L) (jV L) b6 b2 fT Q2 hin _ _ _⟩
    isplitl [Hw0 H7 HOut]
    · iexists (sliceSet (k0_off3 L) (k0_off3_inb L)); isplitr
      · ipureintro; exact ⟨hs3, hd3, (flightPart_zero L).symm⟩
      isplitl [Hw0 H7]
      · iexists _
        isplitl [Hw0]; · iexact Hw0
        iexact H7
      iexists fO; isplitr
      · ipureintro; intro j _ hj; exact absurd hj (doneP_zero L j)
      · iexact HOut
    iexists _; isplitr
    rotate_left
    · iexact HO
    · ipureintro; repeat (first | exact (fun _ h => .inl h) | apply waits_insert)
  rotate_left
  · intro k _
    unfold invMainV
    iintro ⟨Hmw, H0, HI, ⟨%f1', H1⟩, ⟨%f3', H3⟩, ⟨%f5', H5⟩, ⟨%P4', %hP4', H4⟩, ⟨%f8', H8⟩, HT, HT', Hg0, Hw1, Hsc, ⟨%f6', %Q2', %hQ2', Hg1⟩, ⟨%A, %hA, ⟨%f7', Hw0, H7⟩, ⟨%fr, %hfr, HOut⟩⟩, %W', %hW', HO⟩
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    repeat (rw [SparseCore.vectorLoadIdx_bind (c := thr d L)]; sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k)))))
    sl_unfold_run_names
    try rw [e237]
    try rw [e238]
    -- group 2k+2 into slot 0: its row list and parities, exactly
    have hk99 : k.val < 99 := Nat.lt_of_lt_of_le k.isLt trips2_le
    have hgE : 2 * k.val + 2 < 200 := by omega
    have hgO : 2 * k.val + 3 < 200 := by omega
    have hg1 : 2 * k.val + 1 < 200 := by omega
    have hbE : (Scalar.addi (Scalar.muli (Scalar.select (0#1) (Scalar.subi (Scalar.divsi (Scalar.muli (2#32) (Scf.iv 1#32 1#32 k.val)) 50#32) 1#32) (Scalar.divsi (Scalar.muli (2#32) (Scf.iv 1#32 1#32 k.val)) 50#32)) 6400#32) (Scalar.select (0#1) (Scalar.addi (Scalar.remsi (Scalar.muli (2#32) (Scf.iv 1#32 1#32 k.val)) 50#32) 50#32) (Scalar.remsi (Scalar.muli (2#32) (Scf.iv 1#32 1#32 k.val)) 50#32))).toNat = (2 * k.val + 2) / 50 * 6400 + (2 * k.val + 2) % 50 := by
      show (Scalar.addi (Scalar.muli (Scalar.divsi (Scalar.muli (2#32) (Scf.iv 1#32 1#32 k.val)) 50#32) 6400#32) (Scalar.remsi (Scalar.muli (2#32) (Scf.iv 1#32 1#32 k.val)) 50#32)).toNat = _
      rw [baseG_val _ (gE_le k), gE_val k]
    ihave H1' := (q_introV' d (cV L) (jV L) b1 S0 hS0 (2 * k.val + 2) hgE (Scalar.addi (Scalar.muli (Scalar.select (0#1) (Scalar.subi (Scalar.divsi (Scalar.muli (2#32) (Scf.iv 1#32 1#32 k.val)) 50#32) 1#32) (Scalar.divsi (Scalar.muli (2#32) (Scf.iv 1#32 1#32 k.val)) 50#32)) 6400#32) (Scalar.select (0#1) (Scalar.addi (Scalar.remsi (Scalar.muli (2#32) (Scf.iv 1#32 1#32 k.val)) 50#32) 50#32) (Scalar.remsi (Scalar.muli (2#32) (Scf.iv 1#32 1#32 k.val)) 50#32))) hbE _ _ _ _ _ _ _ _ (k0_pay236 (iota .scVector S16 32 [0] iota_S16_d0_w32_scVector) (Scalar.addi (Scalar.muli (Scalar.select (0#1) (Scalar.subi (Scalar.divsi (Scalar.muli (2#32) (Scf.iv 1#32 1#32 k.val)) 50#32) 1#32) (Scalar.divsi (Scalar.muli (2#32) (Scf.iv 1#32 1#32 k.val)) 50#32)) 6400#32) (Scalar.select (0#1) (Scalar.addi (Scalar.remsi (Scalar.muli (2#32) (Scf.iv 1#32 1#32 k.val)) 50#32) 50#32) (Scalar.remsi (Scalar.muli (2#32) (Scf.iv 1#32 1#32 k.val)) 50#32)))) rfl rfl rfl rfl rfl rfl rfl rfl _ _ _ _ _ _ _ _) $$ H1
    icases H1' with ⟨%Q1', %hQ1'', H1⟩
    obtain ⟨hQ1', hQ1v'⟩ := hQ1''
    have hin1' : ∀ x, ((b1).view.read (Elt F) Q1' x).toNat < 500000 := hQ1'
    ihave H3' := (par_introV' d (cV L) (jV L) b3 S0 (2 * k.val + 2) hgE (Scalar.addi (Scalar.muli (Scalar.select (0#1) (Scalar.subi (Scalar.divsi (Scalar.muli (2#32) (Scf.iv 1#32 1#32 k.val)) 50#32) 1#32) (Scalar.divsi (Scalar.muli (2#32) (Scf.iv 1#32 1#32 k.val)) 50#32)) 6400#32) (Scalar.select (0#1) (Scalar.addi (Scalar.remsi (Scalar.muli (2#32) (Scf.iv 1#32 1#32 k.val)) 50#32) 50#32) (Scalar.remsi (Scalar.muli (2#32) (Scf.iv 1#32 1#32 k.val)) 50#32))) hbE _ _ _ _ _ _ _ _ (k0_pay236 (iota .scVector S16 32 [0] iota_S16_d0_w32_scVector) (Scalar.addi (Scalar.muli (Scalar.select (0#1) (Scalar.subi (Scalar.divsi (Scalar.muli (2#32) (Scf.iv 1#32 1#32 k.val)) 50#32) 1#32) (Scalar.divsi (Scalar.muli (2#32) (Scf.iv 1#32 1#32 k.val)) 50#32)) 6400#32) (Scalar.select (0#1) (Scalar.addi (Scalar.remsi (Scalar.muli (2#32) (Scf.iv 1#32 1#32 k.val)) 50#32) 50#32) (Scalar.remsi (Scalar.muli (2#32) (Scf.iv 1#32 1#32 k.val)) 50#32)))) rfl rfl rfl rfl rfl rfl rfl rfl _ _ _ _ _ _ _ _) $$ H3
    icases H3' with ⟨%P3', %hP3'', H3⟩
    obtain ⟨hP3', hP3v'⟩ := hP3''
    -- slot 0's gather is issued, slot 0's last write-out and slot 1's gather are waited for
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    obtain ⟨hQ2q, ⟨_, hQ2v'⟩, hR6all⟩ := hQ2'
    have hin2q : ∀ x, ((b2).view.read (Elt F) Q2' x).toNat < 500000 := hQ2q
    have hR6v := hR6all hin2q
    obtain ⟨hP4q, ⟨_, hP4v'⟩⟩ := hP4'
    -- slot 1's rows are transposed
    sl_for (invUV4 d L _ _) $$ [H4 Hg1_dst H8]
    rotate_left
    · unfold invUV4
      isplitl [H4]; · iexact H4
      isplitl [Hg1_dst]; · iexact Hg1_dst
      iexists f8'; isplitr
      · ipureintro; intro t ht; exact absurd ht (by omega)
      · iexact H8
    rotate_left
    · intro k acc
      sl_unfold_run_names
      exact trip_t3_val d L _ _ hP4q _ _ _ _ _ _ _ _ _ _ _ _ _ _ _ _ _ _ rfl rfl rfl rfl rfl rfl rfl rfl rfl rfl rfl rfl rfl rfl rfl rfl rfl _ _ _ k acc
    iintro %_ HI
    unfold invUV4
    icases HI with ⟨H4, H6, %D8, %hD8, H8⟩
    -- the part that came back holds the target function; it is put back; slot 1's part is carved out
    icases Hw0_dst with ⟨%fo, %hfo, Hw0_dst⟩
    ihave HOutM := (pointsTo_join_subset (ℓ := (outW).view.loc (thr d L)) (q := fullShare) (g := fo) (f := fr) hA.1) $$ [Hw0_dst HOut]
    · isplitl [Hw0_dst]; · iexact Hw0_dst
      iexact HOut
    have hM : ∀ j, (DoneP L k.val j ∨ j ∈ A) → A.piecewise fo fr j = OUTv j := merge_agree A fo fr OUTv (DoneP L k.val) hfo hfr
    ihave Hc := (pointsTo_split_subset (ℓ := (outW).view.loc (thr d L)) (q := fullShare) (hs6 k)).1 $$ HOutM
    icases Hc with ⟨HB, HOut⟩
    ihave HB := (Entails.of_eq (pts_slice d L (k0_off6 L k) (k0_off6_inb L k) _)) $$ HB
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_unfold_run_names
    -- slot 1's write-out will land the target function on its part
    have e8c : Scf.trips k0_t3_loop.lb k0_t3_loop.ub k0_t3_loop.st = 8 := by decide
    have hD8' : ∀ t : SD.Idx, D8 t = tval P4' f6' t := fun t => hD8 t (by rw [e8c]; have := sd_col_lt t; omega)
    have hval6 : ∀ fo : S50x64x16384.Idx → Elt F .f32,
        (∀ (f : Fin 64) (r : Fin 128) (hh : k0_off6 L k 0 < 50) (hb : k0_off6 L k 2 + r.val < 16384),
          fo (ix3 (⟨k0_off6 L k 0, hh⟩ : Fin 50) f (⟨k0_off6 L k 2 + r.val, hb⟩ : Fin 16384)) = (b8).view.read (Elt F) D8 (ix2 f r)) →
        ∀ j ∈ sliceSet (k0_off6 L k) (k0_off6_inb L k), fo j = OUTv j :=
      fun fo hfo => slice_valG L (2 * k.val + 1) hg1 (k0_off6 L k) (k0_off6_inb L k) (by rw [k0_off6_eq]; rfl) (by rw [k0_off6_eq]; rfl) OUTv fo _ hfo
        (grp (2 * k.val + 1) hg1 _ _ _ _ hQ2v' hP4v' (fun r => hin2q (ix1 r)) hR6v hD8')
    ihave Hw1 := (Transfers.Flight_mono countersEmb (thr d L) (write_flight_weaken d L b8 (k0_off6 L k) (k0_off6_inb L k) (by rw [k0_off6_eq]; rfl) _ D8 OUTv hval6)) $$ Hw1
    repeat (rw [SparseCore.vectorLoadIdx_bind (c := thr d L)]; sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k)))))
    sl_unfold_run_names
    try rw [e263]
    try rw [e264]
    -- group 2k+3 into slot 1: its row list and parities, exactly
    have hgN : 2 * (k.val + 1) + 1 < 200 := by omega
    have hbO : (Scalar.addi (Scalar.muli (Scalar.select (0#1) (Scalar.subi (Scalar.divsi (Scalar.addi (Scalar.muli (2#32) (Scf.iv 1#32 1#32 k.val)) 1#32) 50#32) 1#32) (Scalar.divsi (Scalar.addi (Scalar.muli (2#32) (Scf.iv 1#32 1#32 k.val)) 1#32) 50#32)) 6400#32) (Scalar.select (0#1) (Scalar.addi (Scalar.remsi (Scalar.addi (Scalar.muli (2#32) (Scf.iv 1#32 1#32 k.val)) 1#32) 50#32) 50#32) (Scalar.remsi (Scalar.addi (Scalar.muli (2#32) (Scf.iv 1#32 1#32 k.val)) 1#32) 50#32))).toNat = (2 * (k.val + 1) + 1) / 50 * 6400 + (2 * (k.val + 1) + 1) % 50 := by
      show (Scalar.addi (Scalar.muli (Scalar.divsi (Scalar.addi (Scalar.muli (2#32) (Scf.iv 1#32 1#32 k.val)) 1#32) 50#32) 6400#32) (Scalar.remsi (Scalar.addi (Scalar.muli (2#32) (Scf.iv 1#32 1#32 k.val)) 1#32) 50#32)).toNat = _
      rw [baseG_val _ (gO_le k), gO_val k, show 2 * (k.val + 1) + 1 = 2 * k.val + 3 by omega]
    ihave H2' := (q_introV' d (cV L) (jV L) b2 S0 hS0 (2 * (k.val + 1) + 1) hgN (Scalar.addi (Scalar.muli (Scalar.select (0#1) (Scalar.subi (Scalar.divsi (Scalar.addi (Scalar.muli (2#32) (Scf.iv 1#32 1#32 k.val)) 1#32) 50#32) 1#32) (Scalar.divsi (Scalar.addi (Scalar.muli (2#32) (Scf.iv 1#32 1#32 k.val)) 1#32) 50#32)) 6400#32) (Scalar.select (0#1) (Scalar.addi (Scalar.remsi (Scalar.addi (Scalar.muli (2#32) (Scf.iv 1#32 1#32 k.val)) 1#32) 50#32) 50#32) (Scalar.remsi (Scalar.addi (Scalar.muli (2#32) (Scf.iv 1#32 1#32 k.val)) 1#32) 50#32))) hbO _ _ _ _ _ _ _ _ (k0_pay262 (Scalar.addi (Scalar.muli (Scalar.select (0#1) (Scalar.subi (Scalar.divsi (Scalar.addi (Scalar.muli (2#32) (Scf.iv 1#32 1#32 k.val)) 1#32) 50#32) 1#32) (Scalar.divsi (Scalar.addi (Scalar.muli (2#32) (Scf.iv 1#32 1#32 k.val)) 1#32) 50#32)) 6400#32) (Scalar.select (0#1) (Scalar.addi (Scalar.remsi (Scalar.addi (Scalar.muli (2#32) (Scf.iv 1#32 1#32 k.val)) 1#32) 50#32) 50#32) (Scalar.remsi (Scalar.addi (Scalar.muli (2#32) (Scf.iv 1#32 1#32 k.val)) 1#32) 50#32))) (addi (iota .scVector S16 32 [0] iota_S16_d0_w32_scVector) (broadcast S16 112#32)) 50#32) rfl rfl rfl rfl rfl rfl rfl rfl _ _ _ _ _ _ _ _) $$ Hg1_dst_and
    icases H2' with ⟨%Q2n, %hQ2n', H2⟩
    obtain ⟨hQ2n, hQ2vn⟩ := hQ2n'
    have hin2n : ∀ x, ((b2).view.read (Elt F) Q2n x).toNat < 500000 := hQ2n
    ihave H4' := (par_introV' d (cV L) (jV L) b4 S0 (2 * (k.val + 1) + 1) hgN (Scalar.addi (Scalar.muli (Scalar.select (0#1) (Scalar.subi (Scalar.divsi (Scalar.addi (Scalar.muli (2#32) (Scf.iv 1#32 1#32 k.val)) 1#32) 50#32) 1#32) (Scalar.divsi (Scalar.addi (Scalar.muli (2#32) (Scf.iv 1#32 1#32 k.val)) 1#32) 50#32)) 6400#32) (Scalar.select (0#1) (Scalar.addi (Scalar.remsi (Scalar.addi (Scalar.muli (2#32) (Scf.iv 1#32 1#32 k.val)) 1#32) 50#32) 50#32) (Scalar.remsi (Scalar.addi (Scalar.muli (2#32) (Scf.iv 1#32 1#32 k.val)) 1#32) 50#32))) hbO _ _ _ _ _ _ _ _ (k0_pay262 (Scalar.addi (Scalar.muli (Scalar.select (0#1) (Scalar.subi (Scalar.divsi (Scalar.addi (Scalar.muli (2#32) (Scf.iv 1#32 1#32 k.val)) 1#32) 50#32) 1#32) (Scalar.divsi (Scalar.addi (Scalar.muli (2#32) (Scf.iv 1#32 1#32 k.val)) 1#32) 50#32)) 6400#32) (Scalar.select (0#1) (Scalar.addi (Scalar.remsi (Scalar.addi (Scalar.muli (2#32) (Scf.iv 1#32 1#32 k.val)) 1#32) 50#32) 50#32) (Scalar.remsi (Scalar.addi (Scalar.muli (2#32) (Scf.iv 1#32 1#32 k.val)) 1#32) 50#32))) (addi (iota .scVector S16 32 [0] iota_S16_d0_w32_scVector) (broadcast S16 112#32)) 50#32) rfl rfl rfl rfl rfl rfl rfl rfl _ _ _ _ _ _ _ _) $$ H4
    icases H4' with ⟨%P4n, %hP4n', H4⟩
    obtain ⟨hP4n, hP4vn⟩ := hP4n'
    -- slot 1's gather is issued, slot 0's is waited for: its rows are the table's rows its list names
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_unfold_run_names
    ihave H5' := (hold_eq _) $$ H5
    icases H5' with ⟨%R5n, %eR5n, H5⟩
    have hR5vn : RowsVal d (cV L) (jV L) b5 b1 fT Q1' hin1' R5n := by
      subst eR5n
      exact gather_rowsval d (cV L) (jV L) b5 b1 fT Q1' hin1' _ _ _
    clear eR5n
    -- slot 0's rows are transposed
    sl_for (invUV3 d L _ _) $$ [H3 H5 H7]
    rotate_left
    · unfold invUV3
      isplitl [H3]; · iexact H3
      isplitl [H5]; · iexact H5
      iexists f7'; isplitr
      · ipureintro; intro t ht; exact absurd ht (by omega)
      · iexact H7
    rotate_left
    · intro k acc
      sl_unfold_run_names
      exact trip_t4_val d L _ _ hP3' _ _ _ _ _ _ _ _ _ _ _ _ _ _ _ _ _ _ rfl rfl rfl rfl rfl rfl rfl rfl rfl rfl rfl rfl rfl rfl rfl rfl rfl _ _ _ _ k acc
    iintro %_ HI
    unfold invUV3
    icases HI with ⟨H3, H5, %D7n, %hD7n, H7⟩
    -- slot 1's part came back holding the target function; it is put back; slot 0's next part is carved out
    icases Hw1_dst with ⟨%fo6, %hfo6, Hw1_dst⟩
    ihave HOutM := (pointsTo_join_subset (ℓ := (outW).view.loc (thr d L)) (q := fullShare) (g := fo6) (f := A.piecewise fo fr) (hs6 k)) $$ [Hw1_dst HOut]
    · isplitl [Hw1_dst]; · iexact Hw1_dst
      iexact HOut
    have hM2 : ∀ j, ((DoneP L k.val j ∨ j ∈ A) ∨ j ∈ sliceSet (k0_off6 L k) (k0_off6_inb L k)) →
        (sliceSet (k0_off6 L k) (k0_off6_inb L k)).piecewise fo6 (A.piecewise fo fr) j = OUTv j :=
      merge_agree _ fo6 (A.piecewise fo fr) OUTv (fun j => DoneP L k.val j ∨ j ∈ A) hfo6 (fun j _ h => hM j h)
    ihave Hc := (pointsTo_split_subset (ℓ := (outW).view.loc (thr d L)) (q := fullShare) (hs9 k)).1 $$ HOutM
    icases Hc with ⟨HA, HOut⟩
    ihave HA := (Entails.of_eq (pts_slice d L (k0_off9 L k) (k0_off9_inb L k) _)) $$ HA
    sl_exec (disch := (sl_unfold_run_names; sl_unfold_run_names; first | ((with_reducible (first | (show k0_chk145 _) | (show k0_chk146 _) | (show k0_chk147 _) | (show k0_chk148 _) | (show k0_chk149 _) | (show k0_chk150 _) | (show k0_chk151 _) | (show k0_chk152 _))); exact pos_okG _ rfl _ (by decide) _ (gE_le k)) | ((with_reducible (first | (show k0_chk281 _) | (show k0_chk282 _) | (show k0_chk283 _) | (show k0_chk284 _) | (show k0_chk285 _) | (show k0_chk286 _) | (show k0_chk287 _) | (show k0_chk288 _))); exact pos_okG _ rfl _ (by decide) _ (gO_le k))))
    sl_unfold_run_names
    -- slot 0's write-out will land the target function on its part
    have e8d : Scf.trips k0_t4_loop.lb k0_t4_loop.ub k0_t4_loop.st = 8 := by decide
    have hD7n' : ∀ t : SD.Idx, D7n t = tval P3' R5n t := fun t => hD7n t (by rw [e8d]; have := sd_col_lt t; omega)
    have hval9 : ∀ fo : S50x64x16384.Idx → Elt F .f32,
        (∀ (f : Fin 64) (r : Fin 128) (hh : k0_off9 L k 0 < 50) (hb : k0_off9 L k 2 + r.val < 16384),
          fo (ix3 (⟨k0_off9 L k 0, hh⟩ : Fin 50) f (⟨k0_off9 L k 2 + r.val, hb⟩ : Fin 16384)) = (b7).view.read (Elt F) D7n (ix2 f r)) →
        ∀ j ∈ sliceSet (k0_off9 L k) (k0_off9_inb L k), fo j = OUTv j :=
      fun fo hfo => slice_valG L (2 * k.val + 2) hgE (k0_off9 L k) (k0_off9_inb L k) (by rw [k0_off9_eq]; rfl) (by rw [k0_off9_eq]; rfl) OUTv fo _ hfo
        (grp (2 * k.val + 2) hgE _ _ _ _ hQ1v' hP3v' (fun r => hin1' (ix1 r)) hR5vn hD7n')
    ihave Hw0 := (Transfers.Flight_mono countersEmb (thr d L) (write_flight_weaken d L b7 (k0_off9 L k) (k0_off9_inb L k) (by rw [k0_off9_eq]; rfl) _ D7n OUTv hval9)) $$ Hw0
    sl_step
    isplitl [Hmw]; · iexact Hmw
    isplitl [H0]; · iexact H0
    isplitl [HI]; · iexact HI
    isplitl [H1]; · iexists _; iexact H1
    isplitl [H3]; · iexists _; iexact H3
    isplitl [H5]; · iexists _; iexact H5
    isplitl [H4]
    · iexists P4n; isplitr
      · ipureintro; exact ⟨hP4n, ⟨hgN, hP4vn⟩⟩
      · iexact H4
    isplitl [H8]; · iexists _; iexact H8
    isplitl [HT]; · iexact HT
    isplitl [HT']; · iexact HT'
    isplitl [Hg0]; · iexact Hg0
    isplitl [Hw1]; · iexact Hw1
    isplitl [Hsc]; · iexact Hsc
    isplitl [Hg1]
    · iexists _; iexists Q2n; isplitr
      rotate_left
      · iexact Hg1
      · ipureintro; exact ⟨hQ2n, ⟨hgN, hQ2vn⟩, fun hin => gather_rowsval d (cV L) (jV L) b6 b2 fT Q2n hin _ _ _⟩
    isplitl [Hw0 H7 HOut]
    · iexists (sliceSet (k0_off9 L k) (k0_off9_inb L k)); isplitr
      · ipureintro; exact ⟨hs9 k, hd9 k, (flightPart_succ L k).symm⟩
      isplitl [Hw0 H7]
      · iexists _
        isplitl [Hw0]; · iexact Hw0
        iexact H7
      iexists _; isplitr
      rotate_left
      · iexact HOut
      · ipureintro
        intro j _ hdone
        rw [doneP_succ] at hdone
        refine hM2 j ?_
        rcases hdone with h | h | h
        · exact .inl (.inl h)
        · exact .inl (.inr (by rw [hA.2.2]; exact h))
        · exact .inr h
    iexists _; isplitr
    rotate_left
    · iexact HO
    · ipureintro; repeat (first | exact hW' | apply waits_insert)
  -- after the last round: the last gather's wait, the last transpose, the last write-out, the two writes' waits
  iintro %_ HI
  unfold invMainV
  icases HI with ⟨Hmw, H0, HI, ⟨%f1', H1⟩, ⟨%f3', H3⟩, ⟨%f5', H5⟩, ⟨%P4', %hP4', H4⟩, ⟨%f8', H8⟩, HT, HT', Hg0, Hw1, Hsc, ⟨%f6', %Q2', %hQ2', Hg1⟩, ⟨%A, %hA, ⟨%f7', Hw0, H7⟩, ⟨%fr, %hfr, HOut⟩⟩, %W', %hW', HO⟩
  sl_exec
  obtain ⟨hQ2q, ⟨hgL, hQ2v'⟩, hR6all⟩ := hQ2'
  have hin2q : ∀ x, ((b2).view.read (Elt F) Q2' x).toNat < 500000 := hQ2q
  have hR6v := hR6all hin2q
  obtain ⟨hP4q, ⟨_, hP4v'⟩⟩ := hP4'
  sl_for (invUV4 d L _ _) $$ [H4 Hg1_dst H8]
  rotate_left
  · unfold invUV4
    isplitl [H4]; · iexact H4
    isplitl [Hg1_dst]; · iexact Hg1_dst
    iexists f8'; isplitr
    · ipureintro; intro t ht; exact absurd ht (by omega)
    · iexact H8
  rotate_left
  · intro k acc
    sl_unfold_run_names
    exact trip_t5_val d L _ _ hP4q _ _ _ _ _ _ _ _ _ _ _ _ _ _ _ _ _ _ rfl rfl rfl rfl rfl rfl rfl rfl rfl rfl rfl rfl rfl rfl rfl rfl rfl _ _ k acc
  iintro %_ HI
  unfold invUV4
  icases HI with ⟨H4, H6, %D8, %hD8, H8⟩
  have hsub : sliceSet (k0_off11 L) (k0_off11_inb L) ⊆ outSet (L 0).val (L 1).val \ A := Finset.subset_sdiff.mpr ⟨hs11, hA.2.1.symm⟩
  ihave Hc := (pointsTo_split_subset (ℓ := (outW).view.loc (thr d L)) (q := fullShare) hsub).1 $$ HOut
  icases Hc with ⟨HB, HOut⟩
  ihave HB := (Entails.of_eq (pts_slice d L (k0_off11 L) (k0_off11_inb L) _)) $$ HB
  sl_exec
  sl_unfold_run_names
  -- the two write-outs' parts are put back; every entry of the tile's part holds the target function
  have e8e : Scf.trips k0_t5_loop.lb k0_t5_loop.ub k0_t5_loop.st = 8 := by decide
  have hD8' : ∀ t : SD.Idx, D8 t = tval P4' f6' t := fun t => hD8 t (by rw [e8e]; have := sd_col_lt t; omega)
  have hgT : 2 * k0_t2_loop.trips + 1 < 200 := hgL
  have hblkL : ∀ (f : Fin 64) (r : Fin 128), (b8).view.read (Elt F) D8 (ix2 f r)
      = OUTv (ix3 (⟨(2 * k0_t2_loop.trips + 1) % 50, Nat.mod_lt _ (by decide)⟩ : Fin 50) f
          (⟨1024 * (L 1).val + 512 * (L 0).val + 128 * ((2 * k0_t2_loop.trips + 1) / 50) + r.val, blkCol_lt L (2 * k0_t2_loop.trips + 1) hgT r⟩ : Fin 16384)) :=
    grp (2 * k0_t2_loop.trips + 1) hgT _ _ _ _ hQ2v' hP4v' (fun r => hin2q (ix1 r)) hR6v hD8'
  sl_step
  isplitl [HI]; · iexact HI
  isplitl [HT]; · iexact HT
  isplitl [HT']; · iexact HT'
  isplitl [HOut Hw0_dst HB]
  · ihave HB' := (write_introV d (cV L) (jV L) b8 (k0_off11 L) (k0_off11_inb L) (by rw [k0_off11_eq]; rfl) fr D8) $$ HB
    icases HB' with ⟨%fo11, %hfo11, HB⟩
    icases Hw0_dst with ⟨%fo, %hfo, Hw0_dst⟩
    ihave HM1 := (pointsTo_join_subset (ℓ := (outW).view.loc (thr d L)) (q := fullShare) (g := fo11) (f := fr) hsub) $$ [HB HOut]
    · isplitl [HB]; · iexact HB
      iexact HOut
    ihave HM2 := (pointsTo_join_subset (ℓ := (outW).view.loc (thr d L)) (q := fullShare) (g := fo) hA.1) $$ [Hw0_dst HM1]
    · isplitl [Hw0_dst]; · iexact Hw0_dst
      iexact HM1
    iexists _; isplitr
    rotate_left
    · iexact HM2
    · ipureintro
      intro j hj
      have hv11 : ∀ j ∈ sliceSet (k0_off11 L) (k0_off11_inb L), fo11 j = OUTv j :=
        slice_valG L (2 * k0_t2_loop.trips + 1) hgT (k0_off11 L) (k0_off11_inb L)
          (by rw [k0_off11_eq]; show 49 = (2 * k0_t2_loop.trips + 1) % 50; rw [trips2_eq])
          (by rw [k0_off11_eq]; show 1024 * (L 1).val + 512 * (L 0).val + 384 = 1024 * (L 1).val + 512 * (L 0).val + 128 * ((2 * k0_t2_loop.trips + 1) / 50); rw [trips2_eq])
          OUTv fo11 _ hfo11 hblkL
      have hin11 : ∀ j, ((j ∉ A ∧ DoneP L k0_t2_loop.trips j) ∨ j ∈ sliceSet (k0_off11 L) (k0_off11_inb L)) →
          (sliceSet (k0_off11 L) (k0_off11_inb L)).piecewise fo11 fr j = OUTv j :=
        merge_agree _ fo11 fr OUTv (fun j => j ∉ A ∧ DoneP L k0_t2_loop.trips j) hv11 (fun j _ h => hfr j h.1 h.2)
      have hall := merge_agree A fo ((sliceSet (k0_off11 L) (k0_off11_inb L)).piecewise fo11 fr) OUTv
        (fun j => (j ∉ A ∧ DoneP L k0_t2_loop.trips j) ∨ j ∈ sliceSet (k0_off11 L) (k0_off11_inb L)) hfo (fun j _ h => hin11 j h)
      refine hall j ?_
      by_cases hjA : j ∈ A
      · exact .inr hjA
      · rcases done_cover L j hj with h | h | h
        · exact .inl (.inl ⟨hjA, h⟩)
        · exact absurd (by rw [hA.2.2]; exact h) hjA
        · exact .inl (.inr h)
  isplitl [H0]; · iexists _; iexact H0
  isplitl [H1]; · iexists _; iexact H1
  isplitl [Hg1_dst_and]; · iexists _; iexact Hg1_dst_and
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [Hg0]; · iexact Hg0
  isplitl [Hg1]; · iexact Hg1
  isplitl [Hw0]; · iexact Hw0
  isplitl [Hw1]; · iexact Hw1
  isplitl [Hsc]; · iexact Hsc
  iexists _; isplitr
  rotate_left
  · iexact HO
  · ipureintro; repeat (first | exact hW' | apply waits_insert)

end Cert.Proof.KI

end
-- ==== Proof.KIBlockVal.lean ====
/-
  One group's block is the result on its part.

  For group g of tile (c, s), with id_r the staged word at (g / 50) * 6400 + r * 50 + g mod 50: the row list holds
  id_r / 2, the parity scratch (id_r mod 2) * 64, the gathered rows hold row id_r / 2 of the paired table, and the
  transposed block holds at (f, r) entry (id_r mod 2) * 64 + f of that row — the table's row id_r at f. The staged word
  is the flattened row number at 25600 (2 s + c) + (g / 50) * 6400 + r * 50 + g mod 50 = b * 50 + h for batch entry
  b = 1024 s + 512 c + 128 (g / 50) + r and history position h = g mod 50: so the block at (f, r) is the result at (h, f, b).
-/
import proofs.«206508_g82686710383178_cont_9to1c4b_561_19_alg».proof.Proof.KITripVal0
import proofs.«206508_g82686710383178_cont_9to1c4b_561_19_alg».proof.Proof.KIFactsV
import proofs.«206508_g82686710383178_cont_9to1c4b_561_19_alg».proof.Proof.KIValArith

noncomputable section

namespace Cert.Proof.KI

open Cert.KernelIdeal Cert.KernelIdeal.Gen
open Idealize.ShloMosaic Idealize.ShloMosaic.ValueIdx

variable {F : FTy → Type}
variable (m : (ℓ : Loc nD τ sig) → Buf (Elt F) ℓ)
variable [FloatOps F]

/-- Halving a word, as a number. -/
theorem half_toNat (u : ArithUnit) (w : BitVec 32) : (IntOp.shrui u w 1#32).toNat = w.toNat / 2 := by
  unfold IntOp.shrui
  rw [if_pos (by decide)]
  rw [BitVec.ushiftRight_eq', BitVec.toNat_ushiftRight]
  simp [Nat.shiftRight_eq_div_pow]

/-- A word's parity times 64, as a number. -/
theorem par_toNat (w : BitVec 32) : (IntOp.muli (IntOp.andi w 1#32) 64#32).toNat = w.toNat % 2 * 64 := by
  unfold IntOp.muli IntOp.andi
  have h : (w &&& 1#32).toNat = w.toNat % 2 := by
    rw [BitVec.toNat_and]
    show w.toNat &&& 1 = w.toNat % 2
    exact Nat.and_one_is_mod _
  rw [BitVec.toNat_mul, h]
  have : w.toNat % 2 < 2 := Nat.mod_lt _ (by decide)
  show w.toNat % 2 * 64 % 2 ^ 32 = _
  exact Nat.mod_eq_of_lt (by omega)

theorem par_bound (n f : ℕ) (hf : f < 64) : n % 2 * 64 + f < 128 := by
  have := Nat.mod_lt n (show 0 < 2 by decide); omega

theorem blk_col_lt (L : grid0.Coords) (g : ℕ) (hg : g < 200) (r : Fin 128) :
    1024 * (L 1).val + 512 * (L 0).val + 128 * (g / 50) + r.val < 16384 := by
  have h0 : (L 0).val < 2 := (L 0).isLt
  have h1 : (L 1).val < 16 := (L 1).isLt
  have := r.isLt
  omega

/-- Group g's transposed block is the result on the group's part. -/
theorem block_val (d : Dev nD) (L : grid0.Coords) (g : ℕ) (hg : g < 200)
    (S0 : S25600.Idx → BitVec 32) (Q : S128.Idx → BitVec 32) (P : SP.Idx → BitVec 32) (R : SR.Idx → Elt F .f32)
    (hpre : ∀ j, (idsFlat m d j).toNat < 1000000)
    (hS : ∀ j : Fin 25600, S0 (ix1 j) = idsFlat m d (ix1 ⟨51200 * (L 1).val + 25600 * (L 0).val + j.val, stOff_lt L j⟩))
    (hQ : ∀ r : Fin 128, Q (ix1 r) = IntOp.shrui .vector (S0 (stIdx g hg r)) 1#32)
    (hP : ∀ r : Fin 128, P (ix2 (⟨r.val / 16, by have := r.isLt; omega⟩ : Fin 8) (⟨r.val % 16, Nat.mod_lt _ (by decide)⟩ : Fin 16))
      = IntOp.muli (IntOp.andi (S0 (stIdx g hg r)) 1#32) 64#32)
    (hQlt : ∀ r : Fin 128, (Q (ix1 r)).toNat < 500000)
    (hR : ∀ r c : Fin 128, R (ix2 r c) = tbl m d (ix2 ⟨(Q (ix1 r)).toNat, hQlt r⟩ c))
    (f : Fin 64) (r : Fin 128) :
    tval P R (ix2 f r)
      = OUT m d (ix3 (⟨g % 50, Nat.mod_lt _ (by decide)⟩ : Fin 50) f
          (⟨1024 * (L 1).val + 512 * (L 0).val + 128 * (g / 50) + r.val, blk_col_lt L g hg r⟩ : Fin 16384)) := by
  have hr := r.isLt
  have hf := f.isLt
  have h0 : (L 0).val < 2 := (L 0).isLt
  have h1 : (L 1).val < 16 := (L 1).isLt
  -- the batch entry and the history position, as variables
  obtain ⟨bF, hbF⟩ : ∃ bF : Fin 16384, bF = (⟨1024 * (L 1).val + 512 * (L 0).val + 128 * (g / 50) + r.val, blk_col_lt L g hg r⟩ : Fin 16384) := ⟨_, rfl⟩
  obtain ⟨hF, hhF⟩ : ∃ hF : Fin 50, hF = (⟨g % 50, Nat.mod_lt _ (by decide)⟩ : Fin 50) := ⟨_, rfl⟩
  rw [← hbF, ← hhF]
  have hbv : bF.val = 1024 * (L 1).val + 512 * (L 0).val + 128 * (g / 50) + r.val := by rw [hbF]
  have hhv : hF.val = g % 50 := by rw [hhF]
  have hflat : bF.val * 50 + hF.val < 819200 := by omega
  -- the staged word is the flattened row number at b * 50 + h
  have hid : S0 (stIdx g hg r) = idsFlat m d (ix1 ⟨bF.val * 50 + hF.val, hflat⟩) := by
    have e := hS ⟨g / 50 * 6400 + r.val * 50 + g % 50, stPos_lt g hg r⟩
    refine e.trans (congrArg (idsFlat m d) (congrArg ix1 (Fin.ext ?_)))
    show 51200 * (L 1).val + 25600 * (L 0).val + (g / 50 * 6400 + r.val * 50 + g % 50) = bF.val * 50 + hF.val
    omega
  have hlt := hpre (ix1 ⟨bF.val * 50 + hF.val, hflat⟩)
  rw [OUT_flat m d hF f bF hflat hlt (Nat.div_lt_of_lt_mul hlt) (par_bound _ _ hf)]
  -- the block's entry
  unfold tval parOf
  show R (ix2 r ⟨((P (ix2 ⟨r.val / 16, _⟩ ⟨r.val % 16, _⟩)).toNat + f.val) % 128, _⟩) = _
  rw [hR]
  refine congrArg (tbl m d) ?_
  have eQ : (Q (ix1 r)).toNat = (idsFlat m d (ix1 ⟨bF.val * 50 + hF.val, hflat⟩)).toNat / 2 := by
    rw [hQ r, half_toNat, hid]
  have eP : (P (ix2 (⟨r.val / 16, by omega⟩ : Fin 8) (⟨r.val % 16, Nat.mod_lt _ (by decide)⟩ : Fin 16))).toNat
      = (idsFlat m d (ix1 ⟨bF.val * 50 + hF.val, hflat⟩)).toNat % 2 * 64 := by
    rw [hP r, par_toNat, hid]
  funext a
  match a with
  | ⟨0, _⟩ => exact Fin.ext eQ
  | ⟨1, _⟩ =>
    apply Fin.ext
    show ((P (ix2 ⟨r.val / 16, _⟩ ⟨r.val % 16, _⟩)).toNat + f.val) % 128 = _
    rw [eP]
    exact Nat.mod_eq_of_lt (par_bound _ _ hf)

end Cert.Proof.KI

end
-- ==== Proof.KITileV.lean ====
/-
  One tile's task with its value, from its body.

  As for the frame: the launch's names for the arrays are the kernel memrefs' locations, the nine scratch buffers and
  five DMA counters are carved out of the tile's storage and the rest carried around the body. The body hands the tile's
  part of the output back at SOME contents together with the fact that they are the lookup's values on that part; a
  points-to reads its contents only on its part, so that is the part held AT the lookup's values.
-/
import proofs.«206508_g82686710383178_cont_9to1c4b_561_19_alg».proof.Proof.KITile
import proofs.«206508_g82686710383178_cont_9to1c4b_561_19_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- What the body ends with, with the value: as `corePost` at the launch's contents of the two read-only arrays, the
    tile's part of the output at some contents that are the lookup's values there. -/
abbrev corePostV (d : Dev nD) (L : grid0.Coords) (O : CellTallies nD τ sig (HIx 1)) (W : Waits sig (HIx 1)) (qI qT qT' : PosShare TreeShare)
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))) : sProp 𝕄 :=
  iprop(((idsW).view.loc (thr d L) ↦{qI} idsFlat m d) ∗ ((tblW).view.loc (thr d L) ↦{qT} tbl m d) ∗ ((tblW).view.loc (thr d L) ↦{qT'} tbl m d)
            ∗ (∃ f : Buf (Elt F) ((outW).view.loc (thr d L)), ⌜∀ j ∈ outSet (L 0).val (L 1).val, f j = OUT m d j⌝
                ∗ (outW).view.loc (thr d L) ↦[outSet (L 0).val (L 1).val]{fullShare} f)
            ∗ (∃ f, (b0).view.loc (thr d L) ↦{fullShare} f) ∗ (∃ f, (b1).view.loc (thr d L) ↦{fullShare} f) ∗ (∃ f, (b2).view.loc (thr d L) ↦{fullShare} f) ∗ (∃ f, (b3).view.loc (thr d L) ↦{fullShare} f) ∗ (∃ f, (b4).view.loc (thr d L) ↦{fullShare} f) ∗ (∃ f, (b5).view.loc (thr d L) ↦{fullShare} f) ∗ (∃ f, (b6).view.loc (thr d L) ↦{fullShare} f) ∗ (∃ f, (b7).view.loc (thr d L) ↦{fullShare} f) ∗ (∃ f, (b8).view.loc (thr d L) ↦{fullShare} f)
            ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scoped0.sem) 0
            ∗ ∃ W', ⌜∀ p ∈ W', p ∈ W ∨ p.2 = none⌝ ∗ owes (thr d L) O W')

/-- The body's statement with the value, in the kernel's own spelling. -/
def BodyCoreV : Prop :=
  ∀ (d : Dev nD) (L : grid0.Coords) (O : CellTallies nD τ sig (HIx 1)) (W : Waits sig (HIx 1)) (qI qT qT' : PosShare TreeShare)
    (fO : Buf (Elt F) ((outW).view.loc (thr d L)))
    (f0 : Buf (Elt F) ((b0).view.loc (thr d L))) (f1 : Buf (Elt F) ((b1).view.loc (thr d L))) (f2 : Buf (Elt F) ((b2).view.loc (thr d L))) (f3 : Buf (Elt F) ((b3).view.loc (thr d L))) (f4 : Buf (Elt F) ((b4).view.loc (thr d L))) (f5 : Buf (Elt F) ((b5).view.loc (thr d L))) (f6 : Buf (Elt F) ((b6).view.loc (thr d L))) (f7 : Buf (Elt F) ((b7).view.loc (thr d L))) (f8 : Buf (Elt F) ((b8).view.loc (thr d L))),
    corePre d L O W qI qT qT' (idsFlat m d) (tbl m d) (outSet (L 0).val (L 1).val) fO f0 f1 f2 f3 f4 f5 f6 f7 f8
      ⊢ wp frame (wpE (defs₀ (F := F)) 𝒱₀ (thr d L) none) Set.univ
          (cc0__emb_lookup L idsW (Memref.isWhole_whole _) tblW (Memref.isWhole_whole _) outW (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) cc0_scratch9 cc0_scratch10 cc0_scratch11 cc0_scratch12 cc0_scoped0)
          fun _ => corePostV m d L O W qI qT qT' f0 f1 f2 f3 f4 f5 f6 f7 f8

/-- One tile's task with its value, at a symbolic place, from the body with its value. -/
theorem tile_body_val_of (hcore : BodyCoreV m) : TileBodyV m := by
  intro d L O W hO
  rw [(K (F := F)).scopedBufs_V facts d (cV L) (jV L), SparseCore.Cfg.scopedSems0_V (Val := Elt F) d (cV L) (jV L), ownSems0_V5, ownBufs_V9]
  iintro ⟨#Hlv, -, ⟨HI, HT, HT', HOut⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩, ⟨Hs9, Hs10, Hs11, Hs12, Hsc, Hsems⟩, Howes⟩
  ihave Hmw := ((K (F := F)).mayWaits_none (thr := thr d L) hO) $$ Hlv
  -- the body's post and the rest of the storage, regrouped into the launch's shape
  iapply (wp_mono frame _ _ (Q := fun _ => iprop(restRes d L ∗ corePostV m d L O W (qI (L 0).val (L 1).val) (qT (L 0).val (L 1).val) (qT' (L 0).val (L 1).val) f0 f1 f2 f3 f4 f5 f6 f7 f8)) fun _ => ?post)
  case post =>
    iintro ⟨⟨Hbufs, Hsems⟩, HI, HT, HT', ⟨%fz, %hfz, HOut⟩, H0, H1, H2, H3, H4, H5, H6, H7, H8, Hs9, Hs10, Hs11, Hs12, Hsc, HW⟩
    ihave HOut := (Entails.of_eq (pointsTo_congr (ℓ := (outW).view.loc (thr d L)) (q := fullShare) (f := fz) (g := OUT m d) hfz)) $$ HOut
    isplitl [HI HT HT' HOut]
    · isplitl [HI]; · iexact HI
      isplitl [HT]; · iexact HT
      isplitl [HT']; · iexact HT'
      iexact HOut
    isplitl [H0 H1 H2 H3 H4 H5 H6 H7 H8 Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact Hbufs
    isplitl [Hs9 Hs10 Hs11 Hs12 Hsc Hsems]
    · isplitl [Hs9]; · iexact Hs9
      isplitl [Hs10]; · iexact Hs10
      isplitl [Hs11]; · iexact Hs11
      isplitl [Hs12]; · iexact Hs12
      isplitl [Hsc]; · iexact Hsc
      iexact Hsems
    iexact HW
  -- the rest of the storage carried around the body
  iapply (wp_frame_l frame _ Set.univ (R := restRes d L) (Q := fun _ => corePostV m d L O W (qI (L 0).val (L 1).val) (qT (L 0).val (L 1).val) (qT' (L 0).val (L 1).val) f0 f1 f2 f3 f4 f5 f6 f7 f8)) $$ [Hbufs Hsems Hmw HI HT HT' HOut H0 H1 H2 H3 H4 H5 H6 H7 H8 Hs9 Hs10 Hs11 Hs12 Hsc Howes]
  isplitl [Hbufs Hsems]
  · isplitl [Hbufs]; · iexact Hbufs
    iexact Hsems
  -- the body
  iapply (hcore d L O W (qI (L 0).val (L 1).val) (qT (L 0).val (L 1).val) (qT' (L 0).val (L 1).val) (m (outLoc d)) f0 f1 f2 f3 f4 f5 f6 f7 f8) $$ [Hmw HI HT HT' HOut H0 H1 H2 H3 H4 H5 H6 H7 H8 Hs9 Hs10 Hs11 Hs12 Hsc Howes]
  isplitl [Hmw]; · iexact Hmw
  isplitl [HI]; · iexact HI
  isplitl [HT]; · iexact HT
  isplitl [HT']; · iexact HT'
  isplitl [HOut]; · iexact HOut
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs9]; · iexact Hs9
  isplitl [Hs10]; · iexact Hs10
  isplitl [Hs11]; · iexact Hs11
  isplitl [Hs12]; · iexact Hs12
  isplitl [Hsc]; · iexact Hsc
  iexact Howes

end Cert.Proof.KI

end
-- ==== Proof.KIBodyVInst.lean ====
/-
  The tile's task with its value, assembled: the body with its value is stated over any contents of the two arrays it
  reads and any target function that every group's transposed block equals on the group's part; at the launch's contents
  — the flattened row numbers and the paired table — and the lookup's values as the target, that condition is the block
  arithmetic, and the body's statement is the one the tile's wrapper takes.
-/
import proofs.«206508_g82686710383178_cont_9to1c4b_561_19_alg».proof.Proof.KIBodyV
import proofs.«206508_g82686710383178_cont_9to1c4b_561_19_alg».proof.Proof.KIBlockVal
import proofs.«206508_g82686710383178_cont_9to1c4b_561_19_alg».proof.Proof.KITileV

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable (m : (ℓ : Loc nD τ sig) → Buf (Elt F) ℓ)
variable [FloatOps F]

/-- The body with its value at the launch's contents. -/
theorem body_core_val_inst (hpre : ∀ d j, (idsFlat m d j).toNat < 1000000) : BodyCoreV m :=
  fun d L O W qI qT qT' fO f0 f1 f2 f3 f4 f5 f6 f7 f8 =>
    body_core_val d L O W qI qT qT' (idsFlat m d) (tbl m d) (hpre d) (OUT m d)
      (fun g hg S0 Q P R hS hQ hP hQlt hR f r => block_val m d L g hg S0 Q P R (hpre d) hS hQ hP hQlt hR f r) fO f0 f1 f2 f3 f4 f5 f6 f7 f8

/-- One tile's task with its value. -/
theorem tile_body_val (hpre : ∀ d j, (idsFlat m d j).toNat < 1000000) : TileBodyV m :=
  tile_body_val_of m (body_core_val_inst m hpre)

end Cert.Proof.KI

end
-- ==== Proof.lean ====
/-
  The claim: the lookup kernel against `jnp.take`, read over the extended reals.

  Both programs compute  result[b, h, f] = weight[token_ids[b, h], f]  (Proof/Spec.lean's `lookup`).
  The reference does it with one gather of the table's rows, after wrapping negative row numbers and masking row
  numbers outside [0, 999999] to NaN: under the precondition (row numbers in that range) the wrap is the identity and
  the mask is all ones (Proof/RefTerm.lean, Proof/RefRun.lean).
  The kernel re-lays the table as 500000 double rows; each of 32 tiles stages its 25600 row numbers and, for each of
  its 200 groups of 128 lookups, gathers the double rows named by the halved row numbers, transposes the halves the
  parities pick into a [64, 128] block and writes the block into the [50, 64, 16384] result, which the host transposes
  to [16384, 50, 64]. That it runs to its end, nothing faulting, the arguments unchanged, at words and at extended
  reals alike, is Proof/KIBody.lean (one tile's body), Proof/KITrip*.lean (the transposes), Proof/KILaunch.lean (the
  32 tiles and the host operations around them) and their word-level copies Proof/KB*.lean. No operation of the kernel
  is rewritten for the ideal reading, so that reading is the program's own text (the fourth conjunct is `True`).
  The kernel's RESULT is the lookup because each tile hands its 512 columns of the [50, 64, 16384] array back at
  out[h, f, b] = weight[ids[b, h], f]  (Proof/KIBodyV.lean: the body's run with what each buffer holds;
  Proof/KIBlockVal.lean: a group's transposed block is the result on its part; Proof/KIDone.lean, Proof/KICover.lean:
  the 200 parts cover the tile's columns; Proof/KIVal.lean, Proof/KILaunchV.lean: the launch at that value and the
  host's transpose).
-/
import proofs.«206508_g82686710383178_cont_9to1c4b_561_19_alg».proof.Defs
import proofs.«206508_g82686710383178_cont_9to1c4b_561_19_alg».proof.Proof.Gen.Kernel
import proofs.«206508_g82686710383178_cont_9to1c4b_561_19_alg».proof.Proof.Gen.Kernel.Skeleton
import proofs.«206508_g82686710383178_cont_9to1c4b_561_19_alg».proof.Proof.Gen.KernelIdeal
import proofs.«206508_g82686710383178_cont_9to1c4b_561_19_alg».proof.Proof.Gen.KernelIdeal.Skeleton
import proofs.«206508_g82686710383178_cont_9to1c4b_561_19_alg».proof.Proof.Gen.ReferenceIdeal
import proofs.«206508_g82686710383178_cont_9to1c4b_561_19_alg».proof.Proof.Gen.Pre_input_domain
import proofs.«206508_g82686710383178_cont_9to1c4b_561_19_alg».proof.Proof.Spec
import proofs.«206508_g82686710383178_cont_9to1c4b_561_19_alg».proof.Proof.RefPre
import proofs.«206508_g82686710383178_cont_9to1c4b_561_19_alg».proof.Proof.RefRun
import proofs.«206508_g82686710383178_cont_9to1c4b_561_19_alg».proof.Proof.KIFrames
import proofs.«206508_g82686710383178_cont_9to1c4b_561_19_alg».proof.Proof.KBFrames
import proofs.«206508_g82686710383178_cont_9to1c4b_561_19_alg».proof.Proof.KILaunchV
import proofs.«206508_g82686710383178_cont_9to1c4b_561_19_alg».proof.Proof.KIBodyVInst
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_p : Cert.frame_Kernel := Cert.Proof.KB.frame_Kernel

/-- The idealized kernel runs and leaves its arguments unchanged. -/
theorem frame_pi : Cert.frame_KernelIdeal := Cert.Proof.KI.frame_KernelIdeal

/-- The reference runs and leaves its arguments unchanged: its run, the value dropped. -/
theorem frame_ri : Cert.frame_ReferenceIdeal := fun m ρ hpre =>
  (θ_run Cert.ReferenceIdeal.defs _ _).mono (fun _ h c => (h c).2)
    (Cert.Proof.RefSide.run (F := Ideal) m ρ (fun c => Cert.Proof.RefSide.ids_in_range _ _ (hpre c)))

/-- No operation was rewritten for the ideal reading. -/
theorem preserves : Cert.preserves_Kernel_KernelIdeal := trivial

/-- At extended reals the kernel and the reference, from memories agreeing on the arguments, both end at the lookup
    of the arguments. -/
theorem algebraic : Cert.algebraic_KernelIdeal_ReferenceIdeal := by
  intro m ρ m' ρ' hpre hagree
  refine ⟨fun c => Cert.Proof.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => h c)
      (Cert.Proof.KI.run_main_val (F := Ideal) m ρ (Cert.Proof.KI.tile_body_val (F := Ideal) m (Cert.Proof.KI.ids_flat_lt m hpre)))
  · refine (θ_run Cert.ReferenceIdeal.defs _ _).mono (fun _ h c => ⟨?_, (h c).2⟩)
      (Cert.Proof.RefSide.run (F := Ideal) m' ρ' (fun c => ?_))
    · rw [(h c).1, (hagree c).1, (hagree c).2]
    · rw [(hagree c).1]
      exact Cert.Proof.RefSide.ids_in_range _ _ (hpre c)

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
